-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v580) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x64 : Shape := ⟨3, ![4, 32768, 64]⟩
abbrev S4x32768x2 : Shape := ⟨3, ![4, 32768, 2]⟩
abbrev S3x3x64x64 : Shape := ⟨4, ![3, 3, 64, 64]⟩
abbrev S_ : Shape := ⟨0, ![]⟩

class Facts : Prop where
  bcast_S_S4x32768x64 : S_.BroadcastsInDim S4x32768x64 (![] : Fin 0 → Fin S4x32768x64.rank)
  reducesTo_S4x32768x64_S_d0_1_2 : S4x32768x64.ReducesTo [0, 1, 2] S_
  h_S_ : 0 < S_.numel
  bcast_S_S4x32768x2 : S_.BroadcastsInDim S4x32768x2 (![] : Fin 0 → Fin S4x32768x2.rank)
  reducesTo_S4x32768x2_S_d0_1_2 : S4x32768x2.ReducesTo [0, 1, 2] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_

variable [Facts]

def fn {F : FTy → Type} [FloatOps F] (main_arg0 : FVec F S4x32768x64 .f32) (main_arg1 : FVec F S4x32768x2 .f32) (main_arg2 : FVec F S3x3x64x64 .f32) : IVec S_ 1 :=
  let main_v0 : FVec F S4x32768x64 .f32 := Host.absf main_arg0
  let main_cst : FVec F S_ .f32 := constant S_ .f32 0x7F800000#32
  let main_v1 : FVec F S4x32768x64 .f32 := broadcastInDim S4x32768x64 ![] bcast_S_S4x32768x64 main_cst
  let main_v2 : IVec S4x32768x64 1 := cmpf .olt main_v0 main_v1
  let main_c : IVec S_ 1 := constantI S_ 1 1#1
  let main_v3 : IVec S_ 1 := (fun x v => Host.reduce IntOp.andi x v reducesTo_S4x32768x64_S_d0_1_2 h_S_) main_v2 main_c
  let main_v4 : FVec F S4x32768x2 .f32 := Host.absf main_arg1
  let main_cst_0 : FVec F S_ .f32 := constant S_ .f32 0x7F800000#32
  let main_v5 : FVec F S4x32768x2 .f32 := broadcastInDim S4x32768x2 ![] bcast_S_S4x32768x2 main_cst_0
  let main_v6 : IVec S4x32768x2 1 := cmpf .olt main_v4 main_v5
  let main_c_1 : IVec S_ 1 := constantI S_ 1 1#1
  let main_v7 : IVec S_ 1 := (fun x v => Host.reduce IntOp.andi x v reducesTo_S4x32768x2_S_d0_1_2 h_S_) main_v6 main_c_1
  let main_v8 : IVec S_ 1 := andi main_v3 main_v7
  let main_v9 : FVec F S3x3x64x64 .f32 := Host.absf main_arg2
  let main_cst_2 : FVec F S_ .f32 := constant S_ .f32 0x7F800000#32
  let main_v10 : FVec F S3x3x64x64 .f32 := broadcastInDim S3x3x64x64 ![] bcast_S_S3x3x64x64 main_cst_2
  let main_v11 : IVec S3x3x64x64 1 := cmpf .olt main_v9 main_v10
  let main_c_3 : IVec S_ 1 := constantI S_ 1 1#1
  let main_v12 : IVec S_ 1 := (fun x v => Host.reduce IntOp.andi x v reducesTo_S3x3x64x64_S_d0_1_2_3 h_S_) main_v11 main_c_3
  let main_v13 : IVec S_ 1 := andi main_v8 main_v12
  main_v13
-- ==== Kernel.lean ====
abbrev S4x32768x64 : Shape := ⟨3, ![4, 32768, 64]⟩
abbrev S4x32768x2 : Shape := ⟨3, ![4, 32768, 2]⟩
abbrev S3x3x64x64 : Shape := ⟨4, ![3, 3, 64, 64]⟩
abbrev S2 : Shape := ⟨1, ![2]⟩
abbrev S_ : Shape := ⟨0, ![]⟩
abbrev S131072x2 : Shape := ⟨2, ![131072, 2]⟩
abbrev S1x2 : Shape := ⟨2, ![1, 2]⟩
abbrev S4 : Shape := ⟨1, ![4]⟩
abbrev S4x32768 : Shape := ⟨2, ![4, 32768]⟩
abbrev S131072 : Shape := ⟨1, ![131072]⟩
abbrev S131072x64 : Shape := ⟨2, ![131072, 64]⟩
abbrev S4x256x256 : Shape := ⟨3, ![4, 256, 256]⟩
abbrev S131072x1 : Shape := ⟨2, ![131072, 1]⟩
abbrev S131072x3 : Shape := ⟨2, ![131072, 3]⟩
abbrev S262144 : Shape := ⟨1, ![262144]⟩
abbrev S262144x1 : Shape := ⟨2, ![262144, 1]⟩
abbrev S262144x64 : Shape := ⟨2, ![262144, 64]⟩
abbrev S4x256x256x64 : Shape := ⟨4, ![4, 256, 256, 64]⟩
abbrev S4x258x258x64 : Shape := ⟨4, ![4, 258, 258, 64]⟩
abbrev S1x258x258x64 : Shape := ⟨4, ![1, 258, 258, 64]⟩
abbrev S1x32x256x64 : Shape := ⟨4, ![1, 32, 256, 64]⟩
abbrev S1x34x258x64 : Shape := ⟨4, ![1, 34, 258, 64]⟩
abbrev S34x258x64 : Shape := ⟨3, ![34, 258, 64]⟩
abbrev S32x256x64 : Shape := ⟨3, ![32, 256, 64]⟩
abbrev S1x1x64x64 : Shape := ⟨4, ![1, 1, 64, 64]⟩
abbrev S64x64 : Shape := ⟨2, ![64, 64]⟩
abbrev S8192x64 : Shape := ⟨2, ![8192, 64]⟩

abbrev nBuf : Space → Nat
  | .hbm => 130
  | .vmem => 5
  | .smem => 0
  | _ => 0

abbrev hbmTy0_0 (i : Nat) : BufTy := match i % 128 with
  | 0 => ⟨S4x32768x64, .f32⟩
  | 1 => ⟨S4x32768x2, .f32⟩
  | 2 => ⟨S3x3x64x64, .f32⟩
  | 3 => ⟨S2, .f32⟩
  | 4 => ⟨S_, .f32⟩
  | 5 => ⟨S2, .f32⟩
  | 6 => ⟨S2, .f32⟩
  | 7 => ⟨S_, .f32⟩
  | 8 => ⟨S_, .f32⟩
  | 9 => ⟨S_, .f32⟩
  | 10 => ⟨S4x32768x2, .f32⟩
  | 11 => ⟨S4x32768x2, .f32⟩
  | 12 => ⟨S_, .f32⟩
  | 13 => ⟨S4x32768x2, .f32⟩
  | 14 => ⟨S4x32768x2, .f32⟩
  | 15 => ⟨S4x32768x2, .f32⟩
  | 16 => ⟨S4x32768x2, .f32⟩
  | 17 => ⟨S_, .f32⟩
  | 18 => ⟨S4x32768x2, .f32⟩
  | 19 => ⟨S4x32768x2, .f32⟩
  | 20 => ⟨S_, .f32⟩
  | 21 => ⟨S4x32768x2, .f32⟩
  | 22 => ⟨S4x32768x2, .f32⟩
  | 23 => ⟨S131072x2, .f32⟩
  | 24 => ⟨S_, .f32⟩
  | 25 => ⟨S2, .f32⟩
  | 26 => ⟨S1x2, .f32⟩
  | 27 => ⟨S131072x2, .f32⟩
  | 28 => ⟨S131072x2, .f32⟩
  | 29 => ⟨S1x2, .f32⟩
  | 30 => ⟨S131072x2, .f32⟩
  | 31 => ⟨S131072x2, .f32⟩
  | 32 => ⟨S131072x2, .i32⟩
  | 33 => ⟨S4, .i32⟩
  | 34 => ⟨S4x32768, .i32⟩
  | 35 => ⟨S131072, .i32⟩
  | 36 => ⟨S131072x64, .f32⟩
  | 37 => ⟨S_, .i32⟩
  | 38 => ⟨S4x256x256, .i32⟩
  | 39 => ⟨S131072x1, .i32⟩
  | 40 => ⟨S131072, .i32⟩
  | 41 => ⟨S131072x1, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x1, .i32⟩
  | 67 => ⟨S131072x1, .i32⟩
  | 68 => ⟨S131072x3, .i32⟩
  | 69 => ⟨S4x256x256, .i32⟩
  | 70 => ⟨S262144, .i32⟩
  | 71 => ⟨S_, .i32⟩
  | 72 => ⟨S262144, .i32⟩
  | 73 => ⟨S262144, .i32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S262144x64, .f32⟩
  | 83 => ⟨S_, .i32⟩
  | 84 => ⟨S262144, .i32⟩
  | 85 => ⟨S262144, .i1⟩
  | 86 => ⟨S262144x1, .i1⟩
  | 87 => ⟨S_, .f32⟩
  | 88 => ⟨S_, .f32⟩
  | 89 => ⟨S262144x64, .i1⟩
  | 90 => ⟨S262144x64, .f32⟩
  | 91 => ⟨S262144x64, .f32⟩
  | 92 => ⟨S4x256x256x64, .f32⟩
  | 93 => ⟨S_, .i32⟩
  | 94 => ⟨S_, .f32⟩
  | 95 => ⟨S4x258x258x64, .f32⟩
  | 96 => ⟨S4x258x258x64, .bf16⟩
  | 97 => ⟨S3x3x64x64, .bf16⟩
  | 98 => ⟨S4x256x256x64, .f32⟩
  | 99 => ⟨S131072x1, .i32⟩
  | 100 => ⟨S131072, .i32⟩
  | 101 => ⟨S131072x1, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S_, .i32⟩
  | 111 => ⟨S131072, .i32⟩
  | 112 => ⟨S131072, .i1⟩
  | 113 => ⟨S_, .i32⟩
  | 114 => ⟨S131072, .i32⟩
  | 115 => ⟨S131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S131072x1, .i32⟩
  | 125 => ⟨S131072x1, .i32⟩
  | 126 => ⟨S131072x1, .i32⟩
  | 127 => ⟨S131072x3, .i32⟩
  | _ => ⟨S4x32768x64, .f32⟩

abbrev hbmTy0_1 (i : Nat) : BufTy := match i % 128 with
  | 0 => ⟨S131072x64, .f32⟩
  | 1 => ⟨S4x32768x64, .f32⟩
  | _ => ⟨S4x32768x64, .f32⟩

abbrev hbmTy (i : Nat) : BufTy := match i / 128 with
  | 0 => hbmTy0_0 i
  | 1 => hbmTy0_1 i
  | _ => ⟨S4x32768x64, .f32⟩

abbrev bufTy : (tb : Table) → Fin (tcTables nBuf tb) → BufTy
  | .hbm, ⟨i, _⟩ => hbmTy i
  | .local _ .vmem, ⟨0, _⟩ => ⟨S1x258x258x64, .bf16⟩
  | .local _ .vmem, ⟨1, _⟩ => ⟨S1x258x258x64, .bf16⟩
  | .local _ .vmem, ⟨2, _⟩ => ⟨S3x3x64x64, .bf16⟩
  | .local _ .vmem, ⟨3, _⟩ => ⟨S1x32x256x64, .f32⟩
  | .local _ .vmem, ⟨4, _⟩ => ⟨S1x32x256x64, .f32⟩
  | _, _ => ⟨S4x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_cst_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_c_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v61 : Ref sig .tc := ⟨.hbm, 91, rfl⟩
abbrev main_v62 : Ref sig .tc := ⟨.hbm, 92, rfl⟩
abbrev main_c_17 : Ref sig .tc := ⟨.hbm, 93, rfl⟩
abbrev main_call2_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_c_19 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_c_21 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_c_23 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x258x258x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x3x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S2 : S_.BroadcastsInDim S2 (![] : Fin 0 → Fin S2.rank)
  bcast_S_S4x32768x2 : S_.BroadcastsInDim S4x32768x2 (![] : Fin 0 → Fin S4x32768x2.rank)
  shapeCasts_S4x32768x2_S131072x2 : S4x32768x2.ShapeCasts S131072x2
  reducesTo_S131072x2_S2_d0 : S131072x2.ReducesTo [0] S2
  h_S_ : 0 < S_.numel
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S4_S4x32768_0 : S4.BroadcastsInDim S4x32768 (![0] : Fin 1 → Fin S4x32768.rank)
  shapeCasts_S4x32768_S131072 : S4x32768.ShapeCasts S131072
  shapeCasts_S4x32768x64_S131072x64 : S4x32768x64.ShapeCasts S131072x64
  bcast_S_S4x256x256 : S_.BroadcastsInDim S4x256x256 (![] : Fin 0 → Fin S4x256x256.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  shapeCasts_S4x256x256_S262144 : S4x256x256.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S_S262144x64 : S_.BroadcastsInDim S262144x64 (![] : Fin 0 → Fin S262144x64.rank)
  shapeCasts_S262144x64_S4x256x256x64 : S262144x64.ShapeCasts S4x256x256x64
  pads_S4x256x256x64_S4x258x258x64_000_110_110_000 : S4x256x256x64.Pads (![0, 1, 1, 0] : Fin 4 → Nat) ![0, 1, 1, 0] ![0, 0, 0, 0] S4x258x258x64
  bitsLt_bf16_f32 : FTy.bits .bf16 < FTy.bits .f32
  h_S1x34x258x64 : 0 < S1x34x258x64.numel
  shapeCasts_S1x34x258x64_S1x34x258x64 : S1x34x258x64.ShapeCasts S1x34x258x64
  shapeCasts_S1x34x258x64_S34x258x64 : S1x34x258x64.ShapeCasts S34x258x64
  slices_S34x258x64_o0_0_0_S32x256x64 : S34x258x64.Slices ![0, 0, 0] S32x256x64
  inb_S3x3x64x64_S1x1x64x64_0_0_0_0 : ∀ a, (![0, 0, 0, 0] : Fin 4 → Nat) a + S1x1x64x64.size a ≤ S3x3x64x64.size a
  h_S1x1x64x64 : 0 < S1x1x64x64.numel
  shapeCasts_S1x1x64x64_S64x64 : S1x1x64x64.ShapeCasts S64x64
  shapeCasts_S32x256x64_S8192x64 : S32x256x64.ShapeCasts S8192x64
  shapeCasts_S8192x64_S32x256x64 : S8192x64.ShapeCasts S32x256x64
  slices_S34x258x64_o0_1_0_S32x256x64 : S34x258x64.Slices ![0, 1, 0] S32x256x64
  inb_S3x3x64x64_S1x1x64x64_0_1_0_0 : ∀ a, (![0, 1, 0, 0] : Fin 4 → Nat) a + S1x1x64x64.size a ≤ S3x3x64x64.size a
  slices_S34x258x64_o0_2_0_S32x256x64 : S34x258x64.Slices ![0, 2, 0] S32x256x64
  inb_S3x3x64x64_S1x1x64x64_0_2_0_0 : ∀ a, (![0, 2, 0, 0] : Fin 4 → Nat) a + S1x1x64x64.size a ≤ S3x3x64x64.size a
  slices_S34x258x64_o1_0_0_S32x256x64 : S34x258x64.Slices ![1, 0, 0] S32x256x64
  inb_S3x3x64x64_S1x1x64x64_1_0_0_0 : ∀ a, (![1, 0, 0, 0] : Fin 4 → Nat) a + S1x1x64x64.size a ≤ S3x3x64x64.size a
  slices_S34x258x64_o1_1_0_S32x256x64 : S34x258x64.Slices ![1, 1, 0] S32x256x64
  inb_S3x3x64x64_S1x1x64x64_1_1_0_0 : ∀ a, (![1, 1, 0, 0] : Fin 4 → Nat) a + S1x1x64x64.size a ≤ S3x3x64x64.size a
  slices_S34x258x64_o1_2_0_S32x256x64 : S34x258x64.Slices ![1, 2, 0] S32x256x64
  inb_S3x3x64x64_S1x1x64x64_1_2_0_0 : ∀ a, (![1, 2, 0, 0] : Fin 4 → Nat) a + S1x1x64x64.size a ≤ S3x3x64x64.size a
  slices_S34x258x64_o2_0_0_S32x256x64 : S34x258x64.Slices ![2, 0, 0] S32x256x64
  inb_S3x3x64x64_S1x1x64x64_2_0_0_0 : ∀ a, (![2, 0, 0, 0] : Fin 4 → Nat) a + S1x1x64x64.size a ≤ S3x3x64x64.size a
  slices_S34x258x64_o2_1_0_S32x256x64 : S34x258x64.Slices ![2, 1, 0] S32x256x64
  inb_S3x3x64x64_S1x1x64x64_2_1_0_0 : ∀ a, (![2, 1, 0, 0] : Fin 4 → Nat) a + S1x1x64x64.size a ≤ S3x3x64x64.size a
  slices_S34x258x64_o2_2_0_S32x256x64 : S34x258x64.Slices ![2, 2, 0] S32x256x64
  inb_S3x3x64x64_S1x1x64x64_2_2_0_0 : ∀ a, (![2, 2, 0, 0] : Fin 4 → Nat) a + S1x1x64x64.size a ≤ S3x3x64x64.size a
  inb_S1x32x256x64_S1x32x256x64_0_0_0_0 : ∀ a, (![0, 0, 0, 0] : Fin 4 → Nat) a + S1x32x256x64.size a ≤ S1x32x256x64.size a
  h_S1x32x256x64 : 0 < S1x32x256x64.numel
  shapeCasts_S1x32x256x64_S32x256x64 : S1x32x256x64.ShapeCasts S32x256x64
  shapeCasts_S32x256x64_S1x32x256x64 : S32x256x64.ShapeCasts S1x32x256x64
  shapeCasts_S131072x64_S4x32768x64 : S131072x64.ShapeCasts S4x32768x64
  scatter_S4x256x256_S131072x3_S131072_n_012_012_1_wf : ScatterDims.WF S4x256x256 S131072x3 S131072 [] [0, 1, 2] [0, 1, 2] 1
  gather_S131072x64_S262144x1_S262144x64_1_0_n_n_0_1_164_wf : GatherDims.WF S131072x64 S262144x1 S262144x64 [1] [0] [] [0] [] 1 ![1, 64]
  dot_S8192x64_S64x64_S8192x64_1_0_0_1_n_n_wf : DotDims.WF S8192x64 S64x64 S8192x64 [1] [0] [0] [1] [] []
  gather_S4x256x256x64_S131072x3_S131072x64_1_012_n_n_012_1_11164_wf : GatherDims.WF S4x256x256x64 S131072x3 S131072x64 [1] [0, 1, 2] [] [0, 1, 2] [] 1 ![1, 1, 1, 64]
  hrank0 : 0 < grid0.rank
  k0_mult1_dvd : ∀ i : grid0.Coords, 32 ∣ (k0_mult1 i).toNat
  k0_off1_inb : ∀ i : grid0.Coords, ∀ a, (k0_off1 i) a + S1x34x258x64.size a ≤ S1x258x258x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x258x258x64.size a ≤ S4x258x258x64.size a
  hwx0_0 : ∀ i : grid0.Coords, EltTy.bits .bf16 = 32 ∨ (Rect.block (s := S4x258x258x64) S1x258x258x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x64x64.size a ≤ S3x3x64x64.size a
  hwx0_1 : ∀ i : grid0.Coords, EltTy.bits .bf16 = 32 ∨ (Rect.block (s := S3x3x64x64) S3x3x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x64.size a ≤ S4x256x256x64.size a
  hwx0_2 : ∀ i : grid0.Coords, EltTy.bits .f32 = 32 ∨ (Rect.block (s := S4x256x256x64) S1x32x256x64.size (cc0_transform_2 i) (hinb0_2 i)).WholeWords (EltTy.packing .f32)

variable [Facts₀]

def scatter_S4x256x256_S131072x3_S131072_n_012_012_1 : ScatterDims S4x256x256 S131072x3 S131072 where
  updateWindowDims := []
  insertedWindowDims := [0, 1, 2]
  scatterDimsToOperandDims := [0, 1, 2]
  indexVectorDim := 1
  wf := scatter_S4x256x256_S131072x3_S131072_n_012_012_1_wf
def gather_S131072x64_S262144x1_S262144x64_1_0_n_n_0_1_164 : GatherDims S131072x64 S262144x1 S262144x64 where
  offsetDims := [1]
  collapsedSliceDims := [0]
  operandBatchingDims := []
  startIndicesBatchingDims := []
  startIndexMap := [0]
  indexVectorDim := 1
  sliceSizes := ![1, 64]
  wf := gather_S131072x64_S262144x1_S262144x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S4x256x256x64_S131072x3_S131072x64_1_012_n_n_012_1_11164 : GatherDims S4x256x256x64 S131072x3 S131072x64 where
  offsetDims := [1]
  collapsedSliceDims := [0, 1, 2]
  operandBatchingDims := []
  startIndicesBatchingDims := []
  startIndexMap := [0, 1, 2]
  indexVectorDim := 1
  sliceSizes := ![1, 1, 1, 64]
  wf := gather_S4x256x256x64_S131072x3_S131072x64_1_012_n_n_012_1_11164_wf

abbrev win0_0 : Pipeline.Window sig grid0 :=
  Pipeline.Window.ofSpec (Memref.whole main_v64) S1x258x258x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S3x3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S1x32x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32768x64 : Shape := ⟨3, ![4, 32768, 64]⟩
abbrev S4x32768x2 : Shape := ⟨3, ![4, 32768, 2]⟩
abbrev S3x3x64x64 : Shape := ⟨4, ![3, 3, 64, 64]⟩
abbrev S2 : Shape := ⟨1, ![2]⟩
abbrev S_ : Shape := ⟨0, ![]⟩
abbrev S131072x2 : Shape := ⟨2, ![131072, 2]⟩
abbrev S1x2 : Shape := ⟨2, ![1, 2]⟩
abbrev S4 : Shape := ⟨1, ![4]⟩
abbrev S4x32768 : Shape := ⟨2, ![4, 32768]⟩
abbrev S131072 : Shape := ⟨1, ![131072]⟩
abbrev S131072x64 : Shape := ⟨2, ![131072, 64]⟩
abbrev S4x256x256 : Shape := ⟨3, ![4, 256, 256]⟩
abbrev S131072x1 : Shape := ⟨2, ![131072, 1]⟩
abbrev S131072x3 : Shape := ⟨2, ![131072, 3]⟩
abbrev S1x1x64x64 : Shape := ⟨4, ![1, 1, 64, 64]⟩
abbrev S64x64 : Shape := ⟨2, ![64, 64]⟩

abbrev nBuf : Space → Nat
  | .hbm => 910
  | .vmem => 0
  | .smem => 0
  | _ => 0

abbrev hbmTy0_0 (i : Nat) : BufTy := match i % 128 with
  | 0 => ⟨S4x32768x64, .f32⟩
  | 1 => ⟨S4x32768x2, .f32⟩
  | 2 => ⟨S3x3x64x64, .f32⟩
  | 3 => ⟨S2, .f32⟩
  | 4 => ⟨S_, .f32⟩
  | 5 => ⟨S2, .f32⟩
  | 6 => ⟨S2, .f32⟩
  | 7 => ⟨S_, .f32⟩
  | 8 => ⟨S_, .f32⟩
  | 9 => ⟨S_, .f32⟩
  | 10 => ⟨S4x32768x2, .f32⟩
  | 11 => ⟨S4x32768x2, .f32⟩
  | 12 => ⟨S_, .f32⟩
  | 13 => ⟨S4x32768x2, .f32⟩
  | 14 => ⟨S4x32768x2, .f32⟩
  | 15 => ⟨S4x32768x2, .f32⟩
  | 16 => ⟨S4x32768x2, .f32⟩
  | 17 => ⟨S_, .f32⟩
  | 18 => ⟨S4x32768x2, .f32⟩
  | 19 => ⟨S4x32768x2, .f32⟩
  | 20 => ⟨S_, .f32⟩
  | 21 => ⟨S4x32768x2, .f32⟩
  | 22 => ⟨S4x32768x2, .f32⟩
  | 23 => ⟨S131072x2, .f32⟩
  | 24 => ⟨S_, .f32⟩
  | 25 => ⟨S2, .f32⟩
  | 26 => ⟨S1x2, .f32⟩
  | 27 => ⟨S131072x2, .f32⟩
  | 28 => ⟨S131072x2, .f32⟩
  | 29 => ⟨S1x2, .f32⟩
  | 30 => ⟨S131072x2, .f32⟩
  | 31 => ⟨S131072x2, .f32⟩
  | 32 => ⟨S131072x2, .i32⟩
  | 33 => ⟨S4, .i32⟩
  | 34 => ⟨S4x32768, .i32⟩
  | 35 => ⟨S131072, .i32⟩
  | 36 => ⟨S131072x64, .f32⟩
  | 37 => ⟨S_, .i32⟩
  | 38 => ⟨S4x256x256, .i32⟩
  | 39 => ⟨S131072x1, .i32⟩
  | 40 => ⟨S131072, .i32⟩
  | 41 => ⟨S131072x1, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x1, .i32⟩
  | 67 => ⟨S131072x1, .i32⟩
  | 68 => ⟨S131072x3, .i32⟩
  | 69 => ⟨S4x256x256, .i32⟩
  | 70 => ⟨S_, .f32⟩
  | 71 => ⟨S131072x64, .f32⟩
  | 72 => ⟨S131072x1, .i32⟩
  | 73 => ⟨S131072, .i32⟩
  | 74 => ⟨S_, .i32⟩
  | 75 => ⟨S131072, .i32⟩
  | 76 => ⟨S131072, .i32⟩
  | 77 => ⟨S131072x1, .i32⟩
  | 78 => ⟨S131072, .i32⟩
  | 79 => ⟨S_, .i32⟩
  | 80 => ⟨S131072, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i1⟩
  | 88 => ⟨S131072, .i1⟩
  | 89 => ⟨S_, .i32⟩
  | 90 => ⟨S131072, .i32⟩
  | 91 => ⟨S131072, .i1⟩
  | 92 => ⟨S131072, .i1⟩
  | 93 => ⟨S_, .i32⟩
  | 94 => ⟨S131072, .i32⟩
  | 95 => ⟨S131072, .i1⟩
  | 96 => ⟨S131072, .i1⟩
  | 97 => ⟨S_, .i32⟩
  | 98 => ⟨S_, .i32⟩
  | 99 => ⟨S_, .i32⟩
  | 100 => ⟨S131072, .i32⟩
  | 101 => ⟨S131072, .i32⟩
  | 102 => ⟨S_, .i32⟩
  | 103 => ⟨S131072, .i32⟩
  | 104 => ⟨S131072, .i32⟩
  | 105 => ⟨S_, .i32⟩
  | 106 => ⟨S_, .i32⟩
  | 107 => ⟨S_, .i32⟩
  | 108 => ⟨S131072, .i32⟩
  | 109 => ⟨S131072, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S_, .i32⟩
  | _ => ⟨S4x32768x64, .f32⟩

abbrev hbmTy0_1 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S131072x1, .i32⟩
  | 8 => ⟨S131072x1, .i32⟩
  | 9 => ⟨S131072x3, .i32⟩
  | 10 => ⟨S131072, .i32⟩
  | 11 => ⟨S_, .i32⟩
  | 12 => ⟨S131072, .i32⟩
  | 13 => ⟨S131072, .i1⟩
  | 14 => ⟨S131072, .i1⟩
  | 15 => ⟨S131072x1, .i1⟩
  | 16 => ⟨S_, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x64, .f32⟩
  | 28 => ⟨S_, .f32⟩
  | 29 => ⟨S_, .f32⟩
  | 30 => ⟨S131072x64, .i1⟩
  | 31 => ⟨S131072x64, .f32⟩
  | 32 => ⟨S131072x64, .f32⟩
  | 33 => ⟨S1x1x64x64, .f32⟩
  | 34 => ⟨S64x64, .f32⟩
  | 35 => ⟨S131072x64, .f32⟩
  | 36 => ⟨S131072x64, .f32⟩
  | 37 => ⟨S131072x1, .i32⟩
  | 38 => ⟨S131072, .i32⟩
  | 39 => ⟨S_, .i32⟩
  | 40 => ⟨S131072, .i32⟩
  | 41 => ⟨S131072, .i32⟩
  | 42 => ⟨S131072x1, .i32⟩
  | 43 => ⟨S131072, .i32⟩
  | 44 => ⟨S_, .i32⟩
  | 45 => ⟨S131072, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i1⟩
  | 53 => ⟨S131072, .i1⟩
  | 54 => ⟨S_, .i32⟩
  | 55 => ⟨S131072, .i32⟩
  | 56 => ⟨S131072, .i1⟩
  | 57 => ⟨S131072, .i1⟩
  | 58 => ⟨S_, .i32⟩
  | 59 => ⟨S131072, .i32⟩
  | 60 => ⟨S131072, .i1⟩
  | 61 => ⟨S131072, .i1⟩
  | 62 => ⟨S_, .i32⟩
  | 63 => ⟨S_, .i32⟩
  | 64 => ⟨S_, .i32⟩
  | 65 => ⟨S131072, .i32⟩
  | 66 => ⟨S131072, .i32⟩
  | 67 => ⟨S_, .i32⟩
  | 68 => ⟨S131072, .i32⟩
  | 69 => ⟨S131072, .i32⟩
  | 70 => ⟨S_, .i32⟩
  | 71 => ⟨S_, .i32⟩
  | 72 => ⟨S_, .i32⟩
  | 73 => ⟨S131072, .i32⟩
  | 74 => ⟨S131072, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S131072x1, .i32⟩
  | 100 => ⟨S131072x1, .i32⟩
  | 101 => ⟨S131072x1, .i32⟩
  | 102 => ⟨S131072x3, .i32⟩
  | 103 => ⟨S131072, .i32⟩
  | 104 => ⟨S_, .i32⟩
  | 105 => ⟨S131072, .i32⟩
  | 106 => ⟨S131072, .i1⟩
  | 107 => ⟨S131072, .i1⟩
  | 108 => ⟨S131072x1, .i1⟩
  | 109 => ⟨S_, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x64, .f32⟩
  | 121 => ⟨S_, .f32⟩
  | 122 => ⟨S_, .f32⟩
  | 123 => ⟨S131072x64, .i1⟩
  | 124 => ⟨S131072x64, .f32⟩
  | 125 => ⟨S131072x64, .f32⟩
  | 126 => ⟨S1x1x64x64, .f32⟩
  | 127 => ⟨S64x64, .f32⟩
  | _ => ⟨S4x32768x64, .f32⟩

abbrev hbmTy0_2 (i : Nat) : BufTy := match i % 128 with
  | 0 => ⟨S131072x64, .f32⟩
  | 1 => ⟨S131072x64, .f32⟩
  | 2 => ⟨S131072x1, .i32⟩
  | 3 => ⟨S131072, .i32⟩
  | 4 => ⟨S_, .i32⟩
  | 5 => ⟨S131072, .i32⟩
  | 6 => ⟨S131072, .i32⟩
  | 7 => ⟨S131072x1, .i32⟩
  | 8 => ⟨S131072, .i32⟩
  | 9 => ⟨S_, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i1⟩
  | 18 => ⟨S131072, .i1⟩
  | 19 => ⟨S_, .i32⟩
  | 20 => ⟨S131072, .i32⟩
  | 21 => ⟨S131072, .i1⟩
  | 22 => ⟨S131072, .i1⟩
  | 23 => ⟨S_, .i32⟩
  | 24 => ⟨S131072, .i32⟩
  | 25 => ⟨S131072, .i1⟩
  | 26 => ⟨S131072, .i1⟩
  | 27 => ⟨S_, .i32⟩
  | 28 => ⟨S_, .i32⟩
  | 29 => ⟨S_, .i32⟩
  | 30 => ⟨S131072, .i32⟩
  | 31 => ⟨S131072, .i32⟩
  | 32 => ⟨S_, .i32⟩
  | 33 => ⟨S131072, .i32⟩
  | 34 => ⟨S131072, .i32⟩
  | 35 => ⟨S_, .i32⟩
  | 36 => ⟨S_, .i32⟩
  | 37 => ⟨S_, .i32⟩
  | 38 => ⟨S131072, .i32⟩
  | 39 => ⟨S131072, .i32⟩
  | 40 => ⟨S_, .i32⟩
  | 41 => ⟨S131072, .i32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S131072x1, .i32⟩
  | 66 => ⟨S131072x1, .i32⟩
  | 67 => ⟨S131072x3, .i32⟩
  | 68 => ⟨S131072, .i32⟩
  | 69 => ⟨S_, .i32⟩
  | 70 => ⟨S131072, .i32⟩
  | 71 => ⟨S131072, .i1⟩
  | 72 => ⟨S131072, .i1⟩
  | 73 => ⟨S131072x1, .i1⟩
  | 74 => ⟨S_, .i32⟩
  | 75 => ⟨S131072, .i32⟩
  | 76 => ⟨S131072, .i32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S131072x1, .i32⟩
  | 85 => ⟨S131072x64, .f32⟩
  | 86 => ⟨S_, .f32⟩
  | 87 => ⟨S_, .f32⟩
  | 88 => ⟨S131072x64, .i1⟩
  | 89 => ⟨S131072x64, .f32⟩
  | 90 => ⟨S131072x64, .f32⟩
  | 91 => ⟨S1x1x64x64, .f32⟩
  | 92 => ⟨S64x64, .f32⟩
  | 93 => ⟨S131072x64, .f32⟩
  | 94 => ⟨S131072x64, .f32⟩
  | 95 => ⟨S131072x1, .i32⟩
  | 96 => ⟨S131072, .i32⟩
  | 97 => ⟨S_, .i32⟩
  | 98 => ⟨S131072, .i32⟩
  | 99 => ⟨S131072, .i32⟩
  | 100 => ⟨S131072x1, .i32⟩
  | 101 => ⟨S131072, .i32⟩
  | 102 => ⟨S_, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i1⟩
  | 111 => ⟨S131072, .i1⟩
  | 112 => ⟨S_, .i32⟩
  | 113 => ⟨S131072, .i32⟩
  | 114 => ⟨S131072, .i1⟩
  | 115 => ⟨S131072, .i1⟩
  | 116 => ⟨S_, .i32⟩
  | 117 => ⟨S131072, .i32⟩
  | 118 => ⟨S131072, .i1⟩
  | 119 => ⟨S131072, .i1⟩
  | 120 => ⟨S_, .i32⟩
  | 121 => ⟨S_, .i32⟩
  | 122 => ⟨S_, .i32⟩
  | 123 => ⟨S131072, .i32⟩
  | 124 => ⟨S131072, .i32⟩
  | 125 => ⟨S_, .i32⟩
  | 126 => ⟨S131072, .i32⟩
  | 127 => ⟨S131072, .i32⟩
  | _ => ⟨S4x32768x64, .f32⟩

abbrev hbmTy0_3 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x1, .i32⟩
  | 31 => ⟨S131072x1, .i32⟩
  | 32 => ⟨S131072x3, .i32⟩
  | 33 => ⟨S131072, .i32⟩
  | 34 => ⟨S_, .i32⟩
  | 35 => ⟨S131072, .i32⟩
  | 36 => ⟨S131072, .i1⟩
  | 37 => ⟨S131072, .i1⟩
  | 38 => ⟨S131072x1, .i1⟩
  | 39 => ⟨S_, .i32⟩
  | 40 => ⟨S131072, .i32⟩
  | 41 => ⟨S131072, .i32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x64, .f32⟩
  | 51 => ⟨S_, .f32⟩
  | 52 => ⟨S_, .f32⟩
  | 53 => ⟨S131072x64, .i1⟩
  | 54 => ⟨S131072x64, .f32⟩
  | 55 => ⟨S131072x64, .f32⟩
  | 56 => ⟨S1x1x64x64, .f32⟩
  | 57 => ⟨S64x64, .f32⟩
  | 58 => ⟨S131072x64, .f32⟩
  | 59 => ⟨S131072x64, .f32⟩
  | 60 => ⟨S131072x1, .i32⟩
  | 61 => ⟨S131072, .i32⟩
  | 62 => ⟨S_, .i32⟩
  | 63 => ⟨S131072, .i32⟩
  | 64 => ⟨S131072, .i32⟩
  | 65 => ⟨S131072x1, .i32⟩
  | 66 => ⟨S131072, .i32⟩
  | 67 => ⟨S_, .i32⟩
  | 68 => ⟨S131072, .i32⟩
  | 69 => ⟨S131072, .i32⟩
  | 70 => ⟨S_, .i32⟩
  | 71 => ⟨S131072, .i32⟩
  | 72 => ⟨S131072, .i1⟩
  | 73 => ⟨S_, .i32⟩
  | 74 => ⟨S131072, .i32⟩
  | 75 => ⟨S131072, .i1⟩
  | 76 => ⟨S131072, .i1⟩
  | 77 => ⟨S_, .i32⟩
  | 78 => ⟨S131072, .i32⟩
  | 79 => ⟨S131072, .i1⟩
  | 80 => ⟨S131072, .i1⟩
  | 81 => ⟨S_, .i32⟩
  | 82 => ⟨S131072, .i32⟩
  | 83 => ⟨S131072, .i1⟩
  | 84 => ⟨S131072, .i1⟩
  | 85 => ⟨S_, .i32⟩
  | 86 => ⟨S_, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i32⟩
  | 93 => ⟨S_, .i32⟩
  | 94 => ⟨S_, .i32⟩
  | 95 => ⟨S_, .i32⟩
  | 96 => ⟨S131072, .i32⟩
  | 97 => ⟨S131072, .i32⟩
  | 98 => ⟨S_, .i32⟩
  | 99 => ⟨S131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S131072x1, .i32⟩
  | 124 => ⟨S131072x1, .i32⟩
  | 125 => ⟨S131072x3, .i32⟩
  | 126 => ⟨S131072, .i32⟩
  | 127 => ⟨S_, .i32⟩
  | _ => ⟨S4x32768x64, .f32⟩

abbrev hbmTy0_4 (i : Nat) : BufTy := match i % 128 with
  | 0 => ⟨S131072, .i32⟩
  | 1 => ⟨S131072, .i1⟩
  | 2 => ⟨S131072, .i1⟩
  | 3 => ⟨S131072x1, .i1⟩
  | 4 => ⟨S_, .i32⟩
  | 5 => ⟨S131072, .i32⟩
  | 6 => ⟨S131072, .i32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072x64, .f32⟩
  | 16 => ⟨S_, .f32⟩
  | 17 => ⟨S_, .f32⟩
  | 18 => ⟨S131072x64, .i1⟩
  | 19 => ⟨S131072x64, .f32⟩
  | 20 => ⟨S131072x64, .f32⟩
  | 21 => ⟨S1x1x64x64, .f32⟩
  | 22 => ⟨S64x64, .f32⟩
  | 23 => ⟨S131072x64, .f32⟩
  | 24 => ⟨S131072x64, .f32⟩
  | 25 => ⟨S131072x1, .i32⟩
  | 26 => ⟨S131072, .i32⟩
  | 27 => ⟨S_, .i32⟩
  | 28 => ⟨S131072, .i32⟩
  | 29 => ⟨S131072, .i32⟩
  | 30 => ⟨S131072x1, .i32⟩
  | 31 => ⟨S131072, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i1⟩
  | 41 => ⟨S131072, .i1⟩
  | 42 => ⟨S_, .i32⟩
  | 43 => ⟨S131072, .i32⟩
  | 44 => ⟨S131072, .i1⟩
  | 45 => ⟨S131072, .i1⟩
  | 46 => ⟨S_, .i32⟩
  | 47 => ⟨S131072, .i32⟩
  | 48 => ⟨S131072, .i1⟩
  | 49 => ⟨S131072, .i1⟩
  | 50 => ⟨S_, .i32⟩
  | 51 => ⟨S_, .i32⟩
  | 52 => ⟨S_, .i32⟩
  | 53 => ⟨S131072, .i32⟩
  | 54 => ⟨S131072, .i32⟩
  | 55 => ⟨S_, .i32⟩
  | 56 => ⟨S131072, .i32⟩
  | 57 => ⟨S131072, .i32⟩
  | 58 => ⟨S_, .i32⟩
  | 59 => ⟨S_, .i32⟩
  | 60 => ⟨S_, .i32⟩
  | 61 => ⟨S131072, .i32⟩
  | 62 => ⟨S131072, .i32⟩
  | 63 => ⟨S_, .i32⟩
  | 64 => ⟨S131072, .i32⟩
  | 65 => ⟨S131072, .i32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x1, .i32⟩
  | 89 => ⟨S131072x1, .i32⟩
  | 90 => ⟨S131072x3, .i32⟩
  | 91 => ⟨S131072, .i32⟩
  | 92 => ⟨S_, .i32⟩
  | 93 => ⟨S131072, .i32⟩
  | 94 => ⟨S131072, .i1⟩
  | 95 => ⟨S131072, .i1⟩
  | 96 => ⟨S131072x1, .i1⟩
  | 97 => ⟨S_, .i32⟩
  | 98 => ⟨S131072, .i32⟩
  | 99 => ⟨S131072, .i32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S131072x1, .i32⟩
  | 108 => ⟨S131072x64, .f32⟩
  | 109 => ⟨S_, .f32⟩
  | 110 => ⟨S_, .f32⟩
  | 111 => ⟨S131072x64, .i1⟩
  | 112 => ⟨S131072x64, .f32⟩
  | 113 => ⟨S131072x64, .f32⟩
  | 114 => ⟨S1x1x64x64, .f32⟩
  | 115 => ⟨S64x64, .f32⟩
  | 116 => ⟨S131072x64, .f32⟩
  | 117 => ⟨S131072x64, .f32⟩
  | 118 => ⟨S131072x1, .i32⟩
  | 119 => ⟨S131072, .i32⟩
  | 120 => ⟨S_, .i32⟩
  | 121 => ⟨S131072, .i32⟩
  | 122 => ⟨S131072, .i32⟩
  | 123 => ⟨S131072x1, .i32⟩
  | 124 => ⟨S131072, .i32⟩
  | 125 => ⟨S_, .i32⟩
  | 126 => ⟨S131072, .i32⟩
  | 127 => ⟨S131072, .i32⟩
  | _ => ⟨S4x32768x64, .f32⟩

abbrev hbmTy0_5 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i1⟩
  | 6 => ⟨S131072, .i1⟩
  | 7 => ⟨S_, .i32⟩
  | 8 => ⟨S131072, .i32⟩
  | 9 => ⟨S131072, .i1⟩
  | 10 => ⟨S131072, .i1⟩
  | 11 => ⟨S_, .i32⟩
  | 12 => ⟨S131072, .i32⟩
  | 13 => ⟨S131072, .i1⟩
  | 14 => ⟨S131072, .i1⟩
  | 15 => ⟨S_, .i32⟩
  | 16 => ⟨S_, .i32⟩
  | 17 => ⟨S_, .i32⟩
  | 18 => ⟨S131072, .i32⟩
  | 19 => ⟨S131072, .i32⟩
  | 20 => ⟨S_, .i32⟩
  | 21 => ⟨S131072, .i32⟩
  | 22 => ⟨S131072, .i32⟩
  | 23 => ⟨S_, .i32⟩
  | 24 => ⟨S_, .i32⟩
  | 25 => ⟨S_, .i32⟩
  | 26 => ⟨S131072, .i32⟩
  | 27 => ⟨S131072, .i32⟩
  | 28 => ⟨S_, .i32⟩
  | 29 => ⟨S131072, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S131072x1, .i32⟩
  | 53 => ⟨S131072x1, .i32⟩
  | 54 => ⟨S131072x1, .i32⟩
  | 55 => ⟨S131072x3, .i32⟩
  | 56 => ⟨S131072, .i32⟩
  | 57 => ⟨S_, .i32⟩
  | 58 => ⟨S131072, .i32⟩
  | 59 => ⟨S131072, .i1⟩
  | 60 => ⟨S131072, .i1⟩
  | 61 => ⟨S131072x1, .i1⟩
  | 62 => ⟨S_, .i32⟩
  | 63 => ⟨S131072, .i32⟩
  | 64 => ⟨S131072, .i32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x64, .f32⟩
  | 74 => ⟨S_, .f32⟩
  | 75 => ⟨S_, .f32⟩
  | 76 => ⟨S131072x64, .i1⟩
  | 77 => ⟨S131072x64, .f32⟩
  | 78 => ⟨S131072x64, .f32⟩
  | 79 => ⟨S1x1x64x64, .f32⟩
  | 80 => ⟨S64x64, .f32⟩
  | 81 => ⟨S131072x64, .f32⟩
  | 82 => ⟨S131072x64, .f32⟩
  | 83 => ⟨S131072x1, .i32⟩
  | 84 => ⟨S131072, .i32⟩
  | 85 => ⟨S_, .i32⟩
  | 86 => ⟨S131072, .i32⟩
  | 87 => ⟨S131072, .i32⟩
  | 88 => ⟨S131072x1, .i32⟩
  | 89 => ⟨S131072, .i32⟩
  | 90 => ⟨S_, .i32⟩
  | 91 => ⟨S131072, .i32⟩
  | 92 => ⟨S131072, .i32⟩
  | 93 => ⟨S_, .i32⟩
  | 94 => ⟨S131072, .i32⟩
  | 95 => ⟨S131072, .i1⟩
  | 96 => ⟨S_, .i32⟩
  | 97 => ⟨S131072, .i32⟩
  | 98 => ⟨S131072, .i1⟩
  | 99 => ⟨S131072, .i1⟩
  | 100 => ⟨S_, .i32⟩
  | 101 => ⟨S131072, .i32⟩
  | 102 => ⟨S131072, .i1⟩
  | 103 => ⟨S131072, .i1⟩
  | 104 => ⟨S_, .i32⟩
  | 105 => ⟨S131072, .i32⟩
  | 106 => ⟨S131072, .i1⟩
  | 107 => ⟨S131072, .i1⟩
  | 108 => ⟨S_, .i32⟩
  | 109 => ⟨S_, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S_, .i32⟩
  | 118 => ⟨S_, .i32⟩
  | 119 => ⟨S131072, .i32⟩
  | 120 => ⟨S131072, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S4x32768x64, .f32⟩

abbrev hbmTy0_6 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S131072x1, .i32⟩
  | 18 => ⟨S131072x1, .i32⟩
  | 19 => ⟨S131072x1, .i32⟩
  | 20 => ⟨S131072x3, .i32⟩
  | 21 => ⟨S131072, .i32⟩
  | 22 => ⟨S_, .i32⟩
  | 23 => ⟨S131072, .i32⟩
  | 24 => ⟨S131072, .i1⟩
  | 25 => ⟨S131072, .i1⟩
  | 26 => ⟨S131072x1, .i1⟩
  | 27 => ⟨S_, .i32⟩
  | 28 => ⟨S131072, .i32⟩
  | 29 => ⟨S131072, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S131072x64, .f32⟩
  | 39 => ⟨S_, .f32⟩
  | 40 => ⟨S_, .f32⟩
  | 41 => ⟨S131072x64, .i1⟩
  | 42 => ⟨S131072x64, .f32⟩
  | 43 => ⟨S131072x64, .f32⟩
  | 44 => ⟨S1x1x64x64, .f32⟩
  | 45 => ⟨S64x64, .f32⟩
  | 46 => ⟨S131072x64, .f32⟩
  | 47 => ⟨S131072x64, .f32⟩
  | 48 => ⟨S131072x1, .i32⟩
  | 49 => ⟨S131072, .i32⟩
  | 50 => ⟨S_, .i32⟩
  | 51 => ⟨S131072, .i32⟩
  | 52 => ⟨S131072, .i32⟩
  | 53 => ⟨S131072x1, .i32⟩
  | 54 => ⟨S131072, .i32⟩
  | 55 => ⟨S_, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i1⟩
  | 64 => ⟨S131072, .i1⟩
  | 65 => ⟨S_, .i32⟩
  | 66 => ⟨S131072, .i32⟩
  | 67 => ⟨S131072, .i1⟩
  | 68 => ⟨S131072, .i1⟩
  | 69 => ⟨S_, .i32⟩
  | 70 => ⟨S131072, .i32⟩
  | 71 => ⟨S131072, .i1⟩
  | 72 => ⟨S131072, .i1⟩
  | 73 => ⟨S_, .i32⟩
  | 74 => ⟨S_, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i32⟩
  | 81 => ⟨S_, .i32⟩
  | 82 => ⟨S_, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x1, .i32⟩
  | 112 => ⟨S131072x1, .i32⟩
  | 113 => ⟨S131072x3, .i32⟩
  | 114 => ⟨S131072, .i32⟩
  | 115 => ⟨S_, .i32⟩
  | 116 => ⟨S131072, .i32⟩
  | 117 => ⟨S131072, .i1⟩
  | 118 => ⟨S131072, .i1⟩
  | 119 => ⟨S131072x1, .i1⟩
  | 120 => ⟨S_, .i32⟩
  | 121 => ⟨S131072, .i32⟩
  | 122 => ⟨S131072, .i32⟩
  | 123 => ⟨S_, .i32⟩
  | 124 => ⟨S131072, .i32⟩
  | 125 => ⟨S131072, .i1⟩
  | 126 => ⟨S_, .i32⟩
  | 127 => ⟨S131072, .i32⟩
  | _ => ⟨S4x32768x64, .f32⟩

abbrev hbmTy0_7 (i : Nat) : BufTy := match i % 128 with
  | 0 => ⟨S131072, .i32⟩
  | 1 => ⟨S131072, .i32⟩
  | 2 => ⟨S131072x1, .i32⟩
  | 3 => ⟨S131072x64, .f32⟩
  | 4 => ⟨S_, .f32⟩
  | 5 => ⟨S_, .f32⟩
  | 6 => ⟨S131072x64, .i1⟩
  | 7 => ⟨S131072x64, .f32⟩
  | 8 => ⟨S131072x64, .f32⟩
  | 9 => ⟨S1x1x64x64, .f32⟩
  | 10 => ⟨S64x64, .f32⟩
  | 11 => ⟨S131072x64, .f32⟩
  | 12 => ⟨S131072x64, .f32⟩
  | 13 => ⟨S4x32768x64, .f32⟩
  | _ => ⟨S4x32768x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x32768x64, .f32⟩

abbrev bufTy : (tb : Table) → Fin (tcTables nBuf tb) → BufTy
  | .hbm, ⟨i, _⟩ => hbmTy i
  | _, _ => ⟨S4x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_cst_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_14 : Ref sig .tc := ⟨.hbm, 79, rfl⟩
abbrev main_v55 : Ref sig .tc := ⟨.hbm, 80, rfl⟩
abbrev main_v56 : Ref sig .tc := ⟨.hbm, 81, rfl⟩
abbrev main_c_15 : Ref sig .tc := ⟨.hbm, 82, rfl⟩
abbrev main_v57 : Ref sig .tc := ⟨.hbm, 83, rfl⟩
abbrev main_v58 : Ref sig .tc := ⟨.hbm, 84, rfl⟩
abbrev main_c_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_17 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_18 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_19 : Ref sig .tc := ⟨.hbm, 97, rfl⟩
abbrev main_c_20 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v68 : Ref sig .tc := ⟨.hbm, 104, rfl⟩
abbrev main_c_21 : Ref sig .tc := ⟨.hbm, 105, rfl⟩
abbrev main_c_22 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v69 : Ref sig .tc := ⟨.hbm, 112, rfl⟩
abbrev main_c_23 : Ref sig .tc := ⟨.hbm, 113, rfl⟩
abbrev main_v70 : Ref sig .tc := ⟨.hbm, 114, rfl⟩
abbrev main_v71 : Ref sig .tc := ⟨.hbm, 115, rfl⟩
abbrev main_c_24 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_25 : Ref sig .tc := ⟨.hbm, 120, rfl⟩
abbrev main_v75 : Ref sig .tc := ⟨.hbm, 121, rfl⟩
abbrev main_v76 : Ref sig .tc := ⟨.hbm, 122, rfl⟩
abbrev main_c_26 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_27 : Ref sig .tc := ⟨.hbm, 127, rfl⟩
abbrev main_v80 : Ref sig .tc := ⟨.hbm, 128, rfl⟩
abbrev main_v81 : Ref sig .tc := ⟨.hbm, 129, rfl⟩
abbrev main_c_28 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_29 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_30 : Ref sig .tc := ⟨.hbm, 144, rfl⟩
abbrev main_v94 : Ref sig .tc := ⟨.hbm, 145, rfl⟩
abbrev main_v95 : Ref sig .tc := ⟨.hbm, 146, rfl⟩
abbrev main_c_31 : Ref sig .tc := ⟨.hbm, 147, rfl⟩
abbrev main_v96 : Ref sig .tc := ⟨.hbm, 148, rfl⟩
abbrev main_v97 : Ref sig .tc := ⟨.hbm, 149, rfl⟩
abbrev main_c_32 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_33 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_34 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_c_35 : Ref sig .tc := ⟨.hbm, 172, rfl⟩
abbrev main_v114 : Ref sig .tc := ⟨.hbm, 173, rfl⟩
abbrev main_v115 : Ref sig .tc := ⟨.hbm, 174, rfl⟩
abbrev main_c_36 : Ref sig .tc := ⟨.hbm, 175, rfl⟩
abbrev main_v116 : Ref sig .tc := ⟨.hbm, 176, rfl⟩
abbrev main_v117 : Ref sig .tc := ⟨.hbm, 177, rfl⟩
abbrev main_c_37 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_c_38 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_c_39 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_40 : Ref sig .tc := ⟨.hbm, 190, rfl⟩
abbrev main_c_41 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_v127 : Ref sig .tc := ⟨.hbm, 197, rfl⟩
abbrev main_c_42 : Ref sig .tc := ⟨.hbm, 198, rfl⟩
abbrev main_c_43 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v128 : Ref sig .tc := ⟨.hbm, 205, rfl⟩
abbrev main_c_44 : Ref sig .tc := ⟨.hbm, 206, rfl⟩
abbrev main_v129 : Ref sig .tc := ⟨.hbm, 207, rfl⟩
abbrev main_v130 : Ref sig .tc := ⟨.hbm, 208, rfl⟩
abbrev main_c_45 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_c_46 : Ref sig .tc := ⟨.hbm, 213, rfl⟩
abbrev main_v134 : Ref sig .tc := ⟨.hbm, 214, rfl⟩
abbrev main_v135 : Ref sig .tc := ⟨.hbm, 215, rfl⟩
abbrev main_c_47 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_c_48 : Ref sig .tc := ⟨.hbm, 220, rfl⟩
abbrev main_v139 : Ref sig .tc := ⟨.hbm, 221, rfl⟩
abbrev main_v140 : Ref sig .tc := ⟨.hbm, 222, rfl⟩
abbrev main_c_49 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_c_50 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_c_51 : Ref sig .tc := ⟨.hbm, 237, rfl⟩
abbrev main_v153 : Ref sig .tc := ⟨.hbm, 238, rfl⟩
abbrev main_v154 : Ref sig .tc := ⟨.hbm, 239, rfl⟩
abbrev main_c_52 : Ref sig .tc := ⟨.hbm, 240, rfl⟩
abbrev main_v155 : Ref sig .tc := ⟨.hbm, 241, rfl⟩
abbrev main_v156 : Ref sig .tc := ⟨.hbm, 242, rfl⟩
abbrev main_c_53 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_cst_54 : Ref sig .tc := ⟨.hbm, 249, rfl⟩
abbrev main_call6_v0 : Ref sig .tc := ⟨.hbm, 250, rfl⟩
abbrev main_call6_v1 : Ref sig .tc := ⟨.hbm, 251, rfl⟩
abbrev main_call6_v2 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_c_55 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_c_56 : Ref sig .tc := ⟨.hbm, 265, rfl⟩
abbrev main_v173 : Ref sig .tc := ⟨.hbm, 266, rfl⟩
abbrev main_v174 : Ref sig .tc := ⟨.hbm, 267, rfl⟩
abbrev main_c_57 : Ref sig .tc := ⟨.hbm, 268, rfl⟩
abbrev main_v175 : Ref sig .tc := ⟨.hbm, 269, rfl⟩
abbrev main_v176 : Ref sig .tc := ⟨.hbm, 270, rfl⟩
abbrev main_c_58 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_c_59 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_c_60 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_c_61 : Ref sig .tc := ⟨.hbm, 283, rfl⟩
abbrev main_c_62 : Ref sig .tc := ⟨.hbm, 284, rfl⟩
abbrev main_call7_v0 : Ref sig .tc := ⟨.hbm, 285, rfl⟩
abbrev main_call7_v1 : Ref sig .tc := ⟨.hbm, 286, rfl⟩
abbrev main_call7_v2 : Ref sig .tc := ⟨.hbm, 287, rfl⟩
abbrev main_call7_v3 : Ref sig .tc := ⟨.hbm, 288, rfl⟩
abbrev main_call7_v4 : Ref sig .tc := ⟨.hbm, 289, rfl⟩
abbrev main_v186 : Ref sig .tc := ⟨.hbm, 290, rfl⟩
abbrev main_c_63 : Ref sig .tc := ⟨.hbm, 291, rfl⟩
abbrev main_c_64 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_v187 : Ref sig .tc := ⟨.hbm, 298, rfl⟩
abbrev main_c_65 : Ref sig .tc := ⟨.hbm, 299, rfl⟩
abbrev main_v188 : Ref sig .tc := ⟨.hbm, 300, rfl⟩
abbrev main_v189 : Ref sig .tc := ⟨.hbm, 301, rfl⟩
abbrev main_c_66 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_c_67 : Ref sig .tc := ⟨.hbm, 306, rfl⟩
abbrev main_v193 : Ref sig .tc := ⟨.hbm, 307, rfl⟩
abbrev main_v194 : Ref sig .tc := ⟨.hbm, 308, rfl⟩
abbrev main_c_68 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_c_69 : Ref sig .tc := ⟨.hbm, 313, rfl⟩
abbrev main_v198 : Ref sig .tc := ⟨.hbm, 314, rfl⟩
abbrev main_v199 : Ref sig .tc := ⟨.hbm, 315, rfl⟩
abbrev main_c_70 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_c_71 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_c_72 : Ref sig .tc := ⟨.hbm, 330, rfl⟩
abbrev main_v212 : Ref sig .tc := ⟨.hbm, 331, rfl⟩
abbrev main_v213 : Ref sig .tc := ⟨.hbm, 332, rfl⟩
abbrev main_c_73 : Ref sig .tc := ⟨.hbm, 333, rfl⟩
abbrev main_v214 : Ref sig .tc := ⟨.hbm, 334, rfl⟩
abbrev main_v215 : Ref sig .tc := ⟨.hbm, 335, rfl⟩
abbrev main_c_74 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_cst_75 : Ref sig .tc := ⟨.hbm, 342, rfl⟩
abbrev main_call9_v0 : Ref sig .tc := ⟨.hbm, 343, rfl⟩
abbrev main_call9_v1 : Ref sig .tc := ⟨.hbm, 344, rfl⟩
abbrev main_call9_v2 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_c_76 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_c_77 : Ref sig .tc := ⟨.hbm, 358, rfl⟩
abbrev main_v232 : Ref sig .tc := ⟨.hbm, 359, rfl⟩
abbrev main_v233 : Ref sig .tc := ⟨.hbm, 360, rfl⟩
abbrev main_c_78 : Ref sig .tc := ⟨.hbm, 361, rfl⟩
abbrev main_v234 : Ref sig .tc := ⟨.hbm, 362, rfl⟩
abbrev main_v235 : Ref sig .tc := ⟨.hbm, 363, rfl⟩
abbrev main_c_79 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_c_80 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_c_81 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_c_82 : Ref sig .tc := ⟨.hbm, 376, rfl⟩
abbrev main_c_83 : Ref sig .tc := ⟨.hbm, 377, rfl⟩
abbrev main_call10_v0 : Ref sig .tc := ⟨.hbm, 378, rfl⟩
abbrev main_call10_v1 : Ref sig .tc := ⟨.hbm, 379, rfl⟩
abbrev main_call10_v2 : Ref sig .tc := ⟨.hbm, 380, rfl⟩
abbrev main_call10_v3 : Ref sig .tc := ⟨.hbm, 381, rfl⟩
abbrev main_call10_v4 : Ref sig .tc := ⟨.hbm, 382, rfl⟩
abbrev main_v245 : Ref sig .tc := ⟨.hbm, 383, rfl⟩
abbrev main_c_84 : Ref sig .tc := ⟨.hbm, 384, rfl⟩
abbrev main_c_85 : Ref sig .tc := ⟨.hbm, 385, rfl⟩
abbrev main_call11_v0 : Ref sig .tc := ⟨.hbm, 386, rfl⟩
abbrev main_call11_v1 : Ref sig .tc := ⟨.hbm, 387, rfl⟩
abbrev main_call11_v2 : Ref sig .tc := ⟨.hbm, 388, rfl⟩
abbrev main_call11_v3 : Ref sig .tc := ⟨.hbm, 389, rfl⟩
abbrev main_call11_v4 : Ref sig .tc := ⟨.hbm, 390, rfl⟩
abbrev main_v246 : Ref sig .tc := ⟨.hbm, 391, rfl⟩
abbrev main_c_86 : Ref sig .tc := ⟨.hbm, 392, rfl⟩
abbrev main_v247 : Ref sig .tc := ⟨.hbm, 393, rfl⟩
abbrev main_v248 : Ref sig .tc := ⟨.hbm, 394, rfl⟩
abbrev main_c_87 : Ref sig .tc := ⟨.hbm, 395, rfl⟩
abbrev main_v249 : Ref sig .tc := ⟨.hbm, 396, rfl⟩
abbrev main_v250 : Ref sig .tc := ⟨.hbm, 397, rfl⟩
abbrev main_v251 : Ref sig .tc := ⟨.hbm, 398, rfl⟩
abbrev main_c_88 : Ref sig .tc := ⟨.hbm, 399, rfl⟩
abbrev main_v252 : Ref sig .tc := ⟨.hbm, 400, rfl⟩
abbrev main_v253 : Ref sig .tc := ⟨.hbm, 401, rfl⟩
abbrev main_c_89 : Ref sig .tc := ⟨.hbm, 402, rfl⟩
abbrev main_v254 : Ref sig .tc := ⟨.hbm, 403, rfl⟩
abbrev main_v255 : Ref sig .tc := ⟨.hbm, 404, rfl⟩
abbrev main_v256 : Ref sig .tc := ⟨.hbm, 405, rfl⟩
abbrev main_c_90 : Ref sig .tc := ⟨.hbm, 406, rfl⟩
abbrev main_v257 : Ref sig .tc := ⟨.hbm, 407, rfl⟩
abbrev main_v258 : Ref sig .tc := ⟨.hbm, 408, rfl⟩
abbrev main_c_91 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_v265 : Ref sig .tc := ⟨.hbm, 416, rfl⟩
abbrev main_v266 : Ref sig .tc := ⟨.hbm, 417, rfl⟩
abbrev main_c_92 : Ref sig .tc := ⟨.hbm, 418, rfl⟩
abbrev main_v267 : Ref sig .tc := ⟨.hbm, 419, rfl⟩
abbrev main_v268 : Ref sig .tc := ⟨.hbm, 420, rfl⟩
abbrev main_v269 : Ref sig .tc := ⟨.hbm, 421, rfl⟩
abbrev main_v270 : Ref sig .tc := ⟨.hbm, 422, rfl⟩
abbrev main_c_93 : Ref sig .tc := ⟨.hbm, 423, rfl⟩
abbrev main_v271 : Ref sig .tc := ⟨.hbm, 424, rfl⟩
abbrev main_v272 : Ref sig .tc := ⟨.hbm, 425, rfl⟩
abbrev main_c_94 : Ref sig .tc := ⟨.hbm, 426, rfl⟩
abbrev main_v273 : Ref sig .tc := ⟨.hbm, 427, rfl⟩
abbrev main_v274 : Ref sig .tc := ⟨.hbm, 428, rfl⟩
abbrev main_c_95 : Ref sig .tc := ⟨.hbm, 429, rfl⟩
abbrev main_v275 : Ref sig .tc := ⟨.hbm, 430, rfl⟩
abbrev main_v276 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_cst_96 : Ref sig .tc := ⟨.hbm, 435, rfl⟩
abbrev main_call12_v0 : Ref sig .tc := ⟨.hbm, 436, rfl⟩
abbrev main_call12_v1 : Ref sig .tc := ⟨.hbm, 437, rfl⟩
abbrev main_call12_v2 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_v286 : Ref sig .tc := ⟨.hbm, 445, rfl⟩
abbrev main_c_97 : Ref sig .tc := ⟨.hbm, 446, rfl⟩
abbrev main_v287 : Ref sig .tc := ⟨.hbm, 447, rfl⟩
abbrev main_v288 : Ref sig .tc := ⟨.hbm, 448, rfl⟩
abbrev main_v289 : Ref sig .tc := ⟨.hbm, 449, rfl⟩
abbrev main_v290 : Ref sig .tc := ⟨.hbm, 450, rfl⟩
abbrev main_c_98 : Ref sig .tc := ⟨.hbm, 451, rfl⟩
abbrev main_v291 : Ref sig .tc := ⟨.hbm, 452, rfl⟩
abbrev main_v292 : Ref sig .tc := ⟨.hbm, 453, rfl⟩
abbrev main_c_99 : Ref sig .tc := ⟨.hbm, 454, rfl⟩
abbrev main_v293 : Ref sig .tc := ⟨.hbm, 455, rfl⟩
abbrev main_v294 : Ref sig .tc := ⟨.hbm, 456, rfl⟩
abbrev main_c_100 : Ref sig .tc := ⟨.hbm, 457, rfl⟩
abbrev main_v295 : Ref sig .tc := ⟨.hbm, 458, rfl⟩
abbrev main_v296 : Ref sig .tc := ⟨.hbm, 459, rfl⟩
abbrev main_v297 : Ref sig .tc := ⟨.hbm, 460, rfl⟩
abbrev main_c_101 : Ref sig .tc := ⟨.hbm, 461, rfl⟩
abbrev main_v298 : Ref sig .tc := ⟨.hbm, 462, rfl⟩
abbrev main_v299 : Ref sig .tc := ⟨.hbm, 463, rfl⟩
abbrev main_v300 : Ref sig .tc := ⟨.hbm, 464, rfl⟩
abbrev main_c_102 : Ref sig .tc := ⟨.hbm, 465, rfl⟩
abbrev main_v301 : Ref sig .tc := ⟨.hbm, 466, rfl⟩
abbrev main_v302 : Ref sig .tc := ⟨.hbm, 467, rfl⟩
abbrev main_v303 : Ref sig .tc := ⟨.hbm, 468, rfl⟩
abbrev main_c_103 : Ref sig .tc := ⟨.hbm, 469, rfl⟩
abbrev main_c_104 : Ref sig .tc := ⟨.hbm, 470, rfl⟩
abbrev main_call13_v0 : Ref sig .tc := ⟨.hbm, 471, rfl⟩
abbrev main_call13_v1 : Ref sig .tc := ⟨.hbm, 472, rfl⟩
abbrev main_call13_v2 : Ref sig .tc := ⟨.hbm, 473, rfl⟩
abbrev main_call13_v3 : Ref sig .tc := ⟨.hbm, 474, rfl⟩
abbrev main_call13_v4 : Ref sig .tc := ⟨.hbm, 475, rfl⟩
abbrev main_v304 : Ref sig .tc := ⟨.hbm, 476, rfl⟩
abbrev main_c_105 : Ref sig .tc := ⟨.hbm, 477, rfl⟩
abbrev main_c_106 : Ref sig .tc := ⟨.hbm, 478, rfl⟩
abbrev main_call14_v0 : Ref sig .tc := ⟨.hbm, 479, rfl⟩
abbrev main_call14_v1 : Ref sig .tc := ⟨.hbm, 480, rfl⟩
abbrev main_call14_v2 : Ref sig .tc := ⟨.hbm, 481, rfl⟩
abbrev main_call14_v3 : Ref sig .tc := ⟨.hbm, 482, rfl⟩
abbrev main_call14_v4 : Ref sig .tc := ⟨.hbm, 483, rfl⟩
abbrev main_v305 : Ref sig .tc := ⟨.hbm, 484, rfl⟩
abbrev main_c_107 : Ref sig .tc := ⟨.hbm, 485, rfl⟩
abbrev main_v306 : Ref sig .tc := ⟨.hbm, 486, rfl⟩
abbrev main_v307 : Ref sig .tc := ⟨.hbm, 487, rfl⟩
abbrev main_c_108 : Ref sig .tc := ⟨.hbm, 488, rfl⟩
abbrev main_v308 : Ref sig .tc := ⟨.hbm, 489, rfl⟩
abbrev main_v309 : Ref sig .tc := ⟨.hbm, 490, rfl⟩
abbrev main_v310 : Ref sig .tc := ⟨.hbm, 491, rfl⟩
abbrev main_c_109 : Ref sig .tc := ⟨.hbm, 492, rfl⟩
abbrev main_v311 : Ref sig .tc := ⟨.hbm, 493, rfl⟩
abbrev main_v312 : Ref sig .tc := ⟨.hbm, 494, rfl⟩
abbrev main_c_110 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_c_111 : Ref sig .tc := ⟨.hbm, 499, rfl⟩
abbrev main_v316 : Ref sig .tc := ⟨.hbm, 500, rfl⟩
abbrev main_v317 : Ref sig .tc := ⟨.hbm, 501, rfl⟩
abbrev main_c_112 : Ref sig .tc := ⟨.hbm, 502, rfl⟩
abbrev main_v318 : Ref sig .tc := ⟨.hbm, 503, rfl⟩
abbrev main_v319 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_v323 : Ref sig .tc := ⟨.hbm, 508, rfl⟩
abbrev main_v324 : Ref sig .tc := ⟨.hbm, 509, rfl⟩
abbrev main_v325 : Ref sig .tc := ⟨.hbm, 510, rfl⟩
abbrev main_c_113 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_c_114 : Ref sig .tc := ⟨.hbm, 516, rfl⟩
abbrev main_v330 : Ref sig .tc := ⟨.hbm, 517, rfl⟩
abbrev main_v331 : Ref sig .tc := ⟨.hbm, 518, rfl⟩
abbrev main_c_115 : Ref sig .tc := ⟨.hbm, 519, rfl⟩
abbrev main_v332 : Ref sig .tc := ⟨.hbm, 520, rfl⟩
abbrev main_v333 : Ref sig .tc := ⟨.hbm, 521, rfl⟩
abbrev main_c_116 : Ref sig .tc := ⟨.hbm, 522, rfl⟩
abbrev main_v334 : Ref sig .tc := ⟨.hbm, 523, rfl⟩
abbrev main_v335 : Ref sig .tc := ⟨.hbm, 524, rfl⟩
abbrev main_v336 : Ref sig .tc := ⟨.hbm, 525, rfl⟩
abbrev main_v337 : Ref sig .tc := ⟨.hbm, 526, rfl⟩
abbrev main_v338 : Ref sig .tc := ⟨.hbm, 527, rfl⟩
abbrev main_cst_117 : Ref sig .tc := ⟨.hbm, 528, rfl⟩
abbrev main_call15_v0 : Ref sig .tc := ⟨.hbm, 529, rfl⟩
abbrev main_call15_v1 : Ref sig .tc := ⟨.hbm, 530, rfl⟩
abbrev main_call15_v2 : Ref sig .tc := ⟨.hbm, 531, rfl⟩
abbrev main_v339 : Ref sig .tc := ⟨.hbm, 532, rfl⟩
abbrev main_v340 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_v344 : Ref sig .tc := ⟨.hbm, 537, rfl⟩
abbrev main_v345 : Ref sig .tc := ⟨.hbm, 538, rfl⟩
abbrev main_c_118 : Ref sig .tc := ⟨.hbm, 539, rfl⟩
abbrev main_v346 : Ref sig .tc := ⟨.hbm, 540, rfl⟩
abbrev main_v347 : Ref sig .tc := ⟨.hbm, 541, rfl⟩
abbrev main_v348 : Ref sig .tc := ⟨.hbm, 542, rfl⟩
abbrev main_v349 : Ref sig .tc := ⟨.hbm, 543, rfl⟩
abbrev main_c_119 : Ref sig .tc := ⟨.hbm, 544, rfl⟩
abbrev main_v350 : Ref sig .tc := ⟨.hbm, 545, rfl⟩
abbrev main_v351 : Ref sig .tc := ⟨.hbm, 546, rfl⟩
abbrev main_c_120 : Ref sig .tc := ⟨.hbm, 547, rfl⟩
abbrev main_v352 : Ref sig .tc := ⟨.hbm, 548, rfl⟩
abbrev main_v353 : Ref sig .tc := ⟨.hbm, 549, rfl⟩
abbrev main_c_121 : Ref sig .tc := ⟨.hbm, 550, rfl⟩
abbrev main_v354 : Ref sig .tc := ⟨.hbm, 551, rfl⟩
abbrev main_v355 : Ref sig .tc := ⟨.hbm, 552, rfl⟩
abbrev main_v356 : Ref sig .tc := ⟨.hbm, 553, rfl⟩
abbrev main_c_122 : Ref sig .tc := ⟨.hbm, 554, rfl⟩
abbrev main_v357 : Ref sig .tc := ⟨.hbm, 555, rfl⟩
abbrev main_v358 : Ref sig .tc := ⟨.hbm, 556, rfl⟩
abbrev main_v359 : Ref sig .tc := ⟨.hbm, 557, rfl⟩
abbrev main_c_123 : Ref sig .tc := ⟨.hbm, 558, rfl⟩
abbrev main_v360 : Ref sig .tc := ⟨.hbm, 559, rfl⟩
abbrev main_v361 : Ref sig .tc := ⟨.hbm, 560, rfl⟩
abbrev main_v362 : Ref sig .tc := ⟨.hbm, 561, rfl⟩
abbrev main_c_124 : Ref sig .tc := ⟨.hbm, 562, rfl⟩
abbrev main_c_125 : Ref sig .tc := ⟨.hbm, 563, rfl⟩
abbrev main_call16_v0 : Ref sig .tc := ⟨.hbm, 564, rfl⟩
abbrev main_call16_v1 : Ref sig .tc := ⟨.hbm, 565, rfl⟩
abbrev main_call16_v2 : Ref sig .tc := ⟨.hbm, 566, rfl⟩
abbrev main_call16_v3 : Ref sig .tc := ⟨.hbm, 567, rfl⟩
abbrev main_call16_v4 : Ref sig .tc := ⟨.hbm, 568, rfl⟩
abbrev main_v363 : Ref sig .tc := ⟨.hbm, 569, rfl⟩
abbrev main_c_126 : Ref sig .tc := ⟨.hbm, 570, rfl⟩
abbrev main_c_127 : Ref sig .tc := ⟨.hbm, 571, rfl⟩
abbrev main_call17_v0 : Ref sig .tc := ⟨.hbm, 572, rfl⟩
abbrev main_call17_v1 : Ref sig .tc := ⟨.hbm, 573, rfl⟩
abbrev main_call17_v2 : Ref sig .tc := ⟨.hbm, 574, rfl⟩
abbrev main_call17_v3 : Ref sig .tc := ⟨.hbm, 575, rfl⟩
abbrev main_call17_v4 : Ref sig .tc := ⟨.hbm, 576, rfl⟩
abbrev main_v364 : Ref sig .tc := ⟨.hbm, 577, rfl⟩
abbrev main_c_128 : Ref sig .tc := ⟨.hbm, 578, rfl⟩
abbrev main_v365 : Ref sig .tc := ⟨.hbm, 579, rfl⟩
abbrev main_v366 : Ref sig .tc := ⟨.hbm, 580, rfl⟩
abbrev main_c_129 : Ref sig .tc := ⟨.hbm, 581, rfl⟩
abbrev main_v367 : Ref sig .tc := ⟨.hbm, 582, rfl⟩
abbrev main_v368 : Ref sig .tc := ⟨.hbm, 583, rfl⟩
abbrev main_v369 : Ref sig .tc := ⟨.hbm, 584, rfl⟩
abbrev main_c_130 : Ref sig .tc := ⟨.hbm, 585, rfl⟩
abbrev main_v370 : Ref sig .tc := ⟨.hbm, 586, rfl⟩
abbrev main_v371 : Ref sig .tc := ⟨.hbm, 587, rfl⟩
abbrev main_c_131 : Ref sig .tc := ⟨.hbm, 588, rfl⟩
abbrev main_v372 : Ref sig .tc := ⟨.hbm, 589, rfl⟩
abbrev main_v373 : Ref sig .tc := ⟨.hbm, 590, rfl⟩
abbrev main_v374 : Ref sig .tc := ⟨.hbm, 591, rfl⟩
abbrev main_c_132 : Ref sig .tc := ⟨.hbm, 592, rfl⟩
abbrev main_v375 : Ref sig .tc := ⟨.hbm, 593, rfl⟩
abbrev main_v376 : Ref sig .tc := ⟨.hbm, 594, rfl⟩
abbrev main_c_133 : Ref sig .tc := ⟨.hbm, 595, rfl⟩
abbrev main_v377 : Ref sig .tc := ⟨.hbm, 596, rfl⟩
abbrev main_v378 : Ref sig .tc := ⟨.hbm, 597, rfl⟩
abbrev main_v379 : Ref sig .tc := ⟨.hbm, 598, rfl⟩
abbrev main_v380 : Ref sig .tc := ⟨.hbm, 599, rfl⟩
abbrev main_v381 : Ref sig .tc := ⟨.hbm, 600, rfl⟩
abbrev main_v382 : Ref sig .tc := ⟨.hbm, 601, rfl⟩
abbrev main_v383 : Ref sig .tc := ⟨.hbm, 602, rfl⟩
abbrev main_v384 : Ref sig .tc := ⟨.hbm, 603, rfl⟩
abbrev main_c_134 : Ref sig .tc := ⟨.hbm, 604, rfl⟩
abbrev main_v385 : Ref sig .tc := ⟨.hbm, 605, rfl⟩
abbrev main_v386 : Ref sig .tc := ⟨.hbm, 606, rfl⟩
abbrev main_v387 : Ref sig .tc := ⟨.hbm, 607, rfl⟩
abbrev main_v388 : Ref sig .tc := ⟨.hbm, 608, rfl⟩
abbrev main_c_135 : Ref sig .tc := ⟨.hbm, 609, rfl⟩
abbrev main_v389 : Ref sig .tc := ⟨.hbm, 610, rfl⟩
abbrev main_v390 : Ref sig .tc := ⟨.hbm, 611, rfl⟩
abbrev main_c_136 : Ref sig .tc := ⟨.hbm, 612, rfl⟩
abbrev main_v391 : Ref sig .tc := ⟨.hbm, 613, rfl⟩
abbrev main_v392 : Ref sig .tc := ⟨.hbm, 614, rfl⟩
abbrev main_c_137 : Ref sig .tc := ⟨.hbm, 615, rfl⟩
abbrev main_v393 : Ref sig .tc := ⟨.hbm, 616, rfl⟩
abbrev main_v394 : Ref sig .tc := ⟨.hbm, 617, rfl⟩
abbrev main_v395 : Ref sig .tc := ⟨.hbm, 618, rfl⟩
abbrev main_v396 : Ref sig .tc := ⟨.hbm, 619, rfl⟩
abbrev main_v397 : Ref sig .tc := ⟨.hbm, 620, rfl⟩
abbrev main_cst_138 : Ref sig .tc := ⟨.hbm, 621, rfl⟩
abbrev main_call18_v0 : Ref sig .tc := ⟨.hbm, 622, rfl⟩
abbrev main_call18_v1 : Ref sig .tc := ⟨.hbm, 623, rfl⟩
abbrev main_call18_v2 : Ref sig .tc := ⟨.hbm, 624, rfl⟩
abbrev main_v398 : Ref sig .tc := ⟨.hbm, 625, rfl⟩
abbrev main_v399 : Ref sig .tc := ⟨.hbm, 626, rfl⟩
abbrev main_v400 : Ref sig .tc := ⟨.hbm, 627, rfl⟩
abbrev main_v401 : Ref sig .tc := ⟨.hbm, 628, rfl⟩
abbrev main_v402 : Ref sig .tc := ⟨.hbm, 629, rfl⟩
abbrev main_v403 : Ref sig .tc := ⟨.hbm, 630, rfl⟩
abbrev main_v404 : Ref sig .tc := ⟨.hbm, 631, rfl⟩
abbrev main_c_139 : Ref sig .tc := ⟨.hbm, 632, rfl⟩
abbrev main_v405 : Ref sig .tc := ⟨.hbm, 633, rfl⟩
abbrev main_v406 : Ref sig .tc := ⟨.hbm, 634, rfl⟩
abbrev main_v407 : Ref sig .tc := ⟨.hbm, 635, rfl⟩
abbrev main_v408 : Ref sig .tc := ⟨.hbm, 636, rfl⟩
abbrev main_c_140 : Ref sig .tc := ⟨.hbm, 637, rfl⟩
abbrev main_v409 : Ref sig .tc := ⟨.hbm, 638, rfl⟩
abbrev main_v410 : Ref sig .tc := ⟨.hbm, 639, rfl⟩
abbrev main_c_141 : Ref sig .tc := ⟨.hbm, 640, rfl⟩
abbrev main_v411 : Ref sig .tc := ⟨.hbm, 641, rfl⟩
abbrev main_v412 : Ref sig .tc := ⟨.hbm, 642, rfl⟩
abbrev main_c_142 : Ref sig .tc := ⟨.hbm, 643, rfl⟩
abbrev main_v413 : Ref sig .tc := ⟨.hbm, 644, rfl⟩
abbrev main_v414 : Ref sig .tc := ⟨.hbm, 645, rfl⟩
abbrev main_v415 : Ref sig .tc := ⟨.hbm, 646, rfl⟩
abbrev main_c_143 : Ref sig .tc := ⟨.hbm, 647, rfl⟩
abbrev main_v416 : Ref sig .tc := ⟨.hbm, 648, rfl⟩
abbrev main_v417 : Ref sig .tc := ⟨.hbm, 649, rfl⟩
abbrev main_v418 : Ref sig .tc := ⟨.hbm, 650, rfl⟩
abbrev main_c_144 : Ref sig .tc := ⟨.hbm, 651, rfl⟩
abbrev main_v419 : Ref sig .tc := ⟨.hbm, 652, rfl⟩
abbrev main_v420 : Ref sig .tc := ⟨.hbm, 653, rfl⟩
abbrev main_v421 : Ref sig .tc := ⟨.hbm, 654, rfl⟩
abbrev main_c_145 : Ref sig .tc := ⟨.hbm, 655, rfl⟩
abbrev main_c_146 : Ref sig .tc := ⟨.hbm, 656, rfl⟩
abbrev main_call19_v0 : Ref sig .tc := ⟨.hbm, 657, rfl⟩
abbrev main_call19_v1 : Ref sig .tc := ⟨.hbm, 658, rfl⟩
abbrev main_call19_v2 : Ref sig .tc := ⟨.hbm, 659, rfl⟩
abbrev main_call19_v3 : Ref sig .tc := ⟨.hbm, 660, rfl⟩
abbrev main_call19_v4 : Ref sig .tc := ⟨.hbm, 661, rfl⟩
abbrev main_v422 : Ref sig .tc := ⟨.hbm, 662, rfl⟩
abbrev main_c_147 : Ref sig .tc := ⟨.hbm, 663, rfl⟩
abbrev main_c_148 : Ref sig .tc := ⟨.hbm, 664, rfl⟩
abbrev main_call20_v0 : Ref sig .tc := ⟨.hbm, 665, rfl⟩
abbrev main_call20_v1 : Ref sig .tc := ⟨.hbm, 666, rfl⟩
abbrev main_call20_v2 : Ref sig .tc := ⟨.hbm, 667, rfl⟩
abbrev main_call20_v3 : Ref sig .tc := ⟨.hbm, 668, rfl⟩
abbrev main_call20_v4 : Ref sig .tc := ⟨.hbm, 669, rfl⟩
abbrev main_v423 : Ref sig .tc := ⟨.hbm, 670, rfl⟩
abbrev main_c_149 : Ref sig .tc := ⟨.hbm, 671, rfl⟩
abbrev main_v424 : Ref sig .tc := ⟨.hbm, 672, rfl⟩
abbrev main_v425 : Ref sig .tc := ⟨.hbm, 673, rfl⟩
abbrev main_c_150 : Ref sig .tc := ⟨.hbm, 674, rfl⟩
abbrev main_v426 : Ref sig .tc := ⟨.hbm, 675, rfl⟩
abbrev main_v427 : Ref sig .tc := ⟨.hbm, 676, rfl⟩
abbrev main_v428 : Ref sig .tc := ⟨.hbm, 677, rfl⟩
abbrev main_c_151 : Ref sig .tc := ⟨.hbm, 678, rfl⟩
abbrev main_v429 : Ref sig .tc := ⟨.hbm, 679, rfl⟩
abbrev main_v430 : Ref sig .tc := ⟨.hbm, 680, rfl⟩
abbrev main_c_152 : Ref sig .tc := ⟨.hbm, 681, rfl⟩
abbrev main_v431 : Ref sig .tc := ⟨.hbm, 682, rfl⟩
abbrev main_v432 : Ref sig .tc := ⟨.hbm, 683, rfl⟩
abbrev main_v433 : Ref sig .tc := ⟨.hbm, 684, rfl⟩
abbrev main_c_153 : Ref sig .tc := ⟨.hbm, 685, rfl⟩
abbrev main_v434 : Ref sig .tc := ⟨.hbm, 686, rfl⟩
abbrev main_v435 : Ref sig .tc := ⟨.hbm, 687, rfl⟩
abbrev main_c_154 : Ref sig .tc := ⟨.hbm, 688, rfl⟩
abbrev main_v436 : Ref sig .tc := ⟨.hbm, 689, rfl⟩
abbrev main_v437 : Ref sig .tc := ⟨.hbm, 690, rfl⟩
abbrev main_v438 : Ref sig .tc := ⟨.hbm, 691, rfl⟩
abbrev main_v439 : Ref sig .tc := ⟨.hbm, 692, rfl⟩
abbrev main_v440 : Ref sig .tc := ⟨.hbm, 693, rfl⟩
abbrev main_v441 : Ref sig .tc := ⟨.hbm, 694, rfl⟩
abbrev main_v442 : Ref sig .tc := ⟨.hbm, 695, rfl⟩
abbrev main_v443 : Ref sig .tc := ⟨.hbm, 696, rfl⟩
abbrev main_c_155 : Ref sig .tc := ⟨.hbm, 697, rfl⟩
abbrev main_v444 : Ref sig .tc := ⟨.hbm, 698, rfl⟩
abbrev main_v445 : Ref sig .tc := ⟨.hbm, 699, rfl⟩
abbrev main_v446 : Ref sig .tc := ⟨.hbm, 700, rfl⟩
abbrev main_v447 : Ref sig .tc := ⟨.hbm, 701, rfl⟩
abbrev main_c_156 : Ref sig .tc := ⟨.hbm, 702, rfl⟩
abbrev main_v448 : Ref sig .tc := ⟨.hbm, 703, rfl⟩
abbrev main_v449 : Ref sig .tc := ⟨.hbm, 704, rfl⟩
abbrev main_c_157 : Ref sig .tc := ⟨.hbm, 705, rfl⟩
abbrev main_v450 : Ref sig .tc := ⟨.hbm, 706, rfl⟩
abbrev main_v451 : Ref sig .tc := ⟨.hbm, 707, rfl⟩
abbrev main_c_158 : Ref sig .tc := ⟨.hbm, 708, rfl⟩
abbrev main_v452 : Ref sig .tc := ⟨.hbm, 709, rfl⟩
abbrev main_v453 : Ref sig .tc := ⟨.hbm, 710, rfl⟩
abbrev main_v454 : Ref sig .tc := ⟨.hbm, 711, rfl⟩
abbrev main_v455 : Ref sig .tc := ⟨.hbm, 712, rfl⟩
abbrev main_v456 : Ref sig .tc := ⟨.hbm, 713, rfl⟩
abbrev main_cst_159 : Ref sig .tc := ⟨.hbm, 714, rfl⟩
abbrev main_call21_v0 : Ref sig .tc := ⟨.hbm, 715, rfl⟩
abbrev main_call21_v1 : Ref sig .tc := ⟨.hbm, 716, rfl⟩
abbrev main_call21_v2 : Ref sig .tc := ⟨.hbm, 717, rfl⟩
abbrev main_v457 : Ref sig .tc := ⟨.hbm, 718, rfl⟩
abbrev main_v458 : Ref sig .tc := ⟨.hbm, 719, rfl⟩
abbrev main_v459 : Ref sig .tc := ⟨.hbm, 720, rfl⟩
abbrev main_v460 : Ref sig .tc := ⟨.hbm, 721, rfl⟩
abbrev main_v461 : Ref sig .tc := ⟨.hbm, 722, rfl⟩
abbrev main_v462 : Ref sig .tc := ⟨.hbm, 723, rfl⟩
abbrev main_v463 : Ref sig .tc := ⟨.hbm, 724, rfl⟩
abbrev main_c_160 : Ref sig .tc := ⟨.hbm, 725, rfl⟩
abbrev main_v464 : Ref sig .tc := ⟨.hbm, 726, rfl⟩
abbrev main_v465 : Ref sig .tc := ⟨.hbm, 727, rfl⟩
abbrev main_v466 : Ref sig .tc := ⟨.hbm, 728, rfl⟩
abbrev main_v467 : Ref sig .tc := ⟨.hbm, 729, rfl⟩
abbrev main_c_161 : Ref sig .tc := ⟨.hbm, 730, rfl⟩
abbrev main_v468 : Ref sig .tc := ⟨.hbm, 731, rfl⟩
abbrev main_v469 : Ref sig .tc := ⟨.hbm, 732, rfl⟩
abbrev main_c_162 : Ref sig .tc := ⟨.hbm, 733, rfl⟩
abbrev main_v470 : Ref sig .tc := ⟨.hbm, 734, rfl⟩
abbrev main_v471 : Ref sig .tc := ⟨.hbm, 735, rfl⟩
abbrev main_c_163 : Ref sig .tc := ⟨.hbm, 736, rfl⟩
abbrev main_v472 : Ref sig .tc := ⟨.hbm, 737, rfl⟩
abbrev main_v473 : Ref sig .tc := ⟨.hbm, 738, rfl⟩
abbrev main_v474 : Ref sig .tc := ⟨.hbm, 739, rfl⟩
abbrev main_c_164 : Ref sig .tc := ⟨.hbm, 740, rfl⟩
abbrev main_v475 : Ref sig .tc := ⟨.hbm, 741, rfl⟩
abbrev main_v476 : Ref sig .tc := ⟨.hbm, 742, rfl⟩
abbrev main_v477 : Ref sig .tc := ⟨.hbm, 743, rfl⟩
abbrev main_c_165 : Ref sig .tc := ⟨.hbm, 744, rfl⟩
abbrev main_v478 : Ref sig .tc := ⟨.hbm, 745, rfl⟩
abbrev main_v479 : Ref sig .tc := ⟨.hbm, 746, rfl⟩
abbrev main_v480 : Ref sig .tc := ⟨.hbm, 747, rfl⟩
abbrev main_c_166 : Ref sig .tc := ⟨.hbm, 748, rfl⟩
abbrev main_c_167 : Ref sig .tc := ⟨.hbm, 749, rfl⟩
abbrev main_call22_v0 : Ref sig .tc := ⟨.hbm, 750, rfl⟩
abbrev main_call22_v1 : Ref sig .tc := ⟨.hbm, 751, rfl⟩
abbrev main_call22_v2 : Ref sig .tc := ⟨.hbm, 752, rfl⟩
abbrev main_call22_v3 : Ref sig .tc := ⟨.hbm, 753, rfl⟩
abbrev main_call22_v4 : Ref sig .tc := ⟨.hbm, 754, rfl⟩
abbrev main_v481 : Ref sig .tc := ⟨.hbm, 755, rfl⟩
abbrev main_c_168 : Ref sig .tc := ⟨.hbm, 756, rfl⟩
abbrev main_c_169 : Ref sig .tc := ⟨.hbm, 757, rfl⟩
abbrev main_call23_v0 : Ref sig .tc := ⟨.hbm, 758, rfl⟩
abbrev main_call23_v1 : Ref sig .tc := ⟨.hbm, 759, rfl⟩
abbrev main_call23_v2 : Ref sig .tc := ⟨.hbm, 760, rfl⟩
abbrev main_call23_v3 : Ref sig .tc := ⟨.hbm, 761, rfl⟩
abbrev main_call23_v4 : Ref sig .tc := ⟨.hbm, 762, rfl⟩
abbrev main_v482 : Ref sig .tc := ⟨.hbm, 763, rfl⟩
abbrev main_c_170 : Ref sig .tc := ⟨.hbm, 764, rfl⟩
abbrev main_v483 : Ref sig .tc := ⟨.hbm, 765, rfl⟩
abbrev main_v484 : Ref sig .tc := ⟨.hbm, 766, rfl⟩
abbrev main_c_171 : Ref sig .tc := ⟨.hbm, 767, rfl⟩
abbrev main_v485 : Ref sig .tc := ⟨.hbm, 768, rfl⟩
abbrev main_v486 : Ref sig .tc := ⟨.hbm, 769, rfl⟩
abbrev main_v487 : Ref sig .tc := ⟨.hbm, 770, rfl⟩
abbrev main_c_172 : Ref sig .tc := ⟨.hbm, 771, rfl⟩
abbrev main_v488 : Ref sig .tc := ⟨.hbm, 772, rfl⟩
abbrev main_v489 : Ref sig .tc := ⟨.hbm, 773, rfl⟩
abbrev main_c_173 : Ref sig .tc := ⟨.hbm, 774, rfl⟩
abbrev main_v490 : Ref sig .tc := ⟨.hbm, 775, rfl⟩
abbrev main_v491 : Ref sig .tc := ⟨.hbm, 776, rfl⟩
abbrev main_v492 : Ref sig .tc := ⟨.hbm, 777, rfl⟩
abbrev main_c_174 : Ref sig .tc := ⟨.hbm, 778, rfl⟩
abbrev main_v493 : Ref sig .tc := ⟨.hbm, 779, rfl⟩
abbrev main_v494 : Ref sig .tc := ⟨.hbm, 780, rfl⟩
abbrev main_c_175 : Ref sig .tc := ⟨.hbm, 781, rfl⟩
abbrev main_v495 : Ref sig .tc := ⟨.hbm, 782, rfl⟩
abbrev main_v496 : Ref sig .tc := ⟨.hbm, 783, rfl⟩
abbrev main_v497 : Ref sig .tc := ⟨.hbm, 784, rfl⟩
abbrev main_v498 : Ref sig .tc := ⟨.hbm, 785, rfl⟩
abbrev main_v499 : Ref sig .tc := ⟨.hbm, 786, rfl⟩
abbrev main_v500 : Ref sig .tc := ⟨.hbm, 787, rfl⟩
abbrev main_v501 : Ref sig .tc := ⟨.hbm, 788, rfl⟩
abbrev main_v502 : Ref sig .tc := ⟨.hbm, 789, rfl⟩
abbrev main_c_176 : Ref sig .tc := ⟨.hbm, 790, rfl⟩
abbrev main_v503 : Ref sig .tc := ⟨.hbm, 791, rfl⟩
abbrev main_v504 : Ref sig .tc := ⟨.hbm, 792, rfl⟩
abbrev main_v505 : Ref sig .tc := ⟨.hbm, 793, rfl⟩
abbrev main_v506 : Ref sig .tc := ⟨.hbm, 794, rfl⟩
abbrev main_c_177 : Ref sig .tc := ⟨.hbm, 795, rfl⟩
abbrev main_v507 : Ref sig .tc := ⟨.hbm, 796, rfl⟩
abbrev main_v508 : Ref sig .tc := ⟨.hbm, 797, rfl⟩
abbrev main_c_178 : Ref sig .tc := ⟨.hbm, 798, rfl⟩
abbrev main_v509 : Ref sig .tc := ⟨.hbm, 799, rfl⟩
abbrev main_v510 : Ref sig .tc := ⟨.hbm, 800, rfl⟩
abbrev main_c_179 : Ref sig .tc := ⟨.hbm, 801, rfl⟩
abbrev main_v511 : Ref sig .tc := ⟨.hbm, 802, rfl⟩
abbrev main_v512 : Ref sig .tc := ⟨.hbm, 803, rfl⟩
abbrev main_v513 : Ref sig .tc := ⟨.hbm, 804, rfl⟩
abbrev main_v514 : Ref sig .tc := ⟨.hbm, 805, rfl⟩
abbrev main_v515 : Ref sig .tc := ⟨.hbm, 806, rfl⟩
abbrev main_cst_180 : Ref sig .tc := ⟨.hbm, 807, rfl⟩
abbrev main_call24_v0 : Ref sig .tc := ⟨.hbm, 808, rfl⟩
abbrev main_call24_v1 : Ref sig .tc := ⟨.hbm, 809, rfl⟩
abbrev main_call24_v2 : Ref sig .tc := ⟨.hbm, 810, rfl⟩
abbrev main_v516 : Ref sig .tc := ⟨.hbm, 811, rfl⟩
abbrev main_v517 : Ref sig .tc := ⟨.hbm, 812, rfl⟩
abbrev main_v518 : Ref sig .tc := ⟨.hbm, 813, rfl⟩
abbrev main_v519 : Ref sig .tc := ⟨.hbm, 814, rfl⟩
abbrev main_v520 : Ref sig .tc := ⟨.hbm, 815, rfl⟩
abbrev main_v521 : Ref sig .tc := ⟨.hbm, 816, rfl⟩
abbrev main_v522 : Ref sig .tc := ⟨.hbm, 817, rfl⟩
abbrev main_c_181 : Ref sig .tc := ⟨.hbm, 818, rfl⟩
abbrev main_v523 : Ref sig .tc := ⟨.hbm, 819, rfl⟩
abbrev main_v524 : Ref sig .tc := ⟨.hbm, 820, rfl⟩
abbrev main_v525 : Ref sig .tc := ⟨.hbm, 821, rfl⟩
abbrev main_v526 : Ref sig .tc := ⟨.hbm, 822, rfl⟩
abbrev main_c_182 : Ref sig .tc := ⟨.hbm, 823, rfl⟩
abbrev main_v527 : Ref sig .tc := ⟨.hbm, 824, rfl⟩
abbrev main_v528 : Ref sig .tc := ⟨.hbm, 825, rfl⟩
abbrev main_c_183 : Ref sig .tc := ⟨.hbm, 826, rfl⟩
abbrev main_v529 : Ref sig .tc := ⟨.hbm, 827, rfl⟩
abbrev main_v530 : Ref sig .tc := ⟨.hbm, 828, rfl⟩
abbrev main_c_184 : Ref sig .tc := ⟨.hbm, 829, rfl⟩
abbrev main_v531 : Ref sig .tc := ⟨.hbm, 830, rfl⟩
abbrev main_v532 : Ref sig .tc := ⟨.hbm, 831, rfl⟩
abbrev main_v533 : Ref sig .tc := ⟨.hbm, 832, rfl⟩
abbrev main_c_185 : Ref sig .tc := ⟨.hbm, 833, rfl⟩
abbrev main_v534 : Ref sig .tc := ⟨.hbm, 834, rfl⟩
abbrev main_v535 : Ref sig .tc := ⟨.hbm, 835, rfl⟩
abbrev main_v536 : Ref sig .tc := ⟨.hbm, 836, rfl⟩
abbrev main_c_186 : Ref sig .tc := ⟨.hbm, 837, rfl⟩
abbrev main_v537 : Ref sig .tc := ⟨.hbm, 838, rfl⟩
abbrev main_v538 : Ref sig .tc := ⟨.hbm, 839, rfl⟩
abbrev main_v539 : Ref sig .tc := ⟨.hbm, 840, rfl⟩
abbrev main_c_187 : Ref sig .tc := ⟨.hbm, 841, rfl⟩
abbrev main_c_188 : Ref sig .tc := ⟨.hbm, 842, rfl⟩
abbrev main_call25_v0 : Ref sig .tc := ⟨.hbm, 843, rfl⟩
abbrev main_call25_v1 : Ref sig .tc := ⟨.hbm, 844, rfl⟩
abbrev main_call25_v2 : Ref sig .tc := ⟨.hbm, 845, rfl⟩
abbrev main_call25_v3 : Ref sig .tc := ⟨.hbm, 846, rfl⟩
abbrev main_call25_v4 : Ref sig .tc := ⟨.hbm, 847, rfl⟩
abbrev main_v540 : Ref sig .tc := ⟨.hbm, 848, rfl⟩
abbrev main_c_189 : Ref sig .tc := ⟨.hbm, 849, rfl⟩
abbrev main_c_190 : Ref sig .tc := ⟨.hbm, 850, rfl⟩
abbrev main_call26_v0 : Ref sig .tc := ⟨.hbm, 851, rfl⟩
abbrev main_call26_v1 : Ref sig .tc := ⟨.hbm, 852, rfl⟩
abbrev main_call26_v2 : Ref sig .tc := ⟨.hbm, 853, rfl⟩
abbrev main_call26_v3 : Ref sig .tc := ⟨.hbm, 854, rfl⟩
abbrev main_call26_v4 : Ref sig .tc := ⟨.hbm, 855, rfl⟩
abbrev main_v541 : Ref sig .tc := ⟨.hbm, 856, rfl⟩
abbrev main_c_191 : Ref sig .tc := ⟨.hbm, 857, rfl⟩
abbrev main_v542 : Ref sig .tc := ⟨.hbm, 858, rfl⟩
abbrev main_v543 : Ref sig .tc := ⟨.hbm, 859, rfl⟩
abbrev main_c_192 : Ref sig .tc := ⟨.hbm, 860, rfl⟩
abbrev main_v544 : Ref sig .tc := ⟨.hbm, 861, rfl⟩
abbrev main_v545 : Ref sig .tc := ⟨.hbm, 862, rfl⟩
abbrev main_v546 : Ref sig .tc := ⟨.hbm, 863, rfl⟩
abbrev main_c_193 : Ref sig .tc := ⟨.hbm, 864, rfl⟩
abbrev main_v547 : Ref sig .tc := ⟨.hbm, 865, rfl⟩
abbrev main_v548 : Ref sig .tc := ⟨.hbm, 866, rfl⟩
abbrev main_c_194 : Ref sig .tc := ⟨.hbm, 867, rfl⟩
abbrev main_v549 : Ref sig .tc := ⟨.hbm, 868, rfl⟩
abbrev main_v550 : Ref sig .tc := ⟨.hbm, 869, rfl⟩
abbrev main_v551 : Ref sig .tc := ⟨.hbm, 870, rfl⟩
abbrev main_c_195 : Ref sig .tc := ⟨.hbm, 871, rfl⟩
abbrev main_v552 : Ref sig .tc := ⟨.hbm, 872, rfl⟩
abbrev main_v553 : Ref sig .tc := ⟨.hbm, 873, rfl⟩
abbrev main_c_196 : Ref sig .tc := ⟨.hbm, 874, rfl⟩
abbrev main_v554 : Ref sig .tc := ⟨.hbm, 875, rfl⟩
abbrev main_v555 : Ref sig .tc := ⟨.hbm, 876, rfl⟩
abbrev main_v556 : Ref sig .tc := ⟨.hbm, 877, rfl⟩
abbrev main_v557 : Ref sig .tc := ⟨.hbm, 878, rfl⟩
abbrev main_v558 : Ref sig .tc := ⟨.hbm, 879, rfl⟩
abbrev main_v559 : Ref sig .tc := ⟨.hbm, 880, rfl⟩
abbrev main_v560 : Ref sig .tc := ⟨.hbm, 881, rfl⟩
abbrev main_v561 : Ref sig .tc := ⟨.hbm, 882, rfl⟩
abbrev main_c_197 : Ref sig .tc := ⟨.hbm, 883, rfl⟩
abbrev main_v562 : Ref sig .tc := ⟨.hbm, 884, rfl⟩
abbrev main_v563 : Ref sig .tc := ⟨.hbm, 885, rfl⟩
abbrev main_v564 : Ref sig .tc := ⟨.hbm, 886, rfl⟩
abbrev main_v565 : Ref sig .tc := ⟨.hbm, 887, rfl⟩
abbrev main_c_198 : Ref sig .tc := ⟨.hbm, 888, rfl⟩
abbrev main_v566 : Ref sig .tc := ⟨.hbm, 889, rfl⟩
abbrev main_v567 : Ref sig .tc := ⟨.hbm, 890, rfl⟩
abbrev main_c_199 : Ref sig .tc := ⟨.hbm, 891, rfl⟩
abbrev main_v568 : Ref sig .tc := ⟨.hbm, 892, rfl⟩
abbrev main_v569 : Ref sig .tc := ⟨.hbm, 893, rfl⟩
abbrev main_c_200 : Ref sig .tc := ⟨.hbm, 894, rfl⟩
abbrev main_v570 : Ref sig .tc := ⟨.hbm, 895, rfl⟩
abbrev main_v571 : Ref sig .tc := ⟨.hbm, 896, rfl⟩
abbrev main_v572 : Ref sig .tc := ⟨.hbm, 897, rfl⟩
abbrev main_v573 : Ref sig .tc := ⟨.hbm, 898, rfl⟩
abbrev main_v574 : Ref sig .tc := ⟨.hbm, 899, rfl⟩
abbrev main_cst_201 : Ref sig .tc := ⟨.hbm, 900, rfl⟩
abbrev main_call27_v0 : Ref sig .tc := ⟨.hbm, 901, rfl⟩
abbrev main_call27_v1 : Ref sig .tc := ⟨.hbm, 902, rfl⟩
abbrev main_call27_v2 : Ref sig .tc := ⟨.hbm, 903, rfl⟩
abbrev main_v575 : Ref sig .tc := ⟨.hbm, 904, rfl⟩
abbrev main_v576 : Ref sig .tc := ⟨.hbm, 905, rfl⟩
abbrev main_v577 : Ref sig .tc := ⟨.hbm, 906, rfl⟩
abbrev main_v578 : Ref sig .tc := ⟨.hbm, 907, rfl⟩
abbrev main_v579 : Ref sig .tc := ⟨.hbm, 908, rfl⟩
abbrev main_v580 : Ref sig .tc := ⟨.hbm, 909, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S_S4x32768x2 : S_.BroadcastsInDim S4x32768x2 (![] : Fin 0 → Fin S4x32768x2.rank)
  shapeCasts_S4x32768x2_S131072x2 : S4x32768x2.ShapeCasts S131072x2
  reducesTo_S131072x2_S2_d0 : S131072x2.ReducesTo [0] S2
  h_S_ : 0 < S_.numel
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S4_S4x32768_0 : S4.BroadcastsInDim S4x32768 (![0] : Fin 1 → Fin S4x32768.rank)
  shapeCasts_S4x32768_S131072 : S4x32768.ShapeCasts S131072
  shapeCasts_S4x32768x64_S131072x64 : S4x32768x64.ShapeCasts S131072x64
  bcast_S_S4x256x256 : S_.BroadcastsInDim S4x256x256 (![] : Fin 0 → Fin S4x256x256.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  bcast_S_S131072x64 : S_.BroadcastsInDim S131072x64 (![] : Fin 0 → Fin S131072x64.rank)
  bcast_S131072x1_S131072x64_0_1 : S131072x1.BroadcastsInDim S131072x64 (![0, 1] : Fin 2 → Fin S131072x64.rank)
  slices_S3x3x64x64_S1x1x64x64_0_0_0_0 : S3x3x64x64.Slices ![0, 0, 0, 0] S1x1x64x64
  shapeCasts_S1x1x64x64_S64x64 : S1x1x64x64.ShapeCasts S64x64
  slices_S3x3x64x64_S1x1x64x64_0_1_0_0 : S3x3x64x64.Slices ![0, 1, 0, 0] S1x1x64x64
  slices_S3x3x64x64_S1x1x64x64_0_2_0_0 : S3x3x64x64.Slices ![0, 2, 0, 0] S1x1x64x64
  slices_S3x3x64x64_S1x1x64x64_1_0_0_0 : S3x3x64x64.Slices ![1, 0, 0, 0] S1x1x64x64
  slices_S3x3x64x64_S1x1x64x64_1_1_0_0 : S3x3x64x64.Slices ![1, 1, 0, 0] S1x1x64x64
  slices_S3x3x64x64_S1x1x64x64_1_2_0_0 : S3x3x64x64.Slices ![1, 2, 0, 0] S1x1x64x64
  slices_S3x3x64x64_S1x1x64x64_2_0_0_0 : S3x3x64x64.Slices ![2, 0, 0, 0] S1x1x64x64
  slices_S3x3x64x64_S1x1x64x64_2_1_0_0 : S3x3x64x64.Slices ![2, 1, 0, 0] S1x1x64x64
  slices_S3x3x64x64_S1x1x64x64_2_2_0_0 : S3x3x64x64.Slices ![2, 2, 0, 0] S1x1x64x64
  shapeCasts_S131072x64_S4x32768x64 : S131072x64.ShapeCasts S4x32768x64
  scatter_S4x256x256_S131072x3_S131072_n_012_012_1_wf : ScatterDims.WF S4x256x256 S131072x3 S131072 [] [0, 1, 2] [0, 1, 2] 1
  gather_S4x256x256_S131072x3_S131072_n_012_n_n_012_1_111_wf : GatherDims.WF S4x256x256 S131072x3 S131072 [] [0, 1, 2] [] [0, 1, 2] [] 1 ![1, 1, 1]
  gather_S131072x64_S131072x1_S131072x64_1_0_n_n_0_1_164_wf : GatherDims.WF S131072x64 S131072x1 S131072x64 [1] [0] [] [0] [] 1 ![1, 64]
  dot_S131072x64_S64x64_S131072x64_1_0_0_1_n_n_wf : DotDims.WF S131072x64 S64x64 S131072x64 [1] [0] [0] [1] [] []

variable [Facts₀]

def scatter_S4x256x256_S131072x3_S131072_n_012_012_1 : ScatterDims S4x256x256 S131072x3 S131072 where
  updateWindowDims := []
  insertedWindowDims := [0, 1, 2]
  scatterDimsToOperandDims := [0, 1, 2]
  indexVectorDim := 1
  wf := scatter_S4x256x256_S131072x3_S131072_n_012_012_1_wf
def gather_S4x256x256_S131072x3_S131072_n_012_n_n_012_1_111 : GatherDims S4x256x256 S131072x3 S131072 where
  offsetDims := []
  collapsedSliceDims := [0, 1, 2]
  operandBatchingDims := []
  startIndicesBatchingDims := []
  startIndexMap := [0, 1, 2]
  indexVectorDim := 1
  sliceSizes := ![1, 1, 1]
  wf := gather_S4x256x256_S131072x3_S131072_n_012_n_n_012_1_111_wf
def gather_S131072x64_S131072x1_S131072x64_1_0_n_n_0_1_164 : GatherDims S131072x64 S131072x1 S131072x64 where
  offsetDims := [1]
  collapsedSliceDims := [0]
  operandBatchingDims := []
  startIndicesBatchingDims := []
  startIndexMap := [0]
  indexVectorDim := 1
  sliceSizes := ![1, 64]
  wf := gather_S131072x64_S131072x1_S131072x64_1_0_n_n_0_1_164_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf

class Facts : Prop extends Facts₀ where

variable [Facts]
-- ==== Proof.FrameBits.lean ====
/- The frame certificate of the convolution kernel: @main is host lines, one pipelined region over a 4 × 8 grid, host lines.
   The region's body reads a 34-row slab of the padded feature block and the nine 64 × 64 weight taps through rectangles and
   stores one whole 32 × 256 × 64 output block, so what it leaves is a closed function of the two input blocks at the point
   (`out0_2`). From that: the pipeline's proof data (`dats`), the body obligation, the run of @main to the library's frame
   post (`run_main`), and the frame claim — the three argument arrays end as launched (`frame`) — at any float instance. -/
import proofs.«119561_j24610162606296_2_alg».proof.Proof.Gen.Kernel.Launch
import proofs.«119561_j24610162606296_2_alg».proof.Proof.Gen.Kernel.Skeleton
import proofs.«119561_j24610162606296_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the
    host lines that precede the region, in order. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- No line of `hostOps0` allocates a buffer. -/
theorem hostOps0_fresh : (hostOps0 : List (HloOp τ sig (Elt F))).Forall fun op => op.fresh = ∅ := by
  simp only [List.Forall]; repeat' constructor
/-- No line of `hostOps0_1` allocates a buffer. -/
theorem hostOps0_1_fresh : (hostOps0_1 : List (HloOp τ sig (Elt F))).Forall fun op => op.fresh = ∅ := by
  simp only [List.Forall]; repeat' constructor
set_option maxHeartbeats 4000000 in
/-- No line of `hostOps0_2` allocates a buffer. -/
theorem hostOps0_2_fresh : (hostOps0_2 : List (HloOp τ sig (Elt F))).Forall fun op => op.fresh = ∅ := by
  simp only [List.Forall]; repeat' constructor
/-- No line of `hostOps0_3` allocates a buffer. -/
theorem hostOps0_3_fresh : (hostOps0_3 : List (HloOp τ sig (Elt F))).Forall fun op => op.fresh = ∅ := by
  simp only [List.Forall]; repeat' constructor
/-- No line of `hostOps0_4` allocates a buffer. -/
theorem hostOps0_4_fresh : (hostOps0_4 : List (HloOp τ sig (Elt F))).Forall fun op => op.fresh = ∅ := by
  simp only [List.Forall]; repeat' constructor
/-- No line of `hostOps0_5` allocates a buffer. -/
theorem hostOps0_5_fresh : (hostOps0_5 : List (HloOp τ sig (Elt F))).Forall fun op => op.fresh = ∅ := by
  simp only [List.Forall]; repeat' constructor
/-- No line of `hostOps0_6` allocates a buffer. -/
theorem hostOps0_6_fresh : (hostOps0_6 : List (HloOp τ sig (Elt F))).Forall fun op => op.fresh = ∅ := by
  simp only [List.Forall]; repeat' constructor
/-- No line of `hostOps1` allocates a buffer. -/
theorem hostOps1_fresh : (hostOps1 : List (HloOp τ sig (Elt F))).Forall fun op => op.fresh = ∅ := by
  simp only [List.Forall]; repeat' constructor

/-- @main is the host lines before the region, the region, and the host lines after it: holding the launch contents it
    reduces to the region entered at `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch unscoped TensorCore references only, and with nothing prefetched every such
    reference is an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1000000 in
/-- And none writes an array of the pipeline: each writes its own result buffer, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

set_option maxHeartbeats 4000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- No host line after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the library's frame post read at the
    three argument arrays — none is an array of the pipeline, no host line writes one — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c))⟩) h

/-! ## The body's accesses -/

/-- The slab of the padded feature block the body reads at grid point `i`: the 34 rows from row `32 * i 1`, all 258
    columns and 64 channels. -/
abbrev r0_slab (i : grid0.Coords) : Rect S1x258x258x64 := Rect.unit (s := S1x258x258x64) (k0_off1 i) S1x34x258x64.size (k0_off1_inb i)
/-- Weight tap (0, 0): a 64 × 64 matrix of the 3 × 3 × 64 × 64 weights. -/
abbrev r0_w00 : Rect S3x3x64x64 := Rect.unit (s := S3x3x64x64) ![0, 0, 0, 0] S1x1x64x64.size inb_S3x3x64x64_S1x1x64x64_0_0_0_0
/-- Weight tap (0, 1): a 64 × 64 matrix of the 3 × 3 × 64 × 64 weights. -/
abbrev r0_w01 : Rect S3x3x64x64 := Rect.unit (s := S3x3x64x64) ![0, 1, 0, 0] S1x1x64x64.size inb_S3x3x64x64_S1x1x64x64_0_1_0_0
/-- Weight tap (0, 2): a 64 × 64 matrix of the 3 × 3 × 64 × 64 weights. -/
abbrev r0_w02 : Rect S3x3x64x64 := Rect.unit (s := S3x3x64x64) ![0, 2, 0, 0] S1x1x64x64.size inb_S3x3x64x64_S1x1x64x64_0_2_0_0
/-- Weight tap (1, 0): a 64 × 64 matrix of the 3 × 3 × 64 × 64 weights. -/
abbrev r0_w10 : Rect S3x3x64x64 := Rect.unit (s := S3x3x64x64) ![1, 0, 0, 0] S1x1x64x64.size inb_S3x3x64x64_S1x1x64x64_1_0_0_0
/-- Weight tap (1, 1): a 64 × 64 matrix of the 3 × 3 × 64 × 64 weights. -/
abbrev r0_w11 : Rect S3x3x64x64 := Rect.unit (s := S3x3x64x64) ![1, 1, 0, 0] S1x1x64x64.size inb_S3x3x64x64_S1x1x64x64_1_1_0_0
/-- Weight tap (1, 2): a 64 × 64 matrix of the 3 × 3 × 64 × 64 weights. -/
abbrev r0_w12 : Rect S3x3x64x64 := Rect.unit (s := S3x3x64x64) ![1, 2, 0, 0] S1x1x64x64.size inb_S3x3x64x64_S1x1x64x64_1_2_0_0
/-- Weight tap (2, 0): a 64 × 64 matrix of the 3 × 3 × 64 × 64 weights. -/
abbrev r0_w20 : Rect S3x3x64x64 := Rect.unit (s := S3x3x64x64) ![2, 0, 0, 0] S1x1x64x64.size inb_S3x3x64x64_S1x1x64x64_2_0_0_0
/-- Weight tap (2, 1): a 64 × 64 matrix of the 3 × 3 × 64 × 64 weights. -/
abbrev r0_w21 : Rect S3x3x64x64 := Rect.unit (s := S3x3x64x64) ![2, 1, 0, 0] S1x1x64x64.size inb_S3x3x64x64_S1x1x64x64_2_1_0_0
/-- Weight tap (2, 2): a 64 × 64 matrix of the 3 × 3 × 64 × 64 weights. -/
abbrev r0_w22 : Rect S3x3x64x64 := Rect.unit (s := S3x3x64x64) ![2, 2, 0, 0] S1x1x64x64.size inb_S3x3x64x64_S1x1x64x64_2_2_0_0
/-- The whole output block. -/
abbrev r0_whole : Rect S1x32x256x64 := Rect.unit (s := S1x32x256x64) ![0, 0, 0, 0] S1x32x256x64.size inb_S1x32x256x64_S1x32x256x64_0_0_0_0

/-! ## What the body leaves in the output window's buffer -/

/-- The output window's staging buffer after the body at grid point `i`, from the two input blocks: the one store of the
    whole block, whose payload is the nine taps' products — each a shifted 32 × 256 window of the slab, flattened to
    8192 × 64, times its 64 × 64 weight matrix — added up in tap order from zero. -/
def out0_2 (i : grid0.Coords) (x0 : Vec F S1x258x258x64 .bf16) (x1 : Vec F S3x3x64x64 .bf16) : Vec F S1x32x256x64 .f32 :=
  View.canon [⟨r0_whole, k0_pay1
    (k0_pay5 (k0_pay2 (View.ld x0 (r0_slab i)))
      (k0_pay3 (View.ld x0 (r0_slab i)) (View.ld x1 r0_w00) (View.ld x1 r0_w01) (View.ld x1 r0_w02))
      (k0_pay4 (View.ld x0 (r0_slab i)) (View.ld x1 r0_w10))
      (View.ld x1 r0_w11) (View.ld x1 r0_w12) (View.ld x1 r0_w20) (View.ld x1 r0_w21))
    (k0_pay6 (k0_pay2 (View.ld x0 (r0_slab i))) (View.ld x1 r0_w22))⟩]

/-- The one store is of the whole block, so it covers it. -/
theorem cover0_2 (p0 : Vec F S1x32x256x64 .f32) (y : S1x32x256x64.Idx) :
    ∃ pc ∈ ([⟨r0_whole, p0⟩] : List (View.Piece (Elt F) S1x32x256x64 .f32)), y ∈ pc.1.set :=
  View.cover_of_tiled [⟨r0_whole, p0⟩] S1x32x256x64.size (by rfl) y

/-! ## The body's triple -/

set_option maxHeartbeats 4000000 in
/-- The kernel body on whole staging memrefs, the inputs' at read contents `x0`, `x1` and the output's at anything, runs
    to the continuation holding the inputs' as they were and the output's at `out0_2 i x0 x1`. -/
theorem sound_kernel (c : Dev nD) (E : Set ℕ) (i : grid0.Coords) (arg2 : Memref sig .tc .vmem S1x258x258x64 .bf16) (harg2 : arg2.IsWhole) (arg3 : Memref sig .tc .vmem S3x3x64x64 .bf16) (harg3 : arg3.IsWhole) (arg4 : Memref sig .tc .vmem S1x32x256x64 .f32) (harg4 : arg4.IsWhole)
    (x0 : Vec F S1x258x258x64 .bf16) (x1 : Vec F S3x3x64x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 i x0 x1)) -∗ K ⟨⟩))
      ⊢ wp frame (wpE (defs₀ (F := F)) Variants.none c none) E (cc0__conv_kernel i arg2 harg2 arg3 harg3 arg4 harg4) K := by
  simp only [cc0__conv_kernel_eq_skeleton]; unfold cc0__conv_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the one pipeline on core `c`: the arrays as the region finds them; after the body at point `t` each
    input's buffer at its block and the output's at `out0_2` of the two input blocks at the point's grid coordinates; the
    invariant holds the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (grid0.coords t) (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame claim at any float instance: @main runs, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.FrameIdeal.lean ====
/- The frame certificate of the convolution kernel: @main is host lines, one pipelined region over a 4 × 8 grid, host lines.
   The region's body reads a 34-row slab of the padded feature block and the nine 64 × 64 weight taps through rectangles and
   stores one whole 32 × 256 × 64 output block, so what it leaves is a closed function of the two input blocks at the point
   (`out0_2`). From that: the pipeline's proof data (`dats`), the body obligation, the run of @main to the library's frame
   post (`run_main`), and the frame claim — the three argument arrays end as launched (`frame`) — at any float instance. -/
import proofs.«119561_j24610162606296_2_alg».proof.Proof.Gen.KernelIdeal.Launch
import proofs.«119561_j24610162606296_2_alg».proof.Proof.Gen.KernelIdeal.Skeleton
import proofs.«119561_j24610162606296_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the
    host lines that precede the region, in order. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- No line of `hostOps0` allocates a buffer. -/
theorem hostOps0_fresh : (hostOps0 : List (HloOp τ sig (Elt F))).Forall fun op => op.fresh = ∅ := by
  simp only [List.Forall]; repeat' constructor
/-- No line of `hostOps0_1` allocates a buffer. -/
theorem hostOps0_1_fresh : (hostOps0_1 : List (HloOp τ sig (Elt F))).Forall fun op => op.fresh = ∅ := by
  simp only [List.Forall]; repeat' constructor
set_option maxHeartbeats 4000000 in
/-- No line of `hostOps0_2` allocates a buffer. -/
theorem hostOps0_2_fresh : (hostOps0_2 : List (HloOp τ sig (Elt F))).Forall fun op => op.fresh = ∅ := by
  simp only [List.Forall]; repeat' constructor
/-- No line of `hostOps0_3` allocates a buffer. -/
theorem hostOps0_3_fresh : (hostOps0_3 : List (HloOp τ sig (Elt F))).Forall fun op => op.fresh = ∅ := by
  simp only [List.Forall]; repeat' constructor
/-- No line of `hostOps0_4` allocates a buffer. -/
theorem hostOps0_4_fresh : (hostOps0_4 : List (HloOp τ sig (Elt F))).Forall fun op => op.fresh = ∅ := by
  simp only [List.Forall]; repeat' constructor
/-- No line of `hostOps0_5` allocates a buffer. -/
theorem hostOps0_5_fresh : (hostOps0_5 : List (HloOp τ sig (Elt F))).Forall fun op => op.fresh = ∅ := by
  simp only [List.Forall]; repeat' constructor
/-- No line of `hostOps0_6` allocates a buffer. -/
theorem hostOps0_6_fresh : (hostOps0_6 : List (HloOp τ sig (Elt F))).Forall fun op => op.fresh = ∅ := by
  simp only [List.Forall]; repeat' constructor
/-- No line of `hostOps1` allocates a buffer. -/
theorem hostOps1_fresh : (hostOps1 : List (HloOp τ sig (Elt F))).Forall fun op => op.fresh = ∅ := by
  simp only [List.Forall]; repeat' constructor

/-- @main is the host lines before the region, the region, and the host lines after it: holding the launch contents it
    reduces to the region entered at `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch unscoped TensorCore references only, and with nothing prefetched every such
    reference is an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1000000 in
/-- And none writes an array of the pipeline: each writes its own result buffer, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

set_option maxHeartbeats 4000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- No host line after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the library's frame post read at the
    three argument arrays — none is an array of the pipeline, no host line writes one — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c))⟩) h

/-! ## The body's accesses -/

/-- The slab of the padded feature block the body reads at grid point `i`: the 34 rows from row `32 * i 1`, all 258
    columns and 64 channels. -/
abbrev r0_slab (i : grid0.Coords) : Rect S1x258x258x64 := Rect.unit (s := S1x258x258x64) (k0_off1 i) S1x34x258x64.size (k0_off1_inb i)
/-- Weight tap (0, 0): a 64 × 64 matrix of the 3 × 3 × 64 × 64 weights. -/
abbrev r0_w00 : Rect S3x3x64x64 := Rect.unit (s := S3x3x64x64) ![0, 0, 0, 0] S1x1x64x64.size inb_S3x3x64x64_S1x1x64x64_0_0_0_0
/-- Weight tap (0, 1): a 64 × 64 matrix of the 3 × 3 × 64 × 64 weights. -/
abbrev r0_w01 : Rect S3x3x64x64 := Rect.unit (s := S3x3x64x64) ![0, 1, 0, 0] S1x1x64x64.size inb_S3x3x64x64_S1x1x64x64_0_1_0_0
/-- Weight tap (0, 2): a 64 × 64 matrix of the 3 × 3 × 64 × 64 weights. -/
abbrev r0_w02 : Rect S3x3x64x64 := Rect.unit (s := S3x3x64x64) ![0, 2, 0, 0] S1x1x64x64.size inb_S3x3x64x64_S1x1x64x64_0_2_0_0
/-- Weight tap (1, 0): a 64 × 64 matrix of the 3 × 3 × 64 × 64 weights. -/
abbrev r0_w10 : Rect S3x3x64x64 := Rect.unit (s := S3x3x64x64) ![1, 0, 0, 0] S1x1x64x64.size inb_S3x3x64x64_S1x1x64x64_1_0_0_0
/-- Weight tap (1, 1): a 64 × 64 matrix of the 3 × 3 × 64 × 64 weights. -/
abbrev r0_w11 : Rect S3x3x64x64 := Rect.unit (s := S3x3x64x64) ![1, 1, 0, 0] S1x1x64x64.size inb_S3x3x64x64_S1x1x64x64_1_1_0_0
/-- Weight tap (1, 2): a 64 × 64 matrix of the 3 × 3 × 64 × 64 weights. -/
abbrev r0_w12 : Rect S3x3x64x64 := Rect.unit (s := S3x3x64x64) ![1, 2, 0, 0] S1x1x64x64.size inb_S3x3x64x64_S1x1x64x64_1_2_0_0
/-- Weight tap (2, 0): a 64 × 64 matrix of the 3 × 3 × 64 × 64 weights. -/
abbrev r0_w20 : Rect S3x3x64x64 := Rect.unit (s := S3x3x64x64) ![2, 0, 0, 0] S1x1x64x64.size inb_S3x3x64x64_S1x1x64x64_2_0_0_0
/-- Weight tap (2, 1): a 64 × 64 matrix of the 3 × 3 × 64 × 64 weights. -/
abbrev r0_w21 : Rect S3x3x64x64 := Rect.unit (s := S3x3x64x64) ![2, 1, 0, 0] S1x1x64x64.size inb_S3x3x64x64_S1x1x64x64_2_1_0_0
/-- Weight tap (2, 2): a 64 × 64 matrix of the 3 × 3 × 64 × 64 weights. -/
abbrev r0_w22 : Rect S3x3x64x64 := Rect.unit (s := S3x3x64x64) ![2, 2, 0, 0] S1x1x64x64.size inb_S3x3x64x64_S1x1x64x64_2_2_0_0
/-- The whole output block. -/
abbrev r0_whole : Rect S1x32x256x64 := Rect.unit (s := S1x32x256x64) ![0, 0, 0, 0] S1x32x256x64.size inb_S1x32x256x64_S1x32x256x64_0_0_0_0

/-! ## What the body leaves in the output window's buffer -/

/-- The output window's staging buffer after the body at grid point `i`, from the two input blocks: the one store of the
    whole block, whose payload is the nine taps' products — each a shifted 32 × 256 window of the slab, flattened to
    8192 × 64, times its 64 × 64 weight matrix — added up in tap order from zero. -/
def out0_2 (i : grid0.Coords) (x0 : Vec F S1x258x258x64 .bf16) (x1 : Vec F S3x3x64x64 .bf16) : Vec F S1x32x256x64 .f32 :=
  View.canon [⟨r0_whole, k0_pay1
    (k0_pay5 (k0_pay2 (View.ld x0 (r0_slab i)))
      (k0_pay3 (View.ld x0 (r0_slab i)) (View.ld x1 r0_w00) (View.ld x1 r0_w01) (View.ld x1 r0_w02))
      (k0_pay4 (View.ld x0 (r0_slab i)) (View.ld x1 r0_w10))
      (View.ld x1 r0_w11) (View.ld x1 r0_w12) (View.ld x1 r0_w20) (View.ld x1 r0_w21))
    (k0_pay6 (k0_pay2 (View.ld x0 (r0_slab i))) (View.ld x1 r0_w22))⟩]

/-- The one store is of the whole block, so it covers it. -/
theorem cover0_2 (p0 : Vec F S1x32x256x64 .f32) (y : S1x32x256x64.Idx) :
    ∃ pc ∈ ([⟨r0_whole, p0⟩] : List (View.Piece (Elt F) S1x32x256x64 .f32)), y ∈ pc.1.set :=
  View.cover_of_tiled [⟨r0_whole, p0⟩] S1x32x256x64.size (by rfl) y

/-! ## The body's triple -/

set_option maxHeartbeats 4000000 in
/-- The kernel body on whole staging memrefs, the inputs' at read contents `x0`, `x1` and the output's at anything, runs
    to the continuation holding the inputs' as they were and the output's at `out0_2 i x0 x1`. -/
theorem sound_kernel (c : Dev nD) (E : Set ℕ) (i : grid0.Coords) (arg2 : Memref sig .tc .vmem S1x258x258x64 .bf16) (harg2 : arg2.IsWhole) (arg3 : Memref sig .tc .vmem S3x3x64x64 .bf16) (harg3 : arg3.IsWhole) (arg4 : Memref sig .tc .vmem S1x32x256x64 .f32) (harg4 : arg4.IsWhole)
    (x0 : Vec F S1x258x258x64 .bf16) (x1 : Vec F S3x3x64x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 i x0 x1)) -∗ K ⟨⟩))
      ⊢ wp frame (wpE (defs₀ (F := F)) Variants.none c none) E (cc0__conv_kernel i arg2 harg2 arg3 harg3 arg4 harg4) K := by
  simp only [cc0__conv_kernel_eq_skeleton]; unfold cc0__conv_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the one pipeline on core `c`: the arrays as the region finds them; after the body at point `t` each
    input's buffer at its block and the output's at `out0_2` of the two input blocks at the point's grid coordinates; the
    invariant holds the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (grid0.coords t) (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame claim at any float instance: @main runs, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelTail.lean ====
/- What @main's result buffer holds after the run: the host lines that follow the region, composed into one term over the
   region's output array and the two index arrays the earlier host lines computed (`tailOps`), and the run of @main read
   at the result buffer and at the three argument arrays (`result_mem`). -/
import proofs.«119561_j24610162606296_2_alg».proof.Proof.FrameIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## A three-operand line's result -/

/-- The result of a line over a literal family of three references, with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same, stated for one rewriting pass over a whole stretch of lines. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-! ## The host lines after the region, composed -/

/-- The host lines after the region as one function of the region's output array `D` (batch × row × column × channel),
    the points' cell indices `idx` (row, column) and their batch indices `bid`: each index that is negative has its
    axis' extent added (4, 256, 256), the three are laid side by side as the columns of a 131072 × 3 table, the rows
    `D[b, y, x, :]` are gathered by that table, and the 131072 × 64 result is read as 4 × 32768 × 64. -/
def tailOps (D : (⟨S4x256x256x64, .f32⟩ : BufTy).Contents (Elt F)) (idx : (⟨S131072x2, .i32⟩ : BufTy).Contents (Elt F))
    (bid : (⟨S131072, .i32⟩ : BufTy).Contents (Elt F)) : (⟨S4x32768x64, .f32⟩ : BufTy).Contents (Elt F) :=
  have v68 : (⟨S131072, .i32⟩ : BufTy).Contents (Elt F) := shapeCast S131072 (extractStridedSlice S131072x1 ![0, 0] idx slices_S131072x2_S131072x1_0_0) shapeCasts_S131072x1_S131072
  have v70 : (⟨S131072, .i32⟩ : BufTy).Contents (Elt F) := shapeCast S131072 (extractStridedSlice S131072x1 ![0, 1] idx slices_S131072x2_S131072x1_0_1) shapeCasts_S131072x1_S131072
  have v75 : (⟨S131072, .i32⟩ : BufTy).Contents (Elt F) := select (cmpi .slt bid (broadcastInDim S131072 ![] bcast_S_S131072 (constantI S_ 32 0#32))) (addi bid (broadcastInDim S131072 ![] bcast_S_S131072 (constantI S_ 32 4#32))) bid
  have v80 : (⟨S131072, .i32⟩ : BufTy).Contents (Elt F) := select (cmpi .slt v68 (broadcastInDim S131072 ![] bcast_S_S131072 (constantI S_ 32 0#32))) (addi v68 (broadcastInDim S131072 ![] bcast_S_S131072 (constantI S_ 32 256#32))) v68
  have v85 : (⟨S131072, .i32⟩ : BufTy).Contents (Elt F) := select (cmpi .slt v70 (broadcastInDim S131072 ![] bcast_S_S131072 (constantI S_ 32 0#32))) (addi v70 (broadcastInDim S131072 ![] bcast_S_S131072 (constantI S_ 32 256#32))) v70
  have v89 : (⟨S131072x3, .i32⟩ : BufTy).Contents (Elt F) := concatenate S131072x3 1 [⟨S131072x1, broadcastInDim S131072x1 ![0] bcast_S131072_S131072x1_0 v75⟩, ⟨S131072x1, broadcastInDim S131072x1 ![0] bcast_S131072_S131072x1_0 v80⟩, ⟨S131072x1, broadcastInDim S131072x1 ![0] bcast_S131072_S131072x1_0 v85⟩] concatenates_S131072x1_S131072x1_S131072x1_S131072x3_d1
  shapeCast S4x32768x64 (Host.gather gather_S4x256x256x64_S131072x3_S131072x64_1_012_n_n_012_1_11164 D v89) shapeCasts_S131072x64_S4x32768x64

set_option maxHeartbeats 4000000 in
/-- From any contents `W`, the result buffer after the lines is `tailOps` of `W` at the output array and at the two
    index arrays: each line's result is its function of its operands' contents, and no line writes an operand of an
    earlier one. -/
theorem after_hostOps1 (W : Valuation τ sig (Elt F)) :
    StableHlo.after hostOps1 W (Proc.devRef .tc main_v91)
      = tailOps (W (Proc.devRef .tc main_v66)) (W (Proc.devRef .tc main_v17)) (W (Proc.devRef .tc main_v20)) := by
  simp (disch := decide) only [StableHlo.after_cons, StableHlo.after_nil,
      StableHlo.nullary_result', StableHlo.unary_result', StableHlo.binary_result', StableHlo.ternary_result', StableHlo.reshape_result', nary3_result',
      StableHlo.nullary_result_ne', StableHlo.unary_result_ne', StableHlo.binary_result_ne', StableHlo.ternary_result_ne', StableHlo.reshape_result_ne',
      StableHlo.nary_result_ne']
  rfl

variable (m : (ℓ : Loc nD τ sig) → Buf (Elt F) ℓ) (ρ : Dev nD → PrngReg)

/-- The result buffer as the lines after the region leave it: `tailOps` of the output array's final contents and of the
    two index arrays as the region found them (the lines after the region read them unwritten, and the region stages
    neither). -/
theorem tail_eq (c : Dev nD) :
    Pipeline.afterTail₀ cfgs (dats m) 0 (V0 m) [hostOps1] c main_v91
      = tailOps ((dats m 0 c).arrAt 2 cfg0.N) (V m c main_v17) (V m c main_v20) := by
  unfold Pipeline.afterTail₀
  show StableHlo.after hostOps1 _ (Proc.devRef .tc main_v91) = _
  rw [after_hostOps1,
    Pipeline.withArrays_of_ne _ c (V0 m c) _ main_v17 (by exact (by decide : ∀ w, Pipeline.arrRef spec0 w ≠ main_v17)),
    Pipeline.withArrays_of_ne _ c (V0 m c) _ main_v20 (by exact (by decide : ∀ w, Pipeline.arrRef spec0 w ≠ main_v20))]
  exact congrArg (fun D => tailOps D (V m c main_v17) (V m c main_v20))
    (Pipeline.withArrays_arr spec0 launch0.win.arr_inj c (V0 m c) (fun w => (dats m 0 c).arrAt w cfg0.N) 2)

/-- The run of @main read at the result buffer and at the arguments: the result is `tailOps` of the output array's final
    contents and the two index arrays, and the three argument arrays end as launched. -/
theorem result_mem : θ_run defs (onTc (τ := τ) (main (F := F))) ⟨m, fun _ => 0, ρ⟩ (fun r => ∀ c : Dev nD,
      r.2.mem ((c.tc : Thread nD τ).loc main_v91) = tailOps ((dats m 0 c).arrAt 2 cfg0.N) (V m c main_v17) (V m c main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (((h c).2 main_v91 (Pipeline.mem_restRefs_of main_v91 (by decide) (by decide))).trans (tail_eq m c)),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c))⟩) (run_main m ρ)

end Cert.KernelIdeal.Hand

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibFlatten.lean ====
/-
  Two re-layouts read at an index.

  An `a × 1` column re-laid as a `1 × a` row holds, at `(0, c)`, the column's entry at `(c, 0)`: both are
  number `c` in row-major order.
  An `n × c` array with `n = a · b` re-laid as `a × b × c` holds, at `(i, j, k)`, the array's entry at
  row `i · b + j` and column `k`: both are number `(i · b + j) · c + k` in row-major order.
-/
import Idealize.ShloMosaic.Lib.Pipeline.Value
import Idealize.ShloMosaic.Lib.ValueIdx

namespace Cert.LibFlatten

open Idealize.ShloMosaic Idealize.ShloMosaic.ValueIdx

variable {α : Type}

/-- An `a × 1` column cast to a `1 × a` row reads, at `(u, c)`, the column at `(c, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (c : Fin a) :
    shapeCast ⟨2, ![1, a]⟩ x h (ix2 u c) = x (ix2 c (0 : Fin 1)) :=
  shapeCast_apply x h (ix2 u c) (ix2 c (0 : Fin 1)) (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `n × c` array cast to `a × b × c` reads, at `(i, j, k)`, the array at row `r = i · b + j`, column `k`. -/
theorem shapeCast_flat_abc_apply {n a b c : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h (ix3 i j k) (ix2 r k) (by
    rw [Shape.rowMajor_val_two, Shape.rowMajor_val_three]
    show r.val * c + k.val = (i.val * b + j.val) * c + k.val
    rw [hr])

end Cert.LibFlatten
-- ==== Proof.LibUnitAxes.lean ====
/-
  Two leading unit axes dropped by a re-layout.

  A `[1, 1, a, b]` array re-laid as `[a, b]` holds, at `(i, j)`, the entry `(0, 0, i, j)`, and an
  `[a, b]` array re-laid as `[1, 1, a, b]` holds, at `(0, 0, i, j)`, the entry `(i, j)`: both
  positions are number `i · b + j` in row-major order.
-/
import Idealize.ShloMosaic.Lib.Pipeline.Value
import Idealize.ShloMosaic.Lib.ValueIdx

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp)

end Cert.LibUnitAxes
-- ==== Proof.LibConvTap.lean ====
/-
  One tap of a convolution computed as a matrix product, read at an index.

  A slab `[A, B, C]` is cut at the offset `(o0, o1, 0)` to a window `[a, b, C]`; the window's `a · b` positions
  become the rows of an `[a · b, C]` matrix, which is multiplied by a `[C, N]` weight matrix (given as
  `[1, 1, C, N]`) into the zero matrix, and the product is laid back as `[a, b, N]`.  At `(i, j, o)` the result is
  the sum over the channels `c` of the slab's entry `(o0 + i, o1 + j, c)` times the weight's entry `(c, o)`:
  row `i · b + j` of the matrix is position `(i, j)` of the window, read in row-major order both ways.
-/
import proofs.«119561_j24610162606296_2_alg».proof.Proof.LibPlainMatmul
import proofs.«119561_j24610162606296_2_alg».proof.Proof.LibFlatten
import proofs.«119561_j24610162606296_2_alg».proof.Proof.LibUnitAxes
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibConvTap

open Idealize.ShloMosaic Idealize.ShloMosaic.ValueIdx

variable {α : Type}

/-- A rank-3 array cut from `(o0, o1, o2)` reads, at `(i, j, k)`, the source at `(o0 + i, o1 + j, o2 + k)`. -/
theorem slice3_apply {n0 n1 n2 m0 m1 m2 : ℕ} (o0 o1 o2 : ℕ) (X : (⟨3, ![n0, n1, n2]⟩ : Shape).Idx → α)
    (h : (⟨3, ![n0, n1, n2]⟩ : Shape).Slices ![o0, o1, o2] ⟨3, ![m0, m1, m2]⟩)
    (i : Fin m0) (j : Fin m1) (k : Fin m2) (i' : Fin n0) (j' : Fin n1) (k' : Fin n2)
    (hi : i'.val = o0 + i.val) (hj : j'.val = o1 + j.val) (hk : k'.val = o2 + k.val) :
    extractStridedSlice ⟨3, ![m0, m1, m2]⟩ ![o0, o1, o2] X h (ix3 i j k) = X (ix3 i' j' k') :=
  extractStridedSlice_apply _ _ _ _ _ (fun ax => by
    match ax with
    | ⟨0, _⟩ => exact hi
    | ⟨1, _⟩ => exact hj
    | ⟨2, _⟩ => exact hk)

/-- An `a × b × c` array re-laid as `n × c` with `n = a · b` holds, at row `r = i · b + j` and column `k`, the
    array's entry at `(i, j, k)`: both are number `(i · b + j) · c + k` in row-major order. -/
theorem shapeCast_abc_flat_apply {n a b c : ℕ} (x : (⟨3, ![a, b, c]⟩ : Shape).Idx → α)
    (h : (⟨3, ![a, b, c]⟩ : Shape).ShapeCasts ⟨2, ![n, c]⟩) (r : Fin n) (i : Fin a) (j : Fin b) (k : Fin c)
    (hr : r.val = i.val * b + j.val) :
    shapeCast ⟨2, ![n, c]⟩ x h (ix2 r k) = x (ix3 i j k) :=
  shapeCast_apply x h (ix2 r k) (ix3 i j k) (by
    rw [Shape.rowMajor_val_two, Shape.rowMajor_val_three]
    show (i.val * b + j.val) * c + k.val = r.val * c + k.val
    rw [hr])

/-- One tap of a convolution computed as a matrix product: the window of the slab at offset `(o0, o1)`, its
    `a × b` positions flattened to rows, multiplied by the `C × N` weight matrix and laid back as `a × b × N`,
    holds at `(i, j, o)` the sum over the channels `c` of slab `(o0 + i, o1 + j, c)` times weight `(c, o)`. -/
theorem tap_apply {A B C a b n N : ℕ} (o0 o1 : ℕ)
    (D : DotDims ⟨2, ![n, C]⟩ ⟨2, ![C, N]⟩ ⟨2, ![n, N]⟩) (hD : D = DotDims.plain n C N)
    {φ₁ φ₂ : FTy} (s : FVec Ideal ⟨3, ![A, B, C]⟩ φ₁) (w : FVec Ideal ⟨4, ![1, 1, C, N]⟩ φ₂)
    (hs : (⟨3, ![A, B, C]⟩ : Shape).Slices ![o0, o1, 0] ⟨3, ![a, b, C]⟩)
    (h1 : (⟨3, ![a, b, C]⟩ : Shape).ShapeCasts ⟨2, ![n, C]⟩)
    (h2 : (⟨4, ![1, 1, C, N]⟩ : Shape).ShapeCasts ⟨2, ![C, N]⟩)
    (h3 : (⟨2, ![n, N]⟩ : Shape).ShapeCasts ⟨3, ![a, b, N]⟩) (hn : n = a * b)
    (i : Fin a) (j : Fin b) (o : Fin N) (i' : Fin A) (j' : Fin B)
    (hi : i'.val = o0 + i.val) (hj : j'.val = o1 + j.val) :
    shapeCast ⟨3, ![a, b, N]⟩
        (matmul D none
          (shapeCast ⟨2, ![n, C]⟩ (extractStridedSlice ⟨3, ![a, b, C]⟩ ![o0, o1, 0] s hs) h1)
          (shapeCast ⟨2, ![C, N]⟩ w h2) (constant ⟨2, ![n, N]⟩ .f32 0x00000000#32)) h3 (ix3 i j o)
      = ∑ c : Fin C, s (ix3 i' j' c) * w (ix4 (0 : Fin 1) (0 : Fin 1) c o) := by
  have hlt : i.val * b + j.val < n := by
    rw [hn]
    exact Nat.lt_of_lt_of_le (Nat.add_lt_add_left j.isLt _)
      (by rw [← Nat.succ_mul]; exact Nat.mul_le_mul_right _ i.isLt)
  rw [Cert.LibFlatten.shapeCast_flat_abc_apply _ h3 ⟨i.val * b + j.val, hlt⟩ i j o rfl]
  show FloatOps.matmul D none _ _ _ _ = _
  rw [Cert.LibPlainMatmul.matmul_plain_zero_apply D hD]
  refine Finset.sum_congr rfl fun c _ => ?_
  rw [shapeCast_abc_flat_apply _ h1 ⟨i.val * b + j.val, hlt⟩ i j c rfl,
    slice3_apply o0 o1 0 s hs i j c i' j' c hi hj (Nat.zero_add _).symm,
    Cert.LibUnitAxes.shapeCast_11ab_ab_apply]

end Cert.LibConvTap

end
-- ==== Proof.ConvPayload.lean ====
/-
  The block one grid point of the convolution kernel stores, at an index.

  The body loads a slab of 34 rows of the padded features (all 258 columns, 64 channels) and the nine
  64 × 64 weight matrices.  For each tap `(dy, dx)` it cuts the 32 × 256 window of the slab at offset
  `(dy, dx)`, multiplies its 8192 positions by the tap's weight matrix, and adds the product to an
  accumulator that starts at zero; the taps are taken in row-major order.  So the stored block holds, at row `r`,
  column `q` and output channel `o`, the nine-term sum, accumulated from the left, of
  `∑ c, slab (r + dy, q + dx, c) · weight_{dy,dx} (c, o)`.
-/
import proofs.«119561_j24610162606296_2_alg».proof.Proof.Gen.KernelIdeal.Skeleton
import proofs.«119561_j24610162606296_2_alg».proof.Proof.LibConvTap
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Conv

open Idealize.ShloMosaic Idealize.ShloMosaic.ValueIdx Cert.KernelIdeal Cert.KernelIdeal.Gen

/-- One tap at row `r`, column `q`, output channel `o` of the block: the sum over the input channels of the
    slab's entry at `(r + dy, q + dx)` times the tap's weight. -/
def T (v3 : FVec Ideal S1x34x258x64 .bf16) (w : FVec Ideal S1x1x64x64 .bf16) (r : Fin 32) (q : Fin 256) (o : Fin 64)
    (dy dx : Fin 3) : EReal :=
  ∑ c : Fin 64, v3 (ix4 (0 : Fin 1) (⟨r.val + dy.val, by omega⟩ : Fin 34) (⟨q.val + dx.val, by omega⟩ : Fin 258) c)
    * w (ix4 (0 : Fin 1) (0 : Fin 1) c o)

/-- The slab with its leading unit axis dropped reads the loaded block at batch coordinate 0. -/
theorem pay2_apply (v3 : Vec Ideal S1x34x258x64 .bf16) (a : Fin 34) (b : Fin 258) (c : Fin 64) :
    k0_pay2 v3 (ix3 a b c) = v3 (ix4 (0 : Fin 1) a b c) := by
  simp only [k0_pay2]
  rw [shapeCast_self]
  exact shapeCast_1abc_abc_apply _ _ a b c

/-- One tap as the body computes it — window at `(o0, o1)`, flattened, multiplied, laid back — is `T`. -/
theorem tap_at (v3 : Vec Ideal S1x34x258x64 .bf16) (w : Vec Ideal S1x1x64x64 .bf16) (o0 o1 : ℕ) (dy dx : Fin 3)
    (h0 : dy.val = o0) (h1 : dx.val = o1) (hs : S34x258x64.Slices ![o0, o1, 0] S32x256x64)
    (r : Fin 32) (q : Fin 256) (o : Fin 64) :
    shapeCast S32x256x64
        (matmul (φ₁ := .bf16) (φ₂ := .bf16) dot_S8192x64_S64x64_S8192x64_1_0_0_1_n_n none
          (shapeCast S8192x64 (extractStridedSlice S32x256x64 ![o0, o1, 0] (k0_pay2 v3) hs) shapeCasts_S32x256x64_S8192x64)
          (shapeCast S64x64 w shapeCasts_S1x1x64x64_S64x64) (constant S8192x64 .f32 0x00000000#32))
        shapeCasts_S8192x64_S32x256x64 (ix3 r q o)
      = T v3 w r q o dy dx := by
  rw [Cert.LibConvTap.tap_apply o0 o1 dot_S8192x64_S64x64_S8192x64_1_0_0_1_n_n rfl (k0_pay2 v3) w hs
    shapeCasts_S32x256x64_S8192x64 shapeCasts_S1x1x64x64_S64x64 shapeCasts_S8192x64_S32x256x64 rfl r q o
    (⟨r.val + dy.val, by omega⟩ : Fin 34) (⟨q.val + dx.val, by omega⟩ : Fin 258)
    (by show r.val + dy.val = o0 + r.val; omega) (by show q.val + dx.val = o1 + q.val; omega)]
  unfold T
  exact Finset.sum_congr rfl fun c _ => by rw [pay2_apply]

/-- The stored block at `(0, r, q, o)`: the nine taps in row-major order, accumulated from the left. -/
theorem payload_apply (v3 : Vec Ideal S1x34x258x64 .bf16)
    (w00 w01 w02 w10 w11 w12 w20 w21 w22 : Vec Ideal S1x1x64x64 .bf16) (r : Fin 32) (q : Fin 256) (o : Fin 64) :
    k0_pay1 (k0_pay5 (k0_pay2 v3) (k0_pay3 v3 w00 w01 w02) (k0_pay4 v3 w10) w11 w12 w20 w21) (k0_pay6 (k0_pay2 v3) w22)
        (ix4 (0 : Fin 1) r q o)
      = T v3 w00 r q o 0 0 + T v3 w01 r q o 0 1 + T v3 w02 r q o 0 2 + T v3 w10 r q o 1 0 + T v3 w11 r q o 1 1
        + T v3 w12 r q o 1 2 + T v3 w20 r q o 2 0 + T v3 w21 r q o 2 1 + T v3 w22 r q o 2 2 := by
  simp only [k0_pay1, k0_pay5, k0_pay3, k0_pay4, k0_pay6]
  rw [shapeCast_abc_1abc_apply]
  simp only [addf_apply, broadcast_apply]
  rw [tap_at v3 w00 0 0 0 0 rfl rfl, tap_at v3 w01 0 1 0 1 rfl rfl, tap_at v3 w02 0 2 0 2 rfl rfl,
    tap_at v3 w10 1 0 1 0 rfl rfl, tap_at v3 w11 1 1 1 1 rfl rfl, tap_at v3 w12 1 2 1 2 rfl rfl,
    tap_at v3 w20 2 0 2 0 rfl rfl, tap_at v3 w21 2 1 2 1 rfl rfl, tap_at v3 w22 2 2 2 2 rfl rfl]
  rw [show (Scalar.ofBits .f32 0x00000000#32 : Ideal .f32) = 0 from Ideal.ofBits_zero_f32, zero_add]

end Cert.KernelIdeal.Conv

end
-- ==== Proof.Spec.lean ====
/-
  The mathematics both programs compute, stated once over plain arrays.

  Each of the N = 131072 points has a batch id b and a cell (y, x) of a 256 × 256 grid, all three
  32-bit words.  `grid` records for each cell of each batch the id of one point lying in it, or -1.
  The feature a cell REPRESENTS is the feature row of that point (zero for an empty cell); the
  output at a point is the 3 × 3 window sum, around the point's cell, of the represented features
  times the tap's 64 × 64 weight, cells outside the grid counting as zero.

  The reference evaluates this point by point, tap by tap: it looks the neighbouring cell up
  (`nfeat`).  The kernel first lays the represented features out densely with a zero border of
  width one (`padded`), sums the nine taps at every cell (`dense`), and then reads the cell of each
  point.  `nfeat_eq_padded` (TapArith) is the one fact joining them: for a point whose cell
  coordinates are genuine (below 256) the looked-up neighbour IS the padded array's entry.
-/
import Idealize.ShloMosaic.PureOps.Ideal
import Idealize.ShloMosaic.Lib.ValueIdx

noncomputable section

namespace Cert.SubmConv

open Idealize.ShloMosaic Idealize.ShloMosaic.ValueIdx

abbrev W32 := BitVec 32

/-- Index normalisation of array indexing: a negative word has the extent added. -/
def wrapIdx (n v : W32) : W32 := Scalar.select (IntOp.cmpi .slt v 0#32) (IntOp.addi v n) v

/-- A gather's start coordinate, clamped into an axis of extent `N` (slices of size one). -/
def clampIdx (N : ℕ) (v : W32) : ℕ := min v.toInt.toNat (N - 1)

theorem clampIdx_lt {N : ℕ} (hN : 0 < N) (v : W32) : clampIdx N v < N := by
  unfold clampIdx; omega

/-- `clip(v, 0, 255)`: the maximum with 0, then the minimum with 255. -/
def clip255 (v : W32) : W32 := IntOp.minsi 255#32 (IntOp.maxsi 0#32 v)

/-- Both neighbour coordinates lie in `[0, 256)`. -/
def inBounds (ny nx : W32) : BitVec 1 :=
  IntOp.andi (IntOp.andi (IntOp.andi (IntOp.cmpi .sge ny 0#32) (IntOp.cmpi .slt ny 256#32)) (IntOp.cmpi .sge nx 0#32))
    (IntOp.cmpi .slt nx 256#32)

/-- The feature row a grid entry `g` names: `max(g, 0)`, index-normalised against 131072. -/
def rowWord (g : W32) : W32 := wrapIdx 131072#32 (IntOp.maxsi g 0#32)

section Arrays

variable (grid : (⟨3, ![4, 256, 256]⟩ : Shape).Idx → W32) (feats : (⟨2, ![131072, 64]⟩ : Shape).Idx → EReal)

/-- The grid entry a gather reads for the index words `(b, y, x)` (each normalised, then clamped). -/
def gridAt (b y x : W32) : W32 :=
  grid (ix3 ⟨clampIdx 4 (wrapIdx 4#32 b), clampIdx_lt (by norm_num) _⟩ ⟨clampIdx 256 (wrapIdx 256#32 y), clampIdx_lt (by norm_num) _⟩
    ⟨clampIdx 256 (wrapIdx 256#32 x), clampIdx_lt (by norm_num) _⟩)

/-- Channel `c` of the feature row the grid entry `g` names. -/
def featRow (g : W32) (c : Fin 64) : EReal :=
  feats (ix2 ⟨clampIdx 131072 (rowWord g), clampIdx_lt (by norm_num) _⟩ c)

/-- The reference's neighbour feature of a point with index words `(b, y, x)` at the tap whose
    offsets are the words `ky`, `kx` (-1, 0 or 1): the neighbour cell's represented feature when the
    neighbour lies in the grid and is occupied, zero otherwise. -/
def nfeat (b y x ky kx : W32) (c : Fin 64) : EReal :=
  Scalar.select
    (IntOp.andi (inBounds (IntOp.addi y ky) (IntOp.addi x kx))
      (IntOp.cmpi .sge (gridAt grid b (clip255 (IntOp.addi y ky)) (clip255 (IntOp.addi x kx))) 0#32))
    (featRow feats (gridAt grid b (clip255 (IntOp.addi y ky)) (clip255 (IntOp.addi x kx))) c) 0

/-- The feature cell `(b, h, w)` represents. -/
def rep (b : Fin 4) (h w : Fin 256) (c : Fin 64) : EReal :=
  Scalar.select (IntOp.cmpi .sge (grid (ix3 b h w)) 0#32) (featRow feats (grid (ix3 b h w)) c) 0

/-- The represented features with a zero border of width one around each 256 × 256 plane. -/
def padded (b : Fin 4) (y x : Fin 258) (c : Fin 64) : EReal :=
  if h : (1 ≤ y.val ∧ y.val ≤ 256) ∧ (1 ≤ x.val ∧ x.val ≤ 256) then
    rep grid feats b ⟨y.val - 1, by omega⟩ ⟨x.val - 1, by omega⟩ c
  else 0

end Arrays

/-- The offset word of tap coordinate `d ∈ {0, 1, 2}`: `d - 1` as a 32-bit word. -/
def tapWord (d : Fin 3) : W32 := BitVec.ofInt 32 ((d.val : Int) - 1)

section Window

variable (P : (⟨4, ![4, 258, 258, 64]⟩ : Shape).Idx → EReal) (W : (⟨4, ![3, 3, 64, 64]⟩ : Shape).Idx → EReal)

/-- One tap of the window sum at cell `(b, y, x)`, output channel `o`. -/
def tap (b : Fin 4) (y x : Fin 256) (o : Fin 64) (dy dx : Fin 3) : EReal :=
  ∑ c : Fin 64, P (ix4 b ⟨y.val + dy.val, by omega⟩ ⟨x.val + dx.val, by omega⟩ c) * W (ix4 dy dx c o)

/-- The 3 × 3 window sum, taps in row-major order, accumulated from the left. -/
def dense (b : Fin 4) (y x : Fin 256) (o : Fin 64) : EReal :=
  tap P W b y x o 0 0 + tap P W b y x o 0 1 + tap P W b y x o 0 2 + tap P W b y x o 1 0 + tap P W b y x o 1 1
    + tap P W b y x o 1 2 + tap P W b y x o 2 0 + tap P W b y x o 2 1 + tap P W b y x o 2 2

end Window

end Cert.SubmConv

end
-- ==== Proof.ConvBlock.lean ====
/-
  The block one grid point stores, in terms of the two arrays its input blocks are cut from.

  Grid point `(b, h)` holds batch `b` of the padded features (a `1 × 258 × 258 × 64` block) and all the weights.
  The body's slab is rows `32 · h … 32 · h + 33` of that block, and tap `(dy, dx)`'s weight load is the
  `64 × 64` matrix at `(dy, dx)`.  So at row `r`, column `q`, channel `o` the stored block is the 3 × 3 window sum of
  the padded array around cell `(b, 32 · h + r, q)`.
-/
import proofs.«119561_j24610162606296_2_alg».proof.Proof.ConvPayload
import proofs.«119561_j24610162606296_2_alg».proof.Proof.Spec
import Idealize.ShloMosaic.Lib.Pipeline.FrameBody

noncomputable section

open scoped BigOperators

namespace Cert.KernelIdeal.Conv

open Idealize.ShloMosaic Idealize.ShloMosaic.ValueIdx Cert.KernelIdeal Cert.KernelIdeal.Gen

/-- The slab load at grid point `i`, at `(0, a, b, c)`: the block's entry at row `32 · i 1 + a`. -/
theorem ld_slab_apply (i : grid0.Coords) (x0 : Vec Ideal S1x258x258x64 .bf16) (a : Fin 34) (b : Fin 258) (c : Fin 64)
    (a' : Fin 258) (ha : a'.val = 32 * (i 1).val + a.val) :
    View.ld x0 (Rect.unit (s := S1x258x258x64) (k0_off1 i) S1x34x258x64.size (k0_off1_inb i)) (ix4 (0 : Fin 1) a b c)
      = x0 (ix4 (0 : Fin 1) a' b c) := by
  show x0 _ = x0 _
  refine congrArg x0 (funext fun ax => Fin.ext ?_)
  rw [LoadRect.idx_apply]
  match ax with
  | ⟨0, _⟩ => simp [Rect.unit, k0_off1_eq i]
  | ⟨1, _⟩ => simp [Rect.unit, k0_off1_eq i, ha]
  | ⟨2, _⟩ => simp [Rect.unit, k0_off1_eq i]
  | ⟨3, _⟩ => simp [Rect.unit, k0_off1_eq i]

/-- A weight load at offsets `(dy, dx, 0, 0)`, at `(0, 0, c, o)`: the weights' entry at `(dy, dx, c, o)`. -/
theorem ld_weight_apply (x1 : Vec Ideal S3x3x64x64 .bf16) (o0 o1 : ℕ)
    (inb : ∀ a, (![o0, o1, 0, 0] : Fin 4 → ℕ) a + S1x1x64x64.size a ≤ S3x3x64x64.size a)
    (dy dx : Fin 3) (h0 : dy.val = o0) (h1 : dx.val = o1) (c o : Fin 64) :
    View.ld x1 (Rect.unit (s := S3x3x64x64) ![o0, o1, 0, 0] S1x1x64x64.size inb) (ix4 (0 : Fin 1) (0 : Fin 1) c o)
      = x1 (ix4 dy dx c o) := by
  show x1 _ = x1 _
  refine congrArg x1 (funext fun ax => Fin.ext ?_)
  rw [LoadRect.idx_apply]
  match ax with
  | ⟨0, _⟩ => simp [Rect.unit, h0]
  | ⟨1, _⟩ => simp [Rect.unit, h1]
  | ⟨2, _⟩ => simp [Rect.unit]
  | ⟨3, _⟩ => simp [Rect.unit]

/-- One tap of the body over its two loads is the tap of the window sum, when the feature block is batch `b` of the
    padded array `P`, the weight block is `W`, and `y` is the cell row `32 · i 1 + r`. -/
theorem T_loads (i : grid0.Coords) (x0 : Vec Ideal S1x258x258x64 .bf16) (x1 : Vec Ideal S3x3x64x64 .bf16)
    (P : (⟨4, ![4, 258, 258, 64]⟩ : Shape).Idx → EReal) (W : (⟨4, ![3, 3, 64, 64]⟩ : Shape).Idx → EReal) (b : Fin 4)
    (hx0 : ∀ (a : Fin 258) (b' : Fin 258) (c : Fin 64), x0 (ix4 (0 : Fin 1) a b' c) = P (ix4 b a b' c))
    (hx1 : ∀ (dy dx : Fin 3) (c o : Fin 64), x1 (ix4 dy dx c o) = W (ix4 dy dx c o))
    (o0 o1 : ℕ) (inb : ∀ a, (![o0, o1, 0, 0] : Fin 4 → ℕ) a + S1x1x64x64.size a ≤ S3x3x64x64.size a)
    (dy dx : Fin 3) (h0 : dy.val = o0) (h1 : dx.val = o1)
    (r : Fin 32) (q : Fin 256) (o : Fin 64) (y : Fin 256) (hy : y.val = 32 * (i 1).val + r.val) :
    T (View.ld x0 (Rect.unit (s := S1x258x258x64) (k0_off1 i) S1x34x258x64.size (k0_off1_inb i)))
        (View.ld x1 (Rect.unit (s := S3x3x64x64) ![o0, o1, 0, 0] S1x1x64x64.size inb)) r q o dy dx
      = Cert.SubmConv.tap P W b y q o dy dx := by
  unfold T Cert.SubmConv.tap
  refine Finset.sum_congr rfl fun c _ => ?_
  rw [ld_slab_apply i x0 _ _ c ⟨y.val + dy.val, by omega⟩ (by show y.val + dy.val = 32 * (i 1).val + (r.val + dy.val); omega),
    ld_weight_apply x1 o0 o1 inb dy dx h0 h1 c o, hx0, hx1]

/-- The stored block at `(0, r, q, o)` is the window sum at cell `(b, 32 · i 1 + r, q)`. -/
theorem block_dense (i : grid0.Coords) (x0 : Vec Ideal S1x258x258x64 .bf16) (x1 : Vec Ideal S3x3x64x64 .bf16)
    (P : (⟨4, ![4, 258, 258, 64]⟩ : Shape).Idx → EReal) (W : (⟨4, ![3, 3, 64, 64]⟩ : Shape).Idx → EReal) (b : Fin 4)
    (hx0 : ∀ (a : Fin 258) (b' : Fin 258) (c : Fin 64), x0 (ix4 (0 : Fin 1) a b' c) = P (ix4 b a b' c))
    (hx1 : ∀ (dy dx : Fin 3) (c o : Fin 64), x1 (ix4 dy dx c o) = W (ix4 dy dx c o))
    (r : Fin 32) (q : Fin 256) (o : Fin 64) (y : Fin 256) (hy : y.val = 32 * (i 1).val + r.val) :
    k0_pay1
        (k0_pay5 (k0_pay2 (View.ld x0 (Rect.unit (s := S1x258x258x64) (k0_off1 i) S1x34x258x64.size (k0_off1_inb i))))
          (k0_pay3 (View.ld x0 (Rect.unit (s := S1x258x258x64) (k0_off1 i) S1x34x258x64.size (k0_off1_inb i)))
            (View.ld x1 (Rect.unit (s := S3x3x64x64) ![0, 0, 0, 0] S1x1x64x64.size inb_S3x3x64x64_S1x1x64x64_0_0_0_0))
            (View.ld x1 (Rect.unit (s := S3x3x64x64) ![0, 1, 0, 0] S1x1x64x64.size inb_S3x3x64x64_S1x1x64x64_0_1_0_0))
            (View.ld x1 (Rect.unit (s := S3x3x64x64) ![0, 2, 0, 0] S1x1x64x64.size inb_S3x3x64x64_S1x1x64x64_0_2_0_0)))
          (k0_pay4 (View.ld x0 (Rect.unit (s := S1x258x258x64) (k0_off1 i) S1x34x258x64.size (k0_off1_inb i)))
            (View.ld x1 (Rect.unit (s := S3x3x64x64) ![1, 0, 0, 0] S1x1x64x64.size inb_S3x3x64x64_S1x1x64x64_1_0_0_0)))
          (View.ld x1 (Rect.unit (s := S3x3x64x64) ![1, 1, 0, 0] S1x1x64x64.size inb_S3x3x64x64_S1x1x64x64_1_1_0_0))
          (View.ld x1 (Rect.unit (s := S3x3x64x64) ![1, 2, 0, 0] S1x1x64x64.size inb_S3x3x64x64_S1x1x64x64_1_2_0_0))
          (View.ld x1 (Rect.unit (s := S3x3x64x64) ![2, 0, 0, 0] S1x1x64x64.size inb_S3x3x64x64_S1x1x64x64_2_0_0_0))
          (View.ld x1 (Rect.unit (s := S3x3x64x64) ![2, 1, 0, 0] S1x1x64x64.size inb_S3x3x64x64_S1x1x64x64_2_1_0_0)))
        (k0_pay6 (k0_pay2 (View.ld x0 (Rect.unit (s := S1x258x258x64) (k0_off1 i) S1x34x258x64.size (k0_off1_inb i))))
          (View.ld x1 (Rect.unit (s := S3x3x64x64) ![2, 2, 0, 0] S1x1x64x64.size inb_S3x3x64x64_S1x1x64x64_2_2_0_0)))
        (ix4 (0 : Fin 1) r q o)
      = Cert.SubmConv.dense P W b y q o := by
  rw [payload_apply,
    T_loads i x0 x1 P W b hx0 hx1 0 0 _ 0 0 rfl rfl r q o y hy, T_loads i x0 x1 P W b hx0 hx1 0 1 _ 0 1 rfl rfl r q o y hy,
    T_loads i x0 x1 P W b hx0 hx1 0 2 _ 0 2 rfl rfl r q o y hy, T_loads i x0 x1 P W b hx0 hx1 1 0 _ 1 0 rfl rfl r q o y hy,
    T_loads i x0 x1 P W b hx0 hx1 1 1 _ 1 1 rfl rfl r q o y hy, T_loads i x0 x1 P W b hx0 hx1 1 2 _ 1 2 rfl rfl r q o y hy,
    T_loads i x0 x1 P W b hx0 hx1 2 0 _ 2 0 rfl rfl r q o y hy, T_loads i x0 x1 P W b hx0 hx1 2 1 _ 2 1 rfl rfl r q o y hy,
    T_loads i x0 x1 P W b hx0 hx1 2 2 _ 2 2 rfl rfl r q o y hy]
  rfl

end Cert.KernelIdeal.Conv

end
-- ==== Proof.ConvBlocks.lean ====
/-
  From the blocks to the whole output array.

  Grid point `t = (b, h)` of the 4 × 8 grid writes back the block of rows `32 · h … 32 · h + 31` of batch `b`; its
  feature block is batch `b` of the padded array and its weight block is the whole weight array.  The block it
  stores is the 3 × 3 window sum at its cells, and the 32 blocks tile the output: cell `(b, y)` lies in the block of
  the point `(b, y / 32)`.  So after the run the output array is the window sum at every cell.
-/
import proofs.«119561_j24610162606296_2_alg».proof.Proof.FrameIdeal
import proofs.«119561_j24610162606296_2_alg».proof.Proof.ConvBlock
import Idealize.ShloMosaic.Lib.Pipeline.Value
import Idealize.ShloMosaic.Lib.Decide

set_option maxRecDepth 16384

noncomputable section

open scoped BigOperators

namespace Cert.KernelIdeal.Conv

open Cert.KernelIdeal Cert.KernelIdeal.Gen Cert.KernelIdeal.Hand
open Idealize.ShloMosaic Idealize.ShloMosaic.ValueIdx Idealize.ShloMosaic.TcCoe
open Idealize.SL.Sem
open Idealize.ShloMosaic.Pipeline (Dat Cfg Window)

variable (m : (ℓ : Loc nD τ sig) → Buf (Elt Ideal) ℓ)

theorem zero_offsets : (![0, 0, 0, 0] : Fin 4 → Nat) = fun _ => 0 := funext fun a => by fin_cases a <;> rfl

/-- The index maps over the grid: at point `t = (b, h)` the feature window is at block `(b, 0, 0, 0)`, the weight
    window at `(0, 0, 0, 0)` and the output window at `(b, h, 0, 0)`, with `b < 4` and `h < 8`. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (0 : Fin 4) < 4 ∧ win0_2.index t (1 : Fin 4) = ((grid0.coords t) 1).val
    ∧ win0_2.index t (1 : Fin 4) < 8
    ∧ win0_2.index t (2 : Fin 4) = 0 ∧ win0_2.index t (3 : Fin 4) = 0 :=
  (by decide +kernel : ∀ t : Fin grid0.N, _)

/-- Every output block `(b, h, 0, 0)` is some point's. -/
theorem idx_onto : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

/-- What point `t` writes back is block `t` of the window sum of the padded features and the weights as the region
    finds them. -/
theorem flushed_eq (c : Dev nD) (t : Fin cfg0.N) :
    (dats m 0 c).flushed 2 t = ((cfg0.win 2).blk t).view.read (Elt Ideal)
      (fun j : S4x256x256x64.Idx => Cert.SubmConv.dense (V m c main_v64) (V m c main_v65) (j 0) (j 1) (j 2) (j 3)) := by
  show (cfg0.win 2).cut (grid0.coords t) ((dats m 0 c).after 2 t) = _
  rw [after0_2]
  unfold out0_2
  rw [View.canon_unit_zero zero_offsets]
  obtain ⟨e00, e01, e02, e03, e10, e11, e12, e13, l20, e21, l21, e22, e23⟩ := idx_facts t
  funext j
  have hj0' : (j 0).val < 1 := (j 0).isLt
  have hj0 : (j 0).val = 0 := by omega
  have hj1 : (j 1).val < 32 := (j 1).isLt
  have hj2 : (j 2).val < 256 := (j 2).isLt
  have hj3 : (j 3).val < 64 := (j 3).isLt
  have hx0 : ∀ (a : Fin 258) (b' : Fin 258) (ch : Fin 64),
      iblk m c 0 t (ix4 (0 : Fin 1) a b' ch) = V m c main_v64 (ix4 (⟨win0_2.index t (0 : Fin 4), l20⟩ : Fin 4) a b' ch) := by
    intro a b' ch
    show V m c main_v64 (((cfg0.win 0).blk t).view.emb (ix4 (0 : Fin 1) a b' ch)) = _
    refine congrArg (V m c main_v64) (funext fun ax => Fin.ext ?_)
    match ax with
    | ⟨0, _⟩ => show win0_0.index t (0 : Fin 4) * 1 + 1 * 0 = win0_2.index t (0 : Fin 4); omega
    | ⟨1, _⟩ => show win0_0.index t (1 : Fin 4) * 258 + 1 * a.val = a.val; omega
    | ⟨2, _⟩ => show win0_0.index t (2 : Fin 4) * 258 + 1 * b'.val = b'.val; omega
    | ⟨3, _⟩ => show win0_0.index t (3 : Fin 4) * 64 + 1 * ch.val = ch.val; omega
  have hx1 : ∀ (dy dx : Fin 3) (ch o : Fin 64), iblk m c 1 t (ix4 dy dx ch o) = V m c main_v65 (ix4 dy dx ch o) := by
    intro dy dx ch o
    show V m c main_v65 (((cfg0.win 1).blk t).view.emb (ix4 dy dx ch o)) = _
    refine congrArg (V m c main_v65) (funext fun ax => Fin.ext ?_)
    match ax with
    | ⟨0, _⟩ => show win0_1.index t (0 : Fin 4) * 3 + 1 * dy.val = dy.val; omega
    | ⟨1, _⟩ => show win0_1.index t (1 : Fin 4) * 3 + 1 * dx.val = dx.val; omega
    | ⟨2, _⟩ => show win0_1.index t (2 : Fin 4) * 64 + 1 * ch.val = ch.val; omega
    | ⟨3, _⟩ => show win0_1.index t (3 : Fin 4) * 64 + 1 * o.val = o.val; omega
  have key := block_dense (grid0.coords t) (iblk m c 0 t) (iblk m c 1 t) (V m c main_v64) (V m c main_v65)
    (⟨win0_2.index t (0 : Fin 4), l20⟩ : Fin 4) hx0 hx1 (j 1) (j 2) (j 3)
    (⟨win0_2.index t (1 : Fin 4) * 32 + (j 1).val, by omega⟩ : Fin 256)
    (by show win0_2.index t (1 : Fin 4) * 32 + (j 1).val = 32 * ((grid0.coords t) 1).val + (j 1).val; omega)
  have ej : (ix4 (0 : Fin 1) (j 1) (j 2) (j 3) : S1x32x256x64.Idx) = j :=
    funext fun ax => by
      match ax with
      | ⟨0, _⟩ => exact Fin.ext (by show 0 = (j 0).val; omega)
      | ⟨1, _⟩ => rfl
      | ⟨2, _⟩ => rfl
      | ⟨3, _⟩ => rfl
  rw [ej] at key
  refine key.trans ?_
  show Cert.SubmConv.dense (V m c main_v64) (V m c main_v65) _ _ _ _
    = Cert.SubmConv.dense (V m c main_v64) (V m c main_v65) ((((cfg0.win 2).blk t).view.emb j) 0)
        ((((cfg0.win 2).blk t).view.emb j) 1) ((((cfg0.win 2).blk t).view.emb j) 2) ((((cfg0.win 2).blk t).view.emb j) 3)
  congr 1
  · exact Fin.ext (by show win0_2.index t (0 : Fin 4) = win0_2.index t (0 : Fin 4) * 1 + 1 * (j 0).val; omega)
  · exact Fin.ext (by show win0_2.index t (1 : Fin 4) * 32 + (j 1).val = win0_2.index t (1 : Fin 4) * 32 + 1 * (j 1).val; omega)
  · exact Fin.ext (by show (j 2).val = win0_2.index t (2 : Fin 4) * 256 + 1 * (j 2).val; omega)
  · exact Fin.ext (by show (j 3).val = win0_2.index t (3 : Fin 4) * 64 + 1 * (j 3).val; omega)

/-- An index of the output array is in point `t`'s block iff each coordinate is in the block's range on its axis. -/
theorem mem_blk (t : Fin cfg0.N) (i : S4x256x256x64.Idx) :
    i ∈ ((cfg0.win 2).blk t).view.set ↔ ∀ a : Fin 4, win0_2.index t a * S1x32x256x64.size a ≤ (i a).val
      ∧ (i a).val < win0_2.index t a * S1x32x256x64.size a + S1x32x256x64.size a := by
  show i ∈ ((View.whole main_v66).slice (win0_2.rect t)).set ↔ _
  rw [View.set_slice_whole, Rect.mem_set_unit]
  exact Iff.rfl

/-- Every cell `(b, y, x, o)` of the output is in the block of the point `(b, y / 32)`. -/
theorem cover (i : S4x256x256x64.Idx) :
    ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 256 := (i 2).isLt
  have hi3 : (i 3).val < 64 := (i 3).isLt
  obtain ⟨t, ht⟩ := idx_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 256 ≤ (i 2).val ∧ (i 2).val < win0_2.index t (2 : Fin 4) * 256 + 256; omega
  | ⟨3, _⟩ => show win0_2.index t (3 : Fin 4) * 64 ≤ (i 3).val ∧ (i 3).val < win0_2.index t (3 : Fin 4) * 64 + 64; omega

/-- The output array after the run: the 3 × 3 window sum, at every cell, of the padded features and the weights as
    the region finds them. -/
theorem dense_final (c : Dev nD) :
    (dats m 0 c).arrAt 2 cfg0.N
      = fun j : S4x256x256x64.Idx => Cert.SubmConv.dense (V m c main_v64) (V m c main_v65) (j 0) (j 1) (j 2) (j 3) :=
  (dats m 0 c).arrAt_eq_of_cover 2 _ (fun t _ => flushed_eq m c t) cover

end Cert.KernelIdeal.Conv

end
-- ==== Proof.HostSideBase.lean ====
/-
  Core c's buffer contents when the pipelined region is entered — the launch contents after the host
  operations that precede the region — and the two rewriting steps every statement about them starts
  with: the stretches of host operations flattened into one list, and each buffer's contents after
  the list rewritten to the operations' terms.
-/
import proofs.«119561_j24610162606296_2_alg».proof.Proof.Gen.KernelIdeal.Launch
import Idealize.ShloMosaic.Lib.StableHlo.Run
import Idealize.ShloMosaic.Lib.Tactic

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-- Core c's buffer contents when the region is entered: the launch contents after the host lines before the region. -/
abbrev V0 (m : (ℓ : Loc nD τ sig) → Buf (Elt F) ℓ) (c : Dev nD) : Valuation τ sig (Elt F) :=
  StableHlo.after (List.flatten [hostOps0, hostOps0_1, hostOps0_2, hostOps0_3, hostOps0_4, hostOps0_5, hostOps0_6]) (fun b => m (c, b))
/-- The same read at a reference. -/
abbrev V (m : (ℓ : Loc nD τ sig) → Buf (Elt F) ℓ) (c : Dev nD) (b : Ref sig .tc) : Buf (Elt F) ((c : Thread nD τ).loc b) := V0 m c (Proc.devRef .tc b)

/-- An operation over a literal family of three references: its result, with each operand's contents at its own
    reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same, stated for the simplifier. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Flattens the prefix's stretches into one list of operations. -/
macro "flatten_prefix" : tactic =>
  `(tactic| (dsimp only [V, V0]
             simp only [hostOps0, hostOps0_1, hostOps0_2, hostOps0_3, hostOps0_4, hostOps0_5, hostOps0_6,
               List.flatten_cons, List.flatten_nil, List.append_nil, List.cons_append, List.nil_append]))

/-- Rewrites every buffer's contents after the operations to the operations' terms, in one pass. -/
macro "results_pass" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Cert.KernelIdeal.HostSide

end
-- ==== Proof.HostSide1.lean ====
/-
  The index arrays the host computes before the region are the reference's.

  The kernel's first forty-eight host operations (the clipped sigmoid of the anchors, the cell
  coordinates, the batch ids, the reshaped features, the scatter-max rulebook) are, operation by
  operation, the reference's first forty-eight: each buffer's contents after the prefix is the
  reference's value term at the same argument arrays.
-/
import proofs.«119561_j24610162606296_2_alg».proof.Proof.HostSideBase
import proofs.«119561_j24610162606296_2_alg».proof.Proof.ReadP

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 8000000 in
/-- The cell coordinates of the points (131072 by 2, 32-bit words). -/
theorem V_main_v17 (c : Dev nD) :
    (V m c main_v17 : (⟨S131072x2, .i32⟩ : BufTy).Contents (Elt F))
      = Cert.ReferenceIdeal.Read.val_main_v17 (F := F) (m (c, Proc.devRef .tc main_arg1)) := by
  flatten_prefix
  results_pass
  all_goals rfl

set_option maxHeartbeats 8000000 in
/-- The batch ids of the points. -/
theorem V_main_v20 (c : Dev nD) :
    (V m c main_v20 : (⟨S131072, .i32⟩ : BufTy).Contents (Elt F))
      = Cert.ReferenceIdeal.Read.val_main_v20 (F := F) := by
  flatten_prefix
  results_pass
  all_goals rfl

set_option maxHeartbeats 8000000 in
/-- The features as 131072 rows of 64. -/
theorem V_main_v21 (c : Dev nD) :
    (V m c main_v21 : (⟨S131072x64, .f32⟩ : BufTy).Contents (Elt F))
      = Cert.ReferenceIdeal.Read.val_main_v21 (F := F) (m (c, Proc.devRef .tc main_arg0)) := by
  flatten_prefix
  results_pass
  all_goals rfl

/-! ### The rulebook grid

The scatter reads the grid of minus ones, the three index columns joined side by side, and the point ids. The
contents below the join are kept as one unknown valuation while the join and the scatter are read; the five buffers
the two operations read are then the reference's, each by itself. -/

set_option maxHeartbeats 8000000 in
theorem V_main_v22 (c : Dev nD) :
    (V m c main_v22 : (⟨S4x256x256, .i32⟩ : BufTy).Contents (Elt F)) = Cert.ReferenceIdeal.Read.val_main_v22 (F := F) := by
  flatten_prefix
  results_pass
  all_goals rfl

set_option maxHeartbeats 8000000 in
theorem V_main_v27 (c : Dev nD) :
    (V m c main_v27 : (⟨S131072, .i32⟩ : BufTy).Contents (Elt F)) = Cert.ReferenceIdeal.Read.val_main_v27 (F := F) := by
  flatten_prefix
  results_pass
  all_goals rfl

set_option maxHeartbeats 8000000 in
theorem V_main_v43 (c : Dev nD) :
    (V m c main_v43 : (⟨S131072x1, .i32⟩ : BufTy).Contents (Elt F)) = Cert.ReferenceIdeal.Read.val_main_v43 (F := F) := by
  flatten_prefix
  results_pass
  all_goals rfl

set_option maxHeartbeats 8000000 in
theorem V_main_v44 (c : Dev nD) :
    (V m c main_v44 : (⟨S131072x1, .i32⟩ : BufTy).Contents (Elt F))
      = Cert.ReferenceIdeal.Read.val_main_v44 (F := F) (m (c, Proc.devRef .tc main_arg1)) := by
  flatten_prefix
  results_pass
  all_goals rfl

set_option maxHeartbeats 8000000 in
theorem V_main_v45 (c : Dev nD) :
    (V m c main_v45 : (⟨S131072x1, .i32⟩ : BufTy).Contents (Elt F))
      = Cert.ReferenceIdeal.Read.val_main_v45 (F := F) (m (c, Proc.devRef .tc main_arg1)) := by
  flatten_prefix
  results_pass
  all_goals rfl

set_option maxHeartbeats 16000000 in
/-- The grid is the scatter-max of the point ids at the joined columns, into the grid of minus ones. -/
theorem V_main_v47_ops (c : Dev nD) :
    (V m c main_v47 : (⟨S4x256x256, .i32⟩ : BufTy).Contents (Elt F))
      = Host.scatter scatter_S4x256x256_S131072x3_S131072_n_012_012_1 IntOp.maxsi
          (V m c main_v22 : (⟨S4x256x256, .i32⟩ : BufTy).Contents (Elt F))
          (concatenate S131072x3 1
            [⟨S131072x1, (V m c main_v43 : (⟨S131072x1, .i32⟩ : BufTy).Contents (Elt F))⟩,
             ⟨S131072x1, (V m c main_v44 : (⟨S131072x1, .i32⟩ : BufTy).Contents (Elt F))⟩,
             ⟨S131072x1, (V m c main_v45 : (⟨S131072x1, .i32⟩ : BufTy).Contents (Elt F))⟩]
            concatenates_S131072x1_S131072x1_S131072x1_S131072x3_d1)
          (V m c main_v27 : (⟨S131072, .i32⟩ : BufTy).Contents (Elt F)) := by
  flatten_prefix
  simp only [after_cons, after_nil]
  generalize (StableHlo.unary main_v42 main_v45 _ _ _).result _ = W
  results_pass
  all_goals rfl

/-- The rulebook grid (4 by 256 by 256): the scatter-max of the point ids. -/
theorem V_main_v47 (c : Dev nD) :
    (V m c main_v47 : (⟨S4x256x256, .i32⟩ : BufTy).Contents (Elt F))
      = Cert.ReferenceIdeal.Read.val_main_v47 (F := F) (m (c, Proc.devRef .tc main_arg1)) := by
  rw [V_main_v47_ops m c, V_main_v22 m c, V_main_v27 m c, V_main_v43 m c, V_main_v44 m c, V_main_v45 m c]
  rfl

end Cert.KernelIdeal.HostSide

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.HostSide2.lean ====
/-
  The padded representative features, and the weights, as the region reads them.

  Between the scatter that builds the rulebook grid and the region, the host flattens the grid, raises its
  entries to zero and index-normalises them, gathers the feature row each entry names, masks the rows of
  empty cells to zero, reshapes to cells, and surrounds each plane with a zero border of width one. Read at
  an index the result is the padded array of the specification; the weights pass through a format change
  that is the identity on extended reals.
-/
import proofs.«119561_j24610162606296_2_alg».proof.Proof.HostSideBase
import proofs.«119561_j24610162606296_2_alg».proof.Proof.Spec
import proofs.«119561_j24610162606296_2_alg».proof.Proof.LibGatherRows
import Idealize.ShloMosaic.Lib.KernelVsHost
import Idealize.ShloMosaic.Lib.IdealHost
import Idealize.ShloMosaic.Lib.Pipeline.Value
import Idealize.ShloMosaic.Lib.ValueIdx
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo Idealize.ShloMosaic.ValueIdx
open Cert.KernelIdeal Cert.KernelIdeal.Gen

/-! ## From the rulebook grid and the feature rows to the padded representative features

The host operations between the scatter and the region, composed, as functions of the grid
(4 by 256 by 256 words) and the feature rows (131072 by 64): the grid flattened; its entries
raised to zero and index-normalised; the row gather; the mask of occupied cells; the select
against zero; the reshape to cells; the zero border; the format change (the identity here). -/

/-- The grid as one vector of 262144 words. -/
def flatGrid (grid : IVec S4x256x256 32) : IVec S262144 32 :=
  shapeCast S262144 grid shapeCasts_S4x256x256_S262144

/-- The entries raised to zero. -/
def safeIdx (grid : IVec S4x256x256 32) : IVec S262144 32 :=
  maxsi (flatGrid grid) (broadcastInDim S262144 ![] bcast_S_S262144 (constantI S_ 32 0#32))

/-- The raised entries index-normalised: a negative word has 131072 added. -/
def normIdx (grid : IVec S4x256x256 32) : IVec S262144 32 :=
  select (cmpi .slt (safeIdx grid) (broadcastInDim S262144 ![] bcast_S_S262144 (constantI S_ 32 0#32)))
    (addi (safeIdx grid) (broadcastInDim S262144 ![] bcast_S_S262144 (constantI S_ 32 131072#32))) (safeIdx grid)

/-- The feature row each cell's entry names. -/
def gathered (grid : IVec S4x256x256 32) (feats : FVec Ideal S131072x64 .f32) : FVec Ideal S262144x64 .f32 :=
  Host.gather gather_S131072x64_S262144x1_S262144x64_1_0_n_n_0_1_164 feats
    (broadcastInDim S262144x1 ![0] bcast_S262144_S262144x1_0 (normIdx grid))

/-- The mask of occupied cells, as a column. -/
def validCol (grid : IVec S4x256x256 32) : IVec S262144x1 1 :=
  broadcastInDim S262144x1 ![0] bcast_S262144_S262144x1_0
    (cmpi .sge (flatGrid grid) (broadcastInDim S262144 ![] bcast_S_S262144 (constantI S_ 32 0#32)))

/-- The represented feature of every cell, cells along the rows. -/
def repFlat (grid : IVec S4x256x256 32) (feats : FVec Ideal S131072x64 .f32) : FVec Ideal S262144x64 .f32 :=
  select (broadcastInDim S262144x64 ![0, 1] bcast_S262144x1_S262144x64_0_1 (validCol grid)) (gathered grid feats)
    (broadcastInDim S262144x64 ![] bcast_S_S262144x64 (id (constant (F := Ideal) S_ .f32 0x00000000#32)))

/-- The padded representative features, as the program computes them. -/
def repTerm (grid : IVec S4x256x256 32) (feats : FVec Ideal S131072x64 .f32) : FVec Ideal S4x258x258x64 .bf16 :=
  truncf .bf16
    (pad S4x258x258x64 ![0, 1, 1, 0] ![0, 1, 1, 0] ![0, 0, 0, 0]
      (shapeCast S4x256x256x64 (repFlat grid feats) shapeCasts_S262144x64_S4x256x256x64)
      (sitofp (F := Ideal) .f32 (constantI S_ 32 0#32)) pads_S4x256x256x64_S4x258x258x64_000_110_110_000 h_S_)
    bitsLt_bf16_f32

/-! ### Read at an index -/

/-- The flat position of cell (b, h, w). -/
def cellPos (b : Fin 4) (h w : Fin 256) : Fin 262144 := ⟨(b.val * 256 + h.val) * 256 + w.val, by omega⟩

theorem flatGrid_apply (grid : IVec S4x256x256 32) (b : Fin 4) (h w : Fin 256) :
    flatGrid grid (ix1 (cellPos b h w)) = grid (ix3 b h w) :=
  shapeCast_apply grid shapeCasts_S4x256x256_S262144 (ix1 (cellPos b h w)) (ix3 b h w)
    (by rw [Shape.rowMajor_val_three, Shape.rowMajor_val_one]; rfl)

theorem safeIdx_apply (grid : IVec S4x256x256 32) (b : Fin 4) (h w : Fin 256) :
    safeIdx grid (ix1 (cellPos b h w)) = IntOp.maxsi (grid (ix3 b h w)) 0#32 := by
  show IntOp.maxsi (flatGrid grid (ix1 (cellPos b h w))) 0#32 = _
  rw [flatGrid_apply]

theorem normIdx_apply (grid : IVec S4x256x256 32) (b : Fin 4) (h w : Fin 256) :
    normIdx grid (ix1 (cellPos b h w)) = SubmConv.rowWord (grid (ix3 b h w)) := by
  show Scalar.select (IntOp.cmpi .slt (safeIdx grid (ix1 (cellPos b h w))) 0#32)
      (IntOp.addi (safeIdx grid (ix1 (cellPos b h w))) 131072#32) (safeIdx grid (ix1 (cellPos b h w))) = _
  rw [safeIdx_apply]
  rfl

/-- A vector laid as a column reads, in row r, the vector at r. -/
theorem column_apply {α : Type} (v : S262144.Idx → α) (r : Fin 262144) :
    broadcastInDim S262144x1 ![0] bcast_S262144_S262144x1_0 v (ix2 r (0 : Fin 1)) = v (ix1 r) :=
  broadcastInDim_apply _ bcast_S262144_S262144x1_0 v (ix2 r (0 : Fin 1)) (ix1 r) (fun a => match a with
    | ⟨0, _⟩ => by show r.val = if (262144 : Nat) = 1 then 0 else r.val; rw [if_neg (by decide)])

/-- A column spread along 64 columns reads, at (r, ch), the column in row r. -/
theorem spread_apply {α : Type} (v : S262144x1.Idx → α) (r : Fin 262144) (ch : Fin 64) :
    broadcastInDim S262144x64 ![0, 1] bcast_S262144x1_S262144x64_0_1 v (ix2 r ch) = v (ix2 r (0 : Fin 1)) :=
  broadcastInDim_apply _ bcast_S262144x1_S262144x64_0_1 v (ix2 r ch) (ix2 r (0 : Fin 1)) (fun a => match a with
    | ⟨0, _⟩ => by show r.val = if (262144 : Nat) = 1 then 0 else r.val; rw [if_neg (by decide)]
    | ⟨1, _⟩ => by show 0 = if (1 : Nat) = 1 then 0 else ch.val; rw [if_pos rfl])

theorem gathered_apply (grid : IVec S4x256x256 32) (feats : FVec Ideal S131072x64 .f32) (b : Fin 4) (h w : Fin 256) (ch : Fin 64) :
    gathered grid feats (ix2 (cellPos b h w) ch) = SubmConv.featRow feats (grid (ix3 b h w)) ch := by
  unfold gathered
  refine (LibGatherRows.gather_rows2_apply (N := 131072) (D := 64) (R := 262144) (by decide)
    gather_S131072x64_S262144x1_S262144x64_1_0_n_n_0_1_164_wf feats _ (cellPos b h w) ch).trans ?_
  rw [column_apply, normIdx_apply]
  rfl

theorem repFlat_apply (grid : IVec S4x256x256 32) (feats : FVec Ideal S131072x64 .f32) (b : Fin 4) (h w : Fin 256) (ch : Fin 64) :
    repFlat grid feats (ix2 (cellPos b h w) ch) = SubmConv.rep grid feats b h w ch := by
  show Scalar.select (broadcastInDim S262144x64 ![0, 1] bcast_S262144x1_S262144x64_0_1 (validCol grid) (ix2 (cellPos b h w) ch))
      (gathered grid feats (ix2 (cellPos b h w) ch))
      (broadcastInDim S262144x64 ![] bcast_S_S262144x64 (id (constant (F := Ideal) S_ .f32 0x00000000#32)) (ix2 (cellPos b h w) ch)) = _
  rw [spread_apply, gathered_apply]
  unfold validCol
  rw [column_apply]
  show Scalar.select (IntOp.cmpi .sge (flatGrid grid (ix1 (cellPos b h w))) 0#32) _ (Ideal.ofBits .f32 0x00000000#32) = _
  rw [flatGrid_apply]
  have z : Ideal.ofBits .f32 0x00000000#32 = 0 := by simp [Ideal.ofBits, Ideal.ieee]
  rw [z]
  rfl

/-- The cells as a four-axis array read at (b, h, w, ch). -/
theorem cells_apply {α : Type} (X : S262144x64.Idx → α) (b : Fin 4) (h w : Fin 256) (ch : Fin 64) :
    shapeCast S4x256x256x64 X shapeCasts_S262144x64_S4x256x256x64 (ix4 b h w ch) = X (ix2 (cellPos b h w) ch) :=
  shapeCast_apply X shapeCasts_S262144x64_S4x256x256x64 (ix4 b h w ch) (ix2 (cellPos b h w) ch)
    (by rw [Shape.rowMajor_val_two, Shape.rowMajor_val_four]; rfl)

/-- The border value: the word zero as a float. -/
theorem border_zero :
    (sitofp (F := Ideal) .f32 (constantI S_ 32 0#32)) (Shape.Idx.first h_S_) = 0 := by
  show (((((0#32 : BitVec 32).toInt : ℤ) : ℝ)) : EReal) = 0
  simp

/-- The padded array at (b, y, x, ch): the represented feature of cell (b, y - 1, x - 1) inside the
    border, zero on it. -/
theorem repTerm_apply (grid : IVec S4x256x256 32) (feats : FVec Ideal S131072x64 .f32) (b : Fin 4) (y x : Fin 258) (ch : Fin 64) :
    repTerm grid feats (ix4 b y x ch) = SubmConv.padded grid feats b y x ch := by
  show pad S4x258x258x64 ![0, 1, 1, 0] ![0, 1, 1, 0] ![0, 0, 0, 0]
      (shapeCast S4x256x256x64 (repFlat grid feats) shapeCasts_S262144x64_S4x256x256x64)
      (sitofp (F := Ideal) .f32 (constantI S_ 32 0#32)) pads_S4x256x256x64_S4x258x258x64_000_110_110_000 h_S_ (ix4 b y x ch) = _
  unfold SubmConv.padded
  by_cases hin : (1 ≤ y.val ∧ y.val ≤ 256) ∧ (1 ≤ x.val ∧ x.val ≤ 256)
  · rw [dif_pos hin]
    rw [pad_apply_of_inside (s := S4x256x256x64) (t := S4x258x258x64) ![0, 1, 1, 0] ![0, 1, 1, 0] ![0, 0, 0, 0] _ _
      pads_S4x256x256x64_S4x258x258x64_000_110_110_000 h_S_ (ix4 b y x ch)
      (ix4 b (⟨y.val - 1, by omega⟩ : Fin 256) (⟨x.val - 1, by omega⟩ : Fin 256) ch)
      (fun a => match a with
        | ⟨0, _⟩ => by show b.val = 0 + b.val * (0 + 1); omega
        | ⟨1, _⟩ => by show y.val = 1 + (y.val - 1) * (0 + 1); omega
        | ⟨2, _⟩ => by show x.val = 1 + (x.val - 1) * (0 + 1); omega
        | ⟨3, _⟩ => by show ch.val = 0 + ch.val * (0 + 1); omega)]
    rw [cells_apply, repFlat_apply]
  · rw [dif_neg hin]
    by_cases hy : 1 ≤ y.val ∧ y.val ≤ 256
    · have hx : ¬(1 ≤ x.val ∧ x.val ≤ 256) := fun h => hin ⟨hy, h⟩
      rw [pad_apply_of_not_inside (s := S4x256x256x64) (t := S4x258x258x64) ![0, 1, 1, 0] ![0, 1, 1, 0] ![0, 0, 0, 0] _ _
        pads_S4x256x256x64_S4x258x258x64_000_110_110_000 h_S_ (ix4 b y x ch) (2 : Fin 4)
        (by
          show ¬(1 ≤ x.val ∧ (x.val - 1) % (0 + 1) = 0 ∧ (x.val - 1) / (0 + 1) < 256)
          intro h; apply hx; omega)]
      exact border_zero
    · rw [pad_apply_of_not_inside (s := S4x256x256x64) (t := S4x258x258x64) ![0, 1, 1, 0] ![0, 1, 1, 0] ![0, 0, 0, 0] _ _
        pads_S4x256x256x64_S4x258x258x64_000_110_110_000 h_S_ (ix4 b y x ch) (1 : Fin 4)
        (by
          show ¬(1 ≤ y.val ∧ (y.val - 1) % (0 + 1) = 0 ∧ (y.val - 1) / (0 + 1) < 256)
          intro h; apply hy; omega)]
      exact border_zero

/-! ### The buffers the region reads -/

set_option maxHeartbeats 16000000 in
/-- The padded features' buffer holds the composed operations of the grid's and the feature rows' buffers. The
    contents up to the scatter are kept as one unknown valuation: the later operations read it at the grid's and the
    feature rows' buffers only. -/
theorem V_main_v64 (m : (ℓ : Loc nD τ sig) → Buf (Elt Ideal) ℓ) (c : Dev nD) :
    (V m c main_v64 : FVec Ideal S4x258x258x64 .bf16) = repTerm (V m c main_v47) (V m c main_v21) := by
  flatten_prefix
  simp only [after_cons, after_nil]
  generalize (StableHlo.ternary main_v22 main_v46 main_v27 main_v47 _ _ _ _ _).result _ = W
  results_pass
  all_goals rfl

/-- The padded features at an index. -/
theorem V_main_v64_apply (m : (ℓ : Loc nD τ sig) → Buf (Elt Ideal) ℓ) (c : Dev nD) (b : Fin 4) (y x : Fin 258) (ch : Fin 64) :
    (V m c main_v64 : FVec Ideal S4x258x258x64 .bf16) (ix4 b y x ch)
      = SubmConv.padded (V m c main_v47) (V m c main_v21) b y x ch := by
  rw [V_main_v64 m c]
  exact repTerm_apply _ _ b y x ch

set_option maxHeartbeats 8000000 in
/-- The weights' buffer holds the weights argument (the format change is the identity). -/
theorem V_main_v65_apply (m : (ℓ : Loc nD τ sig) → Buf (Elt Ideal) ℓ) (c : Dev nD) (dy dx : Fin 3) (ch o : Fin 64) :
    (V m c main_v65 : FVec Ideal S3x3x64x64 .bf16) (ix4 dy dx ch o)
      = (m (c, Proc.devRef .tc main_arg2) : FVec Ideal S3x3x64x64 .f32) (ix4 dy dx ch o) := by
  have e : @Eq (FVec Ideal S3x3x64x64 .bf16) (V m c main_v65)
      (truncf .bf16 (m (c, Proc.devRef .tc main_arg2) : FVec Ideal S3x3x64x64 .f32) bitsLt_bf16_f32) := by
    flatten_prefix
    results_pass
    all_goals rfl
  rw [e]
  rfl

end Cert.KernelIdeal.HostSide

end
-- ==== Proof.LibGatherCellChan.lean ====
/-
  A cell gather with a channel axis, on the host, read at an index.

  For a table of A by B by C cells of D channels each and three integer vectors of length R, the gather whose start
  indices are the R by 3 array with the three vectors as its columns, the three cell axes collapsed and the channel
  axis the one offset axis (a whole cell of D channels per start index), has at entry (r, d) the table's channel d of
  the cell the three components name: each component is read as a signed integer and clamped into its axis, so every
  triple of integers names a cell. The statement takes the dimension numbers as a record built from the literal lists;
  a printed record with the same lists is equal to it by reflexivity.
-/
import Idealize.ShloMosaic.Lib.ValueIdx

noncomputable section

namespace Cert.LibGatherCellChan

open Idealize.ShloMosaic Idealize.ShloMosaic.ValueIdx

variable {α : Type}

/-- The position a start-index component names on an axis of extent N: its signed value clamped into [0, N − 1]. -/
def clampAxis {w : ℕ} (N : ℕ) (hN : 0 < N) (v : BitVec w) : Fin N := ⟨min v.toInt.toNat (N - 1), by omega⟩

/-- The dimension numbers of the gather for a table [A, B, C, D] and start indices [R, 3]. -/
abbrev cellDims (A B C D R : ℕ)
    (wf : GatherDims.WF ⟨4, ![A, B, C, D]⟩ ⟨2, ![R, 3]⟩ ⟨2, ![R, D]⟩ [1] [0, 1, 2] [] [0, 1, 2] [] 1 ![1, 1, 1, D]) :
    GatherDims ⟨4, ![A, B, C, D]⟩ ⟨2, ![R, 3]⟩ ⟨2, ![R, D]⟩ where
  offsetDims := [1]
  collapsedSliceDims := [0, 1, 2]
  operandBatchingDims := []
  startIndicesBatchingDims := []
  startIndexMap := [0, 1, 2]
  indexVectorDim := 1
  sliceSizes := ![1, 1, 1, D]
  wf := wf

section Cell
variable {A B C D R w : ℕ}
  (wf : GatherDims.WF ⟨4, ![A, B, C, D]⟩ ⟨2, ![R, 3]⟩ ⟨2, ![R, D]⟩ [1] [0, 1, 2] [] [0, 1, 2] [] 1 ![1, 1, 1, D])
  (idx : IVec ⟨2, ![R, 3]⟩ w) (r : Fin R) (d : Fin D)

theorem zero_mem : (0 : Fin 4) ∈ ([0, 1, 2] : List (Fin 4)) := List.mem_cons_self
theorem one_mem : (1 : Fin 4) ∈ ([0, 1, 2] : List (Fin 4)) := List.mem_cons_of_mem _ List.mem_cons_self
theorem two_mem : (2 : Fin 4) ∈ ([0, 1, 2] : List (Fin 4)) :=
  List.mem_cons_of_mem _ (List.mem_cons_of_mem _ List.mem_cons_self)
theorem three_not_mem : (3 : Fin 4) ∉ ([0, 1, 2] : List (Fin 4)) := by decide

/-- On the first cell axis the operand coordinate is the clamped first component: no batching, the axis collapsed. -/
theorem cell_axis0 :
    (cellDims A B C D R wf).start (ix2 r d) idx 0 + (cellDims A B C D R wf).batchCoord (ix2 r d) 0
      + (cellDims A B C D R wf).offCoord (ix2 r d) 0 = min (idx (ix2 r (0 : Fin 3))).toInt.toNat (A - 1) := by
  rw [GatherDims.batchCoord_eq_zero _ _ _ List.not_mem_nil, Nat.add_zero,
    GatherDims.offCoord_eq_zero _ _ _ (fun h => ((GatherDims.mem_sKept _ _).mp h).1 zero_mem), Nat.add_zero]
  unfold GatherDims.start
  rw [dif_pos (show (0 : Fin 4) ∈ (cellDims A B C D R wf).startIndexMap from zero_mem)]
  have hsi : (cellDims A B C D R wf).siIdx (ix2 r d) ⟨List.idxOf (0 : Fin 4) (cellDims A B C D R wf).startIndexMap,
      List.idxOf_lt_length_iff.2 zero_mem⟩ = ix2 r (0 : Fin 3) := by
    funext b; refine Fin.ext ?_
    match b with
    | ⟨0, _⟩ => rfl
    | ⟨1, _⟩ => rfl
  rw [hsi]
  rfl

/-- On the second cell axis it is the clamped second component. -/
theorem cell_axis1 :
    (cellDims A B C D R wf).start (ix2 r d) idx 1 + (cellDims A B C D R wf).batchCoord (ix2 r d) 1
      + (cellDims A B C D R wf).offCoord (ix2 r d) 1 = min (idx (ix2 r (1 : Fin 3))).toInt.toNat (B - 1) := by
  rw [GatherDims.batchCoord_eq_zero _ _ _ List.not_mem_nil, Nat.add_zero,
    GatherDims.offCoord_eq_zero _ _ _ (fun h => ((GatherDims.mem_sKept _ _).mp h).1 one_mem), Nat.add_zero]
  unfold GatherDims.start
  rw [dif_pos (show (1 : Fin 4) ∈ (cellDims A B C D R wf).startIndexMap from one_mem)]
  have hsi : (cellDims A B C D R wf).siIdx (ix2 r d) ⟨List.idxOf (1 : Fin 4) (cellDims A B C D R wf).startIndexMap,
      List.idxOf_lt_length_iff.2 one_mem⟩ = ix2 r (1 : Fin 3) := by
    funext b; refine Fin.ext ?_
    match b with
    | ⟨0, _⟩ => rfl
    | ⟨1, _⟩ => rfl
  rw [hsi]
  rfl

/-- On the third cell axis it is the clamped third component. -/
theorem cell_axis2 :
    (cellDims A B C D R wf).start (ix2 r d) idx 2 + (cellDims A B C D R wf).batchCoord (ix2 r d) 2
      + (cellDims A B C D R wf).offCoord (ix2 r d) 2 = min (idx (ix2 r (2 : Fin 3))).toInt.toNat (C - 1) := by
  rw [GatherDims.batchCoord_eq_zero _ _ _ List.not_mem_nil, Nat.add_zero,
    GatherDims.offCoord_eq_zero _ _ _ (fun h => ((GatherDims.mem_sKept _ _).mp h).1 two_mem), Nat.add_zero]
  unfold GatherDims.start
  rw [dif_pos (show (2 : Fin 4) ∈ (cellDims A B C D R wf).startIndexMap from two_mem)]
  have hsi : (cellDims A B C D R wf).siIdx (ix2 r d) ⟨List.idxOf (2 : Fin 4) (cellDims A B C D R wf).startIndexMap,
      List.idxOf_lt_length_iff.2 two_mem⟩ = ix2 r (2 : Fin 3) := by
    funext b; refine Fin.ext ?_
    match b with
    | ⟨0, _⟩ => rfl
    | ⟨1, _⟩ => rfl
  rw [hsi]
  rfl

/-- On the channel axis it is the result's channel: the start index map does not name the axis, and the axis is the
    one offset axis. -/
theorem cell_axis3 :
    (cellDims A B C D R wf).start (ix2 r d) idx 3 + (cellDims A B C D R wf).batchCoord (ix2 r d) 3
      + (cellDims A B C D R wf).offCoord (ix2 r d) 3 = d.val := by
  rw [GatherDims.batchCoord_eq_zero _ _ _ List.not_mem_nil, Nat.add_zero]
  unfold GatherDims.start
  rw [dif_neg (show (3 : Fin 4) ∉ (cellDims A B C D R wf).startIndexMap from three_not_mem), Nat.zero_add]
  unfold GatherDims.offCoord
  rw [dif_pos ((GatherDims.mem_sKept _ _).mpr ⟨three_not_mem, List.not_mem_nil⟩)]
  rfl

end Cell

/-- Entry (r, d) of the gather is channel d of the table's cell at the clamped triple of start-index components. -/
theorem gather_cell_chan_apply {A B C D R w : ℕ} (hA : 0 < A) (hB : 0 < B) (hC : 0 < C)
    (wf : GatherDims.WF ⟨4, ![A, B, C, D]⟩ ⟨2, ![R, 3]⟩ ⟨2, ![R, D]⟩ [1] [0, 1, 2] [] [0, 1, 2] [] 1 ![1, 1, 1, D])
    (x : (⟨4, ![A, B, C, D]⟩ : Shape).Idx → α) (idx : IVec ⟨2, ![R, 3]⟩ w) (r : Fin R) (d : Fin D) :
    Host.gather (cellDims A B C D R wf) x idx (ix2 r d)
      = x (ix4 (clampAxis A hA (idx (ix2 r (0 : Fin 3)))) (clampAxis B hB (idx (ix2 r (1 : Fin 3))))
          (clampAxis C hC (idx (ix2 r (2 : Fin 3)))) d) := by
  unfold Host.gather
  congr 1
  funext a
  refine Fin.ext ?_
  match a with
  | ⟨0, _⟩ => exact cell_axis0 wf idx r d
  | ⟨1, _⟩ => exact cell_axis1 wf idx r d
  | ⟨2, _⟩ => exact cell_axis2 wf idx r d
  | ⟨3, _⟩ => exact cell_axis3 wf idx r d

end Cert.LibGatherCellChan

end
-- ==== Proof.LibThreeCols.lean ====
/-
  Three matrices laid side by side, read at an index.

  Three `r × a` matrices concatenated along the columns give an `r × t` matrix (`t = 3 a`).  Read at an index,
  the triple is its first piece where the column is below `a`, its second piece at the column less `a` from
  `a` on, and its third piece at the column less `2 a` from `2 a` on: entry `(k, a · i + j)` is piece `i` at
  `(k, j)`.  The column in the triple is a parameter `J` with its value given, so that a caller's own injection
  into the triple's columns fits by `rfl`.
-/
import Idealize.ShloMosaic.Lib.Pipeline.Value
import Idealize.ShloMosaic.Lib.ValueIdx

namespace Cert.LibThreeCols

open Idealize.ShloMosaic Idealize.ShloMosaic.ValueIdx

variable {α : Type}

/-- Column `j` of the first of three `r × a` matrices laid side by side. -/
theorem triple_cols_first {r a t : ℕ} (x₀ x₁ x₂ : (⟨2, ![r, a]⟩ : Shape).Idx → α)
    (h : Shape.Concatenates [(⟨2, ![r, a]⟩ : Shape), ⟨2, ![r, a]⟩, ⟨2, ![r, a]⟩] ⟨2, ![r, t]⟩ 1)
    (k : Fin r) (j : Fin a) (J : Fin t) (hJ : J.val = j.val) :
    concatenate ⟨2, ![r, t]⟩ 1 [⟨⟨2, ![r, a]⟩, x₀⟩, ⟨⟨2, ![r, a]⟩, x₁⟩, ⟨⟨2, ![r, a]⟩, x₂⟩] h (ix2 k J) = x₀ (ix2 k j) :=
  concatenate_apply_piece (1 : Fin (⟨2, ![r, t]⟩ : Shape).rank)
    [⟨⟨2, ![r, a]⟩, x₀⟩, ⟨⟨2, ![r, a]⟩, x₁⟩, ⟨⟨2, ![r, a]⟩, x₂⟩] h (ix2 k J) 0 (by show 0 < 3; omega) ⟨2, ![r, a]⟩ x₀ rfl rfl
    0 rfl (ix2 k j)
    (fun b hb => by
      match b with
      | ⟨0, _⟩ => rfl
      | ⟨1, _⟩ => exact absurd rfl hb)
    (by show 0 + j.val = J.val; omega)

/-- Column `j` of the second of three `r × a` matrices laid side by side sits at column `a + j` of the triple. -/
theorem triple_cols_second {r a t : ℕ} (x₀ x₁ x₂ : (⟨2, ![r, a]⟩ : Shape).Idx → α)
    (h : Shape.Concatenates [(⟨2, ![r, a]⟩ : Shape), ⟨2, ![r, a]⟩, ⟨2, ![r, a]⟩] ⟨2, ![r, t]⟩ 1)
    (k : Fin r) (j : Fin a) (J : Fin t) (hJ : J.val = a + j.val) :
    concatenate ⟨2, ![r, t]⟩ 1 [⟨⟨2, ![r, a]⟩, x₀⟩, ⟨⟨2, ![r, a]⟩, x₁⟩, ⟨⟨2, ![r, a]⟩, x₂⟩] h (ix2 k J) = x₁ (ix2 k j) :=
  concatenate_apply_piece (1 : Fin (⟨2, ![r, t]⟩ : Shape).rank)
    [⟨⟨2, ![r, a]⟩, x₀⟩, ⟨⟨2, ![r, a]⟩, x₁⟩, ⟨⟨2, ![r, a]⟩, x₂⟩] h (ix2 k J) 1 (by show 1 < 3; omega) ⟨2, ![r, a]⟩ x₁ rfl rfl
    (a + 0) rfl (ix2 k j)
    (fun b hb => by
      match b with
      | ⟨0, _⟩ => rfl
      | ⟨1, _⟩ => exact absurd rfl hb)
    (by show a + 0 + j.val = J.val; omega)

/-- Column `j` of the third of three `r × a` matrices laid side by side sits at column `2 a + j` of the triple. -/
theorem triple_cols_third {r a t : ℕ} (x₀ x₁ x₂ : (⟨2, ![r, a]⟩ : Shape).Idx → α)
    (h : Shape.Concatenates [(⟨2, ![r, a]⟩ : Shape), ⟨2, ![r, a]⟩, ⟨2, ![r, a]⟩] ⟨2, ![r, t]⟩ 1)
    (k : Fin r) (j : Fin a) (J : Fin t) (hJ : J.val = a + a + j.val) :
    concatenate ⟨2, ![r, t]⟩ 1 [⟨⟨2, ![r, a]⟩, x₀⟩, ⟨⟨2, ![r, a]⟩, x₁⟩, ⟨⟨2, ![r, a]⟩, x₂⟩] h (ix2 k J) = x₂ (ix2 k j) :=
  concatenate_apply_piece (1 : Fin (⟨2, ![r, t]⟩ : Shape).rank)
    [⟨⟨2, ![r, a]⟩, x₀⟩, ⟨⟨2, ![r, a]⟩, x₁⟩, ⟨⟨2, ![r, a]⟩, x₂⟩] h (ix2 k J) 2 (by show 2 < 3; omega) ⟨2, ![r, a]⟩ x₂ rfl rfl
    (a + (a + 0)) rfl (ix2 k j)
    (fun b hb => by
      match b with
      | ⟨0, _⟩ => rfl
      | ⟨1, _⟩ => exact absurd rfl hb)
    (by show a + (a + 0) + j.val = J.val; omega)

end Cert.LibThreeCols
-- ==== Proof.LibColumns.lean ====
/-
  Columns of a point table, read at an index.

  A table `[N, K]` of words, one row per point: its column `c` is the slice `[0:N, c:c+1]` re-laid as a vector
  of length `N`, and holds at `i` the table's entry `(i, c)`.  A vector of length `N` laid as an `N × 1` column
  (a broadcast along a new trailing axis) holds at `(i, 0)` the vector's entry `i`; an `N × 1` column broadcast to
  `N × D` holds at `(i, c)` the column's entry at row `i`; a scalar broadcast to any shape holds the scalar
  everywhere.
-/
import Idealize.ShloMosaic.Lib.Pipeline.Value
import Idealize.ShloMosaic.Lib.ValueIdx

namespace Cert.LibColumns

open Idealize.ShloMosaic Idealize.ShloMosaic.ValueIdx

variable {α : Type}

/-- Column `c` of an `[N, K]` table, cut out as `[N, 1]` and re-laid as `[N]`, holds at `i` the entry `(i, c)`. -/
theorem slice_col_apply {N K : ℕ} (x : (⟨2, ![N, K]⟩ : Shape).Idx → α) (c : Fin K)
    (hs : (⟨2, ![N, K]⟩ : Shape).Slices ![0, c.val] ⟨2, ![N, 1]⟩)
    (hc : (⟨2, ![N, 1]⟩ : Shape).ShapeCasts ⟨1, ![N]⟩) (i : Fin N) :
    shapeCast ⟨1, ![N]⟩ (extractStridedSlice ⟨2, ![N, 1]⟩ ![0, c.val] x hs) hc (ix1 i) = x (ix2 i c) :=
  (shapeCast_apply _ hc (ix1 i) (ix2 i (0 : Fin 1)) (by
    rw [Shape.rowMajor_val_two, Shape.rowMajor_val_one]
    show i.val * 1 + 0 = i.val
    omega)).trans
  (extractStridedSlice_apply ![0, c.val] x hs (ix2 i (0 : Fin 1)) (ix2 i c) (fun a => by
    match a with
    | ⟨0, _⟩ => show i.val = 0 + i.val; omega
    | ⟨1, _⟩ => show c.val = c.val + 0; omega))

/-- A vector laid as an `N × 1` column holds at `(i, u)` the vector's entry `i`. -/
theorem col_apply {N : ℕ} (v : (⟨1, ![N]⟩ : Shape).Idx → α)
    (h : (⟨1, ![N]⟩ : Shape).BroadcastsInDim ⟨2, ![N, 1]⟩ ![0]) (i : Fin N) (u : Fin 1) :
    broadcastInDim ⟨2, ![N, 1]⟩ ![0] h v (ix2 i u) = v (ix1 i) :=
  broadcastInDim_apply _ h v (ix2 i u) (ix1 i) (fun a => by
    match a with
    | ⟨0, _⟩ =>
      show i.val = if N = 1 then 0 else i.val
      split
      · have := i.isLt; omega
      · rfl)

/-- An `N × 1` column broadcast to `N × D` holds at `(i, c)` the column's entry at row `i`. -/
theorem col_bcast_apply {N D : ℕ} (v : (⟨2, ![N, 1]⟩ : Shape).Idx → α)
    (h : (⟨2, ![N, 1]⟩ : Shape).BroadcastsInDim ⟨2, ![N, D]⟩ ![0, 1]) (i : Fin N) (c : Fin D) :
    broadcastInDim ⟨2, ![N, D]⟩ ![0, 1] h v (ix2 i c) = v (ix2 i (0 : Fin 1)) :=
  broadcastInDim_apply _ h v (ix2 i c) (ix2 i (0 : Fin 1)) (fun a => by
    match a with
    | ⟨0, _⟩ =>
      show i.val = if N = 1 then 0 else i.val
      split
      · have := i.isLt; omega
      · rfl
    | ⟨1, _⟩ => show 0 = if (1 : ℕ) = 1 then 0 else c.val; rw [if_pos rfl])

/-- A scalar broadcast to a shape holds the scalar everywhere. -/
theorem splat_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

end Cert.LibColumns
-- ==== Proof.TailAt.lean ====
/-
  The kernel program's host operations after the region, read at an index.

  After the dense window sums D : [4, 256, 256, 64] are computed, the program reads, for each point i, the row of D at
  the point's cell: the two columns of the cell table and the batch ids are index-normalised (a negative word has the
  axis extent added), laid side by side as an [N, 3] table of start indices, and a row gather reads D[b, y, x, :]
  there, each word read signed and clamped into its axis; the [N, 64] result is re-laid as [4, 32768, 64], so that
  point i sits at batch i / 32768, position i % 32768.
-/
import proofs.«119561_j24610162606296_2_alg».proof.Proof.KernelTail
import proofs.«119561_j24610162606296_2_alg».proof.Proof.Spec
import proofs.«119561_j24610162606296_2_alg».proof.Proof.LibGatherCellChan
import proofs.«119561_j24610162606296_2_alg».proof.Proof.LibThreeCols
import proofs.«119561_j24610162606296_2_alg».proof.Proof.LibColumns
import Idealize.ShloMosaic.Lib.Pipeline.Value
import Idealize.ShloMosaic.Lib.ValueIdx

noncomputable section

namespace Cert.KernelIdeal.Tail

open Idealize.ShloMosaic Idealize.ShloMosaic.TcCoe Idealize.SL.Sem Idealize.ShloMosaic.StableHlo
  Idealize.ShloMosaic.ValueIdx Cert.KernelIdeal Cert.KernelIdeal.Gen Cert.SubmConv

variable {F : FTy → Type} [FloatOps F]

/-- The index normalisation of a vector of words, read at a point: a negative word has the extent added. -/
theorem wrap_at (n : BitVec 32) (v : IVec S131072 32) (i : Fin 131072) :
    select (cmpi .slt v (broadcastInDim S131072 ![] bcast_S_S131072 (constantI S_ 32 0#32)))
      (addi v (broadcastInDim S131072 ![] bcast_S_S131072 (constantI S_ 32 n))) v (ix1 i)
      = wrapIdx n (v (ix1 i)) := by
  show Scalar.select (IntOp.cmpi .slt (v (ix1 i)) (broadcastInDim S131072 ![] bcast_S_S131072 (constantI S_ 32 0#32) (ix1 i)))
      (IntOp.addi (v (ix1 i)) (broadcastInDim S131072 ![] bcast_S_S131072 (constantI S_ 32 n) (ix1 i))) (v (ix1 i)) = _
  rw [LibColumns.splat_apply, LibColumns.splat_apply]
  rfl

/-- The row gather at the three index vectors c0, c1, c2 laid side by side, re-laid by batches, read at point i
    (batch i / 32768, position i % 32768) and channel o: the table's row at the cell the three words of point i
    name, each read signed and clamped into its axis. -/
theorem gather_at (D : (⟨S4x256x256x64, .f32⟩ : BufTy).Contents (Elt F)) (c0 c1 c2 : IVec S131072 32)
    (i : Fin 131072) (o : Fin 64) (a : Fin 4) (b : Fin 32768) (ha : a.val = i.val / 32768) (hb : b.val = i.val % 32768) :
    shapeCast S4x32768x64 (Host.gather gather_S4x256x256x64_S131072x3_S131072x64_1_012_n_n_012_1_11164 D
      (concatenate S131072x3 1
        [⟨S131072x1, broadcastInDim S131072x1 ![0] bcast_S131072_S131072x1_0 c0⟩,
          ⟨S131072x1, broadcastInDim S131072x1 ![0] bcast_S131072_S131072x1_0 c1⟩,
          ⟨S131072x1, broadcastInDim S131072x1 ![0] bcast_S131072_S131072x1_0 c2⟩]
        concatenates_S131072x1_S131072x1_S131072x1_S131072x3_d1)) shapeCasts_S131072x64_S4x32768x64 (ix3 a b o)
    = D (ix4 ⟨clampIdx 4 (c0 (ix1 i)), clampIdx_lt (by norm_num) _⟩ ⟨clampIdx 256 (c1 (ix1 i)), clampIdx_lt (by norm_num) _⟩
        ⟨clampIdx 256 (c2 (ix1 i)), clampIdx_lt (by norm_num) _⟩ o) := by
  refine (shapeCast_apply _ shapeCasts_S131072x64_S4x32768x64 (ix3 a b o) (ix2 i o) ?_).trans ?_
  · rw [Shape.rowMajor_val_two, Shape.rowMajor_val_three]
    show i.val * 64 + o.val = (a.val * 32768 + b.val) * 64 + o.val
    omega
  · refine (LibGatherCellChan.gather_cell_chan_apply (by norm_num) (by norm_num) (by norm_num)
      gather_S4x256x256x64_S131072x3_S131072x64_1_012_n_n_012_1_11164_wf D _ i o).trans ?_
    rw [LibThreeCols.triple_cols_first _ _ _ _ i (0 : Fin 1) (0 : Fin 3) rfl,
      LibThreeCols.triple_cols_second _ _ _ _ i (0 : Fin 1) (1 : Fin 3) rfl,
      LibThreeCols.triple_cols_third _ _ _ _ i (0 : Fin 1) (2 : Fin 3) rfl,
      LibColumns.col_apply, LibColumns.col_apply, LibColumns.col_apply]
    rfl

/-- The tail read at point i and channel o: the dense output's row at the cell point i's three index words name,
    each normalised against its extent, read signed and clamped into its axis. -/
theorem tailOps_at (D : (⟨S4x256x256x64, .f32⟩ : BufTy).Contents (Elt F)) (idx : (⟨S131072x2, .i32⟩ : BufTy).Contents (Elt F))
    (bid : (⟨S131072, .i32⟩ : BufTy).Contents (Elt F)) (i : Fin 131072) (o : Fin 64) :
    Hand.tailOps D idx bid (ix3 (⟨i.val / 32768, by have := i.isLt; omega⟩ : Fin 4)
        (⟨i.val % 32768, by omega⟩ : Fin 32768) o)
      = D (ix4 ⟨clampIdx 4 (wrapIdx 4#32 (bid (ix1 i))), clampIdx_lt (by norm_num) _⟩
          ⟨clampIdx 256 (wrapIdx 256#32 (idx (ix2 i (0 : Fin 2)))), clampIdx_lt (by norm_num) _⟩
          ⟨clampIdx 256 (wrapIdx 256#32 (idx (ix2 i (1 : Fin 2)))), clampIdx_lt (by norm_num) _⟩ o) := by
  have h0 : shapeCast S131072 (extractStridedSlice S131072x1 ![0, 0] idx slices_S131072x2_S131072x1_0_0)
      shapeCasts_S131072x1_S131072 (ix1 i) = idx (ix2 i (0 : Fin 2)) :=
    LibColumns.slice_col_apply idx (0 : Fin 2) slices_S131072x2_S131072x1_0_0 shapeCasts_S131072x1_S131072 i
  have h1 : shapeCast S131072 (extractStridedSlice S131072x1 ![0, 1] idx slices_S131072x2_S131072x1_0_1)
      shapeCasts_S131072x1_S131072 (ix1 i) = idx (ix2 i (1 : Fin 2)) :=
    LibColumns.slice_col_apply idx (1 : Fin 2) slices_S131072x2_S131072x1_0_1 shapeCasts_S131072x1_S131072 i
  refine (gather_at D _ _ _ i o _ _ rfl rfl).trans ?_
  rw [wrap_at, wrap_at, wrap_at, h0, h1]

end Cert.KernelIdeal.Tail

end
-- ==== Proof.IndexRange.lean ====
/- Range facts about the integer index arrays of the reference program, at the exact (extended real) reading of
   its floats: each cell coordinate is one of 0 … 255 and each batch id is i / 32768. The mathematics: for a real x,
   s = 1 / (1 + e^{-x}) lies strictly between 0 and 1; the clip makes every exponent a real; s minus the minimum of
   its column lies in [0, 1); divided by 1/256 it lies in [0, 256); its integer part is one of 0 … 255. -/
import proofs.«119561_j24610162606296_2_alg».proof.Proof.ReadP

noncomputable section

namespace Cert.ReferenceIdeal.IndexRange

open Idealize.ShloMosaic

/-! ## The literals -/

/-- The pattern of 1.0. -/
theorem lit_one : Ideal.ofBits .f32 0x3F800000#32 = (1 : EReal) := by
  simp [Ideal.ofBits, Ideal.ieee, -EReal.coe_mul]; norm_num

/-- The pattern of 256.0. -/
theorem lit_256 : Ideal.ofBits .f32 0x43800000#32 = ((256 : ℝ) : EReal) := by
  simp [Ideal.ofBits, Ideal.ieee, -EReal.coe_mul]; norm_num

/-- The pattern of +∞. -/
theorem lit_top : Ideal.ofBits .f32 0x7F800000#32 = (⊤ : EReal) := by
  simp [Ideal.ofBits, Ideal.ieee]

/-- The lower clipping bound is a real. -/
theorem lit_lo : ∃ c : ℝ, Ideal.ofBits .f32 0xC1135C29#32 = (c : EReal) := by
  simp [Ideal.ofBits, Ideal.ieee, -EReal.coe_mul]
  exact ⟨_, (EReal.coe_neg _).symm⟩

/-- The upper clipping bound is a real. -/
theorem lit_hi : ∃ c : ℝ, Ideal.ofBits .f32 0x41135C29#32 = (c : EReal) := by
  simp [Ideal.ofBits, Ideal.ieee, -EReal.coe_mul]

/-! ## One operation at a time -/

/-- Clipping to a real interval gives a real. -/
theorem clip_real (lo hi : ℝ) (x : EReal) : ∃ r : ℝ, min (hi : EReal) (max (lo : EReal) x) = (r : EReal) := by
  have h1 : (lo : EReal) ≤ max (lo : EReal) x := le_max_left _ _
  have hb : (⊥ : EReal) < min (hi : EReal) (max (lo : EReal) x) :=
    lt_min (EReal.bot_lt_coe hi) (lt_of_lt_of_le (EReal.bot_lt_coe lo) h1)
  have ht : min (hi : EReal) (max (lo : EReal) x) < ⊤ :=
    lt_of_le_of_lt (min_le_left _ _) (EReal.coe_lt_top hi)
  exact ⟨_, (EReal.coe_toReal (ne_of_lt ht) (ne_of_gt hb)).symm⟩

/-- For a real r, 1 / (1 + e^{-r}) is a real strictly between 0 and 1. -/
theorem sigmoid_real (r : ℝ) :
    ∃ s : ℝ, 0 < s ∧ s < 1 ∧ Ideal.div (1 : EReal) ((1 : EReal) + Ideal.exp (-(r : EReal))) = (s : EReal) := by
  have hp : 0 < 1 + Real.exp (-r) := by positivity
  refine ⟨1 / (1 + Real.exp (-r)), by positivity, ?_, ?_⟩
  · rw [div_lt_one hp]; linarith [Real.exp_pos (-r)]
  · rw [← EReal.coe_neg, Ideal.exp_coe, ← EReal.coe_one, ← EReal.coe_add, Ideal.div_coe (ne_of_gt hp),
      ← EReal.coe_mul, one_mul]

/-- The minimum, from ⊤, of a nonempty finite family of positive reals is a positive real below each of them. -/
theorem fold_min_real {ι : Type} (S : Finset ι) (f : ι → EReal) (i0 : ι) (h0 : i0 ∈ S)
    (hf : ∀ i ∈ S, ∃ r : ℝ, 0 < r ∧ f i = (r : EReal)) :
    ∃ m : ℝ, 0 < m ∧ S.fold min ⊤ f = (m : EReal) ∧ ∀ i ∈ S, (m : EReal) ≤ f i := by
  have hpos : (0 : EReal) < S.fold min ⊤ f := by
    rw [Finset.lt_fold_min]
    refine ⟨EReal.zero_lt_top, fun i hi => ?_⟩
    obtain ⟨r, hr, e⟩ := hf i hi
    rw [e]; exact_mod_cast hr
  have hle : ∀ i ∈ S, S.fold min ⊤ f ≤ f i := fun i hi => by
    rw [Finset.fold_min_le]; exact Or.inr ⟨i, hi, le_rfl⟩
  obtain ⟨r0, _, e0⟩ := hf i0 h0
  have ht : S.fold min ⊤ f ≠ ⊤ :=
    ne_of_lt (lt_of_le_of_lt (hle i0 h0) (by rw [e0]; exact EReal.coe_lt_top r0))
  have hb : S.fold min ⊤ f ≠ ⊥ := ne_of_gt (lt_trans EReal.bot_lt_zero hpos)
  refine ⟨(S.fold min ⊤ f).toReal, ?_, (EReal.coe_toReal ht hb).symm, fun i hi => ?_⟩
  · have := hpos
    rw [← EReal.coe_toReal ht hb] at this
    exact_mod_cast this
  · rw [EReal.coe_toReal ht hb]; exact hle i hi

/-- 1 / 256 is the real 1/256. -/
theorem inv256 : Ideal.div (1 : EReal) ((256 : ℝ) : EReal) = ((1 / 256 : ℝ) : EReal) := by
  rw [Ideal.div_coe (by norm_num), ← EReal.coe_one, ← EReal.coe_mul, one_mul]

/-- A difference s - m of reals with 0 < m ≤ s < 1, divided by 1/256, is a real in [0, 256). -/
theorem scale_real (s m : ℝ) (hm : 0 < m) (hms : m ≤ s) (hs : s < 1) :
    ∃ t : ℝ, 0 ≤ t ∧ t < 256 ∧ Ideal.div ((s : EReal) - (m : EReal)) ((1 / 256 : ℝ) : EReal) = (t : EReal) := by
  refine ⟨(s - m) * 256, by nlinarith, by nlinarith, ?_⟩
  rw [← EReal.coe_sub, Ideal.div_coe (by norm_num), ← EReal.coe_mul]
  norm_num

/-- A real in [0, 256) converts to one of the words 0 … 255. -/
theorem fptosi_range (t : ℝ) (h0 : 0 ≤ t) (h1 : t < 256) : (Ideal.fptosi 32 (t : EReal)).toNat < 256 := by
  have hfl0 : 0 ≤ ⌊t⌋ := Int.floor_nonneg.2 h0
  have hfl1 : ⌊t⌋ < 256 := Int.floor_lt.2 (by exact_mod_cast h1)
  rw [Ideal.fptosi, Ideal.toIntClamped_coe, if_pos h0]
  generalize ⌊t⌋ = n at hfl0 hfl1
  have e : max (-((2 ^ (32 - 1) : Nat) : Int)) (min (((2 ^ (32 - 1) : Nat) : Int) - 1) n) = n := by
    norm_num
    omega
  rw [e, BitVec.toNat_ofInt]
  omega

/-- A word below 256 read signed is itself. -/
theorem toInt_of_lt (w : BitVec 32) (h : w.toNat < 256) : w.toInt = (w.toNat : Int) := by
  rw [BitVec.toInt_eq_toNat_cond]
  split
  · rfl
  · omega

/-! ## The reference's index arrays, one operation at a time

All at the exact (extended real) reading of the floats; the argument array is arbitrary. -/

open Cert.ReferenceIdeal.Gen Idealize.ShloMosaic.TcCoe Idealize.SL.Sem Idealize.ShloMosaic.StableHlo
  Idealize.ShloMosaic.ValueIdx

/-- The anchors argument: any array of extended reals. -/
abbrev Anchors : Type := (⟨S4x32768x2, .f32⟩ : BufTy).Contents (Elt Ideal)

/-- Every entry of the sigmoid array is a real strictly between 0 and 1: the clip makes the exponent a real,
    whatever the argument's entry is. -/
theorem v8_real (a1 : Anchors) (i : S4x32768x2.Idx) :
    ∃ s : ℝ, 0 < s ∧ s < 1 ∧ Read.val_main_v8 (F := Ideal) a1 i = (s : EReal) := by
  obtain ⟨lo, hlo⟩ := lit_lo
  obtain ⟨hi, hhi⟩ := lit_hi
  obtain ⟨r, hr⟩ := clip_real lo hi (a1 i)
  obtain ⟨s, hs0, hs1, hs⟩ := sigmoid_real r
  refine ⟨s, hs0, hs1, ?_⟩
  rw [Read.val_main_v8_apply, Read.val_main_v7_apply, Read.val_main_cst_4_apply, Read.val_main_v6_apply,
    Read.val_main_v5_apply, Read.val_main_cst_3_apply, Read.val_main_v4_apply, Read.val_main_v3_apply,
    Read.val_main_v2_apply, Read.val_main_call0_v4_apply, Read.val_main_call0_v3_apply, Read.val_main_cst_2_apply,
    Read.val_main_call0_v2_apply, Read.val_main_call0_v1_apply, Read.val_main_call0_v0_apply,
    Read.val_main_cst_1_apply]
  show Ideal.div (Ideal.ofBits .f32 0x3F800000#32) (Ideal.ofBits .f32 0x3F800000#32
    + Ideal.exp (-(min (Ideal.ofBits .f32 0x41135C29#32) (max (Ideal.ofBits .f32 0xC1135C29#32) (a1 i))))) = (s : EReal)
  rw [lit_one, hlo, hhi, hr]
  exact hs

/-- The same after the reshape to points by columns. -/
theorem v9_real (a1 : Anchors) (i : S131072x2.Idx) :
    ∃ s : ℝ, 0 < s ∧ s < 1 ∧ Read.val_main_v9 (F := Ideal) a1 i = (s : EReal) := by
  rw [Read.val_main_v9_apply]
  exact v8_real a1 _

/-- The minimum over the points of column j is a positive real, below every entry of the column. -/
theorem v10_real (a1 : Anchors) (j : Fin 2) :
    ∃ m : ℝ, 0 < m ∧ Read.val_main_v10 (F := Ideal) a1 (ix1 j) = (m : EReal) ∧
      ∀ i : Fin 131072, (m : EReal) ≤ Read.val_main_v9 (F := Ideal) a1 (ix2 i j) := by
  have hR : S131072x2.Reduces [0] S2 := by decide
  have hlift : ∀ k : Fin 131072, hR.lift (ix1 j) k = ix2 k j := fun k => by
    funext c
    match c with
    | ⟨0, _⟩ => rfl
    | ⟨1, _⟩ => rfl
  obtain ⟨m, hm0, hm, hle⟩ := fold_min_real (Finset.univ : Finset (Fin 131072))
    (fun k => Read.val_main_v9 (F := Ideal) a1 (ix2 k j)) ⟨0, by decide⟩ (Finset.mem_univ _)
    (fun k _ => by obtain ⟨s, h0, _, e⟩ := v9_real a1 (ix2 k j); exact ⟨s, h0, e⟩)
  refine ⟨m, hm0, ?_, fun i => hle i (Finset.mem_univ _)⟩
  have hfun : (Read.val_main_v9 (F := Ideal) a1 ∘ hR.lift (ix1 j))
      = fun k : Fin 131072 => Read.val_main_v9 (F := Ideal) a1 (ix2 k j) :=
    funext fun k => congrArg (Read.val_main_v9 (F := Ideal) a1) (hlift k)
  unfold Read.val_main_v10
  rw [Host.reduce_eq_fold_single (FloatOps.minimumf (F := Ideal)) _ _ reducesTo_S131072x2_S2_d0 hR h_S_ (ix1 j),
    Read.val_main_cst_5_apply, Ideal.ofBits_def, lit_top, ← hm, hfun]
  rfl

/-- The scaled offset from the column's minimum is a real in [0, 256). -/
theorem v16_real (a1 : Anchors) (i : Fin 131072) (j : Fin 2) :
    ∃ t : ℝ, 0 ≤ t ∧ t < 256 ∧ Read.val_main_v16 (F := Ideal) a1 (ix2 i j) = (t : EReal) := by
  obtain ⟨s, _, hs1, hs⟩ := v9_real a1 (ix2 i j)
  obtain ⟨m, hm0, hm, hle⟩ := v10_real a1 j
  have hms : m ≤ s := by
    have h := hle i
    rw [hs] at h
    exact_mod_cast h
  obtain ⟨t, ht0, ht1, ht⟩ := scale_real s m hm0 hms hs1
  refine ⟨t, ht0, ht1, ?_⟩
  have e10 : Read.idx_main_v11 (Read.idx_main_v12 (ix2 i j)) = (ix1 j : S2.Idx) := by
    funext c
    match c with
    | ⟨0, _⟩ => rfl
  rw [Read.val_main_v16_apply, Read.val_main_v13_apply, Read.val_main_v12_apply, Read.val_main_v11_apply,
    Read.val_main_v15_apply, Read.val_main_v14_apply, Read.val_main_v1_apply, Read.val_main_v0_apply,
    Read.val_main_cst_0_apply, Read.val_main_cst_apply, e10, hm, hs]
  show Ideal.div ((s : EReal) - (m : EReal))
    (Ideal.div (Ideal.ofBits .f32 0x3F800000#32) (Ideal.ofBits .f32 0x43800000#32)) = (t : EReal)
  rw [lit_one, lit_256, inv256]
  exact ht

/-- Each cell coordinate of each point is one of the words 0 … 255. -/
theorem idx_range (a1 : Anchors) (i : Fin 131072) (j : Fin 2) :
    (Read.val_main_v17 (F := Ideal) a1 (ix2 i j)).toNat < 256 := by
  obtain ⟨t, h0, h1, e⟩ := v16_real a1 i j
  rw [Read.val_main_v17_apply, e]
  exact fptosi_range t h0 h1

/-- So its signed reading is its unsigned one. -/
theorem idx_toInt (a1 : Anchors) (i : Fin 131072) (j : Fin 2) :
    (Read.val_main_v17 (F := Ideal) a1 (ix2 i j)).toInt
      = ((Read.val_main_v17 (F := Ideal) a1 (ix2 i j)).toNat : Int) :=
  toInt_of_lt _ (idx_range a1 i j)

/-! ## The batch ids -/

/-- Point i belongs to batch i / 32768. -/
theorem bid_eq {F : FTy → Type} [FloatOps F] (i : Fin 131072) :
    Read.val_main_v20 (F := F) (ix1 i) = BitVec.ofNat 32 (i.val / 32768) := by
  rw [Read.val_main_v20_apply, Read.val_main_v19_apply, Read.val_main_v18_apply]

/-- A batch id is one of 0 … 3. -/
theorem bid_lt {F : FTy → Type} [FloatOps F] (i : Fin 131072) :
    (Read.val_main_v20 (F := F) (ix1 i)).toNat < 4 := by
  rw [bid_eq, BitVec.toNat_ofNat]
  have := i.isLt
  omega

end Cert.ReferenceIdeal.IndexRange
-- ==== Proof.LibGatherCell3.lean ====
/-
  A cell gather `x[i, j, k]` of a table `x : [A, B, C]` on the host, read at an index.

  `x[i, j, k]` for three integer vectors of length `R` lowers to a gather whose start indices are the `R × 3` array
  with the three vectors as its columns, all three table axes collapsed (one entry per start index, no offset axis).
  Result entry `r` is the table's entry at the position the three components name: each component is read as a signed
  integer and clamped into its axis, `[0, A − 1]`, `[0, B − 1]`, `[0, C − 1]`, so every triple of integers names a cell.
  The statement takes the dimension numbers as a record built from the literal lists; a printed record with the same
  lists is equal to it by `rfl`.
-/
import Idealize.ShloMosaic.Lib.ValueIdx

noncomputable section

namespace Cert.LibGatherCell3

open Idealize.ShloMosaic Idealize.ShloMosaic.ValueIdx

variable {α : Type}

/-- The position a start-index component names on an axis of extent `N`: its signed value clamped into `[0, N − 1]`. -/
def clampAxis {w : ℕ} (N : ℕ) (hN : 0 < N) (v : BitVec w) : Fin N := ⟨min v.toInt.toNat (N - 1), by omega⟩

/-- The dimension numbers of `x[i, j, k]` for a table `[A, B, C]` and start indices `[R, 3]`. -/
abbrev cellDims (A B C R : ℕ)
    (wf : GatherDims.WF ⟨3, ![A, B, C]⟩ ⟨2, ![R, 3]⟩ ⟨1, ![R]⟩ [] [0, 1, 2] [] [0, 1, 2] [] 1 ![1, 1, 1]) :
    GatherDims ⟨3, ![A, B, C]⟩ ⟨2, ![R, 3]⟩ ⟨1, ![R]⟩ where
  offsetDims := []
  collapsedSliceDims := [0, 1, 2]
  operandBatchingDims := []
  startIndicesBatchingDims := []
  startIndexMap := [0, 1, 2]
  indexVectorDim := 1
  sliceSizes := ![1, 1, 1]
  wf := wf

section Cell
variable {A B C R w : ℕ}
  (wf : GatherDims.WF ⟨3, ![A, B, C]⟩ ⟨2, ![R, 3]⟩ ⟨1, ![R]⟩ [] [0, 1, 2] [] [0, 1, 2] [] 1 ![1, 1, 1])
  (idx : IVec ⟨2, ![R, 3]⟩ w) (r : Fin R)

theorem zero_mem : (0 : Fin 3) ∈ ([0, 1, 2] : List (Fin 3)) := List.mem_cons_self
theorem one_mem : (1 : Fin 3) ∈ ([0, 1, 2] : List (Fin 3)) := List.mem_cons_of_mem _ List.mem_cons_self
theorem two_mem : (2 : Fin 3) ∈ ([0, 1, 2] : List (Fin 3)) :=
  List.mem_cons_of_mem _ (List.mem_cons_of_mem _ List.mem_cons_self)

/-- On the table's first axis the operand coordinate is the clamped first component: no batching, the axis collapsed. -/
theorem cell_axis0 :
    (cellDims A B C R wf).start (ix1 r) idx 0 + (cellDims A B C R wf).batchCoord (ix1 r) 0
      + (cellDims A B C R wf).offCoord (ix1 r) 0 = min (idx (ix2 r (0 : Fin 3))).toInt.toNat (A - 1) := by
  rw [GatherDims.batchCoord_eq_zero _ _ _ List.not_mem_nil, Nat.add_zero,
    GatherDims.offCoord_eq_zero _ _ _ (fun h => ((GatherDims.mem_sKept _ _).mp h).1 zero_mem), Nat.add_zero]
  unfold GatherDims.start
  rw [dif_pos (show (0 : Fin 3) ∈ (cellDims A B C R wf).startIndexMap from zero_mem)]
  have hsi : (cellDims A B C R wf).siIdx (ix1 r) ⟨List.idxOf (0 : Fin 3) (cellDims A B C R wf).startIndexMap,
      List.idxOf_lt_length_iff.2 zero_mem⟩ = ix2 r (0 : Fin 3) := by
    funext b; refine Fin.ext ?_
    match b with
    | ⟨0, _⟩ => rfl
    | ⟨1, _⟩ => rfl
  rw [hsi]
  rfl

/-- On the table's second axis it is the clamped second component. -/
theorem cell_axis1 :
    (cellDims A B C R wf).start (ix1 r) idx 1 + (cellDims A B C R wf).batchCoord (ix1 r) 1
      + (cellDims A B C R wf).offCoord (ix1 r) 1 = min (idx (ix2 r (1 : Fin 3))).toInt.toNat (B - 1) := by
  rw [GatherDims.batchCoord_eq_zero _ _ _ List.not_mem_nil, Nat.add_zero,
    GatherDims.offCoord_eq_zero _ _ _ (fun h => ((GatherDims.mem_sKept _ _).mp h).1 one_mem), Nat.add_zero]
  unfold GatherDims.start
  rw [dif_pos (show (1 : Fin 3) ∈ (cellDims A B C R wf).startIndexMap from one_mem)]
  have hsi : (cellDims A B C R wf).siIdx (ix1 r) ⟨List.idxOf (1 : Fin 3) (cellDims A B C R wf).startIndexMap,
      List.idxOf_lt_length_iff.2 one_mem⟩ = ix2 r (1 : Fin 3) := by
    funext b; refine Fin.ext ?_
    match b with
    | ⟨0, _⟩ => rfl
    | ⟨1, _⟩ => rfl
  rw [hsi]
  rfl

/-- On the table's third axis it is the clamped third component. -/
theorem cell_axis2 :
    (cellDims A B C R wf).start (ix1 r) idx 2 + (cellDims A B C R wf).batchCoord (ix1 r) 2
      + (cellDims A B C R wf).offCoord (ix1 r) 2 = min (idx (ix2 r (2 : Fin 3))).toInt.toNat (C - 1) := by
  rw [GatherDims.batchCoord_eq_zero _ _ _ List.not_mem_nil, Nat.add_zero,
    GatherDims.offCoord_eq_zero _ _ _ (fun h => ((GatherDims.mem_sKept _ _).mp h).1 two_mem), Nat.add_zero]
  unfold GatherDims.start
  rw [dif_pos (show (2 : Fin 3) ∈ (cellDims A B C R wf).startIndexMap from two_mem)]
  have hsi : (cellDims A B C R wf).siIdx (ix1 r) ⟨List.idxOf (2 : Fin 3) (cellDims A B C R wf).startIndexMap,
      List.idxOf_lt_length_iff.2 two_mem⟩ = ix2 r (2 : Fin 3) := by
    funext b; refine Fin.ext ?_
    match b with
    | ⟨0, _⟩ => rfl
    | ⟨1, _⟩ => rfl
  rw [hsi]
  rfl

end Cell

/-- Entry `r` of the gather is the table's entry at the clamped triple of start-index components
    `idx (r, 0)`, `idx (r, 1)`, `idx (r, 2)`. -/
theorem gather_cell3_apply {A B C R w : ℕ} (hA : 0 < A) (hB : 0 < B) (hC : 0 < C)
    (wf : GatherDims.WF ⟨3, ![A, B, C]⟩ ⟨2, ![R, 3]⟩ ⟨1, ![R]⟩ [] [0, 1, 2] [] [0, 1, 2] [] 1 ![1, 1, 1])
    (x : (⟨3, ![A, B, C]⟩ : Shape).Idx → α) (idx : IVec ⟨2, ![R, 3]⟩ w) (r : Fin R) :
    Host.gather (cellDims A B C R wf) x idx (ix1 r)
      = x (ix3 (clampAxis A hA (idx (ix2 r (0 : Fin 3)))) (clampAxis B hB (idx (ix2 r (1 : Fin 3))))
          (clampAxis C hC (idx (ix2 r (2 : Fin 3))))) := by
  unfold Host.gather
  congr 1
  funext a
  refine Fin.ext ?_
  match a with
  | ⟨0, _⟩ => exact cell_axis0 wf idx r
  | ⟨1, _⟩ => exact cell_axis1 wf idx r
  | ⟨2, _⟩ => exact cell_axis2 wf idx r

end Cert.LibGatherCell3

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«119561_j24610162606296_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.RefTaps.lean ====
/-
  The reference's result, read at a point.

  The reference treats every point `i` of the 131072 separately.  For each of the nine taps `(dy, dx)`, in row-major
  order, it forms the neighbour's coordinates by adding the tap's two offset words to the point's cell coordinates,
  tests that they lie in the 256 × 256 grid, clips them into it, looks the neighbour cell up in the grid (a gather at the
  three index words: batch, row, column), takes the feature row the grid entry names (a second gather), replaces it by
  zero where the neighbour is outside the grid or its cell is empty, multiplies the resulting `131072 × 64` matrix by
  the tap's `64 × 64` weight matrix and adds the product to the running sum, which starts from zero.

  Every tap is the same sequence of whole-array operations (`tapTerm`).  Read at a point `i` and an output channel `o`
  it is the running sum there plus `∑ c, nfeat … c · w (c, o)`, where `nfeat` is the neighbour feature of the
  specification (`SubmConv.nfeat`) at the point's three words and the tap's two offset words (`tapTerm_apply`).  Nine
  applications give the result: entry `(i / 32768, i % 32768, o)` is the nine sums added from the left (`ref_at`).
-/
import proofs.«119561_j24610162606296_2_alg».proof.Proof.ReadP
import proofs.«119561_j24610162606296_2_alg».proof.Proof.Spec
import proofs.«119561_j24610162606296_2_alg».proof.Proof.LibColumns
import proofs.«119561_j24610162606296_2_alg».proof.Proof.LibThreeCols
import proofs.«119561_j24610162606296_2_alg».proof.Proof.LibGatherCell3
import proofs.«119561_j24610162606296_2_alg».proof.Proof.LibGatherRows
import proofs.«119561_j24610162606296_2_alg».proof.Proof.LibPlainDot

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## One tap, as a function of the arrays it reads

The reference evaluates every tap by the same sequence of whole-array operations; only the two offset words, the
tap's weight matrix and the running sum differ.  `tapTerm` is that sequence as a function of them and of the four
arrays every tap reads: the cell coordinates `idx`, the batch ids `bid`, the grid and the feature table. -/

section Stages

/-- The word `c` at every point. -/
def splat (c : BitVec 32) : IVec S131072 32 :=
  broadcastInDim S131072 ![] bcast_S_S131072 (constantI S_ 32 c)

/-- The first column of the cell coordinates (the row coordinate of every point). -/
def colY (idx : IVec S131072x2 32) : IVec S131072 32 :=
  shapeCast _ (extractStridedSlice S131072x1 ![0, 0] idx slices_S131072x2_S131072x1_0_0) shapeCasts_S131072x1_S131072

/-- The second column of the cell coordinates (the column coordinate of every point). -/
def colX (idx : IVec S131072x2 32) : IVec S131072 32 :=
  shapeCast _ (extractStridedSlice S131072x1 ![0, 1] idx slices_S131072x2_S131072x1_0_1) shapeCasts_S131072x1_S131072

/-- `clip(v, 0, 255)` at every point. -/
def clipV (v : IVec S131072 32) : IVec S131072 32 := minsi (splat 255#32) (maxsi (splat 0#32) v)

/-- Index normalisation at every point: a negative word has the extent `n` added. -/
def wrapV (n : BitVec 32) (v : IVec S131072 32) : IVec S131072 32 :=
  select (cmpi .slt v (splat 0#32)) (addi v (splat n)) v

/-- Both neighbour coordinates lie in `[0, 256)`, at every point. -/
def inbV (ny nx : IVec S131072 32) : IVec S131072 1 :=
  andi (andi (andi (cmpi .sge ny (splat 0#32)) (cmpi .slt ny (splat 256#32))) (cmpi .sge nx (splat 0#32)))
    (cmpi .slt nx (splat 256#32))

/-- A vector over the points laid as a column. -/
def colOf {α : Type} (v : S131072.Idx → α) : S131072x1.Idx → α :=
  broadcastInDim S131072x1 ![0] bcast_S131072_S131072x1_0 v

/-- The three index words of the neighbour cell, side by side: batch, row, column. -/
def startV (bid ny nx : IVec S131072 32) : IVec S131072x3 32 :=
  concatenate S131072x3 1 [⟨S131072x1, colOf (wrapV 4#32 bid)⟩, ⟨S131072x1, colOf (wrapV 256#32 (clipV ny))⟩,
    ⟨S131072x1, colOf (wrapV 256#32 (clipV nx))⟩] concatenates_S131072x1_S131072x1_S131072x1_S131072x3_d1

/-- The grid entry of the neighbour cell of every point. -/
def nidV (grid : IVec S4x256x256 32) (bid ny nx : IVec S131072 32) : IVec S131072 32 :=
  Host.gather gather_S4x256x256_S131072x3_S131072_n_012_n_n_012_1_111 grid (startV bid ny nx)

/-- The neighbour lies in the grid and its cell is occupied. -/
def validV (grid : IVec S4x256x256 32) (bid ny nx : IVec S131072 32) : IVec S131072 1 :=
  andi (inbV ny nx) (cmpi .sge (nidV grid bid ny nx) (splat 0#32))

/-- The feature row the neighbour cell's entry names. -/
def rowV (grid : IVec S4x256x256 32) (bid ny nx : IVec S131072 32) : IVec S131072 32 :=
  wrapV 131072#32 (maxsi (nidV grid bid ny nx) (splat 0#32))

variable {F : FTy → Type} [FloatOps F]

/-- The neighbour feature of every point: the named row where the neighbour is valid, zero elsewhere. -/
def nfeatV (grid : IVec S4x256x256 32) (feats : FVec F S131072x64 .f32) (bid ny nx : IVec S131072 32) :
    FVec F S131072x64 .f32 :=
  select (broadcastInDim S131072x64 ![0, 1] bcast_S131072x1_S131072x64_0_1 (colOf (validV grid bid ny nx)))
    (Host.gather gather_S131072x64_S131072x1_S131072x64_1_0_n_n_0_1_164 feats (colOf (rowV grid bid ny nx)))
    (broadcastInDim S131072x64 ![] bcast_S_S131072x64 (constant S_ .f32 0x00000000#32))

/-- One tap: the running sum plus the neighbour features times the tap's weight matrix. -/
def tapTerm (ky kx : BitVec 32) (idx : IVec S131072x2 32) (bid : IVec S131072 32) (grid : IVec S4x256x256 32)
    (feats : FVec F S131072x64 .f32) (w : FVec F S64x64 .f32) (acc : FVec F S131072x64 .f32) : FVec F S131072x64 .f32 :=
  addf acc (Host.dotGeneral dot_S131072x64_S64x64_S131072x64_1_0_0_1_n_n none
    (nfeatV grid feats bid (addi (colY idx) (splat ky)) (addi (colX idx) (splat kx))) w)

end Stages

/-! ## The stages read at a point -/

section AtPoint

variable (grid : IVec S4x256x256 32) (bid ny nx : IVec S131072 32) (i : Fin 131072)

theorem splat_at (c : BitVec 32) (j : S131072.Idx) : splat c j = c := rfl

theorem colY_apply (idx : IVec S131072x2 32) : colY idx (ix1 i) = idx (ix2 i (0 : Fin 2)) :=
  LibColumns.slice_col_apply idx (0 : Fin 2) slices_S131072x2_S131072x1_0_0 shapeCasts_S131072x1_S131072 i

theorem colX_apply (idx : IVec S131072x2 32) : colX idx (ix1 i) = idx (ix2 i (1 : Fin 2)) :=
  LibColumns.slice_col_apply idx (1 : Fin 2) slices_S131072x2_S131072x1_0_1 shapeCasts_S131072x1_S131072 i

theorem colOf_apply {α : Type} (v : S131072.Idx → α) (u : Fin 1) : colOf v (ix2 i u) = v (ix1 i) :=
  LibColumns.col_apply v bcast_S131072_S131072x1_0 i u

theorem wrapV_apply (n : BitVec 32) (v : IVec S131072 32) (j : S131072.Idx) :
    wrapV n v j = SubmConv.wrapIdx n (v j) := rfl

theorem clipV_apply (v : IVec S131072 32) (j : S131072.Idx) : clipV v j = SubmConv.clip255 (v j) := rfl

theorem inbV_apply (j : S131072.Idx) : inbV ny nx j = SubmConv.inBounds (ny j) (nx j) := rfl

/-- The three index words at a point. -/
theorem startV_0 : startV bid ny nx (ix2 i (0 : Fin 3)) = SubmConv.wrapIdx 4#32 (bid (ix1 i)) :=
  (LibThreeCols.triple_cols_first _ _ _ concatenates_S131072x1_S131072x1_S131072x1_S131072x3_d1 i (0 : Fin 1)
    (0 : Fin 3) rfl).trans (colOf_apply i _ _)

theorem startV_1 : startV bid ny nx (ix2 i (1 : Fin 3)) = SubmConv.wrapIdx 256#32 (SubmConv.clip255 (ny (ix1 i))) :=
  (LibThreeCols.triple_cols_second _ _ _ concatenates_S131072x1_S131072x1_S131072x1_S131072x3_d1 i (0 : Fin 1)
    (1 : Fin 3) rfl).trans (colOf_apply i _ _)

theorem startV_2 : startV bid ny nx (ix2 i (2 : Fin 3)) = SubmConv.wrapIdx 256#32 (SubmConv.clip255 (nx (ix1 i))) :=
  (LibThreeCols.triple_cols_third _ _ _ concatenates_S131072x1_S131072x1_S131072x1_S131072x3_d1 i (0 : Fin 1)
    (2 : Fin 3) rfl).trans (colOf_apply i _ _)

/-- The gathered grid entry at a point is the grid at the three clamped index words. -/
theorem nidV_apply :
    nidV grid bid ny nx (ix1 i)
      = SubmConv.gridAt grid (bid (ix1 i)) (SubmConv.clip255 (ny (ix1 i))) (SubmConv.clip255 (nx (ix1 i))) := by
  refine (LibGatherCell3.gather_cell3_apply (by norm_num) (by norm_num) (by norm_num)
    gather_S4x256x256_S131072x3_S131072_n_012_n_n_012_1_111_wf grid (startV bid ny nx) i).trans ?_
  rw [startV_0, startV_1, startV_2]
  rfl

theorem validV_apply :
    validV grid bid ny nx (ix1 i)
      = IntOp.andi (SubmConv.inBounds (ny (ix1 i)) (nx (ix1 i)))
          (IntOp.cmpi .sge (SubmConv.gridAt grid (bid (ix1 i)) (SubmConv.clip255 (ny (ix1 i))) (SubmConv.clip255 (nx (ix1 i)))) 0#32) := by
  rw [← nidV_apply grid bid ny nx i]; rfl

theorem rowV_apply :
    rowV grid bid ny nx (ix1 i)
      = SubmConv.rowWord (SubmConv.gridAt grid (bid (ix1 i)) (SubmConv.clip255 (ny (ix1 i))) (SubmConv.clip255 (nx (ix1 i)))) := by
  rw [← nidV_apply grid bid ny nx i]; rfl

/-- A row gather of the feature table at a point and a channel: the row its start word names, clamped. -/
theorem rows_apply {F : FTy → Type} (feats : FVec F S131072x64 .f32) (st : IVec S131072x1 32) (c : Fin 64) :
    Host.gather gather_S131072x64_S131072x1_S131072x64_1_0_n_n_0_1_164 feats st (ix2 i c)
      = feats (ix2 (LibGatherRows.clampRow 131072 (by norm_num) (st (ix2 i (0 : Fin 1)))) c) :=
  LibGatherRows.gather_rows2_apply (by norm_num) gather_S131072x64_S131072x1_S131072x64_1_0_n_n_0_1_164_wf feats st i c

/-- The product with a weight matrix at a point and an output channel. -/
theorem dot_apply (l : FVec Ideal S131072x64 .f32) (r : FVec Ideal S64x64 .f32) (o : Fin 64) :
    Host.dotGeneral dot_S131072x64_S64x64_S131072x64_1_0_0_1_n_n none l r (ix2 i o)
      = ∑ k : Fin 64, l (ix2 i k) * r (ix2 k o) :=
  LibPlainDot.dot_plain_apply dot_S131072x64_S64x64_S131072x64_1_0_0_1_n_n rfl none l r i o

/-- The neighbour feature at a point and a channel. -/
theorem nfeatV_apply (feats : FVec Ideal S131072x64 .f32) (c : Fin 64) :
    nfeatV grid feats bid ny nx (ix2 i c)
      = Scalar.select
          (IntOp.andi (SubmConv.inBounds (ny (ix1 i)) (nx (ix1 i)))
            (IntOp.cmpi .sge (SubmConv.gridAt grid (bid (ix1 i)) (SubmConv.clip255 (ny (ix1 i))) (SubmConv.clip255 (nx (ix1 i)))) 0#32))
          (SubmConv.featRow feats (SubmConv.gridAt grid (bid (ix1 i)) (SubmConv.clip255 (ny (ix1 i))) (SubmConv.clip255 (nx (ix1 i)))) c)
          0 := by
  unfold nfeatV
  rw [select_apply, LibColumns.col_bcast_apply, colOf_apply, validV_apply, rows_apply, colOf_apply, rowV_apply,
    LibColumns.splat_apply, constant_apply, Ideal.ofBits_zero_f32]
  rfl

/-- One tap at a point and an output channel: the running sum there plus the sum over the input channels of the
    neighbour feature times the weight. -/
theorem tapTerm_apply (ky kx : BitVec 32) (idx : IVec S131072x2 32) (feats : FVec Ideal S131072x64 .f32)
    (w : FVec Ideal S64x64 .f32) (acc : FVec Ideal S131072x64 .f32) (o : Fin 64) :
    tapTerm ky kx idx bid grid feats w acc (ix2 i o)
      = acc (ix2 i o) + ∑ c : Fin 64,
          SubmConv.nfeat grid feats (bid (ix1 i)) (idx (ix2 i (0 : Fin 2))) (idx (ix2 i (1 : Fin 2))) ky kx c * w (ix2 c o) := by
  have hy : addi (colY idx) (splat ky) (ix1 i) = IntOp.addi (idx (ix2 i (0 : Fin 2))) ky :=
    congrArg (fun t => IntOp.addi t ky) (colY_apply i idx)
  have hx : addi (colX idx) (splat kx) (ix1 i) = IntOp.addi (idx (ix2 i (1 : Fin 2))) kx :=
    congrArg (fun t => IntOp.addi t kx) (colX_apply i idx)
  unfold tapTerm
  rw [addf_apply, dot_apply]
  refine congrArg _ (Finset.sum_congr rfl fun c _ => ?_)
  rw [nfeatV_apply, hy, hx]
  rfl

end AtPoint

/-! ## The nine taps are `tapTerm`

Each tap's value is `tapTerm` at its two offset words, its weight matrix and the previous tap's value: the two sides are
the same composition of the same operations. -/

section TapIs

variable {F : FTy → Type} [FloatOps F]
  (x0 : (⟨S4x32768x64, .f32⟩ : BufTy).Contents (Elt F)) (x1 : (⟨S4x32768x2, .f32⟩ : BufTy).Contents (Elt F)) (x2 : (⟨S3x3x64x64, .f32⟩ : BufTy).Contents (Elt F))

theorem tap0_is :
    Read.val_main_v107 (F := F) x0 x1 x2
      = tapTerm 4294967295#32 4294967295#32 (Read.val_main_v17 (F := F) x1) (Read.val_main_v20 (F := F)) (Read.val_main_v47 (F := F) x1)
          (Read.val_main_v21 (F := F) x0) (Read.val_main_v105 (F := F) x2) (Read.val_main_v48 (F := F)) := rfl

theorem tap1_is :
    Read.val_main_v166 (F := F) x0 x1 x2
      = tapTerm 4294967295#32 0#32 (Read.val_main_v17 (F := F) x1) (Read.val_main_v20 (F := F)) (Read.val_main_v47 (F := F) x1)
          (Read.val_main_v21 (F := F) x0) (Read.val_main_v164 (F := F) x2) (Read.val_main_v107 (F := F) x0 x1 x2) := rfl

theorem tap2_is :
    Read.val_main_v225 (F := F) x0 x1 x2
      = tapTerm 4294967295#32 1#32 (Read.val_main_v17 (F := F) x1) (Read.val_main_v20 (F := F)) (Read.val_main_v47 (F := F) x1)
          (Read.val_main_v21 (F := F) x0) (Read.val_main_v223 (F := F) x2) (Read.val_main_v166 (F := F) x0 x1 x2) := rfl

theorem tap3_is :
    Read.val_main_v284 (F := F) x0 x1 x2
      = tapTerm 0#32 4294967295#32 (Read.val_main_v17 (F := F) x1) (Read.val_main_v20 (F := F)) (Read.val_main_v47 (F := F) x1)
          (Read.val_main_v21 (F := F) x0) (Read.val_main_v282 (F := F) x2) (Read.val_main_v225 (F := F) x0 x1 x2) := rfl

theorem tap4_is :
    Read.val_main_v343 (F := F) x0 x1 x2
      = tapTerm 0#32 0#32 (Read.val_main_v17 (F := F) x1) (Read.val_main_v20 (F := F)) (Read.val_main_v47 (F := F) x1)
          (Read.val_main_v21 (F := F) x0) (Read.val_main_v341 (F := F) x2) (Read.val_main_v284 (F := F) x0 x1 x2) := rfl

theorem tap5_is :
    Read.val_main_v402 (F := F) x0 x1 x2
      = tapTerm 0#32 1#32 (Read.val_main_v17 (F := F) x1) (Read.val_main_v20 (F := F)) (Read.val_main_v47 (F := F) x1)
          (Read.val_main_v21 (F := F) x0) (Read.val_main_v400 (F := F) x2) (Read.val_main_v343 (F := F) x0 x1 x2) := rfl

theorem tap6_is :
    Read.val_main_v461 (F := F) x0 x1 x2
      = tapTerm 1#32 4294967295#32 (Read.val_main_v17 (F := F) x1) (Read.val_main_v20 (F := F)) (Read.val_main_v47 (F := F) x1)
          (Read.val_main_v21 (F := F) x0) (Read.val_main_v459 (F := F) x2) (Read.val_main_v402 (F := F) x0 x1 x2) := rfl

theorem tap7_is :
    Read.val_main_v520 (F := F) x0 x1 x2
      = tapTerm 1#32 0#32 (Read.val_main_v17 (F := F) x1) (Read.val_main_v20 (F := F)) (Read.val_main_v47 (F := F) x1)
          (Read.val_main_v21 (F := F) x0) (Read.val_main_v518 (F := F) x2) (Read.val_main_v461 (F := F) x0 x1 x2) := rfl

theorem tap8_is :
    Read.val_main_v579 (F := F) x0 x1 x2
      = tapTerm 1#32 1#32 (Read.val_main_v17 (F := F) x1) (Read.val_main_v20 (F := F)) (Read.val_main_v47 (F := F) x1)
          (Read.val_main_v21 (F := F) x0) (Read.val_main_v577 (F := F) x2) (Read.val_main_v520 (F := F) x0 x1 x2) := rfl

end TapIs

/-! ## The weights, the starting value and the result's layout -/

/-- The `(dy, dx)` block of the weights, cut out and re-laid as a `64 × 64` matrix, holds at `(c, o)` the weight
    `(dy, dx, c, o)`. -/
theorem wblock_apply {α : Type} (a2 : S3x3x64x64.Idx → α) (dy dx : Fin 3)
    (hs : S3x3x64x64.Slices ![dy.val, dx.val, 0, 0] S1x1x64x64) (c o : Fin 64) :
    shapeCast S64x64 (extractStridedSlice S1x1x64x64 ![dy.val, dx.val, 0, 0] a2 hs) shapeCasts_S1x1x64x64_S64x64 (ix2 c o)
      = a2 (ix4 dy dx c o) :=
  (shapeCast_apply _ shapeCasts_S1x1x64x64_S64x64 (ix2 c o) (ix4 (0 : Fin 1) (0 : Fin 1) c o) (by
    rw [Shape.rowMajor_val_four, Shape.rowMajor_val_two]
    show ((0 * 1 + 0) * 64 + c.val) * 64 + o.val = c.val * 64 + o.val
    omega)).trans
  (extractStridedSlice_apply _ a2 hs (ix4 (0 : Fin 1) (0 : Fin 1) c o) (ix4 dy dx c o) (fun a => by
    match a with
    | ⟨0, _⟩ => show dy.val = dy.val + 0; omega
    | ⟨1, _⟩ => show dx.val = dx.val + 0; omega
    | ⟨2, _⟩ => show c.val = 0 + c.val; omega
    | ⟨3, _⟩ => show o.val = 0 + o.val; omega))

section Weights

variable {F : FTy → Type} [FloatOps F] (x2 : (⟨S3x3x64x64, .f32⟩ : BufTy).Contents (Elt F)) (c o : Fin 64)

theorem w0_apply : Read.val_main_v105 (F := F) x2 (ix2 c o) = x2 (ix4 (0 : Fin 3) (0 : Fin 3) c o) :=
  wblock_apply x2 0 0 slices_S3x3x64x64_S1x1x64x64_0_0_0_0 c o

theorem w1_apply : Read.val_main_v164 (F := F) x2 (ix2 c o) = x2 (ix4 (0 : Fin 3) (1 : Fin 3) c o) :=
  wblock_apply x2 0 1 slices_S3x3x64x64_S1x1x64x64_0_1_0_0 c o

theorem w2_apply : Read.val_main_v223 (F := F) x2 (ix2 c o) = x2 (ix4 (0 : Fin 3) (2 : Fin 3) c o) :=
  wblock_apply x2 0 2 slices_S3x3x64x64_S1x1x64x64_0_2_0_0 c o

theorem w3_apply : Read.val_main_v282 (F := F) x2 (ix2 c o) = x2 (ix4 (1 : Fin 3) (0 : Fin 3) c o) :=
  wblock_apply x2 1 0 slices_S3x3x64x64_S1x1x64x64_1_0_0_0 c o

theorem w4_apply : Read.val_main_v341 (F := F) x2 (ix2 c o) = x2 (ix4 (1 : Fin 3) (1 : Fin 3) c o) :=
  wblock_apply x2 1 1 slices_S3x3x64x64_S1x1x64x64_1_1_0_0 c o

theorem w5_apply : Read.val_main_v400 (F := F) x2 (ix2 c o) = x2 (ix4 (1 : Fin 3) (2 : Fin 3) c o) :=
  wblock_apply x2 1 2 slices_S3x3x64x64_S1x1x64x64_1_2_0_0 c o

theorem w6_apply : Read.val_main_v459 (F := F) x2 (ix2 c o) = x2 (ix4 (2 : Fin 3) (0 : Fin 3) c o) :=
  wblock_apply x2 2 0 slices_S3x3x64x64_S1x1x64x64_2_0_0_0 c o

theorem w7_apply : Read.val_main_v518 (F := F) x2 (ix2 c o) = x2 (ix4 (2 : Fin 3) (1 : Fin 3) c o) :=
  wblock_apply x2 2 1 slices_S3x3x64x64_S1x1x64x64_2_1_0_0 c o

theorem w8_apply : Read.val_main_v577 (F := F) x2 (ix2 c o) = x2 (ix4 (2 : Fin 3) (2 : Fin 3) c o) :=
  wblock_apply x2 2 2 slices_S3x3x64x64_S1x1x64x64_2_2_0_0 c o

end Weights

/-- The sum starts from zero. -/
theorem start_zero (j : S131072x64.Idx) : Read.val_main_v48 (F := Ideal) j = 0 := Ideal.ofBits_zero_f32

/-- The result re-laid by batch: entry `(i / 32768, i % 32768, o)` is the flat array's entry `(i, o)`. -/
theorem result_apply {α : Type} (y : S131072x64.Idx → α) (i : Fin 131072) (o : Fin 64) :
    shapeCast S4x32768x64 y shapeCasts_S131072x64_S4x32768x64
        (ix3 (⟨i.val / 32768, by have := i.isLt; omega⟩ : Fin 4) (⟨i.val % 32768, Nat.mod_lt _ (by norm_num)⟩ : Fin 32768) o)
      = y (ix2 i o) :=
  shapeCast_apply y shapeCasts_S131072x64_S4x32768x64 _ (ix2 i o) (by
    rw [Shape.rowMajor_val_two, Shape.rowMajor_val_three]
    show i.val * 64 + o.val = (i.val / 32768 * 32768 + i.val % 32768) * 64 + o.val
    omega)

/-! ## The reference's result at a point -/

/-- One tap's contribution at point `i`, output channel `o`: the sum over the input channels of the neighbour
    feature at the offset words `(ky, kx)` times the weight `(dy, dx, c, o)`. -/
def tapSum (a0 : (⟨S4x32768x64, .f32⟩ : BufTy).Contents (Elt Ideal)) (a1 : (⟨S4x32768x2, .f32⟩ : BufTy).Contents (Elt Ideal))
    (a2 : (⟨S3x3x64x64, .f32⟩ : BufTy).Contents (Elt Ideal)) (i : Fin 131072) (o : Fin 64) (dy dx : Fin 3) (ky kx : BitVec 32) : EReal :=
  ∑ c : Fin 64, SubmConv.nfeat (Read.val_main_v47 (F := Ideal) a1) (Read.val_main_v21 (F := Ideal) a0)
    (Read.val_main_v20 (F := Ideal) (ix1 i)) (Read.val_main_v17 (F := Ideal) a1 (ix2 i (0 : Fin 2)))
    (Read.val_main_v17 (F := Ideal) a1 (ix2 i (1 : Fin 2))) ky kx c * a2 (ix4 dy dx c o)

/-- THE REFERENCE AT A POINT: entry `(i / 32768, i % 32768, o)` of the result is the nine taps' contributions summed
    in row-major tap order from the left. -/
theorem ref_at (a0 : (⟨S4x32768x64, .f32⟩ : BufTy).Contents (Elt Ideal)) (a1 : (⟨S4x32768x2, .f32⟩ : BufTy).Contents (Elt Ideal))
    (a2 : (⟨S3x3x64x64, .f32⟩ : BufTy).Contents (Elt Ideal)) (i : Fin 131072) (o : Fin 64) :
    Read.val_main_v580 (F := Ideal) a0 a1 a2
        (ix3 (⟨i.val / 32768, by have := i.isLt; omega⟩ : Fin 4) (⟨i.val % 32768, Nat.mod_lt _ (by norm_num)⟩ : Fin 32768) o)
      = tapSum a0 a1 a2 i o 0 0 4294967295#32 4294967295#32 + tapSum a0 a1 a2 i o 0 1 4294967295#32 0#32
        + tapSum a0 a1 a2 i o 0 2 4294967295#32 1#32 + tapSum a0 a1 a2 i o 1 0 0#32 4294967295#32
        + tapSum a0 a1 a2 i o 1 1 0#32 0#32 + tapSum a0 a1 a2 i o 1 2 0#32 1#32
        + tapSum a0 a1 a2 i o 2 0 1#32 4294967295#32 + tapSum a0 a1 a2 i o 2 1 1#32 0#32
        + tapSum a0 a1 a2 i o 2 2 1#32 1#32 := by
  have h : Read.val_main_v580 (F := Ideal) a0 a1 a2
        (ix3 (⟨i.val / 32768, by have := i.isLt; omega⟩ : Fin 4) (⟨i.val % 32768, Nat.mod_lt _ (by norm_num)⟩ : Fin 32768) o)
      = Read.val_main_v579 (F := Ideal) a0 a1 a2 (ix2 i o) := result_apply _ i o
  rw [h, tap8_is, tapTerm_apply, tap7_is, tapTerm_apply, tap6_is, tapTerm_apply, tap5_is, tapTerm_apply, tap4_is,
    tapTerm_apply, tap3_is, tapTerm_apply, tap2_is, tapTerm_apply, tap1_is, tapTerm_apply, tap0_is, tapTerm_apply,
    start_zero, zero_add]
  simp only [w0_apply, w1_apply, w2_apply, w3_apply, w4_apply, w5_apply, w6_apply, w7_apply, w8_apply]
  rfl

end Cert.ReferenceIdeal.RefValue
end
-- ==== Proof.TapArith.lean ====
/-
  Word arithmetic joining the two programs.  A point's cell coordinates `y`, `x` are 32-bit words
  below 256 and its batch id a word below 4.  Adding a tap's offset word (-1, 0 or 1) cannot wrap,
  so the signed value of `y + k` is `y + d - 1`, which lies in `[-1, 256]`; the reference's in-range
  test `0 ≤ · < 256` then says exactly that row `y + d` of the bordered array is not a border row;
  inside the range the clip, the index normalisation and the gather's clamp all do nothing.  Hence
  the neighbour feature the reference looks up is the bordered array's entry (`nfeat_eq_padded`).
-/
import proofs.«119561_j24610162606296_2_alg».proof.Proof.Spec

noncomputable section

namespace Cert.SubmConv

open Idealize.ShloMosaic Idealize.ShloMosaic.ValueIdx

/-- A word below 2³¹ is its own signed value. -/
theorem toInt_small (y : W32) (hy : y.toNat < 256) : y.toInt = (y.toNat : Int) := by
  rw [BitVec.toInt_eq_toNat_cond]; split_ifs <;> omega

theorem tapWord_zero : tapWord 0 = 4294967295#32 := by decide
theorem tapWord_one : tapWord 1 = 0#32 := by decide
theorem tapWord_two : tapWord 2 = 1#32 := by decide

/-- Adding a tap offset to a coordinate below 256 does not wrap. -/
theorem addi_tapWord_toInt (y : W32) (hy : y.toNat < 256) (d : Fin 3) :
    (IntOp.addi y (tapWord d)).toInt = (y.toNat : Int) + (d.val : Int) - 1 := by
  unfold IntOp.addi
  have e0 : (4294967295#32 : BitVec 32).toInt = -1 := by decide
  have e1 : (0#32 : BitVec 32).toInt = 0 := by decide
  have e2 : (1#32 : BitVec 32).toInt = 1 := by decide
  rw [BitVec.toInt_add, toInt_small y hy]
  fin_cases d
  · rw [show tapWord (⟨0, by decide⟩ : Fin 3) = 4294967295#32 from tapWord_zero, e0, Int.bmod_def]; simp; omega
  · rw [show tapWord (⟨1, by decide⟩ : Fin 3) = 0#32 from tapWord_one, e1, Int.bmod_def]; simp; omega
  · rw [show tapWord (⟨2, by decide⟩ : Fin 3) = 1#32 from tapWord_two, e2, Int.bmod_def]; simp; omega

theorem cmpi_sge_zero (v : W32) : IntOp.cmpi .sge v 0#32 = BitVec.ofBool (decide (0 ≤ v.toInt)) := by
  simp [IntOp.cmpi, BitVec.sle]
theorem cmpi_slt_zero (v : W32) : IntOp.cmpi .slt v 0#32 = BitVec.ofBool (decide (v.toInt < 0)) := by
  simp [IntOp.cmpi, BitVec.slt]
theorem cmpi_slt_256 (v : W32) : IntOp.cmpi .slt v 256#32 = BitVec.ofBool (decide (v.toInt < 256)) := by
  simp [IntOp.cmpi, BitVec.slt]

theorem andi_ofBool (p q : Bool) : IntOp.andi (BitVec.ofBool p) (BitVec.ofBool q) = BitVec.ofBool (p && q) := by
  cases p <;> cases q <;> decide
theorem andi_true (c : BitVec 1) : IntOp.andi (BitVec.ofBool true) c = c := by revert c; decide
theorem andi_false (c : BitVec 1) : IntOp.andi (BitVec.ofBool false) c = BitVec.ofBool false := by revert c; decide
theorem select_false {α : Type} (a b : α) : Scalar.select (BitVec.ofBool false) a b = b := by simp [Scalar.select]

/-- The in-range test as one Boolean. -/
theorem inBounds_eq (ny nx : W32) : inBounds ny nx
    = BitVec.ofBool (((decide (0 ≤ ny.toInt) && decide (ny.toInt < 256)) && decide (0 ≤ nx.toInt)) && decide (nx.toInt < 256)) := by
  unfold inBounds
  rw [cmpi_sge_zero, cmpi_slt_256, cmpi_sge_zero, cmpi_slt_256, andi_ofBool, andi_ofBool, andi_ofBool]

/-- Inside `[0, 256)` the clip is the identity. -/
theorem clip255_of_range (v : W32) (h0 : 0 ≤ v.toInt) (h1 : v.toInt < 256) : clip255 v = v := by
  unfold clip255
  simp only [IntOp.minsi, IntOp.maxsi, BitVec.slt]
  have e0 : (0#32).toInt = 0 := by decide
  have e255 : (255#32).toInt = 255 := by decide
  simp only [e0, e255]
  have h2 : ¬ (v.toInt < 0) := by omega
  simp only [h2, decide_false, Bool.false_eq_true, if_false]
  have h3 : ¬ (255 < v.toInt) := by omega
  simp [h3]

/-- A non-negative index is not normalised. -/
theorem wrapIdx_of_nonneg (n v : W32) (h0 : 0 ≤ v.toInt) : wrapIdx n v = v := by
  unfold wrapIdx Scalar.select
  rw [cmpi_slt_zero]
  have h2 : ¬ (v.toInt < 0) := by omega
  simp [h2]

/-- A start coordinate inside the axis is not clamped. -/
theorem clampIdx_of_range {N : ℕ} (v : W32) (h0 : 0 ≤ v.toInt) (h1 : v.toInt < (N : Int)) : clampIdx N v = v.toInt.toNat := by
  unfold clampIdx; omega

theorem ix3_congr {n0 n1 n2 : ℕ} {a a' : Fin n0} {b b' : Fin n1} {c c' : Fin n2} (h1 : a = a') (h2 : b = b') (h3 : c = c') :
    ix3 a b c = ix3 a' b' c' := by subst h1 h2 h3; rfl

section Arrays

variable (grid : (⟨3, ![4, 256, 256]⟩ : Shape).Idx → W32) (feats : (⟨2, ![131072, 64]⟩ : Shape).Idx → EReal)

/-- The grid entry read for index words inside the grid is the entry at those coordinates. -/
theorem gridAt_of_range (b v u : W32) (hb : b.toNat < 4) (hv0 : 0 ≤ v.toInt) (hv1 : v.toInt < 256) (hu0 : 0 ≤ u.toInt) (hu1 : u.toInt < 256) :
    gridAt grid b v u = grid (ix3 ⟨b.toNat, hb⟩ ⟨v.toInt.toNat, by omega⟩ ⟨u.toInt.toNat, by omega⟩) := by
  have hbi : b.toInt = (b.toNat : Int) := toInt_small b (by omega)
  unfold gridAt
  refine congrArg grid (ix3_congr (Fin.ext ?_) (Fin.ext ?_) (Fin.ext ?_))
  · show clampIdx 4 (wrapIdx 4#32 b) = b.toNat
    rw [wrapIdx_of_nonneg _ _ (by omega), clampIdx_of_range _ (by omega) (by omega)]; omega
  · show clampIdx 256 (wrapIdx 256#32 v) = v.toInt.toNat
    rw [wrapIdx_of_nonneg _ _ hv0, clampIdx_of_range _ hv0 (by omega)]
  · show clampIdx 256 (wrapIdx 256#32 u) = u.toInt.toNat
    rw [wrapIdx_of_nonneg _ _ hu0, clampIdx_of_range _ hu0 (by omega)]

/-- THE JOIN: for a point with batch id below 4 and cell coordinates below 256, the neighbour feature the
    reference looks up at tap `(dy, dx)` is the bordered array's entry at row `y + dy`, column `x + dx`. -/
theorem nfeat_eq_padded (b y x : W32) (hb : b.toNat < 4) (hy : y.toNat < 256) (hx : x.toNat < 256) (dy dx : Fin 3) (c : Fin 64) :
    nfeat grid feats b y x (tapWord dy) (tapWord dx) c
      = padded grid feats ⟨b.toNat, hb⟩ ⟨y.toNat + dy.val, by omega⟩ ⟨x.toNat + dx.val, by omega⟩ c := by
  have hny := addi_tapWord_toInt y hy dy
  have hnx := addi_tapWord_toInt x hx dx
  unfold nfeat padded
  generalize IntOp.addi y (tapWord dy) = ny at hny ⊢
  generalize IntOp.addi x (tapWord dx) = nx at hnx ⊢
  rw [inBounds_eq]
  by_cases hin : (1 ≤ y.toNat + dy.val ∧ y.toNat + dy.val ≤ 256) ∧ (1 ≤ x.toNat + dx.val ∧ x.toNat + dx.val ≤ 256)
  · rw [dif_pos hin]
    have a1 : 0 ≤ ny.toInt := by omega
    have a2 : ny.toInt < 256 := by omega
    have a3 : 0 ≤ nx.toInt := by omega
    have a4 : nx.toInt < 256 := by omega
    rw [clip255_of_range ny a1 a2, clip255_of_range nx a3 a4, gridAt_of_range grid b ny nx hb a1 a2 a3 a4]
    have ht : (((decide (0 ≤ ny.toInt) && decide (ny.toInt < 256)) && decide (0 ≤ nx.toInt)) && decide (nx.toInt < 256)) = true := by
      simp [a1, a2, a3, a4]
    rw [ht, andi_true]
    unfold rep
    have e : (ix3 (⟨b.toNat, hb⟩ : Fin 4) (⟨ny.toInt.toNat, by omega⟩ : Fin 256) (⟨nx.toInt.toNat, by omega⟩ : Fin 256))
        = ix3 (⟨b.toNat, hb⟩ : Fin 4) (⟨y.toNat + dy.val - 1, by omega⟩ : Fin 256) (⟨x.toNat + dx.val - 1, by omega⟩ : Fin 256) :=
      ix3_congr rfl (Fin.ext (by show ny.toInt.toNat = y.toNat + dy.val - 1; omega)) (Fin.ext (by show nx.toInt.toNat = x.toNat + dx.val - 1; omega))
    rw [e]
  · rw [dif_neg hin]
    have hf : (((decide (0 ≤ ny.toInt) && decide (ny.toInt < 256)) && decide (0 ≤ nx.toInt)) && decide (nx.toInt < 256)) = false := by
      by_contra hc
      simp only [Bool.not_eq_false, Bool.and_eq_true, decide_eq_true_eq] at hc
      exact hin (by omega)
    rw [hf, andi_false, select_false]

end Arrays

end Cert.SubmConv

end
-- ==== Proof.Bridge.lean ====
/-
  The two results are one array.  Let `K` be any array that at the entry of point `i`, channel `o`
  holds the dense window sum read at the point's (normalised, clamped) index words, and `R` any
  array that there holds the nine looked-up neighbour sums accumulated in tap order.  If every cell
  coordinate is a word below 256 and the batch id of point `i` is the word `i / 32768`, then
  `K = R`: the index words are genuine coordinates, so normalising and clamping them does nothing,
  and tap by tap, channel by channel, the looked-up neighbour feature is the bordered array's entry
  (`nfeat_eq_padded`).  No arithmetic on the extended reals is used: both sides add the same
  products in the same order.
-/
import proofs.«119561_j24610162606296_2_alg».proof.Proof.TapArith

noncomputable section

namespace Cert.SubmConv

open Idealize.ShloMosaic Idealize.ShloMosaic.ValueIdx

section

variable (grid : (⟨3, ![4, 256, 256]⟩ : Shape).Idx → W32) (feats : (⟨2, ![131072, 64]⟩ : Shape).Idx → EReal)
  (W : (⟨4, ![3, 3, 64, 64]⟩ : Shape).Idx → EReal)

/-- The bordered represented features as one array. -/
def paddedArr : (⟨4, ![4, 258, 258, 64]⟩ : Shape).Idx → EReal := fun j => padded grid feats (j 0) (j 1) (j 2) (j 3)

/-- One tap: the reference's looked-up sum is the window sum's tap. -/
theorem tap_eq (b y x : W32) (hb : b.toNat < 4) (hy : y.toNat < 256) (hx : x.toNat < 256) (o : Fin 64) (dy dx : Fin 3) :
    (∑ c : Fin 64, nfeat grid feats b y x (tapWord dy) (tapWord dx) c * W (ix4 dy dx c o))
      = tap (paddedArr grid feats) W ⟨b.toNat, hb⟩ ⟨y.toNat, hy⟩ ⟨x.toNat, hx⟩ o dy dx := by
  unfold tap
  refine Finset.sum_congr rfl (fun c _ => ?_)
  rw [nfeat_eq_padded grid feats b y x hb hy hx dy dx c]
  rfl

/-- The nine taps: the reference's accumulated sum is the window sum. -/
theorem taps_eq (b y x : W32) (hb : b.toNat < 4) (hy : y.toNat < 256) (hx : x.toNat < 256) (o : Fin 64) :
    (∑ c : Fin 64, nfeat grid feats b y x 4294967295#32 4294967295#32 c * W (ix4 0 0 c o))
      + (∑ c : Fin 64, nfeat grid feats b y x 4294967295#32 0#32 c * W (ix4 0 1 c o))
      + (∑ c : Fin 64, nfeat grid feats b y x 4294967295#32 1#32 c * W (ix4 0 2 c o))
      + (∑ c : Fin 64, nfeat grid feats b y x 0#32 4294967295#32 c * W (ix4 1 0 c o))
      + (∑ c : Fin 64, nfeat grid feats b y x 0#32 0#32 c * W (ix4 1 1 c o))
      + (∑ c : Fin 64, nfeat grid feats b y x 0#32 1#32 c * W (ix4 1 2 c o))
      + (∑ c : Fin 64, nfeat grid feats b y x 1#32 4294967295#32 c * W (ix4 2 0 c o))
      + (∑ c : Fin 64, nfeat grid feats b y x 1#32 0#32 c * W (ix4 2 1 c o))
      + (∑ c : Fin 64, nfeat grid feats b y x 1#32 1#32 c * W (ix4 2 2 c o))
      = dense (paddedArr grid feats) W ⟨b.toNat, hb⟩ ⟨y.toNat, hy⟩ ⟨x.toNat, hx⟩ o := by
  unfold dense
  rw [← tap_eq grid feats W b y x hb hy hx o 0 0, ← tap_eq grid feats W b y x hb hy hx o 0 1, ← tap_eq grid feats W b y x hb hy hx o 0 2,
    ← tap_eq grid feats W b y x hb hy hx o 1 0, ← tap_eq grid feats W b y x hb hy hx o 1 1, ← tap_eq grid feats W b y x hb hy hx o 1 2,
    ← tap_eq grid feats W b y x hb hy hx o 2 0, ← tap_eq grid feats W b y x hb hy hx o 2 1, ← tap_eq grid feats W b y x hb hy hx o 2 2]
  simp only [tapWord_zero, tapWord_one, tapWord_two]

/-- A genuine coordinate word is its own normalised, clamped index. -/
theorem clamp_wrap_256 (v : W32) (hv : v.toNat < 256) : clampIdx 256 (wrapIdx 256#32 v) = v.toNat := by
  have h := toInt_small v hv
  rw [wrapIdx_of_nonneg _ _ (by omega), clampIdx_of_range _ (by omega) (by omega)]; omega
theorem clamp_wrap_4 (v : W32) (hv : v.toNat < 4) : clampIdx 4 (wrapIdx 4#32 v) = v.toNat := by
  have h := toInt_small v (by omega)
  rw [wrapIdx_of_nonneg _ _ (by omega), clampIdx_of_range _ (by omega) (by omega)]; omega

variable (idx : (⟨2, ![131072, 2]⟩ : Shape).Idx → W32) (bid : (⟨1, ![131072]⟩ : Shape).Idx → W32)

/-- THE AGREEMENT of the two results, from what each holds at the entry of a point and a channel. -/
theorem results_agree
    (hidx : ∀ (i : Fin 131072) (j : Fin 2), (idx (ix2 i j)).toNat < 256)
    (hbid : ∀ i : Fin 131072, bid (ix1 i) = BitVec.ofNat 32 (i.val / 32768))
    (K R : (⟨3, ![4, 32768, 64]⟩ : Shape).Idx → EReal)
    (hK : ∀ (i : Fin 131072) (o : Fin 64),
      K (ix3 (⟨i.val / 32768, by have := i.isLt; omega⟩ : Fin 4) (⟨i.val % 32768, by omega⟩ : Fin 32768) o)
        = dense (paddedArr grid feats) W
            ⟨clampIdx 4 (wrapIdx 4#32 (bid (ix1 i))), clampIdx_lt (by norm_num) _⟩
            ⟨clampIdx 256 (wrapIdx 256#32 (idx (ix2 i 0))), clampIdx_lt (by norm_num) _⟩
            ⟨clampIdx 256 (wrapIdx 256#32 (idx (ix2 i 1))), clampIdx_lt (by norm_num) _⟩ o)
    (hR : ∀ (i : Fin 131072) (o : Fin 64),
      R (ix3 (⟨i.val / 32768, by have := i.isLt; omega⟩ : Fin 4) (⟨i.val % 32768, by omega⟩ : Fin 32768) o)
        = (∑ c : Fin 64, nfeat grid feats (bid (ix1 i)) (idx (ix2 i 0)) (idx (ix2 i 1)) 4294967295#32 4294967295#32 c * W (ix4 0 0 c o))
          + (∑ c : Fin 64, nfeat grid feats (bid (ix1 i)) (idx (ix2 i 0)) (idx (ix2 i 1)) 4294967295#32 0#32 c * W (ix4 0 1 c o))
          + (∑ c : Fin 64, nfeat grid feats (bid (ix1 i)) (idx (ix2 i 0)) (idx (ix2 i 1)) 4294967295#32 1#32 c * W (ix4 0 2 c o))
          + (∑ c : Fin 64, nfeat grid feats (bid (ix1 i)) (idx (ix2 i 0)) (idx (ix2 i 1)) 0#32 4294967295#32 c * W (ix4 1 0 c o))
          + (∑ c : Fin 64, nfeat grid feats (bid (ix1 i)) (idx (ix2 i 0)) (idx (ix2 i 1)) 0#32 0#32 c * W (ix4 1 1 c o))
          + (∑ c : Fin 64, nfeat grid feats (bid (ix1 i)) (idx (ix2 i 0)) (idx (ix2 i 1)) 0#32 1#32 c * W (ix4 1 2 c o))
          + (∑ c : Fin 64, nfeat grid feats (bid (ix1 i)) (idx (ix2 i 0)) (idx (ix2 i 1)) 1#32 4294967295#32 c * W (ix4 2 0 c o))
          + (∑ c : Fin 64, nfeat grid feats (bid (ix1 i)) (idx (ix2 i 0)) (idx (ix2 i 1)) 1#32 0#32 c * W (ix4 2 1 c o))
          + (∑ c : Fin 64, nfeat grid feats (bid (ix1 i)) (idx (ix2 i 0)) (idx (ix2 i 1)) 1#32 1#32 c * W (ix4 2 2 c o))) :
    K = R := by
  funext j
  obtain ⟨p, g, o, rfl⟩ : ∃ (p : Fin 4) (g : Fin 32768) (o : Fin 64), j = ix3 p g o := ⟨j 0, j 1, j 2, eq_ix3 j⟩
  have hlt : p.val * 32768 + g.val < 131072 := by have := p.isLt; have := g.isLt; omega
  have hp : (p.val * 32768 + g.val) / 32768 = p.val := by have := g.isLt; omega
  have hg : (p.val * 32768 + g.val) % 32768 = g.val := by have := g.isLt; omega
  have e : ix3 p g o = ix3 (⟨(⟨p.val * 32768 + g.val, hlt⟩ : Fin 131072).val / 32768, by show (p.val * 32768 + g.val) / 32768 < 4; omega⟩ : Fin 4)
      (⟨(⟨p.val * 32768 + g.val, hlt⟩ : Fin 131072).val % 32768, by show (p.val * 32768 + g.val) % 32768 < 32768; omega⟩ : Fin 32768) o :=
    ix3_congr (Fin.ext hp.symm) (Fin.ext hg.symm) rfl
  rw [e, hK ⟨p.val * 32768 + g.val, hlt⟩ o, hR ⟨p.val * 32768 + g.val, hlt⟩ o]
  generalize (⟨p.val * 32768 + g.val, hlt⟩ : Fin 131072) = i
  have hb : (bid (ix1 i)).toNat < 4 := by
    rw [hbid i, BitVec.toNat_ofNat]; have := i.isLt
    have : i.val / 32768 < 4 := by omega
    omega
  have hy := hidx i 0
  have hx := hidx i 1
  rw [taps_eq grid feats W _ _ _ hb hy hx o]
  have e1 : (⟨clampIdx 4 (wrapIdx 4#32 (bid (ix1 i))), clampIdx_lt (by norm_num) _⟩ : Fin 4) = ⟨(bid (ix1 i)).toNat, hb⟩ :=
    Fin.ext (clamp_wrap_4 _ hb)
  have e2 : (⟨clampIdx 256 (wrapIdx 256#32 (idx (ix2 i 0))), clampIdx_lt (by norm_num) _⟩ : Fin 256) = ⟨(idx (ix2 i 0)).toNat, hy⟩ :=
    Fin.ext (clamp_wrap_256 _ hy)
  have e3 : (⟨clampIdx 256 (wrapIdx 256#32 (idx (ix2 i 1))), clampIdx_lt (by norm_num) _⟩ : Fin 256) = ⟨(idx (ix2 i 1)).toNat, hx⟩ :=
    Fin.ext (clamp_wrap_256 _ hx)
  rw [e1, e2, e3]

end

end Cert.SubmConv

end
-- ==== Proof.RefLib.lean ====
/- Facts about runs of straight lines of host operations that the reference's run uses: the result of a line over a
   literal family of three operands, a property of two stretches of lines carried to their concatenation, and the rewriting
   pass that reads one buffer after a stretch as the composed term of the stretch's operations. -/
import Idealize.ShloMosaic.Lib.StableHlo.Run

noncomputable section

namespace Cert.RefLib

open Idealize.ShloMosaic Idealize.ShloMosaic.StableHlo Idealize.SL.Sem

variable {τ : Topo} {sig : RefSig} {Val : EltTy → Type}

/-- The result of a line over a literal family of three references, with each operand's contents at its own reference. -/
theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same, with the result reference left out of the rewriting index, for one pass over a whole stretch. -/
theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- A function of a family of three operands' contents, applied to the three contents one by one. -/
def apply3 {x a b y : Ref sig .tc}
    (f : ((k : Fin 3) → ((![x, a, b] : Fin 3 → Ref sig .tc) k).ty.Contents Val) → y.ty.Contents Val)
    (vx : x.ty.Contents Val) (va : a.ty.Contents Val) (vb : b.ty.Contents Val) : y.ty.Contents Val :=
  f (Fin.cons vx (Fin.cons va (Fin.cons vb (fun i => i.elim0))))

/-- The three-operand line's result with the operands' contents as three plain arguments, so that a rewriting pass goes on
    into each of them. -/
theorem nary3a_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = apply3 f (G (Proc.devRef .tc x)) (G (Proc.devRef .tc a)) (G (Proc.devRef .tc b)) :=
  nary3_result f hxs hy G

/-- Three operands' contents as a family over the literal references. -/
def vec3 {x a b : Ref sig .tc} (A : x.ty.Contents Val) (B : a.ty.Contents Val) (C : b.ty.Contents Val) :
    (k : Fin 3) → ((![x, a, b] : Fin 3 → Ref sig .tc) k).ty.Contents Val :=
  Fin.cons A (Fin.cons B (Fin.cons C (fun i => i.elim0)))
theorem vec3_zero {x a b : Ref sig .tc} (A : x.ty.Contents Val) (B : a.ty.Contents Val) (C : b.ty.Contents Val) : vec3 A B C 0 = A := rfl
theorem vec3_one {x a b : Ref sig .tc} (A : x.ty.Contents Val) (B : a.ty.Contents Val) (C : b.ty.Contents Val) : vec3 A B C 1 = B := rfl
theorem vec3_two {x a b : Ref sig .tc} (A : x.ty.Contents Val) (B : a.ty.Contents Val) (C : b.ty.Contents Val) : vec3 A B C 2 = C := rfl

/-- The three-operand line's result with the operands' contents as a named family, read back one by one. -/
theorem nary3v_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (vec3 (G (Proc.devRef .tc x)) (G (Proc.devRef .tc a)) (G (Proc.devRef .tc b))) :=
  nary3_result f hxs hy G

/-- A property of every line of two stretches holds of every line of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- The congruence lemma of a line over a family of operands, stated once here for the rewriting passes downstream. -/
theorem congr_simp_realized : True := by
  have := @nary.congr_simp
  trivial

/-- One buffer after a stretch of lines as the composed term of the stretch's operations: each line's result at its own
    buffer is its function of its operands' contents, and at any other buffer what was there. -/
macro "ref_results" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.RefLib.nary3a_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne']))

/-- The same pass for a stretch whose three-operand line comes first: its operands are read off one by one, so the
    line's result is its function of three plain contents. -/
macro "ref_results_v" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.RefLib.nary3v_result', Cert.RefLib.vec3_zero, Cert.RefLib.vec3_one, Cert.RefLib.vec3_two,
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne']))

end Cert.RefLib

end
-- ==== Proof.RefSeg0.lean ====
/- One stretch of the reference program's host lines, in program order: the stretch as lists of lines, what it leaves
   unwritten, and the buffers it computes as the stage-by-stage values of the arguments. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 0 to 64 of @main, in order: up to the line that lays three index columns side by side. -/
abbrev seg0a : List (HloOp τ sig (Elt F)) :=
  [ nullary main_cst (constant S2 .f32 0x43800000#32),
    nullary main_cst_0 (constant S_ .f32 0x3F800000#32),
    unary main_cst_0 main_v0 (broadcastInDim S2 ![] bcast_S_S2 : (⟨S_, .f32⟩ : BufTy).Contents (Elt F) → (⟨S2, .f32⟩ : BufTy).Contents (Elt F)),
    binary main_v0 main_cst main_v1 (Host.divf : (⟨S2, .f32⟩ : BufTy).Contents (Elt F) → (⟨S2, .f32⟩ : BufTy).Contents (Elt F) → (⟨S2, .f32⟩ : BufTy).Contents (Elt F)),
    nullary main_cst_1 (constant S_ .f32 0xC1135C29#32),
    nullary main_cst_2 (constant S_ .f32 0x41135C29#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S4x32768x2, .f32⟩) main_call0_v1) (broadcastInDim S4x32768x2 ![] bcast_S_S4x32768x2),
    TRef.binary (TRef.of (T := ⟨S4x32768x2, .f32⟩) main_call0_v1) (TRef.of (T := ⟨S4x32768x2, .f32⟩) main_arg1) (TRef.of (T := ⟨S4x32768x2, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S4x32768x2, .f32⟩) main_call0_v4) (broadcastInDim S4x32768x2 ![] bcast_S_S4x32768x2),
    TRef.binary (TRef.of (T := ⟨S4x32768x2, .f32⟩) main_call0_v4) (TRef.of (T := ⟨S4x32768x2, .f32⟩) main_call0_v2) (TRef.of (T := ⟨S4x32768x2, .f32⟩) main_v2) minimumf,
    unary main_v2 main_v3 (Host.negf : (⟨S4x32768x2, .f32⟩ : BufTy).Contents (Elt F) → (⟨S4x32768x2, .f32⟩ : BufTy).Contents (Elt F)),
    unary main_v3 main_v4 (Host.exp : (⟨S4x32768x2, .f32⟩ : BufTy).Contents (Elt F) → (⟨S4x32768x2, .f32⟩ : BufTy).Contents (Elt F)),
    nullary main_cst_3 (constant S_ .f32 0x3F800000#32),
    unary main_cst_3 main_v5 (broadcastInDim S4x32768x2 ![] bcast_S_S4x32768x2 : (⟨S_, .f32⟩ : BufTy).Contents (Elt F) → (⟨S4x32768x2, .f32⟩ : BufTy).Contents (Elt F)),
    binary main_v5 main_v4 main_v6 (addf : (⟨S4x32768x2, .f32⟩ : BufTy).Contents (Elt F) → (⟨S4x32768x2, .f32⟩ : BufTy).Contents (Elt F) → (⟨S4x32768x2, .f32⟩ : BufTy).Contents (Elt F)),
    nullary main_cst_4 (constant S_ .f32 0x3F800000#32),
    unary main_cst_4 main_v7 (broadcastInDim S4x32768x2 ![] bcast_S_S4x32768x2 : (⟨S_, .f32⟩ : BufTy).Contents (Elt F) → (⟨S4x32768x2, .f32⟩ : BufTy).Contents (Elt F)),
    binary main_v7 main_v6 main_v8 (Host.divf : (⟨S4x32768x2, .f32⟩ : BufTy).Contents (Elt F) → (⟨S4x32768x2, .f32⟩ : BufTy).Contents (Elt F) → (⟨S4x32768x2, .f32⟩ : BufTy).Contents (Elt F)),
    reshape main_v8 main_v9 rfl shapeCasts_S4x32768x2_S131072x2,
    nullary main_cst_5 (constant S_ .f32 0x7F800000#32),
    binary main_v9 main_cst_5 main_v10 ((fun x v => Host.reduce FloatOps.minimumf x v reducesTo_S131072x2_S2_d0 h_S_) : (⟨S131072x2, .f32⟩ : BufTy).Contents (Elt F) → (⟨S_, .f32⟩ : BufTy).Contents (Elt F) → (⟨S2, .f32⟩ : BufTy).Contents (Elt F)),
    unary main_v10 main_v11 (broadcastInDim S1x2 ![1] bcast_S2_S1x2_1 : (⟨S2, .f32⟩ : BufTy).Contents (Elt F) → (⟨S1x2, .f32⟩ : BufTy).Contents (Elt F)),
    unary main_v11 main_v12 (broadcastInDim S131072x2 ![0, 1] bcast_S1x2_S131072x2_0_1 : (⟨S1x2, .f32⟩ : BufTy).Contents (Elt F) → (⟨S131072x2, .f32⟩ : BufTy).Contents (Elt F)),
    binary main_v9 main_v12 main_v13 (subf : (⟨S131072x2, .f32⟩ : BufTy).Contents (Elt F) → (⟨S131072x2, .f32⟩ : BufTy).Contents (Elt F) → (⟨S131072x2, .f32⟩ : BufTy).Contents (Elt F)),
    unary main_v1 main_v14 (broadcastInDim S1x2 ![1] bcast_S2_S1x2_1 : (⟨S2, .f32⟩ : BufTy).Contents (Elt F) → (⟨S1x2, .f32⟩ : BufTy).Contents (Elt F)),
    unary main_v14 main_v15 (broadcastInDim S131072x2 ![0, 1] bcast_S1x2_S131072x2_0_1 : (⟨S1x2, .f32⟩ : BufTy).Contents (Elt F) → (⟨S131072x2, .f32⟩ : BufTy).Contents (Elt F)),
    binary main_v13 main_v15 main_v16 (Host.divf : (⟨S131072x2, .f32⟩ : BufTy).Contents (Elt F) → (⟨S131072x2, .f32⟩ : BufTy).Contents (Elt F) → (⟨S131072x2, .f32⟩ : BufTy).Contents (Elt F)),
    unary main_v16 main_v17 (fptosi 32 : (⟨S131072x2, .f32⟩ : BufTy).Contents (Elt F) → (⟨S131072x2, .i32⟩ : BufTy).Contents (Elt F)),
    nullary main_v18 (iotaInDim S4 32 0),
    unary main_v18 main_v19 (broadcastInDim S4x32768 ![0] bcast_S4_S4x32768_0 : (⟨S4, .i32⟩ : BufTy).Contents (Elt F) → (⟨S4x32768, .i32⟩ : BufTy).Contents (Elt F)),
    reshape main_v19 main_v20 rfl shapeCasts_S4x32768_S131072,
    reshape main_arg0 main_v21 rfl shapeCasts_S4x32768x64_S131072x64,
    nullary main_c (constantI S_ 32 4294967295#32),
    unary main_c main_v22 (broadcastInDim S4x256x256 ![] bcast_S_S4x256x256 : (⟨S_, .i32⟩ : BufTy).Contents (Elt F) → (⟨S4x256x256, .i32⟩ : BufTy).Contents (Elt F)),
    unary main_v17 main_v23 ((extractStridedSlice S131072x1 ![0, 0] · slices_S131072x2_S131072x1_0_0) : (⟨S131072x2, .i32⟩ : BufTy).Contents (Elt F) → (⟨S131072x1, .i32⟩ : BufTy).Contents (Elt F)),
    reshape main_v23 main_v24 rfl shapeCasts_S131072x1_S131072,
    unary main_v17 main_v25 ((extractStridedSlice S131072x1 ![0, 1] · slices_S131072x2_S131072x1_0_1) : (⟨S131072x2, .i32⟩ : BufTy).Contents (Elt F) → (⟨S131072x1, .i32⟩ : BufTy).Contents (Elt F)),
    reshape main_v25 main_v26 rfl shapeCasts_S131072x1_S131072,
    nullary main_v27 (iotaInDim S131072 32 0),
    nullary main_c_6 (constantI S_ 32 0#32),
    unary main_c_6 main_v28 (broadcastInDim S131072 ![] bcast_S_S131072 : (⟨S_, .i32⟩ : BufTy).Contents (Elt F) → (⟨S131072, .i32⟩ : BufTy).Contents (Elt F)),
    binary main_v20 main_v28 main_v29 (cmpi .slt : (⟨S131072, .i32⟩ : BufTy).Contents (Elt F) → (⟨S131072, .i32⟩ : BufTy).Contents (Elt F) → (⟨S131072, .i1⟩ : BufTy).Contents (Elt F)),
    nullary main_c_7 (constantI S_ 32 4#32),
    unary main_c_7 main_v30 (broadcastInDim S131072 ![] bcast_S_S131072 : (⟨S_, .i32⟩ : BufTy).Contents (Elt F) → (⟨S131072, .i32⟩ : BufTy).Contents (Elt F)),
    binary main_v20 main_v30 main_v31 (addi : (⟨S131072, .i32⟩ : BufTy).Contents (Elt F) → (⟨S131072, .i32⟩ : BufTy).Contents (Elt F) → (⟨S131072, .i32⟩ : BufTy).Contents (Elt F)),
    ternary main_v29 main_v31 main_v20 main_v32 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_8 (constantI S_ 32 0#32),
    unary main_c_8 main_v33 (broadcastInDim S131072 ![] bcast_S_S131072 : (⟨S_, .i32⟩ : BufTy).Contents (Elt F) → (⟨S131072, .i32⟩ : BufTy).Contents (Elt F)),
    binary main_v24 main_v33 main_v34 (cmpi .slt : (⟨S131072, .i32⟩ : BufTy).Contents (Elt F) → (⟨S131072, .i32⟩ : BufTy).Contents (Elt F) → (⟨S131072, .i1⟩ : BufTy).Contents (Elt F)),
    nullary main_c_9 (constantI S_ 32 256#32),
    unary main_c_9 main_v35 (broadcastInDim S131072 ![] bcast_S_S131072 : (⟨S_, .i32⟩ : BufTy).Contents (Elt F) → (⟨S131072, .i32⟩ : BufTy).Contents (Elt F)),
    binary main_v24 main_v35 main_v36 (addi : (⟨S131072, .i32⟩ : BufTy).Contents (Elt F) → (⟨S131072, .i32⟩ : BufTy).Contents (Elt F) → (⟨S131072, .i32⟩ : BufTy).Contents (Elt F)),
    ternary main_v34 main_v36 main_v24 main_v37 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_10 (constantI S_ 32 0#32),
    unary main_c_10 main_v38 (broadcastInDim S131072 ![] bcast_S_S131072 : (⟨S_, .i32⟩ : BufTy).Contents (Elt F) → (⟨S131072, .i32⟩ : BufTy).Contents (Elt F)),
    binary main_v26 main_v38 main_v39 (cmpi .slt : (⟨S131072, .i32⟩ : BufTy).Contents (Elt F) → (⟨S131072, .i32⟩ : BufTy).Contents (Elt F) → (⟨S131072, .i1⟩ : BufTy).Contents (Elt F)),
    nullary main_c_11 (constantI S_ 32 256#32),
    unary main_c_11 main_v40 (broadcastInDim S131072 ![] bcast_S_S131072 : (⟨S_, .i32⟩ : BufTy).Contents (Elt F) → (⟨S131072, .i32⟩ : BufTy).Contents (Elt F)),
    binary main_v26 main_v40 main_v41 (addi : (⟨S131072, .i32⟩ : BufTy).Contents (Elt F) → (⟨S131072, .i32⟩ : BufTy).Contents (Elt F) → (⟨S131072, .i32⟩ : BufTy).Contents (Elt F)),
    ternary main_v39 main_v41 main_v26 main_v42 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v32 main_v43 (broadcastInDim S131072x1 ![0] bcast_S131072_S131072x1_0 : (⟨S131072, .i32⟩ : BufTy).Contents (Elt F) → (⟨S131072x1, .i32⟩ : BufTy).Contents (Elt F)),
    unary main_v37 main_v44 (broadcastInDim S131072x1 ![0] bcast_S131072_S131072x1_0 : (⟨S131072, .i32⟩ : BufTy).Contents (Elt F) → (⟨S131072x1, .i32⟩ : BufTy).Contents (Elt F)),
    unary main_v42 main_v45 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem seg0a_sub : (seg0a : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., binary_bufs_sub .., unary_bufs_sub .., unary_bufs_sub .., binary_bufs_sub .., unary_bufs_sub .., unary_bufs_sub .., binary_bufs_sub .., unary_bufs_sub .., nullary_bufs_sub .., unary_bufs_sub .., reshape_bufs_sub .., reshape_bufs_sub .., nullary_bufs_sub .., unary_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

/-- No line allocates a buffer. -/
theorem seg0a_fresh : (seg0a : List (HloOp τ sig (Elt F))).Forall fun op => op.fresh = ∅ := by
  simp only [List.Forall]; repeat' constructor

/-- The references the stretch writes: one per line, its result. -/
def seg0aRes : List (Ref sig .tc) := [main_cst, main_cst_0, main_v0, main_v1, main_cst_1, main_cst_2, main_call0_v0, main_call0_v1, main_call0_v2, main_call0_v3, main_call0_v4, main_v2, main_v3, main_v4, main_cst_3, main_v5, main_v6, main_cst_4, main_v7, main_v8, main_v9, main_cst_5, main_v10, main_v11, main_v12, main_v13, main_v14, main_v15, main_v16, main_v17, main_v18, main_v19, main_v20, main_v21, main_c, main_v22, main_v23, main_v24, main_v25, main_v26, main_v27, main_c_6, main_v28, main_v29, main_c_7, main_v30, main_v31, main_v32, main_c_8, main_v33, main_v34, main_c_9, main_v35, main_v36, main_v37, main_c_10, main_v38, main_v39, main_c_11, main_v40, main_v41, main_v42, main_v43, main_v44, main_v45]

set_option maxHeartbeats 40000000 in
/-- Each line writes only its own result. -/
theorem seg0a_writes : (seg0a : List (HloOp τ sig (Elt F))).Forall fun op => op.writes ⊆ ((seg0aRes.map (Proc.devRef (τ := τ) .tc)).toFinset) := by
  simp only [seg0a, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem seg0a_keeps (W : Valuation τ sig (Elt F)) {b : Ref sig .tc} (hb : b ∉ seg0aRes) :
    after seg0a W (Proc.devRef .tc b) = W (Proc.devRef .tc b) :=
  after_of_writes_sub seg0a W seg0a_writes hb

set_option maxHeartbeats 40000000 in
/-- Lines 65 to 68 of @main, in order: from that line on. -/
abbrev seg0b : List (HloOp τ sig (Elt F)) :=
  [ nary ![main_v43, main_v44, main_v45] main_v46 (fun u => concatenate S131072x3 1 [⟨S131072x1, u 0⟩, ⟨S131072x1, u 1⟩, ⟨S131072x1, u 2⟩] concatenates_S131072x1_S131072x1_S131072x1_S131072x3_d1),
    ternary main_v22 main_v46 main_v27 main_v47 ((fun x i u => Host.scatter scatter_S4x256x256_S131072x3_S131072_n_012_012_1 IntOp.maxsi x i u) : (⟨S4x256x256, .i32⟩ : BufTy).Contents (Elt F) → (⟨S131072x3, .i32⟩ : BufTy).Contents (Elt F) → (⟨S131072, .i32⟩ : BufTy).Contents (Elt F) → (⟨S4x256x256, .i32⟩ : BufTy).Contents (Elt F)),
    nullary main_cst_12 (constant S_ .f32 0x00000000#32),
    unary main_cst_12 main_v48 (broadcastInDim S131072x64 ![] bcast_S_S131072x64 : (⟨S_, .f32⟩ : BufTy).Contents (Elt F) → (⟨S131072x64, .f32⟩ : BufTy).Contents (Elt F)) ]

/-- Each line touches TensorCore references only. -/
theorem seg0b_sub : (seg0b : List (HloOp τ sig (Elt F))).Forall fun op => op.bufs ⊆ tcRefs τ sig :=
  ⟨nary_bufs_sub .., ternary_bufs_sub .., nullary_bufs_sub .., unary_bufs_sub ..⟩

/-- No line allocates a buffer. -/
theorem seg0b_fresh : (seg0b : List (HloOp τ sig (Elt F))).Forall fun op => op.fresh = ∅ := by
  simp only [List.Forall]; repeat' constructor

/-- The references the stretch writes: one per line, its result. -/
def seg0bRes : List (Ref sig .tc) := [main_v46, main_v47, main_cst_12, main_v48]

set_option maxHeartbeats 40000000 in
/-- Each line writes only its own result. -/
theorem seg0b_writes : (seg0b : List (HloOp τ sig (Elt F))).Forall fun op => op.writes ⊆ ((seg0bRes.map (Proc.devRef (τ := τ) .tc)).toFinset) := by
  simp only [seg0b, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem seg0b_keeps (W : Valuation τ sig (Elt F)) {b : Ref sig .tc} (hb : b ∉ seg0bRes) :
    after seg0b W (Proc.devRef .tc b) = W (Proc.devRef .tc b) :=
  after_of_writes_sub seg0b W seg0b_writes hb

/-- The whole stretch: its two parts one after the other. -/
def seg0 : List (HloOp τ sig (Elt F)) := seg0a ++ seg0b

theorem seg0_sub : (seg0 : List (HloOp τ sig (Elt F))).Forall fun op => op.bufs ⊆ tcRefs τ sig := forall_append seg0a_sub seg0b_sub
theorem seg0_fresh : (seg0 : List (HloOp τ sig (Elt F))).Forall fun op => op.fresh = ∅ := forall_append seg0a_fresh seg0b_fresh

/-- The references the whole stretch writes. -/
def seg0Res : List (Ref sig .tc) := seg0aRes ++ seg0bRes

/-- A reference the stretch does not write keeps its contents. -/
theorem seg0_keeps (W : Valuation τ sig (Elt F)) {b : Ref sig .tc} (hb : b ∉ seg0Res) :
    after seg0 W (Proc.devRef .tc b) = W (Proc.devRef .tc b) := by
  show after (seg0a ++ seg0b) W _ = _
  rw [StableHlo.after_append, seg0b_keeps _ (fun h => hb (List.mem_append_right _ h)), seg0a_keeps _ (fun h => hb (List.mem_append_left _ h))]

set_option maxRecDepth 200000 in
set_option maxHeartbeats 40000000 in
/-- `main_v17` after the first part, from any contents: its stage value of `main_arg1`'s contents. -/
theorem seg0a_v17 (W : Valuation τ sig (Elt F)) :
    after seg0a W (Proc.devRef .tc main_v17) = Read.val_main_v17 (F := F) (W (Proc.devRef .tc main_arg1)) := by
  ref_results
  rfl

set_option maxRecDepth 200000 in
set_option maxHeartbeats 40000000 in
/-- `main_v20` after the first part, from any contents: its stage value. -/
theorem seg0a_v20 (W : Valuation τ sig (Elt F)) :
    after seg0a W (Proc.devRef .tc main_v20) = Read.val_main_v20 (F := F) := by
  ref_results
  rfl

set_option maxRecDepth 200000 in
set_option maxHeartbeats 40000000 in
/-- `main_v21` after the first part, from any contents: its stage value of `main_arg0`'s contents. -/
theorem seg0a_v21 (W : Valuation τ sig (Elt F)) :
    after seg0a W (Proc.devRef .tc main_v21) = Read.val_main_v21 (F := F) (W (Proc.devRef .tc main_arg0)) := by
  ref_results
  rfl

set_option maxRecDepth 200000 in
set_option maxHeartbeats 40000000 in
/-- `main_v43` after the first part, from any contents: its stage value. -/
theorem seg0a_v43 (W : Valuation τ sig (Elt F)) :
    after seg0a W (Proc.devRef .tc main_v43) = Read.val_main_v43 (F := F) := by
  ref_results
  rfl

set_option maxRecDepth 200000 in
set_option maxHeartbeats 40000000 in
/-- `main_v44` after the first part, from any contents: its stage value of `main_arg1`'s contents. -/
theorem seg0a_v44 (W : Valuation τ sig (Elt F)) :
    after seg0a W (Proc.devRef .tc main_v44) = Read.val_main_v44 (F := F) (W (Proc.devRef .tc main_arg1)) := by
  ref_results
  rfl

set_option maxRecDepth 200000 in
set_option maxHeartbeats 40000000 in
/-- `main_v45` after the first part, from any contents: its stage value of `main_arg1`'s contents. -/
theorem seg0a_v45 (W : Valuation τ sig (Elt F)) :
    after seg0a W (Proc.devRef .tc main_v45) = Read.val_main_v45 (F := F) (W (Proc.devRef .tc main_arg1)) := by
  ref_results
  rfl

set_option maxRecDepth 200000 in
set_option maxHeartbeats 40000000 in
/-- `main_v22` after the first part, from any contents: its stage value. -/
theorem seg0a_v22 (W : Valuation τ sig (Elt F)) :
    after seg0a W (Proc.devRef .tc main_v22) = Read.val_main_v22 (F := F) := by
  ref_results
  rfl

set_option maxRecDepth 200000 in
set_option maxHeartbeats 40000000 in
/-- `main_v27` after the first part, from any contents: its stage value. -/
theorem seg0a_v27 (W : Valuation τ sig (Elt F)) :
    after seg0a W (Proc.devRef .tc main_v27) = Read.val_main_v27 (F := F) := by
  ref_results
  rfl

set_option maxRecDepth 200000 in
set_option maxHeartbeats 40000000 in
/-- The rulebook grid after the second part, from contents holding the three index columns, the empty grid and the
    point numbers at their stage values. -/
theorem seg0b_v47 (W : Valuation τ sig (Elt F)) (x1 : (⟨S4x32768x2, .f32⟩ : BufTy).Contents (Elt F))
    (h43 : W (Proc.devRef .tc main_v43) = Read.val_main_v43 (F := F)) (h44 : W (Proc.devRef .tc main_v44) = Read.val_main_v44 (F := F) x1)
    (h45 : W (Proc.devRef .tc main_v45) = Read.val_main_v45 (F := F) x1) (h22 : W (Proc.devRef .tc main_v22) = Read.val_main_v22 (F := F))
    (h27 : W (Proc.devRef .tc main_v27) = Read.val_main_v27 (F := F)) :
    after seg0b W (Proc.devRef .tc main_v47) = Read.val_main_v47 (F := F) x1 := by
  ref_results
  rw [h43, h44, h45, h22, h27]
  rfl

set_option maxRecDepth 200000 in
set_option maxHeartbeats 40000000 in
/-- The zero accumulator after the second part, from any contents. -/
theorem seg0b_v48 (W : Valuation τ sig (Elt F)) : after seg0b W (Proc.devRef .tc main_v48) = Read.val_main_v48 (F := F) := by
  ref_results
  rfl

/-- After the whole stretch, from any contents: the index arrays, the features, the grid and the zero accumulator at their
    stage values of the arguments' contents. -/
theorem seg0_v17 (W : Valuation τ sig (Elt F)) : after seg0 W (Proc.devRef .tc main_v17) = Read.val_main_v17 (F := F) (W (Proc.devRef .tc main_arg1)) := by
  show after (seg0a ++ seg0b) W _ = _; rw [StableHlo.after_append]; exact (seg0b_keeps _ (by decide)).trans (seg0a_v17 W)
theorem seg0_v20 (W : Valuation τ sig (Elt F)) : after seg0 W (Proc.devRef .tc main_v20) = Read.val_main_v20 (F := F) := by
  show after (seg0a ++ seg0b) W _ = _; rw [StableHlo.after_append]; exact (seg0b_keeps _ (by decide)).trans (seg0a_v20 W)
theorem seg0_v21 (W : Valuation τ sig (Elt F)) : after seg0 W (Proc.devRef .tc main_v21) = Read.val_main_v21 (F := F) (W (Proc.devRef .tc main_arg0)) := by
  show after (seg0a ++ seg0b) W _ = _; rw [StableHlo.after_append]; exact (seg0b_keeps _ (by decide)).trans (seg0a_v21 W)
theorem seg0_v47 (W : Valuation τ sig (Elt F)) : after seg0 W (Proc.devRef .tc main_v47) = Read.val_main_v47 (F := F) (W (Proc.devRef .tc main_arg1)) := by
  show after (seg0a ++ seg0b) W _ = _; rw [StableHlo.after_append]; exact seg0b_v47 _ _ (seg0a_v43 W) (seg0a_v44 W) (seg0a_v45 W) (seg0a_v22 W) (seg0a_v27 W)
theorem seg0_v48 (W : Valuation τ sig (Elt F)) : after seg0 W (Proc.devRef .tc main_v48) = Read.val_main_v48 (F := F) := by
  show after (seg0a ++ seg0b) W _ = _; rw [StableHlo.after_append]; exact seg0b_v48 _

end Cert.ReferenceIdeal.RefRun

end
-- ==== Proof.RefTap1.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 69 to 80 of @main, in order. -/
abbrev tap1p1 : List (HloOp τ sig (Elt F)) :=
  [ unary main_v17 main_v49 ((extractStridedSlice S131072x1 ![0, 0] · slices_S131072x2_S131072x1_0_0) : (⟨S131072x2, .i32⟩ : BufTy).Contents (Elt F) → (⟨S131072x1, .i32⟩ : BufTy).Contents (Elt F)),
    reshape main_v49 main_v50 rfl shapeCasts_S131072x1_S131072,
    nullary main_c_13 (constantI S_ 32 4294967295#32),
    unary main_c_13 main_v51 (broadcastInDim S131072 ![] bcast_S_S131072 : (⟨S_, .i32⟩ : BufTy).Contents (Elt F) → (⟨S131072, .i32⟩ : BufTy).Contents (Elt F)),
    binary main_v50 main_v51 main_v52 (addi : (⟨S131072, .i32⟩ : BufTy).Contents (Elt F) → (⟨S131072, .i32⟩ : BufTy).Contents (Elt F) → (⟨S131072, .i32⟩ : BufTy).Contents (Elt F)),
    unary main_v17 main_v53 ((extractStridedSlice S131072x1 ![0, 1] · slices_S131072x2_S131072x1_0_1) : (⟨S131072x2, .i32⟩ : BufTy).Contents (Elt F) → (⟨S131072x1, .i32⟩ : BufTy).Contents (Elt F)),
    reshape main_v53 main_v54 rfl shapeCasts_S131072x1_S131072,
    nullary main_c_14 (constantI S_ 32 4294967295#32),
    unary main_c_14 main_v55 (broadcastInDim S131072 ![] bcast_S_S131072 : (⟨S_, .i32⟩ : BufTy).Contents (Elt F) → (⟨S131072, .i32⟩ : BufTy).Contents (Elt F)),
    binary main_v54 main_v55 main_v56 (addi : (⟨S131072, .i32⟩ : BufTy).Contents (Elt F) → (⟨S131072, .i32⟩ : BufTy).Contents (Elt F) → (⟨S131072, .i32⟩ : BufTy).Contents (Elt F)),
    nullary main_c_15 (constantI S_ 32 0#32),
    unary main_c_15 main_v57 (broadcastInDim S131072 ![] bcast_S_S131072 : (⟨S_, .i32⟩ : BufTy).Contents (Elt F) → (⟨S131072, .i32⟩ : BufTy).Contents (Elt F)) ]

/-- Each line touches TensorCore references only. -/
theorem tap1p1_sub : (tap1p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap1p1_fresh : (tap1p1 : List (HloOp τ sig (Elt F))).Forall fun op => op.fresh = ∅ := by
  simp only [List.Forall]; repeat' constructor

/-- The references the stretch writes: one per line, its result. -/
def tap1p1Res : List (Ref sig .tc) := [main_v49, main_v50, main_c_13, main_v51, main_v52, main_v53, main_v54, main_c_14, main_v55, main_v56, main_c_15, main_v57]

set_option maxHeartbeats 40000000 in
/-- Each line writes only its own result. -/
theorem tap1p1_writes : (tap1p1 : List (HloOp τ sig (Elt F))).Forall fun op => op.writes ⊆ ((tap1p1Res.map (Proc.devRef (τ := τ) .tc)).toFinset) := by
  simp only [tap1p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p1_keeps (W : Valuation τ sig (Elt F)) {b : Ref sig .tc} (hb : b ∉ tap1p1Res) :
    after tap1p1 W (Proc.devRef .tc b) = W (Proc.devRef .tc b) :=
  after_of_writes_sub tap1p1 W tap1p1_writes hb

set_option maxHeartbeats 40000000 in
/-- `main_v52` after the piece, from contents holding what it reads at stage values: its stage value. -/
theorem tap1p1_v52 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap1p1 W (Proc.devRef .tc main_v52) = Read.val_main_v52 (F := F) x1 := by
  ref_results
  rewrite [h_v17]
  rfl

set_option maxHeartbeats 40000000 in
/-- `main_v56` after the piece, from contents holding what it reads at stage values: its stage value. -/
theorem tap1p1_v56 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap1p1 W (Proc.devRef .tc main_v56) = Read.val_main_v56 (F := F) x1 := by
  ref_results
  rewrite [h_v17]
  rfl

set_option maxHeartbeats 40000000 in
/-- `main_v57` after the piece, from contents holding what it reads at stage values: its stage value. -/
theorem tap1p1_v57 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap1p1 W (Proc.devRef .tc main_v57) = Read.val_main_v57 (F := F) := by
  ref_results
  rfl

set_option maxHeartbeats 40000000 in
/-- Lines 81 to 92 of @main, in order. -/
abbrev tap1p2 : List (HloOp τ sig (Elt F)) :=
  [ binary main_v52 main_v57 main_v58 (cmpi .sge : (⟨S131072, .i32⟩ : BufTy).Contents (Elt F) → (⟨S131072, .i32⟩ : BufTy).Contents (Elt F) → (⟨S131072, .i1⟩ : BufTy).Contents (Elt F)),
    nullary main_c_16 (constantI S_ 32 256#32),
    unary main_c_16 main_v59 (broadcastInDim S131072 ![] bcast_S_S131072 : (⟨S_, .i32⟩ : BufTy).Contents (Elt F) → (⟨S131072, .i32⟩ : BufTy).Contents (Elt F)),
    binary main_v52 main_v59 main_v60 (cmpi .slt : (⟨S131072, .i32⟩ : BufTy).Contents (Elt F) → (⟨S131072, .i32⟩ : BufTy).Contents (Elt F) → (⟨S131072, .i1⟩ : BufTy).Contents (Elt F)),
    binary main_v58 main_v60 main_v61 (andi : (⟨S131072, .i1⟩ : BufTy).Contents (Elt F) → (⟨S131072, .i1⟩ : BufTy).Contents (Elt F) → (⟨S131072, .i1⟩ : BufTy).Contents (Elt F)),
    nullary main_c_17 (constantI S_ 32 0#32),
    unary main_c_17 main_v62 (broadcastInDim S131072 ![] bcast_S_S131072 : (⟨S_, .i32⟩ : BufTy).Contents (Elt F) → (⟨S131072, .i32⟩ : BufTy).Contents (Elt F)),
    binary main_v56 main_v62 main_v63 (cmpi .sge : (⟨S131072, .i32⟩ : BufTy).Contents (Elt F) → (⟨S131072, .i32⟩ : BufTy).Contents (Elt F) → (⟨S131072, .i1⟩ : BufTy).Contents (Elt F)),
    binary main_v61 main_v63 main_v64 (andi : (⟨S131072, .i1⟩ : BufTy).Contents (Elt F) → (⟨S131072, .i1⟩ : BufTy).Contents (Elt F) → (⟨S131072, .i1⟩ : BufTy).Contents (Elt F)),
    nullary main_c_18 (constantI S_ 32 256#32),
    unary main_c_18 main_v65 (broadcastInDim S131072 ![] bcast_S_S131072 : (⟨S_, .i32⟩ : BufTy).Contents (Elt F) → (⟨S131072, .i32⟩ : BufTy).Contents (Elt F)),
    binary main_v56 main_v65 main_v66 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap1p2_sub : (tap1p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap1p2_fresh : (tap1p2 : List (HloOp τ sig (Elt F))).Forall fun op => op.fresh = ∅ := by
  simp only [List.Forall]; repeat' constructor

/-- The references the stretch writes: one per line, its result. -/
def tap1p2Res : List (Ref sig .tc) := [main_v58, main_c_16, main_v59, main_v60, main_v61, main_c_17, main_v62, main_v63, main_v64, main_c_18, main_v65, main_v66]

set_option maxHeartbeats 40000000 in
/-- Each line writes only its own result. -/
theorem tap1p2_writes : (tap1p2 : List (HloOp τ sig (Elt F))).Forall fun op => op.writes ⊆ ((tap1p2Res.map (Proc.devRef (τ := τ) .tc)).toFinset) := by
  simp only [tap1p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p2_keeps (W : Valuation τ sig (Elt F)) {b : Ref sig .tc} (hb : b ∉ tap1p2Res) :
    after tap1p2 W (Proc.devRef .tc b) = W (Proc.devRef .tc b) :=
  after_of_writes_sub tap1p2 W tap1p2_writes hb

set_option maxHeartbeats 40000000 in
/-- `main_v64` after the piece, from contents holding what it reads at stage values: its stage value. -/
theorem tap1p2_v64 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v52 : W (Proc.devRef .tc main_v52) = Read.val_main_v52 (F := F) x1)
    (h_v56 : W (Proc.devRef .tc main_v56) = Read.val_main_v56 (F := F) x1)
    (h_v57 : W (Proc.devRef .tc main_v57) = Read.val_main_v57 (F := F)) :
    after tap1p2 W (Proc.devRef .tc main_v64) = Read.val_main_v64 (F := F) x1 := by
  ref_results
  rewrite [h_v52, h_v56, h_v57]
  rfl

set_option maxHeartbeats 40000000 in
/-- `main_v66` after the piece, from contents holding what it reads at stage values: its stage value. -/
theorem tap1p2_v66 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v56 : W (Proc.devRef .tc main_v56) = Read.val_main_v56 (F := F) x1) :
    after tap1p2 W (Proc.devRef .tc main_v66) = Read.val_main_v66 (F := F) x1 := by
  ref_results
  rewrite [h_v56]
  rfl

set_option maxHeartbeats 40000000 in
/-- Lines 93 to 104 of @main, in order. -/
abbrev tap1p3 : List (HloOp τ sig (Elt F)) :=
  [ binary main_v64 main_v66 main_v67 (andi : (⟨S131072, .i1⟩ : BufTy).Contents (Elt F) → (⟨S131072, .i1⟩ : BufTy).Contents (Elt F) → (⟨S131072, .i1⟩ : BufTy).Contents (Elt F)),
    nullary main_c_19 (constantI S_ 32 0#32),
    nullary main_c_20 (constantI S_ 32 255#32),
    unary main_c_19 main_call1_v0 (id : (⟨S_, .i32⟩ : BufTy).Contents (Elt F) → (⟨S_, .i32⟩ : BufTy).Contents (Elt F)),
    unary main_call1_v0 main_call1_v1 ((broadcastInDim S131072 ![] bcast_S_S131072) : (⟨S_, .i32⟩ : BufTy).Contents (Elt F) → (⟨S131072, .i32⟩ : BufTy).Contents (Elt F)),
    binary main_call1_v1 main_v52 main_call1_v2 (maxsi : (⟨S131072, .i32⟩ : BufTy).Contents (Elt F) → (⟨S131072, .i32⟩ : BufTy).Contents (Elt F) → (⟨S131072, .i32⟩ : BufTy).Contents (Elt F)),
    unary main_c_20 main_call1_v3 (id : (⟨S_, .i32⟩ : BufTy).Contents (Elt F) → (⟨S_, .i32⟩ : BufTy).Contents (Elt F)),
    unary main_call1_v3 main_call1_v4 ((broadcastInDim S131072 ![] bcast_S_S131072) : (⟨S_, .i32⟩ : BufTy).Contents (Elt F) → (⟨S131072, .i32⟩ : BufTy).Contents (Elt F)),
    binary main_call1_v4 main_call1_v2 main_v68 (minsi : (⟨S131072, .i32⟩ : BufTy).Contents (Elt F) → (⟨S131072, .i32⟩ : BufTy).Contents (Elt F) → (⟨S131072, .i32⟩ : BufTy).Contents (Elt F)),
    nullary main_c_21 (constantI S_ 32 0#32),
    nullary main_c_22 (constantI S_ 32 255#32),
    unary main_c_21 main_call2_v0 (id : (⟨S_, .i32⟩ : BufTy).Contents (Elt F) → (⟨S_, .i32⟩ : BufTy).Contents (Elt F)) ]

/-- Each line touches TensorCore references only. -/
theorem tap1p3_sub : (tap1p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap1p3_fresh : (tap1p3 : List (HloOp τ sig (Elt F))).Forall fun op => op.fresh = ∅ := by
  simp only [List.Forall]; repeat' constructor

/-- The references the stretch writes: one per line, its result. -/
def tap1p3Res : List (Ref sig .tc) := [main_v67, main_c_19, main_c_20, main_call1_v0, main_call1_v1, main_call1_v2, main_call1_v3, main_call1_v4, main_v68, main_c_21, main_c_22, main_call2_v0]

set_option maxHeartbeats 40000000 in
/-- Each line writes only its own result. -/
theorem tap1p3_writes : (tap1p3 : List (HloOp τ sig (Elt F))).Forall fun op => op.writes ⊆ ((tap1p3Res.map (Proc.devRef (τ := τ) .tc)).toFinset) := by
  simp only [tap1p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p3_keeps (W : Valuation τ sig (Elt F)) {b : Ref sig .tc} (hb : b ∉ tap1p3Res) :
    after tap1p3 W (Proc.devRef .tc b) = W (Proc.devRef .tc b) :=
  after_of_writes_sub tap1p3 W tap1p3_writes hb

set_option maxHeartbeats 40000000 in
/-- `main_v67` after the piece, from contents holding what it reads at stage values: its stage value. -/
theorem tap1p3_v67 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v64 : W (Proc.devRef .tc main_v64) = Read.val_main_v64 (F := F) x1)
    (h_v66 : W (Proc.devRef .tc main_v66) = Read.val_main_v66 (F := F) x1) :
    after tap1p3 W (Proc.devRef .tc main_v67) = Read.val_main_v67 (F := F) x1 := by
  ref_results
  rewrite [h_v64, h_v66]
  rfl

set_option maxHeartbeats 40000000 in
/-- `main_v68` after the piece, from contents holding what it reads at stage values: its stage value. -/
theorem tap1p3_v68 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v52 : W (Proc.devRef .tc main_v52) = Read.val_main_v52 (F := F) x1) :
    after tap1p3 W (Proc.devRef .tc main_v68) = Read.val_main_v68 (F := F) x1 := by
  ref_results
  rewrite [h_v52]
  rfl

set_option maxHeartbeats 40000000 in
/-- `main_c_22` after the piece, from contents holding what it reads at stage values: its stage value. -/
theorem tap1p3_c_22 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap1p3 W (Proc.devRef .tc main_c_22) = Read.val_main_c_22 (F := F) := by
  ref_results
  rfl

set_option maxHeartbeats 40000000 in
/-- `main_call2_v0` after the piece, from contents holding what it reads at stage values: its stage value. -/
theorem tap1p3_call2_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap1p3 W (Proc.devRef .tc main_call2_v0) = Read.val_main_call2_v0 (F := F) := by
  ref_results
  rfl

set_option maxHeartbeats 40000000 in
/-- Lines 105 to 116 of @main, in order. -/
abbrev tap1p4 : List (HloOp τ sig (Elt F)) :=
  [ unary main_call2_v0 main_call2_v1 ((broadcastInDim S131072 ![] bcast_S_S131072) : (⟨S_, .i32⟩ : BufTy).Contents (Elt F) → (⟨S131072, .i32⟩ : BufTy).Contents (Elt F)),
    binary main_call2_v1 main_v56 main_call2_v2 (maxsi : (⟨S131072, .i32⟩ : BufTy).Contents (Elt F) → (⟨S131072, .i32⟩ : BufTy).Contents (Elt F) → (⟨S131072, .i32⟩ : BufTy).Contents (Elt F)),
    unary main_c_22 main_call2_v3 (id : (⟨S_, .i32⟩ : BufTy).Contents (Elt F) → (⟨S_, .i32⟩ : BufTy).Contents (Elt F)),
    unary main_call2_v3 main_call2_v4 ((broadcastInDim S131072 ![] bcast_S_S131072) : (⟨S_, .i32⟩ : BufTy).Contents (Elt F) → (⟨S131072, .i32⟩ : BufTy).Contents (Elt F)),
    binary main_call2_v4 main_call2_v2 main_v69 (minsi : (⟨S131072, .i32⟩ : BufTy).Contents (Elt F) → (⟨S131072, .i32⟩ : BufTy).Contents (Elt F) → (⟨S131072, .i32⟩ : BufTy).Contents (Elt F)),
    nullary main_c_23 (constantI S_ 32 0#32),
    unary main_c_23 main_v70 (broadcastInDim S131072 ![] bcast_S_S131072 : (⟨S_, .i32⟩ : BufTy).Contents (Elt F) → (⟨S131072, .i32⟩ : BufTy).Contents (Elt F)),
    binary main_v20 main_v70 main_v71 (cmpi .slt : (⟨S131072, .i32⟩ : BufTy).Contents (Elt F) → (⟨S131072, .i32⟩ : BufTy).Contents (Elt F) → (⟨S131072, .i1⟩ : BufTy).Contents (Elt F)),
    nullary main_c_24 (constantI S_ 32 4#32),
    unary main_c_24 main_v72 (broadcastInDim S131072 ![] bcast_S_S131072 : (⟨S_, .i32⟩ : BufTy).Contents (Elt F) → (⟨S131072, .i32⟩ : BufTy).Contents (Elt F)),
    binary main_v20 main_v72 main_v73 (addi : (⟨S131072, .i32⟩ : BufTy).Contents (Elt F) → (⟨S131072, .i32⟩ : BufTy).Contents (Elt F) → (⟨S131072, .i32⟩ : BufTy).Contents (Elt F)),
    ternary main_v71 main_v73 main_v20 main_v74 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap1p4_sub : (tap1p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap1p4_fresh : (tap1p4 : List (HloOp τ sig (Elt F))).Forall fun op => op.fresh = ∅ := by
  simp only [List.Forall]; repeat' constructor

/-- The references the stretch writes: one per line, its result. -/
def tap1p4Res : List (Ref sig .tc) := [main_call2_v1, main_call2_v2, main_call2_v3, main_call2_v4, main_v69, main_c_23, main_v70, main_v71, main_c_24, main_v72, main_v73, main_v74]

set_option maxHeartbeats 40000000 in
/-- Each line writes only its own result. -/
theorem tap1p4_writes : (tap1p4 : List (HloOp τ sig (Elt F))).Forall fun op => op.writes ⊆ ((tap1p4Res.map (Proc.devRef (τ := τ) .tc)).toFinset) := by
  simp only [tap1p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p4_keeps (W : Valuation τ sig (Elt F)) {b : Ref sig .tc} (hb : b ∉ tap1p4Res) :
    after tap1p4 W (Proc.devRef .tc b) = W (Proc.devRef .tc b) :=
  after_of_writes_sub tap1p4 W tap1p4_writes hb

set_option maxHeartbeats 40000000 in
/-- `main_v69` after the piece, from contents holding what it reads at stage values: its stage value. -/
theorem tap1p4_v69 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_22 : W (Proc.devRef .tc main_c_22) = Read.val_main_c_22 (F := F))
    (h_call2_v0 : W (Proc.devRef .tc main_call2_v0) = Read.val_main_call2_v0 (F := F))
    (h_v56 : W (Proc.devRef .tc main_v56) = Read.val_main_v56 (F := F) x1) :
    after tap1p4 W (Proc.devRef .tc main_v69) = Read.val_main_v69 (F := F) x1 := by
  ref_results
  rewrite [h_c_22, h_call2_v0, h_v56]
  rfl

set_option maxHeartbeats 40000000 in
/-- `main_v74` after the piece, from contents holding what it reads at stage values: its stage value. -/
theorem tap1p4_v74 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap1p4 W (Proc.devRef .tc main_v74) = Read.val_main_v74 (F := F) := by
  ref_results
  rewrite [h_v20]
  rfl

set_option maxHeartbeats 40000000 in
/-- Lines 117 to 128 of @main, in order. -/
abbrev tap1p5 : List (HloOp τ sig (Elt F)) :=
  [ nullary main_c_25 (constantI S_ 32 0#32),
    unary main_c_25 main_v75 (broadcastInDim S131072 ![] bcast_S_S131072 : (⟨S_, .i32⟩ : BufTy).Contents (Elt F) → (⟨S131072, .i32⟩ : BufTy).Contents (Elt F)),
    binary main_v68 main_v75 main_v76 (cmpi .slt : (⟨S131072, .i32⟩ : BufTy).Contents (Elt F) → (⟨S131072, .i32⟩ : BufTy).Contents (Elt F) → (⟨S131072, .i1⟩ : BufTy).Contents (Elt F)),
    nullary main_c_26 (constantI S_ 32 256#32),
    unary main_c_26 main_v77 (broadcastInDim S131072 ![] bcast_S_S131072 : (⟨S_, .i32⟩ : BufTy).Contents (Elt F) → (⟨S131072, .i32⟩ : BufTy).Contents (Elt F)),
    binary main_v68 main_v77 main_v78 (addi : (⟨S131072, .i32⟩ : BufTy).Contents (Elt F) → (⟨S131072, .i32⟩ : BufTy).Contents (Elt F) → (⟨S131072, .i32⟩ : BufTy).Contents (Elt F)),
    ternary main_v76 main_v78 main_v68 main_v79 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_27 (constantI S_ 32 0#32),
    unary main_c_27 main_v80 (broadcastInDim S131072 ![] bcast_S_S131072 : (⟨S_, .i32⟩ : BufTy).Contents (Elt F) → (⟨S131072, .i32⟩ : BufTy).Contents (Elt F)),
    binary main_v69 main_v80 main_v81 (cmpi .slt : (⟨S131072, .i32⟩ : BufTy).Contents (Elt F) → (⟨S131072, .i32⟩ : BufTy).Contents (Elt F) → (⟨S131072, .i1⟩ : BufTy).Contents (Elt F)),
    nullary main_c_28 (constantI S_ 32 256#32),
    unary main_c_28 main_v82 (broadcastInDim S131072 ![] bcast_S_S131072 : (⟨S_, .i32⟩ : BufTy).Contents (Elt F) → (⟨S131072, .i32⟩ : BufTy).Contents (Elt F)) ]

/-- Each line touches TensorCore references only. -/
theorem tap1p5_sub : (tap1p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap1p5_fresh : (tap1p5 : List (HloOp τ sig (Elt F))).Forall fun op => op.fresh = ∅ := by
  simp only [List.Forall]; repeat' constructor

/-- The references the stretch writes: one per line, its result. -/
def tap1p5Res : List (Ref sig .tc) := [main_c_25, main_v75, main_v76, main_c_26, main_v77, main_v78, main_v79, main_c_27, main_v80, main_v81, main_c_28, main_v82]

set_option maxHeartbeats 40000000 in
/-- Each line writes only its own result. -/
theorem tap1p5_writes : (tap1p5 : List (HloOp τ sig (Elt F))).Forall fun op => op.writes ⊆ ((tap1p5Res.map (Proc.devRef (τ := τ) .tc)).toFinset) := by
  simp only [tap1p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p5_keeps (W : Valuation τ sig (Elt F)) {b : Ref sig .tc} (hb : b ∉ tap1p5Res) :
    after tap1p5 W (Proc.devRef .tc b) = W (Proc.devRef .tc b) :=
  after_of_writes_sub tap1p5 W tap1p5_writes hb

set_option maxHeartbeats 40000000 in
/-- `main_v79` after the piece, from contents holding what it reads at stage values: its stage value. -/
theorem tap1p5_v79 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v68 : W (Proc.devRef .tc main_v68) = Read.val_main_v68 (F := F) x1) :
    after tap1p5 W (Proc.devRef .tc main_v79) = Read.val_main_v79 (F := F) x1 := by
  ref_results
  rewrite [h_v68]
  rfl

set_option maxHeartbeats 40000000 in
/-- `main_v81` after the piece, from contents holding what it reads at stage values: its stage value. -/
theorem tap1p5_v81 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v69 : W (Proc.devRef .tc main_v69) = Read.val_main_v69 (F := F) x1) :
    after tap1p5 W (Proc.devRef .tc main_v81) = Read.val_main_v81 (F := F) x1 := by
  ref_results
  rewrite [h_v69]
  rfl

set_option maxHeartbeats 40000000 in
/-- `main_v82` after the piece, from contents holding what it reads at stage values: its stage value. -/
theorem tap1p5_v82 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap1p5 W (Proc.devRef .tc main_v82) = Read.val_main_v82 (F := F) := by
  ref_results
  rfl

set_option maxHeartbeats 40000000 in
/-- Lines 129 to 133 of @main, in order. -/
abbrev tap1p6 : List (HloOp τ sig (Elt F)) :=
  [ binary main_v69 main_v82 main_v83 (addi : (⟨S131072, .i32⟩ : BufTy).Contents (Elt F) → (⟨S131072, .i32⟩ : BufTy).Contents (Elt F) → (⟨S131072, .i32⟩ : BufTy).Contents (Elt F)),
    ternary main_v81 main_v83 main_v69 main_v84 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v74 main_v85 (broadcastInDim S131072x1 ![0] bcast_S131072_S131072x1_0 : (⟨S131072, .i32⟩ : BufTy).Contents (Elt F) → (⟨S131072x1, .i32⟩ : BufTy).Contents (Elt F)),
    unary main_v79 main_v86 (broadcastInDim S131072x1 ![0] bcast_S131072_S131072x1_0 : (⟨S131072, .i32⟩ : BufTy).Contents (Elt F) → (⟨S131072x1, .i32⟩ : BufTy).Contents (Elt F)),
    unary main_v84 main_v87 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap1p6_sub : (tap1p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap1p6_fresh : (tap1p6 : List (HloOp τ sig (Elt F))).Forall fun op => op.fresh = ∅ := by
  simp only [List.Forall]; repeat' constructor

/-- The references the stretch writes: one per line, its result. -/
def tap1p6Res : List (Ref sig .tc) := [main_v83, main_v84, main_v85, main_v86, main_v87]

set_option maxHeartbeats 40000000 in
/-- Each line writes only its own result. -/
theorem tap1p6_writes : (tap1p6 : List (HloOp τ sig (Elt F))).Forall fun op => op.writes ⊆ ((tap1p6Res.map (Proc.devRef (τ := τ) .tc)).toFinset) := by
  simp only [tap1p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p6_keeps (W : Valuation τ sig (Elt F)) {b : Ref sig .tc} (hb : b ∉ tap1p6Res) :
    after tap1p6 W (Proc.devRef .tc b) = W (Proc.devRef .tc b) :=
  after_of_writes_sub tap1p6 W tap1p6_writes hb

set_option maxHeartbeats 40000000 in
/-- `main_v85` after the piece, from contents holding what it reads at stage values: its stage value. -/
theorem tap1p6_v85 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v74 : W (Proc.devRef .tc main_v74) = Read.val_main_v74 (F := F)) :
    after tap1p6 W (Proc.devRef .tc main_v85) = Read.val_main_v85 (F := F) := by
  ref_results
  rewrite [h_v74]
  rfl

set_option maxHeartbeats 40000000 in
/-- `main_v86` after the piece, from contents holding what it reads at stage values: its stage value. -/
theorem tap1p6_v86 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v79 : W (Proc.devRef .tc main_v79) = Read.val_main_v79 (F := F) x1) :
    after tap1p6 W (Proc.devRef .tc main_v86) = Read.val_main_v86 (F := F) x1 := by
  ref_results
  rewrite [h_v79]
  rfl

set_option maxHeartbeats 40000000 in
/-- `main_v87` after the piece, from contents holding what it reads at stage values: its stage value. -/
theorem tap1p6_v87 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v69 : W (Proc.devRef .tc main_v69) = Read.val_main_v69 (F := F) x1)
    (h_v81 : W (Proc.devRef .tc main_v81) = Read.val_main_v81 (F := F) x1)
    (h_v82 : W (Proc.devRef .tc main_v82) = Read.val_main_v82 (F := F)) :
    after tap1p6 W (Proc.devRef .tc main_v87) = Read.val_main_v87 (F := F) x1 := by
  ref_results
  rewrite [h_v69, h_v81, h_v82]
  rfl

set_option maxHeartbeats 40000000 in
/-- Lines 134 to 145 of @main, in order. -/
abbrev tap1p7 : List (HloOp τ sig (Elt F)) :=
  [ nary ![main_v85, main_v86, main_v87] main_v88 (fun u => concatenate S131072x3 1 [⟨S131072x1, u 0⟩, ⟨S131072x1, u 1⟩, ⟨S131072x1, u 2⟩] concatenates_S131072x1_S131072x1_S131072x1_S131072x3_d1),
    binary main_v47 main_v88 main_v89 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_29 (constantI S_ 32 0#32),
    unary main_c_29 main_v90 (broadcastInDim S131072 ![] bcast_S_S131072 : (⟨S_, .i32⟩ : BufTy).Contents (Elt F) → (⟨S131072, .i32⟩ : BufTy).Contents (Elt F)),
    binary main_v89 main_v90 main_v91 (cmpi .sge : (⟨S131072, .i32⟩ : BufTy).Contents (Elt F) → (⟨S131072, .i32⟩ : BufTy).Contents (Elt F) → (⟨S131072, .i1⟩ : BufTy).Contents (Elt F)),
    binary main_v67 main_v91 main_v92 (andi : (⟨S131072, .i1⟩ : BufTy).Contents (Elt F) → (⟨S131072, .i1⟩ : BufTy).Contents (Elt F) → (⟨S131072, .i1⟩ : BufTy).Contents (Elt F)),
    unary main_v92 main_v93 (broadcastInDim S131072x1 ![0] bcast_S131072_S131072x1_0 : (⟨S131072, .i1⟩ : BufTy).Contents (Elt F) → (⟨S131072x1, .i1⟩ : BufTy).Contents (Elt F)),
    nullary main_c_30 (constantI S_ 32 0#32),
    unary main_c_30 main_v94 (broadcastInDim S131072 ![] bcast_S_S131072 : (⟨S_, .i32⟩ : BufTy).Contents (Elt F) → (⟨S131072, .i32⟩ : BufTy).Contents (Elt F)),
    binary main_v89 main_v94 main_v95 (maxsi : (⟨S131072, .i32⟩ : BufTy).Contents (Elt F) → (⟨S131072, .i32⟩ : BufTy).Contents (Elt F) → (⟨S131072, .i32⟩ : BufTy).Contents (Elt F)),
    nullary main_c_31 (constantI S_ 32 0#32),
    unary main_c_31 main_v96 (broadcastInDim S131072 ![] bcast_S_S131072 : (⟨S_, .i32⟩ : BufTy).Contents (Elt F) → (⟨S131072, .i32⟩ : BufTy).Contents (Elt F)) ]

/-- Each line touches TensorCore references only. -/
theorem tap1p7_sub : (tap1p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap1p7_fresh : (tap1p7 : List (HloOp τ sig (Elt F))).Forall fun op => op.fresh = ∅ := by
  simp only [List.Forall]; repeat' constructor

/-- The references the stretch writes: one per line, its result. -/
def tap1p7Res : List (Ref sig .tc) := [main_v88, main_v89, main_c_29, main_v90, main_v91, main_v92, main_v93, main_c_30, main_v94, main_v95, main_c_31, main_v96]

set_option maxHeartbeats 40000000 in
/-- Each line writes only its own result. -/
theorem tap1p7_writes : (tap1p7 : List (HloOp τ sig (Elt F))).Forall fun op => op.writes ⊆ ((tap1p7Res.map (Proc.devRef (τ := τ) .tc)).toFinset) := by
  simp only [tap1p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p7_keeps (W : Valuation τ sig (Elt F)) {b : Ref sig .tc} (hb : b ∉ tap1p7Res) :
    after tap1p7 W (Proc.devRef .tc b) = W (Proc.devRef .tc b) :=
  after_of_writes_sub tap1p7 W tap1p7_writes hb

set_option maxHeartbeats 40000000 in
/-- `main_v93` after the piece, from contents holding what it reads at stage values: its stage value. -/
theorem tap1p7_v93 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v47 : W (Proc.devRef .tc main_v47) = Read.val_main_v47 (F := F) x1)
    (h_v67 : W (Proc.devRef .tc main_v67) = Read.val_main_v67 (F := F) x1)
    (h_v85 : W (Proc.devRef .tc main_v85) = Read.val_main_v85 (F := F))
    (h_v86 : W (Proc.devRef .tc main_v86) = Read.val_main_v86 (F := F) x1)
    (h_v87 : W (Proc.devRef .tc main_v87) = Read.val_main_v87 (F := F) x1) :
    after tap1p7 W (Proc.devRef .tc main_v93) = Read.val_main_v93 (F := F) x1 := by
  ref_results_v
  rewrite [h_v47, h_v67, h_v85, h_v86, h_v87]
  rfl

set_option maxHeartbeats 40000000 in
/-- `main_v95` after the piece, from contents holding what it reads at stage values: its stage value. -/
theorem tap1p7_v95 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v47 : W (Proc.devRef .tc main_v47) = Read.val_main_v47 (F := F) x1)
    (h_v85 : W (Proc.devRef .tc main_v85) = Read.val_main_v85 (F := F))
    (h_v86 : W (Proc.devRef .tc main_v86) = Read.val_main_v86 (F := F) x1)
    (h_v87 : W (Proc.devRef .tc main_v87) = Read.val_main_v87 (F := F) x1) :
    after tap1p7 W (Proc.devRef .tc main_v95) = Read.val_main_v95 (F := F) x1 := by
  ref_results_v
  rewrite [h_v47, h_v85, h_v86, h_v87]
  rfl

set_option maxHeartbeats 40000000 in
/-- `main_v96` after the piece, from contents holding what it reads at stage values: its stage value. -/
theorem tap1p7_v96 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap1p7 W (Proc.devRef .tc main_v96) = Read.val_main_v96 (F := F) := by
  ref_results_v
  rfl

set_option maxHeartbeats 40000000 in
/-- Lines 146 to 157 of @main, in order. -/
abbrev tap1p8 : List (HloOp τ sig (Elt F)) :=
  [ binary main_v95 main_v96 main_v97 (cmpi .slt : (⟨S131072, .i32⟩ : BufTy).Contents (Elt F) → (⟨S131072, .i32⟩ : BufTy).Contents (Elt F) → (⟨S131072, .i1⟩ : BufTy).Contents (Elt F)),
    nullary main_c_32 (constantI S_ 32 131072#32),
    unary main_c_32 main_v98 (broadcastInDim S131072 ![] bcast_S_S131072 : (⟨S_, .i32⟩ : BufTy).Contents (Elt F) → (⟨S131072, .i32⟩ : BufTy).Contents (Elt F)),
    binary main_v95 main_v98 main_v99 (addi : (⟨S131072, .i32⟩ : BufTy).Contents (Elt F) → (⟨S131072, .i32⟩ : BufTy).Contents (Elt F) → (⟨S131072, .i32⟩ : BufTy).Contents (Elt F)),
    ternary main_v97 main_v99 main_v95 main_v100 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v100 main_v101 (broadcastInDim S131072x1 ![0] bcast_S131072_S131072x1_0 : (⟨S131072, .i32⟩ : BufTy).Contents (Elt F) → (⟨S131072x1, .i32⟩ : BufTy).Contents (Elt F)),
    binary main_v21 main_v101 main_v102 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_33 (constant S_ .f32 0x00000000#32),
    unary main_cst_33 main_call3_v0 (id : (⟨S_, .f32⟩ : BufTy).Contents (Elt F) → (⟨S_, .f32⟩ : BufTy).Contents (Elt F)),
    unary main_v93 main_call3_v1 ((broadcastInDim S131072x64 ![0, 1] bcast_S131072x1_S131072x64_0_1) : (⟨S131072x1, .i1⟩ : BufTy).Contents (Elt F) → (⟨S131072x64, .i1⟩ : BufTy).Contents (Elt F)),
    unary main_call3_v0 main_call3_v2 ((broadcastInDim S131072x64 ![] bcast_S_S131072x64) : (⟨S_, .f32⟩ : BufTy).Contents (Elt F) → (⟨S131072x64, .f32⟩ : BufTy).Contents (Elt F)),
    ternary main_call3_v1 main_v102 main_call3_v2 main_v103 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap1p8_sub : (tap1p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap1p8_fresh : (tap1p8 : List (HloOp τ sig (Elt F))).Forall fun op => op.fresh = ∅ := by
  simp only [List.Forall]; repeat' constructor

/-- The references the stretch writes: one per line, its result. -/
def tap1p8Res : List (Ref sig .tc) := [main_v97, main_c_32, main_v98, main_v99, main_v100, main_v101, main_v102, main_cst_33, main_call3_v0, main_call3_v1, main_call3_v2, main_v103]

set_option maxHeartbeats 40000000 in
/-- Each line writes only its own result. -/
theorem tap1p8_writes : (tap1p8 : List (HloOp τ sig (Elt F))).Forall fun op => op.writes ⊆ ((tap1p8Res.map (Proc.devRef (τ := τ) .tc)).toFinset) := by
  simp only [tap1p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p8_keeps (W : Valuation τ sig (Elt F)) {b : Ref sig .tc} (hb : b ∉ tap1p8Res) :
    after tap1p8 W (Proc.devRef .tc b) = W (Proc.devRef .tc b) :=
  after_of_writes_sub tap1p8 W tap1p8_writes hb

set_option maxHeartbeats 40000000 in
/-- `main_v103` after the piece, from contents holding what it reads at stage values: its stage value. -/
theorem tap1p8_v103 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v93 : W (Proc.devRef .tc main_v93) = Read.val_main_v93 (F := F) x1)
    (h_v95 : W (Proc.devRef .tc main_v95) = Read.val_main_v95 (F := F) x1)
    (h_v96 : W (Proc.devRef .tc main_v96) = Read.val_main_v96 (F := F)) :
    after tap1p8 W (Proc.devRef .tc main_v103) = Read.val_main_v103 (F := F) x0 x1 := by
  ref_results
  rewrite [h_v21, h_v93, h_v95, h_v96]
  rfl

set_option maxHeartbeats 40000000 in
/-- Lines 158 to 161 of @main, in order. -/
abbrev tap1p9 : List (HloOp τ sig (Elt F)) :=
  [ unary main_arg2 main_v104 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F)),
    reshape main_v104 main_v105 rfl shapeCasts_S1x1x64x64_S64x64,
    binary main_v103 main_v105 main_v106 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v48 main_v106 main_v107 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap1p9_sub : (tap1p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap1p9_fresh : (tap1p9 : List (HloOp τ sig (Elt F))).Forall fun op => op.fresh = ∅ := by
  simp only [List.Forall]; repeat' constructor

/-- The references the stretch writes: one per line, its result. -/
def tap1p9Res : List (Ref sig .tc) := [main_v104, main_v105, main_v106, main_v107]

set_option maxHeartbeats 40000000 in
/-- Each line writes only its own result. -/
theorem tap1p9_writes : (tap1p9 : List (HloOp τ sig (Elt F))).Forall fun op => op.writes ⊆ ((tap1p9Res.map (Proc.devRef (τ := τ) .tc)).toFinset) := by
  simp only [tap1p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap1p9_keeps (W : Valuation τ sig (Elt F)) {b : Ref sig .tc} (hb : b ∉ tap1p9Res) :
    after tap1p9 W (Proc.devRef .tc b) = W (Proc.devRef .tc b) :=
  after_of_writes_sub tap1p9 W tap1p9_writes hb

set_option maxHeartbeats 40000000 in
/-- `main_v107` after the piece, from contents holding what it reads at stage values: its stage value. -/
theorem tap1p9_v107 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v103 : W (Proc.devRef .tc main_v103) = Read.val_main_v103 (F := F) x0 x1)
    (h_v48 : W (Proc.devRef .tc main_v48) = Read.val_main_v48 (F := F)) :
    after tap1p9 W (Proc.devRef .tc main_v107) = Read.val_main_v107 (F := F) x0 x1 x2 := by
  ref_results
  rewrite [h_arg2, h_v103, h_v48]
  rfl

/-- The whole tap: its pieces one after the other. -/
def tap1 : List (HloOp τ sig (Elt F)) := tap1p1 ++ tap1p2 ++ tap1p3 ++ tap1p4 ++ tap1p5 ++ tap1p6 ++ tap1p7 ++ tap1p8 ++ tap1p9

theorem tap1_sub : (tap1 : List (HloOp τ sig (Elt F))).Forall fun op => op.bufs ⊆ tcRefs τ sig :=
  forall_append (forall_append (forall_append (forall_append (forall_append (forall_append (forall_append (forall_append (tap1p1_sub) tap1p2_sub) tap1p3_sub) tap1p4_sub) tap1p5_sub) tap1p6_sub) tap1p7_sub) tap1p8_sub) tap1p9_sub
theorem tap1_fresh : (tap1 : List (HloOp τ sig (Elt F))).Forall fun op => op.fresh = ∅ :=
  forall_append (forall_append (forall_append (forall_append (forall_append (forall_append (forall_append (forall_append (tap1p1_fresh) tap1p2_fresh) tap1p3_fresh) tap1p4_fresh) tap1p5_fresh) tap1p6_fresh) tap1p7_fresh) tap1p8_fresh) tap1p9_fresh

/-- The references the whole tap writes. -/
def tap1Res : List (Ref sig .tc) := tap1p1Res ++ tap1p2Res ++ tap1p3Res ++ tap1p4Res ++ tap1p5Res ++ tap1p6Res ++ tap1p7Res ++ tap1p8Res ++ tap1p9Res

/-- A reference the tap does not write keeps its contents. -/
theorem tap1_keeps (W : Valuation τ sig (Elt F)) {b : Ref sig .tc} (hb : b ∉ tap1Res) :
    after tap1 W (Proc.devRef .tc b) = W (Proc.devRef .tc b) := by
  have hb' : b ∉ tap1p1Res ∧ b ∉ tap1p2Res ∧ b ∉ tap1p3Res ∧ b ∉ tap1p4Res ∧ b ∉ tap1p5Res ∧ b ∉ tap1p6Res ∧ b ∉ tap1p7Res ∧ b ∉ tap1p8Res ∧ b ∉ tap1p9Res := by
    simpa only [tap1Res, List.mem_append, not_or, and_assoc] using hb
  simp only [tap1, StableHlo.after_append]
  rw [tap1p9_keeps _ hb'.2.2.2.2.2.2.2.2, tap1p8_keeps _ hb'.2.2.2.2.2.2.2.1, tap1p7_keeps _ hb'.2.2.2.2.2.2.1, tap1p6_keeps _ hb'.2.2.2.2.2.1, tap1p5_keeps _ hb'.2.2.2.2.1, tap1p4_keeps _ hb'.2.2.2.1, tap1p3_keeps _ hb'.2.2.1, tap1p2_keeps _ hb'.2.1, tap1p1_keeps _ hb'.1]

/-- The accumulator after the whole tap, from contents holding the index arrays, the rulebook grid, the features, the
    weights and the previous accumulator at their stage values: its stage value. -/
theorem tap1_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v48) = Read.val_main_v48 (F := F)) :
    after tap1 W (Proc.devRef .tc main_v107) = Read.val_main_v107 (F := F) x0 x1 x2 := by
  simp only [tap1, StableHlo.after_append]
  have f1_v52 := tap1p1_v52 (W) x0 x1 x2 h17
  have f1_v57 := tap1p1_v57 (W) x0 x1 x2
  have f1_v56 := tap1p1_v56 (W) x0 x1 x2 h17
  have f1_v20 := (tap1p1_keeps (W) (b := main_v20) (by decide)).trans h20
  have f1_v47 := (tap1p1_keeps (W) (b := main_v47) (by decide)).trans h47
  have f1_v21 := (tap1p1_keeps (W) (b := main_v21) (by decide)).trans h21
  have f1_arg2 := (tap1p1_keeps (W) (b := main_arg2) (by decide)).trans h2
  have f1_v48 := (tap1p1_keeps (W) (b := main_v48) (by decide)).trans hacc
  have f2_v64 := tap1p2_v64 (after tap1p1 (W)) x0 x1 x2 f1_v52 f1_v56 f1_v57
  have f2_v66 := tap1p2_v66 (after tap1p1 (W)) x0 x1 x2 f1_v56
  have f2_v52 := (tap1p2_keeps (after tap1p1 (W)) (b := main_v52) (by decide)).trans f1_v52
  have f2_v56 := (tap1p2_keeps (after tap1p1 (W)) (b := main_v56) (by decide)).trans f1_v56
  have f2_v20 := (tap1p2_keeps (after tap1p1 (W)) (b := main_v20) (by decide)).trans f1_v20
  have f2_v47 := (tap1p2_keeps (after tap1p1 (W)) (b := main_v47) (by decide)).trans f1_v47
  have f2_v21 := (tap1p2_keeps (after tap1p1 (W)) (b := main_v21) (by decide)).trans f1_v21
  have f2_arg2 := (tap1p2_keeps (after tap1p1 (W)) (b := main_arg2) (by decide)).trans f1_arg2
  have f2_v48 := (tap1p2_keeps (after tap1p1 (W)) (b := main_v48) (by decide)).trans f1_v48
  have f3_call2_v0 := tap1p3_call2_v0 (after tap1p2 (after tap1p1 (W))) x0 x1 x2
  have f3_v56 := (tap1p3_keeps (after tap1p2 (after tap1p1 (W))) (b := main_v56) (by decide)).trans f2_v56
  have f3_c_22 := tap1p3_c_22 (after tap1p2 (after tap1p1 (W))) x0 x1 x2
  have f3_v20 := (tap1p3_keeps (after tap1p2 (after tap1p1 (W))) (b := main_v20) (by decide)).trans f2_v20
  have f3_v68 := tap1p3_v68 (after tap1p2 (after tap1p1 (W))) x0 x1 x2 f2_v52
  have f3_v47 := (tap1p3_keeps (after tap1p2 (after tap1p1 (W))) (b := main_v47) (by decide)).trans f2_v47
  have f3_v67 := tap1p3_v67 (after tap1p2 (after tap1p1 (W))) x0 x1 x2 f2_v64 f2_v66
  have f3_v21 := (tap1p3_keeps (after tap1p2 (after tap1p1 (W))) (b := main_v21) (by decide)).trans f2_v21
  have f3_arg2 := (tap1p3_keeps (after tap1p2 (after tap1p1 (W))) (b := main_arg2) (by decide)).trans f2_arg2
  have f3_v48 := (tap1p3_keeps (after tap1p2 (after tap1p1 (W))) (b := main_v48) (by decide)).trans f2_v48
  have f4_v68 := (tap1p4_keeps (after tap1p3 (after tap1p2 (after tap1p1 (W)))) (b := main_v68) (by decide)).trans f3_v68
  have f4_v69 := tap1p4_v69 (after tap1p3 (after tap1p2 (after tap1p1 (W)))) x0 x1 x2 f3_c_22 f3_call2_v0 f3_v56
  have f4_v74 := tap1p4_v74 (after tap1p3 (after tap1p2 (after tap1p1 (W)))) x0 x1 x2 f3_v20
  have f4_v47 := (tap1p4_keeps (after tap1p3 (after tap1p2 (after tap1p1 (W)))) (b := main_v47) (by decide)).trans f3_v47
  have f4_v67 := (tap1p4_keeps (after tap1p3 (after tap1p2 (after tap1p1 (W)))) (b := main_v67) (by decide)).trans f3_v67
  have f4_v21 := (tap1p4_keeps (after tap1p3 (after tap1p2 (after tap1p1 (W)))) (b := main_v21) (by decide)).trans f3_v21
  have f4_arg2 := (tap1p4_keeps (after tap1p3 (after tap1p2 (after tap1p1 (W)))) (b := main_arg2) (by decide)).trans f3_arg2
  have f4_v48 := (tap1p4_keeps (after tap1p3 (after tap1p2 (after tap1p1 (W)))) (b := main_v48) (by decide)).trans f3_v48
  have f5_v69 := (tap1p5_keeps (after tap1p4 (after tap1p3 (after tap1p2 (after tap1p1 (W))))) (b := main_v69) (by decide)).trans f4_v69
  have f5_v82 := tap1p5_v82 (after tap1p4 (after tap1p3 (after tap1p2 (after tap1p1 (W))))) x0 x1 x2
  have f5_v81 := tap1p5_v81 (after tap1p4 (after tap1p3 (after tap1p2 (after tap1p1 (W))))) x0 x1 x2 f4_v69
  have f5_v74 := (tap1p5_keeps (after tap1p4 (after tap1p3 (after tap1p2 (after tap1p1 (W))))) (b := main_v74) (by decide)).trans f4_v74
  have f5_v79 := tap1p5_v79 (after tap1p4 (after tap1p3 (after tap1p2 (after tap1p1 (W))))) x0 x1 x2 f4_v68
  have f5_v47 := (tap1p5_keeps (after tap1p4 (after tap1p3 (after tap1p2 (after tap1p1 (W))))) (b := main_v47) (by decide)).trans f4_v47
  have f5_v67 := (tap1p5_keeps (after tap1p4 (after tap1p3 (after tap1p2 (after tap1p1 (W))))) (b := main_v67) (by decide)).trans f4_v67
  have f5_v21 := (tap1p5_keeps (after tap1p4 (after tap1p3 (after tap1p2 (after tap1p1 (W))))) (b := main_v21) (by decide)).trans f4_v21
  have f5_arg2 := (tap1p5_keeps (after tap1p4 (after tap1p3 (after tap1p2 (after tap1p1 (W))))) (b := main_arg2) (by decide)).trans f4_arg2
  have f5_v48 := (tap1p5_keeps (after tap1p4 (after tap1p3 (after tap1p2 (after tap1p1 (W))))) (b := main_v48) (by decide)).trans f4_v48
  have f6_v85 := tap1p6_v85 (after tap1p5 (after tap1p4 (after tap1p3 (after tap1p2 (after tap1p1 (W)))))) x0 x1 x2 f5_v74
  have f6_v86 := tap1p6_v86 (after tap1p5 (after tap1p4 (after tap1p3 (after tap1p2 (after tap1p1 (W)))))) x0 x1 x2 f5_v79
  have f6_v87 := tap1p6_v87 (after tap1p5 (after tap1p4 (after tap1p3 (after tap1p2 (after tap1p1 (W)))))) x0 x1 x2 f5_v69 f5_v81 f5_v82
  have f6_v47 := (tap1p6_keeps (after tap1p5 (after tap1p4 (after tap1p3 (after tap1p2 (after tap1p1 (W)))))) (b := main_v47) (by decide)).trans f5_v47
  have f6_v67 := (tap1p6_keeps (after tap1p5 (after tap1p4 (after tap1p3 (after tap1p2 (after tap1p1 (W)))))) (b := main_v67) (by decide)).trans f5_v67
  have f6_v21 := (tap1p6_keeps (after tap1p5 (after tap1p4 (after tap1p3 (after tap1p2 (after tap1p1 (W)))))) (b := main_v21) (by decide)).trans f5_v21
  have f6_arg2 := (tap1p6_keeps (after tap1p5 (after tap1p4 (after tap1p3 (after tap1p2 (after tap1p1 (W)))))) (b := main_arg2) (by decide)).trans f5_arg2
  have f6_v48 := (tap1p6_keeps (after tap1p5 (after tap1p4 (after tap1p3 (after tap1p2 (after tap1p1 (W)))))) (b := main_v48) (by decide)).trans f5_v48
  have f7_v95 := tap1p7_v95 (after tap1p6 (after tap1p5 (after tap1p4 (after tap1p3 (after tap1p2 (after tap1p1 (W))))))) x0 x1 x2 f6_v47 f6_v85 f6_v86 f6_v87
  have f7_v96 := tap1p7_v96 (after tap1p6 (after tap1p5 (after tap1p4 (after tap1p3 (after tap1p2 (after tap1p1 (W))))))) x0 x1 x2
  have f7_v21 := (tap1p7_keeps (after tap1p6 (after tap1p5 (after tap1p4 (after tap1p3 (after tap1p2 (after tap1p1 (W))))))) (b := main_v21) (by decide)).trans f6_v21
  have f7_v93 := tap1p7_v93 (after tap1p6 (after tap1p5 (after tap1p4 (after tap1p3 (after tap1p2 (after tap1p1 (W))))))) x0 x1 x2 f6_v47 f6_v67 f6_v85 f6_v86 f6_v87
  have f7_arg2 := (tap1p7_keeps (after tap1p6 (after tap1p5 (after tap1p4 (after tap1p3 (after tap1p2 (after tap1p1 (W))))))) (b := main_arg2) (by decide)).trans f6_arg2
  have f7_v48 := (tap1p7_keeps (after tap1p6 (after tap1p5 (after tap1p4 (after tap1p3 (after tap1p2 (after tap1p1 (W))))))) (b := main_v48) (by decide)).trans f6_v48
  have f8_arg2 := (tap1p8_keeps (after tap1p7 (after tap1p6 (after tap1p5 (after tap1p4 (after tap1p3 (after tap1p2 (after tap1p1 (W)))))))) (b := main_arg2) (by decide)).trans f7_arg2
  have f8_v103 := tap1p8_v103 (after tap1p7 (after tap1p6 (after tap1p5 (after tap1p4 (after tap1p3 (after tap1p2 (after tap1p1 (W)))))))) x0 x1 x2 f7_v21 f7_v93 f7_v95 f7_v96
  have f8_v48 := (tap1p8_keeps (after tap1p7 (after tap1p6 (after tap1p5 (after tap1p4 (after tap1p3 (after tap1p2 (after tap1p1 (W)))))))) (b := main_v48) (by decide)).trans f7_v48
  have f9_v107 := tap1p9_v107 (after tap1p8 (after tap1p7 (after tap1p6 (after tap1p5 (after tap1p4 (after tap1p3 (after tap1p2 (after tap1p1 (W))))))))) x0 x1 x2 f8_arg2 f8_v103 f8_v48
  exact f9_v107

end Cert.ReferenceIdeal.RefRun

end
-- ==== Proof.RefTap2.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 162 to 173 of @main, in order. -/
abbrev tap2p1 : List (HloOp τ sig (Elt F)) :=
  [ unary main_v17 main_v108 ((extractStridedSlice S131072x1 ![0, 0] · slices_S131072x2_S131072x1_0_0) : (⟨S131072x2, .i32⟩ : BufTy).Contents (Elt F) → (⟨S131072x1, .i32⟩ : BufTy).Contents (Elt F)),
    reshape main_v108 main_v109 rfl shapeCasts_S131072x1_S131072,
    nullary main_c_34 (constantI S_ 32 4294967295#32),
    unary main_c_34 main_v110 (broadcastInDim S131072 ![] bcast_S_S131072 : (⟨S_, .i32⟩ : BufTy).Contents (Elt F) → (⟨S131072, .i32⟩ : BufTy).Contents (Elt F)),
    binary main_v109 main_v110 main_v111 (addi : (⟨S131072, .i32⟩ : BufTy).Contents (Elt F) → (⟨S131072, .i32⟩ : BufTy).Contents (Elt F) → (⟨S131072, .i32⟩ : BufTy).Contents (Elt F)),
    unary main_v17 main_v112 ((extractStridedSlice S131072x1 ![0, 1] · slices_S131072x2_S131072x1_0_1) : (⟨S131072x2, .i32⟩ : BufTy).Contents (Elt F) → (⟨S131072x1, .i32⟩ : BufTy).Contents (Elt F)),
    reshape main_v112 main_v113 rfl shapeCasts_S131072x1_S131072,
    nullary main_c_35 (constantI S_ 32 0#32),
    unary main_c_35 main_v114 (broadcastInDim S131072 ![] bcast_S_S131072 : (⟨S_, .i32⟩ : BufTy).Contents (Elt F) → (⟨S131072, .i32⟩ : BufTy).Contents (Elt F)),
    binary main_v113 main_v114 main_v115 (addi : (⟨S131072, .i32⟩ : BufTy).Contents (Elt F) → (⟨S131072, .i32⟩ : BufTy).Contents (Elt F) → (⟨S131072, .i32⟩ : BufTy).Contents (Elt F)),
    nullary main_c_36 (constantI S_ 32 0#32),
    unary main_c_36 main_v116 (broadcastInDim S131072 ![] bcast_S_S131072 : (⟨S_, .i32⟩ : BufTy).Contents (Elt F) → (⟨S131072, .i32⟩ : BufTy).Contents (Elt F)) ]

/-- Each line touches TensorCore references only. -/
theorem tap2p1_sub : (tap2p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap2p1_fresh : (tap2p1 : List (HloOp τ sig (Elt F))).Forall fun op => op.fresh = ∅ := by
  simp only [List.Forall]; repeat' constructor

/-- The references the stretch writes: one per line, its result. -/
def tap2p1Res : List (Ref sig .tc) := [main_v108, main_v109, main_c_34, main_v110, main_v111, main_v112, main_v113, main_c_35, main_v114, main_v115, main_c_36, main_v116]

set_option maxHeartbeats 40000000 in
/-- Each line writes only its own result. -/
theorem tap2p1_writes : (tap2p1 : List (HloOp τ sig (Elt F))).Forall fun op => op.writes ⊆ ((tap2p1Res.map (Proc.devRef (τ := τ) .tc)).toFinset) := by
  simp only [tap2p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p1_keeps (W : Valuation τ sig (Elt F)) {b : Ref sig .tc} (hb : b ∉ tap2p1Res) :
    after tap2p1 W (Proc.devRef .tc b) = W (Proc.devRef .tc b) :=
  after_of_writes_sub tap2p1 W tap2p1_writes hb

set_option maxHeartbeats 40000000 in
/-- `main_v111` after the piece, from contents holding what it reads at stage values: its stage value. -/
theorem tap2p1_v111 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap2p1 W (Proc.devRef .tc main_v111) = Read.val_main_v111 (F := F) x1 := by
  ref_results
  rewrite [h_v17]
  rfl

set_option maxHeartbeats 40000000 in
/-- `main_v115` after the piece, from contents holding what it reads at stage values: its stage value. -/
theorem tap2p1_v115 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap2p1 W (Proc.devRef .tc main_v115) = Read.val_main_v115 (F := F) x1 := by
  ref_results
  rewrite [h_v17]
  rfl

set_option maxHeartbeats 40000000 in
/-- `main_v116` after the piece, from contents holding what it reads at stage values: its stage value. -/
theorem tap2p1_v116 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap2p1 W (Proc.devRef .tc main_v116) = Read.val_main_v116 (F := F) := by
  ref_results
  rfl

set_option maxHeartbeats 40000000 in
/-- Lines 174 to 185 of @main, in order. -/
abbrev tap2p2 : List (HloOp τ sig (Elt F)) :=
  [ binary main_v111 main_v116 main_v117 (cmpi .sge : (⟨S131072, .i32⟩ : BufTy).Contents (Elt F) → (⟨S131072, .i32⟩ : BufTy).Contents (Elt F) → (⟨S131072, .i1⟩ : BufTy).Contents (Elt F)),
    nullary main_c_37 (constantI S_ 32 256#32),
    unary main_c_37 main_v118 (broadcastInDim S131072 ![] bcast_S_S131072 : (⟨S_, .i32⟩ : BufTy).Contents (Elt F) → (⟨S131072, .i32⟩ : BufTy).Contents (Elt F)),
    binary main_v111 main_v118 main_v119 (cmpi .slt : (⟨S131072, .i32⟩ : BufTy).Contents (Elt F) → (⟨S131072, .i32⟩ : BufTy).Contents (Elt F) → (⟨S131072, .i1⟩ : BufTy).Contents (Elt F)),
    binary main_v117 main_v119 main_v120 (andi : (⟨S131072, .i1⟩ : BufTy).Contents (Elt F) → (⟨S131072, .i1⟩ : BufTy).Contents (Elt F) → (⟨S131072, .i1⟩ : BufTy).Contents (Elt F)),
    nullary main_c_38 (constantI S_ 32 0#32),
    unary main_c_38 main_v121 (broadcastInDim S131072 ![] bcast_S_S131072 : (⟨S_, .i32⟩ : BufTy).Contents (Elt F) → (⟨S131072, .i32⟩ : BufTy).Contents (Elt F)),
    binary main_v115 main_v121 main_v122 (cmpi .sge : (⟨S131072, .i32⟩ : BufTy).Contents (Elt F) → (⟨S131072, .i32⟩ : BufTy).Contents (Elt F) → (⟨S131072, .i1⟩ : BufTy).Contents (Elt F)),
    binary main_v120 main_v122 main_v123 (andi : (⟨S131072, .i1⟩ : BufTy).Contents (Elt F) → (⟨S131072, .i1⟩ : BufTy).Contents (Elt F) → (⟨S131072, .i1⟩ : BufTy).Contents (Elt F)),
    nullary main_c_39 (constantI S_ 32 256#32),
    unary main_c_39 main_v124 (broadcastInDim S131072 ![] bcast_S_S131072 : (⟨S_, .i32⟩ : BufTy).Contents (Elt F) → (⟨S131072, .i32⟩ : BufTy).Contents (Elt F)),
    binary main_v115 main_v124 main_v125 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap2p2_sub : (tap2p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap2p2_fresh : (tap2p2 : List (HloOp τ sig (Elt F))).Forall fun op => op.fresh = ∅ := by
  simp only [List.Forall]; repeat' constructor

/-- The references the stretch writes: one per line, its result. -/
def tap2p2Res : List (Ref sig .tc) := [main_v117, main_c_37, main_v118, main_v119, main_v120, main_c_38, main_v121, main_v122, main_v123, main_c_39, main_v124, main_v125]

set_option maxHeartbeats 40000000 in
/-- Each line writes only its own result. -/
theorem tap2p2_writes : (tap2p2 : List (HloOp τ sig (Elt F))).Forall fun op => op.writes ⊆ ((tap2p2Res.map (Proc.devRef (τ := τ) .tc)).toFinset) := by
  simp only [tap2p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p2_keeps (W : Valuation τ sig (Elt F)) {b : Ref sig .tc} (hb : b ∉ tap2p2Res) :
    after tap2p2 W (Proc.devRef .tc b) = W (Proc.devRef .tc b) :=
  after_of_writes_sub tap2p2 W tap2p2_writes hb

set_option maxHeartbeats 40000000 in
/-- `main_v123` after the piece, from contents holding what it reads at stage values: its stage value. -/
theorem tap2p2_v123 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v111 : W (Proc.devRef .tc main_v111) = Read.val_main_v111 (F := F) x1)
    (h_v115 : W (Proc.devRef .tc main_v115) = Read.val_main_v115 (F := F) x1)
    (h_v116 : W (Proc.devRef .tc main_v116) = Read.val_main_v116 (F := F)) :
    after tap2p2 W (Proc.devRef .tc main_v123) = Read.val_main_v123 (F := F) x1 := by
  ref_results
  rewrite [h_v111, h_v115, h_v116]
  rfl

set_option maxHeartbeats 40000000 in
/-- `main_v125` after the piece, from contents holding what it reads at stage values: its stage value. -/
theorem tap2p2_v125 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v115 : W (Proc.devRef .tc main_v115) = Read.val_main_v115 (F := F) x1) :
    after tap2p2 W (Proc.devRef .tc main_v125) = Read.val_main_v125 (F := F) x1 := by
  ref_results
  rewrite [h_v115]
  rfl

set_option maxHeartbeats 40000000 in
/-- Lines 186 to 197 of @main, in order. -/
abbrev tap2p3 : List (HloOp τ sig (Elt F)) :=
  [ binary main_v123 main_v125 main_v126 (andi : (⟨S131072, .i1⟩ : BufTy).Contents (Elt F) → (⟨S131072, .i1⟩ : BufTy).Contents (Elt F) → (⟨S131072, .i1⟩ : BufTy).Contents (Elt F)),
    nullary main_c_40 (constantI S_ 32 0#32),
    nullary main_c_41 (constantI S_ 32 255#32),
    unary main_c_40 main_call4_v0 (id : (⟨S_, .i32⟩ : BufTy).Contents (Elt F) → (⟨S_, .i32⟩ : BufTy).Contents (Elt F)),
    unary main_call4_v0 main_call4_v1 ((broadcastInDim S131072 ![] bcast_S_S131072) : (⟨S_, .i32⟩ : BufTy).Contents (Elt F) → (⟨S131072, .i32⟩ : BufTy).Contents (Elt F)),
    binary main_call4_v1 main_v111 main_call4_v2 (maxsi : (⟨S131072, .i32⟩ : BufTy).Contents (Elt F) → (⟨S131072, .i32⟩ : BufTy).Contents (Elt F) → (⟨S131072, .i32⟩ : BufTy).Contents (Elt F)),
    unary main_c_41 main_call4_v3 (id : (⟨S_, .i32⟩ : BufTy).Contents (Elt F) → (⟨S_, .i32⟩ : BufTy).Contents (Elt F)),
    unary main_call4_v3 main_call4_v4 ((broadcastInDim S131072 ![] bcast_S_S131072) : (⟨S_, .i32⟩ : BufTy).Contents (Elt F) → (⟨S131072, .i32⟩ : BufTy).Contents (Elt F)),
    binary main_call4_v4 main_call4_v2 main_v127 (minsi : (⟨S131072, .i32⟩ : BufTy).Contents (Elt F) → (⟨S131072, .i32⟩ : BufTy).Contents (Elt F) → (⟨S131072, .i32⟩ : BufTy).Contents (Elt F)),
    nullary main_c_42 (constantI S_ 32 0#32),
    nullary main_c_43 (constantI S_ 32 255#32),
    unary main_c_42 main_call5_v0 (id : (⟨S_, .i32⟩ : BufTy).Contents (Elt F) → (⟨S_, .i32⟩ : BufTy).Contents (Elt F)) ]

/-- Each line touches TensorCore references only. -/
theorem tap2p3_sub : (tap2p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap2p3_fresh : (tap2p3 : List (HloOp τ sig (Elt F))).Forall fun op => op.fresh = ∅ := by
  simp only [List.Forall]; repeat' constructor

/-- The references the stretch writes: one per line, its result. -/
def tap2p3Res : List (Ref sig .tc) := [main_v126, main_c_40, main_c_41, main_call4_v0, main_call4_v1, main_call4_v2, main_call4_v3, main_call4_v4, main_v127, main_c_42, main_c_43, main_call5_v0]

set_option maxHeartbeats 40000000 in
/-- Each line writes only its own result. -/
theorem tap2p3_writes : (tap2p3 : List (HloOp τ sig (Elt F))).Forall fun op => op.writes ⊆ ((tap2p3Res.map (Proc.devRef (τ := τ) .tc)).toFinset) := by
  simp only [tap2p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p3_keeps (W : Valuation τ sig (Elt F)) {b : Ref sig .tc} (hb : b ∉ tap2p3Res) :
    after tap2p3 W (Proc.devRef .tc b) = W (Proc.devRef .tc b) :=
  after_of_writes_sub tap2p3 W tap2p3_writes hb

set_option maxHeartbeats 40000000 in
/-- `main_v126` after the piece, from contents holding what it reads at stage values: its stage value. -/
theorem tap2p3_v126 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v123 : W (Proc.devRef .tc main_v123) = Read.val_main_v123 (F := F) x1)
    (h_v125 : W (Proc.devRef .tc main_v125) = Read.val_main_v125 (F := F) x1) :
    after tap2p3 W (Proc.devRef .tc main_v126) = Read.val_main_v126 (F := F) x1 := by
  ref_results
  rewrite [h_v123, h_v125]
  rfl

set_option maxHeartbeats 40000000 in
/-- `main_v127` after the piece, from contents holding what it reads at stage values: its stage value. -/
theorem tap2p3_v127 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v111 : W (Proc.devRef .tc main_v111) = Read.val_main_v111 (F := F) x1) :
    after tap2p3 W (Proc.devRef .tc main_v127) = Read.val_main_v127 (F := F) x1 := by
  ref_results
  rewrite [h_v111]
  rfl

set_option maxHeartbeats 40000000 in
/-- `main_c_43` after the piece, from contents holding what it reads at stage values: its stage value. -/
theorem tap2p3_c_43 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap2p3 W (Proc.devRef .tc main_c_43) = Read.val_main_c_43 (F := F) := by
  ref_results
  rfl

set_option maxHeartbeats 40000000 in
/-- `main_call5_v0` after the piece, from contents holding what it reads at stage values: its stage value. -/
theorem tap2p3_call5_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap2p3 W (Proc.devRef .tc main_call5_v0) = Read.val_main_call5_v0 (F := F) := by
  ref_results
  rfl

set_option maxHeartbeats 40000000 in
/-- Lines 198 to 209 of @main, in order. -/
abbrev tap2p4 : List (HloOp τ sig (Elt F)) :=
  [ unary main_call5_v0 main_call5_v1 ((broadcastInDim S131072 ![] bcast_S_S131072) : (⟨S_, .i32⟩ : BufTy).Contents (Elt F) → (⟨S131072, .i32⟩ : BufTy).Contents (Elt F)),
    binary main_call5_v1 main_v115 main_call5_v2 (maxsi : (⟨S131072, .i32⟩ : BufTy).Contents (Elt F) → (⟨S131072, .i32⟩ : BufTy).Contents (Elt F) → (⟨S131072, .i32⟩ : BufTy).Contents (Elt F)),
    unary main_c_43 main_call5_v3 (id : (⟨S_, .i32⟩ : BufTy).Contents (Elt F) → (⟨S_, .i32⟩ : BufTy).Contents (Elt F)),
    unary main_call5_v3 main_call5_v4 ((broadcastInDim S131072 ![] bcast_S_S131072) : (⟨S_, .i32⟩ : BufTy).Contents (Elt F) → (⟨S131072, .i32⟩ : BufTy).Contents (Elt F)),
    binary main_call5_v4 main_call5_v2 main_v128 (minsi : (⟨S131072, .i32⟩ : BufTy).Contents (Elt F) → (⟨S131072, .i32⟩ : BufTy).Contents (Elt F) → (⟨S131072, .i32⟩ : BufTy).Contents (Elt F)),
    nullary main_c_44 (constantI S_ 32 0#32),
    unary main_c_44 main_v129 (broadcastInDim S131072 ![] bcast_S_S131072 : (⟨S_, .i32⟩ : BufTy).Contents (Elt F) → (⟨S131072, .i32⟩ : BufTy).Contents (Elt F)),
    binary main_v20 main_v129 main_v130 (cmpi .slt : (⟨S131072, .i32⟩ : BufTy).Contents (Elt F) → (⟨S131072, .i32⟩ : BufTy).Contents (Elt F) → (⟨S131072, .i1⟩ : BufTy).Contents (Elt F)),
    nullary main_c_45 (constantI S_ 32 4#32),
    unary main_c_45 main_v131 (broadcastInDim S131072 ![] bcast_S_S131072 : (⟨S_, .i32⟩ : BufTy).Contents (Elt F) → (⟨S131072, .i32⟩ : BufTy).Contents (Elt F)),
    binary main_v20 main_v131 main_v132 (addi : (⟨S131072, .i32⟩ : BufTy).Contents (Elt F) → (⟨S131072, .i32⟩ : BufTy).Contents (Elt F) → (⟨S131072, .i32⟩ : BufTy).Contents (Elt F)),
    ternary main_v130 main_v132 main_v20 main_v133 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap2p4_sub : (tap2p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap2p4_fresh : (tap2p4 : List (HloOp τ sig (Elt F))).Forall fun op => op.fresh = ∅ := by
  simp only [List.Forall]; repeat' constructor

/-- The references the stretch writes: one per line, its result. -/
def tap2p4Res : List (Ref sig .tc) := [main_call5_v1, main_call5_v2, main_call5_v3, main_call5_v4, main_v128, main_c_44, main_v129, main_v130, main_c_45, main_v131, main_v132, main_v133]

set_option maxHeartbeats 40000000 in
/-- Each line writes only its own result. -/
theorem tap2p4_writes : (tap2p4 : List (HloOp τ sig (Elt F))).Forall fun op => op.writes ⊆ ((tap2p4Res.map (Proc.devRef (τ := τ) .tc)).toFinset) := by
  simp only [tap2p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p4_keeps (W : Valuation τ sig (Elt F)) {b : Ref sig .tc} (hb : b ∉ tap2p4Res) :
    after tap2p4 W (Proc.devRef .tc b) = W (Proc.devRef .tc b) :=
  after_of_writes_sub tap2p4 W tap2p4_writes hb

set_option maxHeartbeats 40000000 in
/-- `main_v128` after the piece, from contents holding what it reads at stage values: its stage value. -/
theorem tap2p4_v128 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_43 : W (Proc.devRef .tc main_c_43) = Read.val_main_c_43 (F := F))
    (h_call5_v0 : W (Proc.devRef .tc main_call5_v0) = Read.val_main_call5_v0 (F := F))
    (h_v115 : W (Proc.devRef .tc main_v115) = Read.val_main_v115 (F := F) x1) :
    after tap2p4 W (Proc.devRef .tc main_v128) = Read.val_main_v128 (F := F) x1 := by
  ref_results
  rewrite [h_c_43, h_call5_v0, h_v115]
  rfl

set_option maxHeartbeats 40000000 in
/-- `main_v133` after the piece, from contents holding what it reads at stage values: its stage value. -/
theorem tap2p4_v133 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap2p4 W (Proc.devRef .tc main_v133) = Read.val_main_v133 (F := F) := by
  ref_results
  rewrite [h_v20]
  rfl

set_option maxHeartbeats 40000000 in
/-- Lines 210 to 221 of @main, in order. -/
abbrev tap2p5 : List (HloOp τ sig (Elt F)) :=
  [ nullary main_c_46 (constantI S_ 32 0#32),
    unary main_c_46 main_v134 (broadcastInDim S131072 ![] bcast_S_S131072 : (⟨S_, .i32⟩ : BufTy).Contents (Elt F) → (⟨S131072, .i32⟩ : BufTy).Contents (Elt F)),
    binary main_v127 main_v134 main_v135 (cmpi .slt : (⟨S131072, .i32⟩ : BufTy).Contents (Elt F) → (⟨S131072, .i32⟩ : BufTy).Contents (Elt F) → (⟨S131072, .i1⟩ : BufTy).Contents (Elt F)),
    nullary main_c_47 (constantI S_ 32 256#32),
    unary main_c_47 main_v136 (broadcastInDim S131072 ![] bcast_S_S131072 : (⟨S_, .i32⟩ : BufTy).Contents (Elt F) → (⟨S131072, .i32⟩ : BufTy).Contents (Elt F)),
    binary main_v127 main_v136 main_v137 (addi : (⟨S131072, .i32⟩ : BufTy).Contents (Elt F) → (⟨S131072, .i32⟩ : BufTy).Contents (Elt F) → (⟨S131072, .i32⟩ : BufTy).Contents (Elt F)),
    ternary main_v135 main_v137 main_v127 main_v138 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_48 (constantI S_ 32 0#32),
    unary main_c_48 main_v139 (broadcastInDim S131072 ![] bcast_S_S131072 : (⟨S_, .i32⟩ : BufTy).Contents (Elt F) → (⟨S131072, .i32⟩ : BufTy).Contents (Elt F)),
    binary main_v128 main_v139 main_v140 (cmpi .slt : (⟨S131072, .i32⟩ : BufTy).Contents (Elt F) → (⟨S131072, .i32⟩ : BufTy).Contents (Elt F) → (⟨S131072, .i1⟩ : BufTy).Contents (Elt F)),
    nullary main_c_49 (constantI S_ 32 256#32),
    unary main_c_49 main_v141 (broadcastInDim S131072 ![] bcast_S_S131072 : (⟨S_, .i32⟩ : BufTy).Contents (Elt F) → (⟨S131072, .i32⟩ : BufTy).Contents (Elt F)) ]

/-- Each line touches TensorCore references only. -/
theorem tap2p5_sub : (tap2p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap2p5_fresh : (tap2p5 : List (HloOp τ sig (Elt F))).Forall fun op => op.fresh = ∅ := by
  simp only [List.Forall]; repeat' constructor

/-- The references the stretch writes: one per line, its result. -/
def tap2p5Res : List (Ref sig .tc) := [main_c_46, main_v134, main_v135, main_c_47, main_v136, main_v137, main_v138, main_c_48, main_v139, main_v140, main_c_49, main_v141]

set_option maxHeartbeats 40000000 in
/-- Each line writes only its own result. -/
theorem tap2p5_writes : (tap2p5 : List (HloOp τ sig (Elt F))).Forall fun op => op.writes ⊆ ((tap2p5Res.map (Proc.devRef (τ := τ) .tc)).toFinset) := by
  simp only [tap2p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p5_keeps (W : Valuation τ sig (Elt F)) {b : Ref sig .tc} (hb : b ∉ tap2p5Res) :
    after tap2p5 W (Proc.devRef .tc b) = W (Proc.devRef .tc b) :=
  after_of_writes_sub tap2p5 W tap2p5_writes hb

set_option maxHeartbeats 40000000 in
/-- `main_v138` after the piece, from contents holding what it reads at stage values: its stage value. -/
theorem tap2p5_v138 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v127 : W (Proc.devRef .tc main_v127) = Read.val_main_v127 (F := F) x1) :
    after tap2p5 W (Proc.devRef .tc main_v138) = Read.val_main_v138 (F := F) x1 := by
  ref_results
  rewrite [h_v127]
  rfl

set_option maxHeartbeats 40000000 in
/-- `main_v140` after the piece, from contents holding what it reads at stage values: its stage value. -/
theorem tap2p5_v140 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v128 : W (Proc.devRef .tc main_v128) = Read.val_main_v128 (F := F) x1) :
    after tap2p5 W (Proc.devRef .tc main_v140) = Read.val_main_v140 (F := F) x1 := by
  ref_results
  rewrite [h_v128]
  rfl

set_option maxHeartbeats 40000000 in
/-- `main_v141` after the piece, from contents holding what it reads at stage values: its stage value. -/
theorem tap2p5_v141 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap2p5 W (Proc.devRef .tc main_v141) = Read.val_main_v141 (F := F) := by
  ref_results
  rfl

set_option maxHeartbeats 40000000 in
/-- Lines 222 to 226 of @main, in order. -/
abbrev tap2p6 : List (HloOp τ sig (Elt F)) :=
  [ binary main_v128 main_v141 main_v142 (addi : (⟨S131072, .i32⟩ : BufTy).Contents (Elt F) → (⟨S131072, .i32⟩ : BufTy).Contents (Elt F) → (⟨S131072, .i32⟩ : BufTy).Contents (Elt F)),
    ternary main_v140 main_v142 main_v128 main_v143 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v133 main_v144 (broadcastInDim S131072x1 ![0] bcast_S131072_S131072x1_0 : (⟨S131072, .i32⟩ : BufTy).Contents (Elt F) → (⟨S131072x1, .i32⟩ : BufTy).Contents (Elt F)),
    unary main_v138 main_v145 (broadcastInDim S131072x1 ![0] bcast_S131072_S131072x1_0 : (⟨S131072, .i32⟩ : BufTy).Contents (Elt F) → (⟨S131072x1, .i32⟩ : BufTy).Contents (Elt F)),
    unary main_v143 main_v146 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap2p6_sub : (tap2p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap2p6_fresh : (tap2p6 : List (HloOp τ sig (Elt F))).Forall fun op => op.fresh = ∅ := by
  simp only [List.Forall]; repeat' constructor

/-- The references the stretch writes: one per line, its result. -/
def tap2p6Res : List (Ref sig .tc) := [main_v142, main_v143, main_v144, main_v145, main_v146]

set_option maxHeartbeats 40000000 in
/-- Each line writes only its own result. -/
theorem tap2p6_writes : (tap2p6 : List (HloOp τ sig (Elt F))).Forall fun op => op.writes ⊆ ((tap2p6Res.map (Proc.devRef (τ := τ) .tc)).toFinset) := by
  simp only [tap2p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p6_keeps (W : Valuation τ sig (Elt F)) {b : Ref sig .tc} (hb : b ∉ tap2p6Res) :
    after tap2p6 W (Proc.devRef .tc b) = W (Proc.devRef .tc b) :=
  after_of_writes_sub tap2p6 W tap2p6_writes hb

set_option maxHeartbeats 40000000 in
/-- `main_v144` after the piece, from contents holding what it reads at stage values: its stage value. -/
theorem tap2p6_v144 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v133 : W (Proc.devRef .tc main_v133) = Read.val_main_v133 (F := F)) :
    after tap2p6 W (Proc.devRef .tc main_v144) = Read.val_main_v144 (F := F) := by
  ref_results
  rewrite [h_v133]
  rfl

set_option maxHeartbeats 40000000 in
/-- `main_v145` after the piece, from contents holding what it reads at stage values: its stage value. -/
theorem tap2p6_v145 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v138 : W (Proc.devRef .tc main_v138) = Read.val_main_v138 (F := F) x1) :
    after tap2p6 W (Proc.devRef .tc main_v145) = Read.val_main_v145 (F := F) x1 := by
  ref_results
  rewrite [h_v138]
  rfl

set_option maxHeartbeats 40000000 in
/-- `main_v146` after the piece, from contents holding what it reads at stage values: its stage value. -/
theorem tap2p6_v146 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v128 : W (Proc.devRef .tc main_v128) = Read.val_main_v128 (F := F) x1)
    (h_v140 : W (Proc.devRef .tc main_v140) = Read.val_main_v140 (F := F) x1)
    (h_v141 : W (Proc.devRef .tc main_v141) = Read.val_main_v141 (F := F)) :
    after tap2p6 W (Proc.devRef .tc main_v146) = Read.val_main_v146 (F := F) x1 := by
  ref_results
  rewrite [h_v128, h_v140, h_v141]
  rfl

set_option maxHeartbeats 40000000 in
/-- Lines 227 to 238 of @main, in order. -/
abbrev tap2p7 : List (HloOp τ sig (Elt F)) :=
  [ nary ![main_v144, main_v145, main_v146] main_v147 (fun u => concatenate S131072x3 1 [⟨S131072x1, u 0⟩, ⟨S131072x1, u 1⟩, ⟨S131072x1, u 2⟩] concatenates_S131072x1_S131072x1_S131072x1_S131072x3_d1),
    binary main_v47 main_v147 main_v148 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_50 (constantI S_ 32 0#32),
    unary main_c_50 main_v149 (broadcastInDim S131072 ![] bcast_S_S131072 : (⟨S_, .i32⟩ : BufTy).Contents (Elt F) → (⟨S131072, .i32⟩ : BufTy).Contents (Elt F)),
    binary main_v148 main_v149 main_v150 (cmpi .sge : (⟨S131072, .i32⟩ : BufTy).Contents (Elt F) → (⟨S131072, .i32⟩ : BufTy).Contents (Elt F) → (⟨S131072, .i1⟩ : BufTy).Contents (Elt F)),
    binary main_v126 main_v150 main_v151 (andi : (⟨S131072, .i1⟩ : BufTy).Contents (Elt F) → (⟨S131072, .i1⟩ : BufTy).Contents (Elt F) → (⟨S131072, .i1⟩ : BufTy).Contents (Elt F)),
    unary main_v151 main_v152 (broadcastInDim S131072x1 ![0] bcast_S131072_S131072x1_0 : (⟨S131072, .i1⟩ : BufTy).Contents (Elt F) → (⟨S131072x1, .i1⟩ : BufTy).Contents (Elt F)),
    nullary main_c_51 (constantI S_ 32 0#32),
    unary main_c_51 main_v153 (broadcastInDim S131072 ![] bcast_S_S131072 : (⟨S_, .i32⟩ : BufTy).Contents (Elt F) → (⟨S131072, .i32⟩ : BufTy).Contents (Elt F)),
    binary main_v148 main_v153 main_v154 (maxsi : (⟨S131072, .i32⟩ : BufTy).Contents (Elt F) → (⟨S131072, .i32⟩ : BufTy).Contents (Elt F) → (⟨S131072, .i32⟩ : BufTy).Contents (Elt F)),
    nullary main_c_52 (constantI S_ 32 0#32),
    unary main_c_52 main_v155 (broadcastInDim S131072 ![] bcast_S_S131072 : (⟨S_, .i32⟩ : BufTy).Contents (Elt F) → (⟨S131072, .i32⟩ : BufTy).Contents (Elt F)) ]

/-- Each line touches TensorCore references only. -/
theorem tap2p7_sub : (tap2p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap2p7_fresh : (tap2p7 : List (HloOp τ sig (Elt F))).Forall fun op => op.fresh = ∅ := by
  simp only [List.Forall]; repeat' constructor

/-- The references the stretch writes: one per line, its result. -/
def tap2p7Res : List (Ref sig .tc) := [main_v147, main_v148, main_c_50, main_v149, main_v150, main_v151, main_v152, main_c_51, main_v153, main_v154, main_c_52, main_v155]

set_option maxHeartbeats 40000000 in
/-- Each line writes only its own result. -/
theorem tap2p7_writes : (tap2p7 : List (HloOp τ sig (Elt F))).Forall fun op => op.writes ⊆ ((tap2p7Res.map (Proc.devRef (τ := τ) .tc)).toFinset) := by
  simp only [tap2p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p7_keeps (W : Valuation τ sig (Elt F)) {b : Ref sig .tc} (hb : b ∉ tap2p7Res) :
    after tap2p7 W (Proc.devRef .tc b) = W (Proc.devRef .tc b) :=
  after_of_writes_sub tap2p7 W tap2p7_writes hb

set_option maxHeartbeats 40000000 in
/-- `main_v152` after the piece, from contents holding what it reads at stage values: its stage value. -/
theorem tap2p7_v152 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v126 : W (Proc.devRef .tc main_v126) = Read.val_main_v126 (F := F) x1)
    (h_v144 : W (Proc.devRef .tc main_v144) = Read.val_main_v144 (F := F))
    (h_v145 : W (Proc.devRef .tc main_v145) = Read.val_main_v145 (F := F) x1)
    (h_v146 : W (Proc.devRef .tc main_v146) = Read.val_main_v146 (F := F) x1)
    (h_v47 : W (Proc.devRef .tc main_v47) = Read.val_main_v47 (F := F) x1) :
    after tap2p7 W (Proc.devRef .tc main_v152) = Read.val_main_v152 (F := F) x1 := by
  ref_results_v
  rewrite [h_v126, h_v144, h_v145, h_v146, h_v47]
  rfl

set_option maxHeartbeats 40000000 in
/-- `main_v154` after the piece, from contents holding what it reads at stage values: its stage value. -/
theorem tap2p7_v154 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v144 : W (Proc.devRef .tc main_v144) = Read.val_main_v144 (F := F))
    (h_v145 : W (Proc.devRef .tc main_v145) = Read.val_main_v145 (F := F) x1)
    (h_v146 : W (Proc.devRef .tc main_v146) = Read.val_main_v146 (F := F) x1)
    (h_v47 : W (Proc.devRef .tc main_v47) = Read.val_main_v47 (F := F) x1) :
    after tap2p7 W (Proc.devRef .tc main_v154) = Read.val_main_v154 (F := F) x1 := by
  ref_results_v
  rewrite [h_v144, h_v145, h_v146, h_v47]
  rfl

set_option maxHeartbeats 40000000 in
/-- `main_v155` after the piece, from contents holding what it reads at stage values: its stage value. -/
theorem tap2p7_v155 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap2p7 W (Proc.devRef .tc main_v155) = Read.val_main_v155 (F := F) := by
  ref_results_v
  rfl

set_option maxHeartbeats 40000000 in
/-- Lines 239 to 250 of @main, in order. -/
abbrev tap2p8 : List (HloOp τ sig (Elt F)) :=
  [ binary main_v154 main_v155 main_v156 (cmpi .slt : (⟨S131072, .i32⟩ : BufTy).Contents (Elt F) → (⟨S131072, .i32⟩ : BufTy).Contents (Elt F) → (⟨S131072, .i1⟩ : BufTy).Contents (Elt F)),
    nullary main_c_53 (constantI S_ 32 131072#32),
    unary main_c_53 main_v157 (broadcastInDim S131072 ![] bcast_S_S131072 : (⟨S_, .i32⟩ : BufTy).Contents (Elt F) → (⟨S131072, .i32⟩ : BufTy).Contents (Elt F)),
    binary main_v154 main_v157 main_v158 (addi : (⟨S131072, .i32⟩ : BufTy).Contents (Elt F) → (⟨S131072, .i32⟩ : BufTy).Contents (Elt F) → (⟨S131072, .i32⟩ : BufTy).Contents (Elt F)),
    ternary main_v156 main_v158 main_v154 main_v159 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v159 main_v160 (broadcastInDim S131072x1 ![0] bcast_S131072_S131072x1_0 : (⟨S131072, .i32⟩ : BufTy).Contents (Elt F) → (⟨S131072x1, .i32⟩ : BufTy).Contents (Elt F)),
    binary main_v21 main_v160 main_v161 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_54 (constant S_ .f32 0x00000000#32),
    unary main_cst_54 main_call6_v0 (id : (⟨S_, .f32⟩ : BufTy).Contents (Elt F) → (⟨S_, .f32⟩ : BufTy).Contents (Elt F)),
    unary main_v152 main_call6_v1 ((broadcastInDim S131072x64 ![0, 1] bcast_S131072x1_S131072x64_0_1) : (⟨S131072x1, .i1⟩ : BufTy).Contents (Elt F) → (⟨S131072x64, .i1⟩ : BufTy).Contents (Elt F)),
    unary main_call6_v0 main_call6_v2 ((broadcastInDim S131072x64 ![] bcast_S_S131072x64) : (⟨S_, .f32⟩ : BufTy).Contents (Elt F) → (⟨S131072x64, .f32⟩ : BufTy).Contents (Elt F)),
    ternary main_call6_v1 main_v161 main_call6_v2 main_v162 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap2p8_sub : (tap2p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap2p8_fresh : (tap2p8 : List (HloOp τ sig (Elt F))).Forall fun op => op.fresh = ∅ := by
  simp only [List.Forall]; repeat' constructor

/-- The references the stretch writes: one per line, its result. -/
def tap2p8Res : List (Ref sig .tc) := [main_v156, main_c_53, main_v157, main_v158, main_v159, main_v160, main_v161, main_cst_54, main_call6_v0, main_call6_v1, main_call6_v2, main_v162]

set_option maxHeartbeats 40000000 in
/-- Each line writes only its own result. -/
theorem tap2p8_writes : (tap2p8 : List (HloOp τ sig (Elt F))).Forall fun op => op.writes ⊆ ((tap2p8Res.map (Proc.devRef (τ := τ) .tc)).toFinset) := by
  simp only [tap2p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p8_keeps (W : Valuation τ sig (Elt F)) {b : Ref sig .tc} (hb : b ∉ tap2p8Res) :
    after tap2p8 W (Proc.devRef .tc b) = W (Proc.devRef .tc b) :=
  after_of_writes_sub tap2p8 W tap2p8_writes hb

set_option maxHeartbeats 40000000 in
/-- `main_v162` after the piece, from contents holding what it reads at stage values: its stage value. -/
theorem tap2p8_v162 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v152 : W (Proc.devRef .tc main_v152) = Read.val_main_v152 (F := F) x1)
    (h_v154 : W (Proc.devRef .tc main_v154) = Read.val_main_v154 (F := F) x1)
    (h_v155 : W (Proc.devRef .tc main_v155) = Read.val_main_v155 (F := F))
    (h_v21 : W (Proc.devRef .tc main_v21) = Read.val_main_v21 (F := F) x0) :
    after tap2p8 W (Proc.devRef .tc main_v162) = Read.val_main_v162 (F := F) x0 x1 := by
  ref_results
  rewrite [h_v152, h_v154, h_v155, h_v21]
  rfl

set_option maxHeartbeats 40000000 in
/-- Lines 251 to 254 of @main, in order. -/
abbrev tap2p9 : List (HloOp τ sig (Elt F)) :=
  [ unary main_arg2 main_v163 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F)),
    reshape main_v163 main_v164 rfl shapeCasts_S1x1x64x64_S64x64,
    binary main_v162 main_v164 main_v165 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v107 main_v165 main_v166 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap2p9_sub : (tap2p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap2p9_fresh : (tap2p9 : List (HloOp τ sig (Elt F))).Forall fun op => op.fresh = ∅ := by
  simp only [List.Forall]; repeat' constructor

/-- The references the stretch writes: one per line, its result. -/
def tap2p9Res : List (Ref sig .tc) := [main_v163, main_v164, main_v165, main_v166]

set_option maxHeartbeats 40000000 in
/-- Each line writes only its own result. -/
theorem tap2p9_writes : (tap2p9 : List (HloOp τ sig (Elt F))).Forall fun op => op.writes ⊆ ((tap2p9Res.map (Proc.devRef (τ := τ) .tc)).toFinset) := by
  simp only [tap2p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap2p9_keeps (W : Valuation τ sig (Elt F)) {b : Ref sig .tc} (hb : b ∉ tap2p9Res) :
    after tap2p9 W (Proc.devRef .tc b) = W (Proc.devRef .tc b) :=
  after_of_writes_sub tap2p9 W tap2p9_writes hb

set_option maxHeartbeats 40000000 in
/-- `main_v166` after the piece, from contents holding what it reads at stage values: its stage value. -/
theorem tap2p9_v166 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v107 : W (Proc.devRef .tc main_v107) = Read.val_main_v107 (F := F) x0 x1 x2)
    (h_v162 : W (Proc.devRef .tc main_v162) = Read.val_main_v162 (F := F) x0 x1) :
    after tap2p9 W (Proc.devRef .tc main_v166) = Read.val_main_v166 (F := F) x0 x1 x2 := by
  ref_results
  rewrite [h_arg2, h_v107, h_v162]
  rfl

/-- The whole tap: its pieces one after the other. -/
def tap2 : List (HloOp τ sig (Elt F)) := tap2p1 ++ tap2p2 ++ tap2p3 ++ tap2p4 ++ tap2p5 ++ tap2p6 ++ tap2p7 ++ tap2p8 ++ tap2p9

theorem tap2_sub : (tap2 : List (HloOp τ sig (Elt F))).Forall fun op => op.bufs ⊆ tcRefs τ sig :=
  forall_append (forall_append (forall_append (forall_append (forall_append (forall_append (forall_append (forall_append (tap2p1_sub) tap2p2_sub) tap2p3_sub) tap2p4_sub) tap2p5_sub) tap2p6_sub) tap2p7_sub) tap2p8_sub) tap2p9_sub
theorem tap2_fresh : (tap2 : List (HloOp τ sig (Elt F))).Forall fun op => op.fresh = ∅ :=
  forall_append (forall_append (forall_append (forall_append (forall_append (forall_append (forall_append (forall_append (tap2p1_fresh) tap2p2_fresh) tap2p3_fresh) tap2p4_fresh) tap2p5_fresh) tap2p6_fresh) tap2p7_fresh) tap2p8_fresh) tap2p9_fresh

/-- The references the whole tap writes. -/
def tap2Res : List (Ref sig .tc) := tap2p1Res ++ tap2p2Res ++ tap2p3Res ++ tap2p4Res ++ tap2p5Res ++ tap2p6Res ++ tap2p7Res ++ tap2p8Res ++ tap2p9Res

/-- A reference the tap does not write keeps its contents. -/
theorem tap2_keeps (W : Valuation τ sig (Elt F)) {b : Ref sig .tc} (hb : b ∉ tap2Res) :
    after tap2 W (Proc.devRef .tc b) = W (Proc.devRef .tc b) := by
  have hb' : b ∉ tap2p1Res ∧ b ∉ tap2p2Res ∧ b ∉ tap2p3Res ∧ b ∉ tap2p4Res ∧ b ∉ tap2p5Res ∧ b ∉ tap2p6Res ∧ b ∉ tap2p7Res ∧ b ∉ tap2p8Res ∧ b ∉ tap2p9Res := by
    simpa only [tap2Res, List.mem_append, not_or, and_assoc] using hb
  simp only [tap2, StableHlo.after_append]
  rw [tap2p9_keeps _ hb'.2.2.2.2.2.2.2.2, tap2p8_keeps _ hb'.2.2.2.2.2.2.2.1, tap2p7_keeps _ hb'.2.2.2.2.2.2.1, tap2p6_keeps _ hb'.2.2.2.2.2.1, tap2p5_keeps _ hb'.2.2.2.2.1, tap2p4_keeps _ hb'.2.2.2.1, tap2p3_keeps _ hb'.2.2.1, tap2p2_keeps _ hb'.2.1, tap2p1_keeps _ hb'.1]

/-- The accumulator after the whole tap, from contents holding the index arrays, the rulebook grid, the features, the
    weights and the previous accumulator at their stage values: its stage value. -/
theorem tap2_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v107) = Read.val_main_v107 (F := F) x0 x1 x2) :
    after tap2 W (Proc.devRef .tc main_v166) = Read.val_main_v166 (F := F) x0 x1 x2 := by
  simp only [tap2, StableHlo.after_append]
  have f1_v111 := tap2p1_v111 (W) x0 x1 x2 h17
  have f1_v116 := tap2p1_v116 (W) x0 x1 x2
  have f1_v115 := tap2p1_v115 (W) x0 x1 x2 h17
  have f1_v20 := (tap2p1_keeps (W) (b := main_v20) (by decide)).trans h20
  have f1_v47 := (tap2p1_keeps (W) (b := main_v47) (by decide)).trans h47
  have f1_v21 := (tap2p1_keeps (W) (b := main_v21) (by decide)).trans h21
  have f1_arg2 := (tap2p1_keeps (W) (b := main_arg2) (by decide)).trans h2
  have f1_v107 := (tap2p1_keeps (W) (b := main_v107) (by decide)).trans hacc
  have f2_v123 := tap2p2_v123 (after tap2p1 (W)) x0 x1 x2 f1_v111 f1_v115 f1_v116
  have f2_v125 := tap2p2_v125 (after tap2p1 (W)) x0 x1 x2 f1_v115
  have f2_v111 := (tap2p2_keeps (after tap2p1 (W)) (b := main_v111) (by decide)).trans f1_v111
  have f2_v115 := (tap2p2_keeps (after tap2p1 (W)) (b := main_v115) (by decide)).trans f1_v115
  have f2_v20 := (tap2p2_keeps (after tap2p1 (W)) (b := main_v20) (by decide)).trans f1_v20
  have f2_v47 := (tap2p2_keeps (after tap2p1 (W)) (b := main_v47) (by decide)).trans f1_v47
  have f2_v21 := (tap2p2_keeps (after tap2p1 (W)) (b := main_v21) (by decide)).trans f1_v21
  have f2_arg2 := (tap2p2_keeps (after tap2p1 (W)) (b := main_arg2) (by decide)).trans f1_arg2
  have f2_v107 := (tap2p2_keeps (after tap2p1 (W)) (b := main_v107) (by decide)).trans f1_v107
  have f3_call5_v0 := tap2p3_call5_v0 (after tap2p2 (after tap2p1 (W))) x0 x1 x2
  have f3_v115 := (tap2p3_keeps (after tap2p2 (after tap2p1 (W))) (b := main_v115) (by decide)).trans f2_v115
  have f3_c_43 := tap2p3_c_43 (after tap2p2 (after tap2p1 (W))) x0 x1 x2
  have f3_v20 := (tap2p3_keeps (after tap2p2 (after tap2p1 (W))) (b := main_v20) (by decide)).trans f2_v20
  have f3_v127 := tap2p3_v127 (after tap2p2 (after tap2p1 (W))) x0 x1 x2 f2_v111
  have f3_v47 := (tap2p3_keeps (after tap2p2 (after tap2p1 (W))) (b := main_v47) (by decide)).trans f2_v47
  have f3_v126 := tap2p3_v126 (after tap2p2 (after tap2p1 (W))) x0 x1 x2 f2_v123 f2_v125
  have f3_v21 := (tap2p3_keeps (after tap2p2 (after tap2p1 (W))) (b := main_v21) (by decide)).trans f2_v21
  have f3_arg2 := (tap2p3_keeps (after tap2p2 (after tap2p1 (W))) (b := main_arg2) (by decide)).trans f2_arg2
  have f3_v107 := (tap2p3_keeps (after tap2p2 (after tap2p1 (W))) (b := main_v107) (by decide)).trans f2_v107
  have f4_v127 := (tap2p4_keeps (after tap2p3 (after tap2p2 (after tap2p1 (W)))) (b := main_v127) (by decide)).trans f3_v127
  have f4_v128 := tap2p4_v128 (after tap2p3 (after tap2p2 (after tap2p1 (W)))) x0 x1 x2 f3_c_43 f3_call5_v0 f3_v115
  have f4_v133 := tap2p4_v133 (after tap2p3 (after tap2p2 (after tap2p1 (W)))) x0 x1 x2 f3_v20
  have f4_v47 := (tap2p4_keeps (after tap2p3 (after tap2p2 (after tap2p1 (W)))) (b := main_v47) (by decide)).trans f3_v47
  have f4_v126 := (tap2p4_keeps (after tap2p3 (after tap2p2 (after tap2p1 (W)))) (b := main_v126) (by decide)).trans f3_v126
  have f4_v21 := (tap2p4_keeps (after tap2p3 (after tap2p2 (after tap2p1 (W)))) (b := main_v21) (by decide)).trans f3_v21
  have f4_arg2 := (tap2p4_keeps (after tap2p3 (after tap2p2 (after tap2p1 (W)))) (b := main_arg2) (by decide)).trans f3_arg2
  have f4_v107 := (tap2p4_keeps (after tap2p3 (after tap2p2 (after tap2p1 (W)))) (b := main_v107) (by decide)).trans f3_v107
  have f5_v128 := (tap2p5_keeps (after tap2p4 (after tap2p3 (after tap2p2 (after tap2p1 (W))))) (b := main_v128) (by decide)).trans f4_v128
  have f5_v141 := tap2p5_v141 (after tap2p4 (after tap2p3 (after tap2p2 (after tap2p1 (W))))) x0 x1 x2
  have f5_v140 := tap2p5_v140 (after tap2p4 (after tap2p3 (after tap2p2 (after tap2p1 (W))))) x0 x1 x2 f4_v128
  have f5_v133 := (tap2p5_keeps (after tap2p4 (after tap2p3 (after tap2p2 (after tap2p1 (W))))) (b := main_v133) (by decide)).trans f4_v133
  have f5_v138 := tap2p5_v138 (after tap2p4 (after tap2p3 (after tap2p2 (after tap2p1 (W))))) x0 x1 x2 f4_v127
  have f5_v47 := (tap2p5_keeps (after tap2p4 (after tap2p3 (after tap2p2 (after tap2p1 (W))))) (b := main_v47) (by decide)).trans f4_v47
  have f5_v126 := (tap2p5_keeps (after tap2p4 (after tap2p3 (after tap2p2 (after tap2p1 (W))))) (b := main_v126) (by decide)).trans f4_v126
  have f5_v21 := (tap2p5_keeps (after tap2p4 (after tap2p3 (after tap2p2 (after tap2p1 (W))))) (b := main_v21) (by decide)).trans f4_v21
  have f5_arg2 := (tap2p5_keeps (after tap2p4 (after tap2p3 (after tap2p2 (after tap2p1 (W))))) (b := main_arg2) (by decide)).trans f4_arg2
  have f5_v107 := (tap2p5_keeps (after tap2p4 (after tap2p3 (after tap2p2 (after tap2p1 (W))))) (b := main_v107) (by decide)).trans f4_v107
  have f6_v144 := tap2p6_v144 (after tap2p5 (after tap2p4 (after tap2p3 (after tap2p2 (after tap2p1 (W)))))) x0 x1 x2 f5_v133
  have f6_v145 := tap2p6_v145 (after tap2p5 (after tap2p4 (after tap2p3 (after tap2p2 (after tap2p1 (W)))))) x0 x1 x2 f5_v138
  have f6_v146 := tap2p6_v146 (after tap2p5 (after tap2p4 (after tap2p3 (after tap2p2 (after tap2p1 (W)))))) x0 x1 x2 f5_v128 f5_v140 f5_v141
  have f6_v47 := (tap2p6_keeps (after tap2p5 (after tap2p4 (after tap2p3 (after tap2p2 (after tap2p1 (W)))))) (b := main_v47) (by decide)).trans f5_v47
  have f6_v126 := (tap2p6_keeps (after tap2p5 (after tap2p4 (after tap2p3 (after tap2p2 (after tap2p1 (W)))))) (b := main_v126) (by decide)).trans f5_v126
  have f6_v21 := (tap2p6_keeps (after tap2p5 (after tap2p4 (after tap2p3 (after tap2p2 (after tap2p1 (W)))))) (b := main_v21) (by decide)).trans f5_v21
  have f6_arg2 := (tap2p6_keeps (after tap2p5 (after tap2p4 (after tap2p3 (after tap2p2 (after tap2p1 (W)))))) (b := main_arg2) (by decide)).trans f5_arg2
  have f6_v107 := (tap2p6_keeps (after tap2p5 (after tap2p4 (after tap2p3 (after tap2p2 (after tap2p1 (W)))))) (b := main_v107) (by decide)).trans f5_v107
  have f7_v154 := tap2p7_v154 (after tap2p6 (after tap2p5 (after tap2p4 (after tap2p3 (after tap2p2 (after tap2p1 (W))))))) x0 x1 x2 f6_v144 f6_v145 f6_v146 f6_v47
  have f7_v155 := tap2p7_v155 (after tap2p6 (after tap2p5 (after tap2p4 (after tap2p3 (after tap2p2 (after tap2p1 (W))))))) x0 x1 x2
  have f7_v21 := (tap2p7_keeps (after tap2p6 (after tap2p5 (after tap2p4 (after tap2p3 (after tap2p2 (after tap2p1 (W))))))) (b := main_v21) (by decide)).trans f6_v21
  have f7_v152 := tap2p7_v152 (after tap2p6 (after tap2p5 (after tap2p4 (after tap2p3 (after tap2p2 (after tap2p1 (W))))))) x0 x1 x2 f6_v126 f6_v144 f6_v145 f6_v146 f6_v47
  have f7_arg2 := (tap2p7_keeps (after tap2p6 (after tap2p5 (after tap2p4 (after tap2p3 (after tap2p2 (after tap2p1 (W))))))) (b := main_arg2) (by decide)).trans f6_arg2
  have f7_v107 := (tap2p7_keeps (after tap2p6 (after tap2p5 (after tap2p4 (after tap2p3 (after tap2p2 (after tap2p1 (W))))))) (b := main_v107) (by decide)).trans f6_v107
  have f8_arg2 := (tap2p8_keeps (after tap2p7 (after tap2p6 (after tap2p5 (after tap2p4 (after tap2p3 (after tap2p2 (after tap2p1 (W)))))))) (b := main_arg2) (by decide)).trans f7_arg2
  have f8_v162 := tap2p8_v162 (after tap2p7 (after tap2p6 (after tap2p5 (after tap2p4 (after tap2p3 (after tap2p2 (after tap2p1 (W)))))))) x0 x1 x2 f7_v152 f7_v154 f7_v155 f7_v21
  have f8_v107 := (tap2p8_keeps (after tap2p7 (after tap2p6 (after tap2p5 (after tap2p4 (after tap2p3 (after tap2p2 (after tap2p1 (W)))))))) (b := main_v107) (by decide)).trans f7_v107
  have f9_v166 := tap2p9_v166 (after tap2p8 (after tap2p7 (after tap2p6 (after tap2p5 (after tap2p4 (after tap2p3 (after tap2p2 (after tap2p1 (W))))))))) x0 x1 x2 f8_arg2 f8_v107 f8_v162
  exact f9_v166

end Cert.ReferenceIdeal.RefRun

end
-- ==== Proof.RefTap3.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 255 to 266 of @main, in order. -/
abbrev tap3p1 : List (HloOp τ sig (Elt F)) :=
  [ unary main_v17 main_v167 ((extractStridedSlice S131072x1 ![0, 0] · slices_S131072x2_S131072x1_0_0) : (⟨S131072x2, .i32⟩ : BufTy).Contents (Elt F) → (⟨S131072x1, .i32⟩ : BufTy).Contents (Elt F)),
    reshape main_v167 main_v168 rfl shapeCasts_S131072x1_S131072,
    nullary main_c_55 (constantI S_ 32 4294967295#32),
    unary main_c_55 main_v169 (broadcastInDim S131072 ![] bcast_S_S131072 : (⟨S_, .i32⟩ : BufTy).Contents (Elt F) → (⟨S131072, .i32⟩ : BufTy).Contents (Elt F)),
    binary main_v168 main_v169 main_v170 (addi : (⟨S131072, .i32⟩ : BufTy).Contents (Elt F) → (⟨S131072, .i32⟩ : BufTy).Contents (Elt F) → (⟨S131072, .i32⟩ : BufTy).Contents (Elt F)),
    unary main_v17 main_v171 ((extractStridedSlice S131072x1 ![0, 1] · slices_S131072x2_S131072x1_0_1) : (⟨S131072x2, .i32⟩ : BufTy).Contents (Elt F) → (⟨S131072x1, .i32⟩ : BufTy).Contents (Elt F)),
    reshape main_v171 main_v172 rfl shapeCasts_S131072x1_S131072,
    nullary main_c_56 (constantI S_ 32 1#32),
    unary main_c_56 main_v173 (broadcastInDim S131072 ![] bcast_S_S131072 : (⟨S_, .i32⟩ : BufTy).Contents (Elt F) → (⟨S131072, .i32⟩ : BufTy).Contents (Elt F)),
    binary main_v172 main_v173 main_v174 (addi : (⟨S131072, .i32⟩ : BufTy).Contents (Elt F) → (⟨S131072, .i32⟩ : BufTy).Contents (Elt F) → (⟨S131072, .i32⟩ : BufTy).Contents (Elt F)),
    nullary main_c_57 (constantI S_ 32 0#32),
    unary main_c_57 main_v175 (broadcastInDim S131072 ![] bcast_S_S131072 : (⟨S_, .i32⟩ : BufTy).Contents (Elt F) → (⟨S131072, .i32⟩ : BufTy).Contents (Elt F)) ]

/-- Each line touches TensorCore references only. -/
theorem tap3p1_sub : (tap3p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap3p1_fresh : (tap3p1 : List (HloOp τ sig (Elt F))).Forall fun op => op.fresh = ∅ := by
  simp only [List.Forall]; repeat' constructor

/-- The references the stretch writes: one per line, its result. -/
def tap3p1Res : List (Ref sig .tc) := [main_v167, main_v168, main_c_55, main_v169, main_v170, main_v171, main_v172, main_c_56, main_v173, main_v174, main_c_57, main_v175]

set_option maxHeartbeats 40000000 in
/-- Each line writes only its own result. -/
theorem tap3p1_writes : (tap3p1 : List (HloOp τ sig (Elt F))).Forall fun op => op.writes ⊆ ((tap3p1Res.map (Proc.devRef (τ := τ) .tc)).toFinset) := by
  simp only [tap3p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p1_keeps (W : Valuation τ sig (Elt F)) {b : Ref sig .tc} (hb : b ∉ tap3p1Res) :
    after tap3p1 W (Proc.devRef .tc b) = W (Proc.devRef .tc b) :=
  after_of_writes_sub tap3p1 W tap3p1_writes hb

set_option maxHeartbeats 40000000 in
/-- `main_v170` after the piece, from contents holding what it reads at stage values: its stage value. -/
theorem tap3p1_v170 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap3p1 W (Proc.devRef .tc main_v170) = Read.val_main_v170 (F := F) x1 := by
  ref_results
  rewrite [h_v17]
  rfl

set_option maxHeartbeats 40000000 in
/-- `main_v174` after the piece, from contents holding what it reads at stage values: its stage value. -/
theorem tap3p1_v174 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap3p1 W (Proc.devRef .tc main_v174) = Read.val_main_v174 (F := F) x1 := by
  ref_results
  rewrite [h_v17]
  rfl

set_option maxHeartbeats 40000000 in
/-- `main_v175` after the piece, from contents holding what it reads at stage values: its stage value. -/
theorem tap3p1_v175 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap3p1 W (Proc.devRef .tc main_v175) = Read.val_main_v175 (F := F) := by
  ref_results
  rfl

set_option maxHeartbeats 40000000 in
/-- Lines 267 to 278 of @main, in order. -/
abbrev tap3p2 : List (HloOp τ sig (Elt F)) :=
  [ binary main_v170 main_v175 main_v176 (cmpi .sge : (⟨S131072, .i32⟩ : BufTy).Contents (Elt F) → (⟨S131072, .i32⟩ : BufTy).Contents (Elt F) → (⟨S131072, .i1⟩ : BufTy).Contents (Elt F)),
    nullary main_c_58 (constantI S_ 32 256#32),
    unary main_c_58 main_v177 (broadcastInDim S131072 ![] bcast_S_S131072 : (⟨S_, .i32⟩ : BufTy).Contents (Elt F) → (⟨S131072, .i32⟩ : BufTy).Contents (Elt F)),
    binary main_v170 main_v177 main_v178 (cmpi .slt : (⟨S131072, .i32⟩ : BufTy).Contents (Elt F) → (⟨S131072, .i32⟩ : BufTy).Contents (Elt F) → (⟨S131072, .i1⟩ : BufTy).Contents (Elt F)),
    binary main_v176 main_v178 main_v179 (andi : (⟨S131072, .i1⟩ : BufTy).Contents (Elt F) → (⟨S131072, .i1⟩ : BufTy).Contents (Elt F) → (⟨S131072, .i1⟩ : BufTy).Contents (Elt F)),
    nullary main_c_59 (constantI S_ 32 0#32),
    unary main_c_59 main_v180 (broadcastInDim S131072 ![] bcast_S_S131072 : (⟨S_, .i32⟩ : BufTy).Contents (Elt F) → (⟨S131072, .i32⟩ : BufTy).Contents (Elt F)),
    binary main_v174 main_v180 main_v181 (cmpi .sge : (⟨S131072, .i32⟩ : BufTy).Contents (Elt F) → (⟨S131072, .i32⟩ : BufTy).Contents (Elt F) → (⟨S131072, .i1⟩ : BufTy).Contents (Elt F)),
    binary main_v179 main_v181 main_v182 (andi : (⟨S131072, .i1⟩ : BufTy).Contents (Elt F) → (⟨S131072, .i1⟩ : BufTy).Contents (Elt F) → (⟨S131072, .i1⟩ : BufTy).Contents (Elt F)),
    nullary main_c_60 (constantI S_ 32 256#32),
    unary main_c_60 main_v183 (broadcastInDim S131072 ![] bcast_S_S131072 : (⟨S_, .i32⟩ : BufTy).Contents (Elt F) → (⟨S131072, .i32⟩ : BufTy).Contents (Elt F)),
    binary main_v174 main_v183 main_v184 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap3p2_sub : (tap3p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap3p2_fresh : (tap3p2 : List (HloOp τ sig (Elt F))).Forall fun op => op.fresh = ∅ := by
  simp only [List.Forall]; repeat' constructor

/-- The references the stretch writes: one per line, its result. -/
def tap3p2Res : List (Ref sig .tc) := [main_v176, main_c_58, main_v177, main_v178, main_v179, main_c_59, main_v180, main_v181, main_v182, main_c_60, main_v183, main_v184]

set_option maxHeartbeats 40000000 in
/-- Each line writes only its own result. -/
theorem tap3p2_writes : (tap3p2 : List (HloOp τ sig (Elt F))).Forall fun op => op.writes ⊆ ((tap3p2Res.map (Proc.devRef (τ := τ) .tc)).toFinset) := by
  simp only [tap3p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p2_keeps (W : Valuation τ sig (Elt F)) {b : Ref sig .tc} (hb : b ∉ tap3p2Res) :
    after tap3p2 W (Proc.devRef .tc b) = W (Proc.devRef .tc b) :=
  after_of_writes_sub tap3p2 W tap3p2_writes hb

set_option maxHeartbeats 40000000 in
/-- `main_v182` after the piece, from contents holding what it reads at stage values: its stage value. -/
theorem tap3p2_v182 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v170 : W (Proc.devRef .tc main_v170) = Read.val_main_v170 (F := F) x1)
    (h_v174 : W (Proc.devRef .tc main_v174) = Read.val_main_v174 (F := F) x1)
    (h_v175 : W (Proc.devRef .tc main_v175) = Read.val_main_v175 (F := F)) :
    after tap3p2 W (Proc.devRef .tc main_v182) = Read.val_main_v182 (F := F) x1 := by
  ref_results
  rewrite [h_v170, h_v174, h_v175]
  rfl

set_option maxHeartbeats 40000000 in
/-- `main_v184` after the piece, from contents holding what it reads at stage values: its stage value. -/
theorem tap3p2_v184 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v174 : W (Proc.devRef .tc main_v174) = Read.val_main_v174 (F := F) x1) :
    after tap3p2 W (Proc.devRef .tc main_v184) = Read.val_main_v184 (F := F) x1 := by
  ref_results
  rewrite [h_v174]
  rfl

set_option maxHeartbeats 40000000 in
/-- Lines 279 to 290 of @main, in order. -/
abbrev tap3p3 : List (HloOp τ sig (Elt F)) :=
  [ binary main_v182 main_v184 main_v185 (andi : (⟨S131072, .i1⟩ : BufTy).Contents (Elt F) → (⟨S131072, .i1⟩ : BufTy).Contents (Elt F) → (⟨S131072, .i1⟩ : BufTy).Contents (Elt F)),
    nullary main_c_61 (constantI S_ 32 0#32),
    nullary main_c_62 (constantI S_ 32 255#32),
    unary main_c_61 main_call7_v0 (id : (⟨S_, .i32⟩ : BufTy).Contents (Elt F) → (⟨S_, .i32⟩ : BufTy).Contents (Elt F)),
    unary main_call7_v0 main_call7_v1 ((broadcastInDim S131072 ![] bcast_S_S131072) : (⟨S_, .i32⟩ : BufTy).Contents (Elt F) → (⟨S131072, .i32⟩ : BufTy).Contents (Elt F)),
    binary main_call7_v1 main_v170 main_call7_v2 (maxsi : (⟨S131072, .i32⟩ : BufTy).Contents (Elt F) → (⟨S131072, .i32⟩ : BufTy).Contents (Elt F) → (⟨S131072, .i32⟩ : BufTy).Contents (Elt F)),
    unary main_c_62 main_call7_v3 (id : (⟨S_, .i32⟩ : BufTy).Contents (Elt F) → (⟨S_, .i32⟩ : BufTy).Contents (Elt F)),
    unary main_call7_v3 main_call7_v4 ((broadcastInDim S131072 ![] bcast_S_S131072) : (⟨S_, .i32⟩ : BufTy).Contents (Elt F) → (⟨S131072, .i32⟩ : BufTy).Contents (Elt F)),
    binary main_call7_v4 main_call7_v2 main_v186 (minsi : (⟨S131072, .i32⟩ : BufTy).Contents (Elt F) → (⟨S131072, .i32⟩ : BufTy).Contents (Elt F) → (⟨S131072, .i32⟩ : BufTy).Contents (Elt F)),
    nullary main_c_63 (constantI S_ 32 0#32),
    nullary main_c_64 (constantI S_ 32 255#32),
    unary main_c_63 main_call8_v0 (id : (⟨S_, .i32⟩ : BufTy).Contents (Elt F) → (⟨S_, .i32⟩ : BufTy).Contents (Elt F)) ]

/-- Each line touches TensorCore references only. -/
theorem tap3p3_sub : (tap3p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap3p3_fresh : (tap3p3 : List (HloOp τ sig (Elt F))).Forall fun op => op.fresh = ∅ := by
  simp only [List.Forall]; repeat' constructor

/-- The references the stretch writes: one per line, its result. -/
def tap3p3Res : List (Ref sig .tc) := [main_v185, main_c_61, main_c_62, main_call7_v0, main_call7_v1, main_call7_v2, main_call7_v3, main_call7_v4, main_v186, main_c_63, main_c_64, main_call8_v0]

set_option maxHeartbeats 40000000 in
/-- Each line writes only its own result. -/
theorem tap3p3_writes : (tap3p3 : List (HloOp τ sig (Elt F))).Forall fun op => op.writes ⊆ ((tap3p3Res.map (Proc.devRef (τ := τ) .tc)).toFinset) := by
  simp only [tap3p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p3_keeps (W : Valuation τ sig (Elt F)) {b : Ref sig .tc} (hb : b ∉ tap3p3Res) :
    after tap3p3 W (Proc.devRef .tc b) = W (Proc.devRef .tc b) :=
  after_of_writes_sub tap3p3 W tap3p3_writes hb

set_option maxHeartbeats 40000000 in
/-- `main_v185` after the piece, from contents holding what it reads at stage values: its stage value. -/
theorem tap3p3_v185 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v182 : W (Proc.devRef .tc main_v182) = Read.val_main_v182 (F := F) x1)
    (h_v184 : W (Proc.devRef .tc main_v184) = Read.val_main_v184 (F := F) x1) :
    after tap3p3 W (Proc.devRef .tc main_v185) = Read.val_main_v185 (F := F) x1 := by
  ref_results
  rewrite [h_v182, h_v184]
  rfl

set_option maxHeartbeats 40000000 in
/-- `main_v186` after the piece, from contents holding what it reads at stage values: its stage value. -/
theorem tap3p3_v186 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v170 : W (Proc.devRef .tc main_v170) = Read.val_main_v170 (F := F) x1) :
    after tap3p3 W (Proc.devRef .tc main_v186) = Read.val_main_v186 (F := F) x1 := by
  ref_results
  rewrite [h_v170]
  rfl

set_option maxHeartbeats 40000000 in
/-- `main_c_64` after the piece, from contents holding what it reads at stage values: its stage value. -/
theorem tap3p3_c_64 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap3p3 W (Proc.devRef .tc main_c_64) = Read.val_main_c_64 (F := F) := by
  ref_results
  rfl

set_option maxHeartbeats 40000000 in
/-- `main_call8_v0` after the piece, from contents holding what it reads at stage values: its stage value. -/
theorem tap3p3_call8_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap3p3 W (Proc.devRef .tc main_call8_v0) = Read.val_main_call8_v0 (F := F) := by
  ref_results
  rfl

set_option maxHeartbeats 40000000 in
/-- Lines 291 to 302 of @main, in order. -/
abbrev tap3p4 : List (HloOp τ sig (Elt F)) :=
  [ unary main_call8_v0 main_call8_v1 ((broadcastInDim S131072 ![] bcast_S_S131072) : (⟨S_, .i32⟩ : BufTy).Contents (Elt F) → (⟨S131072, .i32⟩ : BufTy).Contents (Elt F)),
    binary main_call8_v1 main_v174 main_call8_v2 (maxsi : (⟨S131072, .i32⟩ : BufTy).Contents (Elt F) → (⟨S131072, .i32⟩ : BufTy).Contents (Elt F) → (⟨S131072, .i32⟩ : BufTy).Contents (Elt F)),
    unary main_c_64 main_call8_v3 (id : (⟨S_, .i32⟩ : BufTy).Contents (Elt F) → (⟨S_, .i32⟩ : BufTy).Contents (Elt F)),
    unary main_call8_v3 main_call8_v4 ((broadcastInDim S131072 ![] bcast_S_S131072) : (⟨S_, .i32⟩ : BufTy).Contents (Elt F) → (⟨S131072, .i32⟩ : BufTy).Contents (Elt F)),
    binary main_call8_v4 main_call8_v2 main_v187 (minsi : (⟨S131072, .i32⟩ : BufTy).Contents (Elt F) → (⟨S131072, .i32⟩ : BufTy).Contents (Elt F) → (⟨S131072, .i32⟩ : BufTy).Contents (Elt F)),
    nullary main_c_65 (constantI S_ 32 0#32),
    unary main_c_65 main_v188 (broadcastInDim S131072 ![] bcast_S_S131072 : (⟨S_, .i32⟩ : BufTy).Contents (Elt F) → (⟨S131072, .i32⟩ : BufTy).Contents (Elt F)),
    binary main_v20 main_v188 main_v189 (cmpi .slt : (⟨S131072, .i32⟩ : BufTy).Contents (Elt F) → (⟨S131072, .i32⟩ : BufTy).Contents (Elt F) → (⟨S131072, .i1⟩ : BufTy).Contents (Elt F)),
    nullary main_c_66 (constantI S_ 32 4#32),
    unary main_c_66 main_v190 (broadcastInDim S131072 ![] bcast_S_S131072 : (⟨S_, .i32⟩ : BufTy).Contents (Elt F) → (⟨S131072, .i32⟩ : BufTy).Contents (Elt F)),
    binary main_v20 main_v190 main_v191 (addi : (⟨S131072, .i32⟩ : BufTy).Contents (Elt F) → (⟨S131072, .i32⟩ : BufTy).Contents (Elt F) → (⟨S131072, .i32⟩ : BufTy).Contents (Elt F)),
    ternary main_v189 main_v191 main_v20 main_v192 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap3p4_sub : (tap3p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap3p4_fresh : (tap3p4 : List (HloOp τ sig (Elt F))).Forall fun op => op.fresh = ∅ := by
  simp only [List.Forall]; repeat' constructor

/-- The references the stretch writes: one per line, its result. -/
def tap3p4Res : List (Ref sig .tc) := [main_call8_v1, main_call8_v2, main_call8_v3, main_call8_v4, main_v187, main_c_65, main_v188, main_v189, main_c_66, main_v190, main_v191, main_v192]

set_option maxHeartbeats 40000000 in
/-- Each line writes only its own result. -/
theorem tap3p4_writes : (tap3p4 : List (HloOp τ sig (Elt F))).Forall fun op => op.writes ⊆ ((tap3p4Res.map (Proc.devRef (τ := τ) .tc)).toFinset) := by
  simp only [tap3p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p4_keeps (W : Valuation τ sig (Elt F)) {b : Ref sig .tc} (hb : b ∉ tap3p4Res) :
    after tap3p4 W (Proc.devRef .tc b) = W (Proc.devRef .tc b) :=
  after_of_writes_sub tap3p4 W tap3p4_writes hb

set_option maxHeartbeats 40000000 in
/-- `main_v187` after the piece, from contents holding what it reads at stage values: its stage value. -/
theorem tap3p4_v187 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_64 : W (Proc.devRef .tc main_c_64) = Read.val_main_c_64 (F := F))
    (h_call8_v0 : W (Proc.devRef .tc main_call8_v0) = Read.val_main_call8_v0 (F := F))
    (h_v174 : W (Proc.devRef .tc main_v174) = Read.val_main_v174 (F := F) x1) :
    after tap3p4 W (Proc.devRef .tc main_v187) = Read.val_main_v187 (F := F) x1 := by
  ref_results
  rewrite [h_c_64, h_call8_v0, h_v174]
  rfl

set_option maxHeartbeats 40000000 in
/-- `main_v192` after the piece, from contents holding what it reads at stage values: its stage value. -/
theorem tap3p4_v192 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap3p4 W (Proc.devRef .tc main_v192) = Read.val_main_v192 (F := F) := by
  ref_results
  rewrite [h_v20]
  rfl

set_option maxHeartbeats 40000000 in
/-- Lines 303 to 314 of @main, in order. -/
abbrev tap3p5 : List (HloOp τ sig (Elt F)) :=
  [ nullary main_c_67 (constantI S_ 32 0#32),
    unary main_c_67 main_v193 (broadcastInDim S131072 ![] bcast_S_S131072 : (⟨S_, .i32⟩ : BufTy).Contents (Elt F) → (⟨S131072, .i32⟩ : BufTy).Contents (Elt F)),
    binary main_v186 main_v193 main_v194 (cmpi .slt : (⟨S131072, .i32⟩ : BufTy).Contents (Elt F) → (⟨S131072, .i32⟩ : BufTy).Contents (Elt F) → (⟨S131072, .i1⟩ : BufTy).Contents (Elt F)),
    nullary main_c_68 (constantI S_ 32 256#32),
    unary main_c_68 main_v195 (broadcastInDim S131072 ![] bcast_S_S131072 : (⟨S_, .i32⟩ : BufTy).Contents (Elt F) → (⟨S131072, .i32⟩ : BufTy).Contents (Elt F)),
    binary main_v186 main_v195 main_v196 (addi : (⟨S131072, .i32⟩ : BufTy).Contents (Elt F) → (⟨S131072, .i32⟩ : BufTy).Contents (Elt F) → (⟨S131072, .i32⟩ : BufTy).Contents (Elt F)),
    ternary main_v194 main_v196 main_v186 main_v197 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_69 (constantI S_ 32 0#32),
    unary main_c_69 main_v198 (broadcastInDim S131072 ![] bcast_S_S131072 : (⟨S_, .i32⟩ : BufTy).Contents (Elt F) → (⟨S131072, .i32⟩ : BufTy).Contents (Elt F)),
    binary main_v187 main_v198 main_v199 (cmpi .slt : (⟨S131072, .i32⟩ : BufTy).Contents (Elt F) → (⟨S131072, .i32⟩ : BufTy).Contents (Elt F) → (⟨S131072, .i1⟩ : BufTy).Contents (Elt F)),
    nullary main_c_70 (constantI S_ 32 256#32),
    unary main_c_70 main_v200 (broadcastInDim S131072 ![] bcast_S_S131072 : (⟨S_, .i32⟩ : BufTy).Contents (Elt F) → (⟨S131072, .i32⟩ : BufTy).Contents (Elt F)) ]

/-- Each line touches TensorCore references only. -/
theorem tap3p5_sub : (tap3p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap3p5_fresh : (tap3p5 : List (HloOp τ sig (Elt F))).Forall fun op => op.fresh = ∅ := by
  simp only [List.Forall]; repeat' constructor

/-- The references the stretch writes: one per line, its result. -/
def tap3p5Res : List (Ref sig .tc) := [main_c_67, main_v193, main_v194, main_c_68, main_v195, main_v196, main_v197, main_c_69, main_v198, main_v199, main_c_70, main_v200]

set_option maxHeartbeats 40000000 in
/-- Each line writes only its own result. -/
theorem tap3p5_writes : (tap3p5 : List (HloOp τ sig (Elt F))).Forall fun op => op.writes ⊆ ((tap3p5Res.map (Proc.devRef (τ := τ) .tc)).toFinset) := by
  simp only [tap3p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p5_keeps (W : Valuation τ sig (Elt F)) {b : Ref sig .tc} (hb : b ∉ tap3p5Res) :
    after tap3p5 W (Proc.devRef .tc b) = W (Proc.devRef .tc b) :=
  after_of_writes_sub tap3p5 W tap3p5_writes hb

set_option maxHeartbeats 40000000 in
/-- `main_v197` after the piece, from contents holding what it reads at stage values: its stage value. -/
theorem tap3p5_v197 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v186 : W (Proc.devRef .tc main_v186) = Read.val_main_v186 (F := F) x1) :
    after tap3p5 W (Proc.devRef .tc main_v197) = Read.val_main_v197 (F := F) x1 := by
  ref_results
  rewrite [h_v186]
  rfl

set_option maxHeartbeats 40000000 in
/-- `main_v199` after the piece, from contents holding what it reads at stage values: its stage value. -/
theorem tap3p5_v199 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v187 : W (Proc.devRef .tc main_v187) = Read.val_main_v187 (F := F) x1) :
    after tap3p5 W (Proc.devRef .tc main_v199) = Read.val_main_v199 (F := F) x1 := by
  ref_results
  rewrite [h_v187]
  rfl

set_option maxHeartbeats 40000000 in
/-- `main_v200` after the piece, from contents holding what it reads at stage values: its stage value. -/
theorem tap3p5_v200 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap3p5 W (Proc.devRef .tc main_v200) = Read.val_main_v200 (F := F) := by
  ref_results
  rfl

set_option maxHeartbeats 40000000 in
/-- Lines 315 to 319 of @main, in order. -/
abbrev tap3p6 : List (HloOp τ sig (Elt F)) :=
  [ binary main_v187 main_v200 main_v201 (addi : (⟨S131072, .i32⟩ : BufTy).Contents (Elt F) → (⟨S131072, .i32⟩ : BufTy).Contents (Elt F) → (⟨S131072, .i32⟩ : BufTy).Contents (Elt F)),
    ternary main_v199 main_v201 main_v187 main_v202 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v192 main_v203 (broadcastInDim S131072x1 ![0] bcast_S131072_S131072x1_0 : (⟨S131072, .i32⟩ : BufTy).Contents (Elt F) → (⟨S131072x1, .i32⟩ : BufTy).Contents (Elt F)),
    unary main_v197 main_v204 (broadcastInDim S131072x1 ![0] bcast_S131072_S131072x1_0 : (⟨S131072, .i32⟩ : BufTy).Contents (Elt F) → (⟨S131072x1, .i32⟩ : BufTy).Contents (Elt F)),
    unary main_v202 main_v205 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap3p6_sub : (tap3p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap3p6_fresh : (tap3p6 : List (HloOp τ sig (Elt F))).Forall fun op => op.fresh = ∅ := by
  simp only [List.Forall]; repeat' constructor

/-- The references the stretch writes: one per line, its result. -/
def tap3p6Res : List (Ref sig .tc) := [main_v201, main_v202, main_v203, main_v204, main_v205]

set_option maxHeartbeats 40000000 in
/-- Each line writes only its own result. -/
theorem tap3p6_writes : (tap3p6 : List (HloOp τ sig (Elt F))).Forall fun op => op.writes ⊆ ((tap3p6Res.map (Proc.devRef (τ := τ) .tc)).toFinset) := by
  simp only [tap3p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p6_keeps (W : Valuation τ sig (Elt F)) {b : Ref sig .tc} (hb : b ∉ tap3p6Res) :
    after tap3p6 W (Proc.devRef .tc b) = W (Proc.devRef .tc b) :=
  after_of_writes_sub tap3p6 W tap3p6_writes hb

set_option maxHeartbeats 40000000 in
/-- `main_v203` after the piece, from contents holding what it reads at stage values: its stage value. -/
theorem tap3p6_v203 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v192 : W (Proc.devRef .tc main_v192) = Read.val_main_v192 (F := F)) :
    after tap3p6 W (Proc.devRef .tc main_v203) = Read.val_main_v203 (F := F) := by
  ref_results
  rewrite [h_v192]
  rfl

set_option maxHeartbeats 40000000 in
/-- `main_v204` after the piece, from contents holding what it reads at stage values: its stage value. -/
theorem tap3p6_v204 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v197 : W (Proc.devRef .tc main_v197) = Read.val_main_v197 (F := F) x1) :
    after tap3p6 W (Proc.devRef .tc main_v204) = Read.val_main_v204 (F := F) x1 := by
  ref_results
  rewrite [h_v197]
  rfl

set_option maxHeartbeats 40000000 in
/-- `main_v205` after the piece, from contents holding what it reads at stage values: its stage value. -/
theorem tap3p6_v205 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v187 : W (Proc.devRef .tc main_v187) = Read.val_main_v187 (F := F) x1)
    (h_v199 : W (Proc.devRef .tc main_v199) = Read.val_main_v199 (F := F) x1)
    (h_v200 : W (Proc.devRef .tc main_v200) = Read.val_main_v200 (F := F)) :
    after tap3p6 W (Proc.devRef .tc main_v205) = Read.val_main_v205 (F := F) x1 := by
  ref_results
  rewrite [h_v187, h_v199, h_v200]
  rfl

set_option maxHeartbeats 40000000 in
/-- Lines 320 to 331 of @main, in order. -/
abbrev tap3p7 : List (HloOp τ sig (Elt F)) :=
  [ nary ![main_v203, main_v204, main_v205] main_v206 (fun u => concatenate S131072x3 1 [⟨S131072x1, u 0⟩, ⟨S131072x1, u 1⟩, ⟨S131072x1, u 2⟩] concatenates_S131072x1_S131072x1_S131072x1_S131072x3_d1),
    binary main_v47 main_v206 main_v207 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_71 (constantI S_ 32 0#32),
    unary main_c_71 main_v208 (broadcastInDim S131072 ![] bcast_S_S131072 : (⟨S_, .i32⟩ : BufTy).Contents (Elt F) → (⟨S131072, .i32⟩ : BufTy).Contents (Elt F)),
    binary main_v207 main_v208 main_v209 (cmpi .sge : (⟨S131072, .i32⟩ : BufTy).Contents (Elt F) → (⟨S131072, .i32⟩ : BufTy).Contents (Elt F) → (⟨S131072, .i1⟩ : BufTy).Contents (Elt F)),
    binary main_v185 main_v209 main_v210 (andi : (⟨S131072, .i1⟩ : BufTy).Contents (Elt F) → (⟨S131072, .i1⟩ : BufTy).Contents (Elt F) → (⟨S131072, .i1⟩ : BufTy).Contents (Elt F)),
    unary main_v210 main_v211 (broadcastInDim S131072x1 ![0] bcast_S131072_S131072x1_0 : (⟨S131072, .i1⟩ : BufTy).Contents (Elt F) → (⟨S131072x1, .i1⟩ : BufTy).Contents (Elt F)),
    nullary main_c_72 (constantI S_ 32 0#32),
    unary main_c_72 main_v212 (broadcastInDim S131072 ![] bcast_S_S131072 : (⟨S_, .i32⟩ : BufTy).Contents (Elt F) → (⟨S131072, .i32⟩ : BufTy).Contents (Elt F)),
    binary main_v207 main_v212 main_v213 (maxsi : (⟨S131072, .i32⟩ : BufTy).Contents (Elt F) → (⟨S131072, .i32⟩ : BufTy).Contents (Elt F) → (⟨S131072, .i32⟩ : BufTy).Contents (Elt F)),
    nullary main_c_73 (constantI S_ 32 0#32),
    unary main_c_73 main_v214 (broadcastInDim S131072 ![] bcast_S_S131072 : (⟨S_, .i32⟩ : BufTy).Contents (Elt F) → (⟨S131072, .i32⟩ : BufTy).Contents (Elt F)) ]

/-- Each line touches TensorCore references only. -/
theorem tap3p7_sub : (tap3p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap3p7_fresh : (tap3p7 : List (HloOp τ sig (Elt F))).Forall fun op => op.fresh = ∅ := by
  simp only [List.Forall]; repeat' constructor

/-- The references the stretch writes: one per line, its result. -/
def tap3p7Res : List (Ref sig .tc) := [main_v206, main_v207, main_c_71, main_v208, main_v209, main_v210, main_v211, main_c_72, main_v212, main_v213, main_c_73, main_v214]

set_option maxHeartbeats 40000000 in
/-- Each line writes only its own result. -/
theorem tap3p7_writes : (tap3p7 : List (HloOp τ sig (Elt F))).Forall fun op => op.writes ⊆ ((tap3p7Res.map (Proc.devRef (τ := τ) .tc)).toFinset) := by
  simp only [tap3p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p7_keeps (W : Valuation τ sig (Elt F)) {b : Ref sig .tc} (hb : b ∉ tap3p7Res) :
    after tap3p7 W (Proc.devRef .tc b) = W (Proc.devRef .tc b) :=
  after_of_writes_sub tap3p7 W tap3p7_writes hb

set_option maxHeartbeats 40000000 in
/-- `main_v211` after the piece, from contents holding what it reads at stage values: its stage value. -/
theorem tap3p7_v211 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v185 : W (Proc.devRef .tc main_v185) = Read.val_main_v185 (F := F) x1)
    (h_v203 : W (Proc.devRef .tc main_v203) = Read.val_main_v203 (F := F))
    (h_v204 : W (Proc.devRef .tc main_v204) = Read.val_main_v204 (F := F) x1)
    (h_v205 : W (Proc.devRef .tc main_v205) = Read.val_main_v205 (F := F) x1)
    (h_v47 : W (Proc.devRef .tc main_v47) = Read.val_main_v47 (F := F) x1) :
    after tap3p7 W (Proc.devRef .tc main_v211) = Read.val_main_v211 (F := F) x1 := by
  ref_results_v
  rewrite [h_v185, h_v203, h_v204, h_v205, h_v47]
  rfl

set_option maxHeartbeats 40000000 in
/-- `main_v213` after the piece, from contents holding what it reads at stage values: its stage value. -/
theorem tap3p7_v213 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v203 : W (Proc.devRef .tc main_v203) = Read.val_main_v203 (F := F))
    (h_v204 : W (Proc.devRef .tc main_v204) = Read.val_main_v204 (F := F) x1)
    (h_v205 : W (Proc.devRef .tc main_v205) = Read.val_main_v205 (F := F) x1)
    (h_v47 : W (Proc.devRef .tc main_v47) = Read.val_main_v47 (F := F) x1) :
    after tap3p7 W (Proc.devRef .tc main_v213) = Read.val_main_v213 (F := F) x1 := by
  ref_results_v
  rewrite [h_v203, h_v204, h_v205, h_v47]
  rfl

set_option maxHeartbeats 40000000 in
/-- `main_v214` after the piece, from contents holding what it reads at stage values: its stage value. -/
theorem tap3p7_v214 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap3p7 W (Proc.devRef .tc main_v214) = Read.val_main_v214 (F := F) := by
  ref_results_v
  rfl

set_option maxHeartbeats 40000000 in
/-- Lines 332 to 343 of @main, in order. -/
abbrev tap3p8 : List (HloOp τ sig (Elt F)) :=
  [ binary main_v213 main_v214 main_v215 (cmpi .slt : (⟨S131072, .i32⟩ : BufTy).Contents (Elt F) → (⟨S131072, .i32⟩ : BufTy).Contents (Elt F) → (⟨S131072, .i1⟩ : BufTy).Contents (Elt F)),
    nullary main_c_74 (constantI S_ 32 131072#32),
    unary main_c_74 main_v216 (broadcastInDim S131072 ![] bcast_S_S131072 : (⟨S_, .i32⟩ : BufTy).Contents (Elt F) → (⟨S131072, .i32⟩ : BufTy).Contents (Elt F)),
    binary main_v213 main_v216 main_v217 (addi : (⟨S131072, .i32⟩ : BufTy).Contents (Elt F) → (⟨S131072, .i32⟩ : BufTy).Contents (Elt F) → (⟨S131072, .i32⟩ : BufTy).Contents (Elt F)),
    ternary main_v215 main_v217 main_v213 main_v218 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v218 main_v219 (broadcastInDim S131072x1 ![0] bcast_S131072_S131072x1_0 : (⟨S131072, .i32⟩ : BufTy).Contents (Elt F) → (⟨S131072x1, .i32⟩ : BufTy).Contents (Elt F)),
    binary main_v21 main_v219 main_v220 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_75 (constant S_ .f32 0x00000000#32),
    unary main_cst_75 main_call9_v0 (id : (⟨S_, .f32⟩ : BufTy).Contents (Elt F) → (⟨S_, .f32⟩ : BufTy).Contents (Elt F)),
    unary main_v211 main_call9_v1 ((broadcastInDim S131072x64 ![0, 1] bcast_S131072x1_S131072x64_0_1) : (⟨S131072x1, .i1⟩ : BufTy).Contents (Elt F) → (⟨S131072x64, .i1⟩ : BufTy).Contents (Elt F)),
    unary main_call9_v0 main_call9_v2 ((broadcastInDim S131072x64 ![] bcast_S_S131072x64) : (⟨S_, .f32⟩ : BufTy).Contents (Elt F) → (⟨S131072x64, .f32⟩ : BufTy).Contents (Elt F)),
    ternary main_call9_v1 main_v220 main_call9_v2 main_v221 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap3p8_sub : (tap3p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap3p8_fresh : (tap3p8 : List (HloOp τ sig (Elt F))).Forall fun op => op.fresh = ∅ := by
  simp only [List.Forall]; repeat' constructor

/-- The references the stretch writes: one per line, its result. -/
def tap3p8Res : List (Ref sig .tc) := [main_v215, main_c_74, main_v216, main_v217, main_v218, main_v219, main_v220, main_cst_75, main_call9_v0, main_call9_v1, main_call9_v2, main_v221]

set_option maxHeartbeats 40000000 in
/-- Each line writes only its own result. -/
theorem tap3p8_writes : (tap3p8 : List (HloOp τ sig (Elt F))).Forall fun op => op.writes ⊆ ((tap3p8Res.map (Proc.devRef (τ := τ) .tc)).toFinset) := by
  simp only [tap3p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p8_keeps (W : Valuation τ sig (Elt F)) {b : Ref sig .tc} (hb : b ∉ tap3p8Res) :
    after tap3p8 W (Proc.devRef .tc b) = W (Proc.devRef .tc b) :=
  after_of_writes_sub tap3p8 W tap3p8_writes hb

set_option maxHeartbeats 40000000 in
/-- `main_v221` after the piece, from contents holding what it reads at stage values: its stage value. -/
theorem tap3p8_v221 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v211 : W (Proc.devRef .tc main_v211) = Read.val_main_v211 (F := F) x1)
    (h_v213 : W (Proc.devRef .tc main_v213) = Read.val_main_v213 (F := F) x1)
    (h_v214 : W (Proc.devRef .tc main_v214) = Read.val_main_v214 (F := F)) :
    after tap3p8 W (Proc.devRef .tc main_v221) = Read.val_main_v221 (F := F) x0 x1 := by
  ref_results
  rewrite [h_v21, h_v211, h_v213, h_v214]
  rfl

set_option maxHeartbeats 40000000 in
/-- Lines 344 to 347 of @main, in order. -/
abbrev tap3p9 : List (HloOp τ sig (Elt F)) :=
  [ unary main_arg2 main_v222 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F)),
    reshape main_v222 main_v223 rfl shapeCasts_S1x1x64x64_S64x64,
    binary main_v221 main_v223 main_v224 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v166 main_v224 main_v225 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap3p9_sub : (tap3p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap3p9_fresh : (tap3p9 : List (HloOp τ sig (Elt F))).Forall fun op => op.fresh = ∅ := by
  simp only [List.Forall]; repeat' constructor

/-- The references the stretch writes: one per line, its result. -/
def tap3p9Res : List (Ref sig .tc) := [main_v222, main_v223, main_v224, main_v225]

set_option maxHeartbeats 40000000 in
/-- Each line writes only its own result. -/
theorem tap3p9_writes : (tap3p9 : List (HloOp τ sig (Elt F))).Forall fun op => op.writes ⊆ ((tap3p9Res.map (Proc.devRef (τ := τ) .tc)).toFinset) := by
  simp only [tap3p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap3p9_keeps (W : Valuation τ sig (Elt F)) {b : Ref sig .tc} (hb : b ∉ tap3p9Res) :
    after tap3p9 W (Proc.devRef .tc b) = W (Proc.devRef .tc b) :=
  after_of_writes_sub tap3p9 W tap3p9_writes hb

set_option maxHeartbeats 40000000 in
/-- `main_v225` after the piece, from contents holding what it reads at stage values: its stage value. -/
theorem tap3p9_v225 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v166 : W (Proc.devRef .tc main_v166) = Read.val_main_v166 (F := F) x0 x1 x2)
    (h_v221 : W (Proc.devRef .tc main_v221) = Read.val_main_v221 (F := F) x0 x1) :
    after tap3p9 W (Proc.devRef .tc main_v225) = Read.val_main_v225 (F := F) x0 x1 x2 := by
  ref_results
  rewrite [h_arg2, h_v166, h_v221]
  rfl

/-- The whole tap: its pieces one after the other. -/
def tap3 : List (HloOp τ sig (Elt F)) := tap3p1 ++ tap3p2 ++ tap3p3 ++ tap3p4 ++ tap3p5 ++ tap3p6 ++ tap3p7 ++ tap3p8 ++ tap3p9

theorem tap3_sub : (tap3 : List (HloOp τ sig (Elt F))).Forall fun op => op.bufs ⊆ tcRefs τ sig :=
  forall_append (forall_append (forall_append (forall_append (forall_append (forall_append (forall_append (forall_append (tap3p1_sub) tap3p2_sub) tap3p3_sub) tap3p4_sub) tap3p5_sub) tap3p6_sub) tap3p7_sub) tap3p8_sub) tap3p9_sub
theorem tap3_fresh : (tap3 : List (HloOp τ sig (Elt F))).Forall fun op => op.fresh = ∅ :=
  forall_append (forall_append (forall_append (forall_append (forall_append (forall_append (forall_append (forall_append (tap3p1_fresh) tap3p2_fresh) tap3p3_fresh) tap3p4_fresh) tap3p5_fresh) tap3p6_fresh) tap3p7_fresh) tap3p8_fresh) tap3p9_fresh

/-- The references the whole tap writes. -/
def tap3Res : List (Ref sig .tc) := tap3p1Res ++ tap3p2Res ++ tap3p3Res ++ tap3p4Res ++ tap3p5Res ++ tap3p6Res ++ tap3p7Res ++ tap3p8Res ++ tap3p9Res

/-- A reference the tap does not write keeps its contents. -/
theorem tap3_keeps (W : Valuation τ sig (Elt F)) {b : Ref sig .tc} (hb : b ∉ tap3Res) :
    after tap3 W (Proc.devRef .tc b) = W (Proc.devRef .tc b) := by
  have hb' : b ∉ tap3p1Res ∧ b ∉ tap3p2Res ∧ b ∉ tap3p3Res ∧ b ∉ tap3p4Res ∧ b ∉ tap3p5Res ∧ b ∉ tap3p6Res ∧ b ∉ tap3p7Res ∧ b ∉ tap3p8Res ∧ b ∉ tap3p9Res := by
    simpa only [tap3Res, List.mem_append, not_or, and_assoc] using hb
  simp only [tap3, StableHlo.after_append]
  rw [tap3p9_keeps _ hb'.2.2.2.2.2.2.2.2, tap3p8_keeps _ hb'.2.2.2.2.2.2.2.1, tap3p7_keeps _ hb'.2.2.2.2.2.2.1, tap3p6_keeps _ hb'.2.2.2.2.2.1, tap3p5_keeps _ hb'.2.2.2.2.1, tap3p4_keeps _ hb'.2.2.2.1, tap3p3_keeps _ hb'.2.2.1, tap3p2_keeps _ hb'.2.1, tap3p1_keeps _ hb'.1]

/-- The accumulator after the whole tap, from contents holding the index arrays, the rulebook grid, the features, the
    weights and the previous accumulator at their stage values: its stage value. -/
theorem tap3_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v166) = Read.val_main_v166 (F := F) x0 x1 x2) :
    after tap3 W (Proc.devRef .tc main_v225) = Read.val_main_v225 (F := F) x0 x1 x2 := by
  simp only [tap3, StableHlo.after_append]
  have f1_v170 := tap3p1_v170 (W) x0 x1 x2 h17
  have f1_v175 := tap3p1_v175 (W) x0 x1 x2
  have f1_v174 := tap3p1_v174 (W) x0 x1 x2 h17
  have f1_v20 := (tap3p1_keeps (W) (b := main_v20) (by decide)).trans h20
  have f1_v47 := (tap3p1_keeps (W) (b := main_v47) (by decide)).trans h47
  have f1_v21 := (tap3p1_keeps (W) (b := main_v21) (by decide)).trans h21
  have f1_arg2 := (tap3p1_keeps (W) (b := main_arg2) (by decide)).trans h2
  have f1_v166 := (tap3p1_keeps (W) (b := main_v166) (by decide)).trans hacc
  have f2_v182 := tap3p2_v182 (after tap3p1 (W)) x0 x1 x2 f1_v170 f1_v174 f1_v175
  have f2_v184 := tap3p2_v184 (after tap3p1 (W)) x0 x1 x2 f1_v174
  have f2_v170 := (tap3p2_keeps (after tap3p1 (W)) (b := main_v170) (by decide)).trans f1_v170
  have f2_v174 := (tap3p2_keeps (after tap3p1 (W)) (b := main_v174) (by decide)).trans f1_v174
  have f2_v20 := (tap3p2_keeps (after tap3p1 (W)) (b := main_v20) (by decide)).trans f1_v20
  have f2_v47 := (tap3p2_keeps (after tap3p1 (W)) (b := main_v47) (by decide)).trans f1_v47
  have f2_v21 := (tap3p2_keeps (after tap3p1 (W)) (b := main_v21) (by decide)).trans f1_v21
  have f2_arg2 := (tap3p2_keeps (after tap3p1 (W)) (b := main_arg2) (by decide)).trans f1_arg2
  have f2_v166 := (tap3p2_keeps (after tap3p1 (W)) (b := main_v166) (by decide)).trans f1_v166
  have f3_call8_v0 := tap3p3_call8_v0 (after tap3p2 (after tap3p1 (W))) x0 x1 x2
  have f3_v174 := (tap3p3_keeps (after tap3p2 (after tap3p1 (W))) (b := main_v174) (by decide)).trans f2_v174
  have f3_c_64 := tap3p3_c_64 (after tap3p2 (after tap3p1 (W))) x0 x1 x2
  have f3_v20 := (tap3p3_keeps (after tap3p2 (after tap3p1 (W))) (b := main_v20) (by decide)).trans f2_v20
  have f3_v186 := tap3p3_v186 (after tap3p2 (after tap3p1 (W))) x0 x1 x2 f2_v170
  have f3_v47 := (tap3p3_keeps (after tap3p2 (after tap3p1 (W))) (b := main_v47) (by decide)).trans f2_v47
  have f3_v185 := tap3p3_v185 (after tap3p2 (after tap3p1 (W))) x0 x1 x2 f2_v182 f2_v184
  have f3_v21 := (tap3p3_keeps (after tap3p2 (after tap3p1 (W))) (b := main_v21) (by decide)).trans f2_v21
  have f3_arg2 := (tap3p3_keeps (after tap3p2 (after tap3p1 (W))) (b := main_arg2) (by decide)).trans f2_arg2
  have f3_v166 := (tap3p3_keeps (after tap3p2 (after tap3p1 (W))) (b := main_v166) (by decide)).trans f2_v166
  have f4_v186 := (tap3p4_keeps (after tap3p3 (after tap3p2 (after tap3p1 (W)))) (b := main_v186) (by decide)).trans f3_v186
  have f4_v187 := tap3p4_v187 (after tap3p3 (after tap3p2 (after tap3p1 (W)))) x0 x1 x2 f3_c_64 f3_call8_v0 f3_v174
  have f4_v192 := tap3p4_v192 (after tap3p3 (after tap3p2 (after tap3p1 (W)))) x0 x1 x2 f3_v20
  have f4_v47 := (tap3p4_keeps (after tap3p3 (after tap3p2 (after tap3p1 (W)))) (b := main_v47) (by decide)).trans f3_v47
  have f4_v185 := (tap3p4_keeps (after tap3p3 (after tap3p2 (after tap3p1 (W)))) (b := main_v185) (by decide)).trans f3_v185
  have f4_v21 := (tap3p4_keeps (after tap3p3 (after tap3p2 (after tap3p1 (W)))) (b := main_v21) (by decide)).trans f3_v21
  have f4_arg2 := (tap3p4_keeps (after tap3p3 (after tap3p2 (after tap3p1 (W)))) (b := main_arg2) (by decide)).trans f3_arg2
  have f4_v166 := (tap3p4_keeps (after tap3p3 (after tap3p2 (after tap3p1 (W)))) (b := main_v166) (by decide)).trans f3_v166
  have f5_v187 := (tap3p5_keeps (after tap3p4 (after tap3p3 (after tap3p2 (after tap3p1 (W))))) (b := main_v187) (by decide)).trans f4_v187
  have f5_v200 := tap3p5_v200 (after tap3p4 (after tap3p3 (after tap3p2 (after tap3p1 (W))))) x0 x1 x2
  have f5_v199 := tap3p5_v199 (after tap3p4 (after tap3p3 (after tap3p2 (after tap3p1 (W))))) x0 x1 x2 f4_v187
  have f5_v192 := (tap3p5_keeps (after tap3p4 (after tap3p3 (after tap3p2 (after tap3p1 (W))))) (b := main_v192) (by decide)).trans f4_v192
  have f5_v197 := tap3p5_v197 (after tap3p4 (after tap3p3 (after tap3p2 (after tap3p1 (W))))) x0 x1 x2 f4_v186
  have f5_v47 := (tap3p5_keeps (after tap3p4 (after tap3p3 (after tap3p2 (after tap3p1 (W))))) (b := main_v47) (by decide)).trans f4_v47
  have f5_v185 := (tap3p5_keeps (after tap3p4 (after tap3p3 (after tap3p2 (after tap3p1 (W))))) (b := main_v185) (by decide)).trans f4_v185
  have f5_v21 := (tap3p5_keeps (after tap3p4 (after tap3p3 (after tap3p2 (after tap3p1 (W))))) (b := main_v21) (by decide)).trans f4_v21
  have f5_arg2 := (tap3p5_keeps (after tap3p4 (after tap3p3 (after tap3p2 (after tap3p1 (W))))) (b := main_arg2) (by decide)).trans f4_arg2
  have f5_v166 := (tap3p5_keeps (after tap3p4 (after tap3p3 (after tap3p2 (after tap3p1 (W))))) (b := main_v166) (by decide)).trans f4_v166
  have f6_v203 := tap3p6_v203 (after tap3p5 (after tap3p4 (after tap3p3 (after tap3p2 (after tap3p1 (W)))))) x0 x1 x2 f5_v192
  have f6_v204 := tap3p6_v204 (after tap3p5 (after tap3p4 (after tap3p3 (after tap3p2 (after tap3p1 (W)))))) x0 x1 x2 f5_v197
  have f6_v205 := tap3p6_v205 (after tap3p5 (after tap3p4 (after tap3p3 (after tap3p2 (after tap3p1 (W)))))) x0 x1 x2 f5_v187 f5_v199 f5_v200
  have f6_v47 := (tap3p6_keeps (after tap3p5 (after tap3p4 (after tap3p3 (after tap3p2 (after tap3p1 (W)))))) (b := main_v47) (by decide)).trans f5_v47
  have f6_v185 := (tap3p6_keeps (after tap3p5 (after tap3p4 (after tap3p3 (after tap3p2 (after tap3p1 (W)))))) (b := main_v185) (by decide)).trans f5_v185
  have f6_v21 := (tap3p6_keeps (after tap3p5 (after tap3p4 (after tap3p3 (after tap3p2 (after tap3p1 (W)))))) (b := main_v21) (by decide)).trans f5_v21
  have f6_arg2 := (tap3p6_keeps (after tap3p5 (after tap3p4 (after tap3p3 (after tap3p2 (after tap3p1 (W)))))) (b := main_arg2) (by decide)).trans f5_arg2
  have f6_v166 := (tap3p6_keeps (after tap3p5 (after tap3p4 (after tap3p3 (after tap3p2 (after tap3p1 (W)))))) (b := main_v166) (by decide)).trans f5_v166
  have f7_v213 := tap3p7_v213 (after tap3p6 (after tap3p5 (after tap3p4 (after tap3p3 (after tap3p2 (after tap3p1 (W))))))) x0 x1 x2 f6_v203 f6_v204 f6_v205 f6_v47
  have f7_v214 := tap3p7_v214 (after tap3p6 (after tap3p5 (after tap3p4 (after tap3p3 (after tap3p2 (after tap3p1 (W))))))) x0 x1 x2
  have f7_v21 := (tap3p7_keeps (after tap3p6 (after tap3p5 (after tap3p4 (after tap3p3 (after tap3p2 (after tap3p1 (W))))))) (b := main_v21) (by decide)).trans f6_v21
  have f7_v211 := tap3p7_v211 (after tap3p6 (after tap3p5 (after tap3p4 (after tap3p3 (after tap3p2 (after tap3p1 (W))))))) x0 x1 x2 f6_v185 f6_v203 f6_v204 f6_v205 f6_v47
  have f7_arg2 := (tap3p7_keeps (after tap3p6 (after tap3p5 (after tap3p4 (after tap3p3 (after tap3p2 (after tap3p1 (W))))))) (b := main_arg2) (by decide)).trans f6_arg2
  have f7_v166 := (tap3p7_keeps (after tap3p6 (after tap3p5 (after tap3p4 (after tap3p3 (after tap3p2 (after tap3p1 (W))))))) (b := main_v166) (by decide)).trans f6_v166
  have f8_arg2 := (tap3p8_keeps (after tap3p7 (after tap3p6 (after tap3p5 (after tap3p4 (after tap3p3 (after tap3p2 (after tap3p1 (W)))))))) (b := main_arg2) (by decide)).trans f7_arg2
  have f8_v221 := tap3p8_v221 (after tap3p7 (after tap3p6 (after tap3p5 (after tap3p4 (after tap3p3 (after tap3p2 (after tap3p1 (W)))))))) x0 x1 x2 f7_v21 f7_v211 f7_v213 f7_v214
  have f8_v166 := (tap3p8_keeps (after tap3p7 (after tap3p6 (after tap3p5 (after tap3p4 (after tap3p3 (after tap3p2 (after tap3p1 (W)))))))) (b := main_v166) (by decide)).trans f7_v166
  have f9_v225 := tap3p9_v225 (after tap3p8 (after tap3p7 (after tap3p6 (after tap3p5 (after tap3p4 (after tap3p3 (after tap3p2 (after tap3p1 (W))))))))) x0 x1 x2 f8_arg2 f8_v166 f8_v221
  exact f9_v225

end Cert.ReferenceIdeal.RefRun

end
-- ==== Proof.RefTap4.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 348 to 359 of @main, in order. -/
abbrev tap4p1 : List (HloOp τ sig (Elt F)) :=
  [ unary main_v17 main_v226 ((extractStridedSlice S131072x1 ![0, 0] · slices_S131072x2_S131072x1_0_0) : (⟨S131072x2, .i32⟩ : BufTy).Contents (Elt F) → (⟨S131072x1, .i32⟩ : BufTy).Contents (Elt F)),
    reshape main_v226 main_v227 rfl shapeCasts_S131072x1_S131072,
    nullary main_c_76 (constantI S_ 32 0#32),
    unary main_c_76 main_v228 (broadcastInDim S131072 ![] bcast_S_S131072 : (⟨S_, .i32⟩ : BufTy).Contents (Elt F) → (⟨S131072, .i32⟩ : BufTy).Contents (Elt F)),
    binary main_v227 main_v228 main_v229 (addi : (⟨S131072, .i32⟩ : BufTy).Contents (Elt F) → (⟨S131072, .i32⟩ : BufTy).Contents (Elt F) → (⟨S131072, .i32⟩ : BufTy).Contents (Elt F)),
    unary main_v17 main_v230 ((extractStridedSlice S131072x1 ![0, 1] · slices_S131072x2_S131072x1_0_1) : (⟨S131072x2, .i32⟩ : BufTy).Contents (Elt F) → (⟨S131072x1, .i32⟩ : BufTy).Contents (Elt F)),
    reshape main_v230 main_v231 rfl shapeCasts_S131072x1_S131072,
    nullary main_c_77 (constantI S_ 32 4294967295#32),
    unary main_c_77 main_v232 (broadcastInDim S131072 ![] bcast_S_S131072 : (⟨S_, .i32⟩ : BufTy).Contents (Elt F) → (⟨S131072, .i32⟩ : BufTy).Contents (Elt F)),
    binary main_v231 main_v232 main_v233 (addi : (⟨S131072, .i32⟩ : BufTy).Contents (Elt F) → (⟨S131072, .i32⟩ : BufTy).Contents (Elt F) → (⟨S131072, .i32⟩ : BufTy).Contents (Elt F)),
    nullary main_c_78 (constantI S_ 32 0#32),
    unary main_c_78 main_v234 (broadcastInDim S131072 ![] bcast_S_S131072 : (⟨S_, .i32⟩ : BufTy).Contents (Elt F) → (⟨S131072, .i32⟩ : BufTy).Contents (Elt F)) ]

/-- Each line touches TensorCore references only. -/
theorem tap4p1_sub : (tap4p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap4p1_fresh : (tap4p1 : List (HloOp τ sig (Elt F))).Forall fun op => op.fresh = ∅ := by
  simp only [List.Forall]; repeat' constructor

/-- The references the stretch writes: one per line, its result. -/
def tap4p1Res : List (Ref sig .tc) := [main_v226, main_v227, main_c_76, main_v228, main_v229, main_v230, main_v231, main_c_77, main_v232, main_v233, main_c_78, main_v234]

set_option maxHeartbeats 40000000 in
/-- Each line writes only its own result. -/
theorem tap4p1_writes : (tap4p1 : List (HloOp τ sig (Elt F))).Forall fun op => op.writes ⊆ ((tap4p1Res.map (Proc.devRef (τ := τ) .tc)).toFinset) := by
  simp only [tap4p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p1_keeps (W : Valuation τ sig (Elt F)) {b : Ref sig .tc} (hb : b ∉ tap4p1Res) :
    after tap4p1 W (Proc.devRef .tc b) = W (Proc.devRef .tc b) :=
  after_of_writes_sub tap4p1 W tap4p1_writes hb

set_option maxHeartbeats 40000000 in
/-- `main_v229` after the piece, from contents holding what it reads at stage values: its stage value. -/
theorem tap4p1_v229 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap4p1 W (Proc.devRef .tc main_v229) = Read.val_main_v229 (F := F) x1 := by
  ref_results
  rewrite [h_v17]
  rfl

set_option maxHeartbeats 40000000 in
/-- `main_v233` after the piece, from contents holding what it reads at stage values: its stage value. -/
theorem tap4p1_v233 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap4p1 W (Proc.devRef .tc main_v233) = Read.val_main_v233 (F := F) x1 := by
  ref_results
  rewrite [h_v17]
  rfl

set_option maxHeartbeats 40000000 in
/-- `main_v234` after the piece, from contents holding what it reads at stage values: its stage value. -/
theorem tap4p1_v234 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap4p1 W (Proc.devRef .tc main_v234) = Read.val_main_v234 (F := F) := by
  ref_results
  rfl

set_option maxHeartbeats 40000000 in
/-- Lines 360 to 371 of @main, in order. -/
abbrev tap4p2 : List (HloOp τ sig (Elt F)) :=
  [ binary main_v229 main_v234 main_v235 (cmpi .sge : (⟨S131072, .i32⟩ : BufTy).Contents (Elt F) → (⟨S131072, .i32⟩ : BufTy).Contents (Elt F) → (⟨S131072, .i1⟩ : BufTy).Contents (Elt F)),
    nullary main_c_79 (constantI S_ 32 256#32),
    unary main_c_79 main_v236 (broadcastInDim S131072 ![] bcast_S_S131072 : (⟨S_, .i32⟩ : BufTy).Contents (Elt F) → (⟨S131072, .i32⟩ : BufTy).Contents (Elt F)),
    binary main_v229 main_v236 main_v237 (cmpi .slt : (⟨S131072, .i32⟩ : BufTy).Contents (Elt F) → (⟨S131072, .i32⟩ : BufTy).Contents (Elt F) → (⟨S131072, .i1⟩ : BufTy).Contents (Elt F)),
    binary main_v235 main_v237 main_v238 (andi : (⟨S131072, .i1⟩ : BufTy).Contents (Elt F) → (⟨S131072, .i1⟩ : BufTy).Contents (Elt F) → (⟨S131072, .i1⟩ : BufTy).Contents (Elt F)),
    nullary main_c_80 (constantI S_ 32 0#32),
    unary main_c_80 main_v239 (broadcastInDim S131072 ![] bcast_S_S131072 : (⟨S_, .i32⟩ : BufTy).Contents (Elt F) → (⟨S131072, .i32⟩ : BufTy).Contents (Elt F)),
    binary main_v233 main_v239 main_v240 (cmpi .sge : (⟨S131072, .i32⟩ : BufTy).Contents (Elt F) → (⟨S131072, .i32⟩ : BufTy).Contents (Elt F) → (⟨S131072, .i1⟩ : BufTy).Contents (Elt F)),
    binary main_v238 main_v240 main_v241 (andi : (⟨S131072, .i1⟩ : BufTy).Contents (Elt F) → (⟨S131072, .i1⟩ : BufTy).Contents (Elt F) → (⟨S131072, .i1⟩ : BufTy).Contents (Elt F)),
    nullary main_c_81 (constantI S_ 32 256#32),
    unary main_c_81 main_v242 (broadcastInDim S131072 ![] bcast_S_S131072 : (⟨S_, .i32⟩ : BufTy).Contents (Elt F) → (⟨S131072, .i32⟩ : BufTy).Contents (Elt F)),
    binary main_v233 main_v242 main_v243 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap4p2_sub : (tap4p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap4p2_fresh : (tap4p2 : List (HloOp τ sig (Elt F))).Forall fun op => op.fresh = ∅ := by
  simp only [List.Forall]; repeat' constructor

/-- The references the stretch writes: one per line, its result. -/
def tap4p2Res : List (Ref sig .tc) := [main_v235, main_c_79, main_v236, main_v237, main_v238, main_c_80, main_v239, main_v240, main_v241, main_c_81, main_v242, main_v243]

set_option maxHeartbeats 40000000 in
/-- Each line writes only its own result. -/
theorem tap4p2_writes : (tap4p2 : List (HloOp τ sig (Elt F))).Forall fun op => op.writes ⊆ ((tap4p2Res.map (Proc.devRef (τ := τ) .tc)).toFinset) := by
  simp only [tap4p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p2_keeps (W : Valuation τ sig (Elt F)) {b : Ref sig .tc} (hb : b ∉ tap4p2Res) :
    after tap4p2 W (Proc.devRef .tc b) = W (Proc.devRef .tc b) :=
  after_of_writes_sub tap4p2 W tap4p2_writes hb

set_option maxHeartbeats 40000000 in
/-- `main_v241` after the piece, from contents holding what it reads at stage values: its stage value. -/
theorem tap4p2_v241 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v229 : W (Proc.devRef .tc main_v229) = Read.val_main_v229 (F := F) x1)
    (h_v233 : W (Proc.devRef .tc main_v233) = Read.val_main_v233 (F := F) x1)
    (h_v234 : W (Proc.devRef .tc main_v234) = Read.val_main_v234 (F := F)) :
    after tap4p2 W (Proc.devRef .tc main_v241) = Read.val_main_v241 (F := F) x1 := by
  ref_results
  rewrite [h_v229, h_v233, h_v234]
  rfl

set_option maxHeartbeats 40000000 in
/-- `main_v243` after the piece, from contents holding what it reads at stage values: its stage value. -/
theorem tap4p2_v243 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v233 : W (Proc.devRef .tc main_v233) = Read.val_main_v233 (F := F) x1) :
    after tap4p2 W (Proc.devRef .tc main_v243) = Read.val_main_v243 (F := F) x1 := by
  ref_results
  rewrite [h_v233]
  rfl

set_option maxHeartbeats 40000000 in
/-- Lines 372 to 383 of @main, in order. -/
abbrev tap4p3 : List (HloOp τ sig (Elt F)) :=
  [ binary main_v241 main_v243 main_v244 (andi : (⟨S131072, .i1⟩ : BufTy).Contents (Elt F) → (⟨S131072, .i1⟩ : BufTy).Contents (Elt F) → (⟨S131072, .i1⟩ : BufTy).Contents (Elt F)),
    nullary main_c_82 (constantI S_ 32 0#32),
    nullary main_c_83 (constantI S_ 32 255#32),
    unary main_c_82 main_call10_v0 (id : (⟨S_, .i32⟩ : BufTy).Contents (Elt F) → (⟨S_, .i32⟩ : BufTy).Contents (Elt F)),
    unary main_call10_v0 main_call10_v1 ((broadcastInDim S131072 ![] bcast_S_S131072) : (⟨S_, .i32⟩ : BufTy).Contents (Elt F) → (⟨S131072, .i32⟩ : BufTy).Contents (Elt F)),
    binary main_call10_v1 main_v229 main_call10_v2 (maxsi : (⟨S131072, .i32⟩ : BufTy).Contents (Elt F) → (⟨S131072, .i32⟩ : BufTy).Contents (Elt F) → (⟨S131072, .i32⟩ : BufTy).Contents (Elt F)),
    unary main_c_83 main_call10_v3 (id : (⟨S_, .i32⟩ : BufTy).Contents (Elt F) → (⟨S_, .i32⟩ : BufTy).Contents (Elt F)),
    unary main_call10_v3 main_call10_v4 ((broadcastInDim S131072 ![] bcast_S_S131072) : (⟨S_, .i32⟩ : BufTy).Contents (Elt F) → (⟨S131072, .i32⟩ : BufTy).Contents (Elt F)),
    binary main_call10_v4 main_call10_v2 main_v245 (minsi : (⟨S131072, .i32⟩ : BufTy).Contents (Elt F) → (⟨S131072, .i32⟩ : BufTy).Contents (Elt F) → (⟨S131072, .i32⟩ : BufTy).Contents (Elt F)),
    nullary main_c_84 (constantI S_ 32 0#32),
    nullary main_c_85 (constantI S_ 32 255#32),
    unary main_c_84 main_call11_v0 (id : (⟨S_, .i32⟩ : BufTy).Contents (Elt F) → (⟨S_, .i32⟩ : BufTy).Contents (Elt F)) ]

/-- Each line touches TensorCore references only. -/
theorem tap4p3_sub : (tap4p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap4p3_fresh : (tap4p3 : List (HloOp τ sig (Elt F))).Forall fun op => op.fresh = ∅ := by
  simp only [List.Forall]; repeat' constructor

/-- The references the stretch writes: one per line, its result. -/
def tap4p3Res : List (Ref sig .tc) := [main_v244, main_c_82, main_c_83, main_call10_v0, main_call10_v1, main_call10_v2, main_call10_v3, main_call10_v4, main_v245, main_c_84, main_c_85, main_call11_v0]

set_option maxHeartbeats 40000000 in
/-- Each line writes only its own result. -/
theorem tap4p3_writes : (tap4p3 : List (HloOp τ sig (Elt F))).Forall fun op => op.writes ⊆ ((tap4p3Res.map (Proc.devRef (τ := τ) .tc)).toFinset) := by
  simp only [tap4p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p3_keeps (W : Valuation τ sig (Elt F)) {b : Ref sig .tc} (hb : b ∉ tap4p3Res) :
    after tap4p3 W (Proc.devRef .tc b) = W (Proc.devRef .tc b) :=
  after_of_writes_sub tap4p3 W tap4p3_writes hb

set_option maxHeartbeats 40000000 in
/-- `main_v244` after the piece, from contents holding what it reads at stage values: its stage value. -/
theorem tap4p3_v244 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v241 : W (Proc.devRef .tc main_v241) = Read.val_main_v241 (F := F) x1)
    (h_v243 : W (Proc.devRef .tc main_v243) = Read.val_main_v243 (F := F) x1) :
    after tap4p3 W (Proc.devRef .tc main_v244) = Read.val_main_v244 (F := F) x1 := by
  ref_results
  rewrite [h_v241, h_v243]
  rfl

set_option maxHeartbeats 40000000 in
/-- `main_v245` after the piece, from contents holding what it reads at stage values: its stage value. -/
theorem tap4p3_v245 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v229 : W (Proc.devRef .tc main_v229) = Read.val_main_v229 (F := F) x1) :
    after tap4p3 W (Proc.devRef .tc main_v245) = Read.val_main_v245 (F := F) x1 := by
  ref_results
  rewrite [h_v229]
  rfl

set_option maxHeartbeats 40000000 in
/-- `main_c_85` after the piece, from contents holding what it reads at stage values: its stage value. -/
theorem tap4p3_c_85 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap4p3 W (Proc.devRef .tc main_c_85) = Read.val_main_c_85 (F := F) := by
  ref_results
  rfl

set_option maxHeartbeats 40000000 in
/-- `main_call11_v0` after the piece, from contents holding what it reads at stage values: its stage value. -/
theorem tap4p3_call11_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap4p3 W (Proc.devRef .tc main_call11_v0) = Read.val_main_call11_v0 (F := F) := by
  ref_results
  rfl

set_option maxHeartbeats 40000000 in
/-- Lines 384 to 395 of @main, in order. -/
abbrev tap4p4 : List (HloOp τ sig (Elt F)) :=
  [ unary main_call11_v0 main_call11_v1 ((broadcastInDim S131072 ![] bcast_S_S131072) : (⟨S_, .i32⟩ : BufTy).Contents (Elt F) → (⟨S131072, .i32⟩ : BufTy).Contents (Elt F)),
    binary main_call11_v1 main_v233 main_call11_v2 (maxsi : (⟨S131072, .i32⟩ : BufTy).Contents (Elt F) → (⟨S131072, .i32⟩ : BufTy).Contents (Elt F) → (⟨S131072, .i32⟩ : BufTy).Contents (Elt F)),
    unary main_c_85 main_call11_v3 (id : (⟨S_, .i32⟩ : BufTy).Contents (Elt F) → (⟨S_, .i32⟩ : BufTy).Contents (Elt F)),
    unary main_call11_v3 main_call11_v4 ((broadcastInDim S131072 ![] bcast_S_S131072) : (⟨S_, .i32⟩ : BufTy).Contents (Elt F) → (⟨S131072, .i32⟩ : BufTy).Contents (Elt F)),
    binary main_call11_v4 main_call11_v2 main_v246 (minsi : (⟨S131072, .i32⟩ : BufTy).Contents (Elt F) → (⟨S131072, .i32⟩ : BufTy).Contents (Elt F) → (⟨S131072, .i32⟩ : BufTy).Contents (Elt F)),
    nullary main_c_86 (constantI S_ 32 0#32),
    unary main_c_86 main_v247 (broadcastInDim S131072 ![] bcast_S_S131072 : (⟨S_, .i32⟩ : BufTy).Contents (Elt F) → (⟨S131072, .i32⟩ : BufTy).Contents (Elt F)),
    binary main_v20 main_v247 main_v248 (cmpi .slt : (⟨S131072, .i32⟩ : BufTy).Contents (Elt F) → (⟨S131072, .i32⟩ : BufTy).Contents (Elt F) → (⟨S131072, .i1⟩ : BufTy).Contents (Elt F)),
    nullary main_c_87 (constantI S_ 32 4#32),
    unary main_c_87 main_v249 (broadcastInDim S131072 ![] bcast_S_S131072 : (⟨S_, .i32⟩ : BufTy).Contents (Elt F) → (⟨S131072, .i32⟩ : BufTy).Contents (Elt F)),
    binary main_v20 main_v249 main_v250 (addi : (⟨S131072, .i32⟩ : BufTy).Contents (Elt F) → (⟨S131072, .i32⟩ : BufTy).Contents (Elt F) → (⟨S131072, .i32⟩ : BufTy).Contents (Elt F)),
    ternary main_v248 main_v250 main_v20 main_v251 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap4p4_sub : (tap4p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap4p4_fresh : (tap4p4 : List (HloOp τ sig (Elt F))).Forall fun op => op.fresh = ∅ := by
  simp only [List.Forall]; repeat' constructor

/-- The references the stretch writes: one per line, its result. -/
def tap4p4Res : List (Ref sig .tc) := [main_call11_v1, main_call11_v2, main_call11_v3, main_call11_v4, main_v246, main_c_86, main_v247, main_v248, main_c_87, main_v249, main_v250, main_v251]

set_option maxHeartbeats 40000000 in
/-- Each line writes only its own result. -/
theorem tap4p4_writes : (tap4p4 : List (HloOp τ sig (Elt F))).Forall fun op => op.writes ⊆ ((tap4p4Res.map (Proc.devRef (τ := τ) .tc)).toFinset) := by
  simp only [tap4p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p4_keeps (W : Valuation τ sig (Elt F)) {b : Ref sig .tc} (hb : b ∉ tap4p4Res) :
    after tap4p4 W (Proc.devRef .tc b) = W (Proc.devRef .tc b) :=
  after_of_writes_sub tap4p4 W tap4p4_writes hb

set_option maxHeartbeats 40000000 in
/-- `main_v246` after the piece, from contents holding what it reads at stage values: its stage value. -/
theorem tap4p4_v246 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_85 : W (Proc.devRef .tc main_c_85) = Read.val_main_c_85 (F := F))
    (h_call11_v0 : W (Proc.devRef .tc main_call11_v0) = Read.val_main_call11_v0 (F := F))
    (h_v233 : W (Proc.devRef .tc main_v233) = Read.val_main_v233 (F := F) x1) :
    after tap4p4 W (Proc.devRef .tc main_v246) = Read.val_main_v246 (F := F) x1 := by
  ref_results
  rewrite [h_c_85, h_call11_v0, h_v233]
  rfl

set_option maxHeartbeats 40000000 in
/-- `main_v251` after the piece, from contents holding what it reads at stage values: its stage value. -/
theorem tap4p4_v251 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap4p4 W (Proc.devRef .tc main_v251) = Read.val_main_v251 (F := F) := by
  ref_results
  rewrite [h_v20]
  rfl

set_option maxHeartbeats 40000000 in
/-- Lines 396 to 407 of @main, in order. -/
abbrev tap4p5 : List (HloOp τ sig (Elt F)) :=
  [ nullary main_c_88 (constantI S_ 32 0#32),
    unary main_c_88 main_v252 (broadcastInDim S131072 ![] bcast_S_S131072 : (⟨S_, .i32⟩ : BufTy).Contents (Elt F) → (⟨S131072, .i32⟩ : BufTy).Contents (Elt F)),
    binary main_v245 main_v252 main_v253 (cmpi .slt : (⟨S131072, .i32⟩ : BufTy).Contents (Elt F) → (⟨S131072, .i32⟩ : BufTy).Contents (Elt F) → (⟨S131072, .i1⟩ : BufTy).Contents (Elt F)),
    nullary main_c_89 (constantI S_ 32 256#32),
    unary main_c_89 main_v254 (broadcastInDim S131072 ![] bcast_S_S131072 : (⟨S_, .i32⟩ : BufTy).Contents (Elt F) → (⟨S131072, .i32⟩ : BufTy).Contents (Elt F)),
    binary main_v245 main_v254 main_v255 (addi : (⟨S131072, .i32⟩ : BufTy).Contents (Elt F) → (⟨S131072, .i32⟩ : BufTy).Contents (Elt F) → (⟨S131072, .i32⟩ : BufTy).Contents (Elt F)),
    ternary main_v253 main_v255 main_v245 main_v256 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_90 (constantI S_ 32 0#32),
    unary main_c_90 main_v257 (broadcastInDim S131072 ![] bcast_S_S131072 : (⟨S_, .i32⟩ : BufTy).Contents (Elt F) → (⟨S131072, .i32⟩ : BufTy).Contents (Elt F)),
    binary main_v246 main_v257 main_v258 (cmpi .slt : (⟨S131072, .i32⟩ : BufTy).Contents (Elt F) → (⟨S131072, .i32⟩ : BufTy).Contents (Elt F) → (⟨S131072, .i1⟩ : BufTy).Contents (Elt F)),
    nullary main_c_91 (constantI S_ 32 256#32),
    unary main_c_91 main_v259 (broadcastInDim S131072 ![] bcast_S_S131072 : (⟨S_, .i32⟩ : BufTy).Contents (Elt F) → (⟨S131072, .i32⟩ : BufTy).Contents (Elt F)) ]

/-- Each line touches TensorCore references only. -/
theorem tap4p5_sub : (tap4p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap4p5_fresh : (tap4p5 : List (HloOp τ sig (Elt F))).Forall fun op => op.fresh = ∅ := by
  simp only [List.Forall]; repeat' constructor

/-- The references the stretch writes: one per line, its result. -/
def tap4p5Res : List (Ref sig .tc) := [main_c_88, main_v252, main_v253, main_c_89, main_v254, main_v255, main_v256, main_c_90, main_v257, main_v258, main_c_91, main_v259]

set_option maxHeartbeats 40000000 in
/-- Each line writes only its own result. -/
theorem tap4p5_writes : (tap4p5 : List (HloOp τ sig (Elt F))).Forall fun op => op.writes ⊆ ((tap4p5Res.map (Proc.devRef (τ := τ) .tc)).toFinset) := by
  simp only [tap4p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p5_keeps (W : Valuation τ sig (Elt F)) {b : Ref sig .tc} (hb : b ∉ tap4p5Res) :
    after tap4p5 W (Proc.devRef .tc b) = W (Proc.devRef .tc b) :=
  after_of_writes_sub tap4p5 W tap4p5_writes hb

set_option maxHeartbeats 40000000 in
/-- `main_v256` after the piece, from contents holding what it reads at stage values: its stage value. -/
theorem tap4p5_v256 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v245 : W (Proc.devRef .tc main_v245) = Read.val_main_v245 (F := F) x1) :
    after tap4p5 W (Proc.devRef .tc main_v256) = Read.val_main_v256 (F := F) x1 := by
  ref_results
  rewrite [h_v245]
  rfl

set_option maxHeartbeats 40000000 in
/-- `main_v258` after the piece, from contents holding what it reads at stage values: its stage value. -/
theorem tap4p5_v258 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v246 : W (Proc.devRef .tc main_v246) = Read.val_main_v246 (F := F) x1) :
    after tap4p5 W (Proc.devRef .tc main_v258) = Read.val_main_v258 (F := F) x1 := by
  ref_results
  rewrite [h_v246]
  rfl

set_option maxHeartbeats 40000000 in
/-- `main_v259` after the piece, from contents holding what it reads at stage values: its stage value. -/
theorem tap4p5_v259 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap4p5 W (Proc.devRef .tc main_v259) = Read.val_main_v259 (F := F) := by
  ref_results
  rfl

set_option maxHeartbeats 40000000 in
/-- Lines 408 to 412 of @main, in order. -/
abbrev tap4p6 : List (HloOp τ sig (Elt F)) :=
  [ binary main_v246 main_v259 main_v260 (addi : (⟨S131072, .i32⟩ : BufTy).Contents (Elt F) → (⟨S131072, .i32⟩ : BufTy).Contents (Elt F) → (⟨S131072, .i32⟩ : BufTy).Contents (Elt F)),
    ternary main_v258 main_v260 main_v246 main_v261 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v251 main_v262 (broadcastInDim S131072x1 ![0] bcast_S131072_S131072x1_0 : (⟨S131072, .i32⟩ : BufTy).Contents (Elt F) → (⟨S131072x1, .i32⟩ : BufTy).Contents (Elt F)),
    unary main_v256 main_v263 (broadcastInDim S131072x1 ![0] bcast_S131072_S131072x1_0 : (⟨S131072, .i32⟩ : BufTy).Contents (Elt F) → (⟨S131072x1, .i32⟩ : BufTy).Contents (Elt F)),
    unary main_v261 main_v264 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap4p6_sub : (tap4p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap4p6_fresh : (tap4p6 : List (HloOp τ sig (Elt F))).Forall fun op => op.fresh = ∅ := by
  simp only [List.Forall]; repeat' constructor

/-- The references the stretch writes: one per line, its result. -/
def tap4p6Res : List (Ref sig .tc) := [main_v260, main_v261, main_v262, main_v263, main_v264]

set_option maxHeartbeats 40000000 in
/-- Each line writes only its own result. -/
theorem tap4p6_writes : (tap4p6 : List (HloOp τ sig (Elt F))).Forall fun op => op.writes ⊆ ((tap4p6Res.map (Proc.devRef (τ := τ) .tc)).toFinset) := by
  simp only [tap4p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p6_keeps (W : Valuation τ sig (Elt F)) {b : Ref sig .tc} (hb : b ∉ tap4p6Res) :
    after tap4p6 W (Proc.devRef .tc b) = W (Proc.devRef .tc b) :=
  after_of_writes_sub tap4p6 W tap4p6_writes hb

set_option maxHeartbeats 40000000 in
/-- `main_v262` after the piece, from contents holding what it reads at stage values: its stage value. -/
theorem tap4p6_v262 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v251 : W (Proc.devRef .tc main_v251) = Read.val_main_v251 (F := F)) :
    after tap4p6 W (Proc.devRef .tc main_v262) = Read.val_main_v262 (F := F) := by
  ref_results
  rewrite [h_v251]
  rfl

set_option maxHeartbeats 40000000 in
/-- `main_v263` after the piece, from contents holding what it reads at stage values: its stage value. -/
theorem tap4p6_v263 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v256 : W (Proc.devRef .tc main_v256) = Read.val_main_v256 (F := F) x1) :
    after tap4p6 W (Proc.devRef .tc main_v263) = Read.val_main_v263 (F := F) x1 := by
  ref_results
  rewrite [h_v256]
  rfl

set_option maxHeartbeats 40000000 in
/-- `main_v264` after the piece, from contents holding what it reads at stage values: its stage value. -/
theorem tap4p6_v264 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v246 : W (Proc.devRef .tc main_v246) = Read.val_main_v246 (F := F) x1)
    (h_v258 : W (Proc.devRef .tc main_v258) = Read.val_main_v258 (F := F) x1)
    (h_v259 : W (Proc.devRef .tc main_v259) = Read.val_main_v259 (F := F)) :
    after tap4p6 W (Proc.devRef .tc main_v264) = Read.val_main_v264 (F := F) x1 := by
  ref_results
  rewrite [h_v246, h_v258, h_v259]
  rfl

set_option maxHeartbeats 40000000 in
/-- Lines 413 to 424 of @main, in order. -/
abbrev tap4p7 : List (HloOp τ sig (Elt F)) :=
  [ nary ![main_v262, main_v263, main_v264] main_v265 (fun u => concatenate S131072x3 1 [⟨S131072x1, u 0⟩, ⟨S131072x1, u 1⟩, ⟨S131072x1, u 2⟩] concatenates_S131072x1_S131072x1_S131072x1_S131072x3_d1),
    binary main_v47 main_v265 main_v266 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_92 (constantI S_ 32 0#32),
    unary main_c_92 main_v267 (broadcastInDim S131072 ![] bcast_S_S131072 : (⟨S_, .i32⟩ : BufTy).Contents (Elt F) → (⟨S131072, .i32⟩ : BufTy).Contents (Elt F)),
    binary main_v266 main_v267 main_v268 (cmpi .sge : (⟨S131072, .i32⟩ : BufTy).Contents (Elt F) → (⟨S131072, .i32⟩ : BufTy).Contents (Elt F) → (⟨S131072, .i1⟩ : BufTy).Contents (Elt F)),
    binary main_v244 main_v268 main_v269 (andi : (⟨S131072, .i1⟩ : BufTy).Contents (Elt F) → (⟨S131072, .i1⟩ : BufTy).Contents (Elt F) → (⟨S131072, .i1⟩ : BufTy).Contents (Elt F)),
    unary main_v269 main_v270 (broadcastInDim S131072x1 ![0] bcast_S131072_S131072x1_0 : (⟨S131072, .i1⟩ : BufTy).Contents (Elt F) → (⟨S131072x1, .i1⟩ : BufTy).Contents (Elt F)),
    nullary main_c_93 (constantI S_ 32 0#32),
    unary main_c_93 main_v271 (broadcastInDim S131072 ![] bcast_S_S131072 : (⟨S_, .i32⟩ : BufTy).Contents (Elt F) → (⟨S131072, .i32⟩ : BufTy).Contents (Elt F)),
    binary main_v266 main_v271 main_v272 (maxsi : (⟨S131072, .i32⟩ : BufTy).Contents (Elt F) → (⟨S131072, .i32⟩ : BufTy).Contents (Elt F) → (⟨S131072, .i32⟩ : BufTy).Contents (Elt F)),
    nullary main_c_94 (constantI S_ 32 0#32),
    unary main_c_94 main_v273 (broadcastInDim S131072 ![] bcast_S_S131072 : (⟨S_, .i32⟩ : BufTy).Contents (Elt F) → (⟨S131072, .i32⟩ : BufTy).Contents (Elt F)) ]

/-- Each line touches TensorCore references only. -/
theorem tap4p7_sub : (tap4p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap4p7_fresh : (tap4p7 : List (HloOp τ sig (Elt F))).Forall fun op => op.fresh = ∅ := by
  simp only [List.Forall]; repeat' constructor

/-- The references the stretch writes: one per line, its result. -/
def tap4p7Res : List (Ref sig .tc) := [main_v265, main_v266, main_c_92, main_v267, main_v268, main_v269, main_v270, main_c_93, main_v271, main_v272, main_c_94, main_v273]

set_option maxHeartbeats 40000000 in
/-- Each line writes only its own result. -/
theorem tap4p7_writes : (tap4p7 : List (HloOp τ sig (Elt F))).Forall fun op => op.writes ⊆ ((tap4p7Res.map (Proc.devRef (τ := τ) .tc)).toFinset) := by
  simp only [tap4p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p7_keeps (W : Valuation τ sig (Elt F)) {b : Ref sig .tc} (hb : b ∉ tap4p7Res) :
    after tap4p7 W (Proc.devRef .tc b) = W (Proc.devRef .tc b) :=
  after_of_writes_sub tap4p7 W tap4p7_writes hb

set_option maxHeartbeats 40000000 in
/-- `main_v270` after the piece, from contents holding what it reads at stage values: its stage value. -/
theorem tap4p7_v270 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v244 : W (Proc.devRef .tc main_v244) = Read.val_main_v244 (F := F) x1)
    (h_v262 : W (Proc.devRef .tc main_v262) = Read.val_main_v262 (F := F))
    (h_v263 : W (Proc.devRef .tc main_v263) = Read.val_main_v263 (F := F) x1)
    (h_v264 : W (Proc.devRef .tc main_v264) = Read.val_main_v264 (F := F) x1)
    (h_v47 : W (Proc.devRef .tc main_v47) = Read.val_main_v47 (F := F) x1) :
    after tap4p7 W (Proc.devRef .tc main_v270) = Read.val_main_v270 (F := F) x1 := by
  ref_results_v
  rewrite [h_v244, h_v262, h_v263, h_v264, h_v47]
  rfl

set_option maxHeartbeats 40000000 in
/-- `main_v272` after the piece, from contents holding what it reads at stage values: its stage value. -/
theorem tap4p7_v272 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v262 : W (Proc.devRef .tc main_v262) = Read.val_main_v262 (F := F))
    (h_v263 : W (Proc.devRef .tc main_v263) = Read.val_main_v263 (F := F) x1)
    (h_v264 : W (Proc.devRef .tc main_v264) = Read.val_main_v264 (F := F) x1)
    (h_v47 : W (Proc.devRef .tc main_v47) = Read.val_main_v47 (F := F) x1) :
    after tap4p7 W (Proc.devRef .tc main_v272) = Read.val_main_v272 (F := F) x1 := by
  ref_results_v
  rewrite [h_v262, h_v263, h_v264, h_v47]
  rfl

set_option maxHeartbeats 40000000 in
/-- `main_v273` after the piece, from contents holding what it reads at stage values: its stage value. -/
theorem tap4p7_v273 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap4p7 W (Proc.devRef .tc main_v273) = Read.val_main_v273 (F := F) := by
  ref_results_v
  rfl

set_option maxHeartbeats 40000000 in
/-- Lines 425 to 436 of @main, in order. -/
abbrev tap4p8 : List (HloOp τ sig (Elt F)) :=
  [ binary main_v272 main_v273 main_v274 (cmpi .slt : (⟨S131072, .i32⟩ : BufTy).Contents (Elt F) → (⟨S131072, .i32⟩ : BufTy).Contents (Elt F) → (⟨S131072, .i1⟩ : BufTy).Contents (Elt F)),
    nullary main_c_95 (constantI S_ 32 131072#32),
    unary main_c_95 main_v275 (broadcastInDim S131072 ![] bcast_S_S131072 : (⟨S_, .i32⟩ : BufTy).Contents (Elt F) → (⟨S131072, .i32⟩ : BufTy).Contents (Elt F)),
    binary main_v272 main_v275 main_v276 (addi : (⟨S131072, .i32⟩ : BufTy).Contents (Elt F) → (⟨S131072, .i32⟩ : BufTy).Contents (Elt F) → (⟨S131072, .i32⟩ : BufTy).Contents (Elt F)),
    ternary main_v274 main_v276 main_v272 main_v277 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v277 main_v278 (broadcastInDim S131072x1 ![0] bcast_S131072_S131072x1_0 : (⟨S131072, .i32⟩ : BufTy).Contents (Elt F) → (⟨S131072x1, .i32⟩ : BufTy).Contents (Elt F)),
    binary main_v21 main_v278 main_v279 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_96 (constant S_ .f32 0x00000000#32),
    unary main_cst_96 main_call12_v0 (id : (⟨S_, .f32⟩ : BufTy).Contents (Elt F) → (⟨S_, .f32⟩ : BufTy).Contents (Elt F)),
    unary main_v270 main_call12_v1 ((broadcastInDim S131072x64 ![0, 1] bcast_S131072x1_S131072x64_0_1) : (⟨S131072x1, .i1⟩ : BufTy).Contents (Elt F) → (⟨S131072x64, .i1⟩ : BufTy).Contents (Elt F)),
    unary main_call12_v0 main_call12_v2 ((broadcastInDim S131072x64 ![] bcast_S_S131072x64) : (⟨S_, .f32⟩ : BufTy).Contents (Elt F) → (⟨S131072x64, .f32⟩ : BufTy).Contents (Elt F)),
    ternary main_call12_v1 main_v279 main_call12_v2 main_v280 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap4p8_sub : (tap4p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap4p8_fresh : (tap4p8 : List (HloOp τ sig (Elt F))).Forall fun op => op.fresh = ∅ := by
  simp only [List.Forall]; repeat' constructor

/-- The references the stretch writes: one per line, its result. -/
def tap4p8Res : List (Ref sig .tc) := [main_v274, main_c_95, main_v275, main_v276, main_v277, main_v278, main_v279, main_cst_96, main_call12_v0, main_call12_v1, main_call12_v2, main_v280]

set_option maxHeartbeats 40000000 in
/-- Each line writes only its own result. -/
theorem tap4p8_writes : (tap4p8 : List (HloOp τ sig (Elt F))).Forall fun op => op.writes ⊆ ((tap4p8Res.map (Proc.devRef (τ := τ) .tc)).toFinset) := by
  simp only [tap4p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p8_keeps (W : Valuation τ sig (Elt F)) {b : Ref sig .tc} (hb : b ∉ tap4p8Res) :
    after tap4p8 W (Proc.devRef .tc b) = W (Proc.devRef .tc b) :=
  after_of_writes_sub tap4p8 W tap4p8_writes hb

set_option maxHeartbeats 40000000 in
/-- `main_v280` after the piece, from contents holding what it reads at stage values: its stage value. -/
theorem tap4p8_v280 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v270 : W (Proc.devRef .tc main_v270) = Read.val_main_v270 (F := F) x1)
    (h_v272 : W (Proc.devRef .tc main_v272) = Read.val_main_v272 (F := F) x1)
    (h_v273 : W (Proc.devRef .tc main_v273) = Read.val_main_v273 (F := F)) :
    after tap4p8 W (Proc.devRef .tc main_v280) = Read.val_main_v280 (F := F) x0 x1 := by
  ref_results
  rewrite [h_v21, h_v270, h_v272, h_v273]
  rfl

set_option maxHeartbeats 40000000 in
/-- Lines 437 to 440 of @main, in order. -/
abbrev tap4p9 : List (HloOp τ sig (Elt F)) :=
  [ unary main_arg2 main_v281 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F)),
    reshape main_v281 main_v282 rfl shapeCasts_S1x1x64x64_S64x64,
    binary main_v280 main_v282 main_v283 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v225 main_v283 main_v284 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap4p9_sub : (tap4p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap4p9_fresh : (tap4p9 : List (HloOp τ sig (Elt F))).Forall fun op => op.fresh = ∅ := by
  simp only [List.Forall]; repeat' constructor

/-- The references the stretch writes: one per line, its result. -/
def tap4p9Res : List (Ref sig .tc) := [main_v281, main_v282, main_v283, main_v284]

set_option maxHeartbeats 40000000 in
/-- Each line writes only its own result. -/
theorem tap4p9_writes : (tap4p9 : List (HloOp τ sig (Elt F))).Forall fun op => op.writes ⊆ ((tap4p9Res.map (Proc.devRef (τ := τ) .tc)).toFinset) := by
  simp only [tap4p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap4p9_keeps (W : Valuation τ sig (Elt F)) {b : Ref sig .tc} (hb : b ∉ tap4p9Res) :
    after tap4p9 W (Proc.devRef .tc b) = W (Proc.devRef .tc b) :=
  after_of_writes_sub tap4p9 W tap4p9_writes hb

set_option maxHeartbeats 40000000 in
/-- `main_v284` after the piece, from contents holding what it reads at stage values: its stage value. -/
theorem tap4p9_v284 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v225 : W (Proc.devRef .tc main_v225) = Read.val_main_v225 (F := F) x0 x1 x2)
    (h_v280 : W (Proc.devRef .tc main_v280) = Read.val_main_v280 (F := F) x0 x1) :
    after tap4p9 W (Proc.devRef .tc main_v284) = Read.val_main_v284 (F := F) x0 x1 x2 := by
  ref_results
  rewrite [h_arg2, h_v225, h_v280]
  rfl

/-- The whole tap: its pieces one after the other. -/
def tap4 : List (HloOp τ sig (Elt F)) := tap4p1 ++ tap4p2 ++ tap4p3 ++ tap4p4 ++ tap4p5 ++ tap4p6 ++ tap4p7 ++ tap4p8 ++ tap4p9

theorem tap4_sub : (tap4 : List (HloOp τ sig (Elt F))).Forall fun op => op.bufs ⊆ tcRefs τ sig :=
  forall_append (forall_append (forall_append (forall_append (forall_append (forall_append (forall_append (forall_append (tap4p1_sub) tap4p2_sub) tap4p3_sub) tap4p4_sub) tap4p5_sub) tap4p6_sub) tap4p7_sub) tap4p8_sub) tap4p9_sub
theorem tap4_fresh : (tap4 : List (HloOp τ sig (Elt F))).Forall fun op => op.fresh = ∅ :=
  forall_append (forall_append (forall_append (forall_append (forall_append (forall_append (forall_append (forall_append (tap4p1_fresh) tap4p2_fresh) tap4p3_fresh) tap4p4_fresh) tap4p5_fresh) tap4p6_fresh) tap4p7_fresh) tap4p8_fresh) tap4p9_fresh

/-- The references the whole tap writes. -/
def tap4Res : List (Ref sig .tc) := tap4p1Res ++ tap4p2Res ++ tap4p3Res ++ tap4p4Res ++ tap4p5Res ++ tap4p6Res ++ tap4p7Res ++ tap4p8Res ++ tap4p9Res

/-- A reference the tap does not write keeps its contents. -/
theorem tap4_keeps (W : Valuation τ sig (Elt F)) {b : Ref sig .tc} (hb : b ∉ tap4Res) :
    after tap4 W (Proc.devRef .tc b) = W (Proc.devRef .tc b) := by
  have hb' : b ∉ tap4p1Res ∧ b ∉ tap4p2Res ∧ b ∉ tap4p3Res ∧ b ∉ tap4p4Res ∧ b ∉ tap4p5Res ∧ b ∉ tap4p6Res ∧ b ∉ tap4p7Res ∧ b ∉ tap4p8Res ∧ b ∉ tap4p9Res := by
    simpa only [tap4Res, List.mem_append, not_or, and_assoc] using hb
  simp only [tap4, StableHlo.after_append]
  rw [tap4p9_keeps _ hb'.2.2.2.2.2.2.2.2, tap4p8_keeps _ hb'.2.2.2.2.2.2.2.1, tap4p7_keeps _ hb'.2.2.2.2.2.2.1, tap4p6_keeps _ hb'.2.2.2.2.2.1, tap4p5_keeps _ hb'.2.2.2.2.1, tap4p4_keeps _ hb'.2.2.2.1, tap4p3_keeps _ hb'.2.2.1, tap4p2_keeps _ hb'.2.1, tap4p1_keeps _ hb'.1]

/-- The accumulator after the whole tap, from contents holding the index arrays, the rulebook grid, the features, the
    weights and the previous accumulator at their stage values: its stage value. -/
theorem tap4_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v225) = Read.val_main_v225 (F := F) x0 x1 x2) :
    after tap4 W (Proc.devRef .tc main_v284) = Read.val_main_v284 (F := F) x0 x1 x2 := by
  simp only [tap4, StableHlo.after_append]
  have f1_v229 := tap4p1_v229 (W) x0 x1 x2 h17
  have f1_v234 := tap4p1_v234 (W) x0 x1 x2
  have f1_v233 := tap4p1_v233 (W) x0 x1 x2 h17
  have f1_v20 := (tap4p1_keeps (W) (b := main_v20) (by decide)).trans h20
  have f1_v47 := (tap4p1_keeps (W) (b := main_v47) (by decide)).trans h47
  have f1_v21 := (tap4p1_keeps (W) (b := main_v21) (by decide)).trans h21
  have f1_arg2 := (tap4p1_keeps (W) (b := main_arg2) (by decide)).trans h2
  have f1_v225 := (tap4p1_keeps (W) (b := main_v225) (by decide)).trans hacc
  have f2_v241 := tap4p2_v241 (after tap4p1 (W)) x0 x1 x2 f1_v229 f1_v233 f1_v234
  have f2_v243 := tap4p2_v243 (after tap4p1 (W)) x0 x1 x2 f1_v233
  have f2_v229 := (tap4p2_keeps (after tap4p1 (W)) (b := main_v229) (by decide)).trans f1_v229
  have f2_v233 := (tap4p2_keeps (after tap4p1 (W)) (b := main_v233) (by decide)).trans f1_v233
  have f2_v20 := (tap4p2_keeps (after tap4p1 (W)) (b := main_v20) (by decide)).trans f1_v20
  have f2_v47 := (tap4p2_keeps (after tap4p1 (W)) (b := main_v47) (by decide)).trans f1_v47
  have f2_v21 := (tap4p2_keeps (after tap4p1 (W)) (b := main_v21) (by decide)).trans f1_v21
  have f2_arg2 := (tap4p2_keeps (after tap4p1 (W)) (b := main_arg2) (by decide)).trans f1_arg2
  have f2_v225 := (tap4p2_keeps (after tap4p1 (W)) (b := main_v225) (by decide)).trans f1_v225
  have f3_call11_v0 := tap4p3_call11_v0 (after tap4p2 (after tap4p1 (W))) x0 x1 x2
  have f3_v233 := (tap4p3_keeps (after tap4p2 (after tap4p1 (W))) (b := main_v233) (by decide)).trans f2_v233
  have f3_c_85 := tap4p3_c_85 (after tap4p2 (after tap4p1 (W))) x0 x1 x2
  have f3_v20 := (tap4p3_keeps (after tap4p2 (after tap4p1 (W))) (b := main_v20) (by decide)).trans f2_v20
  have f3_v245 := tap4p3_v245 (after tap4p2 (after tap4p1 (W))) x0 x1 x2 f2_v229
  have f3_v47 := (tap4p3_keeps (after tap4p2 (after tap4p1 (W))) (b := main_v47) (by decide)).trans f2_v47
  have f3_v244 := tap4p3_v244 (after tap4p2 (after tap4p1 (W))) x0 x1 x2 f2_v241 f2_v243
  have f3_v21 := (tap4p3_keeps (after tap4p2 (after tap4p1 (W))) (b := main_v21) (by decide)).trans f2_v21
  have f3_arg2 := (tap4p3_keeps (after tap4p2 (after tap4p1 (W))) (b := main_arg2) (by decide)).trans f2_arg2
  have f3_v225 := (tap4p3_keeps (after tap4p2 (after tap4p1 (W))) (b := main_v225) (by decide)).trans f2_v225
  have f4_v245 := (tap4p4_keeps (after tap4p3 (after tap4p2 (after tap4p1 (W)))) (b := main_v245) (by decide)).trans f3_v245
  have f4_v246 := tap4p4_v246 (after tap4p3 (after tap4p2 (after tap4p1 (W)))) x0 x1 x2 f3_c_85 f3_call11_v0 f3_v233
  have f4_v251 := tap4p4_v251 (after tap4p3 (after tap4p2 (after tap4p1 (W)))) x0 x1 x2 f3_v20
  have f4_v47 := (tap4p4_keeps (after tap4p3 (after tap4p2 (after tap4p1 (W)))) (b := main_v47) (by decide)).trans f3_v47
  have f4_v244 := (tap4p4_keeps (after tap4p3 (after tap4p2 (after tap4p1 (W)))) (b := main_v244) (by decide)).trans f3_v244
  have f4_v21 := (tap4p4_keeps (after tap4p3 (after tap4p2 (after tap4p1 (W)))) (b := main_v21) (by decide)).trans f3_v21
  have f4_arg2 := (tap4p4_keeps (after tap4p3 (after tap4p2 (after tap4p1 (W)))) (b := main_arg2) (by decide)).trans f3_arg2
  have f4_v225 := (tap4p4_keeps (after tap4p3 (after tap4p2 (after tap4p1 (W)))) (b := main_v225) (by decide)).trans f3_v225
  have f5_v246 := (tap4p5_keeps (after tap4p4 (after tap4p3 (after tap4p2 (after tap4p1 (W))))) (b := main_v246) (by decide)).trans f4_v246
  have f5_v259 := tap4p5_v259 (after tap4p4 (after tap4p3 (after tap4p2 (after tap4p1 (W))))) x0 x1 x2
  have f5_v258 := tap4p5_v258 (after tap4p4 (after tap4p3 (after tap4p2 (after tap4p1 (W))))) x0 x1 x2 f4_v246
  have f5_v251 := (tap4p5_keeps (after tap4p4 (after tap4p3 (after tap4p2 (after tap4p1 (W))))) (b := main_v251) (by decide)).trans f4_v251
  have f5_v256 := tap4p5_v256 (after tap4p4 (after tap4p3 (after tap4p2 (after tap4p1 (W))))) x0 x1 x2 f4_v245
  have f5_v47 := (tap4p5_keeps (after tap4p4 (after tap4p3 (after tap4p2 (after tap4p1 (W))))) (b := main_v47) (by decide)).trans f4_v47
  have f5_v244 := (tap4p5_keeps (after tap4p4 (after tap4p3 (after tap4p2 (after tap4p1 (W))))) (b := main_v244) (by decide)).trans f4_v244
  have f5_v21 := (tap4p5_keeps (after tap4p4 (after tap4p3 (after tap4p2 (after tap4p1 (W))))) (b := main_v21) (by decide)).trans f4_v21
  have f5_arg2 := (tap4p5_keeps (after tap4p4 (after tap4p3 (after tap4p2 (after tap4p1 (W))))) (b := main_arg2) (by decide)).trans f4_arg2
  have f5_v225 := (tap4p5_keeps (after tap4p4 (after tap4p3 (after tap4p2 (after tap4p1 (W))))) (b := main_v225) (by decide)).trans f4_v225
  have f6_v262 := tap4p6_v262 (after tap4p5 (after tap4p4 (after tap4p3 (after tap4p2 (after tap4p1 (W)))))) x0 x1 x2 f5_v251
  have f6_v263 := tap4p6_v263 (after tap4p5 (after tap4p4 (after tap4p3 (after tap4p2 (after tap4p1 (W)))))) x0 x1 x2 f5_v256
  have f6_v264 := tap4p6_v264 (after tap4p5 (after tap4p4 (after tap4p3 (after tap4p2 (after tap4p1 (W)))))) x0 x1 x2 f5_v246 f5_v258 f5_v259
  have f6_v47 := (tap4p6_keeps (after tap4p5 (after tap4p4 (after tap4p3 (after tap4p2 (after tap4p1 (W)))))) (b := main_v47) (by decide)).trans f5_v47
  have f6_v244 := (tap4p6_keeps (after tap4p5 (after tap4p4 (after tap4p3 (after tap4p2 (after tap4p1 (W)))))) (b := main_v244) (by decide)).trans f5_v244
  have f6_v21 := (tap4p6_keeps (after tap4p5 (after tap4p4 (after tap4p3 (after tap4p2 (after tap4p1 (W)))))) (b := main_v21) (by decide)).trans f5_v21
  have f6_arg2 := (tap4p6_keeps (after tap4p5 (after tap4p4 (after tap4p3 (after tap4p2 (after tap4p1 (W)))))) (b := main_arg2) (by decide)).trans f5_arg2
  have f6_v225 := (tap4p6_keeps (after tap4p5 (after tap4p4 (after tap4p3 (after tap4p2 (after tap4p1 (W)))))) (b := main_v225) (by decide)).trans f5_v225
  have f7_v272 := tap4p7_v272 (after tap4p6 (after tap4p5 (after tap4p4 (after tap4p3 (after tap4p2 (after tap4p1 (W))))))) x0 x1 x2 f6_v262 f6_v263 f6_v264 f6_v47
  have f7_v273 := tap4p7_v273 (after tap4p6 (after tap4p5 (after tap4p4 (after tap4p3 (after tap4p2 (after tap4p1 (W))))))) x0 x1 x2
  have f7_v21 := (tap4p7_keeps (after tap4p6 (after tap4p5 (after tap4p4 (after tap4p3 (after tap4p2 (after tap4p1 (W))))))) (b := main_v21) (by decide)).trans f6_v21
  have f7_v270 := tap4p7_v270 (after tap4p6 (after tap4p5 (after tap4p4 (after tap4p3 (after tap4p2 (after tap4p1 (W))))))) x0 x1 x2 f6_v244 f6_v262 f6_v263 f6_v264 f6_v47
  have f7_arg2 := (tap4p7_keeps (after tap4p6 (after tap4p5 (after tap4p4 (after tap4p3 (after tap4p2 (after tap4p1 (W))))))) (b := main_arg2) (by decide)).trans f6_arg2
  have f7_v225 := (tap4p7_keeps (after tap4p6 (after tap4p5 (after tap4p4 (after tap4p3 (after tap4p2 (after tap4p1 (W))))))) (b := main_v225) (by decide)).trans f6_v225
  have f8_arg2 := (tap4p8_keeps (after tap4p7 (after tap4p6 (after tap4p5 (after tap4p4 (after tap4p3 (after tap4p2 (after tap4p1 (W)))))))) (b := main_arg2) (by decide)).trans f7_arg2
  have f8_v280 := tap4p8_v280 (after tap4p7 (after tap4p6 (after tap4p5 (after tap4p4 (after tap4p3 (after tap4p2 (after tap4p1 (W)))))))) x0 x1 x2 f7_v21 f7_v270 f7_v272 f7_v273
  have f8_v225 := (tap4p8_keeps (after tap4p7 (after tap4p6 (after tap4p5 (after tap4p4 (after tap4p3 (after tap4p2 (after tap4p1 (W)))))))) (b := main_v225) (by decide)).trans f7_v225
  have f9_v284 := tap4p9_v284 (after tap4p8 (after tap4p7 (after tap4p6 (after tap4p5 (after tap4p4 (after tap4p3 (after tap4p2 (after tap4p1 (W))))))))) x0 x1 x2 f8_arg2 f8_v225 f8_v280
  exact f9_v284

end Cert.ReferenceIdeal.RefRun

end
-- ==== Proof.RefTap5.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 441 to 452 of @main, in order. -/
abbrev tap5p1 : List (HloOp τ sig (Elt F)) :=
  [ unary main_v17 main_v285 ((extractStridedSlice S131072x1 ![0, 0] · slices_S131072x2_S131072x1_0_0) : (⟨S131072x2, .i32⟩ : BufTy).Contents (Elt F) → (⟨S131072x1, .i32⟩ : BufTy).Contents (Elt F)),
    reshape main_v285 main_v286 rfl shapeCasts_S131072x1_S131072,
    nullary main_c_97 (constantI S_ 32 0#32),
    unary main_c_97 main_v287 (broadcastInDim S131072 ![] bcast_S_S131072 : (⟨S_, .i32⟩ : BufTy).Contents (Elt F) → (⟨S131072, .i32⟩ : BufTy).Contents (Elt F)),
    binary main_v286 main_v287 main_v288 (addi : (⟨S131072, .i32⟩ : BufTy).Contents (Elt F) → (⟨S131072, .i32⟩ : BufTy).Contents (Elt F) → (⟨S131072, .i32⟩ : BufTy).Contents (Elt F)),
    unary main_v17 main_v289 ((extractStridedSlice S131072x1 ![0, 1] · slices_S131072x2_S131072x1_0_1) : (⟨S131072x2, .i32⟩ : BufTy).Contents (Elt F) → (⟨S131072x1, .i32⟩ : BufTy).Contents (Elt F)),
    reshape main_v289 main_v290 rfl shapeCasts_S131072x1_S131072,
    nullary main_c_98 (constantI S_ 32 0#32),
    unary main_c_98 main_v291 (broadcastInDim S131072 ![] bcast_S_S131072 : (⟨S_, .i32⟩ : BufTy).Contents (Elt F) → (⟨S131072, .i32⟩ : BufTy).Contents (Elt F)),
    binary main_v290 main_v291 main_v292 (addi : (⟨S131072, .i32⟩ : BufTy).Contents (Elt F) → (⟨S131072, .i32⟩ : BufTy).Contents (Elt F) → (⟨S131072, .i32⟩ : BufTy).Contents (Elt F)),
    nullary main_c_99 (constantI S_ 32 0#32),
    unary main_c_99 main_v293 (broadcastInDim S131072 ![] bcast_S_S131072 : (⟨S_, .i32⟩ : BufTy).Contents (Elt F) → (⟨S131072, .i32⟩ : BufTy).Contents (Elt F)) ]

/-- Each line touches TensorCore references only. -/
theorem tap5p1_sub : (tap5p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap5p1_fresh : (tap5p1 : List (HloOp τ sig (Elt F))).Forall fun op => op.fresh = ∅ := by
  simp only [List.Forall]; repeat' constructor

/-- The references the stretch writes: one per line, its result. -/
def tap5p1Res : List (Ref sig .tc) := [main_v285, main_v286, main_c_97, main_v287, main_v288, main_v289, main_v290, main_c_98, main_v291, main_v292, main_c_99, main_v293]

set_option maxHeartbeats 40000000 in
/-- Each line writes only its own result. -/
theorem tap5p1_writes : (tap5p1 : List (HloOp τ sig (Elt F))).Forall fun op => op.writes ⊆ ((tap5p1Res.map (Proc.devRef (τ := τ) .tc)).toFinset) := by
  simp only [tap5p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p1_keeps (W : Valuation τ sig (Elt F)) {b : Ref sig .tc} (hb : b ∉ tap5p1Res) :
    after tap5p1 W (Proc.devRef .tc b) = W (Proc.devRef .tc b) :=
  after_of_writes_sub tap5p1 W tap5p1_writes hb

set_option maxHeartbeats 40000000 in
/-- `main_v288` after the piece, from contents holding what it reads at stage values: its stage value. -/
theorem tap5p1_v288 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap5p1 W (Proc.devRef .tc main_v288) = Read.val_main_v288 (F := F) x1 := by
  ref_results
  rewrite [h_v17]
  rfl

set_option maxHeartbeats 40000000 in
/-- `main_v292` after the piece, from contents holding what it reads at stage values: its stage value. -/
theorem tap5p1_v292 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap5p1 W (Proc.devRef .tc main_v292) = Read.val_main_v292 (F := F) x1 := by
  ref_results
  rewrite [h_v17]
  rfl

set_option maxHeartbeats 40000000 in
/-- `main_v293` after the piece, from contents holding what it reads at stage values: its stage value. -/
theorem tap5p1_v293 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap5p1 W (Proc.devRef .tc main_v293) = Read.val_main_v293 (F := F) := by
  ref_results
  rfl

set_option maxHeartbeats 40000000 in
/-- Lines 453 to 464 of @main, in order. -/
abbrev tap5p2 : List (HloOp τ sig (Elt F)) :=
  [ binary main_v288 main_v293 main_v294 (cmpi .sge : (⟨S131072, .i32⟩ : BufTy).Contents (Elt F) → (⟨S131072, .i32⟩ : BufTy).Contents (Elt F) → (⟨S131072, .i1⟩ : BufTy).Contents (Elt F)),
    nullary main_c_100 (constantI S_ 32 256#32),
    unary main_c_100 main_v295 (broadcastInDim S131072 ![] bcast_S_S131072 : (⟨S_, .i32⟩ : BufTy).Contents (Elt F) → (⟨S131072, .i32⟩ : BufTy).Contents (Elt F)),
    binary main_v288 main_v295 main_v296 (cmpi .slt : (⟨S131072, .i32⟩ : BufTy).Contents (Elt F) → (⟨S131072, .i32⟩ : BufTy).Contents (Elt F) → (⟨S131072, .i1⟩ : BufTy).Contents (Elt F)),
    binary main_v294 main_v296 main_v297 (andi : (⟨S131072, .i1⟩ : BufTy).Contents (Elt F) → (⟨S131072, .i1⟩ : BufTy).Contents (Elt F) → (⟨S131072, .i1⟩ : BufTy).Contents (Elt F)),
    nullary main_c_101 (constantI S_ 32 0#32),
    unary main_c_101 main_v298 (broadcastInDim S131072 ![] bcast_S_S131072 : (⟨S_, .i32⟩ : BufTy).Contents (Elt F) → (⟨S131072, .i32⟩ : BufTy).Contents (Elt F)),
    binary main_v292 main_v298 main_v299 (cmpi .sge : (⟨S131072, .i32⟩ : BufTy).Contents (Elt F) → (⟨S131072, .i32⟩ : BufTy).Contents (Elt F) → (⟨S131072, .i1⟩ : BufTy).Contents (Elt F)),
    binary main_v297 main_v299 main_v300 (andi : (⟨S131072, .i1⟩ : BufTy).Contents (Elt F) → (⟨S131072, .i1⟩ : BufTy).Contents (Elt F) → (⟨S131072, .i1⟩ : BufTy).Contents (Elt F)),
    nullary main_c_102 (constantI S_ 32 256#32),
    unary main_c_102 main_v301 (broadcastInDim S131072 ![] bcast_S_S131072 : (⟨S_, .i32⟩ : BufTy).Contents (Elt F) → (⟨S131072, .i32⟩ : BufTy).Contents (Elt F)),
    binary main_v292 main_v301 main_v302 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap5p2_sub : (tap5p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap5p2_fresh : (tap5p2 : List (HloOp τ sig (Elt F))).Forall fun op => op.fresh = ∅ := by
  simp only [List.Forall]; repeat' constructor

/-- The references the stretch writes: one per line, its result. -/
def tap5p2Res : List (Ref sig .tc) := [main_v294, main_c_100, main_v295, main_v296, main_v297, main_c_101, main_v298, main_v299, main_v300, main_c_102, main_v301, main_v302]

set_option maxHeartbeats 40000000 in
/-- Each line writes only its own result. -/
theorem tap5p2_writes : (tap5p2 : List (HloOp τ sig (Elt F))).Forall fun op => op.writes ⊆ ((tap5p2Res.map (Proc.devRef (τ := τ) .tc)).toFinset) := by
  simp only [tap5p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p2_keeps (W : Valuation τ sig (Elt F)) {b : Ref sig .tc} (hb : b ∉ tap5p2Res) :
    after tap5p2 W (Proc.devRef .tc b) = W (Proc.devRef .tc b) :=
  after_of_writes_sub tap5p2 W tap5p2_writes hb

set_option maxHeartbeats 40000000 in
/-- `main_v300` after the piece, from contents holding what it reads at stage values: its stage value. -/
theorem tap5p2_v300 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v288 : W (Proc.devRef .tc main_v288) = Read.val_main_v288 (F := F) x1)
    (h_v292 : W (Proc.devRef .tc main_v292) = Read.val_main_v292 (F := F) x1)
    (h_v293 : W (Proc.devRef .tc main_v293) = Read.val_main_v293 (F := F)) :
    after tap5p2 W (Proc.devRef .tc main_v300) = Read.val_main_v300 (F := F) x1 := by
  ref_results
  rewrite [h_v288, h_v292, h_v293]
  rfl

set_option maxHeartbeats 40000000 in
/-- `main_v302` after the piece, from contents holding what it reads at stage values: its stage value. -/
theorem tap5p2_v302 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v292 : W (Proc.devRef .tc main_v292) = Read.val_main_v292 (F := F) x1) :
    after tap5p2 W (Proc.devRef .tc main_v302) = Read.val_main_v302 (F := F) x1 := by
  ref_results
  rewrite [h_v292]
  rfl

set_option maxHeartbeats 40000000 in
/-- Lines 465 to 476 of @main, in order. -/
abbrev tap5p3 : List (HloOp τ sig (Elt F)) :=
  [ binary main_v300 main_v302 main_v303 (andi : (⟨S131072, .i1⟩ : BufTy).Contents (Elt F) → (⟨S131072, .i1⟩ : BufTy).Contents (Elt F) → (⟨S131072, .i1⟩ : BufTy).Contents (Elt F)),
    nullary main_c_103 (constantI S_ 32 0#32),
    nullary main_c_104 (constantI S_ 32 255#32),
    unary main_c_103 main_call13_v0 (id : (⟨S_, .i32⟩ : BufTy).Contents (Elt F) → (⟨S_, .i32⟩ : BufTy).Contents (Elt F)),
    unary main_call13_v0 main_call13_v1 ((broadcastInDim S131072 ![] bcast_S_S131072) : (⟨S_, .i32⟩ : BufTy).Contents (Elt F) → (⟨S131072, .i32⟩ : BufTy).Contents (Elt F)),
    binary main_call13_v1 main_v288 main_call13_v2 (maxsi : (⟨S131072, .i32⟩ : BufTy).Contents (Elt F) → (⟨S131072, .i32⟩ : BufTy).Contents (Elt F) → (⟨S131072, .i32⟩ : BufTy).Contents (Elt F)),
    unary main_c_104 main_call13_v3 (id : (⟨S_, .i32⟩ : BufTy).Contents (Elt F) → (⟨S_, .i32⟩ : BufTy).Contents (Elt F)),
    unary main_call13_v3 main_call13_v4 ((broadcastInDim S131072 ![] bcast_S_S131072) : (⟨S_, .i32⟩ : BufTy).Contents (Elt F) → (⟨S131072, .i32⟩ : BufTy).Contents (Elt F)),
    binary main_call13_v4 main_call13_v2 main_v304 (minsi : (⟨S131072, .i32⟩ : BufTy).Contents (Elt F) → (⟨S131072, .i32⟩ : BufTy).Contents (Elt F) → (⟨S131072, .i32⟩ : BufTy).Contents (Elt F)),
    nullary main_c_105 (constantI S_ 32 0#32),
    nullary main_c_106 (constantI S_ 32 255#32),
    unary main_c_105 main_call14_v0 (id : (⟨S_, .i32⟩ : BufTy).Contents (Elt F) → (⟨S_, .i32⟩ : BufTy).Contents (Elt F)) ]

/-- Each line touches TensorCore references only. -/
theorem tap5p3_sub : (tap5p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap5p3_fresh : (tap5p3 : List (HloOp τ sig (Elt F))).Forall fun op => op.fresh = ∅ := by
  simp only [List.Forall]; repeat' constructor

/-- The references the stretch writes: one per line, its result. -/
def tap5p3Res : List (Ref sig .tc) := [main_v303, main_c_103, main_c_104, main_call13_v0, main_call13_v1, main_call13_v2, main_call13_v3, main_call13_v4, main_v304, main_c_105, main_c_106, main_call14_v0]

set_option maxHeartbeats 40000000 in
/-- Each line writes only its own result. -/
theorem tap5p3_writes : (tap5p3 : List (HloOp τ sig (Elt F))).Forall fun op => op.writes ⊆ ((tap5p3Res.map (Proc.devRef (τ := τ) .tc)).toFinset) := by
  simp only [tap5p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p3_keeps (W : Valuation τ sig (Elt F)) {b : Ref sig .tc} (hb : b ∉ tap5p3Res) :
    after tap5p3 W (Proc.devRef .tc b) = W (Proc.devRef .tc b) :=
  after_of_writes_sub tap5p3 W tap5p3_writes hb

set_option maxHeartbeats 40000000 in
/-- `main_v303` after the piece, from contents holding what it reads at stage values: its stage value. -/
theorem tap5p3_v303 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v300 : W (Proc.devRef .tc main_v300) = Read.val_main_v300 (F := F) x1)
    (h_v302 : W (Proc.devRef .tc main_v302) = Read.val_main_v302 (F := F) x1) :
    after tap5p3 W (Proc.devRef .tc main_v303) = Read.val_main_v303 (F := F) x1 := by
  ref_results
  rewrite [h_v300, h_v302]
  rfl

set_option maxHeartbeats 40000000 in
/-- `main_v304` after the piece, from contents holding what it reads at stage values: its stage value. -/
theorem tap5p3_v304 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v288 : W (Proc.devRef .tc main_v288) = Read.val_main_v288 (F := F) x1) :
    after tap5p3 W (Proc.devRef .tc main_v304) = Read.val_main_v304 (F := F) x1 := by
  ref_results
  rewrite [h_v288]
  rfl

set_option maxHeartbeats 40000000 in
/-- `main_c_106` after the piece, from contents holding what it reads at stage values: its stage value. -/
theorem tap5p3_c_106 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap5p3 W (Proc.devRef .tc main_c_106) = Read.val_main_c_106 (F := F) := by
  ref_results
  rfl

set_option maxHeartbeats 40000000 in
/-- `main_call14_v0` after the piece, from contents holding what it reads at stage values: its stage value. -/
theorem tap5p3_call14_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap5p3 W (Proc.devRef .tc main_call14_v0) = Read.val_main_call14_v0 (F := F) := by
  ref_results
  rfl

set_option maxHeartbeats 40000000 in
/-- Lines 477 to 488 of @main, in order. -/
abbrev tap5p4 : List (HloOp τ sig (Elt F)) :=
  [ unary main_call14_v0 main_call14_v1 ((broadcastInDim S131072 ![] bcast_S_S131072) : (⟨S_, .i32⟩ : BufTy).Contents (Elt F) → (⟨S131072, .i32⟩ : BufTy).Contents (Elt F)),
    binary main_call14_v1 main_v292 main_call14_v2 (maxsi : (⟨S131072, .i32⟩ : BufTy).Contents (Elt F) → (⟨S131072, .i32⟩ : BufTy).Contents (Elt F) → (⟨S131072, .i32⟩ : BufTy).Contents (Elt F)),
    unary main_c_106 main_call14_v3 (id : (⟨S_, .i32⟩ : BufTy).Contents (Elt F) → (⟨S_, .i32⟩ : BufTy).Contents (Elt F)),
    unary main_call14_v3 main_call14_v4 ((broadcastInDim S131072 ![] bcast_S_S131072) : (⟨S_, .i32⟩ : BufTy).Contents (Elt F) → (⟨S131072, .i32⟩ : BufTy).Contents (Elt F)),
    binary main_call14_v4 main_call14_v2 main_v305 (minsi : (⟨S131072, .i32⟩ : BufTy).Contents (Elt F) → (⟨S131072, .i32⟩ : BufTy).Contents (Elt F) → (⟨S131072, .i32⟩ : BufTy).Contents (Elt F)),
    nullary main_c_107 (constantI S_ 32 0#32),
    unary main_c_107 main_v306 (broadcastInDim S131072 ![] bcast_S_S131072 : (⟨S_, .i32⟩ : BufTy).Contents (Elt F) → (⟨S131072, .i32⟩ : BufTy).Contents (Elt F)),
    binary main_v20 main_v306 main_v307 (cmpi .slt : (⟨S131072, .i32⟩ : BufTy).Contents (Elt F) → (⟨S131072, .i32⟩ : BufTy).Contents (Elt F) → (⟨S131072, .i1⟩ : BufTy).Contents (Elt F)),
    nullary main_c_108 (constantI S_ 32 4#32),
    unary main_c_108 main_v308 (broadcastInDim S131072 ![] bcast_S_S131072 : (⟨S_, .i32⟩ : BufTy).Contents (Elt F) → (⟨S131072, .i32⟩ : BufTy).Contents (Elt F)),
    binary main_v20 main_v308 main_v309 (addi : (⟨S131072, .i32⟩ : BufTy).Contents (Elt F) → (⟨S131072, .i32⟩ : BufTy).Contents (Elt F) → (⟨S131072, .i32⟩ : BufTy).Contents (Elt F)),
    ternary main_v307 main_v309 main_v20 main_v310 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap5p4_sub : (tap5p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap5p4_fresh : (tap5p4 : List (HloOp τ sig (Elt F))).Forall fun op => op.fresh = ∅ := by
  simp only [List.Forall]; repeat' constructor

/-- The references the stretch writes: one per line, its result. -/
def tap5p4Res : List (Ref sig .tc) := [main_call14_v1, main_call14_v2, main_call14_v3, main_call14_v4, main_v305, main_c_107, main_v306, main_v307, main_c_108, main_v308, main_v309, main_v310]

set_option maxHeartbeats 40000000 in
/-- Each line writes only its own result. -/
theorem tap5p4_writes : (tap5p4 : List (HloOp τ sig (Elt F))).Forall fun op => op.writes ⊆ ((tap5p4Res.map (Proc.devRef (τ := τ) .tc)).toFinset) := by
  simp only [tap5p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p4_keeps (W : Valuation τ sig (Elt F)) {b : Ref sig .tc} (hb : b ∉ tap5p4Res) :
    after tap5p4 W (Proc.devRef .tc b) = W (Proc.devRef .tc b) :=
  after_of_writes_sub tap5p4 W tap5p4_writes hb

set_option maxHeartbeats 40000000 in
/-- `main_v305` after the piece, from contents holding what it reads at stage values: its stage value. -/
theorem tap5p4_v305 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_106 : W (Proc.devRef .tc main_c_106) = Read.val_main_c_106 (F := F))
    (h_call14_v0 : W (Proc.devRef .tc main_call14_v0) = Read.val_main_call14_v0 (F := F))
    (h_v292 : W (Proc.devRef .tc main_v292) = Read.val_main_v292 (F := F) x1) :
    after tap5p4 W (Proc.devRef .tc main_v305) = Read.val_main_v305 (F := F) x1 := by
  ref_results
  rewrite [h_c_106, h_call14_v0, h_v292]
  rfl

set_option maxHeartbeats 40000000 in
/-- `main_v310` after the piece, from contents holding what it reads at stage values: its stage value. -/
theorem tap5p4_v310 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap5p4 W (Proc.devRef .tc main_v310) = Read.val_main_v310 (F := F) := by
  ref_results
  rewrite [h_v20]
  rfl

set_option maxHeartbeats 40000000 in
/-- Lines 489 to 500 of @main, in order. -/
abbrev tap5p5 : List (HloOp τ sig (Elt F)) :=
  [ nullary main_c_109 (constantI S_ 32 0#32),
    unary main_c_109 main_v311 (broadcastInDim S131072 ![] bcast_S_S131072 : (⟨S_, .i32⟩ : BufTy).Contents (Elt F) → (⟨S131072, .i32⟩ : BufTy).Contents (Elt F)),
    binary main_v304 main_v311 main_v312 (cmpi .slt : (⟨S131072, .i32⟩ : BufTy).Contents (Elt F) → (⟨S131072, .i32⟩ : BufTy).Contents (Elt F) → (⟨S131072, .i1⟩ : BufTy).Contents (Elt F)),
    nullary main_c_110 (constantI S_ 32 256#32),
    unary main_c_110 main_v313 (broadcastInDim S131072 ![] bcast_S_S131072 : (⟨S_, .i32⟩ : BufTy).Contents (Elt F) → (⟨S131072, .i32⟩ : BufTy).Contents (Elt F)),
    binary main_v304 main_v313 main_v314 (addi : (⟨S131072, .i32⟩ : BufTy).Contents (Elt F) → (⟨S131072, .i32⟩ : BufTy).Contents (Elt F) → (⟨S131072, .i32⟩ : BufTy).Contents (Elt F)),
    ternary main_v312 main_v314 main_v304 main_v315 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_111 (constantI S_ 32 0#32),
    unary main_c_111 main_v316 (broadcastInDim S131072 ![] bcast_S_S131072 : (⟨S_, .i32⟩ : BufTy).Contents (Elt F) → (⟨S131072, .i32⟩ : BufTy).Contents (Elt F)),
    binary main_v305 main_v316 main_v317 (cmpi .slt : (⟨S131072, .i32⟩ : BufTy).Contents (Elt F) → (⟨S131072, .i32⟩ : BufTy).Contents (Elt F) → (⟨S131072, .i1⟩ : BufTy).Contents (Elt F)),
    nullary main_c_112 (constantI S_ 32 256#32),
    unary main_c_112 main_v318 (broadcastInDim S131072 ![] bcast_S_S131072 : (⟨S_, .i32⟩ : BufTy).Contents (Elt F) → (⟨S131072, .i32⟩ : BufTy).Contents (Elt F)) ]

/-- Each line touches TensorCore references only. -/
theorem tap5p5_sub : (tap5p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap5p5_fresh : (tap5p5 : List (HloOp τ sig (Elt F))).Forall fun op => op.fresh = ∅ := by
  simp only [List.Forall]; repeat' constructor

/-- The references the stretch writes: one per line, its result. -/
def tap5p5Res : List (Ref sig .tc) := [main_c_109, main_v311, main_v312, main_c_110, main_v313, main_v314, main_v315, main_c_111, main_v316, main_v317, main_c_112, main_v318]

set_option maxHeartbeats 40000000 in
/-- Each line writes only its own result. -/
theorem tap5p5_writes : (tap5p5 : List (HloOp τ sig (Elt F))).Forall fun op => op.writes ⊆ ((tap5p5Res.map (Proc.devRef (τ := τ) .tc)).toFinset) := by
  simp only [tap5p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p5_keeps (W : Valuation τ sig (Elt F)) {b : Ref sig .tc} (hb : b ∉ tap5p5Res) :
    after tap5p5 W (Proc.devRef .tc b) = W (Proc.devRef .tc b) :=
  after_of_writes_sub tap5p5 W tap5p5_writes hb

set_option maxHeartbeats 40000000 in
/-- `main_v315` after the piece, from contents holding what it reads at stage values: its stage value. -/
theorem tap5p5_v315 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v304 : W (Proc.devRef .tc main_v304) = Read.val_main_v304 (F := F) x1) :
    after tap5p5 W (Proc.devRef .tc main_v315) = Read.val_main_v315 (F := F) x1 := by
  ref_results
  rewrite [h_v304]
  rfl

set_option maxHeartbeats 40000000 in
/-- `main_v317` after the piece, from contents holding what it reads at stage values: its stage value. -/
theorem tap5p5_v317 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v305 : W (Proc.devRef .tc main_v305) = Read.val_main_v305 (F := F) x1) :
    after tap5p5 W (Proc.devRef .tc main_v317) = Read.val_main_v317 (F := F) x1 := by
  ref_results
  rewrite [h_v305]
  rfl

set_option maxHeartbeats 40000000 in
/-- `main_v318` after the piece, from contents holding what it reads at stage values: its stage value. -/
theorem tap5p5_v318 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap5p5 W (Proc.devRef .tc main_v318) = Read.val_main_v318 (F := F) := by
  ref_results
  rfl

set_option maxHeartbeats 40000000 in
/-- Lines 501 to 505 of @main, in order. -/
abbrev tap5p6 : List (HloOp τ sig (Elt F)) :=
  [ binary main_v305 main_v318 main_v319 (addi : (⟨S131072, .i32⟩ : BufTy).Contents (Elt F) → (⟨S131072, .i32⟩ : BufTy).Contents (Elt F) → (⟨S131072, .i32⟩ : BufTy).Contents (Elt F)),
    ternary main_v317 main_v319 main_v305 main_v320 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v310 main_v321 (broadcastInDim S131072x1 ![0] bcast_S131072_S131072x1_0 : (⟨S131072, .i32⟩ : BufTy).Contents (Elt F) → (⟨S131072x1, .i32⟩ : BufTy).Contents (Elt F)),
    unary main_v315 main_v322 (broadcastInDim S131072x1 ![0] bcast_S131072_S131072x1_0 : (⟨S131072, .i32⟩ : BufTy).Contents (Elt F) → (⟨S131072x1, .i32⟩ : BufTy).Contents (Elt F)),
    unary main_v320 main_v323 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap5p6_sub : (tap5p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap5p6_fresh : (tap5p6 : List (HloOp τ sig (Elt F))).Forall fun op => op.fresh = ∅ := by
  simp only [List.Forall]; repeat' constructor

/-- The references the stretch writes: one per line, its result. -/
def tap5p6Res : List (Ref sig .tc) := [main_v319, main_v320, main_v321, main_v322, main_v323]

set_option maxHeartbeats 40000000 in
/-- Each line writes only its own result. -/
theorem tap5p6_writes : (tap5p6 : List (HloOp τ sig (Elt F))).Forall fun op => op.writes ⊆ ((tap5p6Res.map (Proc.devRef (τ := τ) .tc)).toFinset) := by
  simp only [tap5p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p6_keeps (W : Valuation τ sig (Elt F)) {b : Ref sig .tc} (hb : b ∉ tap5p6Res) :
    after tap5p6 W (Proc.devRef .tc b) = W (Proc.devRef .tc b) :=
  after_of_writes_sub tap5p6 W tap5p6_writes hb

set_option maxHeartbeats 40000000 in
/-- `main_v321` after the piece, from contents holding what it reads at stage values: its stage value. -/
theorem tap5p6_v321 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v310 : W (Proc.devRef .tc main_v310) = Read.val_main_v310 (F := F)) :
    after tap5p6 W (Proc.devRef .tc main_v321) = Read.val_main_v321 (F := F) := by
  ref_results
  rewrite [h_v310]
  rfl

set_option maxHeartbeats 40000000 in
/-- `main_v322` after the piece, from contents holding what it reads at stage values: its stage value. -/
theorem tap5p6_v322 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v315 : W (Proc.devRef .tc main_v315) = Read.val_main_v315 (F := F) x1) :
    after tap5p6 W (Proc.devRef .tc main_v322) = Read.val_main_v322 (F := F) x1 := by
  ref_results
  rewrite [h_v315]
  rfl

set_option maxHeartbeats 40000000 in
/-- `main_v323` after the piece, from contents holding what it reads at stage values: its stage value. -/
theorem tap5p6_v323 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v305 : W (Proc.devRef .tc main_v305) = Read.val_main_v305 (F := F) x1)
    (h_v317 : W (Proc.devRef .tc main_v317) = Read.val_main_v317 (F := F) x1)
    (h_v318 : W (Proc.devRef .tc main_v318) = Read.val_main_v318 (F := F)) :
    after tap5p6 W (Proc.devRef .tc main_v323) = Read.val_main_v323 (F := F) x1 := by
  ref_results
  rewrite [h_v305, h_v317, h_v318]
  rfl

set_option maxHeartbeats 40000000 in
/-- Lines 506 to 517 of @main, in order. -/
abbrev tap5p7 : List (HloOp τ sig (Elt F)) :=
  [ nary ![main_v321, main_v322, main_v323] main_v324 (fun u => concatenate S131072x3 1 [⟨S131072x1, u 0⟩, ⟨S131072x1, u 1⟩, ⟨S131072x1, u 2⟩] concatenates_S131072x1_S131072x1_S131072x1_S131072x3_d1),
    binary main_v47 main_v324 main_v325 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_113 (constantI S_ 32 0#32),
    unary main_c_113 main_v326 (broadcastInDim S131072 ![] bcast_S_S131072 : (⟨S_, .i32⟩ : BufTy).Contents (Elt F) → (⟨S131072, .i32⟩ : BufTy).Contents (Elt F)),
    binary main_v325 main_v326 main_v327 (cmpi .sge : (⟨S131072, .i32⟩ : BufTy).Contents (Elt F) → (⟨S131072, .i32⟩ : BufTy).Contents (Elt F) → (⟨S131072, .i1⟩ : BufTy).Contents (Elt F)),
    binary main_v303 main_v327 main_v328 (andi : (⟨S131072, .i1⟩ : BufTy).Contents (Elt F) → (⟨S131072, .i1⟩ : BufTy).Contents (Elt F) → (⟨S131072, .i1⟩ : BufTy).Contents (Elt F)),
    unary main_v328 main_v329 (broadcastInDim S131072x1 ![0] bcast_S131072_S131072x1_0 : (⟨S131072, .i1⟩ : BufTy).Contents (Elt F) → (⟨S131072x1, .i1⟩ : BufTy).Contents (Elt F)),
    nullary main_c_114 (constantI S_ 32 0#32),
    unary main_c_114 main_v330 (broadcastInDim S131072 ![] bcast_S_S131072 : (⟨S_, .i32⟩ : BufTy).Contents (Elt F) → (⟨S131072, .i32⟩ : BufTy).Contents (Elt F)),
    binary main_v325 main_v330 main_v331 (maxsi : (⟨S131072, .i32⟩ : BufTy).Contents (Elt F) → (⟨S131072, .i32⟩ : BufTy).Contents (Elt F) → (⟨S131072, .i32⟩ : BufTy).Contents (Elt F)),
    nullary main_c_115 (constantI S_ 32 0#32),
    unary main_c_115 main_v332 (broadcastInDim S131072 ![] bcast_S_S131072 : (⟨S_, .i32⟩ : BufTy).Contents (Elt F) → (⟨S131072, .i32⟩ : BufTy).Contents (Elt F)) ]

/-- Each line touches TensorCore references only. -/
theorem tap5p7_sub : (tap5p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap5p7_fresh : (tap5p7 : List (HloOp τ sig (Elt F))).Forall fun op => op.fresh = ∅ := by
  simp only [List.Forall]; repeat' constructor

/-- The references the stretch writes: one per line, its result. -/
def tap5p7Res : List (Ref sig .tc) := [main_v324, main_v325, main_c_113, main_v326, main_v327, main_v328, main_v329, main_c_114, main_v330, main_v331, main_c_115, main_v332]

set_option maxHeartbeats 40000000 in
/-- Each line writes only its own result. -/
theorem tap5p7_writes : (tap5p7 : List (HloOp τ sig (Elt F))).Forall fun op => op.writes ⊆ ((tap5p7Res.map (Proc.devRef (τ := τ) .tc)).toFinset) := by
  simp only [tap5p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p7_keeps (W : Valuation τ sig (Elt F)) {b : Ref sig .tc} (hb : b ∉ tap5p7Res) :
    after tap5p7 W (Proc.devRef .tc b) = W (Proc.devRef .tc b) :=
  after_of_writes_sub tap5p7 W tap5p7_writes hb

set_option maxHeartbeats 40000000 in
/-- `main_v329` after the piece, from contents holding what it reads at stage values: its stage value. -/
theorem tap5p7_v329 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v303 : W (Proc.devRef .tc main_v303) = Read.val_main_v303 (F := F) x1)
    (h_v321 : W (Proc.devRef .tc main_v321) = Read.val_main_v321 (F := F))
    (h_v322 : W (Proc.devRef .tc main_v322) = Read.val_main_v322 (F := F) x1)
    (h_v323 : W (Proc.devRef .tc main_v323) = Read.val_main_v323 (F := F) x1)
    (h_v47 : W (Proc.devRef .tc main_v47) = Read.val_main_v47 (F := F) x1) :
    after tap5p7 W (Proc.devRef .tc main_v329) = Read.val_main_v329 (F := F) x1 := by
  ref_results_v
  rewrite [h_v303, h_v321, h_v322, h_v323, h_v47]
  rfl

set_option maxHeartbeats 40000000 in
/-- `main_v331` after the piece, from contents holding what it reads at stage values: its stage value. -/
theorem tap5p7_v331 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v321 : W (Proc.devRef .tc main_v321) = Read.val_main_v321 (F := F))
    (h_v322 : W (Proc.devRef .tc main_v322) = Read.val_main_v322 (F := F) x1)
    (h_v323 : W (Proc.devRef .tc main_v323) = Read.val_main_v323 (F := F) x1)
    (h_v47 : W (Proc.devRef .tc main_v47) = Read.val_main_v47 (F := F) x1) :
    after tap5p7 W (Proc.devRef .tc main_v331) = Read.val_main_v331 (F := F) x1 := by
  ref_results_v
  rewrite [h_v321, h_v322, h_v323, h_v47]
  rfl

set_option maxHeartbeats 40000000 in
/-- `main_v332` after the piece, from contents holding what it reads at stage values: its stage value. -/
theorem tap5p7_v332 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap5p7 W (Proc.devRef .tc main_v332) = Read.val_main_v332 (F := F) := by
  ref_results_v
  rfl

set_option maxHeartbeats 40000000 in
/-- Lines 518 to 529 of @main, in order. -/
abbrev tap5p8 : List (HloOp τ sig (Elt F)) :=
  [ binary main_v331 main_v332 main_v333 (cmpi .slt : (⟨S131072, .i32⟩ : BufTy).Contents (Elt F) → (⟨S131072, .i32⟩ : BufTy).Contents (Elt F) → (⟨S131072, .i1⟩ : BufTy).Contents (Elt F)),
    nullary main_c_116 (constantI S_ 32 131072#32),
    unary main_c_116 main_v334 (broadcastInDim S131072 ![] bcast_S_S131072 : (⟨S_, .i32⟩ : BufTy).Contents (Elt F) → (⟨S131072, .i32⟩ : BufTy).Contents (Elt F)),
    binary main_v331 main_v334 main_v335 (addi : (⟨S131072, .i32⟩ : BufTy).Contents (Elt F) → (⟨S131072, .i32⟩ : BufTy).Contents (Elt F) → (⟨S131072, .i32⟩ : BufTy).Contents (Elt F)),
    ternary main_v333 main_v335 main_v331 main_v336 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v336 main_v337 (broadcastInDim S131072x1 ![0] bcast_S131072_S131072x1_0 : (⟨S131072, .i32⟩ : BufTy).Contents (Elt F) → (⟨S131072x1, .i32⟩ : BufTy).Contents (Elt F)),
    binary main_v21 main_v337 main_v338 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_117 (constant S_ .f32 0x00000000#32),
    unary main_cst_117 main_call15_v0 (id : (⟨S_, .f32⟩ : BufTy).Contents (Elt F) → (⟨S_, .f32⟩ : BufTy).Contents (Elt F)),
    unary main_v329 main_call15_v1 ((broadcastInDim S131072x64 ![0, 1] bcast_S131072x1_S131072x64_0_1) : (⟨S131072x1, .i1⟩ : BufTy).Contents (Elt F) → (⟨S131072x64, .i1⟩ : BufTy).Contents (Elt F)),
    unary main_call15_v0 main_call15_v2 ((broadcastInDim S131072x64 ![] bcast_S_S131072x64) : (⟨S_, .f32⟩ : BufTy).Contents (Elt F) → (⟨S131072x64, .f32⟩ : BufTy).Contents (Elt F)),
    ternary main_call15_v1 main_v338 main_call15_v2 main_v339 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap5p8_sub : (tap5p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap5p8_fresh : (tap5p8 : List (HloOp τ sig (Elt F))).Forall fun op => op.fresh = ∅ := by
  simp only [List.Forall]; repeat' constructor

/-- The references the stretch writes: one per line, its result. -/
def tap5p8Res : List (Ref sig .tc) := [main_v333, main_c_116, main_v334, main_v335, main_v336, main_v337, main_v338, main_cst_117, main_call15_v0, main_call15_v1, main_call15_v2, main_v339]

set_option maxHeartbeats 40000000 in
/-- Each line writes only its own result. -/
theorem tap5p8_writes : (tap5p8 : List (HloOp τ sig (Elt F))).Forall fun op => op.writes ⊆ ((tap5p8Res.map (Proc.devRef (τ := τ) .tc)).toFinset) := by
  simp only [tap5p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p8_keeps (W : Valuation τ sig (Elt F)) {b : Ref sig .tc} (hb : b ∉ tap5p8Res) :
    after tap5p8 W (Proc.devRef .tc b) = W (Proc.devRef .tc b) :=
  after_of_writes_sub tap5p8 W tap5p8_writes hb

set_option maxHeartbeats 40000000 in
/-- `main_v339` after the piece, from contents holding what it reads at stage values: its stage value. -/
theorem tap5p8_v339 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v329 : W (Proc.devRef .tc main_v329) = Read.val_main_v329 (F := F) x1)
    (h_v331 : W (Proc.devRef .tc main_v331) = Read.val_main_v331 (F := F) x1)
    (h_v332 : W (Proc.devRef .tc main_v332) = Read.val_main_v332 (F := F)) :
    after tap5p8 W (Proc.devRef .tc main_v339) = Read.val_main_v339 (F := F) x0 x1 := by
  ref_results
  rewrite [h_v21, h_v329, h_v331, h_v332]
  rfl

set_option maxHeartbeats 40000000 in
/-- Lines 530 to 533 of @main, in order. -/
abbrev tap5p9 : List (HloOp τ sig (Elt F)) :=
  [ unary main_arg2 main_v340 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F)),
    reshape main_v340 main_v341 rfl shapeCasts_S1x1x64x64_S64x64,
    binary main_v339 main_v341 main_v342 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v284 main_v342 main_v343 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap5p9_sub : (tap5p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap5p9_fresh : (tap5p9 : List (HloOp τ sig (Elt F))).Forall fun op => op.fresh = ∅ := by
  simp only [List.Forall]; repeat' constructor

/-- The references the stretch writes: one per line, its result. -/
def tap5p9Res : List (Ref sig .tc) := [main_v340, main_v341, main_v342, main_v343]

set_option maxHeartbeats 40000000 in
/-- Each line writes only its own result. -/
theorem tap5p9_writes : (tap5p9 : List (HloOp τ sig (Elt F))).Forall fun op => op.writes ⊆ ((tap5p9Res.map (Proc.devRef (τ := τ) .tc)).toFinset) := by
  simp only [tap5p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap5p9_keeps (W : Valuation τ sig (Elt F)) {b : Ref sig .tc} (hb : b ∉ tap5p9Res) :
    after tap5p9 W (Proc.devRef .tc b) = W (Proc.devRef .tc b) :=
  after_of_writes_sub tap5p9 W tap5p9_writes hb

set_option maxHeartbeats 40000000 in
/-- `main_v343` after the piece, from contents holding what it reads at stage values: its stage value. -/
theorem tap5p9_v343 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v284 : W (Proc.devRef .tc main_v284) = Read.val_main_v284 (F := F) x0 x1 x2)
    (h_v339 : W (Proc.devRef .tc main_v339) = Read.val_main_v339 (F := F) x0 x1) :
    after tap5p9 W (Proc.devRef .tc main_v343) = Read.val_main_v343 (F := F) x0 x1 x2 := by
  ref_results
  rewrite [h_arg2, h_v284, h_v339]
  rfl

/-- The whole tap: its pieces one after the other. -/
def tap5 : List (HloOp τ sig (Elt F)) := tap5p1 ++ tap5p2 ++ tap5p3 ++ tap5p4 ++ tap5p5 ++ tap5p6 ++ tap5p7 ++ tap5p8 ++ tap5p9

theorem tap5_sub : (tap5 : List (HloOp τ sig (Elt F))).Forall fun op => op.bufs ⊆ tcRefs τ sig :=
  forall_append (forall_append (forall_append (forall_append (forall_append (forall_append (forall_append (forall_append (tap5p1_sub) tap5p2_sub) tap5p3_sub) tap5p4_sub) tap5p5_sub) tap5p6_sub) tap5p7_sub) tap5p8_sub) tap5p9_sub
theorem tap5_fresh : (tap5 : List (HloOp τ sig (Elt F))).Forall fun op => op.fresh = ∅ :=
  forall_append (forall_append (forall_append (forall_append (forall_append (forall_append (forall_append (forall_append (tap5p1_fresh) tap5p2_fresh) tap5p3_fresh) tap5p4_fresh) tap5p5_fresh) tap5p6_fresh) tap5p7_fresh) tap5p8_fresh) tap5p9_fresh

/-- The references the whole tap writes. -/
def tap5Res : List (Ref sig .tc) := tap5p1Res ++ tap5p2Res ++ tap5p3Res ++ tap5p4Res ++ tap5p5Res ++ tap5p6Res ++ tap5p7Res ++ tap5p8Res ++ tap5p9Res

/-- A reference the tap does not write keeps its contents. -/
theorem tap5_keeps (W : Valuation τ sig (Elt F)) {b : Ref sig .tc} (hb : b ∉ tap5Res) :
    after tap5 W (Proc.devRef .tc b) = W (Proc.devRef .tc b) := by
  have hb' : b ∉ tap5p1Res ∧ b ∉ tap5p2Res ∧ b ∉ tap5p3Res ∧ b ∉ tap5p4Res ∧ b ∉ tap5p5Res ∧ b ∉ tap5p6Res ∧ b ∉ tap5p7Res ∧ b ∉ tap5p8Res ∧ b ∉ tap5p9Res := by
    simpa only [tap5Res, List.mem_append, not_or, and_assoc] using hb
  simp only [tap5, StableHlo.after_append]
  rw [tap5p9_keeps _ hb'.2.2.2.2.2.2.2.2, tap5p8_keeps _ hb'.2.2.2.2.2.2.2.1, tap5p7_keeps _ hb'.2.2.2.2.2.2.1, tap5p6_keeps _ hb'.2.2.2.2.2.1, tap5p5_keeps _ hb'.2.2.2.2.1, tap5p4_keeps _ hb'.2.2.2.1, tap5p3_keeps _ hb'.2.2.1, tap5p2_keeps _ hb'.2.1, tap5p1_keeps _ hb'.1]

/-- The accumulator after the whole tap, from contents holding the index arrays, the rulebook grid, the features, the
    weights and the previous accumulator at their stage values: its stage value. -/
theorem tap5_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v284) = Read.val_main_v284 (F := F) x0 x1 x2) :
    after tap5 W (Proc.devRef .tc main_v343) = Read.val_main_v343 (F := F) x0 x1 x2 := by
  simp only [tap5, StableHlo.after_append]
  have f1_v288 := tap5p1_v288 (W) x0 x1 x2 h17
  have f1_v293 := tap5p1_v293 (W) x0 x1 x2
  have f1_v292 := tap5p1_v292 (W) x0 x1 x2 h17
  have f1_v20 := (tap5p1_keeps (W) (b := main_v20) (by decide)).trans h20
  have f1_v47 := (tap5p1_keeps (W) (b := main_v47) (by decide)).trans h47
  have f1_v21 := (tap5p1_keeps (W) (b := main_v21) (by decide)).trans h21
  have f1_arg2 := (tap5p1_keeps (W) (b := main_arg2) (by decide)).trans h2
  have f1_v284 := (tap5p1_keeps (W) (b := main_v284) (by decide)).trans hacc
  have f2_v300 := tap5p2_v300 (after tap5p1 (W)) x0 x1 x2 f1_v288 f1_v292 f1_v293
  have f2_v302 := tap5p2_v302 (after tap5p1 (W)) x0 x1 x2 f1_v292
  have f2_v288 := (tap5p2_keeps (after tap5p1 (W)) (b := main_v288) (by decide)).trans f1_v288
  have f2_v292 := (tap5p2_keeps (after tap5p1 (W)) (b := main_v292) (by decide)).trans f1_v292
  have f2_v20 := (tap5p2_keeps (after tap5p1 (W)) (b := main_v20) (by decide)).trans f1_v20
  have f2_v47 := (tap5p2_keeps (after tap5p1 (W)) (b := main_v47) (by decide)).trans f1_v47
  have f2_v21 := (tap5p2_keeps (after tap5p1 (W)) (b := main_v21) (by decide)).trans f1_v21
  have f2_arg2 := (tap5p2_keeps (after tap5p1 (W)) (b := main_arg2) (by decide)).trans f1_arg2
  have f2_v284 := (tap5p2_keeps (after tap5p1 (W)) (b := main_v284) (by decide)).trans f1_v284
  have f3_call14_v0 := tap5p3_call14_v0 (after tap5p2 (after tap5p1 (W))) x0 x1 x2
  have f3_v292 := (tap5p3_keeps (after tap5p2 (after tap5p1 (W))) (b := main_v292) (by decide)).trans f2_v292
  have f3_c_106 := tap5p3_c_106 (after tap5p2 (after tap5p1 (W))) x0 x1 x2
  have f3_v20 := (tap5p3_keeps (after tap5p2 (after tap5p1 (W))) (b := main_v20) (by decide)).trans f2_v20
  have f3_v304 := tap5p3_v304 (after tap5p2 (after tap5p1 (W))) x0 x1 x2 f2_v288
  have f3_v47 := (tap5p3_keeps (after tap5p2 (after tap5p1 (W))) (b := main_v47) (by decide)).trans f2_v47
  have f3_v303 := tap5p3_v303 (after tap5p2 (after tap5p1 (W))) x0 x1 x2 f2_v300 f2_v302
  have f3_v21 := (tap5p3_keeps (after tap5p2 (after tap5p1 (W))) (b := main_v21) (by decide)).trans f2_v21
  have f3_arg2 := (tap5p3_keeps (after tap5p2 (after tap5p1 (W))) (b := main_arg2) (by decide)).trans f2_arg2
  have f3_v284 := (tap5p3_keeps (after tap5p2 (after tap5p1 (W))) (b := main_v284) (by decide)).trans f2_v284
  have f4_v304 := (tap5p4_keeps (after tap5p3 (after tap5p2 (after tap5p1 (W)))) (b := main_v304) (by decide)).trans f3_v304
  have f4_v305 := tap5p4_v305 (after tap5p3 (after tap5p2 (after tap5p1 (W)))) x0 x1 x2 f3_c_106 f3_call14_v0 f3_v292
  have f4_v310 := tap5p4_v310 (after tap5p3 (after tap5p2 (after tap5p1 (W)))) x0 x1 x2 f3_v20
  have f4_v47 := (tap5p4_keeps (after tap5p3 (after tap5p2 (after tap5p1 (W)))) (b := main_v47) (by decide)).trans f3_v47
  have f4_v303 := (tap5p4_keeps (after tap5p3 (after tap5p2 (after tap5p1 (W)))) (b := main_v303) (by decide)).trans f3_v303
  have f4_v21 := (tap5p4_keeps (after tap5p3 (after tap5p2 (after tap5p1 (W)))) (b := main_v21) (by decide)).trans f3_v21
  have f4_arg2 := (tap5p4_keeps (after tap5p3 (after tap5p2 (after tap5p1 (W)))) (b := main_arg2) (by decide)).trans f3_arg2
  have f4_v284 := (tap5p4_keeps (after tap5p3 (after tap5p2 (after tap5p1 (W)))) (b := main_v284) (by decide)).trans f3_v284
  have f5_v305 := (tap5p5_keeps (after tap5p4 (after tap5p3 (after tap5p2 (after tap5p1 (W))))) (b := main_v305) (by decide)).trans f4_v305
  have f5_v318 := tap5p5_v318 (after tap5p4 (after tap5p3 (after tap5p2 (after tap5p1 (W))))) x0 x1 x2
  have f5_v317 := tap5p5_v317 (after tap5p4 (after tap5p3 (after tap5p2 (after tap5p1 (W))))) x0 x1 x2 f4_v305
  have f5_v310 := (tap5p5_keeps (after tap5p4 (after tap5p3 (after tap5p2 (after tap5p1 (W))))) (b := main_v310) (by decide)).trans f4_v310
  have f5_v315 := tap5p5_v315 (after tap5p4 (after tap5p3 (after tap5p2 (after tap5p1 (W))))) x0 x1 x2 f4_v304
  have f5_v47 := (tap5p5_keeps (after tap5p4 (after tap5p3 (after tap5p2 (after tap5p1 (W))))) (b := main_v47) (by decide)).trans f4_v47
  have f5_v303 := (tap5p5_keeps (after tap5p4 (after tap5p3 (after tap5p2 (after tap5p1 (W))))) (b := main_v303) (by decide)).trans f4_v303
  have f5_v21 := (tap5p5_keeps (after tap5p4 (after tap5p3 (after tap5p2 (after tap5p1 (W))))) (b := main_v21) (by decide)).trans f4_v21
  have f5_arg2 := (tap5p5_keeps (after tap5p4 (after tap5p3 (after tap5p2 (after tap5p1 (W))))) (b := main_arg2) (by decide)).trans f4_arg2
  have f5_v284 := (tap5p5_keeps (after tap5p4 (after tap5p3 (after tap5p2 (after tap5p1 (W))))) (b := main_v284) (by decide)).trans f4_v284
  have f6_v321 := tap5p6_v321 (after tap5p5 (after tap5p4 (after tap5p3 (after tap5p2 (after tap5p1 (W)))))) x0 x1 x2 f5_v310
  have f6_v322 := tap5p6_v322 (after tap5p5 (after tap5p4 (after tap5p3 (after tap5p2 (after tap5p1 (W)))))) x0 x1 x2 f5_v315
  have f6_v323 := tap5p6_v323 (after tap5p5 (after tap5p4 (after tap5p3 (after tap5p2 (after tap5p1 (W)))))) x0 x1 x2 f5_v305 f5_v317 f5_v318
  have f6_v47 := (tap5p6_keeps (after tap5p5 (after tap5p4 (after tap5p3 (after tap5p2 (after tap5p1 (W)))))) (b := main_v47) (by decide)).trans f5_v47
  have f6_v303 := (tap5p6_keeps (after tap5p5 (after tap5p4 (after tap5p3 (after tap5p2 (after tap5p1 (W)))))) (b := main_v303) (by decide)).trans f5_v303
  have f6_v21 := (tap5p6_keeps (after tap5p5 (after tap5p4 (after tap5p3 (after tap5p2 (after tap5p1 (W)))))) (b := main_v21) (by decide)).trans f5_v21
  have f6_arg2 := (tap5p6_keeps (after tap5p5 (after tap5p4 (after tap5p3 (after tap5p2 (after tap5p1 (W)))))) (b := main_arg2) (by decide)).trans f5_arg2
  have f6_v284 := (tap5p6_keeps (after tap5p5 (after tap5p4 (after tap5p3 (after tap5p2 (after tap5p1 (W)))))) (b := main_v284) (by decide)).trans f5_v284
  have f7_v331 := tap5p7_v331 (after tap5p6 (after tap5p5 (after tap5p4 (after tap5p3 (after tap5p2 (after tap5p1 (W))))))) x0 x1 x2 f6_v321 f6_v322 f6_v323 f6_v47
  have f7_v332 := tap5p7_v332 (after tap5p6 (after tap5p5 (after tap5p4 (after tap5p3 (after tap5p2 (after tap5p1 (W))))))) x0 x1 x2
  have f7_v21 := (tap5p7_keeps (after tap5p6 (after tap5p5 (after tap5p4 (after tap5p3 (after tap5p2 (after tap5p1 (W))))))) (b := main_v21) (by decide)).trans f6_v21
  have f7_v329 := tap5p7_v329 (after tap5p6 (after tap5p5 (after tap5p4 (after tap5p3 (after tap5p2 (after tap5p1 (W))))))) x0 x1 x2 f6_v303 f6_v321 f6_v322 f6_v323 f6_v47
  have f7_arg2 := (tap5p7_keeps (after tap5p6 (after tap5p5 (after tap5p4 (after tap5p3 (after tap5p2 (after tap5p1 (W))))))) (b := main_arg2) (by decide)).trans f6_arg2
  have f7_v284 := (tap5p7_keeps (after tap5p6 (after tap5p5 (after tap5p4 (after tap5p3 (after tap5p2 (after tap5p1 (W))))))) (b := main_v284) (by decide)).trans f6_v284
  have f8_arg2 := (tap5p8_keeps (after tap5p7 (after tap5p6 (after tap5p5 (after tap5p4 (after tap5p3 (after tap5p2 (after tap5p1 (W)))))))) (b := main_arg2) (by decide)).trans f7_arg2
  have f8_v339 := tap5p8_v339 (after tap5p7 (after tap5p6 (after tap5p5 (after tap5p4 (after tap5p3 (after tap5p2 (after tap5p1 (W)))))))) x0 x1 x2 f7_v21 f7_v329 f7_v331 f7_v332
  have f8_v284 := (tap5p8_keeps (after tap5p7 (after tap5p6 (after tap5p5 (after tap5p4 (after tap5p3 (after tap5p2 (after tap5p1 (W)))))))) (b := main_v284) (by decide)).trans f7_v284
  have f9_v343 := tap5p9_v343 (after tap5p8 (after tap5p7 (after tap5p6 (after tap5p5 (after tap5p4 (after tap5p3 (after tap5p2 (after tap5p1 (W))))))))) x0 x1 x2 f8_arg2 f8_v284 f8_v339
  exact f9_v343

end Cert.ReferenceIdeal.RefRun

end
-- ==== Proof.RefTap6.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 534 to 545 of @main, in order. -/
abbrev tap6p1 : List (HloOp τ sig (Elt F)) :=
  [ unary main_v17 main_v344 ((extractStridedSlice S131072x1 ![0, 0] · slices_S131072x2_S131072x1_0_0) : (⟨S131072x2, .i32⟩ : BufTy).Contents (Elt F) → (⟨S131072x1, .i32⟩ : BufTy).Contents (Elt F)),
    reshape main_v344 main_v345 rfl shapeCasts_S131072x1_S131072,
    nullary main_c_118 (constantI S_ 32 0#32),
    unary main_c_118 main_v346 (broadcastInDim S131072 ![] bcast_S_S131072 : (⟨S_, .i32⟩ : BufTy).Contents (Elt F) → (⟨S131072, .i32⟩ : BufTy).Contents (Elt F)),
    binary main_v345 main_v346 main_v347 (addi : (⟨S131072, .i32⟩ : BufTy).Contents (Elt F) → (⟨S131072, .i32⟩ : BufTy).Contents (Elt F) → (⟨S131072, .i32⟩ : BufTy).Contents (Elt F)),
    unary main_v17 main_v348 ((extractStridedSlice S131072x1 ![0, 1] · slices_S131072x2_S131072x1_0_1) : (⟨S131072x2, .i32⟩ : BufTy).Contents (Elt F) → (⟨S131072x1, .i32⟩ : BufTy).Contents (Elt F)),
    reshape main_v348 main_v349 rfl shapeCasts_S131072x1_S131072,
    nullary main_c_119 (constantI S_ 32 1#32),
    unary main_c_119 main_v350 (broadcastInDim S131072 ![] bcast_S_S131072 : (⟨S_, .i32⟩ : BufTy).Contents (Elt F) → (⟨S131072, .i32⟩ : BufTy).Contents (Elt F)),
    binary main_v349 main_v350 main_v351 (addi : (⟨S131072, .i32⟩ : BufTy).Contents (Elt F) → (⟨S131072, .i32⟩ : BufTy).Contents (Elt F) → (⟨S131072, .i32⟩ : BufTy).Contents (Elt F)),
    nullary main_c_120 (constantI S_ 32 0#32),
    unary main_c_120 main_v352 (broadcastInDim S131072 ![] bcast_S_S131072 : (⟨S_, .i32⟩ : BufTy).Contents (Elt F) → (⟨S131072, .i32⟩ : BufTy).Contents (Elt F)) ]

/-- Each line touches TensorCore references only. -/
theorem tap6p1_sub : (tap6p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap6p1_fresh : (tap6p1 : List (HloOp τ sig (Elt F))).Forall fun op => op.fresh = ∅ := by
  simp only [List.Forall]; repeat' constructor

/-- The references the stretch writes: one per line, its result. -/
def tap6p1Res : List (Ref sig .tc) := [main_v344, main_v345, main_c_118, main_v346, main_v347, main_v348, main_v349, main_c_119, main_v350, main_v351, main_c_120, main_v352]

set_option maxHeartbeats 40000000 in
/-- Each line writes only its own result. -/
theorem tap6p1_writes : (tap6p1 : List (HloOp τ sig (Elt F))).Forall fun op => op.writes ⊆ ((tap6p1Res.map (Proc.devRef (τ := τ) .tc)).toFinset) := by
  simp only [tap6p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p1_keeps (W : Valuation τ sig (Elt F)) {b : Ref sig .tc} (hb : b ∉ tap6p1Res) :
    after tap6p1 W (Proc.devRef .tc b) = W (Proc.devRef .tc b) :=
  after_of_writes_sub tap6p1 W tap6p1_writes hb

set_option maxHeartbeats 40000000 in
/-- `main_v347` after the piece, from contents holding what it reads at stage values: its stage value. -/
theorem tap6p1_v347 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap6p1 W (Proc.devRef .tc main_v347) = Read.val_main_v347 (F := F) x1 := by
  ref_results
  rewrite [h_v17]
  rfl

set_option maxHeartbeats 40000000 in
/-- `main_v351` after the piece, from contents holding what it reads at stage values: its stage value. -/
theorem tap6p1_v351 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap6p1 W (Proc.devRef .tc main_v351) = Read.val_main_v351 (F := F) x1 := by
  ref_results
  rewrite [h_v17]
  rfl

set_option maxHeartbeats 40000000 in
/-- `main_v352` after the piece, from contents holding what it reads at stage values: its stage value. -/
theorem tap6p1_v352 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap6p1 W (Proc.devRef .tc main_v352) = Read.val_main_v352 (F := F) := by
  ref_results
  rfl

set_option maxHeartbeats 40000000 in
/-- Lines 546 to 557 of @main, in order. -/
abbrev tap6p2 : List (HloOp τ sig (Elt F)) :=
  [ binary main_v347 main_v352 main_v353 (cmpi .sge : (⟨S131072, .i32⟩ : BufTy).Contents (Elt F) → (⟨S131072, .i32⟩ : BufTy).Contents (Elt F) → (⟨S131072, .i1⟩ : BufTy).Contents (Elt F)),
    nullary main_c_121 (constantI S_ 32 256#32),
    unary main_c_121 main_v354 (broadcastInDim S131072 ![] bcast_S_S131072 : (⟨S_, .i32⟩ : BufTy).Contents (Elt F) → (⟨S131072, .i32⟩ : BufTy).Contents (Elt F)),
    binary main_v347 main_v354 main_v355 (cmpi .slt : (⟨S131072, .i32⟩ : BufTy).Contents (Elt F) → (⟨S131072, .i32⟩ : BufTy).Contents (Elt F) → (⟨S131072, .i1⟩ : BufTy).Contents (Elt F)),
    binary main_v353 main_v355 main_v356 (andi : (⟨S131072, .i1⟩ : BufTy).Contents (Elt F) → (⟨S131072, .i1⟩ : BufTy).Contents (Elt F) → (⟨S131072, .i1⟩ : BufTy).Contents (Elt F)),
    nullary main_c_122 (constantI S_ 32 0#32),
    unary main_c_122 main_v357 (broadcastInDim S131072 ![] bcast_S_S131072 : (⟨S_, .i32⟩ : BufTy).Contents (Elt F) → (⟨S131072, .i32⟩ : BufTy).Contents (Elt F)),
    binary main_v351 main_v357 main_v358 (cmpi .sge : (⟨S131072, .i32⟩ : BufTy).Contents (Elt F) → (⟨S131072, .i32⟩ : BufTy).Contents (Elt F) → (⟨S131072, .i1⟩ : BufTy).Contents (Elt F)),
    binary main_v356 main_v358 main_v359 (andi : (⟨S131072, .i1⟩ : BufTy).Contents (Elt F) → (⟨S131072, .i1⟩ : BufTy).Contents (Elt F) → (⟨S131072, .i1⟩ : BufTy).Contents (Elt F)),
    nullary main_c_123 (constantI S_ 32 256#32),
    unary main_c_123 main_v360 (broadcastInDim S131072 ![] bcast_S_S131072 : (⟨S_, .i32⟩ : BufTy).Contents (Elt F) → (⟨S131072, .i32⟩ : BufTy).Contents (Elt F)),
    binary main_v351 main_v360 main_v361 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap6p2_sub : (tap6p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap6p2_fresh : (tap6p2 : List (HloOp τ sig (Elt F))).Forall fun op => op.fresh = ∅ := by
  simp only [List.Forall]; repeat' constructor

/-- The references the stretch writes: one per line, its result. -/
def tap6p2Res : List (Ref sig .tc) := [main_v353, main_c_121, main_v354, main_v355, main_v356, main_c_122, main_v357, main_v358, main_v359, main_c_123, main_v360, main_v361]

set_option maxHeartbeats 40000000 in
/-- Each line writes only its own result. -/
theorem tap6p2_writes : (tap6p2 : List (HloOp τ sig (Elt F))).Forall fun op => op.writes ⊆ ((tap6p2Res.map (Proc.devRef (τ := τ) .tc)).toFinset) := by
  simp only [tap6p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p2_keeps (W : Valuation τ sig (Elt F)) {b : Ref sig .tc} (hb : b ∉ tap6p2Res) :
    after tap6p2 W (Proc.devRef .tc b) = W (Proc.devRef .tc b) :=
  after_of_writes_sub tap6p2 W tap6p2_writes hb

set_option maxHeartbeats 40000000 in
/-- `main_v359` after the piece, from contents holding what it reads at stage values: its stage value. -/
theorem tap6p2_v359 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v347 : W (Proc.devRef .tc main_v347) = Read.val_main_v347 (F := F) x1)
    (h_v351 : W (Proc.devRef .tc main_v351) = Read.val_main_v351 (F := F) x1)
    (h_v352 : W (Proc.devRef .tc main_v352) = Read.val_main_v352 (F := F)) :
    after tap6p2 W (Proc.devRef .tc main_v359) = Read.val_main_v359 (F := F) x1 := by
  ref_results
  rewrite [h_v347, h_v351, h_v352]
  rfl

set_option maxHeartbeats 40000000 in
/-- `main_v361` after the piece, from contents holding what it reads at stage values: its stage value. -/
theorem tap6p2_v361 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v351 : W (Proc.devRef .tc main_v351) = Read.val_main_v351 (F := F) x1) :
    after tap6p2 W (Proc.devRef .tc main_v361) = Read.val_main_v361 (F := F) x1 := by
  ref_results
  rewrite [h_v351]
  rfl

set_option maxHeartbeats 40000000 in
/-- Lines 558 to 569 of @main, in order. -/
abbrev tap6p3 : List (HloOp τ sig (Elt F)) :=
  [ binary main_v359 main_v361 main_v362 (andi : (⟨S131072, .i1⟩ : BufTy).Contents (Elt F) → (⟨S131072, .i1⟩ : BufTy).Contents (Elt F) → (⟨S131072, .i1⟩ : BufTy).Contents (Elt F)),
    nullary main_c_124 (constantI S_ 32 0#32),
    nullary main_c_125 (constantI S_ 32 255#32),
    unary main_c_124 main_call16_v0 (id : (⟨S_, .i32⟩ : BufTy).Contents (Elt F) → (⟨S_, .i32⟩ : BufTy).Contents (Elt F)),
    unary main_call16_v0 main_call16_v1 ((broadcastInDim S131072 ![] bcast_S_S131072) : (⟨S_, .i32⟩ : BufTy).Contents (Elt F) → (⟨S131072, .i32⟩ : BufTy).Contents (Elt F)),
    binary main_call16_v1 main_v347 main_call16_v2 (maxsi : (⟨S131072, .i32⟩ : BufTy).Contents (Elt F) → (⟨S131072, .i32⟩ : BufTy).Contents (Elt F) → (⟨S131072, .i32⟩ : BufTy).Contents (Elt F)),
    unary main_c_125 main_call16_v3 (id : (⟨S_, .i32⟩ : BufTy).Contents (Elt F) → (⟨S_, .i32⟩ : BufTy).Contents (Elt F)),
    unary main_call16_v3 main_call16_v4 ((broadcastInDim S131072 ![] bcast_S_S131072) : (⟨S_, .i32⟩ : BufTy).Contents (Elt F) → (⟨S131072, .i32⟩ : BufTy).Contents (Elt F)),
    binary main_call16_v4 main_call16_v2 main_v363 (minsi : (⟨S131072, .i32⟩ : BufTy).Contents (Elt F) → (⟨S131072, .i32⟩ : BufTy).Contents (Elt F) → (⟨S131072, .i32⟩ : BufTy).Contents (Elt F)),
    nullary main_c_126 (constantI S_ 32 0#32),
    nullary main_c_127 (constantI S_ 32 255#32),
    unary main_c_126 main_call17_v0 (id : (⟨S_, .i32⟩ : BufTy).Contents (Elt F) → (⟨S_, .i32⟩ : BufTy).Contents (Elt F)) ]

/-- Each line touches TensorCore references only. -/
theorem tap6p3_sub : (tap6p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap6p3_fresh : (tap6p3 : List (HloOp τ sig (Elt F))).Forall fun op => op.fresh = ∅ := by
  simp only [List.Forall]; repeat' constructor

/-- The references the stretch writes: one per line, its result. -/
def tap6p3Res : List (Ref sig .tc) := [main_v362, main_c_124, main_c_125, main_call16_v0, main_call16_v1, main_call16_v2, main_call16_v3, main_call16_v4, main_v363, main_c_126, main_c_127, main_call17_v0]

set_option maxHeartbeats 40000000 in
/-- Each line writes only its own result. -/
theorem tap6p3_writes : (tap6p3 : List (HloOp τ sig (Elt F))).Forall fun op => op.writes ⊆ ((tap6p3Res.map (Proc.devRef (τ := τ) .tc)).toFinset) := by
  simp only [tap6p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p3_keeps (W : Valuation τ sig (Elt F)) {b : Ref sig .tc} (hb : b ∉ tap6p3Res) :
    after tap6p3 W (Proc.devRef .tc b) = W (Proc.devRef .tc b) :=
  after_of_writes_sub tap6p3 W tap6p3_writes hb

set_option maxHeartbeats 40000000 in
/-- `main_v362` after the piece, from contents holding what it reads at stage values: its stage value. -/
theorem tap6p3_v362 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v359 : W (Proc.devRef .tc main_v359) = Read.val_main_v359 (F := F) x1)
    (h_v361 : W (Proc.devRef .tc main_v361) = Read.val_main_v361 (F := F) x1) :
    after tap6p3 W (Proc.devRef .tc main_v362) = Read.val_main_v362 (F := F) x1 := by
  ref_results
  rewrite [h_v359, h_v361]
  rfl

set_option maxHeartbeats 40000000 in
/-- `main_v363` after the piece, from contents holding what it reads at stage values: its stage value. -/
theorem tap6p3_v363 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v347 : W (Proc.devRef .tc main_v347) = Read.val_main_v347 (F := F) x1) :
    after tap6p3 W (Proc.devRef .tc main_v363) = Read.val_main_v363 (F := F) x1 := by
  ref_results
  rewrite [h_v347]
  rfl

set_option maxHeartbeats 40000000 in
/-- `main_c_127` after the piece, from contents holding what it reads at stage values: its stage value. -/
theorem tap6p3_c_127 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap6p3 W (Proc.devRef .tc main_c_127) = Read.val_main_c_127 (F := F) := by
  ref_results
  rfl

set_option maxHeartbeats 40000000 in
/-- `main_call17_v0` after the piece, from contents holding what it reads at stage values: its stage value. -/
theorem tap6p3_call17_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap6p3 W (Proc.devRef .tc main_call17_v0) = Read.val_main_call17_v0 (F := F) := by
  ref_results
  rfl

set_option maxHeartbeats 40000000 in
/-- Lines 570 to 581 of @main, in order. -/
abbrev tap6p4 : List (HloOp τ sig (Elt F)) :=
  [ unary main_call17_v0 main_call17_v1 ((broadcastInDim S131072 ![] bcast_S_S131072) : (⟨S_, .i32⟩ : BufTy).Contents (Elt F) → (⟨S131072, .i32⟩ : BufTy).Contents (Elt F)),
    binary main_call17_v1 main_v351 main_call17_v2 (maxsi : (⟨S131072, .i32⟩ : BufTy).Contents (Elt F) → (⟨S131072, .i32⟩ : BufTy).Contents (Elt F) → (⟨S131072, .i32⟩ : BufTy).Contents (Elt F)),
    unary main_c_127 main_call17_v3 (id : (⟨S_, .i32⟩ : BufTy).Contents (Elt F) → (⟨S_, .i32⟩ : BufTy).Contents (Elt F)),
    unary main_call17_v3 main_call17_v4 ((broadcastInDim S131072 ![] bcast_S_S131072) : (⟨S_, .i32⟩ : BufTy).Contents (Elt F) → (⟨S131072, .i32⟩ : BufTy).Contents (Elt F)),
    binary main_call17_v4 main_call17_v2 main_v364 (minsi : (⟨S131072, .i32⟩ : BufTy).Contents (Elt F) → (⟨S131072, .i32⟩ : BufTy).Contents (Elt F) → (⟨S131072, .i32⟩ : BufTy).Contents (Elt F)),
    nullary main_c_128 (constantI S_ 32 0#32),
    unary main_c_128 main_v365 (broadcastInDim S131072 ![] bcast_S_S131072 : (⟨S_, .i32⟩ : BufTy).Contents (Elt F) → (⟨S131072, .i32⟩ : BufTy).Contents (Elt F)),
    binary main_v20 main_v365 main_v366 (cmpi .slt : (⟨S131072, .i32⟩ : BufTy).Contents (Elt F) → (⟨S131072, .i32⟩ : BufTy).Contents (Elt F) → (⟨S131072, .i1⟩ : BufTy).Contents (Elt F)),
    nullary main_c_129 (constantI S_ 32 4#32),
    unary main_c_129 main_v367 (broadcastInDim S131072 ![] bcast_S_S131072 : (⟨S_, .i32⟩ : BufTy).Contents (Elt F) → (⟨S131072, .i32⟩ : BufTy).Contents (Elt F)),
    binary main_v20 main_v367 main_v368 (addi : (⟨S131072, .i32⟩ : BufTy).Contents (Elt F) → (⟨S131072, .i32⟩ : BufTy).Contents (Elt F) → (⟨S131072, .i32⟩ : BufTy).Contents (Elt F)),
    ternary main_v366 main_v368 main_v20 main_v369 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap6p4_sub : (tap6p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap6p4_fresh : (tap6p4 : List (HloOp τ sig (Elt F))).Forall fun op => op.fresh = ∅ := by
  simp only [List.Forall]; repeat' constructor

/-- The references the stretch writes: one per line, its result. -/
def tap6p4Res : List (Ref sig .tc) := [main_call17_v1, main_call17_v2, main_call17_v3, main_call17_v4, main_v364, main_c_128, main_v365, main_v366, main_c_129, main_v367, main_v368, main_v369]

set_option maxHeartbeats 40000000 in
/-- Each line writes only its own result. -/
theorem tap6p4_writes : (tap6p4 : List (HloOp τ sig (Elt F))).Forall fun op => op.writes ⊆ ((tap6p4Res.map (Proc.devRef (τ := τ) .tc)).toFinset) := by
  simp only [tap6p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p4_keeps (W : Valuation τ sig (Elt F)) {b : Ref sig .tc} (hb : b ∉ tap6p4Res) :
    after tap6p4 W (Proc.devRef .tc b) = W (Proc.devRef .tc b) :=
  after_of_writes_sub tap6p4 W tap6p4_writes hb

set_option maxHeartbeats 40000000 in
/-- `main_v364` after the piece, from contents holding what it reads at stage values: its stage value. -/
theorem tap6p4_v364 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_127 : W (Proc.devRef .tc main_c_127) = Read.val_main_c_127 (F := F))
    (h_call17_v0 : W (Proc.devRef .tc main_call17_v0) = Read.val_main_call17_v0 (F := F))
    (h_v351 : W (Proc.devRef .tc main_v351) = Read.val_main_v351 (F := F) x1) :
    after tap6p4 W (Proc.devRef .tc main_v364) = Read.val_main_v364 (F := F) x1 := by
  ref_results
  rewrite [h_c_127, h_call17_v0, h_v351]
  rfl

set_option maxHeartbeats 40000000 in
/-- `main_v369` after the piece, from contents holding what it reads at stage values: its stage value. -/
theorem tap6p4_v369 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap6p4 W (Proc.devRef .tc main_v369) = Read.val_main_v369 (F := F) := by
  ref_results
  rewrite [h_v20]
  rfl

set_option maxHeartbeats 40000000 in
/-- Lines 582 to 593 of @main, in order. -/
abbrev tap6p5 : List (HloOp τ sig (Elt F)) :=
  [ nullary main_c_130 (constantI S_ 32 0#32),
    unary main_c_130 main_v370 (broadcastInDim S131072 ![] bcast_S_S131072 : (⟨S_, .i32⟩ : BufTy).Contents (Elt F) → (⟨S131072, .i32⟩ : BufTy).Contents (Elt F)),
    binary main_v363 main_v370 main_v371 (cmpi .slt : (⟨S131072, .i32⟩ : BufTy).Contents (Elt F) → (⟨S131072, .i32⟩ : BufTy).Contents (Elt F) → (⟨S131072, .i1⟩ : BufTy).Contents (Elt F)),
    nullary main_c_131 (constantI S_ 32 256#32),
    unary main_c_131 main_v372 (broadcastInDim S131072 ![] bcast_S_S131072 : (⟨S_, .i32⟩ : BufTy).Contents (Elt F) → (⟨S131072, .i32⟩ : BufTy).Contents (Elt F)),
    binary main_v363 main_v372 main_v373 (addi : (⟨S131072, .i32⟩ : BufTy).Contents (Elt F) → (⟨S131072, .i32⟩ : BufTy).Contents (Elt F) → (⟨S131072, .i32⟩ : BufTy).Contents (Elt F)),
    ternary main_v371 main_v373 main_v363 main_v374 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_132 (constantI S_ 32 0#32),
    unary main_c_132 main_v375 (broadcastInDim S131072 ![] bcast_S_S131072 : (⟨S_, .i32⟩ : BufTy).Contents (Elt F) → (⟨S131072, .i32⟩ : BufTy).Contents (Elt F)),
    binary main_v364 main_v375 main_v376 (cmpi .slt : (⟨S131072, .i32⟩ : BufTy).Contents (Elt F) → (⟨S131072, .i32⟩ : BufTy).Contents (Elt F) → (⟨S131072, .i1⟩ : BufTy).Contents (Elt F)),
    nullary main_c_133 (constantI S_ 32 256#32),
    unary main_c_133 main_v377 (broadcastInDim S131072 ![] bcast_S_S131072 : (⟨S_, .i32⟩ : BufTy).Contents (Elt F) → (⟨S131072, .i32⟩ : BufTy).Contents (Elt F)) ]

/-- Each line touches TensorCore references only. -/
theorem tap6p5_sub : (tap6p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap6p5_fresh : (tap6p5 : List (HloOp τ sig (Elt F))).Forall fun op => op.fresh = ∅ := by
  simp only [List.Forall]; repeat' constructor

/-- The references the stretch writes: one per line, its result. -/
def tap6p5Res : List (Ref sig .tc) := [main_c_130, main_v370, main_v371, main_c_131, main_v372, main_v373, main_v374, main_c_132, main_v375, main_v376, main_c_133, main_v377]

set_option maxHeartbeats 40000000 in
/-- Each line writes only its own result. -/
theorem tap6p5_writes : (tap6p5 : List (HloOp τ sig (Elt F))).Forall fun op => op.writes ⊆ ((tap6p5Res.map (Proc.devRef (τ := τ) .tc)).toFinset) := by
  simp only [tap6p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p5_keeps (W : Valuation τ sig (Elt F)) {b : Ref sig .tc} (hb : b ∉ tap6p5Res) :
    after tap6p5 W (Proc.devRef .tc b) = W (Proc.devRef .tc b) :=
  after_of_writes_sub tap6p5 W tap6p5_writes hb

set_option maxHeartbeats 40000000 in
/-- `main_v374` after the piece, from contents holding what it reads at stage values: its stage value. -/
theorem tap6p5_v374 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v363 : W (Proc.devRef .tc main_v363) = Read.val_main_v363 (F := F) x1) :
    after tap6p5 W (Proc.devRef .tc main_v374) = Read.val_main_v374 (F := F) x1 := by
  ref_results
  rewrite [h_v363]
  rfl

set_option maxHeartbeats 40000000 in
/-- `main_v376` after the piece, from contents holding what it reads at stage values: its stage value. -/
theorem tap6p5_v376 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v364 : W (Proc.devRef .tc main_v364) = Read.val_main_v364 (F := F) x1) :
    after tap6p5 W (Proc.devRef .tc main_v376) = Read.val_main_v376 (F := F) x1 := by
  ref_results
  rewrite [h_v364]
  rfl

set_option maxHeartbeats 40000000 in
/-- `main_v377` after the piece, from contents holding what it reads at stage values: its stage value. -/
theorem tap6p5_v377 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap6p5 W (Proc.devRef .tc main_v377) = Read.val_main_v377 (F := F) := by
  ref_results
  rfl

set_option maxHeartbeats 40000000 in
/-- Lines 594 to 598 of @main, in order. -/
abbrev tap6p6 : List (HloOp τ sig (Elt F)) :=
  [ binary main_v364 main_v377 main_v378 (addi : (⟨S131072, .i32⟩ : BufTy).Contents (Elt F) → (⟨S131072, .i32⟩ : BufTy).Contents (Elt F) → (⟨S131072, .i32⟩ : BufTy).Contents (Elt F)),
    ternary main_v376 main_v378 main_v364 main_v379 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v369 main_v380 (broadcastInDim S131072x1 ![0] bcast_S131072_S131072x1_0 : (⟨S131072, .i32⟩ : BufTy).Contents (Elt F) → (⟨S131072x1, .i32⟩ : BufTy).Contents (Elt F)),
    unary main_v374 main_v381 (broadcastInDim S131072x1 ![0] bcast_S131072_S131072x1_0 : (⟨S131072, .i32⟩ : BufTy).Contents (Elt F) → (⟨S131072x1, .i32⟩ : BufTy).Contents (Elt F)),
    unary main_v379 main_v382 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap6p6_sub : (tap6p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap6p6_fresh : (tap6p6 : List (HloOp τ sig (Elt F))).Forall fun op => op.fresh = ∅ := by
  simp only [List.Forall]; repeat' constructor

/-- The references the stretch writes: one per line, its result. -/
def tap6p6Res : List (Ref sig .tc) := [main_v378, main_v379, main_v380, main_v381, main_v382]

set_option maxHeartbeats 40000000 in
/-- Each line writes only its own result. -/
theorem tap6p6_writes : (tap6p6 : List (HloOp τ sig (Elt F))).Forall fun op => op.writes ⊆ ((tap6p6Res.map (Proc.devRef (τ := τ) .tc)).toFinset) := by
  simp only [tap6p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p6_keeps (W : Valuation τ sig (Elt F)) {b : Ref sig .tc} (hb : b ∉ tap6p6Res) :
    after tap6p6 W (Proc.devRef .tc b) = W (Proc.devRef .tc b) :=
  after_of_writes_sub tap6p6 W tap6p6_writes hb

set_option maxHeartbeats 40000000 in
/-- `main_v380` after the piece, from contents holding what it reads at stage values: its stage value. -/
theorem tap6p6_v380 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v369 : W (Proc.devRef .tc main_v369) = Read.val_main_v369 (F := F)) :
    after tap6p6 W (Proc.devRef .tc main_v380) = Read.val_main_v380 (F := F) := by
  ref_results
  rewrite [h_v369]
  rfl

set_option maxHeartbeats 40000000 in
/-- `main_v381` after the piece, from contents holding what it reads at stage values: its stage value. -/
theorem tap6p6_v381 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v374 : W (Proc.devRef .tc main_v374) = Read.val_main_v374 (F := F) x1) :
    after tap6p6 W (Proc.devRef .tc main_v381) = Read.val_main_v381 (F := F) x1 := by
  ref_results
  rewrite [h_v374]
  rfl

set_option maxHeartbeats 40000000 in
/-- `main_v382` after the piece, from contents holding what it reads at stage values: its stage value. -/
theorem tap6p6_v382 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v364 : W (Proc.devRef .tc main_v364) = Read.val_main_v364 (F := F) x1)
    (h_v376 : W (Proc.devRef .tc main_v376) = Read.val_main_v376 (F := F) x1)
    (h_v377 : W (Proc.devRef .tc main_v377) = Read.val_main_v377 (F := F)) :
    after tap6p6 W (Proc.devRef .tc main_v382) = Read.val_main_v382 (F := F) x1 := by
  ref_results
  rewrite [h_v364, h_v376, h_v377]
  rfl

set_option maxHeartbeats 40000000 in
/-- Lines 599 to 610 of @main, in order. -/
abbrev tap6p7 : List (HloOp τ sig (Elt F)) :=
  [ nary ![main_v380, main_v381, main_v382] main_v383 (fun u => concatenate S131072x3 1 [⟨S131072x1, u 0⟩, ⟨S131072x1, u 1⟩, ⟨S131072x1, u 2⟩] concatenates_S131072x1_S131072x1_S131072x1_S131072x3_d1),
    binary main_v47 main_v383 main_v384 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_134 (constantI S_ 32 0#32),
    unary main_c_134 main_v385 (broadcastInDim S131072 ![] bcast_S_S131072 : (⟨S_, .i32⟩ : BufTy).Contents (Elt F) → (⟨S131072, .i32⟩ : BufTy).Contents (Elt F)),
    binary main_v384 main_v385 main_v386 (cmpi .sge : (⟨S131072, .i32⟩ : BufTy).Contents (Elt F) → (⟨S131072, .i32⟩ : BufTy).Contents (Elt F) → (⟨S131072, .i1⟩ : BufTy).Contents (Elt F)),
    binary main_v362 main_v386 main_v387 (andi : (⟨S131072, .i1⟩ : BufTy).Contents (Elt F) → (⟨S131072, .i1⟩ : BufTy).Contents (Elt F) → (⟨S131072, .i1⟩ : BufTy).Contents (Elt F)),
    unary main_v387 main_v388 (broadcastInDim S131072x1 ![0] bcast_S131072_S131072x1_0 : (⟨S131072, .i1⟩ : BufTy).Contents (Elt F) → (⟨S131072x1, .i1⟩ : BufTy).Contents (Elt F)),
    nullary main_c_135 (constantI S_ 32 0#32),
    unary main_c_135 main_v389 (broadcastInDim S131072 ![] bcast_S_S131072 : (⟨S_, .i32⟩ : BufTy).Contents (Elt F) → (⟨S131072, .i32⟩ : BufTy).Contents (Elt F)),
    binary main_v384 main_v389 main_v390 (maxsi : (⟨S131072, .i32⟩ : BufTy).Contents (Elt F) → (⟨S131072, .i32⟩ : BufTy).Contents (Elt F) → (⟨S131072, .i32⟩ : BufTy).Contents (Elt F)),
    nullary main_c_136 (constantI S_ 32 0#32),
    unary main_c_136 main_v391 (broadcastInDim S131072 ![] bcast_S_S131072 : (⟨S_, .i32⟩ : BufTy).Contents (Elt F) → (⟨S131072, .i32⟩ : BufTy).Contents (Elt F)) ]

/-- Each line touches TensorCore references only. -/
theorem tap6p7_sub : (tap6p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap6p7_fresh : (tap6p7 : List (HloOp τ sig (Elt F))).Forall fun op => op.fresh = ∅ := by
  simp only [List.Forall]; repeat' constructor

/-- The references the stretch writes: one per line, its result. -/
def tap6p7Res : List (Ref sig .tc) := [main_v383, main_v384, main_c_134, main_v385, main_v386, main_v387, main_v388, main_c_135, main_v389, main_v390, main_c_136, main_v391]

set_option maxHeartbeats 40000000 in
/-- Each line writes only its own result. -/
theorem tap6p7_writes : (tap6p7 : List (HloOp τ sig (Elt F))).Forall fun op => op.writes ⊆ ((tap6p7Res.map (Proc.devRef (τ := τ) .tc)).toFinset) := by
  simp only [tap6p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p7_keeps (W : Valuation τ sig (Elt F)) {b : Ref sig .tc} (hb : b ∉ tap6p7Res) :
    after tap6p7 W (Proc.devRef .tc b) = W (Proc.devRef .tc b) :=
  after_of_writes_sub tap6p7 W tap6p7_writes hb

set_option maxHeartbeats 40000000 in
/-- `main_v388` after the piece, from contents holding what it reads at stage values: its stage value. -/
theorem tap6p7_v388 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v362 : W (Proc.devRef .tc main_v362) = Read.val_main_v362 (F := F) x1)
    (h_v380 : W (Proc.devRef .tc main_v380) = Read.val_main_v380 (F := F))
    (h_v381 : W (Proc.devRef .tc main_v381) = Read.val_main_v381 (F := F) x1)
    (h_v382 : W (Proc.devRef .tc main_v382) = Read.val_main_v382 (F := F) x1)
    (h_v47 : W (Proc.devRef .tc main_v47) = Read.val_main_v47 (F := F) x1) :
    after tap6p7 W (Proc.devRef .tc main_v388) = Read.val_main_v388 (F := F) x1 := by
  ref_results_v
  rewrite [h_v362, h_v380, h_v381, h_v382, h_v47]
  rfl

set_option maxHeartbeats 40000000 in
/-- `main_v390` after the piece, from contents holding what it reads at stage values: its stage value. -/
theorem tap6p7_v390 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v380 : W (Proc.devRef .tc main_v380) = Read.val_main_v380 (F := F))
    (h_v381 : W (Proc.devRef .tc main_v381) = Read.val_main_v381 (F := F) x1)
    (h_v382 : W (Proc.devRef .tc main_v382) = Read.val_main_v382 (F := F) x1)
    (h_v47 : W (Proc.devRef .tc main_v47) = Read.val_main_v47 (F := F) x1) :
    after tap6p7 W (Proc.devRef .tc main_v390) = Read.val_main_v390 (F := F) x1 := by
  ref_results_v
  rewrite [h_v380, h_v381, h_v382, h_v47]
  rfl

set_option maxHeartbeats 40000000 in
/-- `main_v391` after the piece, from contents holding what it reads at stage values: its stage value. -/
theorem tap6p7_v391 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap6p7 W (Proc.devRef .tc main_v391) = Read.val_main_v391 (F := F) := by
  ref_results_v
  rfl

set_option maxHeartbeats 40000000 in
/-- Lines 611 to 622 of @main, in order. -/
abbrev tap6p8 : List (HloOp τ sig (Elt F)) :=
  [ binary main_v390 main_v391 main_v392 (cmpi .slt : (⟨S131072, .i32⟩ : BufTy).Contents (Elt F) → (⟨S131072, .i32⟩ : BufTy).Contents (Elt F) → (⟨S131072, .i1⟩ : BufTy).Contents (Elt F)),
    nullary main_c_137 (constantI S_ 32 131072#32),
    unary main_c_137 main_v393 (broadcastInDim S131072 ![] bcast_S_S131072 : (⟨S_, .i32⟩ : BufTy).Contents (Elt F) → (⟨S131072, .i32⟩ : BufTy).Contents (Elt F)),
    binary main_v390 main_v393 main_v394 (addi : (⟨S131072, .i32⟩ : BufTy).Contents (Elt F) → (⟨S131072, .i32⟩ : BufTy).Contents (Elt F) → (⟨S131072, .i32⟩ : BufTy).Contents (Elt F)),
    ternary main_v392 main_v394 main_v390 main_v395 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v395 main_v396 (broadcastInDim S131072x1 ![0] bcast_S131072_S131072x1_0 : (⟨S131072, .i32⟩ : BufTy).Contents (Elt F) → (⟨S131072x1, .i32⟩ : BufTy).Contents (Elt F)),
    binary main_v21 main_v396 main_v397 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_138 (constant S_ .f32 0x00000000#32),
    unary main_cst_138 main_call18_v0 (id : (⟨S_, .f32⟩ : BufTy).Contents (Elt F) → (⟨S_, .f32⟩ : BufTy).Contents (Elt F)),
    unary main_v388 main_call18_v1 ((broadcastInDim S131072x64 ![0, 1] bcast_S131072x1_S131072x64_0_1) : (⟨S131072x1, .i1⟩ : BufTy).Contents (Elt F) → (⟨S131072x64, .i1⟩ : BufTy).Contents (Elt F)),
    unary main_call18_v0 main_call18_v2 ((broadcastInDim S131072x64 ![] bcast_S_S131072x64) : (⟨S_, .f32⟩ : BufTy).Contents (Elt F) → (⟨S131072x64, .f32⟩ : BufTy).Contents (Elt F)),
    ternary main_call18_v1 main_v397 main_call18_v2 main_v398 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap6p8_sub : (tap6p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap6p8_fresh : (tap6p8 : List (HloOp τ sig (Elt F))).Forall fun op => op.fresh = ∅ := by
  simp only [List.Forall]; repeat' constructor

/-- The references the stretch writes: one per line, its result. -/
def tap6p8Res : List (Ref sig .tc) := [main_v392, main_c_137, main_v393, main_v394, main_v395, main_v396, main_v397, main_cst_138, main_call18_v0, main_call18_v1, main_call18_v2, main_v398]

set_option maxHeartbeats 40000000 in
/-- Each line writes only its own result. -/
theorem tap6p8_writes : (tap6p8 : List (HloOp τ sig (Elt F))).Forall fun op => op.writes ⊆ ((tap6p8Res.map (Proc.devRef (τ := τ) .tc)).toFinset) := by
  simp only [tap6p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p8_keeps (W : Valuation τ sig (Elt F)) {b : Ref sig .tc} (hb : b ∉ tap6p8Res) :
    after tap6p8 W (Proc.devRef .tc b) = W (Proc.devRef .tc b) :=
  after_of_writes_sub tap6p8 W tap6p8_writes hb

set_option maxHeartbeats 40000000 in
/-- `main_v398` after the piece, from contents holding what it reads at stage values: its stage value. -/
theorem tap6p8_v398 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v388 : W (Proc.devRef .tc main_v388) = Read.val_main_v388 (F := F) x1)
    (h_v390 : W (Proc.devRef .tc main_v390) = Read.val_main_v390 (F := F) x1)
    (h_v391 : W (Proc.devRef .tc main_v391) = Read.val_main_v391 (F := F)) :
    after tap6p8 W (Proc.devRef .tc main_v398) = Read.val_main_v398 (F := F) x0 x1 := by
  ref_results
  rewrite [h_v21, h_v388, h_v390, h_v391]
  rfl

set_option maxHeartbeats 40000000 in
/-- Lines 623 to 626 of @main, in order. -/
abbrev tap6p9 : List (HloOp τ sig (Elt F)) :=
  [ unary main_arg2 main_v399 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F)),
    reshape main_v399 main_v400 rfl shapeCasts_S1x1x64x64_S64x64,
    binary main_v398 main_v400 main_v401 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v343 main_v401 main_v402 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap6p9_sub : (tap6p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap6p9_fresh : (tap6p9 : List (HloOp τ sig (Elt F))).Forall fun op => op.fresh = ∅ := by
  simp only [List.Forall]; repeat' constructor

/-- The references the stretch writes: one per line, its result. -/
def tap6p9Res : List (Ref sig .tc) := [main_v399, main_v400, main_v401, main_v402]

set_option maxHeartbeats 40000000 in
/-- Each line writes only its own result. -/
theorem tap6p9_writes : (tap6p9 : List (HloOp τ sig (Elt F))).Forall fun op => op.writes ⊆ ((tap6p9Res.map (Proc.devRef (τ := τ) .tc)).toFinset) := by
  simp only [tap6p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap6p9_keeps (W : Valuation τ sig (Elt F)) {b : Ref sig .tc} (hb : b ∉ tap6p9Res) :
    after tap6p9 W (Proc.devRef .tc b) = W (Proc.devRef .tc b) :=
  after_of_writes_sub tap6p9 W tap6p9_writes hb

set_option maxHeartbeats 40000000 in
/-- `main_v402` after the piece, from contents holding what it reads at stage values: its stage value. -/
theorem tap6p9_v402 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v343 : W (Proc.devRef .tc main_v343) = Read.val_main_v343 (F := F) x0 x1 x2)
    (h_v398 : W (Proc.devRef .tc main_v398) = Read.val_main_v398 (F := F) x0 x1) :
    after tap6p9 W (Proc.devRef .tc main_v402) = Read.val_main_v402 (F := F) x0 x1 x2 := by
  ref_results
  rewrite [h_arg2, h_v343, h_v398]
  rfl

/-- The whole tap: its pieces one after the other. -/
def tap6 : List (HloOp τ sig (Elt F)) := tap6p1 ++ tap6p2 ++ tap6p3 ++ tap6p4 ++ tap6p5 ++ tap6p6 ++ tap6p7 ++ tap6p8 ++ tap6p9

theorem tap6_sub : (tap6 : List (HloOp τ sig (Elt F))).Forall fun op => op.bufs ⊆ tcRefs τ sig :=
  forall_append (forall_append (forall_append (forall_append (forall_append (forall_append (forall_append (forall_append (tap6p1_sub) tap6p2_sub) tap6p3_sub) tap6p4_sub) tap6p5_sub) tap6p6_sub) tap6p7_sub) tap6p8_sub) tap6p9_sub
theorem tap6_fresh : (tap6 : List (HloOp τ sig (Elt F))).Forall fun op => op.fresh = ∅ :=
  forall_append (forall_append (forall_append (forall_append (forall_append (forall_append (forall_append (forall_append (tap6p1_fresh) tap6p2_fresh) tap6p3_fresh) tap6p4_fresh) tap6p5_fresh) tap6p6_fresh) tap6p7_fresh) tap6p8_fresh) tap6p9_fresh

/-- The references the whole tap writes. -/
def tap6Res : List (Ref sig .tc) := tap6p1Res ++ tap6p2Res ++ tap6p3Res ++ tap6p4Res ++ tap6p5Res ++ tap6p6Res ++ tap6p7Res ++ tap6p8Res ++ tap6p9Res

/-- A reference the tap does not write keeps its contents. -/
theorem tap6_keeps (W : Valuation τ sig (Elt F)) {b : Ref sig .tc} (hb : b ∉ tap6Res) :
    after tap6 W (Proc.devRef .tc b) = W (Proc.devRef .tc b) := by
  have hb' : b ∉ tap6p1Res ∧ b ∉ tap6p2Res ∧ b ∉ tap6p3Res ∧ b ∉ tap6p4Res ∧ b ∉ tap6p5Res ∧ b ∉ tap6p6Res ∧ b ∉ tap6p7Res ∧ b ∉ tap6p8Res ∧ b ∉ tap6p9Res := by
    simpa only [tap6Res, List.mem_append, not_or, and_assoc] using hb
  simp only [tap6, StableHlo.after_append]
  rw [tap6p9_keeps _ hb'.2.2.2.2.2.2.2.2, tap6p8_keeps _ hb'.2.2.2.2.2.2.2.1, tap6p7_keeps _ hb'.2.2.2.2.2.2.1, tap6p6_keeps _ hb'.2.2.2.2.2.1, tap6p5_keeps _ hb'.2.2.2.2.1, tap6p4_keeps _ hb'.2.2.2.1, tap6p3_keeps _ hb'.2.2.1, tap6p2_keeps _ hb'.2.1, tap6p1_keeps _ hb'.1]

/-- The accumulator after the whole tap, from contents holding the index arrays, the rulebook grid, the features, the
    weights and the previous accumulator at their stage values: its stage value. -/
theorem tap6_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v343) = Read.val_main_v343 (F := F) x0 x1 x2) :
    after tap6 W (Proc.devRef .tc main_v402) = Read.val_main_v402 (F := F) x0 x1 x2 := by
  simp only [tap6, StableHlo.after_append]
  have f1_v347 := tap6p1_v347 (W) x0 x1 x2 h17
  have f1_v352 := tap6p1_v352 (W) x0 x1 x2
  have f1_v351 := tap6p1_v351 (W) x0 x1 x2 h17
  have f1_v20 := (tap6p1_keeps (W) (b := main_v20) (by decide)).trans h20
  have f1_v47 := (tap6p1_keeps (W) (b := main_v47) (by decide)).trans h47
  have f1_v21 := (tap6p1_keeps (W) (b := main_v21) (by decide)).trans h21
  have f1_arg2 := (tap6p1_keeps (W) (b := main_arg2) (by decide)).trans h2
  have f1_v343 := (tap6p1_keeps (W) (b := main_v343) (by decide)).trans hacc
  have f2_v359 := tap6p2_v359 (after tap6p1 (W)) x0 x1 x2 f1_v347 f1_v351 f1_v352
  have f2_v361 := tap6p2_v361 (after tap6p1 (W)) x0 x1 x2 f1_v351
  have f2_v347 := (tap6p2_keeps (after tap6p1 (W)) (b := main_v347) (by decide)).trans f1_v347
  have f2_v351 := (tap6p2_keeps (after tap6p1 (W)) (b := main_v351) (by decide)).trans f1_v351
  have f2_v20 := (tap6p2_keeps (after tap6p1 (W)) (b := main_v20) (by decide)).trans f1_v20
  have f2_v47 := (tap6p2_keeps (after tap6p1 (W)) (b := main_v47) (by decide)).trans f1_v47
  have f2_v21 := (tap6p2_keeps (after tap6p1 (W)) (b := main_v21) (by decide)).trans f1_v21
  have f2_arg2 := (tap6p2_keeps (after tap6p1 (W)) (b := main_arg2) (by decide)).trans f1_arg2
  have f2_v343 := (tap6p2_keeps (after tap6p1 (W)) (b := main_v343) (by decide)).trans f1_v343
  have f3_call17_v0 := tap6p3_call17_v0 (after tap6p2 (after tap6p1 (W))) x0 x1 x2
  have f3_v351 := (tap6p3_keeps (after tap6p2 (after tap6p1 (W))) (b := main_v351) (by decide)).trans f2_v351
  have f3_c_127 := tap6p3_c_127 (after tap6p2 (after tap6p1 (W))) x0 x1 x2
  have f3_v20 := (tap6p3_keeps (after tap6p2 (after tap6p1 (W))) (b := main_v20) (by decide)).trans f2_v20
  have f3_v363 := tap6p3_v363 (after tap6p2 (after tap6p1 (W))) x0 x1 x2 f2_v347
  have f3_v47 := (tap6p3_keeps (after tap6p2 (after tap6p1 (W))) (b := main_v47) (by decide)).trans f2_v47
  have f3_v362 := tap6p3_v362 (after tap6p2 (after tap6p1 (W))) x0 x1 x2 f2_v359 f2_v361
  have f3_v21 := (tap6p3_keeps (after tap6p2 (after tap6p1 (W))) (b := main_v21) (by decide)).trans f2_v21
  have f3_arg2 := (tap6p3_keeps (after tap6p2 (after tap6p1 (W))) (b := main_arg2) (by decide)).trans f2_arg2
  have f3_v343 := (tap6p3_keeps (after tap6p2 (after tap6p1 (W))) (b := main_v343) (by decide)).trans f2_v343
  have f4_v363 := (tap6p4_keeps (after tap6p3 (after tap6p2 (after tap6p1 (W)))) (b := main_v363) (by decide)).trans f3_v363
  have f4_v364 := tap6p4_v364 (after tap6p3 (after tap6p2 (after tap6p1 (W)))) x0 x1 x2 f3_c_127 f3_call17_v0 f3_v351
  have f4_v369 := tap6p4_v369 (after tap6p3 (after tap6p2 (after tap6p1 (W)))) x0 x1 x2 f3_v20
  have f4_v47 := (tap6p4_keeps (after tap6p3 (after tap6p2 (after tap6p1 (W)))) (b := main_v47) (by decide)).trans f3_v47
  have f4_v362 := (tap6p4_keeps (after tap6p3 (after tap6p2 (after tap6p1 (W)))) (b := main_v362) (by decide)).trans f3_v362
  have f4_v21 := (tap6p4_keeps (after tap6p3 (after tap6p2 (after tap6p1 (W)))) (b := main_v21) (by decide)).trans f3_v21
  have f4_arg2 := (tap6p4_keeps (after tap6p3 (after tap6p2 (after tap6p1 (W)))) (b := main_arg2) (by decide)).trans f3_arg2
  have f4_v343 := (tap6p4_keeps (after tap6p3 (after tap6p2 (after tap6p1 (W)))) (b := main_v343) (by decide)).trans f3_v343
  have f5_v364 := (tap6p5_keeps (after tap6p4 (after tap6p3 (after tap6p2 (after tap6p1 (W))))) (b := main_v364) (by decide)).trans f4_v364
  have f5_v377 := tap6p5_v377 (after tap6p4 (after tap6p3 (after tap6p2 (after tap6p1 (W))))) x0 x1 x2
  have f5_v376 := tap6p5_v376 (after tap6p4 (after tap6p3 (after tap6p2 (after tap6p1 (W))))) x0 x1 x2 f4_v364
  have f5_v369 := (tap6p5_keeps (after tap6p4 (after tap6p3 (after tap6p2 (after tap6p1 (W))))) (b := main_v369) (by decide)).trans f4_v369
  have f5_v374 := tap6p5_v374 (after tap6p4 (after tap6p3 (after tap6p2 (after tap6p1 (W))))) x0 x1 x2 f4_v363
  have f5_v47 := (tap6p5_keeps (after tap6p4 (after tap6p3 (after tap6p2 (after tap6p1 (W))))) (b := main_v47) (by decide)).trans f4_v47
  have f5_v362 := (tap6p5_keeps (after tap6p4 (after tap6p3 (after tap6p2 (after tap6p1 (W))))) (b := main_v362) (by decide)).trans f4_v362
  have f5_v21 := (tap6p5_keeps (after tap6p4 (after tap6p3 (after tap6p2 (after tap6p1 (W))))) (b := main_v21) (by decide)).trans f4_v21
  have f5_arg2 := (tap6p5_keeps (after tap6p4 (after tap6p3 (after tap6p2 (after tap6p1 (W))))) (b := main_arg2) (by decide)).trans f4_arg2
  have f5_v343 := (tap6p5_keeps (after tap6p4 (after tap6p3 (after tap6p2 (after tap6p1 (W))))) (b := main_v343) (by decide)).trans f4_v343
  have f6_v380 := tap6p6_v380 (after tap6p5 (after tap6p4 (after tap6p3 (after tap6p2 (after tap6p1 (W)))))) x0 x1 x2 f5_v369
  have f6_v381 := tap6p6_v381 (after tap6p5 (after tap6p4 (after tap6p3 (after tap6p2 (after tap6p1 (W)))))) x0 x1 x2 f5_v374
  have f6_v382 := tap6p6_v382 (after tap6p5 (after tap6p4 (after tap6p3 (after tap6p2 (after tap6p1 (W)))))) x0 x1 x2 f5_v364 f5_v376 f5_v377
  have f6_v47 := (tap6p6_keeps (after tap6p5 (after tap6p4 (after tap6p3 (after tap6p2 (after tap6p1 (W)))))) (b := main_v47) (by decide)).trans f5_v47
  have f6_v362 := (tap6p6_keeps (after tap6p5 (after tap6p4 (after tap6p3 (after tap6p2 (after tap6p1 (W)))))) (b := main_v362) (by decide)).trans f5_v362
  have f6_v21 := (tap6p6_keeps (after tap6p5 (after tap6p4 (after tap6p3 (after tap6p2 (after tap6p1 (W)))))) (b := main_v21) (by decide)).trans f5_v21
  have f6_arg2 := (tap6p6_keeps (after tap6p5 (after tap6p4 (after tap6p3 (after tap6p2 (after tap6p1 (W)))))) (b := main_arg2) (by decide)).trans f5_arg2
  have f6_v343 := (tap6p6_keeps (after tap6p5 (after tap6p4 (after tap6p3 (after tap6p2 (after tap6p1 (W)))))) (b := main_v343) (by decide)).trans f5_v343
  have f7_v390 := tap6p7_v390 (after tap6p6 (after tap6p5 (after tap6p4 (after tap6p3 (after tap6p2 (after tap6p1 (W))))))) x0 x1 x2 f6_v380 f6_v381 f6_v382 f6_v47
  have f7_v391 := tap6p7_v391 (after tap6p6 (after tap6p5 (after tap6p4 (after tap6p3 (after tap6p2 (after tap6p1 (W))))))) x0 x1 x2
  have f7_v21 := (tap6p7_keeps (after tap6p6 (after tap6p5 (after tap6p4 (after tap6p3 (after tap6p2 (after tap6p1 (W))))))) (b := main_v21) (by decide)).trans f6_v21
  have f7_v388 := tap6p7_v388 (after tap6p6 (after tap6p5 (after tap6p4 (after tap6p3 (after tap6p2 (after tap6p1 (W))))))) x0 x1 x2 f6_v362 f6_v380 f6_v381 f6_v382 f6_v47
  have f7_arg2 := (tap6p7_keeps (after tap6p6 (after tap6p5 (after tap6p4 (after tap6p3 (after tap6p2 (after tap6p1 (W))))))) (b := main_arg2) (by decide)).trans f6_arg2
  have f7_v343 := (tap6p7_keeps (after tap6p6 (after tap6p5 (after tap6p4 (after tap6p3 (after tap6p2 (after tap6p1 (W))))))) (b := main_v343) (by decide)).trans f6_v343
  have f8_arg2 := (tap6p8_keeps (after tap6p7 (after tap6p6 (after tap6p5 (after tap6p4 (after tap6p3 (after tap6p2 (after tap6p1 (W)))))))) (b := main_arg2) (by decide)).trans f7_arg2
  have f8_v398 := tap6p8_v398 (after tap6p7 (after tap6p6 (after tap6p5 (after tap6p4 (after tap6p3 (after tap6p2 (after tap6p1 (W)))))))) x0 x1 x2 f7_v21 f7_v388 f7_v390 f7_v391
  have f8_v343 := (tap6p8_keeps (after tap6p7 (after tap6p6 (after tap6p5 (after tap6p4 (after tap6p3 (after tap6p2 (after tap6p1 (W)))))))) (b := main_v343) (by decide)).trans f7_v343
  have f9_v402 := tap6p9_v402 (after tap6p8 (after tap6p7 (after tap6p6 (after tap6p5 (after tap6p4 (after tap6p3 (after tap6p2 (after tap6p1 (W))))))))) x0 x1 x2 f8_arg2 f8_v343 f8_v398
  exact f9_v402

end Cert.ReferenceIdeal.RefRun

end
-- ==== Proof.RefTap7.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 627 to 638 of @main, in order. -/
abbrev tap7p1 : List (HloOp τ sig (Elt F)) :=
  [ unary main_v17 main_v403 ((extractStridedSlice S131072x1 ![0, 0] · slices_S131072x2_S131072x1_0_0) : (⟨S131072x2, .i32⟩ : BufTy).Contents (Elt F) → (⟨S131072x1, .i32⟩ : BufTy).Contents (Elt F)),
    reshape main_v403 main_v404 rfl shapeCasts_S131072x1_S131072,
    nullary main_c_139 (constantI S_ 32 1#32),
    unary main_c_139 main_v405 (broadcastInDim S131072 ![] bcast_S_S131072 : (⟨S_, .i32⟩ : BufTy).Contents (Elt F) → (⟨S131072, .i32⟩ : BufTy).Contents (Elt F)),
    binary main_v404 main_v405 main_v406 (addi : (⟨S131072, .i32⟩ : BufTy).Contents (Elt F) → (⟨S131072, .i32⟩ : BufTy).Contents (Elt F) → (⟨S131072, .i32⟩ : BufTy).Contents (Elt F)),
    unary main_v17 main_v407 ((extractStridedSlice S131072x1 ![0, 1] · slices_S131072x2_S131072x1_0_1) : (⟨S131072x2, .i32⟩ : BufTy).Contents (Elt F) → (⟨S131072x1, .i32⟩ : BufTy).Contents (Elt F)),
    reshape main_v407 main_v408 rfl shapeCasts_S131072x1_S131072,
    nullary main_c_140 (constantI S_ 32 4294967295#32),
    unary main_c_140 main_v409 (broadcastInDim S131072 ![] bcast_S_S131072 : (⟨S_, .i32⟩ : BufTy).Contents (Elt F) → (⟨S131072, .i32⟩ : BufTy).Contents (Elt F)),
    binary main_v408 main_v409 main_v410 (addi : (⟨S131072, .i32⟩ : BufTy).Contents (Elt F) → (⟨S131072, .i32⟩ : BufTy).Contents (Elt F) → (⟨S131072, .i32⟩ : BufTy).Contents (Elt F)),
    nullary main_c_141 (constantI S_ 32 0#32),
    unary main_c_141 main_v411 (broadcastInDim S131072 ![] bcast_S_S131072 : (⟨S_, .i32⟩ : BufTy).Contents (Elt F) → (⟨S131072, .i32⟩ : BufTy).Contents (Elt F)) ]

/-- Each line touches TensorCore references only. -/
theorem tap7p1_sub : (tap7p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap7p1_fresh : (tap7p1 : List (HloOp τ sig (Elt F))).Forall fun op => op.fresh = ∅ := by
  simp only [List.Forall]; repeat' constructor

/-- The references the stretch writes: one per line, its result. -/
def tap7p1Res : List (Ref sig .tc) := [main_v403, main_v404, main_c_139, main_v405, main_v406, main_v407, main_v408, main_c_140, main_v409, main_v410, main_c_141, main_v411]

set_option maxHeartbeats 40000000 in
/-- Each line writes only its own result. -/
theorem tap7p1_writes : (tap7p1 : List (HloOp τ sig (Elt F))).Forall fun op => op.writes ⊆ ((tap7p1Res.map (Proc.devRef (τ := τ) .tc)).toFinset) := by
  simp only [tap7p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p1_keeps (W : Valuation τ sig (Elt F)) {b : Ref sig .tc} (hb : b ∉ tap7p1Res) :
    after tap7p1 W (Proc.devRef .tc b) = W (Proc.devRef .tc b) :=
  after_of_writes_sub tap7p1 W tap7p1_writes hb

set_option maxHeartbeats 40000000 in
/-- `main_v406` after the piece, from contents holding what it reads at stage values: its stage value. -/
theorem tap7p1_v406 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap7p1 W (Proc.devRef .tc main_v406) = Read.val_main_v406 (F := F) x1 := by
  ref_results
  rewrite [h_v17]
  rfl

set_option maxHeartbeats 40000000 in
/-- `main_v410` after the piece, from contents holding what it reads at stage values: its stage value. -/
theorem tap7p1_v410 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap7p1 W (Proc.devRef .tc main_v410) = Read.val_main_v410 (F := F) x1 := by
  ref_results
  rewrite [h_v17]
  rfl

set_option maxHeartbeats 40000000 in
/-- `main_v411` after the piece, from contents holding what it reads at stage values: its stage value. -/
theorem tap7p1_v411 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap7p1 W (Proc.devRef .tc main_v411) = Read.val_main_v411 (F := F) := by
  ref_results
  rfl

set_option maxHeartbeats 40000000 in
/-- Lines 639 to 650 of @main, in order. -/
abbrev tap7p2 : List (HloOp τ sig (Elt F)) :=
  [ binary main_v406 main_v411 main_v412 (cmpi .sge : (⟨S131072, .i32⟩ : BufTy).Contents (Elt F) → (⟨S131072, .i32⟩ : BufTy).Contents (Elt F) → (⟨S131072, .i1⟩ : BufTy).Contents (Elt F)),
    nullary main_c_142 (constantI S_ 32 256#32),
    unary main_c_142 main_v413 (broadcastInDim S131072 ![] bcast_S_S131072 : (⟨S_, .i32⟩ : BufTy).Contents (Elt F) → (⟨S131072, .i32⟩ : BufTy).Contents (Elt F)),
    binary main_v406 main_v413 main_v414 (cmpi .slt : (⟨S131072, .i32⟩ : BufTy).Contents (Elt F) → (⟨S131072, .i32⟩ : BufTy).Contents (Elt F) → (⟨S131072, .i1⟩ : BufTy).Contents (Elt F)),
    binary main_v412 main_v414 main_v415 (andi : (⟨S131072, .i1⟩ : BufTy).Contents (Elt F) → (⟨S131072, .i1⟩ : BufTy).Contents (Elt F) → (⟨S131072, .i1⟩ : BufTy).Contents (Elt F)),
    nullary main_c_143 (constantI S_ 32 0#32),
    unary main_c_143 main_v416 (broadcastInDim S131072 ![] bcast_S_S131072 : (⟨S_, .i32⟩ : BufTy).Contents (Elt F) → (⟨S131072, .i32⟩ : BufTy).Contents (Elt F)),
    binary main_v410 main_v416 main_v417 (cmpi .sge : (⟨S131072, .i32⟩ : BufTy).Contents (Elt F) → (⟨S131072, .i32⟩ : BufTy).Contents (Elt F) → (⟨S131072, .i1⟩ : BufTy).Contents (Elt F)),
    binary main_v415 main_v417 main_v418 (andi : (⟨S131072, .i1⟩ : BufTy).Contents (Elt F) → (⟨S131072, .i1⟩ : BufTy).Contents (Elt F) → (⟨S131072, .i1⟩ : BufTy).Contents (Elt F)),
    nullary main_c_144 (constantI S_ 32 256#32),
    unary main_c_144 main_v419 (broadcastInDim S131072 ![] bcast_S_S131072 : (⟨S_, .i32⟩ : BufTy).Contents (Elt F) → (⟨S131072, .i32⟩ : BufTy).Contents (Elt F)),
    binary main_v410 main_v419 main_v420 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap7p2_sub : (tap7p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap7p2_fresh : (tap7p2 : List (HloOp τ sig (Elt F))).Forall fun op => op.fresh = ∅ := by
  simp only [List.Forall]; repeat' constructor

/-- The references the stretch writes: one per line, its result. -/
def tap7p2Res : List (Ref sig .tc) := [main_v412, main_c_142, main_v413, main_v414, main_v415, main_c_143, main_v416, main_v417, main_v418, main_c_144, main_v419, main_v420]

set_option maxHeartbeats 40000000 in
/-- Each line writes only its own result. -/
theorem tap7p2_writes : (tap7p2 : List (HloOp τ sig (Elt F))).Forall fun op => op.writes ⊆ ((tap7p2Res.map (Proc.devRef (τ := τ) .tc)).toFinset) := by
  simp only [tap7p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p2_keeps (W : Valuation τ sig (Elt F)) {b : Ref sig .tc} (hb : b ∉ tap7p2Res) :
    after tap7p2 W (Proc.devRef .tc b) = W (Proc.devRef .tc b) :=
  after_of_writes_sub tap7p2 W tap7p2_writes hb

set_option maxHeartbeats 40000000 in
/-- `main_v418` after the piece, from contents holding what it reads at stage values: its stage value. -/
theorem tap7p2_v418 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v406 : W (Proc.devRef .tc main_v406) = Read.val_main_v406 (F := F) x1)
    (h_v410 : W (Proc.devRef .tc main_v410) = Read.val_main_v410 (F := F) x1)
    (h_v411 : W (Proc.devRef .tc main_v411) = Read.val_main_v411 (F := F)) :
    after tap7p2 W (Proc.devRef .tc main_v418) = Read.val_main_v418 (F := F) x1 := by
  ref_results
  rewrite [h_v406, h_v410, h_v411]
  rfl

set_option maxHeartbeats 40000000 in
/-- `main_v420` after the piece, from contents holding what it reads at stage values: its stage value. -/
theorem tap7p2_v420 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v410 : W (Proc.devRef .tc main_v410) = Read.val_main_v410 (F := F) x1) :
    after tap7p2 W (Proc.devRef .tc main_v420) = Read.val_main_v420 (F := F) x1 := by
  ref_results
  rewrite [h_v410]
  rfl

set_option maxHeartbeats 40000000 in
/-- Lines 651 to 662 of @main, in order. -/
abbrev tap7p3 : List (HloOp τ sig (Elt F)) :=
  [ binary main_v418 main_v420 main_v421 (andi : (⟨S131072, .i1⟩ : BufTy).Contents (Elt F) → (⟨S131072, .i1⟩ : BufTy).Contents (Elt F) → (⟨S131072, .i1⟩ : BufTy).Contents (Elt F)),
    nullary main_c_145 (constantI S_ 32 0#32),
    nullary main_c_146 (constantI S_ 32 255#32),
    unary main_c_145 main_call19_v0 (id : (⟨S_, .i32⟩ : BufTy).Contents (Elt F) → (⟨S_, .i32⟩ : BufTy).Contents (Elt F)),
    unary main_call19_v0 main_call19_v1 ((broadcastInDim S131072 ![] bcast_S_S131072) : (⟨S_, .i32⟩ : BufTy).Contents (Elt F) → (⟨S131072, .i32⟩ : BufTy).Contents (Elt F)),
    binary main_call19_v1 main_v406 main_call19_v2 (maxsi : (⟨S131072, .i32⟩ : BufTy).Contents (Elt F) → (⟨S131072, .i32⟩ : BufTy).Contents (Elt F) → (⟨S131072, .i32⟩ : BufTy).Contents (Elt F)),
    unary main_c_146 main_call19_v3 (id : (⟨S_, .i32⟩ : BufTy).Contents (Elt F) → (⟨S_, .i32⟩ : BufTy).Contents (Elt F)),
    unary main_call19_v3 main_call19_v4 ((broadcastInDim S131072 ![] bcast_S_S131072) : (⟨S_, .i32⟩ : BufTy).Contents (Elt F) → (⟨S131072, .i32⟩ : BufTy).Contents (Elt F)),
    binary main_call19_v4 main_call19_v2 main_v422 (minsi : (⟨S131072, .i32⟩ : BufTy).Contents (Elt F) → (⟨S131072, .i32⟩ : BufTy).Contents (Elt F) → (⟨S131072, .i32⟩ : BufTy).Contents (Elt F)),
    nullary main_c_147 (constantI S_ 32 0#32),
    nullary main_c_148 (constantI S_ 32 255#32),
    unary main_c_147 main_call20_v0 (id : (⟨S_, .i32⟩ : BufTy).Contents (Elt F) → (⟨S_, .i32⟩ : BufTy).Contents (Elt F)) ]

/-- Each line touches TensorCore references only. -/
theorem tap7p3_sub : (tap7p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap7p3_fresh : (tap7p3 : List (HloOp τ sig (Elt F))).Forall fun op => op.fresh = ∅ := by
  simp only [List.Forall]; repeat' constructor

/-- The references the stretch writes: one per line, its result. -/
def tap7p3Res : List (Ref sig .tc) := [main_v421, main_c_145, main_c_146, main_call19_v0, main_call19_v1, main_call19_v2, main_call19_v3, main_call19_v4, main_v422, main_c_147, main_c_148, main_call20_v0]

set_option maxHeartbeats 40000000 in
/-- Each line writes only its own result. -/
theorem tap7p3_writes : (tap7p3 : List (HloOp τ sig (Elt F))).Forall fun op => op.writes ⊆ ((tap7p3Res.map (Proc.devRef (τ := τ) .tc)).toFinset) := by
  simp only [tap7p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p3_keeps (W : Valuation τ sig (Elt F)) {b : Ref sig .tc} (hb : b ∉ tap7p3Res) :
    after tap7p3 W (Proc.devRef .tc b) = W (Proc.devRef .tc b) :=
  after_of_writes_sub tap7p3 W tap7p3_writes hb

set_option maxHeartbeats 40000000 in
/-- `main_v421` after the piece, from contents holding what it reads at stage values: its stage value. -/
theorem tap7p3_v421 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v418 : W (Proc.devRef .tc main_v418) = Read.val_main_v418 (F := F) x1)
    (h_v420 : W (Proc.devRef .tc main_v420) = Read.val_main_v420 (F := F) x1) :
    after tap7p3 W (Proc.devRef .tc main_v421) = Read.val_main_v421 (F := F) x1 := by
  ref_results
  rewrite [h_v418, h_v420]
  rfl

set_option maxHeartbeats 40000000 in
/-- `main_v422` after the piece, from contents holding what it reads at stage values: its stage value. -/
theorem tap7p3_v422 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v406 : W (Proc.devRef .tc main_v406) = Read.val_main_v406 (F := F) x1) :
    after tap7p3 W (Proc.devRef .tc main_v422) = Read.val_main_v422 (F := F) x1 := by
  ref_results
  rewrite [h_v406]
  rfl

set_option maxHeartbeats 40000000 in
/-- `main_c_148` after the piece, from contents holding what it reads at stage values: its stage value. -/
theorem tap7p3_c_148 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap7p3 W (Proc.devRef .tc main_c_148) = Read.val_main_c_148 (F := F) := by
  ref_results
  rfl

set_option maxHeartbeats 40000000 in
/-- `main_call20_v0` after the piece, from contents holding what it reads at stage values: its stage value. -/
theorem tap7p3_call20_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap7p3 W (Proc.devRef .tc main_call20_v0) = Read.val_main_call20_v0 (F := F) := by
  ref_results
  rfl

set_option maxHeartbeats 40000000 in
/-- Lines 663 to 674 of @main, in order. -/
abbrev tap7p4 : List (HloOp τ sig (Elt F)) :=
  [ unary main_call20_v0 main_call20_v1 ((broadcastInDim S131072 ![] bcast_S_S131072) : (⟨S_, .i32⟩ : BufTy).Contents (Elt F) → (⟨S131072, .i32⟩ : BufTy).Contents (Elt F)),
    binary main_call20_v1 main_v410 main_call20_v2 (maxsi : (⟨S131072, .i32⟩ : BufTy).Contents (Elt F) → (⟨S131072, .i32⟩ : BufTy).Contents (Elt F) → (⟨S131072, .i32⟩ : BufTy).Contents (Elt F)),
    unary main_c_148 main_call20_v3 (id : (⟨S_, .i32⟩ : BufTy).Contents (Elt F) → (⟨S_, .i32⟩ : BufTy).Contents (Elt F)),
    unary main_call20_v3 main_call20_v4 ((broadcastInDim S131072 ![] bcast_S_S131072) : (⟨S_, .i32⟩ : BufTy).Contents (Elt F) → (⟨S131072, .i32⟩ : BufTy).Contents (Elt F)),
    binary main_call20_v4 main_call20_v2 main_v423 (minsi : (⟨S131072, .i32⟩ : BufTy).Contents (Elt F) → (⟨S131072, .i32⟩ : BufTy).Contents (Elt F) → (⟨S131072, .i32⟩ : BufTy).Contents (Elt F)),
    nullary main_c_149 (constantI S_ 32 0#32),
    unary main_c_149 main_v424 (broadcastInDim S131072 ![] bcast_S_S131072 : (⟨S_, .i32⟩ : BufTy).Contents (Elt F) → (⟨S131072, .i32⟩ : BufTy).Contents (Elt F)),
    binary main_v20 main_v424 main_v425 (cmpi .slt : (⟨S131072, .i32⟩ : BufTy).Contents (Elt F) → (⟨S131072, .i32⟩ : BufTy).Contents (Elt F) → (⟨S131072, .i1⟩ : BufTy).Contents (Elt F)),
    nullary main_c_150 (constantI S_ 32 4#32),
    unary main_c_150 main_v426 (broadcastInDim S131072 ![] bcast_S_S131072 : (⟨S_, .i32⟩ : BufTy).Contents (Elt F) → (⟨S131072, .i32⟩ : BufTy).Contents (Elt F)),
    binary main_v20 main_v426 main_v427 (addi : (⟨S131072, .i32⟩ : BufTy).Contents (Elt F) → (⟨S131072, .i32⟩ : BufTy).Contents (Elt F) → (⟨S131072, .i32⟩ : BufTy).Contents (Elt F)),
    ternary main_v425 main_v427 main_v20 main_v428 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap7p4_sub : (tap7p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap7p4_fresh : (tap7p4 : List (HloOp τ sig (Elt F))).Forall fun op => op.fresh = ∅ := by
  simp only [List.Forall]; repeat' constructor

/-- The references the stretch writes: one per line, its result. -/
def tap7p4Res : List (Ref sig .tc) := [main_call20_v1, main_call20_v2, main_call20_v3, main_call20_v4, main_v423, main_c_149, main_v424, main_v425, main_c_150, main_v426, main_v427, main_v428]

set_option maxHeartbeats 40000000 in
/-- Each line writes only its own result. -/
theorem tap7p4_writes : (tap7p4 : List (HloOp τ sig (Elt F))).Forall fun op => op.writes ⊆ ((tap7p4Res.map (Proc.devRef (τ := τ) .tc)).toFinset) := by
  simp only [tap7p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p4_keeps (W : Valuation τ sig (Elt F)) {b : Ref sig .tc} (hb : b ∉ tap7p4Res) :
    after tap7p4 W (Proc.devRef .tc b) = W (Proc.devRef .tc b) :=
  after_of_writes_sub tap7p4 W tap7p4_writes hb

set_option maxHeartbeats 40000000 in
/-- `main_v423` after the piece, from contents holding what it reads at stage values: its stage value. -/
theorem tap7p4_v423 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_148 : W (Proc.devRef .tc main_c_148) = Read.val_main_c_148 (F := F))
    (h_call20_v0 : W (Proc.devRef .tc main_call20_v0) = Read.val_main_call20_v0 (F := F))
    (h_v410 : W (Proc.devRef .tc main_v410) = Read.val_main_v410 (F := F) x1) :
    after tap7p4 W (Proc.devRef .tc main_v423) = Read.val_main_v423 (F := F) x1 := by
  ref_results
  rewrite [h_c_148, h_call20_v0, h_v410]
  rfl

set_option maxHeartbeats 40000000 in
/-- `main_v428` after the piece, from contents holding what it reads at stage values: its stage value. -/
theorem tap7p4_v428 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap7p4 W (Proc.devRef .tc main_v428) = Read.val_main_v428 (F := F) := by
  ref_results
  rewrite [h_v20]
  rfl

set_option maxHeartbeats 40000000 in
/-- Lines 675 to 686 of @main, in order. -/
abbrev tap7p5 : List (HloOp τ sig (Elt F)) :=
  [ nullary main_c_151 (constantI S_ 32 0#32),
    unary main_c_151 main_v429 (broadcastInDim S131072 ![] bcast_S_S131072 : (⟨S_, .i32⟩ : BufTy).Contents (Elt F) → (⟨S131072, .i32⟩ : BufTy).Contents (Elt F)),
    binary main_v422 main_v429 main_v430 (cmpi .slt : (⟨S131072, .i32⟩ : BufTy).Contents (Elt F) → (⟨S131072, .i32⟩ : BufTy).Contents (Elt F) → (⟨S131072, .i1⟩ : BufTy).Contents (Elt F)),
    nullary main_c_152 (constantI S_ 32 256#32),
    unary main_c_152 main_v431 (broadcastInDim S131072 ![] bcast_S_S131072 : (⟨S_, .i32⟩ : BufTy).Contents (Elt F) → (⟨S131072, .i32⟩ : BufTy).Contents (Elt F)),
    binary main_v422 main_v431 main_v432 (addi : (⟨S131072, .i32⟩ : BufTy).Contents (Elt F) → (⟨S131072, .i32⟩ : BufTy).Contents (Elt F) → (⟨S131072, .i32⟩ : BufTy).Contents (Elt F)),
    ternary main_v430 main_v432 main_v422 main_v433 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_153 (constantI S_ 32 0#32),
    unary main_c_153 main_v434 (broadcastInDim S131072 ![] bcast_S_S131072 : (⟨S_, .i32⟩ : BufTy).Contents (Elt F) → (⟨S131072, .i32⟩ : BufTy).Contents (Elt F)),
    binary main_v423 main_v434 main_v435 (cmpi .slt : (⟨S131072, .i32⟩ : BufTy).Contents (Elt F) → (⟨S131072, .i32⟩ : BufTy).Contents (Elt F) → (⟨S131072, .i1⟩ : BufTy).Contents (Elt F)),
    nullary main_c_154 (constantI S_ 32 256#32),
    unary main_c_154 main_v436 (broadcastInDim S131072 ![] bcast_S_S131072 : (⟨S_, .i32⟩ : BufTy).Contents (Elt F) → (⟨S131072, .i32⟩ : BufTy).Contents (Elt F)) ]

/-- Each line touches TensorCore references only. -/
theorem tap7p5_sub : (tap7p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap7p5_fresh : (tap7p5 : List (HloOp τ sig (Elt F))).Forall fun op => op.fresh = ∅ := by
  simp only [List.Forall]; repeat' constructor

/-- The references the stretch writes: one per line, its result. -/
def tap7p5Res : List (Ref sig .tc) := [main_c_151, main_v429, main_v430, main_c_152, main_v431, main_v432, main_v433, main_c_153, main_v434, main_v435, main_c_154, main_v436]

set_option maxHeartbeats 40000000 in
/-- Each line writes only its own result. -/
theorem tap7p5_writes : (tap7p5 : List (HloOp τ sig (Elt F))).Forall fun op => op.writes ⊆ ((tap7p5Res.map (Proc.devRef (τ := τ) .tc)).toFinset) := by
  simp only [tap7p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p5_keeps (W : Valuation τ sig (Elt F)) {b : Ref sig .tc} (hb : b ∉ tap7p5Res) :
    after tap7p5 W (Proc.devRef .tc b) = W (Proc.devRef .tc b) :=
  after_of_writes_sub tap7p5 W tap7p5_writes hb

set_option maxHeartbeats 40000000 in
/-- `main_v433` after the piece, from contents holding what it reads at stage values: its stage value. -/
theorem tap7p5_v433 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v422 : W (Proc.devRef .tc main_v422) = Read.val_main_v422 (F := F) x1) :
    after tap7p5 W (Proc.devRef .tc main_v433) = Read.val_main_v433 (F := F) x1 := by
  ref_results
  rewrite [h_v422]
  rfl

set_option maxHeartbeats 40000000 in
/-- `main_v435` after the piece, from contents holding what it reads at stage values: its stage value. -/
theorem tap7p5_v435 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v423 : W (Proc.devRef .tc main_v423) = Read.val_main_v423 (F := F) x1) :
    after tap7p5 W (Proc.devRef .tc main_v435) = Read.val_main_v435 (F := F) x1 := by
  ref_results
  rewrite [h_v423]
  rfl

set_option maxHeartbeats 40000000 in
/-- `main_v436` after the piece, from contents holding what it reads at stage values: its stage value. -/
theorem tap7p5_v436 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap7p5 W (Proc.devRef .tc main_v436) = Read.val_main_v436 (F := F) := by
  ref_results
  rfl

set_option maxHeartbeats 40000000 in
/-- Lines 687 to 691 of @main, in order. -/
abbrev tap7p6 : List (HloOp τ sig (Elt F)) :=
  [ binary main_v423 main_v436 main_v437 (addi : (⟨S131072, .i32⟩ : BufTy).Contents (Elt F) → (⟨S131072, .i32⟩ : BufTy).Contents (Elt F) → (⟨S131072, .i32⟩ : BufTy).Contents (Elt F)),
    ternary main_v435 main_v437 main_v423 main_v438 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v428 main_v439 (broadcastInDim S131072x1 ![0] bcast_S131072_S131072x1_0 : (⟨S131072, .i32⟩ : BufTy).Contents (Elt F) → (⟨S131072x1, .i32⟩ : BufTy).Contents (Elt F)),
    unary main_v433 main_v440 (broadcastInDim S131072x1 ![0] bcast_S131072_S131072x1_0 : (⟨S131072, .i32⟩ : BufTy).Contents (Elt F) → (⟨S131072x1, .i32⟩ : BufTy).Contents (Elt F)),
    unary main_v438 main_v441 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap7p6_sub : (tap7p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap7p6_fresh : (tap7p6 : List (HloOp τ sig (Elt F))).Forall fun op => op.fresh = ∅ := by
  simp only [List.Forall]; repeat' constructor

/-- The references the stretch writes: one per line, its result. -/
def tap7p6Res : List (Ref sig .tc) := [main_v437, main_v438, main_v439, main_v440, main_v441]

set_option maxHeartbeats 40000000 in
/-- Each line writes only its own result. -/
theorem tap7p6_writes : (tap7p6 : List (HloOp τ sig (Elt F))).Forall fun op => op.writes ⊆ ((tap7p6Res.map (Proc.devRef (τ := τ) .tc)).toFinset) := by
  simp only [tap7p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p6_keeps (W : Valuation τ sig (Elt F)) {b : Ref sig .tc} (hb : b ∉ tap7p6Res) :
    after tap7p6 W (Proc.devRef .tc b) = W (Proc.devRef .tc b) :=
  after_of_writes_sub tap7p6 W tap7p6_writes hb

set_option maxHeartbeats 40000000 in
/-- `main_v439` after the piece, from contents holding what it reads at stage values: its stage value. -/
theorem tap7p6_v439 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v428 : W (Proc.devRef .tc main_v428) = Read.val_main_v428 (F := F)) :
    after tap7p6 W (Proc.devRef .tc main_v439) = Read.val_main_v439 (F := F) := by
  ref_results
  rewrite [h_v428]
  rfl

set_option maxHeartbeats 40000000 in
/-- `main_v440` after the piece, from contents holding what it reads at stage values: its stage value. -/
theorem tap7p6_v440 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v433 : W (Proc.devRef .tc main_v433) = Read.val_main_v433 (F := F) x1) :
    after tap7p6 W (Proc.devRef .tc main_v440) = Read.val_main_v440 (F := F) x1 := by
  ref_results
  rewrite [h_v433]
  rfl

set_option maxHeartbeats 40000000 in
/-- `main_v441` after the piece, from contents holding what it reads at stage values: its stage value. -/
theorem tap7p6_v441 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v423 : W (Proc.devRef .tc main_v423) = Read.val_main_v423 (F := F) x1)
    (h_v435 : W (Proc.devRef .tc main_v435) = Read.val_main_v435 (F := F) x1)
    (h_v436 : W (Proc.devRef .tc main_v436) = Read.val_main_v436 (F := F)) :
    after tap7p6 W (Proc.devRef .tc main_v441) = Read.val_main_v441 (F := F) x1 := by
  ref_results
  rewrite [h_v423, h_v435, h_v436]
  rfl

set_option maxHeartbeats 40000000 in
/-- Lines 692 to 703 of @main, in order. -/
abbrev tap7p7 : List (HloOp τ sig (Elt F)) :=
  [ nary ![main_v439, main_v440, main_v441] main_v442 (fun u => concatenate S131072x3 1 [⟨S131072x1, u 0⟩, ⟨S131072x1, u 1⟩, ⟨S131072x1, u 2⟩] concatenates_S131072x1_S131072x1_S131072x1_S131072x3_d1),
    binary main_v47 main_v442 main_v443 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_155 (constantI S_ 32 0#32),
    unary main_c_155 main_v444 (broadcastInDim S131072 ![] bcast_S_S131072 : (⟨S_, .i32⟩ : BufTy).Contents (Elt F) → (⟨S131072, .i32⟩ : BufTy).Contents (Elt F)),
    binary main_v443 main_v444 main_v445 (cmpi .sge : (⟨S131072, .i32⟩ : BufTy).Contents (Elt F) → (⟨S131072, .i32⟩ : BufTy).Contents (Elt F) → (⟨S131072, .i1⟩ : BufTy).Contents (Elt F)),
    binary main_v421 main_v445 main_v446 (andi : (⟨S131072, .i1⟩ : BufTy).Contents (Elt F) → (⟨S131072, .i1⟩ : BufTy).Contents (Elt F) → (⟨S131072, .i1⟩ : BufTy).Contents (Elt F)),
    unary main_v446 main_v447 (broadcastInDim S131072x1 ![0] bcast_S131072_S131072x1_0 : (⟨S131072, .i1⟩ : BufTy).Contents (Elt F) → (⟨S131072x1, .i1⟩ : BufTy).Contents (Elt F)),
    nullary main_c_156 (constantI S_ 32 0#32),
    unary main_c_156 main_v448 (broadcastInDim S131072 ![] bcast_S_S131072 : (⟨S_, .i32⟩ : BufTy).Contents (Elt F) → (⟨S131072, .i32⟩ : BufTy).Contents (Elt F)),
    binary main_v443 main_v448 main_v449 (maxsi : (⟨S131072, .i32⟩ : BufTy).Contents (Elt F) → (⟨S131072, .i32⟩ : BufTy).Contents (Elt F) → (⟨S131072, .i32⟩ : BufTy).Contents (Elt F)),
    nullary main_c_157 (constantI S_ 32 0#32),
    unary main_c_157 main_v450 (broadcastInDim S131072 ![] bcast_S_S131072 : (⟨S_, .i32⟩ : BufTy).Contents (Elt F) → (⟨S131072, .i32⟩ : BufTy).Contents (Elt F)) ]

/-- Each line touches TensorCore references only. -/
theorem tap7p7_sub : (tap7p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap7p7_fresh : (tap7p7 : List (HloOp τ sig (Elt F))).Forall fun op => op.fresh = ∅ := by
  simp only [List.Forall]; repeat' constructor

/-- The references the stretch writes: one per line, its result. -/
def tap7p7Res : List (Ref sig .tc) := [main_v442, main_v443, main_c_155, main_v444, main_v445, main_v446, main_v447, main_c_156, main_v448, main_v449, main_c_157, main_v450]

set_option maxHeartbeats 40000000 in
/-- Each line writes only its own result. -/
theorem tap7p7_writes : (tap7p7 : List (HloOp τ sig (Elt F))).Forall fun op => op.writes ⊆ ((tap7p7Res.map (Proc.devRef (τ := τ) .tc)).toFinset) := by
  simp only [tap7p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p7_keeps (W : Valuation τ sig (Elt F)) {b : Ref sig .tc} (hb : b ∉ tap7p7Res) :
    after tap7p7 W (Proc.devRef .tc b) = W (Proc.devRef .tc b) :=
  after_of_writes_sub tap7p7 W tap7p7_writes hb

set_option maxHeartbeats 40000000 in
/-- `main_v447` after the piece, from contents holding what it reads at stage values: its stage value. -/
theorem tap7p7_v447 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v421 : W (Proc.devRef .tc main_v421) = Read.val_main_v421 (F := F) x1)
    (h_v439 : W (Proc.devRef .tc main_v439) = Read.val_main_v439 (F := F))
    (h_v440 : W (Proc.devRef .tc main_v440) = Read.val_main_v440 (F := F) x1)
    (h_v441 : W (Proc.devRef .tc main_v441) = Read.val_main_v441 (F := F) x1)
    (h_v47 : W (Proc.devRef .tc main_v47) = Read.val_main_v47 (F := F) x1) :
    after tap7p7 W (Proc.devRef .tc main_v447) = Read.val_main_v447 (F := F) x1 := by
  ref_results_v
  rewrite [h_v421, h_v439, h_v440, h_v441, h_v47]
  rfl

set_option maxHeartbeats 40000000 in
/-- `main_v449` after the piece, from contents holding what it reads at stage values: its stage value. -/
theorem tap7p7_v449 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v439 : W (Proc.devRef .tc main_v439) = Read.val_main_v439 (F := F))
    (h_v440 : W (Proc.devRef .tc main_v440) = Read.val_main_v440 (F := F) x1)
    (h_v441 : W (Proc.devRef .tc main_v441) = Read.val_main_v441 (F := F) x1)
    (h_v47 : W (Proc.devRef .tc main_v47) = Read.val_main_v47 (F := F) x1) :
    after tap7p7 W (Proc.devRef .tc main_v449) = Read.val_main_v449 (F := F) x1 := by
  ref_results_v
  rewrite [h_v439, h_v440, h_v441, h_v47]
  rfl

set_option maxHeartbeats 40000000 in
/-- `main_v450` after the piece, from contents holding what it reads at stage values: its stage value. -/
theorem tap7p7_v450 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap7p7 W (Proc.devRef .tc main_v450) = Read.val_main_v450 (F := F) := by
  ref_results_v
  rfl

set_option maxHeartbeats 40000000 in
/-- Lines 704 to 715 of @main, in order. -/
abbrev tap7p8 : List (HloOp τ sig (Elt F)) :=
  [ binary main_v449 main_v450 main_v451 (cmpi .slt : (⟨S131072, .i32⟩ : BufTy).Contents (Elt F) → (⟨S131072, .i32⟩ : BufTy).Contents (Elt F) → (⟨S131072, .i1⟩ : BufTy).Contents (Elt F)),
    nullary main_c_158 (constantI S_ 32 131072#32),
    unary main_c_158 main_v452 (broadcastInDim S131072 ![] bcast_S_S131072 : (⟨S_, .i32⟩ : BufTy).Contents (Elt F) → (⟨S131072, .i32⟩ : BufTy).Contents (Elt F)),
    binary main_v449 main_v452 main_v453 (addi : (⟨S131072, .i32⟩ : BufTy).Contents (Elt F) → (⟨S131072, .i32⟩ : BufTy).Contents (Elt F) → (⟨S131072, .i32⟩ : BufTy).Contents (Elt F)),
    ternary main_v451 main_v453 main_v449 main_v454 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v454 main_v455 (broadcastInDim S131072x1 ![0] bcast_S131072_S131072x1_0 : (⟨S131072, .i32⟩ : BufTy).Contents (Elt F) → (⟨S131072x1, .i32⟩ : BufTy).Contents (Elt F)),
    binary main_v21 main_v455 main_v456 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_159 (constant S_ .f32 0x00000000#32),
    unary main_cst_159 main_call21_v0 (id : (⟨S_, .f32⟩ : BufTy).Contents (Elt F) → (⟨S_, .f32⟩ : BufTy).Contents (Elt F)),
    unary main_v447 main_call21_v1 ((broadcastInDim S131072x64 ![0, 1] bcast_S131072x1_S131072x64_0_1) : (⟨S131072x1, .i1⟩ : BufTy).Contents (Elt F) → (⟨S131072x64, .i1⟩ : BufTy).Contents (Elt F)),
    unary main_call21_v0 main_call21_v2 ((broadcastInDim S131072x64 ![] bcast_S_S131072x64) : (⟨S_, .f32⟩ : BufTy).Contents (Elt F) → (⟨S131072x64, .f32⟩ : BufTy).Contents (Elt F)),
    ternary main_call21_v1 main_v456 main_call21_v2 main_v457 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap7p8_sub : (tap7p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap7p8_fresh : (tap7p8 : List (HloOp τ sig (Elt F))).Forall fun op => op.fresh = ∅ := by
  simp only [List.Forall]; repeat' constructor

/-- The references the stretch writes: one per line, its result. -/
def tap7p8Res : List (Ref sig .tc) := [main_v451, main_c_158, main_v452, main_v453, main_v454, main_v455, main_v456, main_cst_159, main_call21_v0, main_call21_v1, main_call21_v2, main_v457]

set_option maxHeartbeats 40000000 in
/-- Each line writes only its own result. -/
theorem tap7p8_writes : (tap7p8 : List (HloOp τ sig (Elt F))).Forall fun op => op.writes ⊆ ((tap7p8Res.map (Proc.devRef (τ := τ) .tc)).toFinset) := by
  simp only [tap7p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p8_keeps (W : Valuation τ sig (Elt F)) {b : Ref sig .tc} (hb : b ∉ tap7p8Res) :
    after tap7p8 W (Proc.devRef .tc b) = W (Proc.devRef .tc b) :=
  after_of_writes_sub tap7p8 W tap7p8_writes hb

set_option maxHeartbeats 40000000 in
/-- `main_v457` after the piece, from contents holding what it reads at stage values: its stage value. -/
theorem tap7p8_v457 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v447 : W (Proc.devRef .tc main_v447) = Read.val_main_v447 (F := F) x1)
    (h_v449 : W (Proc.devRef .tc main_v449) = Read.val_main_v449 (F := F) x1)
    (h_v450 : W (Proc.devRef .tc main_v450) = Read.val_main_v450 (F := F)) :
    after tap7p8 W (Proc.devRef .tc main_v457) = Read.val_main_v457 (F := F) x0 x1 := by
  ref_results
  rewrite [h_v21, h_v447, h_v449, h_v450]
  rfl

set_option maxHeartbeats 40000000 in
/-- Lines 716 to 719 of @main, in order. -/
abbrev tap7p9 : List (HloOp τ sig (Elt F)) :=
  [ unary main_arg2 main_v458 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F)),
    reshape main_v458 main_v459 rfl shapeCasts_S1x1x64x64_S64x64,
    binary main_v457 main_v459 main_v460 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v402 main_v460 main_v461 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap7p9_sub : (tap7p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap7p9_fresh : (tap7p9 : List (HloOp τ sig (Elt F))).Forall fun op => op.fresh = ∅ := by
  simp only [List.Forall]; repeat' constructor

/-- The references the stretch writes: one per line, its result. -/
def tap7p9Res : List (Ref sig .tc) := [main_v458, main_v459, main_v460, main_v461]

set_option maxHeartbeats 40000000 in
/-- Each line writes only its own result. -/
theorem tap7p9_writes : (tap7p9 : List (HloOp τ sig (Elt F))).Forall fun op => op.writes ⊆ ((tap7p9Res.map (Proc.devRef (τ := τ) .tc)).toFinset) := by
  simp only [tap7p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap7p9_keeps (W : Valuation τ sig (Elt F)) {b : Ref sig .tc} (hb : b ∉ tap7p9Res) :
    after tap7p9 W (Proc.devRef .tc b) = W (Proc.devRef .tc b) :=
  after_of_writes_sub tap7p9 W tap7p9_writes hb

set_option maxHeartbeats 40000000 in
/-- `main_v461` after the piece, from contents holding what it reads at stage values: its stage value. -/
theorem tap7p9_v461 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v402 : W (Proc.devRef .tc main_v402) = Read.val_main_v402 (F := F) x0 x1 x2)
    (h_v457 : W (Proc.devRef .tc main_v457) = Read.val_main_v457 (F := F) x0 x1) :
    after tap7p9 W (Proc.devRef .tc main_v461) = Read.val_main_v461 (F := F) x0 x1 x2 := by
  ref_results
  rewrite [h_arg2, h_v402, h_v457]
  rfl

/-- The whole tap: its pieces one after the other. -/
def tap7 : List (HloOp τ sig (Elt F)) := tap7p1 ++ tap7p2 ++ tap7p3 ++ tap7p4 ++ tap7p5 ++ tap7p6 ++ tap7p7 ++ tap7p8 ++ tap7p9

theorem tap7_sub : (tap7 : List (HloOp τ sig (Elt F))).Forall fun op => op.bufs ⊆ tcRefs τ sig :=
  forall_append (forall_append (forall_append (forall_append (forall_append (forall_append (forall_append (forall_append (tap7p1_sub) tap7p2_sub) tap7p3_sub) tap7p4_sub) tap7p5_sub) tap7p6_sub) tap7p7_sub) tap7p8_sub) tap7p9_sub
theorem tap7_fresh : (tap7 : List (HloOp τ sig (Elt F))).Forall fun op => op.fresh = ∅ :=
  forall_append (forall_append (forall_append (forall_append (forall_append (forall_append (forall_append (forall_append (tap7p1_fresh) tap7p2_fresh) tap7p3_fresh) tap7p4_fresh) tap7p5_fresh) tap7p6_fresh) tap7p7_fresh) tap7p8_fresh) tap7p9_fresh

/-- The references the whole tap writes. -/
def tap7Res : List (Ref sig .tc) := tap7p1Res ++ tap7p2Res ++ tap7p3Res ++ tap7p4Res ++ tap7p5Res ++ tap7p6Res ++ tap7p7Res ++ tap7p8Res ++ tap7p9Res

/-- A reference the tap does not write keeps its contents. -/
theorem tap7_keeps (W : Valuation τ sig (Elt F)) {b : Ref sig .tc} (hb : b ∉ tap7Res) :
    after tap7 W (Proc.devRef .tc b) = W (Proc.devRef .tc b) := by
  have hb' : b ∉ tap7p1Res ∧ b ∉ tap7p2Res ∧ b ∉ tap7p3Res ∧ b ∉ tap7p4Res ∧ b ∉ tap7p5Res ∧ b ∉ tap7p6Res ∧ b ∉ tap7p7Res ∧ b ∉ tap7p8Res ∧ b ∉ tap7p9Res := by
    simpa only [tap7Res, List.mem_append, not_or, and_assoc] using hb
  simp only [tap7, StableHlo.after_append]
  rw [tap7p9_keeps _ hb'.2.2.2.2.2.2.2.2, tap7p8_keeps _ hb'.2.2.2.2.2.2.2.1, tap7p7_keeps _ hb'.2.2.2.2.2.2.1, tap7p6_keeps _ hb'.2.2.2.2.2.1, tap7p5_keeps _ hb'.2.2.2.2.1, tap7p4_keeps _ hb'.2.2.2.1, tap7p3_keeps _ hb'.2.2.1, tap7p2_keeps _ hb'.2.1, tap7p1_keeps _ hb'.1]

/-- The accumulator after the whole tap, from contents holding the index arrays, the rulebook grid, the features, the
    weights and the previous accumulator at their stage values: its stage value. -/
theorem tap7_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v402) = Read.val_main_v402 (F := F) x0 x1 x2) :
    after tap7 W (Proc.devRef .tc main_v461) = Read.val_main_v461 (F := F) x0 x1 x2 := by
  simp only [tap7, StableHlo.after_append]
  have f1_v406 := tap7p1_v406 (W) x0 x1 x2 h17
  have f1_v411 := tap7p1_v411 (W) x0 x1 x2
  have f1_v410 := tap7p1_v410 (W) x0 x1 x2 h17
  have f1_v20 := (tap7p1_keeps (W) (b := main_v20) (by decide)).trans h20
  have f1_v47 := (tap7p1_keeps (W) (b := main_v47) (by decide)).trans h47
  have f1_v21 := (tap7p1_keeps (W) (b := main_v21) (by decide)).trans h21
  have f1_arg2 := (tap7p1_keeps (W) (b := main_arg2) (by decide)).trans h2
  have f1_v402 := (tap7p1_keeps (W) (b := main_v402) (by decide)).trans hacc
  have f2_v418 := tap7p2_v418 (after tap7p1 (W)) x0 x1 x2 f1_v406 f1_v410 f1_v411
  have f2_v420 := tap7p2_v420 (after tap7p1 (W)) x0 x1 x2 f1_v410
  have f2_v406 := (tap7p2_keeps (after tap7p1 (W)) (b := main_v406) (by decide)).trans f1_v406
  have f2_v410 := (tap7p2_keeps (after tap7p1 (W)) (b := main_v410) (by decide)).trans f1_v410
  have f2_v20 := (tap7p2_keeps (after tap7p1 (W)) (b := main_v20) (by decide)).trans f1_v20
  have f2_v47 := (tap7p2_keeps (after tap7p1 (W)) (b := main_v47) (by decide)).trans f1_v47
  have f2_v21 := (tap7p2_keeps (after tap7p1 (W)) (b := main_v21) (by decide)).trans f1_v21
  have f2_arg2 := (tap7p2_keeps (after tap7p1 (W)) (b := main_arg2) (by decide)).trans f1_arg2
  have f2_v402 := (tap7p2_keeps (after tap7p1 (W)) (b := main_v402) (by decide)).trans f1_v402
  have f3_call20_v0 := tap7p3_call20_v0 (after tap7p2 (after tap7p1 (W))) x0 x1 x2
  have f3_v410 := (tap7p3_keeps (after tap7p2 (after tap7p1 (W))) (b := main_v410) (by decide)).trans f2_v410
  have f3_c_148 := tap7p3_c_148 (after tap7p2 (after tap7p1 (W))) x0 x1 x2
  have f3_v20 := (tap7p3_keeps (after tap7p2 (after tap7p1 (W))) (b := main_v20) (by decide)).trans f2_v20
  have f3_v422 := tap7p3_v422 (after tap7p2 (after tap7p1 (W))) x0 x1 x2 f2_v406
  have f3_v47 := (tap7p3_keeps (after tap7p2 (after tap7p1 (W))) (b := main_v47) (by decide)).trans f2_v47
  have f3_v421 := tap7p3_v421 (after tap7p2 (after tap7p1 (W))) x0 x1 x2 f2_v418 f2_v420
  have f3_v21 := (tap7p3_keeps (after tap7p2 (after tap7p1 (W))) (b := main_v21) (by decide)).trans f2_v21
  have f3_arg2 := (tap7p3_keeps (after tap7p2 (after tap7p1 (W))) (b := main_arg2) (by decide)).trans f2_arg2
  have f3_v402 := (tap7p3_keeps (after tap7p2 (after tap7p1 (W))) (b := main_v402) (by decide)).trans f2_v402
  have f4_v422 := (tap7p4_keeps (after tap7p3 (after tap7p2 (after tap7p1 (W)))) (b := main_v422) (by decide)).trans f3_v422
  have f4_v423 := tap7p4_v423 (after tap7p3 (after tap7p2 (after tap7p1 (W)))) x0 x1 x2 f3_c_148 f3_call20_v0 f3_v410
  have f4_v428 := tap7p4_v428 (after tap7p3 (after tap7p2 (after tap7p1 (W)))) x0 x1 x2 f3_v20
  have f4_v47 := (tap7p4_keeps (after tap7p3 (after tap7p2 (after tap7p1 (W)))) (b := main_v47) (by decide)).trans f3_v47
  have f4_v421 := (tap7p4_keeps (after tap7p3 (after tap7p2 (after tap7p1 (W)))) (b := main_v421) (by decide)).trans f3_v421
  have f4_v21 := (tap7p4_keeps (after tap7p3 (after tap7p2 (after tap7p1 (W)))) (b := main_v21) (by decide)).trans f3_v21
  have f4_arg2 := (tap7p4_keeps (after tap7p3 (after tap7p2 (after tap7p1 (W)))) (b := main_arg2) (by decide)).trans f3_arg2
  have f4_v402 := (tap7p4_keeps (after tap7p3 (after tap7p2 (after tap7p1 (W)))) (b := main_v402) (by decide)).trans f3_v402
  have f5_v423 := (tap7p5_keeps (after tap7p4 (after tap7p3 (after tap7p2 (after tap7p1 (W))))) (b := main_v423) (by decide)).trans f4_v423
  have f5_v436 := tap7p5_v436 (after tap7p4 (after tap7p3 (after tap7p2 (after tap7p1 (W))))) x0 x1 x2
  have f5_v435 := tap7p5_v435 (after tap7p4 (after tap7p3 (after tap7p2 (after tap7p1 (W))))) x0 x1 x2 f4_v423
  have f5_v428 := (tap7p5_keeps (after tap7p4 (after tap7p3 (after tap7p2 (after tap7p1 (W))))) (b := main_v428) (by decide)).trans f4_v428
  have f5_v433 := tap7p5_v433 (after tap7p4 (after tap7p3 (after tap7p2 (after tap7p1 (W))))) x0 x1 x2 f4_v422
  have f5_v47 := (tap7p5_keeps (after tap7p4 (after tap7p3 (after tap7p2 (after tap7p1 (W))))) (b := main_v47) (by decide)).trans f4_v47
  have f5_v421 := (tap7p5_keeps (after tap7p4 (after tap7p3 (after tap7p2 (after tap7p1 (W))))) (b := main_v421) (by decide)).trans f4_v421
  have f5_v21 := (tap7p5_keeps (after tap7p4 (after tap7p3 (after tap7p2 (after tap7p1 (W))))) (b := main_v21) (by decide)).trans f4_v21
  have f5_arg2 := (tap7p5_keeps (after tap7p4 (after tap7p3 (after tap7p2 (after tap7p1 (W))))) (b := main_arg2) (by decide)).trans f4_arg2
  have f5_v402 := (tap7p5_keeps (after tap7p4 (after tap7p3 (after tap7p2 (after tap7p1 (W))))) (b := main_v402) (by decide)).trans f4_v402
  have f6_v439 := tap7p6_v439 (after tap7p5 (after tap7p4 (after tap7p3 (after tap7p2 (after tap7p1 (W)))))) x0 x1 x2 f5_v428
  have f6_v440 := tap7p6_v440 (after tap7p5 (after tap7p4 (after tap7p3 (after tap7p2 (after tap7p1 (W)))))) x0 x1 x2 f5_v433
  have f6_v441 := tap7p6_v441 (after tap7p5 (after tap7p4 (after tap7p3 (after tap7p2 (after tap7p1 (W)))))) x0 x1 x2 f5_v423 f5_v435 f5_v436
  have f6_v47 := (tap7p6_keeps (after tap7p5 (after tap7p4 (after tap7p3 (after tap7p2 (after tap7p1 (W)))))) (b := main_v47) (by decide)).trans f5_v47
  have f6_v421 := (tap7p6_keeps (after tap7p5 (after tap7p4 (after tap7p3 (after tap7p2 (after tap7p1 (W)))))) (b := main_v421) (by decide)).trans f5_v421
  have f6_v21 := (tap7p6_keeps (after tap7p5 (after tap7p4 (after tap7p3 (after tap7p2 (after tap7p1 (W)))))) (b := main_v21) (by decide)).trans f5_v21
  have f6_arg2 := (tap7p6_keeps (after tap7p5 (after tap7p4 (after tap7p3 (after tap7p2 (after tap7p1 (W)))))) (b := main_arg2) (by decide)).trans f5_arg2
  have f6_v402 := (tap7p6_keeps (after tap7p5 (after tap7p4 (after tap7p3 (after tap7p2 (after tap7p1 (W)))))) (b := main_v402) (by decide)).trans f5_v402
  have f7_v449 := tap7p7_v449 (after tap7p6 (after tap7p5 (after tap7p4 (after tap7p3 (after tap7p2 (after tap7p1 (W))))))) x0 x1 x2 f6_v439 f6_v440 f6_v441 f6_v47
  have f7_v450 := tap7p7_v450 (after tap7p6 (after tap7p5 (after tap7p4 (after tap7p3 (after tap7p2 (after tap7p1 (W))))))) x0 x1 x2
  have f7_v21 := (tap7p7_keeps (after tap7p6 (after tap7p5 (after tap7p4 (after tap7p3 (after tap7p2 (after tap7p1 (W))))))) (b := main_v21) (by decide)).trans f6_v21
  have f7_v447 := tap7p7_v447 (after tap7p6 (after tap7p5 (after tap7p4 (after tap7p3 (after tap7p2 (after tap7p1 (W))))))) x0 x1 x2 f6_v421 f6_v439 f6_v440 f6_v441 f6_v47
  have f7_arg2 := (tap7p7_keeps (after tap7p6 (after tap7p5 (after tap7p4 (after tap7p3 (after tap7p2 (after tap7p1 (W))))))) (b := main_arg2) (by decide)).trans f6_arg2
  have f7_v402 := (tap7p7_keeps (after tap7p6 (after tap7p5 (after tap7p4 (after tap7p3 (after tap7p2 (after tap7p1 (W))))))) (b := main_v402) (by decide)).trans f6_v402
  have f8_arg2 := (tap7p8_keeps (after tap7p7 (after tap7p6 (after tap7p5 (after tap7p4 (after tap7p3 (after tap7p2 (after tap7p1 (W)))))))) (b := main_arg2) (by decide)).trans f7_arg2
  have f8_v457 := tap7p8_v457 (after tap7p7 (after tap7p6 (after tap7p5 (after tap7p4 (after tap7p3 (after tap7p2 (after tap7p1 (W)))))))) x0 x1 x2 f7_v21 f7_v447 f7_v449 f7_v450
  have f8_v402 := (tap7p8_keeps (after tap7p7 (after tap7p6 (after tap7p5 (after tap7p4 (after tap7p3 (after tap7p2 (after tap7p1 (W)))))))) (b := main_v402) (by decide)).trans f7_v402
  have f9_v461 := tap7p9_v461 (after tap7p8 (after tap7p7 (after tap7p6 (after tap7p5 (after tap7p4 (after tap7p3 (after tap7p2 (after tap7p1 (W))))))))) x0 x1 x2 f8_arg2 f8_v402 f8_v457
  exact f9_v461

end Cert.ReferenceIdeal.RefRun

end
-- ==== Proof.RefTap8.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 720 to 731 of @main, in order. -/
abbrev tap8p1 : List (HloOp τ sig (Elt F)) :=
  [ unary main_v17 main_v462 ((extractStridedSlice S131072x1 ![0, 0] · slices_S131072x2_S131072x1_0_0) : (⟨S131072x2, .i32⟩ : BufTy).Contents (Elt F) → (⟨S131072x1, .i32⟩ : BufTy).Contents (Elt F)),
    reshape main_v462 main_v463 rfl shapeCasts_S131072x1_S131072,
    nullary main_c_160 (constantI S_ 32 1#32),
    unary main_c_160 main_v464 (broadcastInDim S131072 ![] bcast_S_S131072 : (⟨S_, .i32⟩ : BufTy).Contents (Elt F) → (⟨S131072, .i32⟩ : BufTy).Contents (Elt F)),
    binary main_v463 main_v464 main_v465 (addi : (⟨S131072, .i32⟩ : BufTy).Contents (Elt F) → (⟨S131072, .i32⟩ : BufTy).Contents (Elt F) → (⟨S131072, .i32⟩ : BufTy).Contents (Elt F)),
    unary main_v17 main_v466 ((extractStridedSlice S131072x1 ![0, 1] · slices_S131072x2_S131072x1_0_1) : (⟨S131072x2, .i32⟩ : BufTy).Contents (Elt F) → (⟨S131072x1, .i32⟩ : BufTy).Contents (Elt F)),
    reshape main_v466 main_v467 rfl shapeCasts_S131072x1_S131072,
    nullary main_c_161 (constantI S_ 32 0#32),
    unary main_c_161 main_v468 (broadcastInDim S131072 ![] bcast_S_S131072 : (⟨S_, .i32⟩ : BufTy).Contents (Elt F) → (⟨S131072, .i32⟩ : BufTy).Contents (Elt F)),
    binary main_v467 main_v468 main_v469 (addi : (⟨S131072, .i32⟩ : BufTy).Contents (Elt F) → (⟨S131072, .i32⟩ : BufTy).Contents (Elt F) → (⟨S131072, .i32⟩ : BufTy).Contents (Elt F)),
    nullary main_c_162 (constantI S_ 32 0#32),
    unary main_c_162 main_v470 (broadcastInDim S131072 ![] bcast_S_S131072 : (⟨S_, .i32⟩ : BufTy).Contents (Elt F) → (⟨S131072, .i32⟩ : BufTy).Contents (Elt F)) ]

/-- Each line touches TensorCore references only. -/
theorem tap8p1_sub : (tap8p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap8p1_fresh : (tap8p1 : List (HloOp τ sig (Elt F))).Forall fun op => op.fresh = ∅ := by
  simp only [List.Forall]; repeat' constructor

/-- The references the stretch writes: one per line, its result. -/
def tap8p1Res : List (Ref sig .tc) := [main_v462, main_v463, main_c_160, main_v464, main_v465, main_v466, main_v467, main_c_161, main_v468, main_v469, main_c_162, main_v470]

set_option maxHeartbeats 40000000 in
/-- Each line writes only its own result. -/
theorem tap8p1_writes : (tap8p1 : List (HloOp τ sig (Elt F))).Forall fun op => op.writes ⊆ ((tap8p1Res.map (Proc.devRef (τ := τ) .tc)).toFinset) := by
  simp only [tap8p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p1_keeps (W : Valuation τ sig (Elt F)) {b : Ref sig .tc} (hb : b ∉ tap8p1Res) :
    after tap8p1 W (Proc.devRef .tc b) = W (Proc.devRef .tc b) :=
  after_of_writes_sub tap8p1 W tap8p1_writes hb

set_option maxHeartbeats 40000000 in
/-- `main_v465` after the piece, from contents holding what it reads at stage values: its stage value. -/
theorem tap8p1_v465 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap8p1 W (Proc.devRef .tc main_v465) = Read.val_main_v465 (F := F) x1 := by
  ref_results
  rewrite [h_v17]
  rfl

set_option maxHeartbeats 40000000 in
/-- `main_v469` after the piece, from contents holding what it reads at stage values: its stage value. -/
theorem tap8p1_v469 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap8p1 W (Proc.devRef .tc main_v469) = Read.val_main_v469 (F := F) x1 := by
  ref_results
  rewrite [h_v17]
  rfl

set_option maxHeartbeats 40000000 in
/-- `main_v470` after the piece, from contents holding what it reads at stage values: its stage value. -/
theorem tap8p1_v470 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap8p1 W (Proc.devRef .tc main_v470) = Read.val_main_v470 (F := F) := by
  ref_results
  rfl

set_option maxHeartbeats 40000000 in
/-- Lines 732 to 743 of @main, in order. -/
abbrev tap8p2 : List (HloOp τ sig (Elt F)) :=
  [ binary main_v465 main_v470 main_v471 (cmpi .sge : (⟨S131072, .i32⟩ : BufTy).Contents (Elt F) → (⟨S131072, .i32⟩ : BufTy).Contents (Elt F) → (⟨S131072, .i1⟩ : BufTy).Contents (Elt F)),
    nullary main_c_163 (constantI S_ 32 256#32),
    unary main_c_163 main_v472 (broadcastInDim S131072 ![] bcast_S_S131072 : (⟨S_, .i32⟩ : BufTy).Contents (Elt F) → (⟨S131072, .i32⟩ : BufTy).Contents (Elt F)),
    binary main_v465 main_v472 main_v473 (cmpi .slt : (⟨S131072, .i32⟩ : BufTy).Contents (Elt F) → (⟨S131072, .i32⟩ : BufTy).Contents (Elt F) → (⟨S131072, .i1⟩ : BufTy).Contents (Elt F)),
    binary main_v471 main_v473 main_v474 (andi : (⟨S131072, .i1⟩ : BufTy).Contents (Elt F) → (⟨S131072, .i1⟩ : BufTy).Contents (Elt F) → (⟨S131072, .i1⟩ : BufTy).Contents (Elt F)),
    nullary main_c_164 (constantI S_ 32 0#32),
    unary main_c_164 main_v475 (broadcastInDim S131072 ![] bcast_S_S131072 : (⟨S_, .i32⟩ : BufTy).Contents (Elt F) → (⟨S131072, .i32⟩ : BufTy).Contents (Elt F)),
    binary main_v469 main_v475 main_v476 (cmpi .sge : (⟨S131072, .i32⟩ : BufTy).Contents (Elt F) → (⟨S131072, .i32⟩ : BufTy).Contents (Elt F) → (⟨S131072, .i1⟩ : BufTy).Contents (Elt F)),
    binary main_v474 main_v476 main_v477 (andi : (⟨S131072, .i1⟩ : BufTy).Contents (Elt F) → (⟨S131072, .i1⟩ : BufTy).Contents (Elt F) → (⟨S131072, .i1⟩ : BufTy).Contents (Elt F)),
    nullary main_c_165 (constantI S_ 32 256#32),
    unary main_c_165 main_v478 (broadcastInDim S131072 ![] bcast_S_S131072 : (⟨S_, .i32⟩ : BufTy).Contents (Elt F) → (⟨S131072, .i32⟩ : BufTy).Contents (Elt F)),
    binary main_v469 main_v478 main_v479 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap8p2_sub : (tap8p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap8p2_fresh : (tap8p2 : List (HloOp τ sig (Elt F))).Forall fun op => op.fresh = ∅ := by
  simp only [List.Forall]; repeat' constructor

/-- The references the stretch writes: one per line, its result. -/
def tap8p2Res : List (Ref sig .tc) := [main_v471, main_c_163, main_v472, main_v473, main_v474, main_c_164, main_v475, main_v476, main_v477, main_c_165, main_v478, main_v479]

set_option maxHeartbeats 40000000 in
/-- Each line writes only its own result. -/
theorem tap8p2_writes : (tap8p2 : List (HloOp τ sig (Elt F))).Forall fun op => op.writes ⊆ ((tap8p2Res.map (Proc.devRef (τ := τ) .tc)).toFinset) := by
  simp only [tap8p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p2_keeps (W : Valuation τ sig (Elt F)) {b : Ref sig .tc} (hb : b ∉ tap8p2Res) :
    after tap8p2 W (Proc.devRef .tc b) = W (Proc.devRef .tc b) :=
  after_of_writes_sub tap8p2 W tap8p2_writes hb

set_option maxHeartbeats 40000000 in
/-- `main_v477` after the piece, from contents holding what it reads at stage values: its stage value. -/
theorem tap8p2_v477 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v465 : W (Proc.devRef .tc main_v465) = Read.val_main_v465 (F := F) x1)
    (h_v469 : W (Proc.devRef .tc main_v469) = Read.val_main_v469 (F := F) x1)
    (h_v470 : W (Proc.devRef .tc main_v470) = Read.val_main_v470 (F := F)) :
    after tap8p2 W (Proc.devRef .tc main_v477) = Read.val_main_v477 (F := F) x1 := by
  ref_results
  rewrite [h_v465, h_v469, h_v470]
  rfl

set_option maxHeartbeats 40000000 in
/-- `main_v479` after the piece, from contents holding what it reads at stage values: its stage value. -/
theorem tap8p2_v479 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v469 : W (Proc.devRef .tc main_v469) = Read.val_main_v469 (F := F) x1) :
    after tap8p2 W (Proc.devRef .tc main_v479) = Read.val_main_v479 (F := F) x1 := by
  ref_results
  rewrite [h_v469]
  rfl

set_option maxHeartbeats 40000000 in
/-- Lines 744 to 755 of @main, in order. -/
abbrev tap8p3 : List (HloOp τ sig (Elt F)) :=
  [ binary main_v477 main_v479 main_v480 (andi : (⟨S131072, .i1⟩ : BufTy).Contents (Elt F) → (⟨S131072, .i1⟩ : BufTy).Contents (Elt F) → (⟨S131072, .i1⟩ : BufTy).Contents (Elt F)),
    nullary main_c_166 (constantI S_ 32 0#32),
    nullary main_c_167 (constantI S_ 32 255#32),
    unary main_c_166 main_call22_v0 (id : (⟨S_, .i32⟩ : BufTy).Contents (Elt F) → (⟨S_, .i32⟩ : BufTy).Contents (Elt F)),
    unary main_call22_v0 main_call22_v1 ((broadcastInDim S131072 ![] bcast_S_S131072) : (⟨S_, .i32⟩ : BufTy).Contents (Elt F) → (⟨S131072, .i32⟩ : BufTy).Contents (Elt F)),
    binary main_call22_v1 main_v465 main_call22_v2 (maxsi : (⟨S131072, .i32⟩ : BufTy).Contents (Elt F) → (⟨S131072, .i32⟩ : BufTy).Contents (Elt F) → (⟨S131072, .i32⟩ : BufTy).Contents (Elt F)),
    unary main_c_167 main_call22_v3 (id : (⟨S_, .i32⟩ : BufTy).Contents (Elt F) → (⟨S_, .i32⟩ : BufTy).Contents (Elt F)),
    unary main_call22_v3 main_call22_v4 ((broadcastInDim S131072 ![] bcast_S_S131072) : (⟨S_, .i32⟩ : BufTy).Contents (Elt F) → (⟨S131072, .i32⟩ : BufTy).Contents (Elt F)),
    binary main_call22_v4 main_call22_v2 main_v481 (minsi : (⟨S131072, .i32⟩ : BufTy).Contents (Elt F) → (⟨S131072, .i32⟩ : BufTy).Contents (Elt F) → (⟨S131072, .i32⟩ : BufTy).Contents (Elt F)),
    nullary main_c_168 (constantI S_ 32 0#32),
    nullary main_c_169 (constantI S_ 32 255#32),
    unary main_c_168 main_call23_v0 (id : (⟨S_, .i32⟩ : BufTy).Contents (Elt F) → (⟨S_, .i32⟩ : BufTy).Contents (Elt F)) ]

/-- Each line touches TensorCore references only. -/
theorem tap8p3_sub : (tap8p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap8p3_fresh : (tap8p3 : List (HloOp τ sig (Elt F))).Forall fun op => op.fresh = ∅ := by
  simp only [List.Forall]; repeat' constructor

/-- The references the stretch writes: one per line, its result. -/
def tap8p3Res : List (Ref sig .tc) := [main_v480, main_c_166, main_c_167, main_call22_v0, main_call22_v1, main_call22_v2, main_call22_v3, main_call22_v4, main_v481, main_c_168, main_c_169, main_call23_v0]

set_option maxHeartbeats 40000000 in
/-- Each line writes only its own result. -/
theorem tap8p3_writes : (tap8p3 : List (HloOp τ sig (Elt F))).Forall fun op => op.writes ⊆ ((tap8p3Res.map (Proc.devRef (τ := τ) .tc)).toFinset) := by
  simp only [tap8p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p3_keeps (W : Valuation τ sig (Elt F)) {b : Ref sig .tc} (hb : b ∉ tap8p3Res) :
    after tap8p3 W (Proc.devRef .tc b) = W (Proc.devRef .tc b) :=
  after_of_writes_sub tap8p3 W tap8p3_writes hb

set_option maxHeartbeats 40000000 in
/-- `main_v480` after the piece, from contents holding what it reads at stage values: its stage value. -/
theorem tap8p3_v480 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v477 : W (Proc.devRef .tc main_v477) = Read.val_main_v477 (F := F) x1)
    (h_v479 : W (Proc.devRef .tc main_v479) = Read.val_main_v479 (F := F) x1) :
    after tap8p3 W (Proc.devRef .tc main_v480) = Read.val_main_v480 (F := F) x1 := by
  ref_results
  rewrite [h_v477, h_v479]
  rfl

set_option maxHeartbeats 40000000 in
/-- `main_v481` after the piece, from contents holding what it reads at stage values: its stage value. -/
theorem tap8p3_v481 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v465 : W (Proc.devRef .tc main_v465) = Read.val_main_v465 (F := F) x1) :
    after tap8p3 W (Proc.devRef .tc main_v481) = Read.val_main_v481 (F := F) x1 := by
  ref_results
  rewrite [h_v465]
  rfl

set_option maxHeartbeats 40000000 in
/-- `main_c_169` after the piece, from contents holding what it reads at stage values: its stage value. -/
theorem tap8p3_c_169 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap8p3 W (Proc.devRef .tc main_c_169) = Read.val_main_c_169 (F := F) := by
  ref_results
  rfl

set_option maxHeartbeats 40000000 in
/-- `main_call23_v0` after the piece, from contents holding what it reads at stage values: its stage value. -/
theorem tap8p3_call23_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap8p3 W (Proc.devRef .tc main_call23_v0) = Read.val_main_call23_v0 (F := F) := by
  ref_results
  rfl

set_option maxHeartbeats 40000000 in
/-- Lines 756 to 767 of @main, in order. -/
abbrev tap8p4 : List (HloOp τ sig (Elt F)) :=
  [ unary main_call23_v0 main_call23_v1 ((broadcastInDim S131072 ![] bcast_S_S131072) : (⟨S_, .i32⟩ : BufTy).Contents (Elt F) → (⟨S131072, .i32⟩ : BufTy).Contents (Elt F)),
    binary main_call23_v1 main_v469 main_call23_v2 (maxsi : (⟨S131072, .i32⟩ : BufTy).Contents (Elt F) → (⟨S131072, .i32⟩ : BufTy).Contents (Elt F) → (⟨S131072, .i32⟩ : BufTy).Contents (Elt F)),
    unary main_c_169 main_call23_v3 (id : (⟨S_, .i32⟩ : BufTy).Contents (Elt F) → (⟨S_, .i32⟩ : BufTy).Contents (Elt F)),
    unary main_call23_v3 main_call23_v4 ((broadcastInDim S131072 ![] bcast_S_S131072) : (⟨S_, .i32⟩ : BufTy).Contents (Elt F) → (⟨S131072, .i32⟩ : BufTy).Contents (Elt F)),
    binary main_call23_v4 main_call23_v2 main_v482 (minsi : (⟨S131072, .i32⟩ : BufTy).Contents (Elt F) → (⟨S131072, .i32⟩ : BufTy).Contents (Elt F) → (⟨S131072, .i32⟩ : BufTy).Contents (Elt F)),
    nullary main_c_170 (constantI S_ 32 0#32),
    unary main_c_170 main_v483 (broadcastInDim S131072 ![] bcast_S_S131072 : (⟨S_, .i32⟩ : BufTy).Contents (Elt F) → (⟨S131072, .i32⟩ : BufTy).Contents (Elt F)),
    binary main_v20 main_v483 main_v484 (cmpi .slt : (⟨S131072, .i32⟩ : BufTy).Contents (Elt F) → (⟨S131072, .i32⟩ : BufTy).Contents (Elt F) → (⟨S131072, .i1⟩ : BufTy).Contents (Elt F)),
    nullary main_c_171 (constantI S_ 32 4#32),
    unary main_c_171 main_v485 (broadcastInDim S131072 ![] bcast_S_S131072 : (⟨S_, .i32⟩ : BufTy).Contents (Elt F) → (⟨S131072, .i32⟩ : BufTy).Contents (Elt F)),
    binary main_v20 main_v485 main_v486 (addi : (⟨S131072, .i32⟩ : BufTy).Contents (Elt F) → (⟨S131072, .i32⟩ : BufTy).Contents (Elt F) → (⟨S131072, .i32⟩ : BufTy).Contents (Elt F)),
    ternary main_v484 main_v486 main_v20 main_v487 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap8p4_sub : (tap8p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap8p4_fresh : (tap8p4 : List (HloOp τ sig (Elt F))).Forall fun op => op.fresh = ∅ := by
  simp only [List.Forall]; repeat' constructor

/-- The references the stretch writes: one per line, its result. -/
def tap8p4Res : List (Ref sig .tc) := [main_call23_v1, main_call23_v2, main_call23_v3, main_call23_v4, main_v482, main_c_170, main_v483, main_v484, main_c_171, main_v485, main_v486, main_v487]

set_option maxHeartbeats 40000000 in
/-- Each line writes only its own result. -/
theorem tap8p4_writes : (tap8p4 : List (HloOp τ sig (Elt F))).Forall fun op => op.writes ⊆ ((tap8p4Res.map (Proc.devRef (τ := τ) .tc)).toFinset) := by
  simp only [tap8p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p4_keeps (W : Valuation τ sig (Elt F)) {b : Ref sig .tc} (hb : b ∉ tap8p4Res) :
    after tap8p4 W (Proc.devRef .tc b) = W (Proc.devRef .tc b) :=
  after_of_writes_sub tap8p4 W tap8p4_writes hb

set_option maxHeartbeats 40000000 in
/-- `main_v482` after the piece, from contents holding what it reads at stage values: its stage value. -/
theorem tap8p4_v482 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_169 : W (Proc.devRef .tc main_c_169) = Read.val_main_c_169 (F := F))
    (h_call23_v0 : W (Proc.devRef .tc main_call23_v0) = Read.val_main_call23_v0 (F := F))
    (h_v469 : W (Proc.devRef .tc main_v469) = Read.val_main_v469 (F := F) x1) :
    after tap8p4 W (Proc.devRef .tc main_v482) = Read.val_main_v482 (F := F) x1 := by
  ref_results
  rewrite [h_c_169, h_call23_v0, h_v469]
  rfl

set_option maxHeartbeats 40000000 in
/-- `main_v487` after the piece, from contents holding what it reads at stage values: its stage value. -/
theorem tap8p4_v487 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap8p4 W (Proc.devRef .tc main_v487) = Read.val_main_v487 (F := F) := by
  ref_results
  rewrite [h_v20]
  rfl

set_option maxHeartbeats 40000000 in
/-- Lines 768 to 779 of @main, in order. -/
abbrev tap8p5 : List (HloOp τ sig (Elt F)) :=
  [ nullary main_c_172 (constantI S_ 32 0#32),
    unary main_c_172 main_v488 (broadcastInDim S131072 ![] bcast_S_S131072 : (⟨S_, .i32⟩ : BufTy).Contents (Elt F) → (⟨S131072, .i32⟩ : BufTy).Contents (Elt F)),
    binary main_v481 main_v488 main_v489 (cmpi .slt : (⟨S131072, .i32⟩ : BufTy).Contents (Elt F) → (⟨S131072, .i32⟩ : BufTy).Contents (Elt F) → (⟨S131072, .i1⟩ : BufTy).Contents (Elt F)),
    nullary main_c_173 (constantI S_ 32 256#32),
    unary main_c_173 main_v490 (broadcastInDim S131072 ![] bcast_S_S131072 : (⟨S_, .i32⟩ : BufTy).Contents (Elt F) → (⟨S131072, .i32⟩ : BufTy).Contents (Elt F)),
    binary main_v481 main_v490 main_v491 (addi : (⟨S131072, .i32⟩ : BufTy).Contents (Elt F) → (⟨S131072, .i32⟩ : BufTy).Contents (Elt F) → (⟨S131072, .i32⟩ : BufTy).Contents (Elt F)),
    ternary main_v489 main_v491 main_v481 main_v492 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_174 (constantI S_ 32 0#32),
    unary main_c_174 main_v493 (broadcastInDim S131072 ![] bcast_S_S131072 : (⟨S_, .i32⟩ : BufTy).Contents (Elt F) → (⟨S131072, .i32⟩ : BufTy).Contents (Elt F)),
    binary main_v482 main_v493 main_v494 (cmpi .slt : (⟨S131072, .i32⟩ : BufTy).Contents (Elt F) → (⟨S131072, .i32⟩ : BufTy).Contents (Elt F) → (⟨S131072, .i1⟩ : BufTy).Contents (Elt F)),
    nullary main_c_175 (constantI S_ 32 256#32),
    unary main_c_175 main_v495 (broadcastInDim S131072 ![] bcast_S_S131072 : (⟨S_, .i32⟩ : BufTy).Contents (Elt F) → (⟨S131072, .i32⟩ : BufTy).Contents (Elt F)) ]

/-- Each line touches TensorCore references only. -/
theorem tap8p5_sub : (tap8p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap8p5_fresh : (tap8p5 : List (HloOp τ sig (Elt F))).Forall fun op => op.fresh = ∅ := by
  simp only [List.Forall]; repeat' constructor

/-- The references the stretch writes: one per line, its result. -/
def tap8p5Res : List (Ref sig .tc) := [main_c_172, main_v488, main_v489, main_c_173, main_v490, main_v491, main_v492, main_c_174, main_v493, main_v494, main_c_175, main_v495]

set_option maxHeartbeats 40000000 in
/-- Each line writes only its own result. -/
theorem tap8p5_writes : (tap8p5 : List (HloOp τ sig (Elt F))).Forall fun op => op.writes ⊆ ((tap8p5Res.map (Proc.devRef (τ := τ) .tc)).toFinset) := by
  simp only [tap8p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p5_keeps (W : Valuation τ sig (Elt F)) {b : Ref sig .tc} (hb : b ∉ tap8p5Res) :
    after tap8p5 W (Proc.devRef .tc b) = W (Proc.devRef .tc b) :=
  after_of_writes_sub tap8p5 W tap8p5_writes hb

set_option maxHeartbeats 40000000 in
/-- `main_v492` after the piece, from contents holding what it reads at stage values: its stage value. -/
theorem tap8p5_v492 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v481 : W (Proc.devRef .tc main_v481) = Read.val_main_v481 (F := F) x1) :
    after tap8p5 W (Proc.devRef .tc main_v492) = Read.val_main_v492 (F := F) x1 := by
  ref_results
  rewrite [h_v481]
  rfl

set_option maxHeartbeats 40000000 in
/-- `main_v494` after the piece, from contents holding what it reads at stage values: its stage value. -/
theorem tap8p5_v494 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v482 : W (Proc.devRef .tc main_v482) = Read.val_main_v482 (F := F) x1) :
    after tap8p5 W (Proc.devRef .tc main_v494) = Read.val_main_v494 (F := F) x1 := by
  ref_results
  rewrite [h_v482]
  rfl

set_option maxHeartbeats 40000000 in
/-- `main_v495` after the piece, from contents holding what it reads at stage values: its stage value. -/
theorem tap8p5_v495 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap8p5 W (Proc.devRef .tc main_v495) = Read.val_main_v495 (F := F) := by
  ref_results
  rfl

set_option maxHeartbeats 40000000 in
/-- Lines 780 to 784 of @main, in order. -/
abbrev tap8p6 : List (HloOp τ sig (Elt F)) :=
  [ binary main_v482 main_v495 main_v496 (addi : (⟨S131072, .i32⟩ : BufTy).Contents (Elt F) → (⟨S131072, .i32⟩ : BufTy).Contents (Elt F) → (⟨S131072, .i32⟩ : BufTy).Contents (Elt F)),
    ternary main_v494 main_v496 main_v482 main_v497 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v487 main_v498 (broadcastInDim S131072x1 ![0] bcast_S131072_S131072x1_0 : (⟨S131072, .i32⟩ : BufTy).Contents (Elt F) → (⟨S131072x1, .i32⟩ : BufTy).Contents (Elt F)),
    unary main_v492 main_v499 (broadcastInDim S131072x1 ![0] bcast_S131072_S131072x1_0 : (⟨S131072, .i32⟩ : BufTy).Contents (Elt F) → (⟨S131072x1, .i32⟩ : BufTy).Contents (Elt F)),
    unary main_v497 main_v500 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap8p6_sub : (tap8p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap8p6_fresh : (tap8p6 : List (HloOp τ sig (Elt F))).Forall fun op => op.fresh = ∅ := by
  simp only [List.Forall]; repeat' constructor

/-- The references the stretch writes: one per line, its result. -/
def tap8p6Res : List (Ref sig .tc) := [main_v496, main_v497, main_v498, main_v499, main_v500]

set_option maxHeartbeats 40000000 in
/-- Each line writes only its own result. -/
theorem tap8p6_writes : (tap8p6 : List (HloOp τ sig (Elt F))).Forall fun op => op.writes ⊆ ((tap8p6Res.map (Proc.devRef (τ := τ) .tc)).toFinset) := by
  simp only [tap8p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p6_keeps (W : Valuation τ sig (Elt F)) {b : Ref sig .tc} (hb : b ∉ tap8p6Res) :
    after tap8p6 W (Proc.devRef .tc b) = W (Proc.devRef .tc b) :=
  after_of_writes_sub tap8p6 W tap8p6_writes hb

set_option maxHeartbeats 40000000 in
/-- `main_v498` after the piece, from contents holding what it reads at stage values: its stage value. -/
theorem tap8p6_v498 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v487 : W (Proc.devRef .tc main_v487) = Read.val_main_v487 (F := F)) :
    after tap8p6 W (Proc.devRef .tc main_v498) = Read.val_main_v498 (F := F) := by
  ref_results
  rewrite [h_v487]
  rfl

set_option maxHeartbeats 40000000 in
/-- `main_v499` after the piece, from contents holding what it reads at stage values: its stage value. -/
theorem tap8p6_v499 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v492 : W (Proc.devRef .tc main_v492) = Read.val_main_v492 (F := F) x1) :
    after tap8p6 W (Proc.devRef .tc main_v499) = Read.val_main_v499 (F := F) x1 := by
  ref_results
  rewrite [h_v492]
  rfl

set_option maxHeartbeats 40000000 in
/-- `main_v500` after the piece, from contents holding what it reads at stage values: its stage value. -/
theorem tap8p6_v500 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v482 : W (Proc.devRef .tc main_v482) = Read.val_main_v482 (F := F) x1)
    (h_v494 : W (Proc.devRef .tc main_v494) = Read.val_main_v494 (F := F) x1)
    (h_v495 : W (Proc.devRef .tc main_v495) = Read.val_main_v495 (F := F)) :
    after tap8p6 W (Proc.devRef .tc main_v500) = Read.val_main_v500 (F := F) x1 := by
  ref_results
  rewrite [h_v482, h_v494, h_v495]
  rfl

set_option maxHeartbeats 40000000 in
/-- Lines 785 to 796 of @main, in order. -/
abbrev tap8p7 : List (HloOp τ sig (Elt F)) :=
  [ nary ![main_v498, main_v499, main_v500] main_v501 (fun u => concatenate S131072x3 1 [⟨S131072x1, u 0⟩, ⟨S131072x1, u 1⟩, ⟨S131072x1, u 2⟩] concatenates_S131072x1_S131072x1_S131072x1_S131072x3_d1),
    binary main_v47 main_v501 main_v502 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_176 (constantI S_ 32 0#32),
    unary main_c_176 main_v503 (broadcastInDim S131072 ![] bcast_S_S131072 : (⟨S_, .i32⟩ : BufTy).Contents (Elt F) → (⟨S131072, .i32⟩ : BufTy).Contents (Elt F)),
    binary main_v502 main_v503 main_v504 (cmpi .sge : (⟨S131072, .i32⟩ : BufTy).Contents (Elt F) → (⟨S131072, .i32⟩ : BufTy).Contents (Elt F) → (⟨S131072, .i1⟩ : BufTy).Contents (Elt F)),
    binary main_v480 main_v504 main_v505 (andi : (⟨S131072, .i1⟩ : BufTy).Contents (Elt F) → (⟨S131072, .i1⟩ : BufTy).Contents (Elt F) → (⟨S131072, .i1⟩ : BufTy).Contents (Elt F)),
    unary main_v505 main_v506 (broadcastInDim S131072x1 ![0] bcast_S131072_S131072x1_0 : (⟨S131072, .i1⟩ : BufTy).Contents (Elt F) → (⟨S131072x1, .i1⟩ : BufTy).Contents (Elt F)),
    nullary main_c_177 (constantI S_ 32 0#32),
    unary main_c_177 main_v507 (broadcastInDim S131072 ![] bcast_S_S131072 : (⟨S_, .i32⟩ : BufTy).Contents (Elt F) → (⟨S131072, .i32⟩ : BufTy).Contents (Elt F)),
    binary main_v502 main_v507 main_v508 (maxsi : (⟨S131072, .i32⟩ : BufTy).Contents (Elt F) → (⟨S131072, .i32⟩ : BufTy).Contents (Elt F) → (⟨S131072, .i32⟩ : BufTy).Contents (Elt F)),
    nullary main_c_178 (constantI S_ 32 0#32),
    unary main_c_178 main_v509 (broadcastInDim S131072 ![] bcast_S_S131072 : (⟨S_, .i32⟩ : BufTy).Contents (Elt F) → (⟨S131072, .i32⟩ : BufTy).Contents (Elt F)) ]

/-- Each line touches TensorCore references only. -/
theorem tap8p7_sub : (tap8p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap8p7_fresh : (tap8p7 : List (HloOp τ sig (Elt F))).Forall fun op => op.fresh = ∅ := by
  simp only [List.Forall]; repeat' constructor

/-- The references the stretch writes: one per line, its result. -/
def tap8p7Res : List (Ref sig .tc) := [main_v501, main_v502, main_c_176, main_v503, main_v504, main_v505, main_v506, main_c_177, main_v507, main_v508, main_c_178, main_v509]

set_option maxHeartbeats 40000000 in
/-- Each line writes only its own result. -/
theorem tap8p7_writes : (tap8p7 : List (HloOp τ sig (Elt F))).Forall fun op => op.writes ⊆ ((tap8p7Res.map (Proc.devRef (τ := τ) .tc)).toFinset) := by
  simp only [tap8p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p7_keeps (W : Valuation τ sig (Elt F)) {b : Ref sig .tc} (hb : b ∉ tap8p7Res) :
    after tap8p7 W (Proc.devRef .tc b) = W (Proc.devRef .tc b) :=
  after_of_writes_sub tap8p7 W tap8p7_writes hb

set_option maxHeartbeats 40000000 in
/-- `main_v506` after the piece, from contents holding what it reads at stage values: its stage value. -/
theorem tap8p7_v506 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v47 : W (Proc.devRef .tc main_v47) = Read.val_main_v47 (F := F) x1)
    (h_v480 : W (Proc.devRef .tc main_v480) = Read.val_main_v480 (F := F) x1)
    (h_v498 : W (Proc.devRef .tc main_v498) = Read.val_main_v498 (F := F))
    (h_v499 : W (Proc.devRef .tc main_v499) = Read.val_main_v499 (F := F) x1)
    (h_v500 : W (Proc.devRef .tc main_v500) = Read.val_main_v500 (F := F) x1) :
    after tap8p7 W (Proc.devRef .tc main_v506) = Read.val_main_v506 (F := F) x1 := by
  ref_results_v
  rewrite [h_v47, h_v480, h_v498, h_v499, h_v500]
  rfl

set_option maxHeartbeats 40000000 in
/-- `main_v508` after the piece, from contents holding what it reads at stage values: its stage value. -/
theorem tap8p7_v508 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v47 : W (Proc.devRef .tc main_v47) = Read.val_main_v47 (F := F) x1)
    (h_v498 : W (Proc.devRef .tc main_v498) = Read.val_main_v498 (F := F))
    (h_v499 : W (Proc.devRef .tc main_v499) = Read.val_main_v499 (F := F) x1)
    (h_v500 : W (Proc.devRef .tc main_v500) = Read.val_main_v500 (F := F) x1) :
    after tap8p7 W (Proc.devRef .tc main_v508) = Read.val_main_v508 (F := F) x1 := by
  ref_results_v
  rewrite [h_v47, h_v498, h_v499, h_v500]
  rfl

set_option maxHeartbeats 40000000 in
/-- `main_v509` after the piece, from contents holding what it reads at stage values: its stage value. -/
theorem tap8p7_v509 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap8p7 W (Proc.devRef .tc main_v509) = Read.val_main_v509 (F := F) := by
  ref_results_v
  rfl

set_option maxHeartbeats 40000000 in
/-- Lines 797 to 808 of @main, in order. -/
abbrev tap8p8 : List (HloOp τ sig (Elt F)) :=
  [ binary main_v508 main_v509 main_v510 (cmpi .slt : (⟨S131072, .i32⟩ : BufTy).Contents (Elt F) → (⟨S131072, .i32⟩ : BufTy).Contents (Elt F) → (⟨S131072, .i1⟩ : BufTy).Contents (Elt F)),
    nullary main_c_179 (constantI S_ 32 131072#32),
    unary main_c_179 main_v511 (broadcastInDim S131072 ![] bcast_S_S131072 : (⟨S_, .i32⟩ : BufTy).Contents (Elt F) → (⟨S131072, .i32⟩ : BufTy).Contents (Elt F)),
    binary main_v508 main_v511 main_v512 (addi : (⟨S131072, .i32⟩ : BufTy).Contents (Elt F) → (⟨S131072, .i32⟩ : BufTy).Contents (Elt F) → (⟨S131072, .i32⟩ : BufTy).Contents (Elt F)),
    ternary main_v510 main_v512 main_v508 main_v513 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v513 main_v514 (broadcastInDim S131072x1 ![0] bcast_S131072_S131072x1_0 : (⟨S131072, .i32⟩ : BufTy).Contents (Elt F) → (⟨S131072x1, .i32⟩ : BufTy).Contents (Elt F)),
    binary main_v21 main_v514 main_v515 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_180 (constant S_ .f32 0x00000000#32),
    unary main_cst_180 main_call24_v0 (id : (⟨S_, .f32⟩ : BufTy).Contents (Elt F) → (⟨S_, .f32⟩ : BufTy).Contents (Elt F)),
    unary main_v506 main_call24_v1 ((broadcastInDim S131072x64 ![0, 1] bcast_S131072x1_S131072x64_0_1) : (⟨S131072x1, .i1⟩ : BufTy).Contents (Elt F) → (⟨S131072x64, .i1⟩ : BufTy).Contents (Elt F)),
    unary main_call24_v0 main_call24_v2 ((broadcastInDim S131072x64 ![] bcast_S_S131072x64) : (⟨S_, .f32⟩ : BufTy).Contents (Elt F) → (⟨S131072x64, .f32⟩ : BufTy).Contents (Elt F)),
    ternary main_call24_v1 main_v515 main_call24_v2 main_v516 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap8p8_sub : (tap8p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap8p8_fresh : (tap8p8 : List (HloOp τ sig (Elt F))).Forall fun op => op.fresh = ∅ := by
  simp only [List.Forall]; repeat' constructor

/-- The references the stretch writes: one per line, its result. -/
def tap8p8Res : List (Ref sig .tc) := [main_v510, main_c_179, main_v511, main_v512, main_v513, main_v514, main_v515, main_cst_180, main_call24_v0, main_call24_v1, main_call24_v2, main_v516]

set_option maxHeartbeats 40000000 in
/-- Each line writes only its own result. -/
theorem tap8p8_writes : (tap8p8 : List (HloOp τ sig (Elt F))).Forall fun op => op.writes ⊆ ((tap8p8Res.map (Proc.devRef (τ := τ) .tc)).toFinset) := by
  simp only [tap8p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p8_keeps (W : Valuation τ sig (Elt F)) {b : Ref sig .tc} (hb : b ∉ tap8p8Res) :
    after tap8p8 W (Proc.devRef .tc b) = W (Proc.devRef .tc b) :=
  after_of_writes_sub tap8p8 W tap8p8_writes hb

set_option maxHeartbeats 40000000 in
/-- `main_v516` after the piece, from contents holding what it reads at stage values: its stage value. -/
theorem tap8p8_v516 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v506 : W (Proc.devRef .tc main_v506) = Read.val_main_v506 (F := F) x1)
    (h_v508 : W (Proc.devRef .tc main_v508) = Read.val_main_v508 (F := F) x1)
    (h_v509 : W (Proc.devRef .tc main_v509) = Read.val_main_v509 (F := F)) :
    after tap8p8 W (Proc.devRef .tc main_v516) = Read.val_main_v516 (F := F) x0 x1 := by
  ref_results
  rewrite [h_v21, h_v506, h_v508, h_v509]
  rfl

set_option maxHeartbeats 40000000 in
/-- Lines 809 to 812 of @main, in order. -/
abbrev tap8p9 : List (HloOp τ sig (Elt F)) :=
  [ unary main_arg2 main_v517 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F)),
    reshape main_v517 main_v518 rfl shapeCasts_S1x1x64x64_S64x64,
    binary main_v516 main_v518 main_v519 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v461 main_v519 main_v520 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap8p9_sub : (tap8p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap8p9_fresh : (tap8p9 : List (HloOp τ sig (Elt F))).Forall fun op => op.fresh = ∅ := by
  simp only [List.Forall]; repeat' constructor

/-- The references the stretch writes: one per line, its result. -/
def tap8p9Res : List (Ref sig .tc) := [main_v517, main_v518, main_v519, main_v520]

set_option maxHeartbeats 40000000 in
/-- Each line writes only its own result. -/
theorem tap8p9_writes : (tap8p9 : List (HloOp τ sig (Elt F))).Forall fun op => op.writes ⊆ ((tap8p9Res.map (Proc.devRef (τ := τ) .tc)).toFinset) := by
  simp only [tap8p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap8p9_keeps (W : Valuation τ sig (Elt F)) {b : Ref sig .tc} (hb : b ∉ tap8p9Res) :
    after tap8p9 W (Proc.devRef .tc b) = W (Proc.devRef .tc b) :=
  after_of_writes_sub tap8p9 W tap8p9_writes hb

set_option maxHeartbeats 40000000 in
/-- `main_v520` after the piece, from contents holding what it reads at stage values: its stage value. -/
theorem tap8p9_v520 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v461 : W (Proc.devRef .tc main_v461) = Read.val_main_v461 (F := F) x0 x1 x2)
    (h_v516 : W (Proc.devRef .tc main_v516) = Read.val_main_v516 (F := F) x0 x1) :
    after tap8p9 W (Proc.devRef .tc main_v520) = Read.val_main_v520 (F := F) x0 x1 x2 := by
  ref_results
  rewrite [h_arg2, h_v461, h_v516]
  rfl

/-- The whole tap: its pieces one after the other. -/
def tap8 : List (HloOp τ sig (Elt F)) := tap8p1 ++ tap8p2 ++ tap8p3 ++ tap8p4 ++ tap8p5 ++ tap8p6 ++ tap8p7 ++ tap8p8 ++ tap8p9

theorem tap8_sub : (tap8 : List (HloOp τ sig (Elt F))).Forall fun op => op.bufs ⊆ tcRefs τ sig :=
  forall_append (forall_append (forall_append (forall_append (forall_append (forall_append (forall_append (forall_append (tap8p1_sub) tap8p2_sub) tap8p3_sub) tap8p4_sub) tap8p5_sub) tap8p6_sub) tap8p7_sub) tap8p8_sub) tap8p9_sub
theorem tap8_fresh : (tap8 : List (HloOp τ sig (Elt F))).Forall fun op => op.fresh = ∅ :=
  forall_append (forall_append (forall_append (forall_append (forall_append (forall_append (forall_append (forall_append (tap8p1_fresh) tap8p2_fresh) tap8p3_fresh) tap8p4_fresh) tap8p5_fresh) tap8p6_fresh) tap8p7_fresh) tap8p8_fresh) tap8p9_fresh

/-- The references the whole tap writes. -/
def tap8Res : List (Ref sig .tc) := tap8p1Res ++ tap8p2Res ++ tap8p3Res ++ tap8p4Res ++ tap8p5Res ++ tap8p6Res ++ tap8p7Res ++ tap8p8Res ++ tap8p9Res

/-- A reference the tap does not write keeps its contents. -/
theorem tap8_keeps (W : Valuation τ sig (Elt F)) {b : Ref sig .tc} (hb : b ∉ tap8Res) :
    after tap8 W (Proc.devRef .tc b) = W (Proc.devRef .tc b) := by
  have hb' : b ∉ tap8p1Res ∧ b ∉ tap8p2Res ∧ b ∉ tap8p3Res ∧ b ∉ tap8p4Res ∧ b ∉ tap8p5Res ∧ b ∉ tap8p6Res ∧ b ∉ tap8p7Res ∧ b ∉ tap8p8Res ∧ b ∉ tap8p9Res := by
    simpa only [tap8Res, List.mem_append, not_or, and_assoc] using hb
  simp only [tap8, StableHlo.after_append]
  rw [tap8p9_keeps _ hb'.2.2.2.2.2.2.2.2, tap8p8_keeps _ hb'.2.2.2.2.2.2.2.1, tap8p7_keeps _ hb'.2.2.2.2.2.2.1, tap8p6_keeps _ hb'.2.2.2.2.2.1, tap8p5_keeps _ hb'.2.2.2.2.1, tap8p4_keeps _ hb'.2.2.2.1, tap8p3_keeps _ hb'.2.2.1, tap8p2_keeps _ hb'.2.1, tap8p1_keeps _ hb'.1]

/-- The accumulator after the whole tap, from contents holding the index arrays, the rulebook grid, the features, the
    weights and the previous accumulator at their stage values: its stage value. -/
theorem tap8_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v461) = Read.val_main_v461 (F := F) x0 x1 x2) :
    after tap8 W (Proc.devRef .tc main_v520) = Read.val_main_v520 (F := F) x0 x1 x2 := by
  simp only [tap8, StableHlo.after_append]
  have f1_v465 := tap8p1_v465 (W) x0 x1 x2 h17
  have f1_v470 := tap8p1_v470 (W) x0 x1 x2
  have f1_v469 := tap8p1_v469 (W) x0 x1 x2 h17
  have f1_v20 := (tap8p1_keeps (W) (b := main_v20) (by decide)).trans h20
  have f1_v47 := (tap8p1_keeps (W) (b := main_v47) (by decide)).trans h47
  have f1_v21 := (tap8p1_keeps (W) (b := main_v21) (by decide)).trans h21
  have f1_arg2 := (tap8p1_keeps (W) (b := main_arg2) (by decide)).trans h2
  have f1_v461 := (tap8p1_keeps (W) (b := main_v461) (by decide)).trans hacc
  have f2_v477 := tap8p2_v477 (after tap8p1 (W)) x0 x1 x2 f1_v465 f1_v469 f1_v470
  have f2_v479 := tap8p2_v479 (after tap8p1 (W)) x0 x1 x2 f1_v469
  have f2_v465 := (tap8p2_keeps (after tap8p1 (W)) (b := main_v465) (by decide)).trans f1_v465
  have f2_v469 := (tap8p2_keeps (after tap8p1 (W)) (b := main_v469) (by decide)).trans f1_v469
  have f2_v20 := (tap8p2_keeps (after tap8p1 (W)) (b := main_v20) (by decide)).trans f1_v20
  have f2_v47 := (tap8p2_keeps (after tap8p1 (W)) (b := main_v47) (by decide)).trans f1_v47
  have f2_v21 := (tap8p2_keeps (after tap8p1 (W)) (b := main_v21) (by decide)).trans f1_v21
  have f2_arg2 := (tap8p2_keeps (after tap8p1 (W)) (b := main_arg2) (by decide)).trans f1_arg2
  have f2_v461 := (tap8p2_keeps (after tap8p1 (W)) (b := main_v461) (by decide)).trans f1_v461
  have f3_call23_v0 := tap8p3_call23_v0 (after tap8p2 (after tap8p1 (W))) x0 x1 x2
  have f3_v469 := (tap8p3_keeps (after tap8p2 (after tap8p1 (W))) (b := main_v469) (by decide)).trans f2_v469
  have f3_c_169 := tap8p3_c_169 (after tap8p2 (after tap8p1 (W))) x0 x1 x2
  have f3_v20 := (tap8p3_keeps (after tap8p2 (after tap8p1 (W))) (b := main_v20) (by decide)).trans f2_v20
  have f3_v481 := tap8p3_v481 (after tap8p2 (after tap8p1 (W))) x0 x1 x2 f2_v465
  have f3_v47 := (tap8p3_keeps (after tap8p2 (after tap8p1 (W))) (b := main_v47) (by decide)).trans f2_v47
  have f3_v480 := tap8p3_v480 (after tap8p2 (after tap8p1 (W))) x0 x1 x2 f2_v477 f2_v479
  have f3_v21 := (tap8p3_keeps (after tap8p2 (after tap8p1 (W))) (b := main_v21) (by decide)).trans f2_v21
  have f3_arg2 := (tap8p3_keeps (after tap8p2 (after tap8p1 (W))) (b := main_arg2) (by decide)).trans f2_arg2
  have f3_v461 := (tap8p3_keeps (after tap8p2 (after tap8p1 (W))) (b := main_v461) (by decide)).trans f2_v461
  have f4_v481 := (tap8p4_keeps (after tap8p3 (after tap8p2 (after tap8p1 (W)))) (b := main_v481) (by decide)).trans f3_v481
  have f4_v482 := tap8p4_v482 (after tap8p3 (after tap8p2 (after tap8p1 (W)))) x0 x1 x2 f3_c_169 f3_call23_v0 f3_v469
  have f4_v487 := tap8p4_v487 (after tap8p3 (after tap8p2 (after tap8p1 (W)))) x0 x1 x2 f3_v20
  have f4_v47 := (tap8p4_keeps (after tap8p3 (after tap8p2 (after tap8p1 (W)))) (b := main_v47) (by decide)).trans f3_v47
  have f4_v480 := (tap8p4_keeps (after tap8p3 (after tap8p2 (after tap8p1 (W)))) (b := main_v480) (by decide)).trans f3_v480
  have f4_v21 := (tap8p4_keeps (after tap8p3 (after tap8p2 (after tap8p1 (W)))) (b := main_v21) (by decide)).trans f3_v21
  have f4_arg2 := (tap8p4_keeps (after tap8p3 (after tap8p2 (after tap8p1 (W)))) (b := main_arg2) (by decide)).trans f3_arg2
  have f4_v461 := (tap8p4_keeps (after tap8p3 (after tap8p2 (after tap8p1 (W)))) (b := main_v461) (by decide)).trans f3_v461
  have f5_v482 := (tap8p5_keeps (after tap8p4 (after tap8p3 (after tap8p2 (after tap8p1 (W))))) (b := main_v482) (by decide)).trans f4_v482
  have f5_v495 := tap8p5_v495 (after tap8p4 (after tap8p3 (after tap8p2 (after tap8p1 (W))))) x0 x1 x2
  have f5_v494 := tap8p5_v494 (after tap8p4 (after tap8p3 (after tap8p2 (after tap8p1 (W))))) x0 x1 x2 f4_v482
  have f5_v487 := (tap8p5_keeps (after tap8p4 (after tap8p3 (after tap8p2 (after tap8p1 (W))))) (b := main_v487) (by decide)).trans f4_v487
  have f5_v492 := tap8p5_v492 (after tap8p4 (after tap8p3 (after tap8p2 (after tap8p1 (W))))) x0 x1 x2 f4_v481
  have f5_v47 := (tap8p5_keeps (after tap8p4 (after tap8p3 (after tap8p2 (after tap8p1 (W))))) (b := main_v47) (by decide)).trans f4_v47
  have f5_v480 := (tap8p5_keeps (after tap8p4 (after tap8p3 (after tap8p2 (after tap8p1 (W))))) (b := main_v480) (by decide)).trans f4_v480
  have f5_v21 := (tap8p5_keeps (after tap8p4 (after tap8p3 (after tap8p2 (after tap8p1 (W))))) (b := main_v21) (by decide)).trans f4_v21
  have f5_arg2 := (tap8p5_keeps (after tap8p4 (after tap8p3 (after tap8p2 (after tap8p1 (W))))) (b := main_arg2) (by decide)).trans f4_arg2
  have f5_v461 := (tap8p5_keeps (after tap8p4 (after tap8p3 (after tap8p2 (after tap8p1 (W))))) (b := main_v461) (by decide)).trans f4_v461
  have f6_v498 := tap8p6_v498 (after tap8p5 (after tap8p4 (after tap8p3 (after tap8p2 (after tap8p1 (W)))))) x0 x1 x2 f5_v487
  have f6_v499 := tap8p6_v499 (after tap8p5 (after tap8p4 (after tap8p3 (after tap8p2 (after tap8p1 (W)))))) x0 x1 x2 f5_v492
  have f6_v500 := tap8p6_v500 (after tap8p5 (after tap8p4 (after tap8p3 (after tap8p2 (after tap8p1 (W)))))) x0 x1 x2 f5_v482 f5_v494 f5_v495
  have f6_v47 := (tap8p6_keeps (after tap8p5 (after tap8p4 (after tap8p3 (after tap8p2 (after tap8p1 (W)))))) (b := main_v47) (by decide)).trans f5_v47
  have f6_v480 := (tap8p6_keeps (after tap8p5 (after tap8p4 (after tap8p3 (after tap8p2 (after tap8p1 (W)))))) (b := main_v480) (by decide)).trans f5_v480
  have f6_v21 := (tap8p6_keeps (after tap8p5 (after tap8p4 (after tap8p3 (after tap8p2 (after tap8p1 (W)))))) (b := main_v21) (by decide)).trans f5_v21
  have f6_arg2 := (tap8p6_keeps (after tap8p5 (after tap8p4 (after tap8p3 (after tap8p2 (after tap8p1 (W)))))) (b := main_arg2) (by decide)).trans f5_arg2
  have f6_v461 := (tap8p6_keeps (after tap8p5 (after tap8p4 (after tap8p3 (after tap8p2 (after tap8p1 (W)))))) (b := main_v461) (by decide)).trans f5_v461
  have f7_v508 := tap8p7_v508 (after tap8p6 (after tap8p5 (after tap8p4 (after tap8p3 (after tap8p2 (after tap8p1 (W))))))) x0 x1 x2 f6_v47 f6_v498 f6_v499 f6_v500
  have f7_v509 := tap8p7_v509 (after tap8p6 (after tap8p5 (after tap8p4 (after tap8p3 (after tap8p2 (after tap8p1 (W))))))) x0 x1 x2
  have f7_v21 := (tap8p7_keeps (after tap8p6 (after tap8p5 (after tap8p4 (after tap8p3 (after tap8p2 (after tap8p1 (W))))))) (b := main_v21) (by decide)).trans f6_v21
  have f7_v506 := tap8p7_v506 (after tap8p6 (after tap8p5 (after tap8p4 (after tap8p3 (after tap8p2 (after tap8p1 (W))))))) x0 x1 x2 f6_v47 f6_v480 f6_v498 f6_v499 f6_v500
  have f7_arg2 := (tap8p7_keeps (after tap8p6 (after tap8p5 (after tap8p4 (after tap8p3 (after tap8p2 (after tap8p1 (W))))))) (b := main_arg2) (by decide)).trans f6_arg2
  have f7_v461 := (tap8p7_keeps (after tap8p6 (after tap8p5 (after tap8p4 (after tap8p3 (after tap8p2 (after tap8p1 (W))))))) (b := main_v461) (by decide)).trans f6_v461
  have f8_arg2 := (tap8p8_keeps (after tap8p7 (after tap8p6 (after tap8p5 (after tap8p4 (after tap8p3 (after tap8p2 (after tap8p1 (W)))))))) (b := main_arg2) (by decide)).trans f7_arg2
  have f8_v516 := tap8p8_v516 (after tap8p7 (after tap8p6 (after tap8p5 (after tap8p4 (after tap8p3 (after tap8p2 (after tap8p1 (W)))))))) x0 x1 x2 f7_v21 f7_v506 f7_v508 f7_v509
  have f8_v461 := (tap8p8_keeps (after tap8p7 (after tap8p6 (after tap8p5 (after tap8p4 (after tap8p3 (after tap8p2 (after tap8p1 (W)))))))) (b := main_v461) (by decide)).trans f7_v461
  have f9_v520 := tap8p9_v520 (after tap8p8 (after tap8p7 (after tap8p6 (after tap8p5 (after tap8p4 (after tap8p3 (after tap8p2 (after tap8p1 (W))))))))) x0 x1 x2 f8_arg2 f8_v461 f8_v516
  exact f9_v520

end Cert.ReferenceIdeal.RefRun

end
-- ==== Proof.RefTap9.lean ====
/- One tap of the reference program's host lines (93 of its 907, in program order), in short pieces: the lines as
   lists (a line of an inlined function written over its buffers directly), what each piece leaves unwritten, and what it
   computes as the stage-by-stage values of the arguments; then the tap's accumulator from contents holding what the tap
   reads at stage values. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Lines 813 to 824 of @main, in order. -/
abbrev tap9p1 : List (HloOp τ sig (Elt F)) :=
  [ unary main_v17 main_v521 ((extractStridedSlice S131072x1 ![0, 0] · slices_S131072x2_S131072x1_0_0) : (⟨S131072x2, .i32⟩ : BufTy).Contents (Elt F) → (⟨S131072x1, .i32⟩ : BufTy).Contents (Elt F)),
    reshape main_v521 main_v522 rfl shapeCasts_S131072x1_S131072,
    nullary main_c_181 (constantI S_ 32 1#32),
    unary main_c_181 main_v523 (broadcastInDim S131072 ![] bcast_S_S131072 : (⟨S_, .i32⟩ : BufTy).Contents (Elt F) → (⟨S131072, .i32⟩ : BufTy).Contents (Elt F)),
    binary main_v522 main_v523 main_v524 (addi : (⟨S131072, .i32⟩ : BufTy).Contents (Elt F) → (⟨S131072, .i32⟩ : BufTy).Contents (Elt F) → (⟨S131072, .i32⟩ : BufTy).Contents (Elt F)),
    unary main_v17 main_v525 ((extractStridedSlice S131072x1 ![0, 1] · slices_S131072x2_S131072x1_0_1) : (⟨S131072x2, .i32⟩ : BufTy).Contents (Elt F) → (⟨S131072x1, .i32⟩ : BufTy).Contents (Elt F)),
    reshape main_v525 main_v526 rfl shapeCasts_S131072x1_S131072,
    nullary main_c_182 (constantI S_ 32 1#32),
    unary main_c_182 main_v527 (broadcastInDim S131072 ![] bcast_S_S131072 : (⟨S_, .i32⟩ : BufTy).Contents (Elt F) → (⟨S131072, .i32⟩ : BufTy).Contents (Elt F)),
    binary main_v526 main_v527 main_v528 (addi : (⟨S131072, .i32⟩ : BufTy).Contents (Elt F) → (⟨S131072, .i32⟩ : BufTy).Contents (Elt F) → (⟨S131072, .i32⟩ : BufTy).Contents (Elt F)),
    nullary main_c_183 (constantI S_ 32 0#32),
    unary main_c_183 main_v529 (broadcastInDim S131072 ![] bcast_S_S131072 : (⟨S_, .i32⟩ : BufTy).Contents (Elt F) → (⟨S131072, .i32⟩ : BufTy).Contents (Elt F)) ]

/-- Each line touches TensorCore references only. -/
theorem tap9p1_sub : (tap9p1 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩

/-- No line allocates a buffer. -/
theorem tap9p1_fresh : (tap9p1 : List (HloOp τ sig (Elt F))).Forall fun op => op.fresh = ∅ := by
  simp only [List.Forall]; repeat' constructor

/-- The references the stretch writes: one per line, its result. -/
def tap9p1Res : List (Ref sig .tc) := [main_v521, main_v522, main_c_181, main_v523, main_v524, main_v525, main_v526, main_c_182, main_v527, main_v528, main_c_183, main_v529]

set_option maxHeartbeats 40000000 in
/-- Each line writes only its own result. -/
theorem tap9p1_writes : (tap9p1 : List (HloOp τ sig (Elt F))).Forall fun op => op.writes ⊆ ((tap9p1Res.map (Proc.devRef (τ := τ) .tc)).toFinset) := by
  simp only [tap9p1, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p1_keeps (W : Valuation τ sig (Elt F)) {b : Ref sig .tc} (hb : b ∉ tap9p1Res) :
    after tap9p1 W (Proc.devRef .tc b) = W (Proc.devRef .tc b) :=
  after_of_writes_sub tap9p1 W tap9p1_writes hb

set_option maxHeartbeats 40000000 in
/-- `main_v524` after the piece, from contents holding what it reads at stage values: its stage value. -/
theorem tap9p1_v524 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap9p1 W (Proc.devRef .tc main_v524) = Read.val_main_v524 (F := F) x1 := by
  ref_results
  rewrite [h_v17]
  rfl

set_option maxHeartbeats 40000000 in
/-- `main_v528` after the piece, from contents holding what it reads at stage values: its stage value. -/
theorem tap9p1_v528 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v17 : W (Proc.devRef .tc main_v17) = Read.val_main_v17 (F := F) x1) :
    after tap9p1 W (Proc.devRef .tc main_v528) = Read.val_main_v528 (F := F) x1 := by
  ref_results
  rewrite [h_v17]
  rfl

set_option maxHeartbeats 40000000 in
/-- `main_v529` after the piece, from contents holding what it reads at stage values: its stage value. -/
theorem tap9p1_v529 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap9p1 W (Proc.devRef .tc main_v529) = Read.val_main_v529 (F := F) := by
  ref_results
  rfl

set_option maxHeartbeats 40000000 in
/-- Lines 825 to 836 of @main, in order. -/
abbrev tap9p2 : List (HloOp τ sig (Elt F)) :=
  [ binary main_v524 main_v529 main_v530 (cmpi .sge : (⟨S131072, .i32⟩ : BufTy).Contents (Elt F) → (⟨S131072, .i32⟩ : BufTy).Contents (Elt F) → (⟨S131072, .i1⟩ : BufTy).Contents (Elt F)),
    nullary main_c_184 (constantI S_ 32 256#32),
    unary main_c_184 main_v531 (broadcastInDim S131072 ![] bcast_S_S131072 : (⟨S_, .i32⟩ : BufTy).Contents (Elt F) → (⟨S131072, .i32⟩ : BufTy).Contents (Elt F)),
    binary main_v524 main_v531 main_v532 (cmpi .slt : (⟨S131072, .i32⟩ : BufTy).Contents (Elt F) → (⟨S131072, .i32⟩ : BufTy).Contents (Elt F) → (⟨S131072, .i1⟩ : BufTy).Contents (Elt F)),
    binary main_v530 main_v532 main_v533 (andi : (⟨S131072, .i1⟩ : BufTy).Contents (Elt F) → (⟨S131072, .i1⟩ : BufTy).Contents (Elt F) → (⟨S131072, .i1⟩ : BufTy).Contents (Elt F)),
    nullary main_c_185 (constantI S_ 32 0#32),
    unary main_c_185 main_v534 (broadcastInDim S131072 ![] bcast_S_S131072 : (⟨S_, .i32⟩ : BufTy).Contents (Elt F) → (⟨S131072, .i32⟩ : BufTy).Contents (Elt F)),
    binary main_v528 main_v534 main_v535 (cmpi .sge : (⟨S131072, .i32⟩ : BufTy).Contents (Elt F) → (⟨S131072, .i32⟩ : BufTy).Contents (Elt F) → (⟨S131072, .i1⟩ : BufTy).Contents (Elt F)),
    binary main_v533 main_v535 main_v536 (andi : (⟨S131072, .i1⟩ : BufTy).Contents (Elt F) → (⟨S131072, .i1⟩ : BufTy).Contents (Elt F) → (⟨S131072, .i1⟩ : BufTy).Contents (Elt F)),
    nullary main_c_186 (constantI S_ 32 256#32),
    unary main_c_186 main_v537 (broadcastInDim S131072 ![] bcast_S_S131072 : (⟨S_, .i32⟩ : BufTy).Contents (Elt F) → (⟨S131072, .i32⟩ : BufTy).Contents (Elt F)),
    binary main_v528 main_v537 main_v538 (cmpi .slt : (⟨S131072, .i32⟩ : BufTy).Contents (Elt F) → (⟨S131072, .i32⟩ : BufTy).Contents (Elt F) → (⟨S131072, .i1⟩ : BufTy).Contents (Elt F)) ]

/-- Each line touches TensorCore references only. -/
theorem tap9p2_sub : (tap9p2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- No line allocates a buffer. -/
theorem tap9p2_fresh : (tap9p2 : List (HloOp τ sig (Elt F))).Forall fun op => op.fresh = ∅ := by
  simp only [List.Forall]; repeat' constructor

/-- The references the stretch writes: one per line, its result. -/
def tap9p2Res : List (Ref sig .tc) := [main_v530, main_c_184, main_v531, main_v532, main_v533, main_c_185, main_v534, main_v535, main_v536, main_c_186, main_v537, main_v538]

set_option maxHeartbeats 40000000 in
/-- Each line writes only its own result. -/
theorem tap9p2_writes : (tap9p2 : List (HloOp τ sig (Elt F))).Forall fun op => op.writes ⊆ ((tap9p2Res.map (Proc.devRef (τ := τ) .tc)).toFinset) := by
  simp only [tap9p2, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p2_keeps (W : Valuation τ sig (Elt F)) {b : Ref sig .tc} (hb : b ∉ tap9p2Res) :
    after tap9p2 W (Proc.devRef .tc b) = W (Proc.devRef .tc b) :=
  after_of_writes_sub tap9p2 W tap9p2_writes hb

set_option maxHeartbeats 40000000 in
/-- `main_v536` after the piece, from contents holding what it reads at stage values: its stage value. -/
theorem tap9p2_v536 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v524 : W (Proc.devRef .tc main_v524) = Read.val_main_v524 (F := F) x1)
    (h_v528 : W (Proc.devRef .tc main_v528) = Read.val_main_v528 (F := F) x1)
    (h_v529 : W (Proc.devRef .tc main_v529) = Read.val_main_v529 (F := F)) :
    after tap9p2 W (Proc.devRef .tc main_v536) = Read.val_main_v536 (F := F) x1 := by
  ref_results
  rewrite [h_v524, h_v528, h_v529]
  rfl

set_option maxHeartbeats 40000000 in
/-- `main_v538` after the piece, from contents holding what it reads at stage values: its stage value. -/
theorem tap9p2_v538 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v528 : W (Proc.devRef .tc main_v528) = Read.val_main_v528 (F := F) x1) :
    after tap9p2 W (Proc.devRef .tc main_v538) = Read.val_main_v538 (F := F) x1 := by
  ref_results
  rewrite [h_v528]
  rfl

set_option maxHeartbeats 40000000 in
/-- Lines 837 to 848 of @main, in order. -/
abbrev tap9p3 : List (HloOp τ sig (Elt F)) :=
  [ binary main_v536 main_v538 main_v539 (andi : (⟨S131072, .i1⟩ : BufTy).Contents (Elt F) → (⟨S131072, .i1⟩ : BufTy).Contents (Elt F) → (⟨S131072, .i1⟩ : BufTy).Contents (Elt F)),
    nullary main_c_187 (constantI S_ 32 0#32),
    nullary main_c_188 (constantI S_ 32 255#32),
    unary main_c_187 main_call25_v0 (id : (⟨S_, .i32⟩ : BufTy).Contents (Elt F) → (⟨S_, .i32⟩ : BufTy).Contents (Elt F)),
    unary main_call25_v0 main_call25_v1 ((broadcastInDim S131072 ![] bcast_S_S131072) : (⟨S_, .i32⟩ : BufTy).Contents (Elt F) → (⟨S131072, .i32⟩ : BufTy).Contents (Elt F)),
    binary main_call25_v1 main_v524 main_call25_v2 (maxsi : (⟨S131072, .i32⟩ : BufTy).Contents (Elt F) → (⟨S131072, .i32⟩ : BufTy).Contents (Elt F) → (⟨S131072, .i32⟩ : BufTy).Contents (Elt F)),
    unary main_c_188 main_call25_v3 (id : (⟨S_, .i32⟩ : BufTy).Contents (Elt F) → (⟨S_, .i32⟩ : BufTy).Contents (Elt F)),
    unary main_call25_v3 main_call25_v4 ((broadcastInDim S131072 ![] bcast_S_S131072) : (⟨S_, .i32⟩ : BufTy).Contents (Elt F) → (⟨S131072, .i32⟩ : BufTy).Contents (Elt F)),
    binary main_call25_v4 main_call25_v2 main_v540 (minsi : (⟨S131072, .i32⟩ : BufTy).Contents (Elt F) → (⟨S131072, .i32⟩ : BufTy).Contents (Elt F) → (⟨S131072, .i32⟩ : BufTy).Contents (Elt F)),
    nullary main_c_189 (constantI S_ 32 0#32),
    nullary main_c_190 (constantI S_ 32 255#32),
    unary main_c_189 main_call26_v0 (id : (⟨S_, .i32⟩ : BufTy).Contents (Elt F) → (⟨S_, .i32⟩ : BufTy).Contents (Elt F)) ]

/-- Each line touches TensorCore references only. -/
theorem tap9p3_sub : (tap9p3 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub ..⟩

/-- No line allocates a buffer. -/
theorem tap9p3_fresh : (tap9p3 : List (HloOp τ sig (Elt F))).Forall fun op => op.fresh = ∅ := by
  simp only [List.Forall]; repeat' constructor

/-- The references the stretch writes: one per line, its result. -/
def tap9p3Res : List (Ref sig .tc) := [main_v539, main_c_187, main_c_188, main_call25_v0, main_call25_v1, main_call25_v2, main_call25_v3, main_call25_v4, main_v540, main_c_189, main_c_190, main_call26_v0]

set_option maxHeartbeats 40000000 in
/-- Each line writes only its own result. -/
theorem tap9p3_writes : (tap9p3 : List (HloOp τ sig (Elt F))).Forall fun op => op.writes ⊆ ((tap9p3Res.map (Proc.devRef (τ := τ) .tc)).toFinset) := by
  simp only [tap9p3, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p3_keeps (W : Valuation τ sig (Elt F)) {b : Ref sig .tc} (hb : b ∉ tap9p3Res) :
    after tap9p3 W (Proc.devRef .tc b) = W (Proc.devRef .tc b) :=
  after_of_writes_sub tap9p3 W tap9p3_writes hb

set_option maxHeartbeats 40000000 in
/-- `main_v539` after the piece, from contents holding what it reads at stage values: its stage value. -/
theorem tap9p3_v539 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v536 : W (Proc.devRef .tc main_v536) = Read.val_main_v536 (F := F) x1)
    (h_v538 : W (Proc.devRef .tc main_v538) = Read.val_main_v538 (F := F) x1) :
    after tap9p3 W (Proc.devRef .tc main_v539) = Read.val_main_v539 (F := F) x1 := by
  ref_results
  rewrite [h_v536, h_v538]
  rfl

set_option maxHeartbeats 40000000 in
/-- `main_v540` after the piece, from contents holding what it reads at stage values: its stage value. -/
theorem tap9p3_v540 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v524 : W (Proc.devRef .tc main_v524) = Read.val_main_v524 (F := F) x1) :
    after tap9p3 W (Proc.devRef .tc main_v540) = Read.val_main_v540 (F := F) x1 := by
  ref_results
  rewrite [h_v524]
  rfl

set_option maxHeartbeats 40000000 in
/-- `main_c_190` after the piece, from contents holding what it reads at stage values: its stage value. -/
theorem tap9p3_c_190 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap9p3 W (Proc.devRef .tc main_c_190) = Read.val_main_c_190 (F := F) := by
  ref_results
  rfl

set_option maxHeartbeats 40000000 in
/-- `main_call26_v0` after the piece, from contents holding what it reads at stage values: its stage value. -/
theorem tap9p3_call26_v0 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap9p3 W (Proc.devRef .tc main_call26_v0) = Read.val_main_call26_v0 (F := F) := by
  ref_results
  rfl

set_option maxHeartbeats 40000000 in
/-- Lines 849 to 860 of @main, in order. -/
abbrev tap9p4 : List (HloOp τ sig (Elt F)) :=
  [ unary main_call26_v0 main_call26_v1 ((broadcastInDim S131072 ![] bcast_S_S131072) : (⟨S_, .i32⟩ : BufTy).Contents (Elt F) → (⟨S131072, .i32⟩ : BufTy).Contents (Elt F)),
    binary main_call26_v1 main_v528 main_call26_v2 (maxsi : (⟨S131072, .i32⟩ : BufTy).Contents (Elt F) → (⟨S131072, .i32⟩ : BufTy).Contents (Elt F) → (⟨S131072, .i32⟩ : BufTy).Contents (Elt F)),
    unary main_c_190 main_call26_v3 (id : (⟨S_, .i32⟩ : BufTy).Contents (Elt F) → (⟨S_, .i32⟩ : BufTy).Contents (Elt F)),
    unary main_call26_v3 main_call26_v4 ((broadcastInDim S131072 ![] bcast_S_S131072) : (⟨S_, .i32⟩ : BufTy).Contents (Elt F) → (⟨S131072, .i32⟩ : BufTy).Contents (Elt F)),
    binary main_call26_v4 main_call26_v2 main_v541 (minsi : (⟨S131072, .i32⟩ : BufTy).Contents (Elt F) → (⟨S131072, .i32⟩ : BufTy).Contents (Elt F) → (⟨S131072, .i32⟩ : BufTy).Contents (Elt F)),
    nullary main_c_191 (constantI S_ 32 0#32),
    unary main_c_191 main_v542 (broadcastInDim S131072 ![] bcast_S_S131072 : (⟨S_, .i32⟩ : BufTy).Contents (Elt F) → (⟨S131072, .i32⟩ : BufTy).Contents (Elt F)),
    binary main_v20 main_v542 main_v543 (cmpi .slt : (⟨S131072, .i32⟩ : BufTy).Contents (Elt F) → (⟨S131072, .i32⟩ : BufTy).Contents (Elt F) → (⟨S131072, .i1⟩ : BufTy).Contents (Elt F)),
    nullary main_c_192 (constantI S_ 32 4#32),
    unary main_c_192 main_v544 (broadcastInDim S131072 ![] bcast_S_S131072 : (⟨S_, .i32⟩ : BufTy).Contents (Elt F) → (⟨S131072, .i32⟩ : BufTy).Contents (Elt F)),
    binary main_v20 main_v544 main_v545 (addi : (⟨S131072, .i32⟩ : BufTy).Contents (Elt F) → (⟨S131072, .i32⟩ : BufTy).Contents (Elt F) → (⟨S131072, .i32⟩ : BufTy).Contents (Elt F)),
    ternary main_v543 main_v545 main_v20 main_v546 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]

/-- Each line touches TensorCore references only. -/
theorem tap9p4_sub : (tap9p4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- No line allocates a buffer. -/
theorem tap9p4_fresh : (tap9p4 : List (HloOp τ sig (Elt F))).Forall fun op => op.fresh = ∅ := by
  simp only [List.Forall]; repeat' constructor

/-- The references the stretch writes: one per line, its result. -/
def tap9p4Res : List (Ref sig .tc) := [main_call26_v1, main_call26_v2, main_call26_v3, main_call26_v4, main_v541, main_c_191, main_v542, main_v543, main_c_192, main_v544, main_v545, main_v546]

set_option maxHeartbeats 40000000 in
/-- Each line writes only its own result. -/
theorem tap9p4_writes : (tap9p4 : List (HloOp τ sig (Elt F))).Forall fun op => op.writes ⊆ ((tap9p4Res.map (Proc.devRef (τ := τ) .tc)).toFinset) := by
  simp only [tap9p4, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p4_keeps (W : Valuation τ sig (Elt F)) {b : Ref sig .tc} (hb : b ∉ tap9p4Res) :
    after tap9p4 W (Proc.devRef .tc b) = W (Proc.devRef .tc b) :=
  after_of_writes_sub tap9p4 W tap9p4_writes hb

set_option maxHeartbeats 40000000 in
/-- `main_v541` after the piece, from contents holding what it reads at stage values: its stage value. -/
theorem tap9p4_v541 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_c_190 : W (Proc.devRef .tc main_c_190) = Read.val_main_c_190 (F := F))
    (h_call26_v0 : W (Proc.devRef .tc main_call26_v0) = Read.val_main_call26_v0 (F := F))
    (h_v528 : W (Proc.devRef .tc main_v528) = Read.val_main_v528 (F := F) x1) :
    after tap9p4 W (Proc.devRef .tc main_v541) = Read.val_main_v541 (F := F) x1 := by
  ref_results
  rewrite [h_c_190, h_call26_v0, h_v528]
  rfl

set_option maxHeartbeats 40000000 in
/-- `main_v546` after the piece, from contents holding what it reads at stage values: its stage value. -/
theorem tap9p4_v546 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v20 : W (Proc.devRef .tc main_v20) = Read.val_main_v20 (F := F)) :
    after tap9p4 W (Proc.devRef .tc main_v546) = Read.val_main_v546 (F := F) := by
  ref_results
  rewrite [h_v20]
  rfl

set_option maxHeartbeats 40000000 in
/-- Lines 861 to 872 of @main, in order. -/
abbrev tap9p5 : List (HloOp τ sig (Elt F)) :=
  [ nullary main_c_193 (constantI S_ 32 0#32),
    unary main_c_193 main_v547 (broadcastInDim S131072 ![] bcast_S_S131072 : (⟨S_, .i32⟩ : BufTy).Contents (Elt F) → (⟨S131072, .i32⟩ : BufTy).Contents (Elt F)),
    binary main_v540 main_v547 main_v548 (cmpi .slt : (⟨S131072, .i32⟩ : BufTy).Contents (Elt F) → (⟨S131072, .i32⟩ : BufTy).Contents (Elt F) → (⟨S131072, .i1⟩ : BufTy).Contents (Elt F)),
    nullary main_c_194 (constantI S_ 32 256#32),
    unary main_c_194 main_v549 (broadcastInDim S131072 ![] bcast_S_S131072 : (⟨S_, .i32⟩ : BufTy).Contents (Elt F) → (⟨S131072, .i32⟩ : BufTy).Contents (Elt F)),
    binary main_v540 main_v549 main_v550 (addi : (⟨S131072, .i32⟩ : BufTy).Contents (Elt F) → (⟨S131072, .i32⟩ : BufTy).Contents (Elt F) → (⟨S131072, .i32⟩ : BufTy).Contents (Elt F)),
    ternary main_v548 main_v550 main_v540 main_v551 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_195 (constantI S_ 32 0#32),
    unary main_c_195 main_v552 (broadcastInDim S131072 ![] bcast_S_S131072 : (⟨S_, .i32⟩ : BufTy).Contents (Elt F) → (⟨S131072, .i32⟩ : BufTy).Contents (Elt F)),
    binary main_v541 main_v552 main_v553 (cmpi .slt : (⟨S131072, .i32⟩ : BufTy).Contents (Elt F) → (⟨S131072, .i32⟩ : BufTy).Contents (Elt F) → (⟨S131072, .i1⟩ : BufTy).Contents (Elt F)),
    nullary main_c_196 (constantI S_ 32 256#32),
    unary main_c_196 main_v554 (broadcastInDim S131072 ![] bcast_S_S131072 : (⟨S_, .i32⟩ : BufTy).Contents (Elt F) → (⟨S131072, .i32⟩ : BufTy).Contents (Elt F)) ]

/-- Each line touches TensorCore references only. -/
theorem tap9p5_sub : (tap9p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

/-- No line allocates a buffer. -/
theorem tap9p5_fresh : (tap9p5 : List (HloOp τ sig (Elt F))).Forall fun op => op.fresh = ∅ := by
  simp only [List.Forall]; repeat' constructor

/-- The references the stretch writes: one per line, its result. -/
def tap9p5Res : List (Ref sig .tc) := [main_c_193, main_v547, main_v548, main_c_194, main_v549, main_v550, main_v551, main_c_195, main_v552, main_v553, main_c_196, main_v554]

set_option maxHeartbeats 40000000 in
/-- Each line writes only its own result. -/
theorem tap9p5_writes : (tap9p5 : List (HloOp τ sig (Elt F))).Forall fun op => op.writes ⊆ ((tap9p5Res.map (Proc.devRef (τ := τ) .tc)).toFinset) := by
  simp only [tap9p5, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p5_keeps (W : Valuation τ sig (Elt F)) {b : Ref sig .tc} (hb : b ∉ tap9p5Res) :
    after tap9p5 W (Proc.devRef .tc b) = W (Proc.devRef .tc b) :=
  after_of_writes_sub tap9p5 W tap9p5_writes hb

set_option maxHeartbeats 40000000 in
/-- `main_v551` after the piece, from contents holding what it reads at stage values: its stage value. -/
theorem tap9p5_v551 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v540 : W (Proc.devRef .tc main_v540) = Read.val_main_v540 (F := F) x1) :
    after tap9p5 W (Proc.devRef .tc main_v551) = Read.val_main_v551 (F := F) x1 := by
  ref_results
  rewrite [h_v540]
  rfl

set_option maxHeartbeats 40000000 in
/-- `main_v553` after the piece, from contents holding what it reads at stage values: its stage value. -/
theorem tap9p5_v553 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v541 : W (Proc.devRef .tc main_v541) = Read.val_main_v541 (F := F) x1) :
    after tap9p5 W (Proc.devRef .tc main_v553) = Read.val_main_v553 (F := F) x1 := by
  ref_results
  rewrite [h_v541]
  rfl

set_option maxHeartbeats 40000000 in
/-- `main_v554` after the piece, from contents holding what it reads at stage values: its stage value. -/
theorem tap9p5_v554 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap9p5 W (Proc.devRef .tc main_v554) = Read.val_main_v554 (F := F) := by
  ref_results
  rfl

set_option maxHeartbeats 40000000 in
/-- Lines 873 to 877 of @main, in order. -/
abbrev tap9p6 : List (HloOp τ sig (Elt F)) :=
  [ binary main_v541 main_v554 main_v555 (addi : (⟨S131072, .i32⟩ : BufTy).Contents (Elt F) → (⟨S131072, .i32⟩ : BufTy).Contents (Elt F) → (⟨S131072, .i32⟩ : BufTy).Contents (Elt F)),
    ternary main_v553 main_v555 main_v541 main_v556 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v546 main_v557 (broadcastInDim S131072x1 ![0] bcast_S131072_S131072x1_0 : (⟨S131072, .i32⟩ : BufTy).Contents (Elt F) → (⟨S131072x1, .i32⟩ : BufTy).Contents (Elt F)),
    unary main_v551 main_v558 (broadcastInDim S131072x1 ![0] bcast_S131072_S131072x1_0 : (⟨S131072, .i32⟩ : BufTy).Contents (Elt F) → (⟨S131072x1, .i32⟩ : BufTy).Contents (Elt F)),
    unary main_v556 main_v559 (broadcastInDim S131072x1 ![0] bcast_S131072_S131072x1_0 : (⟨S131072, .i32⟩ : BufTy).Contents (Elt F) → (⟨S131072x1, .i32⟩ : BufTy).Contents (Elt F)) ]

/-- Each line touches TensorCore references only. -/
theorem tap9p6_sub : (tap9p6 : List (HloOp τ sig (Elt F))).Forall fun op => op.bufs ⊆ tcRefs τ sig :=
  ⟨binary_bufs_sub .., ternary_bufs_sub .., unary_bufs_sub .., unary_bufs_sub .., unary_bufs_sub ..⟩

/-- No line allocates a buffer. -/
theorem tap9p6_fresh : (tap9p6 : List (HloOp τ sig (Elt F))).Forall fun op => op.fresh = ∅ := by
  simp only [List.Forall]; repeat' constructor

/-- The references the stretch writes: one per line, its result. -/
def tap9p6Res : List (Ref sig .tc) := [main_v555, main_v556, main_v557, main_v558, main_v559]

set_option maxHeartbeats 40000000 in
/-- Each line writes only its own result. -/
theorem tap9p6_writes : (tap9p6 : List (HloOp τ sig (Elt F))).Forall fun op => op.writes ⊆ ((tap9p6Res.map (Proc.devRef (τ := τ) .tc)).toFinset) := by
  simp only [tap9p6, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p6_keeps (W : Valuation τ sig (Elt F)) {b : Ref sig .tc} (hb : b ∉ tap9p6Res) :
    after tap9p6 W (Proc.devRef .tc b) = W (Proc.devRef .tc b) :=
  after_of_writes_sub tap9p6 W tap9p6_writes hb

set_option maxHeartbeats 40000000 in
/-- `main_v557` after the piece, from contents holding what it reads at stage values: its stage value. -/
theorem tap9p6_v557 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v546 : W (Proc.devRef .tc main_v546) = Read.val_main_v546 (F := F)) :
    after tap9p6 W (Proc.devRef .tc main_v557) = Read.val_main_v557 (F := F) := by
  ref_results
  rewrite [h_v546]
  rfl

set_option maxHeartbeats 40000000 in
/-- `main_v558` after the piece, from contents holding what it reads at stage values: its stage value. -/
theorem tap9p6_v558 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v551 : W (Proc.devRef .tc main_v551) = Read.val_main_v551 (F := F) x1) :
    after tap9p6 W (Proc.devRef .tc main_v558) = Read.val_main_v558 (F := F) x1 := by
  ref_results
  rewrite [h_v551]
  rfl

set_option maxHeartbeats 40000000 in
/-- `main_v559` after the piece, from contents holding what it reads at stage values: its stage value. -/
theorem tap9p6_v559 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v541 : W (Proc.devRef .tc main_v541) = Read.val_main_v541 (F := F) x1)
    (h_v553 : W (Proc.devRef .tc main_v553) = Read.val_main_v553 (F := F) x1)
    (h_v554 : W (Proc.devRef .tc main_v554) = Read.val_main_v554 (F := F)) :
    after tap9p6 W (Proc.devRef .tc main_v559) = Read.val_main_v559 (F := F) x1 := by
  ref_results
  rewrite [h_v541, h_v553, h_v554]
  rfl

set_option maxHeartbeats 40000000 in
/-- Lines 878 to 889 of @main, in order. -/
abbrev tap9p7 : List (HloOp τ sig (Elt F)) :=
  [ nary ![main_v557, main_v558, main_v559] main_v560 (fun u => concatenate S131072x3 1 [⟨S131072x1, u 0⟩, ⟨S131072x1, u 1⟩, ⟨S131072x1, u 2⟩] concatenates_S131072x1_S131072x1_S131072x1_S131072x3_d1),
    binary main_v47 main_v560 main_v561 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F)),
    nullary main_c_197 (constantI S_ 32 0#32),
    unary main_c_197 main_v562 (broadcastInDim S131072 ![] bcast_S_S131072 : (⟨S_, .i32⟩ : BufTy).Contents (Elt F) → (⟨S131072, .i32⟩ : BufTy).Contents (Elt F)),
    binary main_v561 main_v562 main_v563 (cmpi .sge : (⟨S131072, .i32⟩ : BufTy).Contents (Elt F) → (⟨S131072, .i32⟩ : BufTy).Contents (Elt F) → (⟨S131072, .i1⟩ : BufTy).Contents (Elt F)),
    binary main_v539 main_v563 main_v564 (andi : (⟨S131072, .i1⟩ : BufTy).Contents (Elt F) → (⟨S131072, .i1⟩ : BufTy).Contents (Elt F) → (⟨S131072, .i1⟩ : BufTy).Contents (Elt F)),
    unary main_v564 main_v565 (broadcastInDim S131072x1 ![0] bcast_S131072_S131072x1_0 : (⟨S131072, .i1⟩ : BufTy).Contents (Elt F) → (⟨S131072x1, .i1⟩ : BufTy).Contents (Elt F)),
    nullary main_c_198 (constantI S_ 32 0#32),
    unary main_c_198 main_v566 (broadcastInDim S131072 ![] bcast_S_S131072 : (⟨S_, .i32⟩ : BufTy).Contents (Elt F) → (⟨S131072, .i32⟩ : BufTy).Contents (Elt F)),
    binary main_v561 main_v566 main_v567 (maxsi : (⟨S131072, .i32⟩ : BufTy).Contents (Elt F) → (⟨S131072, .i32⟩ : BufTy).Contents (Elt F) → (⟨S131072, .i32⟩ : BufTy).Contents (Elt F)),
    nullary main_c_199 (constantI S_ 32 0#32),
    unary main_c_199 main_v568 (broadcastInDim S131072 ![] bcast_S_S131072 : (⟨S_, .i32⟩ : BufTy).Contents (Elt F) → (⟨S131072, .i32⟩ : BufTy).Contents (Elt F)) ]

/-- Each line touches TensorCore references only. -/
theorem tap9p7_sub : (tap9p7 : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩

/-- No line allocates a buffer. -/
theorem tap9p7_fresh : (tap9p7 : List (HloOp τ sig (Elt F))).Forall fun op => op.fresh = ∅ := by
  simp only [List.Forall]; repeat' constructor

/-- The references the stretch writes: one per line, its result. -/
def tap9p7Res : List (Ref sig .tc) := [main_v560, main_v561, main_c_197, main_v562, main_v563, main_v564, main_v565, main_c_198, main_v566, main_v567, main_c_199, main_v568]

set_option maxHeartbeats 40000000 in
/-- Each line writes only its own result. -/
theorem tap9p7_writes : (tap9p7 : List (HloOp τ sig (Elt F))).Forall fun op => op.writes ⊆ ((tap9p7Res.map (Proc.devRef (τ := τ) .tc)).toFinset) := by
  simp only [tap9p7, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p7_keeps (W : Valuation τ sig (Elt F)) {b : Ref sig .tc} (hb : b ∉ tap9p7Res) :
    after tap9p7 W (Proc.devRef .tc b) = W (Proc.devRef .tc b) :=
  after_of_writes_sub tap9p7 W tap9p7_writes hb

set_option maxHeartbeats 40000000 in
/-- `main_v565` after the piece, from contents holding what it reads at stage values: its stage value. -/
theorem tap9p7_v565 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v47 : W (Proc.devRef .tc main_v47) = Read.val_main_v47 (F := F) x1)
    (h_v539 : W (Proc.devRef .tc main_v539) = Read.val_main_v539 (F := F) x1)
    (h_v557 : W (Proc.devRef .tc main_v557) = Read.val_main_v557 (F := F))
    (h_v558 : W (Proc.devRef .tc main_v558) = Read.val_main_v558 (F := F) x1)
    (h_v559 : W (Proc.devRef .tc main_v559) = Read.val_main_v559 (F := F) x1) :
    after tap9p7 W (Proc.devRef .tc main_v565) = Read.val_main_v565 (F := F) x1 := by
  ref_results_v
  rewrite [h_v47, h_v539, h_v557, h_v558, h_v559]
  rfl

set_option maxHeartbeats 40000000 in
/-- `main_v567` after the piece, from contents holding what it reads at stage values: its stage value. -/
theorem tap9p7_v567 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v47 : W (Proc.devRef .tc main_v47) = Read.val_main_v47 (F := F) x1)
    (h_v557 : W (Proc.devRef .tc main_v557) = Read.val_main_v557 (F := F))
    (h_v558 : W (Proc.devRef .tc main_v558) = Read.val_main_v558 (F := F) x1)
    (h_v559 : W (Proc.devRef .tc main_v559) = Read.val_main_v559 (F := F) x1) :
    after tap9p7 W (Proc.devRef .tc main_v567) = Read.val_main_v567 (F := F) x1 := by
  ref_results_v
  rewrite [h_v47, h_v557, h_v558, h_v559]
  rfl

set_option maxHeartbeats 40000000 in
/-- `main_v568` after the piece, from contents holding what it reads at stage values: its stage value. -/
theorem tap9p7_v568 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
     :
    after tap9p7 W (Proc.devRef .tc main_v568) = Read.val_main_v568 (F := F) := by
  ref_results_v
  rfl

set_option maxHeartbeats 40000000 in
/-- Lines 890 to 901 of @main, in order. -/
abbrev tap9p8 : List (HloOp τ sig (Elt F)) :=
  [ binary main_v567 main_v568 main_v569 (cmpi .slt : (⟨S131072, .i32⟩ : BufTy).Contents (Elt F) → (⟨S131072, .i32⟩ : BufTy).Contents (Elt F) → (⟨S131072, .i1⟩ : BufTy).Contents (Elt F)),
    nullary main_c_200 (constantI S_ 32 131072#32),
    unary main_c_200 main_v570 (broadcastInDim S131072 ![] bcast_S_S131072 : (⟨S_, .i32⟩ : BufTy).Contents (Elt F) → (⟨S131072, .i32⟩ : BufTy).Contents (Elt F)),
    binary main_v567 main_v570 main_v571 (addi : (⟨S131072, .i32⟩ : BufTy).Contents (Elt F) → (⟨S131072, .i32⟩ : BufTy).Contents (Elt F) → (⟨S131072, .i32⟩ : BufTy).Contents (Elt F)),
    ternary main_v569 main_v571 main_v567 main_v572 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v572 main_v573 (broadcastInDim S131072x1 ![0] bcast_S131072_S131072x1_0 : (⟨S131072, .i32⟩ : BufTy).Contents (Elt F) → (⟨S131072x1, .i32⟩ : BufTy).Contents (Elt F)),
    binary main_v21 main_v573 main_v574 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F)),
    nullary main_cst_201 (constant S_ .f32 0x00000000#32),
    unary main_cst_201 main_call27_v0 (id : (⟨S_, .f32⟩ : BufTy).Contents (Elt F) → (⟨S_, .f32⟩ : BufTy).Contents (Elt F)),
    unary main_v565 main_call27_v1 ((broadcastInDim S131072x64 ![0, 1] bcast_S131072x1_S131072x64_0_1) : (⟨S131072x1, .i1⟩ : BufTy).Contents (Elt F) → (⟨S131072x64, .i1⟩ : BufTy).Contents (Elt F)),
    unary main_call27_v0 main_call27_v2 ((broadcastInDim S131072x64 ![] bcast_S_S131072x64) : (⟨S_, .f32⟩ : BufTy).Contents (Elt F) → (⟨S131072x64, .f32⟩ : BufTy).Contents (Elt F)),
    ternary main_call27_v1 main_v574 main_call27_v2 main_v575 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap9p8_sub : (tap9p8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub ..⟩

/-- No line allocates a buffer. -/
theorem tap9p8_fresh : (tap9p8 : List (HloOp τ sig (Elt F))).Forall fun op => op.fresh = ∅ := by
  simp only [List.Forall]; repeat' constructor

/-- The references the stretch writes: one per line, its result. -/
def tap9p8Res : List (Ref sig .tc) := [main_v569, main_c_200, main_v570, main_v571, main_v572, main_v573, main_v574, main_cst_201, main_call27_v0, main_call27_v1, main_call27_v2, main_v575]

set_option maxHeartbeats 40000000 in
/-- Each line writes only its own result. -/
theorem tap9p8_writes : (tap9p8 : List (HloOp τ sig (Elt F))).Forall fun op => op.writes ⊆ ((tap9p8Res.map (Proc.devRef (τ := τ) .tc)).toFinset) := by
  simp only [tap9p8, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p8_keeps (W : Valuation τ sig (Elt F)) {b : Ref sig .tc} (hb : b ∉ tap9p8Res) :
    after tap9p8 W (Proc.devRef .tc b) = W (Proc.devRef .tc b) :=
  after_of_writes_sub tap9p8 W tap9p8_writes hb

set_option maxHeartbeats 40000000 in
/-- `main_v575` after the piece, from contents holding what it reads at stage values: its stage value. -/
theorem tap9p8_v575 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_v21 : W (Proc.devRef .tc main_v21) = Read.val_main_v21 (F := F) x0)
    (h_v565 : W (Proc.devRef .tc main_v565) = Read.val_main_v565 (F := F) x1)
    (h_v567 : W (Proc.devRef .tc main_v567) = Read.val_main_v567 (F := F) x1)
    (h_v568 : W (Proc.devRef .tc main_v568) = Read.val_main_v568 (F := F)) :
    after tap9p8 W (Proc.devRef .tc main_v575) = Read.val_main_v575 (F := F) x0 x1 := by
  ref_results
  rewrite [h_v21, h_v565, h_v567, h_v568]
  rfl

set_option maxHeartbeats 40000000 in
/-- Lines 902 to 905 of @main, in order. -/
abbrev tap9p9 : List (HloOp τ sig (Elt F)) :=
  [ unary main_arg2 main_v576 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F)),
    reshape main_v576 main_v577 rfl shapeCasts_S1x1x64x64_S64x64,
    binary main_v575 main_v577 main_v578 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v520 main_v578 main_v579 (addf : (⟨S131072x64, .f32⟩ : BufTy).Contents (Elt F) → (⟨S131072x64, .f32⟩ : BufTy).Contents (Elt F) → (⟨S131072x64, .f32⟩ : BufTy).Contents (Elt F)) ]

/-- Each line touches TensorCore references only. -/
theorem tap9p9_sub : (tap9p9 : List (HloOp τ sig (Elt F))).Forall fun op => op.bufs ⊆ tcRefs τ sig :=
  ⟨unary_bufs_sub .., reshape_bufs_sub .., binary_bufs_sub .., binary_bufs_sub ..⟩

/-- No line allocates a buffer. -/
theorem tap9p9_fresh : (tap9p9 : List (HloOp τ sig (Elt F))).Forall fun op => op.fresh = ∅ := by
  simp only [List.Forall]; repeat' constructor

/-- The references the stretch writes: one per line, its result. -/
def tap9p9Res : List (Ref sig .tc) := [main_v576, main_v577, main_v578, main_v579]

set_option maxHeartbeats 40000000 in
/-- Each line writes only its own result. -/
theorem tap9p9_writes : (tap9p9 : List (HloOp τ sig (Elt F))).Forall fun op => op.writes ⊆ ((tap9p9Res.map (Proc.devRef (τ := τ) .tc)).toFinset) := by
  simp only [tap9p9, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem tap9p9_keeps (W : Valuation τ sig (Elt F)) {b : Ref sig .tc} (hb : b ∉ tap9p9Res) :
    after tap9p9 W (Proc.devRef .tc b) = W (Proc.devRef .tc b) :=
  after_of_writes_sub tap9p9 W tap9p9_writes hb

set_option maxHeartbeats 40000000 in
/-- `main_v579` after the piece, from contents holding what it reads at stage values: its stage value. -/
theorem tap9p9_v579 (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h_arg2 : W (Proc.devRef .tc main_arg2) = x2)
    (h_v520 : W (Proc.devRef .tc main_v520) = Read.val_main_v520 (F := F) x0 x1 x2)
    (h_v575 : W (Proc.devRef .tc main_v575) = Read.val_main_v575 (F := F) x0 x1) :
    after tap9p9 W (Proc.devRef .tc main_v579) = Read.val_main_v579 (F := F) x0 x1 x2 := by
  ref_results
  rewrite [h_arg2, h_v520, h_v575]
  rfl

/-- The whole tap: its pieces one after the other. -/
def tap9 : List (HloOp τ sig (Elt F)) := tap9p1 ++ tap9p2 ++ tap9p3 ++ tap9p4 ++ tap9p5 ++ tap9p6 ++ tap9p7 ++ tap9p8 ++ tap9p9

theorem tap9_sub : (tap9 : List (HloOp τ sig (Elt F))).Forall fun op => op.bufs ⊆ tcRefs τ sig :=
  forall_append (forall_append (forall_append (forall_append (forall_append (forall_append (forall_append (forall_append (tap9p1_sub) tap9p2_sub) tap9p3_sub) tap9p4_sub) tap9p5_sub) tap9p6_sub) tap9p7_sub) tap9p8_sub) tap9p9_sub
theorem tap9_fresh : (tap9 : List (HloOp τ sig (Elt F))).Forall fun op => op.fresh = ∅ :=
  forall_append (forall_append (forall_append (forall_append (forall_append (forall_append (forall_append (forall_append (tap9p1_fresh) tap9p2_fresh) tap9p3_fresh) tap9p4_fresh) tap9p5_fresh) tap9p6_fresh) tap9p7_fresh) tap9p8_fresh) tap9p9_fresh

/-- The references the whole tap writes. -/
def tap9Res : List (Ref sig .tc) := tap9p1Res ++ tap9p2Res ++ tap9p3Res ++ tap9p4Res ++ tap9p5Res ++ tap9p6Res ++ tap9p7Res ++ tap9p8Res ++ tap9p9Res

/-- A reference the tap does not write keeps its contents. -/
theorem tap9_keeps (W : Valuation τ sig (Elt F)) {b : Ref sig .tc} (hb : b ∉ tap9Res) :
    after tap9 W (Proc.devRef .tc b) = W (Proc.devRef .tc b) := by
  have hb' : b ∉ tap9p1Res ∧ b ∉ tap9p2Res ∧ b ∉ tap9p3Res ∧ b ∉ tap9p4Res ∧ b ∉ tap9p5Res ∧ b ∉ tap9p6Res ∧ b ∉ tap9p7Res ∧ b ∉ tap9p8Res ∧ b ∉ tap9p9Res := by
    simpa only [tap9Res, List.mem_append, not_or, and_assoc] using hb
  simp only [tap9, StableHlo.after_append]
  rw [tap9p9_keeps _ hb'.2.2.2.2.2.2.2.2, tap9p8_keeps _ hb'.2.2.2.2.2.2.2.1, tap9p7_keeps _ hb'.2.2.2.2.2.2.1, tap9p6_keeps _ hb'.2.2.2.2.2.1, tap9p5_keeps _ hb'.2.2.2.2.1, tap9p4_keeps _ hb'.2.2.2.1, tap9p3_keeps _ hb'.2.2.1, tap9p2_keeps _ hb'.2.1, tap9p1_keeps _ hb'.1]

/-- The accumulator after the whole tap, from contents holding the index arrays, the rulebook grid, the features, the
    weights and the previous accumulator at their stage values: its stage value. -/
theorem tap9_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (h17 : W (Proc.devRef .tc main_v17) = Read.val_main_v17 (F := F) x1) (h20 : W (Proc.devRef .tc main_v20) = Read.val_main_v20 (F := F))
    (h21 : W (Proc.devRef .tc main_v21) = Read.val_main_v21 (F := F) x0) (h47 : W (Proc.devRef .tc main_v47) = Read.val_main_v47 (F := F) x1)
    (h2 : W (Proc.devRef .tc main_arg2) = x2) (hacc : W (Proc.devRef .tc main_v520) = Read.val_main_v520 (F := F) x0 x1 x2) :
    after tap9 W (Proc.devRef .tc main_v579) = Read.val_main_v579 (F := F) x0 x1 x2 := by
  simp only [tap9, StableHlo.after_append]
  have f1_v524 := tap9p1_v524 (W) x0 x1 x2 h17
  have f1_v529 := tap9p1_v529 (W) x0 x1 x2
  have f1_v528 := tap9p1_v528 (W) x0 x1 x2 h17
  have f1_v20 := (tap9p1_keeps (W) (b := main_v20) (by decide)).trans h20
  have f1_v47 := (tap9p1_keeps (W) (b := main_v47) (by decide)).trans h47
  have f1_v21 := (tap9p1_keeps (W) (b := main_v21) (by decide)).trans h21
  have f1_arg2 := (tap9p1_keeps (W) (b := main_arg2) (by decide)).trans h2
  have f1_v520 := (tap9p1_keeps (W) (b := main_v520) (by decide)).trans hacc
  have f2_v536 := tap9p2_v536 (after tap9p1 (W)) x0 x1 x2 f1_v524 f1_v528 f1_v529
  have f2_v538 := tap9p2_v538 (after tap9p1 (W)) x0 x1 x2 f1_v528
  have f2_v524 := (tap9p2_keeps (after tap9p1 (W)) (b := main_v524) (by decide)).trans f1_v524
  have f2_v528 := (tap9p2_keeps (after tap9p1 (W)) (b := main_v528) (by decide)).trans f1_v528
  have f2_v20 := (tap9p2_keeps (after tap9p1 (W)) (b := main_v20) (by decide)).trans f1_v20
  have f2_v47 := (tap9p2_keeps (after tap9p1 (W)) (b := main_v47) (by decide)).trans f1_v47
  have f2_v21 := (tap9p2_keeps (after tap9p1 (W)) (b := main_v21) (by decide)).trans f1_v21
  have f2_arg2 := (tap9p2_keeps (after tap9p1 (W)) (b := main_arg2) (by decide)).trans f1_arg2
  have f2_v520 := (tap9p2_keeps (after tap9p1 (W)) (b := main_v520) (by decide)).trans f1_v520
  have f3_call26_v0 := tap9p3_call26_v0 (after tap9p2 (after tap9p1 (W))) x0 x1 x2
  have f3_v528 := (tap9p3_keeps (after tap9p2 (after tap9p1 (W))) (b := main_v528) (by decide)).trans f2_v528
  have f3_c_190 := tap9p3_c_190 (after tap9p2 (after tap9p1 (W))) x0 x1 x2
  have f3_v20 := (tap9p3_keeps (after tap9p2 (after tap9p1 (W))) (b := main_v20) (by decide)).trans f2_v20
  have f3_v540 := tap9p3_v540 (after tap9p2 (after tap9p1 (W))) x0 x1 x2 f2_v524
  have f3_v47 := (tap9p3_keeps (after tap9p2 (after tap9p1 (W))) (b := main_v47) (by decide)).trans f2_v47
  have f3_v539 := tap9p3_v539 (after tap9p2 (after tap9p1 (W))) x0 x1 x2 f2_v536 f2_v538
  have f3_v21 := (tap9p3_keeps (after tap9p2 (after tap9p1 (W))) (b := main_v21) (by decide)).trans f2_v21
  have f3_arg2 := (tap9p3_keeps (after tap9p2 (after tap9p1 (W))) (b := main_arg2) (by decide)).trans f2_arg2
  have f3_v520 := (tap9p3_keeps (after tap9p2 (after tap9p1 (W))) (b := main_v520) (by decide)).trans f2_v520
  have f4_v540 := (tap9p4_keeps (after tap9p3 (after tap9p2 (after tap9p1 (W)))) (b := main_v540) (by decide)).trans f3_v540
  have f4_v541 := tap9p4_v541 (after tap9p3 (after tap9p2 (after tap9p1 (W)))) x0 x1 x2 f3_c_190 f3_call26_v0 f3_v528
  have f4_v546 := tap9p4_v546 (after tap9p3 (after tap9p2 (after tap9p1 (W)))) x0 x1 x2 f3_v20
  have f4_v47 := (tap9p4_keeps (after tap9p3 (after tap9p2 (after tap9p1 (W)))) (b := main_v47) (by decide)).trans f3_v47
  have f4_v539 := (tap9p4_keeps (after tap9p3 (after tap9p2 (after tap9p1 (W)))) (b := main_v539) (by decide)).trans f3_v539
  have f4_v21 := (tap9p4_keeps (after tap9p3 (after tap9p2 (after tap9p1 (W)))) (b := main_v21) (by decide)).trans f3_v21
  have f4_arg2 := (tap9p4_keeps (after tap9p3 (after tap9p2 (after tap9p1 (W)))) (b := main_arg2) (by decide)).trans f3_arg2
  have f4_v520 := (tap9p4_keeps (after tap9p3 (after tap9p2 (after tap9p1 (W)))) (b := main_v520) (by decide)).trans f3_v520
  have f5_v541 := (tap9p5_keeps (after tap9p4 (after tap9p3 (after tap9p2 (after tap9p1 (W))))) (b := main_v541) (by decide)).trans f4_v541
  have f5_v554 := tap9p5_v554 (after tap9p4 (after tap9p3 (after tap9p2 (after tap9p1 (W))))) x0 x1 x2
  have f5_v553 := tap9p5_v553 (after tap9p4 (after tap9p3 (after tap9p2 (after tap9p1 (W))))) x0 x1 x2 f4_v541
  have f5_v546 := (tap9p5_keeps (after tap9p4 (after tap9p3 (after tap9p2 (after tap9p1 (W))))) (b := main_v546) (by decide)).trans f4_v546
  have f5_v551 := tap9p5_v551 (after tap9p4 (after tap9p3 (after tap9p2 (after tap9p1 (W))))) x0 x1 x2 f4_v540
  have f5_v47 := (tap9p5_keeps (after tap9p4 (after tap9p3 (after tap9p2 (after tap9p1 (W))))) (b := main_v47) (by decide)).trans f4_v47
  have f5_v539 := (tap9p5_keeps (after tap9p4 (after tap9p3 (after tap9p2 (after tap9p1 (W))))) (b := main_v539) (by decide)).trans f4_v539
  have f5_v21 := (tap9p5_keeps (after tap9p4 (after tap9p3 (after tap9p2 (after tap9p1 (W))))) (b := main_v21) (by decide)).trans f4_v21
  have f5_arg2 := (tap9p5_keeps (after tap9p4 (after tap9p3 (after tap9p2 (after tap9p1 (W))))) (b := main_arg2) (by decide)).trans f4_arg2
  have f5_v520 := (tap9p5_keeps (after tap9p4 (after tap9p3 (after tap9p2 (after tap9p1 (W))))) (b := main_v520) (by decide)).trans f4_v520
  have f6_v557 := tap9p6_v557 (after tap9p5 (after tap9p4 (after tap9p3 (after tap9p2 (after tap9p1 (W)))))) x0 x1 x2 f5_v546
  have f6_v558 := tap9p6_v558 (after tap9p5 (after tap9p4 (after tap9p3 (after tap9p2 (after tap9p1 (W)))))) x0 x1 x2 f5_v551
  have f6_v559 := tap9p6_v559 (after tap9p5 (after tap9p4 (after tap9p3 (after tap9p2 (after tap9p1 (W)))))) x0 x1 x2 f5_v541 f5_v553 f5_v554
  have f6_v47 := (tap9p6_keeps (after tap9p5 (after tap9p4 (after tap9p3 (after tap9p2 (after tap9p1 (W)))))) (b := main_v47) (by decide)).trans f5_v47
  have f6_v539 := (tap9p6_keeps (after tap9p5 (after tap9p4 (after tap9p3 (after tap9p2 (after tap9p1 (W)))))) (b := main_v539) (by decide)).trans f5_v539
  have f6_v21 := (tap9p6_keeps (after tap9p5 (after tap9p4 (after tap9p3 (after tap9p2 (after tap9p1 (W)))))) (b := main_v21) (by decide)).trans f5_v21
  have f6_arg2 := (tap9p6_keeps (after tap9p5 (after tap9p4 (after tap9p3 (after tap9p2 (after tap9p1 (W)))))) (b := main_arg2) (by decide)).trans f5_arg2
  have f6_v520 := (tap9p6_keeps (after tap9p5 (after tap9p4 (after tap9p3 (after tap9p2 (after tap9p1 (W)))))) (b := main_v520) (by decide)).trans f5_v520
  have f7_v567 := tap9p7_v567 (after tap9p6 (after tap9p5 (after tap9p4 (after tap9p3 (after tap9p2 (after tap9p1 (W))))))) x0 x1 x2 f6_v47 f6_v557 f6_v558 f6_v559
  have f7_v568 := tap9p7_v568 (after tap9p6 (after tap9p5 (after tap9p4 (after tap9p3 (after tap9p2 (after tap9p1 (W))))))) x0 x1 x2
  have f7_v21 := (tap9p7_keeps (after tap9p6 (after tap9p5 (after tap9p4 (after tap9p3 (after tap9p2 (after tap9p1 (W))))))) (b := main_v21) (by decide)).trans f6_v21
  have f7_v565 := tap9p7_v565 (after tap9p6 (after tap9p5 (after tap9p4 (after tap9p3 (after tap9p2 (after tap9p1 (W))))))) x0 x1 x2 f6_v47 f6_v539 f6_v557 f6_v558 f6_v559
  have f7_arg2 := (tap9p7_keeps (after tap9p6 (after tap9p5 (after tap9p4 (after tap9p3 (after tap9p2 (after tap9p1 (W))))))) (b := main_arg2) (by decide)).trans f6_arg2
  have f7_v520 := (tap9p7_keeps (after tap9p6 (after tap9p5 (after tap9p4 (after tap9p3 (after tap9p2 (after tap9p1 (W))))))) (b := main_v520) (by decide)).trans f6_v520
  have f8_arg2 := (tap9p8_keeps (after tap9p7 (after tap9p6 (after tap9p5 (after tap9p4 (after tap9p3 (after tap9p2 (after tap9p1 (W)))))))) (b := main_arg2) (by decide)).trans f7_arg2
  have f8_v575 := tap9p8_v575 (after tap9p7 (after tap9p6 (after tap9p5 (after tap9p4 (after tap9p3 (after tap9p2 (after tap9p1 (W)))))))) x0 x1 x2 f7_v21 f7_v565 f7_v567 f7_v568
  have f8_v520 := (tap9p8_keeps (after tap9p7 (after tap9p6 (after tap9p5 (after tap9p4 (after tap9p3 (after tap9p2 (after tap9p1 (W)))))))) (b := main_v520) (by decide)).trans f7_v520
  have f9_v579 := tap9p9_v579 (after tap9p8 (after tap9p7 (after tap9p6 (after tap9p5 (after tap9p4 (after tap9p3 (after tap9p2 (after tap9p1 (W))))))))) x0 x1 x2 f8_arg2 f8_v520 f8_v575
  exact f9_v579

end Cert.ReferenceIdeal.RefRun

end
-- ==== Proof.RefSegLast.lean ====
/- One stretch of the reference program's host lines, in program order: the stretch as lists of lines, what it leaves
   unwritten, and the buffers it computes as the stage-by-stage values of the arguments. -/
import proofs.«119561_j24610162606296_2_alg».proof.Proof.ReadP
import proofs.«119561_j24610162606296_2_alg».proof.Proof.RefLib

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Line 906 of @main, the last. -/
abbrev segLast : List (HloOp τ sig (Elt F)) :=
  [ reshape main_v579 main_v580 rfl shapeCasts_S131072x64_S4x32768x64 ]

/-- Each line touches TensorCore references only. -/
theorem segLast_sub : (segLast : List (HloOp τ sig (Elt F))).Forall fun op => op.bufs ⊆ tcRefs τ sig :=
  reshape_bufs_sub ..

/-- No line allocates a buffer. -/
theorem segLast_fresh : (segLast : List (HloOp τ sig (Elt F))).Forall fun op => op.fresh = ∅ := by
  simp only [List.Forall]; repeat' constructor

/-- The references the stretch writes: one per line, its result. -/
def segLastRes : List (Ref sig .tc) := [main_v580]

set_option maxHeartbeats 40000000 in
/-- Each line writes only its own result. -/
theorem segLast_writes : (segLast : List (HloOp τ sig (Elt F))).Forall fun op => op.writes ⊆ ((segLastRes.map (Proc.devRef (τ := τ) .tc)).toFinset) := by
  simp only [segLast, List.Forall, nullary_writes, unary_writes, binary_writes, ternary_writes, quaternary_writes, reshape_writes, nary_writes]
  repeat' apply And.intro
  all_goals exact Finset.singleton_subset_iff.mpr (List.mem_toFinset.mpr (List.mem_map_of_mem (by decide)))

/-- A reference the stretch does not write keeps its contents. -/
theorem segLast_keeps (W : Valuation τ sig (Elt F)) {b : Ref sig .tc} (hb : b ∉ segLastRes) :
    after segLast W (Proc.devRef .tc b) = W (Proc.devRef .tc b) :=
  after_of_writes_sub segLast W segLast_writes hb

/-- The result after the last line, from contents holding the last accumulator at its stage value. -/
theorem segLast_val (W : Valuation τ sig (Elt F)) (x0 : (⟨S4x32768x64, .f32⟩ : BufTy).Contents (Elt F)) (x1 : (⟨S4x32768x2, .f32⟩ : BufTy).Contents (Elt F)) (x2 : (⟨S3x3x64x64, .f32⟩ : BufTy).Contents (Elt F))
    (hacc : W (Proc.devRef .tc main_v579) = Read.val_main_v579 (F := F) x0 x1 x2) :
    after segLast W (Proc.devRef .tc main_v580) = Read.val_main_v580 (F := F) x0 x1 x2 := by
  ref_results
  rw [hacc]
  rfl

end Cert.ReferenceIdeal.RefRun

end
-- ==== Proof.RefRun.lean ====
/- The reference program's run: @main is its 907 host lines in eleven stretches; from any launch contents each stretch
   leaves the buffers the later ones read at their stage-by-stage values of the arguments, so the result buffer ends at the last
   stage's value and the three argument arrays, which no line writes, end as launched. -/
import proofs.«119561_j24610162606296_2_alg».proof.Proof.ReadP
import proofs.«119561_j24610162606296_2_alg».proof.Proof.RefLib
import proofs.«119561_j24610162606296_2_alg».proof.Proof.RefSeg0
import proofs.«119561_j24610162606296_2_alg».proof.Proof.RefTap1
import proofs.«119561_j24610162606296_2_alg».proof.Proof.RefTap2
import proofs.«119561_j24610162606296_2_alg».proof.Proof.RefTap3
import proofs.«119561_j24610162606296_2_alg».proof.Proof.RefTap4
import proofs.«119561_j24610162606296_2_alg».proof.Proof.RefTap5
import proofs.«119561_j24610162606296_2_alg».proof.Proof.RefTap6
import proofs.«119561_j24610162606296_2_alg».proof.Proof.RefTap7
import proofs.«119561_j24610162606296_2_alg».proof.Proof.RefTap8
import proofs.«119561_j24610162606296_2_alg».proof.Proof.RefTap9
import proofs.«119561_j24610162606296_2_alg».proof.Proof.RefSegLast

set_option maxRecDepth 16384
open Cert.RefLib
noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 907 host lines, in order: the eleven stretches one after the other. -/
abbrev ops : List (HloOp τ sig (Elt F)) := seg0 ++ tap1 ++ tap2 ++ tap3 ++ tap4 ++ tap5 ++ tap6 ++ tap7 ++ tap8 ++ tap9 ++ segLast

set_option maxRecDepth 200000 in
set_option maxHeartbeats 40000000 in
/-- @main is those lines run in order. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every line touches TensorCore references only, -/
theorem ops_sub : (ops : List (HloOp τ sig (Elt F))).Forall fun op => op.bufs ⊆ tcRefs τ sig :=
  forall_append (forall_append (forall_append (forall_append (forall_append (forall_append (forall_append (forall_append (forall_append (forall_append (seg0_sub) tap1_sub) tap2_sub) tap3_sub) tap4_sub) tap5_sub) tap6_sub) tap7_sub) tap8_sub) tap9_sub) segLast_sub

/-- and none allocates a buffer. -/
theorem ops_fresh : ∀ op ∈ (ops : List (HloOp τ sig (Elt F))), op.fresh = ∅ :=
  List.forall_iff_forall_mem.mp (forall_append (forall_append (forall_append (forall_append (forall_append (forall_append (forall_append (forall_append (forall_append (forall_append (seg0_fresh) tap1_fresh) tap2_fresh) tap3_fresh) tap4_fresh) tap5_fresh) tap6_fresh) tap7_fresh) tap8_fresh) tap9_fresh) segLast_fresh)

/-! ## What the taps read -/

/-- Contents `W` hold the arrays every tap reads at their stage values of the arguments: the points' cell indices, their
    batch indices, the flattened features, the rulebook grid, and the weights. -/
abbrev Holds (x0 : (⟨S4x32768x64, .f32⟩ : BufTy).Contents (Elt F)) (x1 : (⟨S4x32768x2, .f32⟩ : BufTy).Contents (Elt F)) (x2 : (⟨S3x3x64x64, .f32⟩ : BufTy).Contents (Elt F)) (W : Valuation τ sig (Elt F)) : Prop :=
  W (Proc.devRef .tc main_v17) = Read.val_main_v17 (F := F) x1 ∧ W (Proc.devRef .tc main_v20) = Read.val_main_v20 (F := F)
    ∧ W (Proc.devRef .tc main_v21) = Read.val_main_v21 (F := F) x0 ∧ W (Proc.devRef .tc main_v47) = Read.val_main_v47 (F := F) x1
    ∧ W (Proc.devRef .tc main_arg2) = x2

/-- `tap1` writes none of them. -/
theorem tap1_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap1 W) :=
  ⟨(tap1_keeps W (by decide)).trans h.1, (tap1_keeps W (by decide)).trans h.2.1, (tap1_keeps W (by decide)).trans h.2.2.1,
    (tap1_keeps W (by decide)).trans h.2.2.2.1, (tap1_keeps W (by decide)).trans h.2.2.2.2⟩
/-- `tap2` writes none of them. -/
theorem tap2_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap2 W) :=
  ⟨(tap2_keeps W (by decide)).trans h.1, (tap2_keeps W (by decide)).trans h.2.1, (tap2_keeps W (by decide)).trans h.2.2.1,
    (tap2_keeps W (by decide)).trans h.2.2.2.1, (tap2_keeps W (by decide)).trans h.2.2.2.2⟩
/-- `tap3` writes none of them. -/
theorem tap3_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap3 W) :=
  ⟨(tap3_keeps W (by decide)).trans h.1, (tap3_keeps W (by decide)).trans h.2.1, (tap3_keeps W (by decide)).trans h.2.2.1,
    (tap3_keeps W (by decide)).trans h.2.2.2.1, (tap3_keeps W (by decide)).trans h.2.2.2.2⟩
/-- `tap4` writes none of them. -/
theorem tap4_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap4 W) :=
  ⟨(tap4_keeps W (by decide)).trans h.1, (tap4_keeps W (by decide)).trans h.2.1, (tap4_keeps W (by decide)).trans h.2.2.1,
    (tap4_keeps W (by decide)).trans h.2.2.2.1, (tap4_keeps W (by decide)).trans h.2.2.2.2⟩
/-- `tap5` writes none of them. -/
theorem tap5_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap5 W) :=
  ⟨(tap5_keeps W (by decide)).trans h.1, (tap5_keeps W (by decide)).trans h.2.1, (tap5_keeps W (by decide)).trans h.2.2.1,
    (tap5_keeps W (by decide)).trans h.2.2.2.1, (tap5_keeps W (by decide)).trans h.2.2.2.2⟩
/-- `tap6` writes none of them. -/
theorem tap6_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap6 W) :=
  ⟨(tap6_keeps W (by decide)).trans h.1, (tap6_keeps W (by decide)).trans h.2.1, (tap6_keeps W (by decide)).trans h.2.2.1,
    (tap6_keeps W (by decide)).trans h.2.2.2.1, (tap6_keeps W (by decide)).trans h.2.2.2.2⟩
/-- `tap7` writes none of them. -/
theorem tap7_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap7 W) :=
  ⟨(tap7_keeps W (by decide)).trans h.1, (tap7_keeps W (by decide)).trans h.2.1, (tap7_keeps W (by decide)).trans h.2.2.1,
    (tap7_keeps W (by decide)).trans h.2.2.2.1, (tap7_keeps W (by decide)).trans h.2.2.2.2⟩
/-- `tap8` writes none of them. -/
theorem tap8_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap8 W) :=
  ⟨(tap8_keeps W (by decide)).trans h.1, (tap8_keeps W (by decide)).trans h.2.1, (tap8_keeps W (by decide)).trans h.2.2.1,
    (tap8_keeps W (by decide)).trans h.2.2.2.1, (tap8_keeps W (by decide)).trans h.2.2.2.2⟩
/-- `tap9` writes none of them. -/
theorem tap9_holds {x0 : (⟨S4x32768x64, .f32⟩ : BufTy).Contents (Elt F)} {x1 : (⟨S4x32768x2, .f32⟩ : BufTy).Contents (Elt F)} {x2 : (⟨S3x3x64x64, .f32⟩ : BufTy).Contents (Elt F)} {W : Valuation τ sig (Elt F)}
    (h : Holds x0 x1 x2 W) : Holds x0 x1 x2 (after tap9 W) :=
  ⟨(tap9_keeps W (by decide)).trans h.1, (tap9_keeps W (by decide)).trans h.2.1, (tap9_keeps W (by decide)).trans h.2.2.1,
    (tap9_keeps W (by decide)).trans h.2.2.2.1, (tap9_keeps W (by decide)).trans h.2.2.2.2⟩

/-! ## The result and the arguments after the whole program -/

/-- The result buffer after all the lines, from any contents `V`: the last stage's value of `V` at the arguments. -/
theorem run_val (V : Valuation τ sig (Elt F)) :
    after ops V (Proc.devRef .tc main_v580)
      = Read.val_main_v580 (F := F) (V (Proc.devRef .tc main_arg0)) (V (Proc.devRef .tc main_arg1)) (V (Proc.devRef .tc main_arg2)) := by
  simp only [ops, StableHlo.after_append]
  have H0 : Holds (V (Proc.devRef .tc main_arg0)) (V (Proc.devRef .tc main_arg1)) (V (Proc.devRef .tc main_arg2)) (after seg0 V) :=
    ⟨seg0_v17 V, seg0_v20 V, seg0_v21 V, seg0_v47 V, seg0_keeps V (by decide)⟩
  have A0 := seg0_v48 V
  have A1 := tap1_val _ _ _ _ H0.1 H0.2.1 H0.2.2.1 H0.2.2.2.1 H0.2.2.2.2 A0
  have H1 := tap1_holds H0
  have A2 := tap2_val _ _ _ _ H1.1 H1.2.1 H1.2.2.1 H1.2.2.2.1 H1.2.2.2.2 A1
  have H2 := tap2_holds H1
  have A3 := tap3_val _ _ _ _ H2.1 H2.2.1 H2.2.2.1 H2.2.2.2.1 H2.2.2.2.2 A2
  have H3 := tap3_holds H2
  have A4 := tap4_val _ _ _ _ H3.1 H3.2.1 H3.2.2.1 H3.2.2.2.1 H3.2.2.2.2 A3
  have H4 := tap4_holds H3
  have A5 := tap5_val _ _ _ _ H4.1 H4.2.1 H4.2.2.1 H4.2.2.2.1 H4.2.2.2.2 A4
  have H5 := tap5_holds H4
  have A6 := tap6_val _ _ _ _ H5.1 H5.2.1 H5.2.2.1 H5.2.2.2.1 H5.2.2.2.2 A5
  have H6 := tap6_holds H5
  have A7 := tap7_val _ _ _ _ H6.1 H6.2.1 H6.2.2.1 H6.2.2.2.1 H6.2.2.2.2 A6
  have H7 := tap7_holds H6
  have A8 := tap8_val _ _ _ _ H7.1 H7.2.1 H7.2.2.1 H7.2.2.2.1 H7.2.2.2.2 A7
  have H8 := tap8_holds H7
  have A9 := tap9_val _ _ _ _ H8.1 H8.2.1 H8.2.2.1 H8.2.2.2.1 H8.2.2.2.2 A8
  have H9 := tap9_holds H8
  exact segLast_val _ _ _ _ A9

/-- A reference no stretch writes ends as it started. -/
theorem ops_keeps (V : Valuation τ sig (Elt F)) {b : Ref sig .tc} (h0 : b ∉ seg0Res) (h1 : b ∉ tap1Res) (h2 : b ∉ tap2Res) (h3 : b ∉ tap3Res) (h4 : b ∉ tap4Res) (h5 : b ∉ tap5Res) (h6 : b ∉ tap6Res) (h7 : b ∉ tap7Res) (h8 : b ∉ tap8Res) (h9 : b ∉ tap9Res) (h10 : b ∉ segLastRes) :
    after ops V (Proc.devRef .tc b) = V (Proc.devRef .tc b) := by
  simp only [ops, StableHlo.after_append]
  rw [segLast_keeps _ h10, tap9_keeps _ h9, tap8_keeps _ h8, tap7_keeps _ h7, tap6_keeps _ h6, tap5_keeps _ h5, tap4_keeps _ h4, tap3_keeps _ h3, tap2_keeps _ h2, tap1_keeps _ h1, seg0_keeps _ h0]

/-! ## The run -/

/-- On every device, for any float values, from any memory with zero counters: every weakly fair execution of @main
    terminates with the result at the last stage's value of the three argument arrays, and those arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v580) = Cert.ReferenceIdeal.Read.val_main_v580 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v580).trans (run_val _),
      (h c main_arg0).trans (ops_keeps _ (by decide) (by decide) (by decide) (by decide) (by decide) (by decide) (by decide) (by decide) (by decide) (by decide) (by decide)),
      (h c main_arg1).trans (ops_keeps _ (by decide) (by decide) (by decide) (by decide) (by decide) (by decide) (by decide) (by decide) (by decide) (by decide) (by decide)),
      (h c main_arg2).trans (ops_keeps _ (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

/-- info: 'Cert.ReferenceIdeal.RefRun.run' depends on axioms: [propext, Classical.choice, Quot.sound] -/
#guard_msgs in #print axioms run

end Cert.ReferenceIdeal.RefRun

end
-- ==== Proof.Final.lean ====
/-
  The value claim.  At the ideal instance the kernel leaves in its result buffer the dense 3 × 3
  window sum of the bordered represented features, read at each point's cell; the reference leaves
  there the nine looked-up neighbour sums.  The host operations computing the cell coordinates, the
  batch ids, the reshaped features and the rulebook are the same in both programs, every coordinate
  is a word below 256 and the batch id of point i is i / 32768, so the two arrays are equal
  (`SubmConv.results_agree`).
-/
import proofs.«119561_j24610162606296_2_alg».proof.Defs
import proofs.«119561_j24610162606296_2_alg».proof.Proof.FrameBits
import proofs.«119561_j24610162606296_2_alg».proof.Proof.KernelTail
import proofs.«119561_j24610162606296_2_alg».proof.Proof.ConvBlocks
import proofs.«119561_j24610162606296_2_alg».proof.Proof.HostSide1
import proofs.«119561_j24610162606296_2_alg».proof.Proof.HostSide2
import proofs.«119561_j24610162606296_2_alg».proof.Proof.TailAt
import proofs.«119561_j24610162606296_2_alg».proof.Proof.IndexRange
import proofs.«119561_j24610162606296_2_alg».proof.Proof.RefTaps
import proofs.«119561_j24610162606296_2_alg».proof.Proof.Bridge
import proofs.«119561_j24610162606296_2_alg».proof.Proof.RefRun
import proofs.«119561_j24610162606296_2_alg».proof.Proof.Gen.Kernel
import proofs.«119561_j24610162606296_2_alg».proof.Proof.Gen.KernelIdeal
import proofs.«119561_j24610162606296_2_alg».proof.Proof.Gen.ReferenceIdeal
import proofs.«119561_j24610162606296_2_alg».proof.Proof.Gen.Pre_finite_inputs

set_option maxRecDepth 16384

noncomputable section

namespace Cert.Proof.Final

open Idealize.ShloMosaic Idealize.ShloMosaic.TcCoe Idealize.SL.Sem Idealize.ShloMosaic.ValueIdx

section Kernel

open Cert.KernelIdeal Cert.KernelIdeal.Gen

variable (m : (ℓ : Loc nD τ sig) → Buf (Elt Ideal) ℓ)

/-- The kernel's result array is the reference's function of the kernel's argument arrays. -/
theorem kernel_result_eq (c : Dev nD) :
    Hand.tailOps ((Hand.dats m 0 c).arrAt 2 cfg0.N) (Hand.V m c main_v17) (Hand.V m c main_v20)
      = Cert.ReferenceIdeal.Read.val_main_v580 (F := Ideal) (m (c, Proc.devRef .tc main_arg0)) (m (c, Proc.devRef .tc main_arg1))
          (m (c, Proc.devRef .tc main_arg2)) := by
  have h17 : Hand.V m c main_v17 = Cert.ReferenceIdeal.Read.val_main_v17 (F := Ideal) (m (c, Proc.devRef .tc main_arg1)) :=
    HostSide.V_main_v17 m c
  have h20 : Hand.V m c main_v20 = Cert.ReferenceIdeal.Read.val_main_v20 (F := Ideal) := HostSide.V_main_v20 m c
  have h21 : Hand.V m c main_v21 = Cert.ReferenceIdeal.Read.val_main_v21 (F := Ideal) (m (c, Proc.devRef .tc main_arg0)) :=
    HostSide.V_main_v21 m c
  have h47 : Hand.V m c main_v47 = Cert.ReferenceIdeal.Read.val_main_v47 (F := Ideal) (m (c, Proc.devRef .tc main_arg1)) :=
    HostSide.V_main_v47 m c
  refine SubmConv.results_agree (Cert.ReferenceIdeal.Read.val_main_v47 (F := Ideal) (m (c, Proc.devRef .tc main_arg1)))
    (Cert.ReferenceIdeal.Read.val_main_v21 (F := Ideal) (m (c, Proc.devRef .tc main_arg0))) (m (c, Proc.devRef .tc main_arg2))
    (Cert.ReferenceIdeal.Read.val_main_v17 (F := Ideal) (m (c, Proc.devRef .tc main_arg1))) (Cert.ReferenceIdeal.Read.val_main_v20 (F := Ideal))
    (Cert.ReferenceIdeal.IndexRange.idx_range _) (fun i => Cert.ReferenceIdeal.IndexRange.bid_eq i) _ _ ?_ ?_
  · intro i o
    rw [Tail.tailOps_at, Conv.dense_final m c, h17, h20]
    have hP : (Hand.V m c main_v64 : (⟨4, ![4, 258, 258, 64]⟩ : Shape).Idx → EReal)
        = SubmConv.paddedArr (Cert.ReferenceIdeal.Read.val_main_v47 (F := Ideal) (m (c, Proc.devRef .tc main_arg1)))
            (Cert.ReferenceIdeal.Read.val_main_v21 (F := Ideal) (m (c, Proc.devRef .tc main_arg0))) := by
      funext j
      rw [eq_ix4 j, ← h47, ← h21]
      exact HostSide.V_main_v64_apply m c (j 0) (j 1) (j 2) (j 3)
    have hW : (Hand.V m c main_v65 : (⟨4, ![3, 3, 64, 64]⟩ : Shape).Idx → EReal) = m (c, Proc.devRef .tc main_arg2) := by
      funext j
      rw [eq_ix4 j]
      exact HostSide.V_main_v65_apply m c (j 0) (j 1) (j 2) (j 3)
    rw [hP, hW]
  · intro i o
    rw [Cert.ReferenceIdeal.RefValue.ref_at]
    rfl

end Kernel

/-- At the ideal instance, from memories agreeing on the three argument arrays, both programs run to the end and
    leave the same result array: the reference's function of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v580 (F := Ideal) (m (c, Proc.devRef .tc Cert.KernelIdeal.main_arg0))
      (m (c, Proc.devRef .tc Cert.KernelIdeal.main_arg1)) (m (c, Proc.devRef .tc Cert.KernelIdeal.main_arg2)), ?_, ?_⟩
  · exact (θ_run Cert.KernelIdeal.defs _ _).mono (fun r h c => ⟨(h c).1.trans (kernel_result_eq m c), (h c).2⟩)
      (Cert.KernelIdeal.Hand.result_mem (F := Ideal) m ρ)
  · refine (θ_run Cert.ReferenceIdeal.defs _ _).mono (fun r h c => ⟨?_, (h c).2⟩) (Cert.ReferenceIdeal.RefRun.run (F := Ideal) m' ρ')
    rw [(h c).1, (hagree c).1, (hagree c).2.1, (hagree c).2.2]

theorem frame_kernel : @Cert.frame_Kernel Cert.Kernel.Gen.facts Cert.Pre_finite_inputs.Gen.facts :=
  fun m ρ _ => Cert.Kernel.Hand.frame m ρ
theorem frame_kernelIdeal : @Cert.frame_KernelIdeal Cert.KernelIdeal.Gen.facts Cert.Pre_finite_inputs.Gen.facts :=
  fun m ρ _ => Cert.KernelIdeal.Hand.frame m ρ
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

end Cert.Proof.Final

end
-- ==== Proof.lean ====
/-
  The certificate of the 3 × 3 window sum over represented point features (a submanifold convolution):
  the three frames, the (empty) idealization ledger, and the equality of the idealized kernel's and the
  idealized reference's results.

  The kernel's frame is proved for both instances by running its body at a generic grid point — one
  slab load, nine weight loads, one whole-block store — between the host operations before and after
  its one region (FrameBits, FrameIdeal).  The reference's frame is its run with the result dropped
  (RunP).  The value claim (Final) joins the kernel's dense window sum, read at each point's cell, to
  the reference's nine looked-up neighbour sums; Spec states the common mathematics, TapArith and
  Bridge the word arithmetic that joins the two, and the remaining modules read each program's
  operations at an index.
-/
import proofs.«119561_j24610162606296_2_alg».proof.Defs
import proofs.«119561_j24610162606296_2_alg».proof.Proof.Gen.Kernel
import proofs.«119561_j24610162606296_2_alg».proof.Proof.Gen.Kernel.Skeleton
import proofs.«119561_j24610162606296_2_alg».proof.Proof.Gen.Kernel.Launch
import proofs.«119561_j24610162606296_2_alg».proof.Proof.Gen.Kernel.Points
import proofs.«119561_j24610162606296_2_alg».proof.Proof.Gen.KernelIdeal
import proofs.«119561_j24610162606296_2_alg».proof.Proof.Gen.KernelIdeal.Skeleton
import proofs.«119561_j24610162606296_2_alg».proof.Proof.Gen.KernelIdeal.Launch
import proofs.«119561_j24610162606296_2_alg».proof.Proof.Gen.KernelIdeal.Points
import proofs.«119561_j24610162606296_2_alg».proof.Proof.Gen.ReferenceIdeal
import proofs.«119561_j24610162606296_2_alg».proof.Proof.Gen.Pre_finite_inputs
import proofs.«119561_j24610162606296_2_alg».proof.Proof.Final
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Final.frame_kernel, Final.frame_kernelIdeal, Final.frame_referenceIdeal, trivial, Final.algebraic⟩

end Cert.Proof

end
